-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)) →
    ∃ (v0 : (c : Dev Cert.KernelIdeal.nD) → Buf (Elt Ideal) ((c.tc : Thread Cert.KernelIdeal.nD Cert.KernelIdeal.τ).loc Cert.KernelIdeal.main_v52_1)) (v1 : (c : Dev Cert.KernelIdeal.nD) → Buf (Elt Ideal) ((c.tc : Thread Cert.KernelIdeal.nD Cert.KernelIdeal.τ).loc Cert.KernelIdeal.main_v27_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v52_1) = v0 c
          ∧ r.2.mem ((c.tc : Thread Cert.KernelIdeal.nD Cert.KernelIdeal.τ).loc Cert.KernelIdeal.main_v27_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v106) = v0 c
          ∧ r.2.mem ((c.tc : Thread Cert.ReferenceIdeal.nD Cert.ReferenceIdeal.τ).loc Cert.ReferenceIdeal.main_v54) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S640000x128 : Shape := ⟨2, ![640000, 128]⟩
abbrev S640000 : Shape := ⟨1, ![640000]⟩
abbrev S384x128 : Shape := ⟨2, ![384, 128]⟩
abbrev S128 : Shape := ⟨1, ![128]⟩
abbrev S128x128 : Shape := ⟨2, ![128, 128]⟩
abbrev S256x128 : Shape := ⟨2, ![256, 128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S640000x128 : S_.BroadcastsInDim S640000x128 (![] : Fin 0 → Fin S640000x128.rank)
  reducesTo_S640000x128_S_d0_1 : S640000x128.ReducesTo [0, 1] S_
  bcast_S_S384x128 : S_.BroadcastsInDim S384x128 (![] : Fin 0 → Fin S384x128.rank)
  reducesTo_S384x128_S_d0_1 : S384x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S256x128 : S_.BroadcastsInDim S256x128 (![] : Fin 0 → Fin S256x128.rank)
  reducesTo_S256x128_S_d0_1 : S256x128.ReducesTo [0, 1] S_

variable [Facts]

def fn_part5 {F : FTy → Type} [FloatOps F] (main_v83 : IVec S_ 1) (main_v84 : FVec F S128 .f32) (main_cst_32 : FVec F S_ .f32) : IVec S_ 1 :=
  let main_v85 : FVec F S128 .f32 := broadcastInDim S128 ![] bcast_S_S128 main_cst_32
  let main_v86 : IVec S128 1 := cmpf .olt main_v84 main_v85
  let main_c_33 : IVec S_ 1 := constantI S_ 1 1#1
  let main_v87 : IVec S_ 1 := (fun x v => Host.reduce IntOp.andi x v reducesTo_S128_S_d0 h_S_) main_v86 main_c_33
  let main_v88 : IVec S_ 1 := andi main_v83 main_v87
  main_v88

def fn_part4 {F : FTy → Type} [FloatOps F] (main_arg16 : FVec F S128 .f32) (main_arg17 : FVec F S128 .f32) (main_arg18 : FVec F S128 .f32) (main_arg19 : FVec F S128 .f32) (main_v63 : IVec S_ 1) (main_v67 : IVec S_ 1) : IVec S_ 1 :=
  let main_v68 : IVec S_ 1 := andi main_v63 main_v67
  let main_v69 : FVec F S128 .f32 := Host.absf main_arg16
  let main_cst_26 : FVec F S_ .f32 := constant S_ .f32 0x7F800000#32
  let main_v70 : FVec F S128 .f32 := broadcastInDim S128 ![] bcast_S_S128 main_cst_26
  let main_v71 : IVec S128 1 := cmpf .olt main_v69 main_v70
  let main_c_27 : IVec S_ 1 := constantI S_ 1 1#1
  let main_v72 : IVec S_ 1 := (fun x v => Host.reduce IntOp.andi x v reducesTo_S128_S_d0 h_S_) main_v71 main_c_27
  let main_v73 : IVec S_ 1 := andi main_v68 main_v72
  let main_v74 : FVec F S128 .f32 := Host.absf main_arg17
  let main_cst_28 : FVec F S_ .f32 := constant S_ .f32 0x7F800000#32
  let main_v75 : FVec F S128 .f32 := broadcastInDim S128 ![] bcast_S_S128 main_cst_28
  let main_v76 : IVec S128 1 := cmpf .olt main_v74 main_v75
  let main_c_29 : IVec S_ 1 := constantI S_ 1 1#1
  let main_v77 : IVec S_ 1 := (fun x v => Host.reduce IntOp.andi x v reducesTo_S128_S_d0 h_S_) main_v76 main_c_29
  let main_v78 : IVec S_ 1 := andi main_v73 main_v77
  let main_v79 : FVec F S128 .f32 := Host.absf main_arg18
  let main_cst_30 : FVec F S_ .f32 := constant S_ .f32 0x7F800000#32
  let main_v80 : FVec F S128 .f32 := broadcastInDim S128 ![] bcast_S_S128 main_cst_30
  let main_v81 : IVec S128 1 := cmpf .olt main_v79 main_v80
  let main_c_31 : IVec S_ 1 := constantI S_ 1 1#1
  let main_v82 : IVec S_ 1 := (fun x v => Host.reduce IntOp.andi x v reducesTo_S128_S_d0 h_S_) main_v81 main_c_31
  let main_v83 : IVec S_ 1 := andi main_v78 main_v82
  let main_v84 : FVec F S128 .f32 := Host.absf main_arg19
  let main_cst_32 : FVec F S_ .f32 := constant S_ .f32 0x7F800000#32
  fn_part5 (F := F) main_v83 main_v84 main_cst_32

def fn_part3 {F : FTy → Type} [FloatOps F] (main_arg13 : FVec F S128 .f32) (main_arg14 : FVec F S128x128 .f32) (main_arg15 : FVec F S128 .f32) (main_arg16 : FVec F S128 .f32) (main_arg17 : FVec F S128 .f32) (main_arg18 : FVec F S128 .f32) (main_arg19 : FVec F S128 .f32) (main_v48 : IVec S_ 1) (main_v49 : FVec F S128x128 .f32) (main_v50 : FVec F S128x128 .f32) : IVec S_ 1 :=
  let main_v51 : IVec S128x128 1 := cmpf .olt main_v49 main_v50
  let main_c_19 : IVec S_ 1 := constantI S_ 1 1#1
  let main_v52 : IVec S_ 1 := (fun x v => Host.reduce IntOp.andi x v reducesTo_S128x128_S_d0_1 h_S_) main_v51 main_c_19
  let main_v53 : IVec S_ 1 := andi main_v48 main_v52
  let main_v54 : FVec F S128 .f32 := Host.absf main_arg13
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  let main_v59 : FVec F S128x128 .f32 := Host.absf main_arg14
  let main_cst_22 : FVec F S_ .f32 := constant S_ .f32 0x7F800000#32
  let main_v60 : FVec F S128x128 .f32 := broadcastInDim S128x128 ![] bcast_S_S128x128 main_cst_22
  let main_v61 : IVec S128x128 1 := cmpf .olt main_v59 main_v60
  let main_c_23 : IVec S_ 1 := constantI S_ 1 1#1
  let main_v62 : IVec S_ 1 := (fun x v => Host.reduce IntOp.andi x v reducesTo_S128x128_S_d0_1 h_S_) main_v61 main_c_23
  let main_v63 : IVec S_ 1 := andi main_v58 main_v62
  let main_v64 : FVec F S128 .f32 := Host.absf main_arg15
  let main_cst_24 : FVec F S_ .f32 := constant S_ .f32 0x7F800000#32
  let main_v65 : FVec F S128 .f32 := broadcastInDim S128 ![] bcast_S_S128 main_cst_24
  let main_v66 : IVec S128 1 := cmpf .olt main_v64 main_v65
  let main_c_25 : IVec S_ 1 := constantI S_ 1 1#1
  let main_v67 : IVec S_ 1 := (fun x v => Host.reduce IntOp.andi x v reducesTo_S128_S_d0 h_S_) main_v66 main_c_25
  fn_part4 (F := F) main_arg16 main_arg17 main_arg18 main_arg19 main_v63 main_v67

def fn_part2 {F : FTy → Type} [FloatOps F] (main_arg9 : FVec F S128 .f32) (main_arg10 : FVec F S256x128 .f32) (main_arg11 : FVec F S128 .f32) (main_arg12 : FVec F S128x128 .f32) (main_arg13 : FVec F S128 .f32) (main_arg14 : FVec F S128x128 .f32) (main_arg15 : FVec F S128 .f32) (main_arg16 : FVec F S128 .f32) (main_arg17 : FVec F S128 .f32) (main_arg18 : FVec F S128 .f32) (main_arg19 : FVec F S128 .f32) (main_v33 : IVec S_ 1) : IVec S_ 1 :=
  let main_v34 : FVec F S128 .f32 := Host.absf main_arg9
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S256x128 .f32 := Host.absf main_arg10
  let main_cst_14 : FVec F S_ .f32 := constant S_ .f32 0x7F800000#32
  let main_v40 : FVec F S256x128 .f32 := broadcastInDim S256x128 ![] bcast_S_S256x128 main_cst_14
  let main_v41 : IVec S256x128 1 := cmpf .olt main_v39 main_v40
  let main_c_15 : IVec S_ 1 := constantI S_ 1 1#1
  let main_v42 : IVec S_ 1 := (fun x v => Host.reduce IntOp.andi x v reducesTo_S256x128_S_d0_1 h_S_) main_v41 main_c_15
  let main_v43 : IVec S_ 1 := andi main_v38 main_v42
  let main_v44 : FVec F S128 .f32 := Host.absf main_arg11
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128x128 .f32 := Host.absf main_arg12
  let main_cst_18 : FVec F S_ .f32 := constant S_ .f32 0x7F800000#32
  let main_v50 : FVec F S128x128 .f32 := broadcastInDim S128x128 ![] bcast_S_S128x128 main_cst_18
  fn_part3 (F := F) main_arg13 main_arg14 main_arg15 main_arg16 main_arg17 main_arg18 main_arg19 main_v48 main_v49 main_v50

def fn_part1 {F : FTy → Type} [FloatOps F] (main_arg6 : FVec F S128x128 .f32) (main_arg7 : FVec F S128 .f32) (main_arg8 : FVec F S128x128 .f32) (main_arg9 : FVec F S128 .f32) (main_arg10 : FVec F S256x128 .f32) (main_arg11 : FVec F S128 .f32) (main_arg12 : FVec F S128x128 .f32) (main_arg13 : FVec F S128 .f32) (main_arg14 : FVec F S128x128 .f32) (main_arg15 : FVec F S128 .f32) (main_arg16 : FVec F S128 .f32) (main_arg17 : FVec F S128 .f32) (main_arg18 : FVec F S128 .f32) (main_arg19 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg6
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg7
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg8
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg9 main_arg10 main_arg11 main_arg12 main_arg13 main_arg14 main_arg15 main_arg16 main_arg17 main_arg18 main_arg19 main_v33

def fn {F : FTy → Type} [FloatOps F] (main_arg0 : FVec F S50000x128 .f32) (main_arg1 : FVec F S640000x128 .f32) (main_arg2 : IVec S640000 32) (main_arg3 : IVec S640000 32) (main_arg4 : FVec F S384x128 .f32) (main_arg5 : FVec F S128 .f32) (main_arg6 : FVec F S128x128 .f32) (main_arg7 : FVec F S128 .f32) (main_arg8 : FVec F S128x128 .f32) (main_arg9 : FVec F S128 .f32) (main_arg10 : FVec F S256x128 .f32) (main_arg11 : FVec F S128 .f32) (main_arg12 : FVec F S128x128 .f32) (main_arg13 : FVec F S128 .f32) (main_arg14 : FVec F S128x128 .f32) (main_arg15 : FVec F S128 .f32) (main_arg16 : FVec F S128 .f32) (main_arg17 : FVec F S128 .f32) (main_arg18 : FVec F S128 .f32) (main_arg19 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S640000x128 .f32 := Host.absf main_arg1
  let main_cst_0 : FVec F S_ .f32 := constant S_ .f32 0x7F800000#32
  let main_v5 : FVec F S640000x128 .f32 := broadcastInDim S640000x128 ![] bcast_S_S640000x128 main_cst_0
  let main_v6 : IVec S640000x128 1 := cmpf .olt main_v4 main_v5
  let main_c_1 : IVec S_ 1 := constantI S_ 1 1#1
  let main_v7 : IVec S_ 1 := (fun x v => Host.reduce IntOp.andi x v reducesTo_S640000x128_S_d0_1 h_S_) main_v6 main_c_1
  let main_v8 : IVec S_ 1 := andi main_v3 main_v7
  let main_v9 : FVec F S384x128 .f32 := Host.absf main_arg4
  let main_cst_2 : FVec F S_ .f32 := constant S_ .f32 0x7F800000#32
  let main_v10 : FVec F S384x128 .f32 := broadcastInDim S384x128 ![] bcast_S_S384x128 main_cst_2
  let main_v11 : IVec S384x128 1 := cmpf .olt main_v9 main_v10
  let main_c_3 : IVec S_ 1 := constantI S_ 1 1#1
  let main_v12 : IVec S_ 1 := (fun x v => Host.reduce IntOp.andi x v reducesTo_S384x128_S_d0_1 h_S_) main_v11 main_c_3
  let main_v13 : IVec S_ 1 := andi main_v8 main_v12
  let main_v14 : FVec F S128 .f32 := Host.absf main_arg5
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg6 main_arg7 main_arg8 main_arg9 main_arg10 main_arg11 main_arg12 main_arg13 main_arg14 main_arg15 main_arg16 main_arg17 main_arg18 main_arg19 main_v13 main_v16
-- ==== Kernel.lean ====
abbrev S50000x128 : Shape := ⟨2, ![50000, 128]⟩
abbrev S640000x128 : Shape := ⟨2, ![640000, 128]⟩
abbrev S640000 : Shape := ⟨1, ![640000]⟩
abbrev S384x128 : Shape := ⟨2, ![384, 128]⟩
abbrev S128 : Shape := ⟨1, ![128]⟩
abbrev S128x128 : Shape := ⟨2, ![128, 128]⟩
abbrev S256x128 : Shape := ⟨2, ![256, 128]⟩
abbrev S_ : Shape := ⟨0, ![]⟩
abbrev S640000x1 : Shape := ⟨2, ![640000, 1]⟩
abbrev S640000x384 : Shape := ⟨2, ![640000, 384]⟩
abbrev S1x128 : Shape := ⟨2, ![1, 128]⟩
abbrev S5000x384 : Shape := ⟨2, ![5000, 384]⟩
abbrev S5000x128 : Shape := ⟨2, ![5000, 128]⟩
abbrev S50000x1 : Shape := ⟨2, ![50000, 1]⟩
abbrev S50000x256 : Shape := ⟨2, ![50000, 256]⟩
abbrev S5000x256 : Shape := ⟨2, ![5000, 256]⟩

abbrev nBuf : Space → Nat
  | .hbm => 91
  | .vmem => 48
  | .smem => 0
  | _ => 0

abbrev bufTy : (tb : Table) → Fin (tcTables nBuf tb) → BufTy
  | .hbm, ⟨0, _⟩ => ⟨S50000x128, .f32⟩
  | .hbm, ⟨1, _⟩ => ⟨S640000x128, .f32⟩
  | .hbm, ⟨2, _⟩ => ⟨S640000, .i32⟩
  | .hbm, ⟨3, _⟩ => ⟨S640000, .i32⟩
  | .hbm, ⟨4, _⟩ => ⟨S384x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S128x128, .f32⟩
  | .hbm, ⟨9, _⟩ => ⟨S128, .f32⟩
  | .hbm, ⟨10, _⟩ => ⟨S256x128, .f32⟩
  | .hbm, ⟨11, _⟩ => ⟨S128, .f32⟩
  | .hbm, ⟨12, _⟩ => ⟨S128x128, .f32⟩
  | .hbm, ⟨13, _⟩ => ⟨S128, .f32⟩
  | .hbm, ⟨14, _⟩ => ⟨S128x128, .f32⟩
  | .hbm, ⟨15, _⟩ => ⟨S128, .f32⟩
  | .hbm, ⟨16, _⟩ => ⟨S128, .f32⟩
  | .hbm, ⟨17, _⟩ => ⟨S128, .f32⟩
  | .hbm, ⟨18, _⟩ => ⟨S128, .f32⟩
  | .hbm, ⟨19, _⟩ => ⟨S128, .f32⟩
  | .hbm, ⟨20, _⟩ => ⟨S_, .i32⟩
  | .hbm, ⟨21, _⟩ => ⟨S640000, .i32⟩
  | .hbm, ⟨22, _⟩ => ⟨S640000, .i1⟩
  | .hbm, ⟨23, _⟩ => ⟨S_, .i32⟩
  | .hbm, ⟨24, _⟩ => ⟨S640000, .i32⟩
  | .hbm, ⟨25, _⟩ => ⟨S640000, .i32⟩
  | .hbm, ⟨26, _⟩ => ⟨S640000, .i32⟩
  | .hbm, ⟨27, _⟩ => ⟨S640000x1, .i32⟩
  | .hbm, ⟨28, _⟩ => ⟨S640000x128, .f32⟩
  | .hbm, ⟨29, _⟩ => ⟨S_, .i32⟩
  | .hbm, ⟨30, _⟩ => ⟨S640000, .i32⟩
  | .hbm, ⟨31, _⟩ => ⟨S640000, .i1⟩
  | .hbm, ⟨32, _⟩ => ⟨S_, .i32⟩
  | .hbm, ⟨33, _⟩ => ⟨S640000, .i32⟩
  | .hbm, ⟨34, _⟩ => ⟨S640000, .i32⟩
  | .hbm, ⟨35, _⟩ => ⟨S640000, .i32⟩
  | .hbm, ⟨36, _⟩ => ⟨S640000x1, .i32⟩
  | .hbm, ⟨37, _⟩ => ⟨S640000x128, .f32⟩
  | .hbm, ⟨38, _⟩ => ⟨S640000x384, .f32⟩
  | .hbm, ⟨39, _⟩ => ⟨S1x128, .f32⟩
  | .hbm, ⟨40, _⟩ => ⟨S1x128, .f32⟩
  | .hbm, ⟨41, _⟩ => ⟨S1x128, .f32⟩
  | .hbm, ⟨42, _⟩ => ⟨S1x128, .f32⟩
  | .hbm, ⟨43, _⟩ => ⟨S1x128, .f32⟩
  | .hbm, ⟨44, _⟩ => ⟨S640000x128, .f32⟩
  | .hbm, ⟨45, _⟩ => ⟨S1x128, .f32⟩
  | .hbm, ⟨46, _⟩ => ⟨S1x128, .f32⟩
  | .hbm, ⟨47, _⟩ => ⟨S_, .f32⟩
  | .hbm, ⟨48, _⟩ => ⟨S1x128, .f32⟩
  | .hbm, ⟨49, _⟩ => ⟨S1x128, .f32⟩
  | .hbm, ⟨50, _⟩ => ⟨S_, .f32⟩
  | .hbm, ⟨51, _⟩ => ⟨S1x128, .f32⟩
  | .hbm, ⟨52, _⟩ => ⟨S1x128, .f32⟩
  | .hbm, ⟨53, _⟩ => ⟨S1x128, .f32⟩
  | .hbm, ⟨54, _⟩ => ⟨S1x128, .f32⟩
  | .hbm, ⟨55, _⟩ => ⟨S640000x128, .f32⟩
  | .hbm, ⟨56, _⟩ => ⟨S640000x128, .f32⟩
  | .hbm, ⟨57, _⟩ => ⟨S_, .f32⟩
  | .hbm, ⟨58, _⟩ => ⟨S50000x128, .f32⟩
  | .hbm, ⟨59, _⟩ => ⟨S640000x1, .i32⟩
  | .hbm, ⟨60, _⟩ => ⟨S50000x128, .f32⟩
  | .hbm, ⟨61, _⟩ => ⟨S_, .f32⟩
  | .hbm, ⟨62, _⟩ => ⟨S640000x1, .f32⟩
  | .hbm, ⟨63, _⟩ => ⟨S_, .f32⟩
  | .hbm, ⟨64, _⟩ => ⟨S50000x1, .f32⟩
  | .hbm, ⟨65, _⟩ => ⟨S640000x1, .i32⟩
  | .hbm, ⟨66, _⟩ => ⟨S50000x1, .f32⟩
  | .hbm, ⟨67, _⟩ => ⟨S_, .f32⟩
  | .hbm, ⟨68, _⟩ => ⟨S50000x1, .f32⟩
  | .hbm, ⟨69, _⟩ => ⟨S50000x1, .f32⟩
  | .hbm, ⟨70, _⟩ => ⟨S50000x128, .f32⟩
  | .hbm, ⟨71, _⟩ => ⟨S50000x128, .f32⟩
  | .hbm, ⟨72, _⟩ => ⟨S50000x256, .f32⟩
  | .hbm, ⟨73, _⟩ => ⟨S1x128, .f32⟩
  | .hbm, ⟨74, _⟩ => ⟨S1x128, .f32⟩
  | .hbm, ⟨75, _⟩ => ⟨S1x128, .f32⟩
  | .hbm, ⟨76, _⟩ => ⟨S1x128, .f32⟩
  | .hbm, ⟨77, _⟩ => ⟨S1x128, .f32⟩
  | .hbm, ⟨78, _⟩ => ⟨S50000x128, .f32⟩
  | .hbm, ⟨79, _⟩ => ⟨S1x128, .f32⟩
  | .hbm, ⟨80, _⟩ => ⟨S1x128, .f32⟩
  | .hbm, ⟨81, _⟩ => ⟨S_, .f32⟩
  | .hbm, ⟨82, _⟩ => ⟨S1x128, .f32⟩
  | .hbm, ⟨83, _⟩ => ⟨S1x128, .f32⟩
  | .hbm, ⟨84, _⟩ => ⟨S_, .f32⟩
  | .hbm, ⟨85, _⟩ => ⟨S1x128, .f32⟩
  | .hbm, ⟨86, _⟩ => ⟨S1x128, .f32⟩
  | .hbm, ⟨87, _⟩ => ⟨S1x128, .f32⟩
  | .hbm, ⟨88, _⟩ => ⟨S1x128, .f32⟩
  | .hbm, ⟨89, _⟩ => ⟨S50000x128, .f32⟩
  | .hbm, ⟨90, _⟩ => ⟨S50000x128, .f32⟩
  | .local _ .vmem, ⟨0, _⟩ => ⟨S5000x384, .f32⟩
  | .local _ .vmem, ⟨1, _⟩ => ⟨S5000x384, .f32⟩
  | .local _ .vmem, ⟨2, _⟩ => ⟨S384x128, .f32⟩
  | .local _ .vmem, ⟨3, _⟩ => ⟨S1x128, .f32⟩
  | .local _ .vmem, ⟨4, _⟩ => ⟨S128x128, .f32⟩
  | .local _ .vmem, ⟨5, _⟩ => ⟨S1x128, .f32⟩
  | .local _ .vmem, ⟨6, _⟩ => ⟨S128x128, .f32⟩
  | .local _ .vmem, ⟨7, _⟩ => ⟨S1x128, .f32⟩
  | .local _ .vmem, ⟨8, _⟩ => ⟨S5000x128, .f32⟩
  | .local _ .vmem, ⟨9, _⟩ => ⟨S5000x128, .f32⟩
  | .local _ .vmem, ⟨10, _⟩ => ⟨S1x128, .f32⟩
  | .local _ .vmem, ⟨11, _⟩ => ⟨S1x128, .f32⟩
  | .local _ .vmem, ⟨12, _⟩ => ⟨S5000x128, .f32⟩
  | .local _ .vmem, ⟨13, _⟩ => ⟨S5000x128, .f32⟩
  | .local _ .vmem, ⟨14, _⟩ => ⟨S5000x128, .f32⟩
  | .local _ .vmem, ⟨15, _⟩ => ⟨S5000x128, .f32⟩
  | .local _ .vmem, ⟨16, _⟩ => ⟨S1x128, .f32⟩
  | .local _ .vmem, ⟨17, _⟩ => ⟨S1x128, .f32⟩
  | .local _ .vmem, ⟨18, _⟩ => ⟨S1x128, .f32⟩
  | .local _ .vmem, ⟨19, _⟩ => ⟨S1x128, .f32⟩
  | .local _ .vmem, ⟨20, _⟩ => ⟨S5000x128, .f32⟩
  | .local _ .vmem, ⟨21, _⟩ => ⟨S5000x128, .f32⟩
  | .local _ .vmem, ⟨22, _⟩ => ⟨S5000x128, .f32⟩
  | .local _ .vmem, ⟨23, _⟩ => ⟨S5000x128, .f32⟩
  | .local _ .vmem, ⟨24, _⟩ => ⟨S5000x256, .f32⟩
  | .local _ .vmem, ⟨25, _⟩ => ⟨S5000x256, .f32⟩
  | .local _ .vmem, ⟨26, _⟩ => ⟨S256x128, .f32⟩
  | .local _ .vmem, ⟨27, _⟩ => ⟨S1x128, .f32⟩
  | .local _ .vmem, ⟨28, _⟩ => ⟨S128x128, .f32⟩
  | .local _ .vmem, ⟨29, _⟩ => ⟨S1x128, .f32⟩
  | .local _ .vmem, ⟨30, _⟩ => ⟨S128x128, .f32⟩
  | .local _ .vmem, ⟨31, _⟩ => ⟨S1x128, .f32⟩
  | .local _ .vmem, ⟨32, _⟩ => ⟨S5000x128, .f32⟩
  | .local _ .vmem, ⟨33, _⟩ => ⟨S5000x128, .f32⟩
  | .local _ .vmem, ⟨34, _⟩ => ⟨S1x128, .f32⟩
  | .local _ .vmem, ⟨35, _⟩ => ⟨S1x128, .f32⟩
  | .local _ .vmem, ⟨36, _⟩ => ⟨S5000x128, .f32⟩
  | .local _ .vmem, ⟨37, _⟩ => ⟨S5000x128, .f32⟩
  | .local _ .vmem, ⟨38, _⟩ => ⟨S5000x128, .f32⟩
  | .local _ .vmem, ⟨39, _⟩ => ⟨S5000x128, .f32⟩
  | .local _ .vmem, ⟨40, _⟩ => ⟨S1x128, .f32⟩
  | .local _ .vmem, ⟨41, _⟩ => ⟨S1x128, .f32⟩
  | .local _ .vmem, ⟨42, _⟩ => ⟨S1x128, .f32⟩
  | .local _ .vmem, ⟨43, _⟩ => ⟨S1x128, .f32⟩
  | .local _ .vmem, ⟨44, _⟩ => ⟨S5000x128, .f32⟩
  | .local _ .vmem, ⟨45, _⟩ => ⟨S5000x128, .f32⟩
  | .local _ .vmem, ⟨46, _⟩ => ⟨S5000x128, .f32⟩
  | .local _ .vmem, ⟨47, _⟩ => ⟨S5000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | _, _ => false

abbrev semScoped : Fin 0 → Bool
  | ⟨_, h⟩ => absurd h (Nat.not_lt_zero _)

abbrev dmaSemScoped : Fin 48 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | _ => false

abbrev sig : RefSig :=
  ofTc nBuf bufTy 0 48 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_c : Ref sig .tc := ⟨.hbm, 20, rfl⟩
abbrev main_v0 : Ref sig .tc := ⟨.hbm, 21, rfl⟩
abbrev main_v1 : Ref sig .tc := ⟨.hbm, 22, rfl⟩
abbrev main_c_0 : Ref sig .tc := ⟨.hbm, 23, rfl⟩
abbrev main_v2 : Ref sig .tc := ⟨.hbm, 24, rfl⟩
abbrev main_v3 : Ref sig .tc := ⟨.hbm, 25, rfl⟩
abbrev main_v4 : Ref sig .tc := ⟨.hbm, 26, rfl⟩
abbrev main_v5 : Ref sig .tc := ⟨.hbm, 27, rfl⟩
abbrev main_v6 : Ref sig .tc := ⟨.hbm, 28, rfl⟩
abbrev main_c_1 : Ref sig .tc := ⟨.hbm, 29, rfl⟩
abbrev main_v7 : Ref sig .tc := ⟨.hbm, 30, rfl⟩
abbrev main_v8 : Ref sig .tc := ⟨.hbm, 31, rfl⟩
abbrev main_c_2 : Ref sig .tc := ⟨.hbm, 32, rfl⟩
abbrev main_v9 : Ref sig .tc := ⟨.hbm, 33, rfl⟩
abbrev main_v10 : Ref sig .tc := ⟨.hbm, 34, rfl⟩
abbrev main_v11 : Ref sig .tc := ⟨.hbm, 35, rfl⟩
abbrev main_v12 : Ref sig .tc := ⟨.hbm, 36, rfl⟩
abbrev main_v13 : Ref sig .tc := ⟨.hbm, 37, rfl⟩
abbrev main_v14 : Ref sig .tc := ⟨.hbm, 38, rfl⟩
abbrev main_v15 : Ref sig .tc := ⟨.hbm, 39, rfl⟩
abbrev main_v16 : Ref sig .tc := ⟨.hbm, 40, rfl⟩
abbrev main_v17 : Ref sig .tc := ⟨.hbm, 41, rfl⟩
abbrev main_v18 : Ref sig .tc := ⟨.hbm, 42, rfl⟩
abbrev main_v19 : Ref sig .tc := ⟨.hbm, 43, rfl⟩
abbrev main_v20_0 : Ref sig .tc := ⟨.hbm, 44, rfl⟩
abbrev main_v20_1 : Ref sig .tc := ⟨.hbm, 45, rfl⟩
abbrev main_v20_2 : Ref sig .tc := ⟨.hbm, 46, rfl⟩
abbrev main_cst : Ref sig .tc := ⟨.hbm, 47, rfl⟩
abbrev main_v21 : Ref sig .tc := ⟨.hbm, 48, rfl⟩
abbrev main_v22 : Ref sig .tc := ⟨.hbm, 49, rfl⟩
abbrev main_cst_3 : Ref sig .tc := ⟨.hbm, 50, rfl⟩
abbrev main_v23 : Ref sig .tc := ⟨.hbm, 51, rfl⟩
abbrev main_v24 : Ref sig .tc := ⟨.hbm, 52, rfl⟩
abbrev main_v25 : Ref sig .tc := ⟨.hbm, 53, rfl⟩
abbrev main_v26 : Ref sig .tc := ⟨.hbm, 54, rfl⟩
abbrev main_v27_0 : Ref sig .tc := ⟨.hbm, 55, rfl⟩
abbrev main_v27_1 : Ref sig .tc := ⟨.hbm, 56, rfl⟩
abbrev main_cst_4 : Ref sig .tc := ⟨.hbm, 57, rfl⟩
abbrev main_v28 : Ref sig .tc := ⟨.hbm, 58, rfl⟩
abbrev main_v29 : Ref sig .tc := ⟨.hbm, 59, rfl⟩
abbrev main_v30 : Ref sig .tc := ⟨.hbm, 60, rfl⟩
abbrev main_cst_5 : Ref sig .tc := ⟨.hbm, 61, rfl⟩
abbrev main_v31 : Ref sig .tc := ⟨.hbm, 62, rfl⟩
abbrev main_cst_6 : Ref sig .tc := ⟨.hbm, 63, rfl⟩
abbrev main_v32 : Ref sig .tc := ⟨.hbm, 64, rfl⟩
abbrev main_v33 : Ref sig .tc := ⟨.hbm, 65, rfl⟩
abbrev main_v34 : Ref sig .tc := ⟨.hbm, 66, rfl⟩
abbrev main_cst_7 : Ref sig .tc := ⟨.hbm, 67, rfl⟩
abbrev main_v35 : Ref sig .tc := ⟨.hbm, 68, rfl⟩
abbrev main_v36 : Ref sig .tc := ⟨.hbm, 69, rfl⟩
abbrev main_v37 : Ref sig .tc := ⟨.hbm, 70, rfl⟩
abbrev main_v38 : Ref sig .tc := ⟨.hbm, 71, rfl⟩
abbrev main_v39 : Ref sig .tc := ⟨.hbm, 72, rfl⟩
abbrev main_v40 : Ref sig .tc := ⟨.hbm, 73, rfl⟩
abbrev main_v41 : Ref sig .tc := ⟨.hbm, 74, rfl⟩
abbrev main_v42 : Ref sig .tc := ⟨.hbm, 75, rfl⟩
abbrev main_v43 : Ref sig .tc := ⟨.hbm, 76, rfl⟩
abbrev main_v44 : Ref sig .tc := ⟨.hbm, 77, rfl⟩
abbrev main_v45_0 : Ref sig .tc := ⟨.hbm, 78, rfl⟩
abbrev main_v45_1 : Ref sig .tc := ⟨.hbm, 79, rfl⟩
abbrev main_v45_2 : Ref sig .tc := ⟨.hbm, 80, rfl⟩
abbrev main_cst_8 : Ref sig .tc := ⟨.hbm, 81, rfl⟩
abbrev main_v46 : Ref sig .tc := ⟨.hbm, 82, rfl⟩
abbrev main_v47 : Ref sig .tc := ⟨.hbm, 83, rfl⟩
abbrev main_cst_9 : Ref sig .tc := ⟨.hbm, 84, rfl⟩
abbrev main_v48 : Ref sig .tc := ⟨.hbm, 85, rfl⟩
abbrev main_v49 : Ref sig .tc := ⟨.hbm, 86, rfl⟩
abbrev main_v50 : Ref sig .tc := ⟨.hbm, 87, rfl⟩
abbrev main_v51 : Ref sig .tc := ⟨.hbm, 88, rfl⟩
abbrev main_v52_0 : Ref sig .tc := ⟨.hbm, 89, rfl⟩
abbrev main_v52_1 : Ref sig .tc := ⟨.hbm, 90, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg9_0 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg1_1 : Ref sig .tc := ⟨.vmem, 15, rfl⟩
abbrev cc1_stg2_0 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg5_0 : Ref sig .tc := ⟨.vmem, 19, rfl⟩
abbrev cc1_stg6_0 : Ref sig .tc := ⟨.vmem, 20, rfl⟩
abbrev cc1_stg6_1 : Ref sig .tc := ⟨.vmem, 21, rfl⟩
abbrev cc1_stg7_0 : Ref sig .tc := ⟨.vmem, 22, rfl⟩
abbrev cc1_stg7_1 : Ref sig .tc := ⟨.vmem, 23, rfl⟩
abbrev cc2_stg0_0 : Ref sig .tc := ⟨.vmem, 24, rfl⟩
abbrev cc2_stg0_1 : Ref sig .tc := ⟨.vmem, 25, rfl⟩
abbrev cc2_stg1_0 : Ref sig .tc := ⟨.vmem, 26, rfl⟩
abbrev cc2_stg2_0 : Ref sig .tc := ⟨.vmem, 27, rfl⟩
abbrev cc2_stg3_0 : Ref sig .tc := ⟨.vmem, 28, rfl⟩
abbrev cc2_stg4_0 : Ref sig .tc := ⟨.vmem, 29, rfl⟩
abbrev cc2_stg5_0 : Ref sig .tc := ⟨.vmem, 30, rfl⟩
abbrev cc2_stg6_0 : Ref sig .tc := ⟨.vmem, 31, rfl⟩
abbrev cc2_stg7_0 : Ref sig .tc := ⟨.vmem, 32, rfl⟩
abbrev cc2_stg7_1 : Ref sig .tc := ⟨.vmem, 33, rfl⟩
abbrev cc2_stg8_0 : Ref sig .tc := ⟨.vmem, 34, rfl⟩
abbrev cc2_stg9_0 : Ref sig .tc := ⟨.vmem, 35, rfl⟩
abbrev cc3_stg0_0 : Ref sig .tc := ⟨.vmem, 36, rfl⟩
abbrev cc3_stg0_1 : Ref sig .tc := ⟨.vmem, 37, rfl⟩
abbrev cc3_stg1_0 : Ref sig .tc := ⟨.vmem, 38, rfl⟩
abbrev cc3_stg1_1 : Ref sig .tc := ⟨.vmem, 39, rfl⟩
abbrev cc3_stg2_0 : Ref sig .tc := ⟨.vmem, 40, rfl⟩
abbrev cc3_stg3_0 : Ref sig .tc := ⟨.vmem, 41, rfl⟩
abbrev cc3_stg4_0 : Ref sig .tc := ⟨.vmem, 42, rfl⟩
abbrev cc3_stg5_0 : Ref sig .tc := ⟨.vmem, 43, rfl⟩
abbrev cc3_stg6_0 : Ref sig .tc := ⟨.vmem, 44, rfl⟩
abbrev cc3_stg6_1 : Ref sig .tc := ⟨.vmem, 45, rfl⟩
abbrev cc3_stg7_0 : Ref sig .tc := ⟨.vmem, 46, rfl⟩
abbrev cc3_stg7_1 : Ref sig .tc := ⟨.vmem, 47, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc0_sem8_0 : DmaSem sig := 10
abbrev cc0_sem9_0 : DmaSem sig := 11
abbrev cc1_sem0_0 : DmaSem sig := 12
abbrev cc1_sem0_1 : DmaSem sig := 13
abbrev cc1_sem1_0 : DmaSem sig := 14
abbrev cc1_sem1_1 : DmaSem sig := 15
abbrev cc1_sem2_0 : DmaSem sig := 16
abbrev cc1_sem3_0 : DmaSem sig := 17
abbrev cc1_sem4_0 : DmaSem sig := 18
abbrev cc1_sem5_0 : DmaSem sig := 19
abbrev cc1_sem6_0 : DmaSem sig := 20
abbrev cc1_sem6_1 : DmaSem sig := 21
abbrev cc1_sem7_0 : DmaSem sig := 22
abbrev cc1_sem7_1 : DmaSem sig := 23
abbrev cc2_sem0_0 : DmaSem sig := 24
abbrev cc2_sem0_1 : DmaSem sig := 25
abbrev cc2_sem1_0 : DmaSem sig := 26
abbrev cc2_sem2_0 : DmaSem sig := 27
abbrev cc2_sem3_0 : DmaSem sig := 28
abbrev cc2_sem4_0 : DmaSem sig := 29
abbrev cc2_sem5_0 : DmaSem sig := 30
abbrev cc2_sem6_0 : DmaSem sig := 31
abbrev cc2_sem7_0 : DmaSem sig := 32
abbrev cc2_sem7_1 : DmaSem sig := 33
abbrev cc2_sem8_0 : DmaSem sig := 34
abbrev cc2_sem9_0 : DmaSem sig := 35
abbrev cc3_sem0_0 : DmaSem sig := 36
abbrev cc3_sem0_1 : DmaSem sig := 37
abbrev cc3_sem1_0 : DmaSem sig := 38
abbrev cc3_sem1_1 : DmaSem sig := 39
abbrev cc3_sem2_0 : DmaSem sig := 40
abbrev cc3_sem3_0 : DmaSem sig := 41
abbrev cc3_sem4_0 : DmaSem sig := 42
abbrev cc3_sem5_0 : DmaSem sig := 43
abbrev cc3_sem6_0 : DmaSem sig := 44
abbrev cc3_sem6_1 : DmaSem sig := 45
abbrev cc3_sem7_0 : DmaSem sig := 46
abbrev cc3_sem7_1 : DmaSem sig := 47

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S5000x384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S384x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S5000x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev grid1 : Pipeline.Grid := ⟨1, ![128], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S5000x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S5000x128 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_8 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_9 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S5000x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S256x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S128x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S128x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x128 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 2 → Memref sig .tc .vmem S5000x128 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

abbrev stage2_8 : Fin 1 → Memref sig .tc .vmem S1x128 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false]

abbrev stage2_9 : Fin 1 → Memref sig .tc .vmem S1x128 .f32 := fun | 0 => Memref.whole cc2_stg9_0 | ⟨_ + 1, h⟩ => absurd h (Nat.not_lt.2 (Nat.le_add_left _ _))
abbrev sem2_9 : Fin 1 → DmaSem sig := fun | 0 => cc2_sem9_0 | ⟨_ + 1, h⟩ => absurd h (Nat.not_lt.2 (Nat.le_add_left _ _))
abbrev reads2_9 : Fin grid2.rank → Bool := ![false]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_7 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S1x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S1x128 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 2 → Memref sig .tc .vmem S5000x128 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]

abbrev stage3_7 : Fin 2 → Memref sig .tc .vmem S5000x128 .f32 := fun | 0 => Memref.whole cc3_stg7_0 | 1 => Memref.whole cc3_stg7_1 | ⟨_ + 2, h⟩ => absurd h (Nat.not_lt.2 (Nat.le_add_left _ _))
abbrev sem3_7 : Fin 2 → DmaSem sig := fun | 0 => cc3_sem7_0 | 1 => cc3_sem7_1 | ⟨_ + 2, h⟩ => absurd h (Nat.not_lt.2 (Nat.le_add_left _ _))
abbrev reads3_7 : Fin grid3.rank → Bool := ![true]

class Facts₀ : Prop where
  bcast_S_S640000 : S_.BroadcastsInDim S640000 (![] : Fin 0 → Fin S640000.rank)
  bcast_S640000_S640000x1_0 : S640000.BroadcastsInDim S640000x1 (![0] : Fin 1 → Fin S640000x1.rank)
  concatenates_S640000x128_S640000x128_S640000x128_S640000x384_d1 : Shape.Concatenates [S640000x128, S640000x128, S640000x128] S640000x384 1
  shapeCasts_S128_S1x128 : S128.ShapeCasts S1x128
  inb_S1x128_S1x128_0_0 : ∀ a, (![0, 0] : Fin 2 → Nat) a + S1x128.size a ≤ S1x128.size a
  h_S1x128 : 0 < S1x128.numel
  inb_S5000x384_S5000x384_0_0 : ∀ a, (![0, 0] : Fin 2 → Nat) a + S5000x384.size a ≤ S5000x384.size a
  h_S5000x384 : 0 < S5000x384.numel
  shapeCasts_S5000x384_S5000x384 : S5000x384.ShapeCasts S5000x384
  bitsLt_bf16_f32 : FTy.bits .bf16 < FTy.bits .f32
  inb_S384x128_S384x128_0_0 : ∀ a, (![0, 0] : Fin 2 → Nat) a + S384x128.size a ≤ S384x128.size a
  h_S384x128 : 0 < S384x128.numel
  shapeCasts_S1x128_S1x128 : S1x128.ShapeCasts S1x128
  broadcasts_S1x128_S5000x128 : S1x128.Broadcasts S5000x128
  inb_S128x128_S128x128_0_0 : ∀ a, (![0, 0] : Fin 2 → Nat) a + S128x128.size a ≤ S128x128.size a
  h_S128x128 : 0 < S128x128.numel
  inb_S5000x128_S5000x128_0_0 : ∀ a, (![0, 0] : Fin 2 → Nat) a + S5000x128.size a ≤ S5000x128.size a
  h_S5000x128 : 0 < S5000x128.numel
  reduces_S5000x128_S128 : S5000x128.Reduces [0] S128
  bcast_S_S1x128 : S_.BroadcastsInDim S1x128 (![] : Fin 0 → Fin S1x128.rank)
  shapeCasts_S5000x128_S5000x128 : S5000x128.ShapeCasts S5000x128
  bcast_S_S50000x128 : S_.BroadcastsInDim S50000x128 (![] : Fin 0 → Fin S50000x128.rank)
  bcast_S_S640000x1 : S_.BroadcastsInDim S640000x1 (![] : Fin 0 → Fin S640000x1.rank)
  bcast_S_S50000x1 : S_.BroadcastsInDim S50000x1 (![] : Fin 0 → Fin S50000x1.rank)
  bcast_S50000x1_S50000x128_0_1 : S50000x1.BroadcastsInDim S50000x128 (![0, 1] : Fin 2 → Fin S50000x128.rank)
  concatenates_S50000x128_S50000x128_S50000x256_d1 : Shape.Concatenates [S50000x128, S50000x128] S50000x256 1
  inb_S5000x256_S5000x256_0_0 : ∀ a, (![0, 0] : Fin 2 → Nat) a + S5000x256.size a ≤ S5000x256.size a
  h_S5000x256 : 0 < S5000x256.numel
  shapeCasts_S5000x256_S5000x256 : S5000x256.ShapeCasts S5000x256
  inb_S256x128_S256x128_0_0 : ∀ a, (![0, 0] : Fin 2 → Nat) a + S256x128.size a ≤ S256x128.size a
  h_S256x128 : 0 < S256x128.numel
  gather_S50000x128_S640000x1_S640000x128_1_0_n_n_0_1_1128_wf : GatherDims.WF S50000x128 S640000x1 S640000x128 [1] [0] [] [0] [] 1 ![1, 128]
  dot_S5000x384_S384x128_S5000x128_1_0_0_1_n_n_wf : DotDims.WF S5000x384 S384x128 S5000x128 [1] [0] [0] [1] [] []
  dot_S5000x128_S128x128_S5000x128_1_0_0_1_n_n_wf : DotDims.WF S5000x128 S128x128 S5000x128 [1] [0] [0] [1] [] []
  scatter_S50000x128_S640000x1_S640000x128_1_0_0_1_wf : ScatterDims.WF S50000x128 S640000x1 S640000x128 [1] [0] [0] 1
  scatter_S50000x1_S640000x1_S640000x1_1_0_0_1_wf : ScatterDims.WF S50000x1 S640000x1 S640000x1 [1] [0] [0] 1
  dot_S5000x256_S256x128_S5000x128_1_0_0_1_n_n_wf : DotDims.WF S5000x256 S256x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x384.size a ≤ S640000x384.size a
  hwx0_0 : ∀ i : grid0.Coords, EltTy.bits .f32 = 32 ∨ (Rect.block (s := S640000x384) S5000x384.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S384x128.size a ≤ S384x128.size a
  hwx0_1 : ∀ i : grid0.Coords, EltTy.bits .f32 = 32 ∨ (Rect.block (s := S384x128) S384x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x128.size a ≤ S128x128.size a
  hwx0_5 : ∀ i : grid0.Coords, EltTy.bits .f32 = 32 ∨ (Rect.block (s := S128x128) S128x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S5000x128.size a ≤ S640000x128.size a
  hwx0_7 : ∀ i : grid0.Coords, EltTy.bits .f32 = 32 ∨ (Rect.block (s := S640000x128) S5000x128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x128.size a ≤ S1x128.size a
  hwx0_8 : ∀ i : grid0.Coords, EltTy.bits .f32 = 32 ∨ (Rect.block (s := S1x128) S1x128.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x128.size a ≤ S1x128.size a
  hwx0_9 : ∀ i : grid0.Coords, EltTy.bits .f32 = 32 ∨ (Rect.block (s := S1x128) S1x128.size (cc0_transform_9 i) (hinb0_9 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S640000x128.size a
  hwx1_0 : ∀ i : grid1.Coords, EltTy.bits .f32 = 32 ∨ (Rect.block (s := S640000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S640000x128.size a
  hwx1_1 : ∀ i : grid1.Coords, EltTy.bits .f32 = 32 ∨ (Rect.block (s := S640000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x128.size a ≤ S1x128.size a
  hwx1_5 : ∀ i : grid1.Coords, EltTy.bits .f32 = 32 ∨ (Rect.block (s := S1x128) S1x128.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S5000x128.size a ≤ S640000x128.size a
  hwx1_6 : ∀ i : grid1.Coords, EltTy.bits .f32 = 32 ∨ (Rect.block (s := S640000x128) S5000x128.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S5000x128.size a ≤ S640000x128.size a
  hwx1_7 : ∀ i : grid1.Coords, EltTy.bits .f32 = 32 ∨ (Rect.block (s := S640000x128) S5000x128.size (cc1_transform_7 i) (hinb1_7 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x256.size a ≤ S50000x256.size a
  hwx2_0 : ∀ i : grid2.Coords, EltTy.bits .f32 = 32 ∨ (Rect.block (s := S50000x256) S5000x256.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S256x128.size a ≤ S256x128.size a
  hwx2_1 : ∀ i : grid2.Coords, EltTy.bits .f32 = 32 ∨ (Rect.block (s := S256x128) S256x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x128.size a ≤ S128x128.size a
  hwx2_3 : ∀ i : grid2.Coords, EltTy.bits .f32 = 32 ∨ (Rect.block (s := S128x128) S128x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S128x128.size a ≤ S128x128.size a
  hwx2_5 : ∀ i : grid2.Coords, EltTy.bits .f32 = 32 ∨ (Rect.block (s := S128x128) S128x128.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x128.size a ≤ S1x128.size a
  hwx2_6 : ∀ i : grid2.Coords, EltTy.bits .f32 = 32 ∨ (Rect.block (s := S1x128) S1x128.size (cc2_transform_6 i) (hinb2_6 i)).WholeWords (EltTy.packing .f32)
  hstage2_7 : ∀ j, (stage2_7 j).IsWhole
  nbuf2_7 : grid2.bufCount reads2_7 false = 2
  hreads2_7 : ∀ i i' : grid2.Coords, (∀ a, reads2_7 a = true → i a = i' a) → cc2_transform_7 i = cc2_transform_7 i'
  hinb2_7 : ∀ (i : grid2.Coords) a, (cc2_transform_7 i a + 1) * S5000x128.size a ≤ S50000x128.size a
  hwx2_7 : ∀ i : grid2.Coords, EltTy.bits .f32 = 32 ∨ (Rect.block (s := S50000x128) S5000x128.size (cc2_transform_7 i) (hinb2_7 i)).WholeWords (EltTy.packing .f32)
  hstage2_8 : ∀ j, (stage2_8 j).IsWhole
  nbuf2_8 : grid2.bufCount reads2_8 true = 1
  hreads2_8 : ∀ i i' : grid2.Coords, (∀ a, reads2_8 a = true → i a = i' a) → cc2_transform_8 i = cc2_transform_8 i'
  hinb2_8 : ∀ (i : grid2.Coords) a, (cc2_transform_8 i a + 1) * S1x128.size a ≤ S1x128.size a
  hwx2_8 : ∀ i : grid2.Coords, EltTy.bits .f32 = 32 ∨ (Rect.block (s := S1x128) S1x128.size (cc2_transform_8 i) (hinb2_8 i)).WholeWords (EltTy.packing .f32)
  hstage2_9 : ∀ j, (stage2_9 j).IsWhole
  nbuf2_9 : grid2.bufCount reads2_9 true = 1
  hreads2_9 : ∀ i i' : grid2.Coords, (∀ a, reads2_9 a = true → i a = i' a) → cc2_transform_9 i = cc2_transform_9 i'
  hinb2_9 : ∀ (i : grid2.Coords) a, (cc2_transform_9 i a + 1) * S1x128.size a ≤ S1x128.size a
  hwx2_9 : ∀ i : grid2.Coords, EltTy.bits .f32 = 32 ∨ (Rect.block (s := S1x128) S1x128.size (cc2_transform_9 i) (hinb2_9 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S50000x128.size a
  hwx3_0 : ∀ i : grid3.Coords, EltTy.bits .f32 = 32 ∨ (Rect.block (s := S50000x128) S5000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x128.size a ≤ S50000x128.size a
  hwx3_1 : ∀ i : grid3.Coords, EltTy.bits .f32 = 32 ∨ (Rect.block (s := S50000x128) S5000x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x128.size a ≤ S1x128.size a
  hwx3_2 : ∀ i : grid3.Coords, EltTy.bits .f32 = 32 ∨ (Rect.block (s := S1x128) S1x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x128.size a ≤ S1x128.size a
  hwx3_3 : ∀ i : grid3.Coords, EltTy.bits .f32 = 32 ∨ (Rect.block (s := S1x128) S1x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x128.size a ≤ S1x128.size a
  hwx3_4 : ∀ i : grid3.Coords, EltTy.bits .f32 = 32 ∨ (Rect.block (s := S1x128) S1x128.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S1x128.size a ≤ S1x128.size a
  hwx3_5 : ∀ i : grid3.Coords, EltTy.bits .f32 = 32 ∨ (Rect.block (s := S1x128) S1x128.size (cc3_transform_5 i) (hinb3_5 i)).WholeWords (EltTy.packing .f32)
  hstage3_6 : ∀ j, (stage3_6 j).IsWhole
  nbuf3_6 : grid3.bufCount reads3_6 false = 2
  hreads3_6 : ∀ i i' : grid3.Coords, (∀ a, reads3_6 a = true → i a = i' a) → cc3_transform_6 i = cc3_transform_6 i'
  hinb3_6 : ∀ (i : grid3.Coords) a, (cc3_transform_6 i a + 1) * S5000x128.size a ≤ S50000x128.size a
  hwx3_6 : ∀ i : grid3.Coords, EltTy.bits .f32 = 32 ∨ (Rect.block (s := S50000x128) S5000x128.size (cc3_transform_6 i) (hinb3_6 i)).WholeWords (EltTy.packing .f32)
  hstage3_7 : ∀ j, (stage3_7 j).IsWhole
  nbuf3_7 : grid3.bufCount reads3_7 false = 2
  hreads3_7 : ∀ i i' : grid3.Coords, (∀ a, reads3_7 a = true → i a = i' a) → cc3_transform_7 i = cc3_transform_7 i'
  hinb3_7 : ∀ (i : grid3.Coords) a, (cc3_transform_7 i a + 1) * S5000x128.size a ≤ S50000x128.size a
  hwx3_7 : ∀ i : grid3.Coords, EltTy.bits .f32 = 32 ∨ (Rect.block (s := S50000x128) S5000x128.size (cc3_transform_7 i) (hinb3_7 i)).WholeWords (EltTy.packing .f32)

variable [Facts₀]

def gather_S50000x128_S640000x1_S640000x128_1_0_n_n_0_1_1128 : GatherDims S50000x128 S640000x1 S640000x128 where
  offsetDims := [1]
  collapsedSliceDims := [0]
  operandBatchingDims := []
  startIndicesBatchingDims := []
  startIndexMap := [0]
  indexVectorDim := 1
  sliceSizes := ![1, 128]
  wf := gather_S50000x128_S640000x1_S640000x128_1_0_n_n_0_1_1128_wf
def dot_S5000x384_S384x128_S5000x128_1_0_0_1_n_n : DotDims S5000x384 S384x128 S5000x128 where
  lhsContracting := [1]
  rhsContracting := [0]
  lhsNonContracting := [0]
  rhsNonContracting := [1]
  lhsBatch := []
  rhsBatch := []
  wf := dot_S5000x384_S384x128_S5000x128_1_0_0_1_n_n_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def scatter_S50000x128_S640000x1_S640000x128_1_0_0_1 : ScatterDims S50000x128 S640000x1 S640000x128 where
  updateWindowDims := [1]
  insertedWindowDims := [0]
  scatterDimsToOperandDims := [0]
  indexVectorDim := 1
  wf := scatter_S50000x128_S640000x1_S640000x128_1_0_0_1_wf
def scatter_S50000x1_S640000x1_S640000x1_1_0_0_1 : ScatterDims S50000x1 S640000x1 S640000x1 where
  updateWindowDims := [1]
  insertedWindowDims := [0]
  scatterDimsToOperandDims := [0]
  indexVectorDim := 1
  wf := scatter_S50000x1_S640000x1_S640000x1_1_0_0_1_wf
def dot_S5000x256_S256x128_S5000x128_1_0_0_1_n_n : DotDims S5000x256 S256x128 S5000x128 where
  lhsContracting := [1]
  rhsContracting := [0]
  lhsNonContracting := [0]
  rhsNonContracting := [1]
  lhsBatch := []
  rhsBatch := []
  wf := dot_S5000x256_S256x128_S5000x128_1_0_0_1_n_n_wf

abbrev win0_0 : Pipeline.Window sig grid0 :=
  Pipeline.Window.ofSpec (Memref.whole main_v14) S5000x384.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S384x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v15) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg6) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v16) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg8) S128x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v17) S1x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v20_0) S5000x128.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_v20_1) S1x128.size cc0_transform_8 reads0_8 true true 1 stage0_8 sem0_8
    hrank0 hreads0_8 hinb0_8 nbuf0_8 (Memref.isWhole_whole _) hwx0_8 hstage0_8

abbrev win0_9 : Pipeline.Window sig grid0 :=
  Pipeline.Window.ofSpec (Memref.whole main_v20_2) S1x128.size cc0_transform_9 reads0_9 true true 1 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

abbrev win1_0 : Pipeline.Window sig grid1 :=
  Pipeline.Window.ofSpec (Memref.whole main_v20_0) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg1) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v22) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v26) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v18) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v19) S1x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v27_0) S5000x128.size cc1_transform_6 reads1_6 true false 2 stage1_6 sem1_6
    hrank1 hreads1_6 hinb1_6 nbuf1_6 (Memref.isWhole_whole _) hwx1_6 hstage1_6

abbrev win1_7 : Pipeline.Window sig grid1 :=
  Pipeline.Window.ofSpec (Memref.whole main_v27_1) S5000x128.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

abbrev win2_0 : Pipeline.Window sig grid2 :=
  Pipeline.Window.ofSpec (Memref.whole main_v39) S5000x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg10) S256x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v40) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg12) S128x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v41) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_arg14) S128x128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v42) S1x128.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v45_0) S5000x128.size cc2_transform_7 reads2_7 true false 2 stage2_7 sem2_7
    hrank2 hreads2_7 hinb2_7 nbuf2_7 (Memref.isWhole_whole _) hwx2_7 hstage2_7

abbrev win2_8 : Pipeline.Window sig grid2 :=
  Pipeline.Window.ofSpec (Memref.whole main_v45_1) S1x128.size cc2_transform_8 reads2_8 true true 1 stage2_8 sem2_8
    hrank2 hreads2_8 hinb2_8 nbuf2_8 (Memref.isWhole_whole _) hwx2_8 hstage2_8

abbrev win2_9 : Pipeline.Window sig grid2 :=
  Pipeline.Window.ofSpec (Memref.whole main_v45_2) S1x128.size cc2_transform_9 reads2_9 true true 1 stage2_9 sem2_9
    hrank2 hreads2_9 hinb2_9 nbuf2_9 (Memref.isWhole_whole _) hwx2_9 hstage2_9

abbrev win2 : Fin 10 → Pipeline.Window sig grid2 := fun | 0 => win2_0 | 1 => win2_1 | 2 => win2_2 | 3 => win2_3 | 4 => win2_4 | 5 => win2_5 | 6 => win2_6 | 7 => win2_7 | 8 => win2_8 | 9 => win2_9 | ⟨_ + 10, h⟩ => absurd h (Nat.not_lt.2 (Nat.le_add_left _ _))
abbrev spec2 : Fin 10 → Pipeline.WinSpec sig grid2.rank := fun w => (win2 w).toWinSpec

abbrev win3_0 : Pipeline.Window sig grid3 :=
  Pipeline.Window.ofSpec (Memref.whole main_v45_0) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg0) S5000x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v47) S1x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v51) S1x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v43) S1x128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v44) S1x128.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v52_0) S5000x128.size cc3_transform_6 reads3_6 true false 2 stage3_6 sem3_6
    hrank3 hreads3_6 hinb3_6 nbuf3_6 (Memref.isWhole_whole _) hwx3_6 hstage3_6

abbrev win3_7 : Pipeline.Window sig grid3 :=
  Pipeline.Window.ofSpec (Memref.whole main_v52_1) S5000x128.size cc3_transform_7 reads3_7 true false 2 stage3_7 sem3_7
    hrank3 hreads3_7 hinb3_7 nbuf3_7 (Memref.isWhole_whole _) hwx3_7 hstage3_7

abbrev win3 : Fin 8 → Pipeline.Window sig grid3 := fun | 0 => win3_0 | 1 => win3_1 | 2 => win3_2 | 3 => win3_3 | 4 => win3_4 | 5 => win3_5 | 6 => win3_6 | 7 => win3_7 | ⟨_ + 8, h⟩ => absurd h (Nat.not_lt.2 (Nat.le_add_left _ _))
abbrev spec3 : Fin 8 → Pipeline.WinSpec sig grid3.rank := fun w => (win3 w).toWinSpec

class Facts : Prop extends Facts₀ where

variable [Facts]
-- ==== ReferenceIdeal.lean ====
abbrev S50000x128 : Shape := ⟨2, ![50000, 128]⟩
abbrev S640000x128 : Shape := ⟨2, ![640000, 128]⟩
abbrev S640000 : Shape := ⟨1, ![640000]⟩
abbrev S384x128 : Shape := ⟨2, ![384, 128]⟩
abbrev S128 : Shape := ⟨1, ![128]⟩
abbrev S128x128 : Shape := ⟨2, ![128, 128]⟩
abbrev S256x128 : Shape := ⟨2, ![256, 128]⟩
abbrev S_ : Shape := ⟨0, ![]⟩
abbrev S640000x1 : Shape := ⟨2, ![640000, 1]⟩
abbrev S640000x384 : Shape := ⟨2, ![640000, 384]⟩
abbrev S1x128 : Shape := ⟨2, ![1, 128]⟩
abbrev S50000x1 : Shape := ⟨2, ![50000, 1]⟩
abbrev S50000x256 : Shape := ⟨2, ![50000, 256]⟩

abbrev nBuf : Space → Nat
  | .hbm => 173
  | .vmem => 0
  | .smem => 0
  | _ => 0

abbrev hbmTy0_0 (i : Nat) : BufTy := match i % 128 with
  | 0 => ⟨S50000x128, .f32⟩
  | 1 => ⟨S640000x128, .f32⟩
  | 2 => ⟨S640000, .i32⟩
  | 3 => ⟨S640000, .i32⟩
  | 4 => ⟨S384x128, .f32⟩
  | 5 => ⟨S128, .f32⟩
  | 6 => ⟨S128x128, .f32⟩
  | 7 => ⟨S128, .f32⟩
  | 8 => ⟨S128x128, .f32⟩
  | 9 => ⟨S128, .f32⟩
  | 10 => ⟨S256x128, .f32⟩
  | 11 => ⟨S128, .f32⟩
  | 12 => ⟨S128x128, .f32⟩
  | 13 => ⟨S128, .f32⟩
  | 14 => ⟨S128x128, .f32⟩
  | 15 => ⟨S128, .f32⟩
  | 16 => ⟨S128, .f32⟩
  | 17 => ⟨S128, .f32⟩
  | 18 => ⟨S128, .f32⟩
  | 19 => ⟨S128, .f32⟩
  | 20 => ⟨S_, .i32⟩
  | 21 => ⟨S640000, .i32⟩
  | 22 => ⟨S640000, .i1⟩
  | 23 => ⟨S_, .i32⟩
  | 24 => ⟨S640000, .i32⟩
  | 25 => ⟨S640000, .i32⟩
  | 26 => ⟨S640000, .i32⟩
  | 27 => ⟨S640000x1, .i32⟩
  | 28 => ⟨S640000x128, .f32⟩
  | 29 => ⟨S_, .i32⟩
  | 30 => ⟨S640000, .i32⟩
  | 31 => ⟨S640000, .i1⟩
  | 32 => ⟨S_, .i32⟩
  | 33 => ⟨S640000, .i32⟩
  | 34 => ⟨S640000, .i32⟩
  | 35 => ⟨S640000, .i32⟩
  | 36 => ⟨S640000x1, .i32⟩
  | 37 => ⟨S640000x128, .f32⟩
  | 38 => ⟨S640000x384, .f32⟩
  | 39 => ⟨S640000x128, .f32⟩
  | 40 => ⟨S1x128, .f32⟩
  | 41 => ⟨S640000x128, .f32⟩
  | 42 => ⟨S640000x128, .f32⟩
  | 43 => ⟨S_, .f32⟩
  | 44 => ⟨S_, .f32⟩
  | 45 => ⟨S640000x128, .f32⟩
  | 46 => ⟨S640000x128, .i1⟩
  | 47 => ⟨S_, .f32⟩
  | 48 => ⟨S640000x128, .f32⟩
  | 49 => ⟨S640000x128, .f32⟩
  | 50 => ⟨S640000x128, .f32⟩
  | 51 => ⟨S640000x128, .f32⟩
  | 52 => ⟨S1x128, .f32⟩
  | 53 => ⟨S640000x128, .f32⟩
  | 54 => ⟨S640000x128, .f32⟩
  | 55 => ⟨S_, .f32⟩
  | 56 => ⟨S_, .f32⟩
  | 57 => ⟨S640000x128, .f32⟩
  | 58 => ⟨S640000x128, .i1⟩
  | 59 => ⟨S_, .f32⟩
  | 60 => ⟨S640000x128, .f32⟩
  | 61 => ⟨S640000x128, .f32⟩
  | 62 => ⟨S640000x128, .f32⟩
  | 63 => ⟨S640000x128, .f32⟩
  | 64 => ⟨S1x128, .f32⟩
  | 65 => ⟨S640000x128, .f32⟩
  | 66 => ⟨S640000x128, .f32⟩
  | 67 => ⟨S_, .f32⟩
  | 68 => ⟨S128, .f32⟩
  | 69 => ⟨S_, .f32⟩
  | 70 => ⟨S128, .f32⟩
  | 71 => ⟨S128, .f32⟩
  | 72 => ⟨S1x128, .f32⟩
  | 73 => ⟨S640000x128, .f32⟩
  | 74 => ⟨S640000x128, .f32⟩
  | 75 => ⟨S640000x128, .f32⟩
  | 76 => ⟨S_, .f32⟩
  | 77 => ⟨S128, .f32⟩
  | 78 => ⟨S_, .f32⟩
  | 79 => ⟨S128, .f32⟩
  | 80 => ⟨S128, .f32⟩
  | 81 => ⟨S1x128, .f32⟩
  | 82 => ⟨S640000x128, .f32⟩
  | 83 => ⟨S640000x128, .f32⟩
  | 84 => ⟨S_, .f32⟩
  | 85 => ⟨S128, .f32⟩
  | 86 => ⟨S128, .f32⟩
  | 87 => ⟨S128, .f32⟩
  | 88 => ⟨S1x128, .f32⟩
  | 89 => ⟨S640000x128, .f32⟩
  | 90 => ⟨S640000x128, .f32⟩
  | 91 => ⟨S1x128, .f32⟩
  | 92 => ⟨S640000x128, .f32⟩
  | 93 => ⟨S640000x128, .f32⟩
  | 94 => ⟨S1x128, .f32⟩
  | 95 => ⟨S640000x128, .f32⟩
  | 96 => ⟨S640000x128, .f32⟩
  | 97 => ⟨S640000x128, .f32⟩
  | 98 => ⟨S_, .f32⟩
  | 99 => ⟨S50000x128, .f32⟩
  | 100 => ⟨S640000x1, .i32⟩
  | 101 => ⟨S50000x128, .f32⟩
  | 102 => ⟨S_, .f32⟩
  | 103 => ⟨S640000x1, .f32⟩
  | 104 => ⟨S_, .f32⟩
  | 105 => ⟨S50000x1, .f32⟩
  | 106 => ⟨S640000x1, .i32⟩
  | 107 => ⟨S50000x1, .f32⟩
  | 108 => ⟨S_, .f32⟩
  | 109 => ⟨S50000x1, .f32⟩
  | 110 => ⟨S50000x1, .f32⟩
  | 111 => ⟨S50000x128, .f32⟩
  | 112 => ⟨S50000x128, .f32⟩
  | 113 => ⟨S50000x256, .f32⟩
  | 114 => ⟨S50000x128, .f32⟩
  | 115 => ⟨S1x128, .f32⟩
  | 116 => ⟨S50000x128, .f32⟩
  | 117 => ⟨S50000x128, .f32⟩
  | 118 => ⟨S_, .f32⟩
  | 119 => ⟨S_, .f32⟩
  | 120 => ⟨S50000x128, .f32⟩
  | 121 => ⟨S50000x128, .i1⟩
  | 122 => ⟨S_, .f32⟩
  | 123 => ⟨S50000x128, .f32⟩
  | 124 => ⟨S50000x128, .f32⟩
  | 125 => ⟨S50000x128, .f32⟩
  | 126 => ⟨S50000x128, .f32⟩
  | 127 => ⟨S1x128, .f32⟩
  | _ => ⟨S50000x128, .f32⟩

abbrev hbmTy0_1 (i : Nat) : BufTy := match i % 128 with
  | 0 => ⟨S50000x128, .f32⟩
  | 1 => ⟨S50000x128, .f32⟩
  | 2 => ⟨S_, .f32⟩
  | 3 => ⟨S_, .f32⟩
  | 4 => ⟨S50000x128, .f32⟩
  | 5 => ⟨S50000x128, .i1⟩
  | 6 => ⟨S_, .f32⟩
  | 7 => ⟨S50000x128, .f32⟩
  | 8 => ⟨S50000x128, .f32⟩
  | 9 => ⟨S50000x128, .f32⟩
  | 10 => ⟨S50000x128, .f32⟩
  | 11 => ⟨S1x128, .f32⟩
  | 12 => ⟨S50000x128, .f32⟩
  | 13 => ⟨S50000x128, .f32⟩
  | 14 => ⟨S_, .f32⟩
  | 15 => ⟨S128, .f32⟩
  | 16 => ⟨S_, .f32⟩
  | 17 => ⟨S128, .f32⟩
  | 18 => ⟨S128, .f32⟩
  | 19 => ⟨S1x128, .f32⟩
  | 20 => ⟨S50000x128, .f32⟩
  | 21 => ⟨S50000x128, .f32⟩
  | 22 => ⟨S50000x128, .f32⟩
  | 23 => ⟨S_, .f32⟩
  | 24 => ⟨S128, .f32⟩
  | 25 => ⟨S_, .f32⟩
  | 26 => ⟨S128, .f32⟩
  | 27 => ⟨S128, .f32⟩
  | 28 => ⟨S1x128, .f32⟩
  | 29 => ⟨S50000x128, .f32⟩
  | 30 => ⟨S50000x128, .f32⟩
  | 31 => ⟨S_, .f32⟩
  | 32 => ⟨S128, .f32⟩
  | 33 => ⟨S128, .f32⟩
  | 34 => ⟨S128, .f32⟩
  | 35 => ⟨S1x128, .f32⟩
  | 36 => ⟨S50000x128, .f32⟩
  | 37 => ⟨S50000x128, .f32⟩
  | 38 => ⟨S1x128, .f32⟩
  | 39 => ⟨S50000x128, .f32⟩
  | 40 => ⟨S50000x128, .f32⟩
  | 41 => ⟨S1x128, .f32⟩
  | 42 => ⟨S50000x128, .f32⟩
  | 43 => ⟨S50000x128, .f32⟩
  | 44 => ⟨S50000x128, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_c : Ref sig .tc := ⟨.hbm, 20, rfl⟩
abbrev main_v0 : Ref sig .tc := ⟨.hbm, 21, rfl⟩
abbrev main_v1 : Ref sig .tc := ⟨.hbm, 22, rfl⟩
abbrev main_c_0 : Ref sig .tc := ⟨.hbm, 23, rfl⟩
abbrev main_v2 : Ref sig .tc := ⟨.hbm, 24, rfl⟩
abbrev main_v3 : Ref sig .tc := ⟨.hbm, 25, rfl⟩
abbrev main_v4 : Ref sig .tc := ⟨.hbm, 26, rfl⟩
abbrev main_v5 : Ref sig .tc := ⟨.hbm, 27, rfl⟩
abbrev main_v6 : Ref sig .tc := ⟨.hbm, 28, rfl⟩
abbrev main_c_1 : Ref sig .tc := ⟨.hbm, 29, rfl⟩
abbrev main_v7 : Ref sig .tc := ⟨.hbm, 30, rfl⟩
abbrev main_v8 : Ref sig .tc := ⟨.hbm, 31, rfl⟩
abbrev main_c_2 : Ref sig .tc := ⟨.hbm, 32, rfl⟩
abbrev main_v9 : Ref sig .tc := ⟨.hbm, 33, rfl⟩
abbrev main_v10 : Ref sig .tc := ⟨.hbm, 34, rfl⟩
abbrev main_v11 : Ref sig .tc := ⟨.hbm, 35, rfl⟩
abbrev main_v12 : Ref sig .tc := ⟨.hbm, 36, rfl⟩
abbrev main_v13 : Ref sig .tc := ⟨.hbm, 37, rfl⟩
abbrev main_v14 : Ref sig .tc := ⟨.hbm, 38, rfl⟩
abbrev main_v15 : Ref sig .tc := ⟨.hbm, 39, rfl⟩
abbrev main_v16 : Ref sig .tc := ⟨.hbm, 40, rfl⟩
abbrev main_v17 : Ref sig .tc := ⟨.hbm, 41, rfl⟩
abbrev main_v18 : Ref sig .tc := ⟨.hbm, 42, rfl⟩
abbrev main_cst : Ref sig .tc := ⟨.hbm, 43, rfl⟩
abbrev main_call0_cst : Ref sig .tc := ⟨.hbm, 44, rfl⟩
abbrev main_call0_v0 : Ref sig .tc := ⟨.hbm, 45, rfl⟩
abbrev main_call0_v1 : Ref sig .tc := ⟨.hbm, 46, rfl⟩
abbrev main_call0_v2 : Ref sig .tc := ⟨.hbm, 47, rfl⟩
abbrev main_call0_v3 : Ref sig .tc := ⟨.hbm, 48, rfl⟩
abbrev main_call0_v4 : Ref sig .tc := ⟨.hbm, 49, rfl⟩
abbrev main_v19 : Ref sig .tc := ⟨.hbm, 50, rfl⟩
abbrev main_v20 : Ref sig .tc := ⟨.hbm, 51, rfl⟩
abbrev main_v21 : Ref sig .tc := ⟨.hbm, 52, rfl⟩
abbrev main_v22 : Ref sig .tc := ⟨.hbm, 53, rfl⟩
abbrev main_v23 : Ref sig .tc := ⟨.hbm, 54, rfl⟩
abbrev main_cst_3 : Ref sig .tc := ⟨.hbm, 55, rfl⟩
abbrev main_call1_cst : Ref sig .tc := ⟨.hbm, 56, rfl⟩
abbrev main_call1_v0 : Ref sig .tc := ⟨.hbm, 57, rfl⟩
abbrev main_call1_v1 : Ref sig .tc := ⟨.hbm, 58, rfl⟩
abbrev main_call1_v2 : Ref sig .tc := ⟨.hbm, 59, rfl⟩
abbrev main_call1_v3 : Ref sig .tc := ⟨.hbm, 60, rfl⟩
abbrev main_call1_v4 : Ref sig .tc := ⟨.hbm, 61, rfl⟩
abbrev main_v24 : Ref sig .tc := ⟨.hbm, 62, rfl⟩
abbrev main_v25 : Ref sig .tc := ⟨.hbm, 63, rfl⟩
abbrev main_v26 : Ref sig .tc := ⟨.hbm, 64, rfl⟩
abbrev main_v27 : Ref sig .tc := ⟨.hbm, 65, rfl⟩
abbrev main_v28 : Ref sig .tc := ⟨.hbm, 66, rfl⟩
abbrev main_cst_4 : Ref sig .tc := ⟨.hbm, 67, rfl⟩
abbrev main_v29 : Ref sig .tc := ⟨.hbm, 68, rfl⟩
abbrev main_cst_5 : Ref sig .tc := ⟨.hbm, 69, rfl⟩
abbrev main_v30 : Ref sig .tc := ⟨.hbm, 70, rfl⟩
abbrev main_v31 : Ref sig .tc := ⟨.hbm, 71, rfl⟩
abbrev main_v32 : Ref sig .tc := ⟨.hbm, 72, rfl⟩
abbrev main_v33 : Ref sig .tc := ⟨.hbm, 73, rfl⟩
abbrev main_v34 : Ref sig .tc := ⟨.hbm, 74, rfl⟩
abbrev main_v35 : Ref sig .tc := ⟨.hbm, 75, rfl⟩
abbrev main_cst_6 : Ref sig .tc := ⟨.hbm, 76, rfl⟩
abbrev main_v36 : Ref sig .tc := ⟨.hbm, 77, rfl⟩
abbrev main_cst_7 : Ref sig .tc := ⟨.hbm, 78, rfl⟩
abbrev main_v37 : Ref sig .tc := ⟨.hbm, 79, rfl⟩
abbrev main_v38 : Ref sig .tc := ⟨.hbm, 80, rfl⟩
abbrev main_v39 : Ref sig .tc := ⟨.hbm, 81, rfl⟩
abbrev main_v40 : Ref sig .tc := ⟨.hbm, 82, rfl⟩
abbrev main_v41 : Ref sig .tc := ⟨.hbm, 83, rfl⟩
abbrev main_cst_8 : Ref sig .tc := ⟨.hbm, 84, rfl⟩
abbrev main_v42 : Ref sig .tc := ⟨.hbm, 85, rfl⟩
abbrev main_v43 : Ref sig .tc := ⟨.hbm, 86, rfl⟩
abbrev main_v44 : Ref sig .tc := ⟨.hbm, 87, rfl⟩
abbrev main_v45 : Ref sig .tc := ⟨.hbm, 88, rfl⟩
abbrev main_v46 : Ref sig .tc := ⟨.hbm, 89, rfl⟩
abbrev main_v47 : Ref sig .tc := ⟨.hbm, 90, rfl⟩
abbrev main_v48 : Ref sig .tc := ⟨.hbm, 91, rfl⟩
abbrev main_v49 : Ref sig .tc := ⟨.hbm, 92, rfl⟩
abbrev main_v50 : Ref sig .tc := ⟨.hbm, 93, rfl⟩
abbrev main_v51 : Ref sig .tc := ⟨.hbm, 94, rfl⟩
abbrev main_v52 : Ref sig .tc := ⟨.hbm, 95, rfl⟩
abbrev main_v53 : Ref sig .tc := ⟨.hbm, 96, rfl⟩
abbrev main_v54 : Ref sig .tc := ⟨.hbm, 97, rfl⟩
abbrev main_cst_9 : Ref sig .tc := ⟨.hbm, 98, rfl⟩
abbrev main_v55 : Ref sig .tc := ⟨.hbm, 99, rfl⟩
abbrev main_v56 : Ref sig .tc := ⟨.hbm, 100, rfl⟩
abbrev main_v57 : Ref sig .tc := ⟨.hbm, 101, rfl⟩
abbrev main_cst_10 : Ref sig .tc := ⟨.hbm, 102, rfl⟩
abbrev main_v58 : Ref sig .tc := ⟨.hbm, 103, rfl⟩
abbrev main_cst_11 : Ref sig .tc := ⟨.hbm, 104, rfl⟩
abbrev main_v59 : Ref sig .tc := ⟨.hbm, 105, rfl⟩
abbrev main_v60 : Ref sig .tc := ⟨.hbm, 106, rfl⟩
abbrev main_v61 : Ref sig .tc := ⟨.hbm, 107, rfl⟩
abbrev main_cst_12 : Ref sig .tc := ⟨.hbm, 108, rfl⟩
abbrev main_v62 : Ref sig .tc := ⟨.hbm, 109, rfl⟩
abbrev main_v63 : Ref sig .tc := ⟨.hbm, 110, rfl⟩
abbrev main_v64 : Ref sig .tc := ⟨.hbm, 111, rfl⟩
abbrev main_v65 : Ref sig .tc := ⟨.hbm, 112, rfl⟩
abbrev main_v66 : Ref sig .tc := ⟨.hbm, 113, rfl⟩
abbrev main_v67 : Ref sig .tc := ⟨.hbm, 114, rfl⟩
abbrev main_v68 : Ref sig .tc := ⟨.hbm, 115, rfl⟩
abbrev main_v69 : Ref sig .tc := ⟨.hbm, 116, rfl⟩
abbrev main_v70 : Ref sig .tc := ⟨.hbm, 117, rfl⟩
abbrev main_cst_13 : Ref sig .tc := ⟨.hbm, 118, rfl⟩
abbrev main_call2_cst : Ref sig .tc := ⟨.hbm, 119, rfl⟩
abbrev main_call2_v0 : Ref sig .tc := ⟨.hbm, 120, rfl⟩
abbrev main_call2_v1 : Ref sig .tc := ⟨.hbm, 121, rfl⟩
abbrev main_call2_v2 : Ref sig .tc := ⟨.hbm, 122, rfl⟩
abbrev main_call2_v3 : Ref sig .tc := ⟨.hbm, 123, rfl⟩
abbrev main_call2_v4 : Ref sig .tc := ⟨.hbm, 124, rfl⟩
abbrev main_v71 : Ref sig .tc := ⟨.hbm, 125, rfl⟩
abbrev main_v72 : Ref sig .tc := ⟨.hbm, 126, rfl⟩
abbrev main_v73 : Ref sig .tc := ⟨.hbm, 127, rfl⟩
abbrev main_v74 : Ref sig .tc := ⟨.hbm, 128, rfl⟩
abbrev main_v75 : Ref sig .tc := ⟨.hbm, 129, rfl⟩
abbrev main_cst_14 : Ref sig .tc := ⟨.hbm, 130, rfl⟩
abbrev main_call3_cst : Ref sig .tc := ⟨.hbm, 131, rfl⟩
abbrev main_call3_v0 : Ref sig .tc := ⟨.hbm, 132, rfl⟩
abbrev main_call3_v1 : Ref sig .tc := ⟨.hbm, 133, rfl⟩
abbrev main_call3_v2 : Ref sig .tc := ⟨.hbm, 134, rfl⟩
abbrev main_call3_v3 : Ref sig .tc := ⟨.hbm, 135, rfl⟩
abbrev main_call3_v4 : Ref sig .tc := ⟨.hbm, 136, rfl⟩
abbrev main_v76 : Ref sig .tc := ⟨.hbm, 137, rfl⟩
abbrev main_v77 : Ref sig .tc := ⟨.hbm, 138, rfl⟩
abbrev main_v78 : Ref sig .tc := ⟨.hbm, 139, rfl⟩
abbrev main_v79 : Ref sig .tc := ⟨.hbm, 140, rfl⟩
abbrev main_v80 : Ref sig .tc := ⟨.hbm, 141, rfl⟩
abbrev main_cst_15 : Ref sig .tc := ⟨.hbm, 142, rfl⟩
abbrev main_v81 : Ref sig .tc := ⟨.hbm, 143, rfl⟩
abbrev main_cst_16 : Ref sig .tc := ⟨.hbm, 144, rfl⟩
abbrev main_v82 : Ref sig .tc := ⟨.hbm, 145, rfl⟩
abbrev main_v83 : Ref sig .tc := ⟨.hbm, 146, rfl⟩
abbrev main_v84 : Ref sig .tc := ⟨.hbm, 147, rfl⟩
abbrev main_v85 : Ref sig .tc := ⟨.hbm, 148, rfl⟩
abbrev main_v86 : Ref sig .tc := ⟨.hbm, 149, rfl⟩
abbrev main_v87 : Ref sig .tc := ⟨.hbm, 150, rfl⟩
abbrev main_cst_17 : Ref sig .tc := ⟨.hbm, 151, rfl⟩
abbrev main_v88 : Ref sig .tc := ⟨.hbm, 152, rfl⟩
abbrev main_cst_18 : Ref sig .tc := ⟨.hbm, 153, rfl⟩
abbrev main_v89 : Ref sig .tc := ⟨.hbm, 154, rfl⟩
abbrev main_v90 : Ref sig .tc := ⟨.hbm, 155, rfl⟩
abbrev main_v91 : Ref sig .tc := ⟨.hbm, 156, rfl⟩
abbrev main_v92 : Ref sig .tc := ⟨.hbm, 157, rfl⟩
abbrev main_v93 : Ref sig .tc := ⟨.hbm, 158, rfl⟩
abbrev main_cst_19 : Ref sig .tc := ⟨.hbm, 159, rfl⟩
abbrev main_v94 : Ref sig .tc := ⟨.hbm, 160, rfl⟩
abbrev main_v95 : Ref sig .tc := ⟨.hbm, 161, rfl⟩
abbrev main_v96 : Ref sig .tc := ⟨.hbm, 162, rfl⟩
abbrev main_v97 : Ref sig .tc := ⟨.hbm, 163, rfl⟩
abbrev main_v98 : Ref sig .tc := ⟨.hbm, 164, rfl⟩
abbrev main_v99 : Ref sig .tc := ⟨.hbm, 165, rfl⟩
abbrev main_v100 : Ref sig .tc := ⟨.hbm, 166, rfl⟩
abbrev main_v101 : Ref sig .tc := ⟨.hbm, 167, rfl⟩
abbrev main_v102 : Ref sig .tc := ⟨.hbm, 168, rfl⟩
abbrev main_v103 : Ref sig .tc := ⟨.hbm, 169, rfl⟩
abbrev main_v104 : Ref sig .tc := ⟨.hbm, 170, rfl⟩
abbrev main_v105 : Ref sig .tc := ⟨.hbm, 171, rfl⟩
abbrev main_v106 : Ref sig .tc := ⟨.hbm, 172, rfl⟩

abbrev nD : Nat := 1
abbrev τ : Topo := Topo.v7x

variable {F : FTy → Type} [FloatOps F]

class Facts₀ : Prop where
  bcast_S_S640000 : S_.BroadcastsInDim S640000 (![] : Fin 0 → Fin S640000.rank)
  bcast_S640000_S640000x1_0 : S640000.BroadcastsInDim S640000x1 (![0] : Fin 1 → Fin S640000x1.rank)
  concatenates_S640000x128_S640000x128_S640000x128_S640000x384_d1 : Shape.Concatenates [S640000x128, S640000x128, S640000x128] S640000x384 1
  bcast_S128_S1x128_1 : S128.BroadcastsInDim S1x128 (![1] : Fin 1 → Fin S1x128.rank)
  bcast_S1x128_S640000x128_0_1 : S1x128.BroadcastsInDim S640000x128 (![0, 1] : Fin 2 → Fin S640000x128.rank)
  bcast_S_S640000x128 : S_.BroadcastsInDim S640000x128 (![] : Fin 0 → Fin S640000x128.rank)
  reducesTo_S640000x128_S128_d0 : S640000x128.ReducesTo [0] S128
  h_S_ : 0 < S_.numel
  bcast_S_S128 : S_.BroadcastsInDim S128 (![] : Fin 0 → Fin S128.rank)
  bcast_S_S50000x128 : S_.BroadcastsInDim S50000x128 (![] : Fin 0 → Fin S50000x128.rank)
  bcast_S_S640000x1 : S_.BroadcastsInDim S640000x1 (![] : Fin 0 → Fin S640000x1.rank)
  bcast_S_S50000x1 : S_.BroadcastsInDim S50000x1 (![] : Fin 0 → Fin S50000x1.rank)
  bcast_S50000x1_S50000x128_0_1 : S50000x1.BroadcastsInDim S50000x128 (![0, 1] : Fin 2 → Fin S50000x128.rank)
  concatenates_S50000x128_S50000x128_S50000x256_d1 : Shape.Concatenates [S50000x128, S50000x128] S50000x256 1
  bcast_S1x128_S50000x128_0_1 : S1x128.BroadcastsInDim S50000x128 (![0, 1] : Fin 2 → Fin S50000x128.rank)
  reducesTo_S50000x128_S128_d0 : S50000x128.ReducesTo [0] S128
  gather_S50000x128_S640000x1_S640000x128_1_0_n_n_0_1_1128_wf : GatherDims.WF S50000x128 S640000x1 S640000x128 [1] [0] [] [0] [] 1 ![1, 128]
  dot_S640000x384_S384x128_S640000x128_1_0_0_1_n_n_wf : DotDims.WF S640000x384 S384x128 S640000x128 [1] [0] [0] [1] [] []
  dot_S640000x128_S128x128_S640000x128_1_0_0_1_n_n_wf : DotDims.WF S640000x128 S128x128 S640000x128 [1] [0] [0] [1] [] []
  scatter_S50000x128_S640000x1_S640000x128_1_0_0_1_wf : ScatterDims.WF S50000x128 S640000x1 S640000x128 [1] [0] [0] 1
  scatter_S50000x1_S640000x1_S640000x1_1_0_0_1_wf : ScatterDims.WF S50000x1 S640000x1 S640000x1 [1] [0] [0] 1
  dot_S50000x256_S256x128_S50000x128_1_0_0_1_n_n_wf : DotDims.WF S50000x256 S256x128 S50000x128 [1] [0] [0] [1] [] []
  dot_S50000x128_S128x128_S50000x128_1_0_0_1_n_n_wf : DotDims.WF S50000x128 S128x128 S50000x128 [1] [0] [0] [1] [] []

variable [Facts₀]

def gather_S50000x128_S640000x1_S640000x128_1_0_n_n_0_1_1128 : GatherDims S50000x128 S640000x1 S640000x128 where
  offsetDims := [1]
  collapsedSliceDims := [0]
  operandBatchingDims := []
  startIndicesBatchingDims := []
  startIndexMap := [0]
  indexVectorDim := 1
  sliceSizes := ![1, 128]
  wf := gather_S50000x128_S640000x1_S640000x128_1_0_n_n_0_1_1128_wf
def dot_S640000x384_S384x128_S640000x128_1_0_0_1_n_n : DotDims S640000x384 S384x128 S640000x128 where
  lhsContracting := [1]
  rhsContracting := [0]
  lhsNonContracting := [0]
  rhsNonContracting := [1]
  lhsBatch := []
  rhsBatch := []
  wf := dot_S640000x384_S384x128_S640000x128_1_0_0_1_n_n_wf
def dot_S640000x128_S128x128_S640000x128_1_0_0_1_n_n : DotDims S640000x128 S128x128 S640000x128 where
  lhsContracting := [1]
  rhsContracting := [0]
  lhsNonContracting := [0]
  rhsNonContracting := [1]
  lhsBatch := []
  rhsBatch := []
  wf := dot_S640000x128_S128x128_S640000x128_1_0_0_1_n_n_wf
def scatter_S50000x128_S640000x1_S640000x128_1_0_0_1 : ScatterDims S50000x128 S640000x1 S640000x128 where
  updateWindowDims := [1]
  insertedWindowDims := [0]
  scatterDimsToOperandDims := [0]
  indexVectorDim := 1
  wf := scatter_S50000x128_S640000x1_S640000x128_1_0_0_1_wf
def scatter_S50000x1_S640000x1_S640000x1_1_0_0_1 : ScatterDims S50000x1 S640000x1 S640000x1 where
  updateWindowDims := [1]
  insertedWindowDims := [0]
  scatterDimsToOperandDims := [0]
  indexVectorDim := 1
  wf := scatter_S50000x1_S640000x1_S640000x1_1_0_0_1_wf
def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf

class Facts : Prop extends Facts₀ where

variable [Facts]
-- ==== Proof.K.Run.lean ====
/-
  The run of @main as a chain of eight segments — four stretches of host operations and four kernel regions —
  from the launch memory to the return. Between two segments a TensorCore holds every unscoped buffer whole at a
  valuation computed by a fold: a host stretch applies its operations (`StableHlo.after`), a region replaces the arrays of
  its windows by what its write-backs leave (`Dat.arrAt … N`) and keeps every other buffer. Each region enters the fold
  through its HALF: proof data stated at the contents the region is entered from, whose arrays are those contents, whose
  invariant is the class invariant, which holds full shares and owes nothing, and the body obligation at every point.
  The last theorem says that every weakly fair execution terminates without a fault in a state whose unscoped buffers
  are the last valuation; the frame claim and the value claim are both read off it.
-/
import proofs.«170818_j15161234555428_1_alg».proof.Proof.K.Regions
import proofs.«170818_j15161234555428_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Run

open Cert.Kernel Cert.Kernel.Gen Cert.Kernel.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The contents of a TensorCore's buffers, read at its own references. -/
abbrev VT (F : FTy → Type) [FloatOps F] : Type := (c : Dev nD) → (b : Ref sig .tc) → Buf (Elt F) ((c : Thread nD τ).loc b)

/-- Region 0's half: proof data at any entry contents `V` whose arrays are `V`'s, with the class invariant, full
    shares and nothing owed, and the body obligation at every point. -/
structure Half0 (F : FTy → Type) [FloatOps F] where
  dat : VT F → (c : Dev nD) → Dat τ (Elt F) Unit ℕ (UR sig nD τ) ℕ cfg0 c
  hA : ∀ V c (w : Fin cfg0.W), (dat V c).A w = V c (Pipeline.arrRef spec0 w)
  hΦ : ∀ V c t, (dat V c).Φ t = Pipeline.ΦA spec0 c
  hq : ∀ V c w, (dat V c).q w = fullShare
  ho : ∀ V c t, (dat V c).owed t = 0
  hr : ∀ V c t, (dat V c).recorded t = Set.univ
  hb : ∀ V c, BodyObligation (dat V c) (defs₀ (F := F)) Variants.none () Set.univ

/-- Region 1's half: proof data at any entry contents `V` whose arrays are `V`'s, with the class invariant, full
    shares and nothing owed, and the body obligation at every point. -/
structure Half1 (F : FTy → Type) [FloatOps F] where
  dat : VT F → (c : Dev nD) → Dat τ (Elt F) Unit ℕ (UR sig nD τ) ℕ cfg1 c
  hA : ∀ V c (w : Fin cfg1.W), (dat V c).A w = V c (Pipeline.arrRef spec1 w)
  hΦ : ∀ V c t, (dat V c).Φ t = Pipeline.ΦA spec1 c
  hq : ∀ V c w, (dat V c).q w = fullShare
  ho : ∀ V c t, (dat V c).owed t = 0
  hr : ∀ V c t, (dat V c).recorded t = Set.univ
  hb : ∀ V c, BodyObligation (dat V c) (defs₀ (F := F)) Variants.none () Set.univ

/-- Region 2's half: proof data at any entry contents `V` whose arrays are `V`'s, with the class invariant, full
    shares and nothing owed, and the body obligation at every point. -/
structure Half2 (F : FTy → Type) [FloatOps F] where
  dat : VT F → (c : Dev nD) → Dat τ (Elt F) Unit ℕ (UR sig nD τ) ℕ cfg2 c
  hA : ∀ V c (w : Fin cfg2.W), (dat V c).A w = V c (Pipeline.arrRef spec2 w)
  hΦ : ∀ V c t, (dat V c).Φ t = Pipeline.ΦA spec2 c
  hq : ∀ V c w, (dat V c).q w = fullShare
  ho : ∀ V c t, (dat V c).owed t = 0
  hr : ∀ V c t, (dat V c).recorded t = Set.univ
  hb : ∀ V c, BodyObligation (dat V c) (defs₀ (F := F)) Variants.none () Set.univ

/-- Region 3's half: proof data at any entry contents `V` whose arrays are `V`'s, with the class invariant, full
    shares and nothing owed, and the body obligation at every point. -/
structure Half3 (F : FTy → Type) [FloatOps F] where
  dat : VT F → (c : Dev nD) → Dat τ (Elt F) Unit ℕ (UR sig nD τ) ℕ cfg3 c
  hA : ∀ V c (w : Fin cfg3.W), (dat V c).A w = V c (Pipeline.arrRef spec3 w)
  hΦ : ∀ V c t, (dat V c).Φ t = Pipeline.ΦA spec3 c
  hq : ∀ V c w, (dat V c).q w = fullShare
  ho : ∀ V c t, (dat V c).owed t = 0
  hr : ∀ V c t, (dat V c).recorded t = Set.univ
  hb : ∀ V c, BodyObligation (dat V c) (defs₀ (F := F)) Variants.none () Set.univ

variable (m : (ℓ : Loc nD τ sig) → Buf (Elt F) ℓ)
variable (H0 : Half0 F) (H1 : Half1 F) (H2 : Half2 F) (H3 : Half3 F)

/-! ## The buffers' contents at each boundary -/

/-- Core `c`'s buffers at launch. -/
abbrev W0 : Dev nD → Valuation τ sig (Elt F) := fun c b => m (c, b)
/-- After the host stretch before region 0. -/
abbrev W1 : Dev nD → Valuation τ sig (Elt F) := fun c => StableHlo.after hostOps0 (W0 m c)
/-- The same at the TensorCore's references: what region 0's proof data take. -/
abbrev V1 : VT F := fun c b => W1 m c b
/-- At region 0's exit: its windows' arrays at what the write-backs leave, every other buffer as entered. -/
def W2 (c : Dev nD) : Valuation τ sig (Elt F) :=
  Pipeline.withArrays spec0 c (W1 m c) fun w => (H0.dat (V1 m) c).arrAt w cfg0.N
theorem W2_arr (c : Dev nD) (w : Fin cfg0.W) :
    W2 m H0 c (Proc.devRef .tc (Pipeline.arrRef spec0 w)) = (H0.dat (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m H0 c (Proc.devRef .tc b) = W1 m c (Proc.devRef .tc b) := by
  unfold W2; exact Pipeline.withArrays_of_ne spec0 c _ _ b hb
abbrev V2 : VT F := fun c b => W2 m H0 c b
theorem hF0 (c : Dev nD) (w : Fin cfg0.W) : (H0.dat (V1 m) c).arrAt w cfg0.N = V2 m H0 c (Pipeline.arrRef spec0 w) :=
  (W2_arr m H0 c w).symm
theorem hrest0 (c : Dev nD) : ∀ b, b ∉ Finset.univ.image (Pipeline.arrRef spec0) → V2 m H0 c b = V1 m c b :=
  fun b hb => W2_of_ne m H0 c b fun w e => hb (Finset.mem_image.mpr ⟨w, Finset.mem_univ _, e⟩)
/-- A buffer that is no output of region 0 leaves it as it entered: an input window's array is never written back,
    and a buffer of no window is bypassed. -/
theorem W2_keep (c : Dev nD) (b : Ref sig .tc) (h : b ∉ ([main_v20_0, main_v20_1, main_v20_2] : List (Ref sig .tc))) :
    W2 m H0 c (Proc.devRef .tc b) = W1 m c (Proc.devRef .tc b) := by
  by_cases hb : ∃ w, Pipeline.arrRef spec0 w = b
  · obtain ⟨w, rfl⟩ := hb
    have hin : (cfg0.win w).isOut = false := by
      revert h; revert w; decide
    rw [W2_arr]
    exact ((H0.dat _ c).arrAt_in w hin _).trans (H0.hA _ c w)
  · exact W2_of_ne m H0 c b (fun w e => hb ⟨w, e⟩)
/-- A buffer the host stretch before region 0 does not write keeps its contents. -/
theorem W1_keep (c : Dev nD) (b : Ref sig .tc) (h : b ∉ hostOps0_W) :
    W1 m c (Proc.devRef .tc b) = W0 m c (Proc.devRef .tc b) :=
  StableHlo.after_of_writes_sub hostOps0 _ hostOps0_writes h

/-- After the host stretch before region 1. -/
abbrev W3 : Dev nD → Valuation τ sig (Elt F) := fun c => StableHlo.after hostOps1 (W2 m H0 c)
/-- The same at the TensorCore's references: what region 1's proof data take. -/
abbrev V3 : VT F := fun c b => W3 m H0 c b
/-- At region 1's exit: its windows' arrays at what the write-backs leave, every other buffer as entered. -/
def W4 (c : Dev nD) : Valuation τ sig (Elt F) :=
  Pipeline.withArrays spec1 c (W3 m H0 c) fun w => (H1.dat (V3 m H0) c).arrAt w cfg1.N
theorem W4_arr (c : Dev nD) (w : Fin cfg1.W) :
    W4 m H0 H1 c (Proc.devRef .tc (Pipeline.arrRef spec1 w)) = (H1.dat (V3 m H0) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m H0 H1 c (Proc.devRef .tc b) = W3 m H0 c (Proc.devRef .tc b) := by
  unfold W4; exact Pipeline.withArrays_of_ne spec1 c _ _ b hb
abbrev V4 : VT F := fun c b => W4 m H0 H1 c b
theorem hF1 (c : Dev nD) (w : Fin cfg1.W) : (H1.dat (V3 m H0) c).arrAt w cfg1.N = V4 m H0 H1 c (Pipeline.arrRef spec1 w) :=
  (W4_arr m H0 H1 c w).symm
theorem hrest1 (c : Dev nD) : ∀ b, b ∉ Finset.univ.image (Pipeline.arrRef spec1) → V4 m H0 H1 c b = V3 m H0 c b :=
  fun b hb => W4_of_ne m H0 H1 c b fun w e => hb (Finset.mem_image.mpr ⟨w, Finset.mem_univ _, e⟩)
/-- A buffer that is no output of region 1 leaves it as it entered: an input window's array is never written back,
    and a buffer of no window is bypassed. -/
theorem W4_keep (c : Dev nD) (b : Ref sig .tc) (h : b ∉ ([main_v27_0, main_v27_1] : List (Ref sig .tc))) :
    W4 m H0 H1 c (Proc.devRef .tc b) = W3 m H0 c (Proc.devRef .tc b) := by
  by_cases hb : ∃ w, Pipeline.arrRef spec1 w = b
  · obtain ⟨w, rfl⟩ := hb
    have hin : (cfg1.win w).isOut = false := by
      revert h; revert w; decide
    rw [W4_arr]
    exact ((H1.dat _ c).arrAt_in w hin _).trans (H1.hA _ c w)
  · exact W4_of_ne m H0 H1 c b (fun w e => hb ⟨w, e⟩)
/-- A buffer the host stretch before region 1 does not write keeps its contents. -/
theorem W3_keep (c : Dev nD) (b : Ref sig .tc) (h : b ∉ hostOps1_W) :
    W3 m H0 c (Proc.devRef .tc b) = W2 m H0 c (Proc.devRef .tc b) :=
  StableHlo.after_of_writes_sub hostOps1 _ hostOps1_writes h

/-- After the host stretch before region 2. -/
abbrev W5 : Dev nD → Valuation τ sig (Elt F) := fun c => StableHlo.after hostOps2 (W4 m H0 H1 c)
/-- The same at the TensorCore's references: what region 2's proof data take. -/
abbrev V5 : VT F := fun c b => W5 m H0 H1 c b
/-- At region 2's exit: its windows' arrays at what the write-backs leave, every other buffer as entered. -/
def W6 (c : Dev nD) : Valuation τ sig (Elt F) :=
  Pipeline.withArrays spec2 c (W5 m H0 H1 c) fun w => (H2.dat (V5 m H0 H1) c).arrAt w cfg2.N
theorem W6_arr (c : Dev nD) (w : Fin cfg2.W) :
    W6 m H0 H1 H2 c (Proc.devRef .tc (Pipeline.arrRef spec2 w)) = (H2.dat (V5 m H0 H1) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m H0 H1 H2 c (Proc.devRef .tc b) = W5 m H0 H1 c (Proc.devRef .tc b) := by
  unfold W6; exact Pipeline.withArrays_of_ne spec2 c _ _ b hb
abbrev V6 : VT F := fun c b => W6 m H0 H1 H2 c b
theorem hF2 (c : Dev nD) (w : Fin cfg2.W) : (H2.dat (V5 m H0 H1) c).arrAt w cfg2.N = V6 m H0 H1 H2 c (Pipeline.arrRef spec2 w) :=
  (W6_arr m H0 H1 H2 c w).symm
theorem hrest2 (c : Dev nD) : ∀ b, b ∉ Finset.univ.image (Pipeline.arrRef spec2) → V6 m H0 H1 H2 c b = V5 m H0 H1 c b :=
  fun b hb => W6_of_ne m H0 H1 H2 c b fun w e => hb (Finset.mem_image.mpr ⟨w, Finset.mem_univ _, e⟩)
/-- A buffer that is no output of region 2 leaves it as it entered: an input window's array is never written back,
    and a buffer of no window is bypassed. -/
theorem W6_keep (c : Dev nD) (b : Ref sig .tc) (h : b ∉ ([main_v45_0, main_v45_1, main_v45_2] : List (Ref sig .tc))) :
    W6 m H0 H1 H2 c (Proc.devRef .tc b) = W5 m H0 H1 c (Proc.devRef .tc b) := by
  by_cases hb : ∃ w, Pipeline.arrRef spec2 w = b
  · obtain ⟨w, rfl⟩ := hb
    have hin : (cfg2.win w).isOut = false := by
      revert h; revert w; decide
    rw [W6_arr]
    exact ((H2.dat _ c).arrAt_in w hin _).trans (H2.hA _ c w)
  · exact W6_of_ne m H0 H1 H2 c b (fun w e => hb ⟨w, e⟩)
/-- A buffer the host stretch before region 2 does not write keeps its contents. -/
theorem W5_keep (c : Dev nD) (b : Ref sig .tc) (h : b ∉ hostOps2_W) :
    W5 m H0 H1 c (Proc.devRef .tc b) = W4 m H0 H1 c (Proc.devRef .tc b) :=
  StableHlo.after_of_writes_sub hostOps2 _ hostOps2_writes h

/-- After the host stretch before region 3. -/
abbrev W7 : Dev nD → Valuation τ sig (Elt F) := fun c => StableHlo.after hostOps3 (W6 m H0 H1 H2 c)
/-- The same at the TensorCore's references: what region 3's proof data take. -/
abbrev V7 : VT F := fun c b => W7 m H0 H1 H2 c b
/-- At region 3's exit: its windows' arrays at what the write-backs leave, every other buffer as entered. -/
def W8 (c : Dev nD) : Valuation τ sig (Elt F) :=
  Pipeline.withArrays spec3 c (W7 m H0 H1 H2 c) fun w => (H3.dat (V7 m H0 H1 H2) c).arrAt w cfg3.N
theorem W8_arr (c : Dev nD) (w : Fin cfg3.W) :
    W8 m H0 H1 H2 H3 c (Proc.devRef .tc (Pipeline.arrRef spec3 w)) = (H3.dat (V7 m H0 H1 H2) c).arrAt w cfg3.N := by
  unfold W8; exact Pipeline.withArrays_arr spec3 launch3.win.arr_inj c _ _ w
theorem W8_of_ne (c : Dev nD) (b : Ref sig .tc) (hb : ∀ w, Pipeline.arrRef spec3 w ≠ b) :
    W8 m H0 H1 H2 H3 c (Proc.devRef .tc b) = W7 m H0 H1 H2 c (Proc.devRef .tc b) := by
  unfold W8; exact Pipeline.withArrays_of_ne spec3 c _ _ b hb
abbrev V8 : VT F := fun c b => W8 m H0 H1 H2 H3 c b
theorem hF3 (c : Dev nD) (w : Fin cfg3.W) : (H3.dat (V7 m H0 H1 H2) c).arrAt w cfg3.N = V8 m H0 H1 H2 H3 c (Pipeline.arrRef spec3 w) :=
  (W8_arr m H0 H1 H2 H3 c w).symm
theorem hrest3 (c : Dev nD) : ∀ b, b ∉ Finset.univ.image (Pipeline.arrRef spec3) → V8 m H0 H1 H2 H3 c b = V7 m H0 H1 H2 c b :=
  fun b hb => W8_of_ne m H0 H1 H2 H3 c b fun w e => hb (Finset.mem_image.mpr ⟨w, Finset.mem_univ _, e⟩)
/-- A buffer that is no output of region 3 leaves it as it entered: an input window's array is never written back,
    and a buffer of no window is bypassed. -/
theorem W8_keep (c : Dev nD) (b : Ref sig .tc) (h : b ∉ ([main_v52_0, main_v52_1] : List (Ref sig .tc))) :
    W8 m H0 H1 H2 H3 c (Proc.devRef .tc b) = W7 m H0 H1 H2 c (Proc.devRef .tc b) := by
  by_cases hb : ∃ w, Pipeline.arrRef spec3 w = b
  · obtain ⟨w, rfl⟩ := hb
    have hin : (cfg3.win w).isOut = false := by
      revert h; revert w; decide
    rw [W8_arr]
    exact ((H3.dat _ c).arrAt_in w hin _).trans (H3.hA _ c w)
  · exact W8_of_ne m H0 H1 H2 H3 c b (fun w e => hb ⟨w, e⟩)
/-- A buffer the host stretch before region 3 does not write keeps its contents. -/
theorem W7_keep (c : Dev nD) (b : Ref sig .tc) (h : b ∉ hostOps3_W) :
    W7 m H0 H1 H2 c (Proc.devRef .tc b) = W6 m H0 H1 H2 c (Proc.devRef .tc b) :=
  StableHlo.after_of_writes_sub hostOps3 _ hostOps3_writes h

/-- A buffer that no host operation writes and that is no region's output ends as launched: every argument array. -/
theorem W8_launch (c : Dev nD) (b : Ref sig .tc)
    (h0 : b ∉ hostOps0_W) (k0 : b ∉ ([main_v20_0, main_v20_1, main_v20_2] : List (Ref sig .tc)))
    (h1 : b ∉ hostOps1_W) (k1 : b ∉ ([main_v27_0, main_v27_1] : List (Ref sig .tc)))
    (h2 : b ∉ hostOps2_W) (k2 : b ∉ ([main_v45_0, main_v45_1, main_v45_2] : List (Ref sig .tc)))
    (h3 : b ∉ hostOps3_W) (k3 : b ∉ ([main_v52_0, main_v52_1] : List (Ref sig .tc))) :
    W8 m H0 H1 H2 H3 c (Proc.devRef .tc b) = m ((c : Thread nD τ).loc b) :=
  (W8_keep m H0 H1 H2 H3 c b k3).trans <| (W7_keep m H0 H1 H2 c b h3).trans <| (W6_keep m H0 H1 H2 c b k2).trans <|
    (W5_keep m H0 H1 c b h2).trans <| (W4_keep m H0 H1 c b k1).trans <| (W3_keep m H0 c b h1).trans <|
    (W2_keep m H0 c b k0).trans <| (W1_keep m c b h0).trans rfl

/-! ## The proof data family and the thread state -/

abbrev adm : (p : Fin 4) → (pcfgs (F := F) p).Adm := fun p => (cfgs p).toPCfg_adm
/-- Every pipeline's proof data, each at its region's entry contents. -/
def pdats : (p : Fin 4) → (c : Dev nD) → Dat τ (Elt F) Unit ℕ (UR sig nD τ) ℕ (Pipeline.pin (pcfgs (F := F)) adm p) c
  | ⟨0, _⟩ => fun c => H0.dat (V1 m) c
  | ⟨1, _⟩ => fun c => H1.dat (V3 m H0) c
  | ⟨2, _⟩ => fun c => H2.dat (V5 m H0 H1) c
  | ⟨3, _⟩ => fun c => H3.dat (V7 m H0 H1 H2) c
abbrev 𝒱₀ : Variants := Variants.none
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W8 m H0 H1 H2 H3 c) ∗ ∃ r, prngReg c r)

/-! ## The regions as segments -/

set_option backward.isDefEq.respectTransparency.types false in
/-- Region 0 over the thread state: entered from every unscoped buffer at `W1`, left at `W2`; its arrays are split
    out of the unscoped buffers and put back at the exit contents; the generator register goes into the class invariant
    and comes out; nothing is owed; the kernel has no semaphore of its own. -/
def reg0 : Pipeline.RegionSeg (pcfgs (F := F)) adm (pdats m H0 H1 H2 H3) () defs₀ 𝒱₀ L lv 0 where
  win := launch0.win.to₀
  block_pos := launch0.block_pos
  stage_whole := launch0.stage_whole
  K := PEmpty
  osem k := k.elim
  ho := Pipeline.OwnSemFacts.none _
  hbody c := (H0.hb (V1 m) c).loose
  hwaits := Pipeline.hwaits_of_owed_zero _ _ _ _ L lv 0 fun c t => H0.ho (V1 m) c t
  pre c := iprop(StableHlo.held (c : Thread nD τ) (Pipeline.ucRefs τ sig) (W1 m c) ∗ R c)
  post c := iprop(StableHlo.held (c : Thread nD τ) (Pipeline.ucRefs τ sig) (W2 m H0 c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m H0 H1 H2 H3) launch0.win launch0.arr_whole c
      ((pdats m H0 H1 H2 H3 0 c).share_full fun w => H0.hq (V1 m) c w) (V1 m c) fun w => H0.hA (V1 m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl ((H0.hr (V1 m) c 0).symm ▸ Set.mem_univ _)
      rw [show (pdats m H0 H1 H2 H3 0 c).owed 0 = 0 from H0.ho (V1 m) c 0]
      iexact HO
    isplitl [Hp]; · iexact Hp
    iexact Hrest
  hin c := by
    rw [show (pdats m H0 H1 H2 H3 0 c).Φ 0 = Pipeline.ΦA spec0 c from H0.hΦ (V1 m) c 0]; unfold Pipeline.ΦA
    iintro ⟨Hp, -, Hr⟩
    isplitl [Hr]; · iexact Hr
    iexact Hp
  hout c := by
    rw [Pipeline.ownSems0_none, show (pdats m H0 H1 H2 H3 0 c).Φ (Fin.last _) = Pipeline.ΦA spec0 c from H0.hΦ (V1 m) c _]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m H0 H1 H2 H3) ((pdats m H0 H1 H2 H3 0 c).share_full fun w => H0.hq (V1 m) c w)
      (V1 m c) (V2 m H0 c) ((pdats m H0 H1 H2 H3 0 c).arrAt · cfg0.N) (hF0 m H0 c) (hrest0 m H0 c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W
    rw [show (pdats m H0 H1 H2 H3 0 c).owed (Fin.last _) = 0 from H0.ho (V1 m) c _]
    iexact HO

set_option backward.isDefEq.respectTransparency.types false in
/-- Region 1 over the thread state: entered from every unscoped buffer at `W3`, left at `W4`; its arrays are split
    out of the unscoped buffers and put back at the exit contents; the generator register goes into the class invariant
    and comes out; nothing is owed; the kernel has no semaphore of its own. -/
def reg1 : Pipeline.RegionSeg (pcfgs (F := F)) adm (pdats m H0 H1 H2 H3) () defs₀ 𝒱₀ L lv 1 where
  win := launch1.win.to₀
  block_pos := launch1.block_pos
  stage_whole := launch1.stage_whole
  K := PEmpty
  osem k := k.elim
  ho := Pipeline.OwnSemFacts.none _
  hbody c := (H1.hb (V3 m H0) c).loose
  hwaits := Pipeline.hwaits_of_owed_zero _ _ _ _ L lv 1 fun c t => H1.ho (V3 m H0) c t
  pre c := iprop(StableHlo.held (c : Thread nD τ) (Pipeline.ucRefs τ sig) (W3 m H0 c) ∗ R c)
  post c := iprop(StableHlo.held (c : Thread nD τ) (Pipeline.ucRefs τ sig) (W4 m H0 H1 c) ∗ R c)
  X c := iprop(∃ r, prngReg c r)
  Y c := iprop(∃ r, prngReg c r)
  Z c := Pipeline.unscopedRest (Ix := Unit) (Name := ℕ) (U := UR sig nD τ) (Lvl := ℕ) spec1 c (V3 m H0 c)
  hentry c := by
    rw [Pipeline.ownSems0_none]
    have hsplit := Pipeline.arrays_of_unscopedBufs (p := 1) (pcfgs (F := F)) adm (pdats m H0 H1 H2 H3) launch1.win launch1.arr_whole c
      ((pdats m H0 H1 H2 H3 1 c).share_full fun w => H1.hq (V3 m H0) c w) (V3 m H0 c) fun w => H1.hA (V3 m H0) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl ((H1.hr (V3 m H0) c 0).symm ▸ Set.mem_univ _)
      rw [show (pdats m H0 H1 H2 H3 1 c).owed 0 = 0 from H1.ho (V3 m H0) c 0]
      iexact HO
    isplitl [Hp]; · iexact Hp
    iexact Hrest
  hin c := by
    rw [show (pdats m H0 H1 H2 H3 1 c).Φ 0 = Pipeline.ΦA spec1 c from H1.hΦ (V3 m H0) c 0]; unfold Pipeline.ΦA
    iintro ⟨Hp, -, Hr⟩
    isplitl [Hr]; · iexact Hr
    iexact Hp
  hout c := by
    rw [Pipeline.ownSems0_none, show (pdats m H0 H1 H2 H3 1 c).Φ (Fin.last _) = Pipeline.ΦA spec1 c from H1.hΦ (V3 m H0) c _]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m H0 H1 H2 H3) ((pdats m H0 H1 H2 H3 1 c).share_full fun w => H1.hq (V3 m H0) c w)
      (V3 m H0 c) (V4 m H0 H1 c) ((pdats m H0 H1 H2 H3 1 c).arrAt · cfg1.N) (hF1 m H0 H1 c) (hrest1 m H0 H1 c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W
    rw [show (pdats m H0 H1 H2 H3 1 c).owed (Fin.last _) = 0 from H1.ho (V3 m H0) c _]
    iexact HO

set_option backward.isDefEq.respectTransparency.types false in
/-- Region 2 over the thread state: entered from every unscoped buffer at `W5`, left at `W6`; its arrays are split
    out of the unscoped buffers and put back at the exit contents; the generator register goes into the class invariant
    and comes out; nothing is owed; the kernel has no semaphore of its own. -/
def reg2 : Pipeline.RegionSeg (pcfgs (F := F)) adm (pdats m H0 H1 H2 H3) () defs₀ 𝒱₀ L lv 2 where
  win := launch2.win.to₀
  block_pos := launch2.block_pos
  stage_whole := launch2.stage_whole
  K := PEmpty
  osem k := k.elim
  ho := Pipeline.OwnSemFacts.none _
  hbody c := (H2.hb (V5 m H0 H1) c).loose
  hwaits := Pipeline.hwaits_of_owed_zero _ _ _ _ L lv 2 fun c t => H2.ho (V5 m H0 H1) c t
  pre c := iprop(StableHlo.held (c : Thread nD τ) (Pipeline.ucRefs τ sig) (W5 m H0 H1 c) ∗ R c)
  post c := iprop(StableHlo.held (c : Thread nD τ) (Pipeline.ucRefs τ sig) (W6 m H0 H1 H2 c) ∗ R c)
  X c := iprop(∃ r, prngReg c r)
  Y c := iprop(∃ r, prngReg c r)
  Z c := Pipeline.unscopedRest (Ix := Unit) (Name := ℕ) (U := UR sig nD τ) (Lvl := ℕ) spec2 c (V5 m H0 H1 c)
  hentry c := by
    rw [Pipeline.ownSems0_none]
    have hsplit := Pipeline.arrays_of_unscopedBufs (p := 2) (pcfgs (F := F)) adm (pdats m H0 H1 H2 H3) launch2.win launch2.arr_whole c
      ((pdats m H0 H1 H2 H3 2 c).share_full fun w => H2.hq (V5 m H0 H1) c w) (V5 m H0 H1 c) fun w => H2.hA (V5 m H0 H1) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl ((H2.hr (V5 m H0 H1) c 0).symm ▸ Set.mem_univ _)
      rw [show (pdats m H0 H1 H2 H3 2 c).owed 0 = 0 from H2.ho (V5 m H0 H1) c 0]
      iexact HO
    isplitl [Hp]; · iexact Hp
    iexact Hrest
  hin c := by
    rw [show (pdats m H0 H1 H2 H3 2 c).Φ 0 = Pipeline.ΦA spec2 c from H2.hΦ (V5 m H0 H1) c 0]; unfold Pipeline.ΦA
    iintro ⟨Hp, -, Hr⟩
    isplitl [Hr]; · iexact Hr
    iexact Hp
  hout c := by
    rw [Pipeline.ownSems0_none, show (pdats m H0 H1 H2 H3 2 c).Φ (Fin.last _) = Pipeline.ΦA spec2 c from H2.hΦ (V5 m H0 H1) c _]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m H0 H1 H2 H3) ((pdats m H0 H1 H2 H3 2 c).share_full fun w => H2.hq (V5 m H0 H1) c w)
      (V5 m H0 H1 c) (V6 m H0 H1 H2 c) ((pdats m H0 H1 H2 H3 2 c).arrAt · cfg2.N) (hF2 m H0 H1 H2 c) (hrest2 m H0 H1 H2 c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W
    rw [show (pdats m H0 H1 H2 H3 2 c).owed (Fin.last _) = 0 from H2.ho (V5 m H0 H1) c _]
    iexact HO

set_option backward.isDefEq.respectTransparency.types false in
/-- Region 3 over the thread state: entered from every unscoped buffer at `W7`, left at `W8`; its arrays are split
    out of the unscoped buffers and put back at the exit contents; the generator register goes into the class invariant
    and comes out; nothing is owed; the kernel has no semaphore of its own. -/
def reg3 : Pipeline.RegionSeg (pcfgs (F := F)) adm (pdats m H0 H1 H2 H3) () defs₀ 𝒱₀ L lv 3 where
  win := launch3.win.to₀
  block_pos := launch3.block_pos
  stage_whole := launch3.stage_whole
  K := PEmpty
  osem k := k.elim
  ho := Pipeline.OwnSemFacts.none _
  hbody c := (H3.hb (V7 m H0 H1 H2) c).loose
  hwaits := Pipeline.hwaits_of_owed_zero _ _ _ _ L lv 3 fun c t => H3.ho (V7 m H0 H1 H2) c t
  pre c := iprop(StableHlo.held (c : Thread nD τ) (Pipeline.ucRefs τ sig) (W7 m H0 H1 H2 c) ∗ R c)
  post c := iprop(StableHlo.held (c : Thread nD τ) (Pipeline.ucRefs τ sig) (W8 m H0 H1 H2 H3 c) ∗ R c)
  X c := iprop(∃ r, prngReg c r)
  Y c := iprop(∃ r, prngReg c r)
  Z c := Pipeline.unscopedRest (Ix := Unit) (Name := ℕ) (U := UR sig nD τ) (Lvl := ℕ) spec3 c (V7 m H0 H1 H2 c)
  hentry c := by
    rw [Pipeline.ownSems0_none]
    have hsplit := Pipeline.arrays_of_unscopedBufs (p := 3) (pcfgs (F := F)) adm (pdats m H0 H1 H2 H3) launch3.win launch3.arr_whole c
      ((pdats m H0 H1 H2 H3 3 c).share_full fun w => H3.hq (V7 m H0 H1 H2) c w) (V7 m H0 H1 H2 c) fun w => H3.hA (V7 m H0 H1 H2) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl ((H3.hr (V7 m H0 H1 H2) c 0).symm ▸ Set.mem_univ _)
      rw [show (pdats m H0 H1 H2 H3 3 c).owed 0 = 0 from H3.ho (V7 m H0 H1 H2) c 0]
      iexact HO
    isplitl [Hp]; · iexact Hp
    iexact Hrest
  hin c := by
    rw [show (pdats m H0 H1 H2 H3 3 c).Φ 0 = Pipeline.ΦA spec3 c from H3.hΦ (V7 m H0 H1 H2) c 0]; unfold Pipeline.ΦA
    iintro ⟨Hp, -, Hr⟩
    isplitl [Hr]; · iexact Hr
    iexact Hp
  hout c := by
    rw [Pipeline.ownSems0_none, show (pdats m H0 H1 H2 H3 3 c).Φ (Fin.last _) = Pipeline.ΦA spec3 c from H3.hΦ (V7 m H0 H1 H2) c _]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m H0 H1 H2 H3) ((pdats m H0 H1 H2 H3 3 c).share_full fun w => H3.hq (V7 m H0 H1 H2) c w)
      (V7 m H0 H1 H2 c) (V8 m H0 H1 H2 H3 c) ((pdats m H0 H1 H2 H3 3 c).arrAt · cfg3.N) (hF3 m H0 H1 H2 H3 c) (hrest3 m H0 H1 H2 H3 c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W
    rw [show (pdats m H0 H1 H2 H3 3 c).owed (Fin.last _) = 0 from H3.ho (V7 m H0 H1 H2) c _]
    iexact HO

/-! ## @main as segments, and the run -/

abbrev segs : List (Pipeline.Seg (pcfgs (F := F)) adm (pdats m H0 H1 H2 H3) () defs₀ 𝒱₀ L lv) :=
  [ .host (hseg hostOps0 hostOps0_sub hostOps0_fresh (W0 m)),
    .region (reg0 m H0 H1 H2 H3),
    .host (hseg hostOps1 hostOps1_sub hostOps1_fresh (W2 m H0)),
    .region (reg1 m H0 H1 H2 H3),
    .host (hseg hostOps2 hostOps2_sub hostOps2_fresh (W4 m H0 H1)),
    .region (reg2 m H0 H1 H2 H3),
    .host (hseg hostOps3 hostOps3_sub hostOps3_fresh (W6 m H0 H1 H2)),
    .region (reg3 m H0 H1 H2 H3) ]
theorem main_run (c : Dev nD) : main (F := F) c = Pipeline.Seg.run (segs m H0 H1 H2 H3) := (main_chain c).trans (by chain_rfl)

set_option backward.isDefEq.respectTransparency.types false in
/-- THE RUN. From any memory with zero counters every weakly fair execution of @main on the TensorCores terminates,
    nothing faulting, and in the final state every unscoped buffer of every core holds the last valuation's contents. -/
theorem run_all (ρ : Dev nD → PrngReg) : θ_run defs (onTc (τ := τ) (main (F := F))) ⟨m, fun _ => 0, ρ⟩ (fun r => ∀ c : Dev nD,
      ∀ b ∈ Pipeline.ucRefs τ sig, r.2.mem (((c : Thread nD τ)).1, b) = W8 m H0 H1 H2 H3 c b) :=
  Pipeline.θ_run_regions_kit (pcfgs (F := F)) adm (pdats m H0 H1 H2 H3) () cellOf_inj emb₁ defs₀ 𝒱₀ L lv m ρ main (segs m H0 H1 H2 H3)
    (fun c Q => by rw [main_run m H0 H1 H2 H3 c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m H0 H1 H2 H3)
    (hch := ⟨fun _ => .rfl, fun _ => .rfl, fun _ => .rfl, fun _ => .rfl, fun _ => .rfl, fun _ => .rfl, fun _ => .rfl, fun _ => .rfl, fun c => by
      show iprop(StableHlo.held (c : Thread nD τ) (Pipeline.ucRefs τ sig) (W8 m H0 H1 H2 H3 c) ∗ R c) ⊢ _
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m H0 H1 H2 H3 c b)
    (hfin := fun c s' => by
      iintro ⟨⟨Hh, -⟩, HSI⟩
      unfold StableHlo.held
      imodintro
      iapply (pointsTo_read_all (Pipeline.ucRefs τ sig) (fun b => (((c : Thread nD τ)).1, b)) (W8 m H0 H1 H2 H3 c) s')
      isplitl [Hh] <;> iassumption)
    (hQ := fun s h c => h c)

end Cert.Kernel.Run

end
-- ==== Proof.K.RunPosts.lean ====
/-
  What the run leaves, read off the last valuation: every argument array as launched (no host operation writes one and no
  region's output is one), and the two results as the final arrays of the regions that produce them — the node result is
  output window 7 of the last region, the edge result output window 7 of the second region, which nothing later writes.
-/
import proofs.«170818_j15161234555428_1_alg».proof.Proof.K.Run

set_option maxRecDepth 16384

noncomputable section

namespace Cert.Kernel.Run

open Cert.Kernel Cert.Kernel.Gen Cert.Kernel.GenP
open Idealize.ShloMosaic Idealize.ShloMosaic.TcCoe
open Idealize.SL.Sem
open Idealize.ShloMosaic.Pipeline (Dat)

variable {F : FTy → Type} [FloatOps F]
variable (m : (ℓ : Loc nD τ sig) → Buf (Elt F) ℓ)
variable (H0 : Half0 F) (H1 : Half1 F) (H2 : Half2 F) (H3 : Half3 F)

/-- The node result's buffer at the end is what the last region's write-backs leave in its output window 7. -/
theorem W8_result0 (c : Dev nD) :
    W8 m H0 H1 H2 H3 c (Proc.devRef .tc main_v52_1) = (H3.dat (V7 m H0 H1 H2) c).arrAt 7 cfg3.N :=
  W8_arr m H0 H1 H2 H3 c 7

/-- The edge result's buffer at the end is what the second region's write-backs leave in its output window 7: no
    later host operation writes it and no later region has it as an output. -/
theorem W8_result1 (c : Dev nD) :
    W8 m H0 H1 H2 H3 c (Proc.devRef .tc main_v27_1) = (H1.dat (V3 m H0) c).arrAt 7 cfg1.N :=
  (W8_keep m H0 H1 H2 H3 c main_v27_1 (by decide)).trans <| (W7_keep m H0 H1 H2 c main_v27_1 (by decide)).trans <|
    (W6_keep m H0 H1 H2 c main_v27_1 (by decide)).trans <| (W5_keep m H0 H1 c main_v27_1 (by decide)).trans <|
    W4_arr m H0 H1 c 7

include H0 H1 H2 H3 in
/-- The frame: every weakly fair execution terminates, nothing faulting, every argument array as launched. -/
theorem frame_of (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)) :=
  (θ_run defs _ _).mono (fun r h c => ⟨(h c _ (mem_uc main_arg0 (by decide))).trans (W8_launch m H0 H1 H2 H3 c main_arg0 (by decide) (by decide) (by decide) (by decide) (by decide) (by decide) (by decide) (by decide)),
    (h c _ (mem_uc main_arg1 (by decide))).trans (W8_launch m H0 H1 H2 H3 c main_arg1 (by decide) (by decide) (by decide) (by decide) (by decide) (by decide) (by decide) (by decide)),
    (h c _ (mem_uc main_arg2 (by decide))).trans (W8_launch m H0 H1 H2 H3 c main_arg2 (by decide) (by decide) (by decide) (by decide) (by decide) (by decide) (by decide) (by decide)),
    (h c _ (mem_uc main_arg3 (by decide))).trans (W8_launch m H0 H1 H2 H3 c main_arg3 (by decide) (by decide) (by decide) (by decide) (by decide) (by decide) (by decide) (by decide)),
    (h c _ (mem_uc main_arg4 (by decide))).trans (W8_launch m H0 H1 H2 H3 c main_arg4 (by decide) (by decide) (by decide) (by decide) (by decide) (by decide) (by decide) (by decide)),
    (h c _ (mem_uc main_arg5 (by decide))).trans (W8_launch m H0 H1 H2 H3 c main_arg5 (by decide) (by decide) (by decide) (by decide) (by decide) (by decide) (by decide) (by decide)),
    (h c _ (mem_uc main_arg6 (by decide))).trans (W8_launch m H0 H1 H2 H3 c main_arg6 (by decide) (by decide) (by decide) (by decide) (by decide) (by decide) (by decide) (by decide)),
    (h c _ (mem_uc main_arg7 (by decide))).trans (W8_launch m H0 H1 H2 H3 c main_arg7 (by decide) (by decide) (by decide) (by decide) (by decide) (by decide) (by decide) (by decide)),
    (h c _ (mem_uc main_arg8 (by decide))).trans (W8_launch m H0 H1 H2 H3 c main_arg8 (by decide) (by decide) (by decide) (by decide) (by decide) (by decide) (by decide) (by decide)),
    (h c _ (mem_uc main_arg9 (by decide))).trans (W8_launch m H0 H1 H2 H3 c main_arg9 (by decide) (by decide) (by decide) (by decide) (by decide) (by decide) (by decide) (by decide)),
    (h c _ (mem_uc main_arg10 (by decide))).trans (W8_launch m H0 H1 H2 H3 c main_arg10 (by decide) (by decide) (by decide) (by decide) (by decide) (by decide) (by decide) (by decide)),
    (h c _ (mem_uc main_arg11 (by decide))).trans (W8_launch m H0 H1 H2 H3 c main_arg11 (by decide) (by decide) (by decide) (by decide) (by decide) (by decide) (by decide) (by decide)),
    (h c _ (mem_uc main_arg12 (by decide))).trans (W8_launch m H0 H1 H2 H3 c main_arg12 (by decide) (by decide) (by decide) (by decide) (by decide) (by decide) (by decide) (by decide)),
    (h c _ (mem_uc main_arg13 (by decide))).trans (W8_launch m H0 H1 H2 H3 c main_arg13 (by decide) (by decide) (by decide) (by decide) (by decide) (by decide) (by decide) (by decide)),
    (h c _ (mem_uc main_arg14 (by decide))).trans (W8_launch m H0 H1 H2 H3 c main_arg14 (by decide) (by decide) (by decide) (by decide) (by decide) (by decide) (by decide) (by decide)),
    (h c _ (mem_uc main_arg15 (by decide))).trans (W8_launch m H0 H1 H2 H3 c main_arg15 (by decide) (by decide) (by decide) (by decide) (by decide) (by decide) (by decide) (by decide)),
    (h c _ (mem_uc main_arg16 (by decide))).trans (W8_launch m H0 H1 H2 H3 c main_arg16 (by decide) (by decide) (by decide) (by decide) (by decide) (by decide) (by decide) (by decide)),
    (h c _ (mem_uc main_arg17 (by decide))).trans (W8_launch m H0 H1 H2 H3 c main_arg17 (by decide) (by decide) (by decide) (by decide) (by decide) (by decide) (by decide) (by decide)),
    (h c _ (mem_uc main_arg18 (by decide))).trans (W8_launch m H0 H1 H2 H3 c main_arg18 (by decide) (by decide) (by decide) (by decide) (by decide) (by decide) (by decide) (by decide)),
    (h c _ (mem_uc main_arg19 (by decide))).trans (W8_launch m H0 H1 H2 H3 c main_arg19 (by decide) (by decide) (by decide) (by decide) (by decide) (by decide) (by decide) (by decide))⟩) (run_all m H0 H1 H2 H3 ρ)

/-- The run with its results named: the two results are the regions' final arrays, the arguments as launched. -/
theorem values_of (ρ : Dev nD → PrngReg) : θ_run defs (onTc (τ := τ) (main (F := F))) ⟨m, fun _ => 0, ρ⟩ (fun r => ∀ c : Dev nD,
      r.2.mem ((c.tc : Thread nD τ).loc main_v52_1) = (H3.dat (V7 m H0 H1 H2) c).arrAt 7 cfg3.N
      ∧ r.2.mem ((c.tc : Thread nD τ).loc main_v27_1) = (H1.dat (V3 m H0) c).arrAt 7 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)) :=
  (θ_run defs _ _).mono (fun r h c => ⟨(h c _ (mem_uc main_v52_1 (by decide))).trans (W8_result0 m H0 H1 H2 H3 c),
    (h c _ (mem_uc main_v27_1 (by decide))).trans (W8_result1 m H0 H1 H2 H3 c),
    (h c _ (mem_uc main_arg0 (by decide))).trans (W8_launch m H0 H1 H2 H3 c main_arg0 (by decide) (by decide) (by decide) (by decide) (by decide) (by decide) (by decide) (by decide)),
    (h c _ (mem_uc main_arg1 (by decide))).trans (W8_launch m H0 H1 H2 H3 c main_arg1 (by decide) (by decide) (by decide) (by decide) (by decide) (by decide) (by decide) (by decide)),
    (h c _ (mem_uc main_arg2 (by decide))).trans (W8_launch m H0 H1 H2 H3 c main_arg2 (by decide) (by decide) (by decide) (by decide) (by decide) (by decide) (by decide) (by decide)),
    (h c _ (mem_uc main_arg3 (by decide))).trans (W8_launch m H0 H1 H2 H3 c main_arg3 (by decide) (by decide) (by decide) (by decide) (by decide) (by decide) (by decide) (by decide)),
    (h c _ (mem_uc main_arg4 (by decide))).trans (W8_launch m H0 H1 H2 H3 c main_arg4 (by decide) (by decide) (by decide) (by decide) (by decide) (by decide) (by decide) (by decide)),
    (h c _ (mem_uc main_arg5 (by decide))).trans (W8_launch m H0 H1 H2 H3 c main_arg5 (by decide) (by decide) (by decide) (by decide) (by decide) (by decide) (by decide) (by decide)),
    (h c _ (mem_uc main_arg6 (by decide))).trans (W8_launch m H0 H1 H2 H3 c main_arg6 (by decide) (by decide) (by decide) (by decide) (by decide) (by decide) (by decide) (by decide)),
    (h c _ (mem_uc main_arg7 (by decide))).trans (W8_launch m H0 H1 H2 H3 c main_arg7 (by decide) (by decide) (by decide) (by decide) (by decide) (by decide) (by decide) (by decide)),
    (h c _ (mem_uc main_arg8 (by decide))).trans (W8_launch m H0 H1 H2 H3 c main_arg8 (by decide) (by decide) (by decide) (by decide) (by decide) (by decide) (by decide) (by decide)),
    (h c _ (mem_uc main_arg9 (by decide))).trans (W8_launch m H0 H1 H2 H3 c main_arg9 (by decide) (by decide) (by decide) (by decide) (by decide) (by decide) (by decide) (by decide)),
    (h c _ (mem_uc main_arg10 (by decide))).trans (W8_launch m H0 H1 H2 H3 c main_arg10 (by decide) (by decide) (by decide) (by decide) (by decide) (by decide) (by decide) (by decide)),
    (h c _ (mem_uc main_arg11 (by decide))).trans (W8_launch m H0 H1 H2 H3 c main_arg11 (by decide) (by decide) (by decide) (by decide) (by decide) (by decide) (by decide) (by decide)),
    (h c _ (mem_uc main_arg12 (by decide))).trans (W8_launch m H0 H1 H2 H3 c main_arg12 (by decide) (by decide) (by decide) (by decide) (by decide) (by decide) (by decide) (by decide)),
    (h c _ (mem_uc main_arg13 (by decide))).trans (W8_launch m H0 H1 H2 H3 c main_arg13 (by decide) (by decide) (by decide) (by decide) (by decide) (by decide) (by decide) (by decide)),
    (h c _ (mem_uc main_arg14 (by decide))).trans (W8_launch m H0 H1 H2 H3 c main_arg14 (by decide) (by decide) (by decide) (by decide) (by decide) (by decide) (by decide) (by decide)),
    (h c _ (mem_uc main_arg15 (by decide))).trans (W8_launch m H0 H1 H2 H3 c main_arg15 (by decide) (by decide) (by decide) (by decide) (by decide) (by decide) (by decide) (by decide)),
    (h c _ (mem_uc main_arg16 (by decide))).trans (W8_launch m H0 H1 H2 H3 c main_arg16 (by decide) (by decide) (by decide) (by decide) (by decide) (by decide) (by decide) (by decide)),
    (h c _ (mem_uc main_arg17 (by decide))).trans (W8_launch m H0 H1 H2 H3 c main_arg17 (by decide) (by decide) (by decide) (by decide) (by decide) (by decide) (by decide) (by decide)),
    (h c _ (mem_uc main_arg18 (by decide))).trans (W8_launch m H0 H1 H2 H3 c main_arg18 (by decide) (by decide) (by decide) (by decide) (by decide) (by decide) (by decide) (by decide)),
    (h c _ (mem_uc main_arg19 (by decide))).trans (W8_launch m H0 H1 H2 H3 c main_arg19 (by decide) (by decide) (by decide) (by decide) (by decide) (by decide) (by decide) (by decide))⟩) (run_all m H0 H1 H2 H3 ρ)

end Cert.Kernel.Run

end
-- ==== Proof.K.Reg0.Runs.lean ====
/- REGION 0 of @main (cc0__mlp_stats_kernel), stated at a PARAMETER `V` — the TensorCore's buffer contents when the region is
   entered: each window's block at a grid point, the input windows' staging contents at every point, the body's one
   branch condition in closed form over the grid, and the names the two whole-body runs are stated over. -/
import proofs.«170818_j15161234555428_1_alg».proof.Proof.K.Launch
import proofs.«170818_j15161234555428_1_alg».proof.Proof.Gen.Kernel.Skeleton
import proofs.«170818_j15161234555428_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of full extents: the structural check recurses once per coordinate of the long axes
set_option maxRecDepth 16384

noncomputable section

namespace Cert.Kernel.Reg

open Cert.Kernel Cert.Kernel.Gen Cert.Kernel.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for any proof data
    whose array is `V`'s and whose body leaves the block in place: unfetched, the block index has not moved. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- Input window 1's current staging buffer holds its block at every point, fetched there or not, for any proof data
    whose array is `V`'s and whose body leaves the block in place: unfetched, the block index has not moved. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- Input window 2's current staging buffer holds its block at every point, fetched there or not, for any proof data
    whose array is `V`'s and whose body leaves the block in place: unfetched, the block index has not moved. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
/-- Input window 3's current staging buffer holds its block at every point, fetched there or not, for any proof data
    whose array is `V`'s and whose body leaves the block in place: unfetched, the block index has not moved. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
/-- Input window 4's current staging buffer holds its block at every point, fetched there or not, for any proof data
    whose array is `V`'s and whose body leaves the block in place: unfetched, the block index has not moved. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)
/-- Input window 5's current staging buffer holds its block at every point, fetched there or not, for any proof data
    whose array is `V`'s and whose body leaves the block in place: unfetched, the block index has not moved. -/
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)
/-- Input window 6's current staging buffer holds its block at every point, fetched there or not, for any proof data
    whose array is `V`'s and whose body leaves the block in place: unfetched, the block index has not moved. -/
theorem before0_6_of {c : Dev nD} (dat : Dat τ (Elt F) Unit ℕ (UR sig nD τ) ℕ cfg0 c) (hA : dat.A 6 = V c (Pipeline.arrRef spec0 6))
    (hafter : ∀ t, dat.after 6 t = iblk0 V c 6 t) (t : Fin cfg0.N) (d) : dat.before 6 t d = iblk0 V c 6 t :=
  (dat.before_in_eq_fetched 6 rfl (fun _ => rfl) (fun _ _ _ => rfl) (fun t => by rw [hafter]; unfold Dat.blockOf iblk0; rw [hA]; try rfl) t d).trans
    (by unfold Dat.fetched Dat.blockOf iblk0; rw [hA]; try rfl)

/-! ## The body's branch condition -/

/-- The condition of the body's one conditional (the accumulators are zeroed under it), from the grid coordinates. -/
abbrev cond0_0 (i : grid0.Coords) : Prop := (Scalar.cmpi .ne (Scalar.extui (Scalar.cmpi .eq (BitVec.ofNat 32 (i 0).val) 0#32)) 0#32) = 1#1
/-- It holds at the first point only — decided over the grid. -/
theorem hcond0_0 : ∀ t : Fin cfg0.N, cond0_0 (grid0.coords t) ↔ t.val % 128 = 0 :=
  (by decide +kernel : ∀ t : Fin grid0.N, cond0_0 (grid0.coords t) ↔ t.val % 128 = 0)

/-! ## The staging memrefs -/

/-- One staging buffer of output window 7, through which its contents are stated (the choice does not matter). -/
abbrev VO0_7 : View sig .tc .vmem S5000x128 .f32 := (Memref.whole cc0_stg7_0 : Memref sig .tc .vmem S5000x128 .f32).view
/-- One staging buffer of output window 8, through which its contents are stated (the choice does not matter). -/
abbrev VO0_8 : View sig .tc .vmem S1x128 .f32 := (Memref.whole cc0_stg8_0 : Memref sig .tc .vmem S1x128 .f32).view
/-- One staging buffer of output window 9, through which its contents are stated (the choice does not matter). -/
abbrev VO0_9 : View sig .tc .vmem S1x128 .f32 := (Memref.whole cc0_stg9_0 : Memref sig .tc .vmem S1x128 .f32).view
/-- Each window's current staging memref at point `t`, spelled as the pipeline passes it, and its wholeness. -/
abbrev ms0_0 (t : Fin cfg0.N) : Memref sig .tc .vmem S5000x384 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S384x128 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x128 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S128x128 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x128 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S128x128 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x128 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S5000x128 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1x128 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S1x128 .f32 := win0_9.stage (cfg0.slots t 9)
abbrev hs0_9 (t : Fin cfg0.N) : (ms0_9 t).IsWhole := hstage0_9 ((cfg0.slots t 9).cast nbuf0_9)

end Cert.Kernel.Reg

end
-- ==== Proof.K.Reg0.RunA.lean ====
/- REGION 0, the whole-body run of cc0__mlp_stats_kernel in the case "first grid point: the accumulators are zeroed":
   the body's triple on whole staging memrefs, with the pieces each output's buffer ends with as the witness the run finds. -/
import proofs.«170818_j15161234555428_1_alg».proof.Proof.K.Reg0.Runs

-- membership in a rectangle of full extents: the structural check recurses once per coordinate of the long axes
set_option maxRecDepth 16384

noncomputable section

namespace Cert.Kernel.Reg

open Cert.Kernel Cert.Kernel.Gen Cert.Kernel.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large: the definition's epilogue walks it past the default budget)
set_option maxHeartbeats 4000000 in
/-- What the body's stores leave in each output's staging memref, as pieces (last first), in this case, WITH the proof
    that on whole staging memrefs — the inputs' at their contents, every output's at anything — the body runs to the
    continuation holding the inputs' as they were and each output's buffer with its pieces written. -/
noncomputable def kernelRun0_A (c : Dev nD) (i : grid0.Coords) (arg1 : Memref sig .tc .vmem S5000x384 .f32) (harg1 : arg1.IsWhole) (arg2 : Memref sig .tc .vmem S384x128 .f32) (harg2 : arg2.IsWhole) (arg3 : Memref sig .tc .vmem S1x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S5000x128 .f32) (harg8 : arg8.IsWhole) (arg9 : Memref sig .tc .vmem S1x128 .f32) (harg9 : arg9.IsWhole) (arg10 : Memref sig .tc .vmem S1x128 .f32) (harg10 : arg10.IsWhole) (hc0 : cond0_0 i)
    (x0 : Vec F S5000x384 .f32) (x1 : Vec F S384x128 .f32) (x2 : Vec F S1x128 .f32) (x3 : Vec F S128x128 .f32) (x4 : Vec F S1x128 .f32) (x5 : Vec F S128x128 .f32) (x6 : Vec F S1x128 .f32) :
    Σ' (L7 : List (View.Piece (Elt F) S5000x128 .f32)), Σ' (L8 : List (View.Piece (Elt F) S1x128 .f32)), { L9 : List (View.Piece (Elt F) S1x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ (∃ d, owns (c : Thread nD τ) arg9 fullShare d) ∗ (∃ d, owns (c : Thread nD τ) arg10 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ f, arg8.view.loc (c : Thread nD τ) ↦[arg8.view.set]{fullShare} arg8.view.writes (Elt F) f L7) ∗ (∃ f, arg9.view.loc (c : Thread nD τ) ↦[arg9.view.set]{fullShare} arg9.view.writes (Elt F) f L8) ∗ (∃ f, arg10.view.loc (c : Thread nD τ) ↦[arg10.view.set]{fullShare} arg10.view.writes (Elt F) f L9)) -∗ K ⟨⟩))
          ⊢ wp frame (wpE (defs₀ (F := F)) Variants.none c none) E (cc0__mlp_stats_kernel i arg1 harg1 arg2 harg2 arg3 harg3 arg4 harg4 arg5 harg5 arg6 harg6 arg7 harg7 arg8 harg8 arg9 harg9 arg10 harg10) K } := by
  refine ⟨?_, ?_, ?_, fun E K => ?run⟩
  case run =>
    simp only [cc0__mlp_stats_kernel_eq_skeleton]; unfold cc0__mlp_stats_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]; · iexists _; iexact H7
    isplitl [H8]; · iexists _; iexact H8
    iexists _; iexact H9

end Cert.Kernel.Reg

end
-- ==== Proof.K.Reg0.RunB.lean ====
/- REGION 0, the whole-body run of cc0__mlp_stats_kernel in the case "a later grid point: the accumulators are read back":
   the body's triple on whole staging memrefs, with the pieces each output's buffer ends with as the witness the run finds. -/
import proofs.«170818_j15161234555428_1_alg».proof.Proof.K.Reg0.RunA

-- membership in a rectangle of full extents: the structural check recurses once per coordinate of the long axes
set_option maxRecDepth 16384

noncomputable section

namespace Cert.Kernel.Reg

open Cert.Kernel Cert.Kernel.Gen Cert.Kernel.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large: the definition's epilogue walks it past the default budget)
set_option maxHeartbeats 4000000 in
/-- What the body's stores leave in each output's staging memref, as pieces (last first), in this case, WITH the proof
    that on whole staging memrefs — the inputs' at their contents, the two accumulators' at their running contents, the third output's at anything — the body runs to the
    continuation holding the inputs' as they were and each output's buffer with its pieces written. -/
noncomputable def kernelRun0_B (c : Dev nD) (i : grid0.Coords) (arg1 : Memref sig .tc .vmem S5000x384 .f32) (harg1 : arg1.IsWhole) (arg2 : Memref sig .tc .vmem S384x128 .f32) (harg2 : arg2.IsWhole) (arg3 : Memref sig .tc .vmem S1x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S5000x128 .f32) (harg8 : arg8.IsWhole) (arg9 : Memref sig .tc .vmem S1x128 .f32) (harg9 : arg9.IsWhole) (arg10 : Memref sig .tc .vmem S1x128 .f32) (harg10 : arg10.IsWhole) (hc0 : ¬cond0_0 i)
    (x0 : Vec F S5000x384 .f32) (x1 : Vec F S384x128 .f32) (x2 : Vec F S1x128 .f32) (x3 : Vec F S128x128 .f32) (x4 : Vec F S1x128 .f32) (x5 : Vec F S128x128 .f32) (x6 : Vec F S1x128 .f32) (xo8 : Vec F S1x128 .f32) (xo9 : Vec F S1x128 .f32) :
    Σ' (L7 : List (View.Piece (Elt F) S5000x128 .f32)), Σ' (L8 : List (View.Piece (Elt F) S1x128 .f32)), { L9 : List (View.Piece (Elt F) S1x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ owns (c : Thread nD τ) arg9 fullShare xo8 ∗ owns (c : Thread nD τ) arg10 fullShare xo9
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ f, arg8.view.loc (c : Thread nD τ) ↦[arg8.view.set]{fullShare} arg8.view.writes (Elt F) f L7) ∗ (∃ f, arg9.view.loc (c : Thread nD τ) ↦[arg9.view.set]{fullShare} arg9.view.writes (Elt F) f L8) ∗ (∃ f, arg10.view.loc (c : Thread nD τ) ↦[arg10.view.set]{fullShare} arg10.view.writes (Elt F) f L9)) -∗ K ⟨⟩))
          ⊢ wp frame (wpE (defs₀ (F := F)) Variants.none c none) E (cc0__mlp_stats_kernel i arg1 harg1 arg2 harg2 arg3 harg3 arg4 harg4 arg5 harg5 arg6 harg6 arg7 harg7 arg8 harg8 arg9 harg9 arg10 harg10) K } := by
  refine ⟨?_, ?_, ?_, fun E K => ?run⟩
  case run =>
    simp only [cc0__mlp_stats_kernel_eq_skeleton]; unfold cc0__mlp_stats_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%f8, %hf8, H8⟩, ⟨%f9, %hf9, H9⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg9.eq_unread hf8; obtain rfl := harg10.eq_unread hf9
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]; · iexists _; iexact H7
    isplitl [H8]; · iexists _; iexact H8
    iexists _; iexact H9

end Cert.Kernel.Reg

end
-- ==== Proof.K.Reg0.lean ====
/- REGION 0 of @main (cc0__mlp_stats_kernel: a three-layer perceptron on a block of rows, with the column sums of its output and of
   its square accumulated over the grid), at the entry contents `V`: what each output's staging buffer holds per case
   and point by point (the accumulators by recursion on the point), the pipeline's proof data, and the body obligation. -/
import proofs.«170818_j15161234555428_1_alg».proof.Proof.K.Reg0.RunB

-- membership in a rectangle of full extents: the structural check recurses once per coordinate of the long axes
set_option maxRecDepth 16384

noncomputable section

namespace Cert.Kernel.Reg

open Cert.Kernel Cert.Kernel.Gen Cert.Kernel.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The pieces the run of case A finds for output 7 tile its block, so they cover it. -/
theorem cover0_A_7 (c : Dev nD) (i : grid0.Coords) (arg1 : Memref sig .tc .vmem S5000x384 .f32) (harg1 : arg1.IsWhole) (arg2 : Memref sig .tc .vmem S384x128 .f32) (harg2 : arg2.IsWhole) (arg3 : Memref sig .tc .vmem S1x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S5000x128 .f32) (harg8 : arg8.IsWhole) (arg9 : Memref sig .tc .vmem S1x128 .f32) (harg9 : arg9.IsWhole) (arg10 : Memref sig .tc .vmem S1x128 .f32) (harg10 : arg10.IsWhole) (hc0 : cond0_0 i)
    (x0 : Vec F S5000x384 .f32) (x1 : Vec F S384x128 .f32) (x2 : Vec F S1x128 .f32) (x3 : Vec F S128x128 .f32) (x4 : Vec F S1x128 .f32) (x5 : Vec F S128x128 .f32) (x6 : Vec F S1x128 .f32) (y : S5000x128.Idx) :
    ∃ pc ∈ (kernelRun0_A c i arg1 harg1 arg2 harg2 arg3 harg3 arg4 harg4 arg5 harg5 arg6 harg6 arg7 harg7 arg8 harg8 arg9 harg9 arg10 harg10 hc0 x0 x1 x2 x3 x4 x5 x6).1, y ∈ pc.1.set :=
  View.cover_of_tiledL (kernelRun0_A c i arg1 harg1 arg2 harg2 arg3 harg3 arg4 harg4 arg5 harg5 arg6 harg6 arg7 harg7 arg8 harg8 arg9 harg9 arg10 harg10 hc0 x0 x1 x2 x3 x4 x5 x6).1 S5000x128.size (by sl_kernel_rfl) y

/-- What case A leaves in output 7's staging buffer: its pieces read back. -/
def out0_A_7 (c : Dev nD) (i : grid0.Coords) (arg1 : Memref sig .tc .vmem S5000x384 .f32) (harg1 : arg1.IsWhole) (arg2 : Memref sig .tc .vmem S384x128 .f32) (harg2 : arg2.IsWhole) (arg3 : Memref sig .tc .vmem S1x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S5000x128 .f32) (harg8 : arg8.IsWhole) (arg9 : Memref sig .tc .vmem S1x128 .f32) (harg9 : arg9.IsWhole) (arg10 : Memref sig .tc .vmem S1x128 .f32) (harg10 : arg10.IsWhole) (hc0 : cond0_0 i)
    (x0 : Vec F S5000x384 .f32) (x1 : Vec F S384x128 .f32) (x2 : Vec F S1x128 .f32) (x3 : Vec F S128x128 .f32) (x4 : Vec F S1x128 .f32) (x5 : Vec F S128x128 .f32) (x6 : Vec F S1x128 .f32) : Vec F S5000x128 .f32 :=
  VO0_7.read (Elt F) (VO0_7.writes (Elt F) VO0_7.junk (kernelRun0_A c i arg1 harg1 arg2 harg2 arg3 harg3 arg4 harg4 arg5 harg5 arg6 harg6 arg7 harg7 arg8 harg8 arg9 harg9 arg10 harg10 hc0 x0 x1 x2 x3 x4 x5 x6).1)

/-- The pieces the run of case A finds for output 8 tile its block, so they cover it. -/
theorem cover0_A_8 (c : Dev nD) (i : grid0.Coords) (arg1 : Memref sig .tc .vmem S5000x384 .f32) (harg1 : arg1.IsWhole) (arg2 : Memref sig .tc .vmem S384x128 .f32) (harg2 : arg2.IsWhole) (arg3 : Memref sig .tc .vmem S1x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S5000x128 .f32) (harg8 : arg8.IsWhole) (arg9 : Memref sig .tc .vmem S1x128 .f32) (harg9 : arg9.IsWhole) (arg10 : Memref sig .tc .vmem S1x128 .f32) (harg10 : arg10.IsWhole) (hc0 : cond0_0 i)
    (x0 : Vec F S5000x384 .f32) (x1 : Vec F S384x128 .f32) (x2 : Vec F S1x128 .f32) (x3 : Vec F S128x128 .f32) (x4 : Vec F S1x128 .f32) (x5 : Vec F S128x128 .f32) (x6 : Vec F S1x128 .f32) (y : S1x128.Idx) :
    ∃ pc ∈ (kernelRun0_A c i arg1 harg1 arg2 harg2 arg3 harg3 arg4 harg4 arg5 harg5 arg6 harg6 arg7 harg7 arg8 harg8 arg9 harg9 arg10 harg10 hc0 x0 x1 x2 x3 x4 x5 x6).2.1, y ∈ pc.1.set :=
  View.cover_of_tiledL (kernelRun0_A c i arg1 harg1 arg2 harg2 arg3 harg3 arg4 harg4 arg5 harg5 arg6 harg6 arg7 harg7 arg8 harg8 arg9 harg9 arg10 harg10 hc0 x0 x1 x2 x3 x4 x5 x6).2.1 S1x128.size (by sl_kernel_rfl) y

/-- What case A leaves in output 8's staging buffer: its pieces read back. -/
def out0_A_8 (c : Dev nD) (i : grid0.Coords) (arg1 : Memref sig .tc .vmem S5000x384 .f32) (harg1 : arg1.IsWhole) (arg2 : Memref sig .tc .vmem S384x128 .f32) (harg2 : arg2.IsWhole) (arg3 : Memref sig .tc .vmem S1x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S5000x128 .f32) (harg8 : arg8.IsWhole) (arg9 : Memref sig .tc .vmem S1x128 .f32) (harg9 : arg9.IsWhole) (arg10 : Memref sig .tc .vmem S1x128 .f32) (harg10 : arg10.IsWhole) (hc0 : cond0_0 i)
    (x0 : Vec F S5000x384 .f32) (x1 : Vec F S384x128 .f32) (x2 : Vec F S1x128 .f32) (x3 : Vec F S128x128 .f32) (x4 : Vec F S1x128 .f32) (x5 : Vec F S128x128 .f32) (x6 : Vec F S1x128 .f32) : Vec F S1x128 .f32 :=
  VO0_8.read (Elt F) (VO0_8.writes (Elt F) VO0_8.junk (kernelRun0_A c i arg1 harg1 arg2 harg2 arg3 harg3 arg4 harg4 arg5 harg5 arg6 harg6 arg7 harg7 arg8 harg8 arg9 harg9 arg10 harg10 hc0 x0 x1 x2 x3 x4 x5 x6).2.1)

/-- The pieces the run of case A finds for output 9 tile its block, so they cover it. -/
theorem cover0_A_9 (c : Dev nD) (i : grid0.Coords) (arg1 : Memref sig .tc .vmem S5000x384 .f32) (harg1 : arg1.IsWhole) (arg2 : Memref sig .tc .vmem S384x128 .f32) (harg2 : arg2.IsWhole) (arg3 : Memref sig .tc .vmem S1x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S5000x128 .f32) (harg8 : arg8.IsWhole) (arg9 : Memref sig .tc .vmem S1x128 .f32) (harg9 : arg9.IsWhole) (arg10 : Memref sig .tc .vmem S1x128 .f32) (harg10 : arg10.IsWhole) (hc0 : cond0_0 i)
    (x0 : Vec F S5000x384 .f32) (x1 : Vec F S384x128 .f32) (x2 : Vec F S1x128 .f32) (x3 : Vec F S128x128 .f32) (x4 : Vec F S1x128 .f32) (x5 : Vec F S128x128 .f32) (x6 : Vec F S1x128 .f32) (y : S1x128.Idx) :
    ∃ pc ∈ (kernelRun0_A c i arg1 harg1 arg2 harg2 arg3 harg3 arg4 harg4 arg5 harg5 arg6 harg6 arg7 harg7 arg8 harg8 arg9 harg9 arg10 harg10 hc0 x0 x1 x2 x3 x4 x5 x6).2.2.1, y ∈ pc.1.set :=
  View.cover_of_tiledL (kernelRun0_A c i arg1 harg1 arg2 harg2 arg3 harg3 arg4 harg4 arg5 harg5 arg6 harg6 arg7 harg7 arg8 harg8 arg9 harg9 arg10 harg10 hc0 x0 x1 x2 x3 x4 x5 x6).2.2.1 S1x128.size (by sl_kernel_rfl) y

/-- What case A leaves in output 9's staging buffer: its pieces read back. -/
def out0_A_9 (c : Dev nD) (i : grid0.Coords) (arg1 : Memref sig .tc .vmem S5000x384 .f32) (harg1 : arg1.IsWhole) (arg2 : Memref sig .tc .vmem S384x128 .f32) (harg2 : arg2.IsWhole) (arg3 : Memref sig .tc .vmem S1x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S5000x128 .f32) (harg8 : arg8.IsWhole) (arg9 : Memref sig .tc .vmem S1x128 .f32) (harg9 : arg9.IsWhole) (arg10 : Memref sig .tc .vmem S1x128 .f32) (harg10 : arg10.IsWhole) (hc0 : cond0_0 i)
    (x0 : Vec F S5000x384 .f32) (x1 : Vec F S384x128 .f32) (x2 : Vec F S1x128 .f32) (x3 : Vec F S128x128 .f32) (x4 : Vec F S1x128 .f32) (x5 : Vec F S128x128 .f32) (x6 : Vec F S1x128 .f32) : Vec F S1x128 .f32 :=
  VO0_9.read (Elt F) (VO0_9.writes (Elt F) VO0_9.junk (kernelRun0_A c i arg1 harg1 arg2 harg2 arg3 harg3 arg4 harg4 arg5 harg5 arg6 harg6 arg7 harg7 arg8 harg8 arg9 harg9 arg10 harg10 hc0 x0 x1 x2 x3 x4 x5 x6).2.2.1)

/-- The pieces the run of case B finds for output 7 tile its block, so they cover it. -/
theorem cover0_B_7 (c : Dev nD) (i : grid0.Coords) (arg1 : Memref sig .tc .vmem S5000x384 .f32) (harg1 : arg1.IsWhole) (arg2 : Memref sig .tc .vmem S384x128 .f32) (harg2 : arg2.IsWhole) (arg3 : Memref sig .tc .vmem S1x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S5000x128 .f32) (harg8 : arg8.IsWhole) (arg9 : Memref sig .tc .vmem S1x128 .f32) (harg9 : arg9.IsWhole) (arg10 : Memref sig .tc .vmem S1x128 .f32) (harg10 : arg10.IsWhole) (hc0 : ¬cond0_0 i)
    (x0 : Vec F S5000x384 .f32) (x1 : Vec F S384x128 .f32) (x2 : Vec F S1x128 .f32) (x3 : Vec F S128x128 .f32) (x4 : Vec F S1x128 .f32) (x5 : Vec F S128x128 .f32) (x6 : Vec F S1x128 .f32) (xo8 : Vec F S1x128 .f32) (xo9 : Vec F S1x128 .f32) (y : S5000x128.Idx) :
    ∃ pc ∈ (kernelRun0_B c i arg1 harg1 arg2 harg2 arg3 harg3 arg4 harg4 arg5 harg5 arg6 harg6 arg7 harg7 arg8 harg8 arg9 harg9 arg10 harg10 hc0 x0 x1 x2 x3 x4 x5 x6 xo8 xo9).1, y ∈ pc.1.set :=
  View.cover_of_tiledL (kernelRun0_B c i arg1 harg1 arg2 harg2 arg3 harg3 arg4 harg4 arg5 harg5 arg6 harg6 arg7 harg7 arg8 harg8 arg9 harg9 arg10 harg10 hc0 x0 x1 x2 x3 x4 x5 x6 xo8 xo9).1 S5000x128.size (by sl_kernel_rfl) y

/-- What case B leaves in output 7's staging buffer: its pieces read back. -/
def out0_B_7 (c : Dev nD) (i : grid0.Coords) (arg1 : Memref sig .tc .vmem S5000x384 .f32) (harg1 : arg1.IsWhole) (arg2 : Memref sig .tc .vmem S384x128 .f32) (harg2 : arg2.IsWhole) (arg3 : Memref sig .tc .vmem S1x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S5000x128 .f32) (harg8 : arg8.IsWhole) (arg9 : Memref sig .tc .vmem S1x128 .f32) (harg9 : arg9.IsWhole) (arg10 : Memref sig .tc .vmem S1x128 .f32) (harg10 : arg10.IsWhole) (hc0 : ¬cond0_0 i)
    (x0 : Vec F S5000x384 .f32) (x1 : Vec F S384x128 .f32) (x2 : Vec F S1x128 .f32) (x3 : Vec F S128x128 .f32) (x4 : Vec F S1x128 .f32) (x5 : Vec F S128x128 .f32) (x6 : Vec F S1x128 .f32) (xo8 : Vec F S1x128 .f32) (xo9 : Vec F S1x128 .f32) : Vec F S5000x128 .f32 :=
  VO0_7.read (Elt F) (VO0_7.writes (Elt F) VO0_7.junk (kernelRun0_B c i arg1 harg1 arg2 harg2 arg3 harg3 arg4 harg4 arg5 harg5 arg6 harg6 arg7 harg7 arg8 harg8 arg9 harg9 arg10 harg10 hc0 x0 x1 x2 x3 x4 x5 x6 xo8 xo9).1)

/-- The pieces the run of case B finds for output 8 tile its block, so they cover it. -/
theorem cover0_B_8 (c : Dev nD) (i : grid0.Coords) (arg1 : Memref sig .tc .vmem S5000x384 .f32) (harg1 : arg1.IsWhole) (arg2 : Memref sig .tc .vmem S384x128 .f32) (harg2 : arg2.IsWhole) (arg3 : Memref sig .tc .vmem S1x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S5000x128 .f32) (harg8 : arg8.IsWhole) (arg9 : Memref sig .tc .vmem S1x128 .f32) (harg9 : arg9.IsWhole) (arg10 : Memref sig .tc .vmem S1x128 .f32) (harg10 : arg10.IsWhole) (hc0 : ¬cond0_0 i)
    (x0 : Vec F S5000x384 .f32) (x1 : Vec F S384x128 .f32) (x2 : Vec F S1x128 .f32) (x3 : Vec F S128x128 .f32) (x4 : Vec F S1x128 .f32) (x5 : Vec F S128x128 .f32) (x6 : Vec F S1x128 .f32) (xo8 : Vec F S1x128 .f32) (xo9 : Vec F S1x128 .f32) (y : S1x128.Idx) :
    ∃ pc ∈ (kernelRun0_B c i arg1 harg1 arg2 harg2 arg3 harg3 arg4 harg4 arg5 harg5 arg6 harg6 arg7 harg7 arg8 harg8 arg9 harg9 arg10 harg10 hc0 x0 x1 x2 x3 x4 x5 x6 xo8 xo9).2.1, y ∈ pc.1.set :=
  View.cover_of_tiledL (kernelRun0_B c i arg1 harg1 arg2 harg2 arg3 harg3 arg4 harg4 arg5 harg5 arg6 harg6 arg7 harg7 arg8 harg8 arg9 harg9 arg10 harg10 hc0 x0 x1 x2 x3 x4 x5 x6 xo8 xo9).2.1 S1x128.size (by sl_kernel_rfl) y

/-- What case B leaves in output 8's staging buffer: its pieces read back. -/
def out0_B_8 (c : Dev nD) (i : grid0.Coords) (arg1 : Memref sig .tc .vmem S5000x384 .f32) (harg1 : arg1.IsWhole) (arg2 : Memref sig .tc .vmem S384x128 .f32) (harg2 : arg2.IsWhole) (arg3 : Memref sig .tc .vmem S1x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S5000x128 .f32) (harg8 : arg8.IsWhole) (arg9 : Memref sig .tc .vmem S1x128 .f32) (harg9 : arg9.IsWhole) (arg10 : Memref sig .tc .vmem S1x128 .f32) (harg10 : arg10.IsWhole) (hc0 : ¬cond0_0 i)
    (x0 : Vec F S5000x384 .f32) (x1 : Vec F S384x128 .f32) (x2 : Vec F S1x128 .f32) (x3 : Vec F S128x128 .f32) (x4 : Vec F S1x128 .f32) (x5 : Vec F S128x128 .f32) (x6 : Vec F S1x128 .f32) (xo8 : Vec F S1x128 .f32) (xo9 : Vec F S1x128 .f32) : Vec F S1x128 .f32 :=
  VO0_8.read (Elt F) (VO0_8.writes (Elt F) VO0_8.junk (kernelRun0_B c i arg1 harg1 arg2 harg2 arg3 harg3 arg4 harg4 arg5 harg5 arg6 harg6 arg7 harg7 arg8 harg8 arg9 harg9 arg10 harg10 hc0 x0 x1 x2 x3 x4 x5 x6 xo8 xo9).2.1)

/-- The pieces the run of case B finds for output 9 tile its block, so they cover it. -/
theorem cover0_B_9 (c : Dev nD) (i : grid0.Coords) (arg1 : Memref sig .tc .vmem S5000x384 .f32) (harg1 : arg1.IsWhole) (arg2 : Memref sig .tc .vmem S384x128 .f32) (harg2 : arg2.IsWhole) (arg3 : Memref sig .tc .vmem S1x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S5000x128 .f32) (harg8 : arg8.IsWhole) (arg9 : Memref sig .tc .vmem S1x128 .f32) (harg9 : arg9.IsWhole) (arg10 : Memref sig .tc .vmem S1x128 .f32) (harg10 : arg10.IsWhole) (hc0 : ¬cond0_0 i)
    (x0 : Vec F S5000x384 .f32) (x1 : Vec F S384x128 .f32) (x2 : Vec F S1x128 .f32) (x3 : Vec F S128x128 .f32) (x4 : Vec F S1x128 .f32) (x5 : Vec F S128x128 .f32) (x6 : Vec F S1x128 .f32) (xo8 : Vec F S1x128 .f32) (xo9 : Vec F S1x128 .f32) (y : S1x128.Idx) :
    ∃ pc ∈ (kernelRun0_B c i arg1 harg1 arg2 harg2 arg3 harg3 arg4 harg4 arg5 harg5 arg6 harg6 arg7 harg7 arg8 harg8 arg9 harg9 arg10 harg10 hc0 x0 x1 x2 x3 x4 x5 x6 xo8 xo9).2.2.1, y ∈ pc.1.set :=
  View.cover_of_tiledL (kernelRun0_B c i arg1 harg1 arg2 harg2 arg3 harg3 arg4 harg4 arg5 harg5 arg6 harg6 arg7 harg7 arg8 harg8 arg9 harg9 arg10 harg10 hc0 x0 x1 x2 x3 x4 x5 x6 xo8 xo9).2.2.1 S1x128.size (by sl_kernel_rfl) y

/-- What case B leaves in output 9's staging buffer: its pieces read back. -/
def out0_B_9 (c : Dev nD) (i : grid0.Coords) (arg1 : Memref sig .tc .vmem S5000x384 .f32) (harg1 : arg1.IsWhole) (arg2 : Memref sig .tc .vmem S384x128 .f32) (harg2 : arg2.IsWhole) (arg3 : Memref sig .tc .vmem S1x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S5000x128 .f32) (harg8 : arg8.IsWhole) (arg9 : Memref sig .tc .vmem S1x128 .f32) (harg9 : arg9.IsWhole) (arg10 : Memref sig .tc .vmem S1x128 .f32) (harg10 : arg10.IsWhole) (hc0 : ¬cond0_0 i)
    (x0 : Vec F S5000x384 .f32) (x1 : Vec F S384x128 .f32) (x2 : Vec F S1x128 .f32) (x3 : Vec F S128x128 .f32) (x4 : Vec F S1x128 .f32) (x5 : Vec F S128x128 .f32) (x6 : Vec F S1x128 .f32) (xo8 : Vec F S1x128 .f32) (xo9 : Vec F S1x128 .f32) : Vec F S1x128 .f32 :=
  VO0_9.read (Elt F) (VO0_9.writes (Elt F) VO0_9.junk (kernelRun0_B c i arg1 harg1 arg2 harg2 arg3 harg3 arg4 harg4 arg5 harg5 arg6 harg6 arg7 harg7 arg8 harg8 arg9 harg9 arg10 harg10 hc0 x0 x1 x2 x3 x4 x5 x6 xo8 xo9).2.2.1)

/-! ## What the outputs hold after each point -/

/-- THE ACCUMULATION. What the three outputs' staging buffers hold after the body at position `n` (in window order):
    at the first point the zeroing case, at a later point the other case run over what the two accumulators held after
    position `n - 1` (their buffers are not written back in between). -/
def outsAt0 (c : Dev nD) : (n : ℕ) → n < cfg0.N → Vec F S5000x128 .f32 × Vec F S1x128 .f32 × Vec F S1x128 .f32
  | 0, hn => (out0_A_7 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) ((hcond0_0 ⟨0, hn⟩).mpr (Nat.zero_mod _)) (iblk0 V c 0 ⟨0, hn⟩) (iblk0 V c 1 ⟨0, hn⟩) (iblk0 V c 2 ⟨0, hn⟩) (iblk0 V c 3 ⟨0, hn⟩) (iblk0 V c 4 ⟨0, hn⟩) (iblk0 V c 5 ⟨0, hn⟩) (iblk0 V c 6 ⟨0, hn⟩), out0_A_8 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) ((hcond0_0 ⟨0, hn⟩).mpr (Nat.zero_mod _)) (iblk0 V c 0 ⟨0, hn⟩) (iblk0 V c 1 ⟨0, hn⟩) (iblk0 V c 2 ⟨0, hn⟩) (iblk0 V c 3 ⟨0, hn⟩) (iblk0 V c 4 ⟨0, hn⟩) (iblk0 V c 5 ⟨0, hn⟩) (iblk0 V c 6 ⟨0, hn⟩), out0_A_9 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) ((hcond0_0 ⟨0, hn⟩).mpr (Nat.zero_mod _)) (iblk0 V c 0 ⟨0, hn⟩) (iblk0 V c 1 ⟨0, hn⟩) (iblk0 V c 2 ⟨0, hn⟩) (iblk0 V c 3 ⟨0, hn⟩) (iblk0 V c 4 ⟨0, hn⟩) (iblk0 V c 5 ⟨0, hn⟩) (iblk0 V c 6 ⟨0, hn⟩))
  | n + 1, hn =>
    if h0 : (n + 1) % 128 = 0 then
      (out0_A_7 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) ((hcond0_0 ⟨n + 1, hn⟩).mpr h0) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (iblk0 V c 6 ⟨n + 1, hn⟩), out0_A_8 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) ((hcond0_0 ⟨n + 1, hn⟩).mpr h0) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (iblk0 V c 6 ⟨n + 1, hn⟩), out0_A_9 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) ((hcond0_0 ⟨n + 1, hn⟩).mpr h0) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (iblk0 V c 6 ⟨n + 1, hn⟩))
    else
      (out0_B_7 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (fun h => h0 ((hcond0_0 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (iblk0 V c 6 ⟨n + 1, hn⟩) (outsAt0 c n (Nat.lt_of_succ_lt hn)).2.1 (outsAt0 c n (Nat.lt_of_succ_lt hn)).2.2, out0_B_8 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (fun h => h0 ((hcond0_0 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (iblk0 V c 6 ⟨n + 1, hn⟩) (outsAt0 c n (Nat.lt_of_succ_lt hn)).2.1 (outsAt0 c n (Nat.lt_of_succ_lt hn)).2.2, out0_B_9 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (fun h => h0 ((hcond0_0 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (iblk0 V c 6 ⟨n + 1, hn⟩) (outsAt0 c n (Nat.lt_of_succ_lt hn)).2.1 (outsAt0 c n (Nat.lt_of_succ_lt hn)).2.2)

/-- `outsAt0` at the first point: the zeroing case's contents. -/
theorem outsAt0_A (c : Dev nD) (t : Fin cfg0.N) (h0 : t.val % 128 = 0) :
    outsAt0 V c t.val t.isLt = (out0_A_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) ((hcond0_0 t).mpr h0) (iblk0 V c 0 t) (iblk0 V c 1 t) (iblk0 V c 2 t) (iblk0 V c 3 t) (iblk0 V c 4 t) (iblk0 V c 5 t) (iblk0 V c 6 t), out0_A_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) ((hcond0_0 t).mpr h0) (iblk0 V c 0 t) (iblk0 V c 1 t) (iblk0 V c 2 t) (iblk0 V c 3 t) (iblk0 V c 4 t) (iblk0 V c 5 t) (iblk0 V c 6 t), out0_A_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) ((hcond0_0 t).mpr h0) (iblk0 V c 0 t) (iblk0 V c 1 t) (iblk0 V c 2 t) (iblk0 V c 3 t) (iblk0 V c 4 t) (iblk0 V c 5 t) (iblk0 V c 6 t)) := by
  obtain ⟨n, hn⟩ := t
  cases n with
  | zero => exact rfl
  | succ n => exact (dif_pos h0).trans rfl

/-- `outsAt0` at a later point: the accumulating case's contents, over what the point before left. -/
theorem outsAt0_B (c : Dev nD) (t : Fin cfg0.N) (h0 : ¬t.val % 128 = 0) :
    outsAt0 V c t.val t.isLt = (out0_B_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (fun h => h0 ((hcond0_0 t).mp h)) (iblk0 V c 0 t) (iblk0 V c 1 t) (iblk0 V c 2 t) (iblk0 V c 3 t) (iblk0 V c 4 t) (iblk0 V c 5 t) (iblk0 V c 6 t) (outsAt0 V c (t.val - 1) (Nat.lt_of_le_of_lt (Nat.sub_le _ _) t.isLt)).2.1 (outsAt0 V c (t.val - 1) (Nat.lt_of_le_of_lt (Nat.sub_le _ _) t.isLt)).2.2, out0_B_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (fun h => h0 ((hcond0_0 t).mp h)) (iblk0 V c 0 t) (iblk0 V c 1 t) (iblk0 V c 2 t) (iblk0 V c 3 t) (iblk0 V c 4 t) (iblk0 V c 5 t) (iblk0 V c 6 t) (outsAt0 V c (t.val - 1) (Nat.lt_of_le_of_lt (Nat.sub_le _ _) t.isLt)).2.1 (outsAt0 V c (t.val - 1) (Nat.lt_of_le_of_lt (Nat.sub_le _ _) t.isLt)).2.2, out0_B_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (fun h => h0 ((hcond0_0 t).mp h)) (iblk0 V c 0 t) (iblk0 V c 1 t) (iblk0 V c 2 t) (iblk0 V c 3 t) (iblk0 V c 4 t) (iblk0 V c 5 t) (iblk0 V c 6 t) (outsAt0 V c (t.val - 1) (Nat.lt_of_le_of_lt (Nat.sub_le _ _) t.isLt)).2.1 (outsAt0 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans rfl

/-! ## The pipeline's proof data -/

/-- The proof data of pipeline 0 on core `c`: the arrays as the region finds them (`V`); after the body at point `t`
    each input's buffer at its block and the outputs' at `outsAt0`; the invariant the scoped rest and the generator
    register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => (outsAt0 V c t.val t.isLt).1
    | ⟨8, _⟩ => (outsAt0 V c t.val t.isLt).2.1
    | ⟨9, _⟩ => (outsAt0 V c t.val t.isLt).2.2
  Φ _ := Pipeline.ΦA spec0 c
  q _ := fullShare
  owed _ := 0

/-- The proof data's arrays are the region-entry contents (the definition projected, never unfolding `V`). -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = (outsAt0 V c t.val t.isLt).1 := by dsimp only [dat0]
theorem after0_8 (c : Dev nD) (t : Fin cfg0.N) : (dat0 V c).after 8 t = (outsAt0 V c t.val t.isLt).2.1 := by dsimp only [dat0]
theorem after0_9 (c : Dev nD) (t : Fin cfg0.N) : (dat0 V c).after 9 t = (outsAt0 V c t.val t.isLt).2.2 := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d
theorem before0_6 (c : Dev nD) (t : Fin cfg0.N) (d) : (dat0 V c).before 6 t d = iblk0 V c 6 t :=
  before0_6_of V (dat0 V c) (A_eq0 V c 6) (after0_6 V c) t d
/-- At a later point accumulator 8's current staging buffer holds what the body left at the point before: the point is
    not the first, the buffer was not written back in between, the window is live and uncut. -/
theorem before0_8_B (c : Dev nD) (t : Fin cfg0.N) (h0 : ¬t.val % 128 = 0) (d) :
    (dat0 V c).before 8 t d = (outsAt0 V c (t.val - 1) (Nat.lt_of_le_of_lt (Nat.sub_le _ _) t.isLt)).2.1 := by
  have hN : t.val < 128 := lt_of_lt_of_eq t.isLt (show cfg0.N = 128 from N_0)
  rw [Dat.before_out_kept _ 8 rfl t (by omega) (Bool.eq_false_iff.mpr fun h => by have := (flush0_8 _).mp h; dsimp only at this; omega)
    (fun _ => rfl) (fun _ _ => rfl)]
  dsimp only [dat0]
/-- At a later point accumulator 9's current staging buffer holds what the body left at the point before: the point is
    not the first, the buffer was not written back in between, the window is live and uncut. -/
theorem before0_9_B (c : Dev nD) (t : Fin cfg0.N) (h0 : ¬t.val % 128 = 0) (d) :
    (dat0 V c).before 9 t d = (outsAt0 V c (t.val - 1) (Nat.lt_of_le_of_lt (Nat.sub_le _ _) t.isLt)).2.2 := by
  have hN : t.val < 128 := lt_of_lt_of_eq t.isLt (show cfg0.N = 128 from N_0)
  rw [Dat.before_out_kept _ 9 rfl t (by omega) (Bool.eq_false_iff.mpr fun h => by have := (flush0_9 _).mp h; dsimp only at this; omega)
    (fun _ => rfl) (fun _ _ => rfl)]
  dsimp only [dat0]

/-! ## The body obligation, at a generic point -/

/-- What the body is called with at point `t` (the windows one by one), -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d))
    ∗ (∃ d, owns (c : Thread nD τ) (ms0_6 t) fullShare ((dat0 V c).before 6 t d))
    ∗ (∃ d, owns (c : Thread nD τ) (ms0_7 t) fullShare ((dat0 V c).before 7 t d))
    ∗ (∃ d, owns (c : Thread nD τ) (ms0_8 t) fullShare ((dat0 V c).before 8 t d))
    ∗ (∃ d, owns (c : Thread nD τ) (ms0_9 t) fullShare ((dat0 V c).before 9 t d)))

/-- and what it returns. -/
def bodyPost0 (c : Dev nD) (t : Fin cfg0.N) : sProp 𝕄 :=
  iprop((dat0 V c).Φ t.succ ∗ (dat0 V c).owesAt () t.succ
    ∗ owns (c : Thread nD τ) (ms0_0 t) fullShare ((dat0 V c).after 0 t)
    ∗ owns (c : Thread nD τ) (ms0_1 t) fullShare ((dat0 V c).after 1 t)
    ∗ owns (c : Thread nD τ) (ms0_2 t) fullShare ((dat0 V c).after 2 t)
    ∗ owns (c : Thread nD τ) (ms0_3 t) fullShare ((dat0 V c).after 3 t)
    ∗ owns (c : Thread nD τ) (ms0_4 t) fullShare ((dat0 V c).after 4 t)
    ∗ owns (c : Thread nD τ) (ms0_5 t) fullShare ((dat0 V c).after 5 t)
    ∗ owns (c : Thread nD τ) (ms0_6 t) fullShare ((dat0 V c).after 6 t)
    ∗ owns (c : Thread nD τ) (ms0_7 t) fullShare ((dat0 V c).after 7 t)
    ∗ owns (c : Thread nD τ) (ms0_8 t) fullShare ((dat0 V c).after 8 t)
    ∗ owns (c : Thread nD τ) (ms0_9 t) fullShare ((dat0 V c).after 9 t))

set_option maxHeartbeats 4000000 in
/-- The body at any point: the inputs' memrefs hold their blocks; the closed form says which case the point is in; at a
    later point each accumulator holds what the point before left; so the case's run applies; the invariant passes
    through unread; the core owes nothing throughout. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7, after0_8, after0_9]
  have hN : t.val < 128 := lt_of_lt_of_eq t.isLt (show cfg0.N = 128 from N_0)
  by_cases h0 : t.val % 128 = 0
  ·
    rw [outsAt0_A V c t h0]
    unfold out0_A_7 out0_A_8 out0_A_9; (try dsimp only)
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    iapply ((kernelRun0_A c (grid0.coords t) _ _ _ _ _ _ _ _ _ _ _ _ _ _ _ _ _ _ _ _ ((hcond0_0 t).mpr h0) (iblk0 V c 0 t) (iblk0 V c 1 t) (iblk0 V c 2 t) (iblk0 V c 3 t) (iblk0 V c 4 t) (iblk0 V c 5 t) (iblk0 V c 6 t)).2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [H8]; · iexists _; iexact H8
    isplitl [H9]; · iexists _; iexact H9
    iintro ⟨H0, H1, H2, H3, H4, H5, H6, ⟨%e7, H7⟩, ⟨%e8, H8⟩, ⟨%e9, H9⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]
    · unfold owns; iexists _; isplitr
      swap; · iexact H7
      ipureintro; exact View.read_writes_of_cover _ _ _ _ _ (cover0_A_7 c _ _ _ _ _ _ _ _ _ _ _ _ _ _ _ _ _ _ _ _ _ _ _ _ _ _ _ _ _)
    isplitl [H8]
    · unfold owns; iexists _; isplitr
      swap; · iexact H8
      ipureintro; exact View.read_writes_of_cover _ _ _ _ _ (cover0_A_8 c _ _ _ _ _ _ _ _ _ _ _ _ _ _ _ _ _ _ _ _ _ _ _ _ _ _ _ _ _)
    unfold owns; iexists _; isplitr
    swap; · iexact H9
    ipureintro; exact View.read_writes_of_cover _ _ _ _ _ (cover0_A_9 c _ _ _ _ _ _ _ _ _ _ _ _ _ _ _ _ _ _ _ _ _ _ _ _ _ _ _ _ _)
  ·
    rw [outsAt0_B V c t h0]
    simp only [before0_8_B V c t h0, before0_9_B V c t h0]
    unfold out0_B_7 out0_B_8 out0_B_9; (try dsimp only)
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    iapply ((kernelRun0_B c (grid0.coords t) _ _ _ _ _ _ _ _ _ _ _ _ _ _ _ _ _ _ _ _ (fun h => h0 ((hcond0_0 t).mp h)) (iblk0 V c 0 t) (iblk0 V c 1 t) (iblk0 V c 2 t) (iblk0 V c 3 t) (iblk0 V c 4 t) (iblk0 V c 5 t) (iblk0 V c 6 t) _ _).2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [H8]; · iexact H8
    isplitl [H9]; · iexact H9
    iintro ⟨H0, H1, H2, H3, H4, H5, H6, ⟨%e7, H7⟩, ⟨%e8, H8⟩, ⟨%e9, H9⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]
    · unfold owns; iexists _; isplitr
      swap; · iexact H7
      ipureintro; exact View.read_writes_of_cover _ _ _ _ _ (cover0_B_7 c _ _ _ _ _ _ _ _ _ _ _ _ _ _ _ _ _ _ _ _ _ _ _ _ _ _ _ _ _ _ _)
    isplitl [H8]
    · unfold owns; iexists _; isplitr
      swap; · iexact H8
      ipureintro; exact View.read_writes_of_cover _ _ _ _ _ (cover0_B_8 c _ _ _ _ _ _ _ _ _ _ _ _ _ _ _ _ _ _ _ _ _ _ _ _ _ _ _ _ _ _ _)
    unfold owns; iexists _; isplitr
    swap; · iexact H9
    ipureintro; exact View.read_writes_of_cover _ _ _ _ _ (cover0_B_9 c _ _ _ _ _ _ _ _ _ _ _ _ _ _ _ _ _ _ _ _ _ _ _ _ _ _ _ _ _ _ _)

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Reg

end
-- ==== Proof.K.Reg1.lean ====
import proofs.«170818_j15161234555428_1_alg».proof.Proof.K.Launch
import proofs.«170818_j15161234555428_1_alg».proof.Proof.Gen.Kernel.Skeleton
import proofs.«170818_j15161234555428_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-!
# The normalisation kernel of pipeline 1, at one grid point

The kernel reads a block of rows `h`, a block of rows `res`, and four rows `mean`, `var`, `γ`, `β`; it writes
`y = (h - mean) * rsqrt (var + ε) * γ + β` and `res + y`, each as one whole-block store. The two row blocks move with the
grid point; the four single rows are the same block at every point; the two results are written back at every point.

Stated at a PARAMETER `V`, the buffers' contents when the pipeline is entered: each window's block at a point is read
off `V`; after the body an input's buffer still holds its block, and an output's buffer holds the one store's value
computed from the input blocks. The body's triple is obtained by running its memory operations one by one; the
pipeline's proof data and body obligation follow.
-/

set_option maxRecDepth 16384

noncomputable section

namespace Cert.Kernel.Reg

open Cert.Kernel Cert.Kernel.Gen Cert.Kernel.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffers' contents when the pipeline is entered
variable (V : (c : Dev nD) → (b : Ref sig .tc) → Buf (Elt F) ((c : Thread nD τ).loc b))

/-! ## The windows' blocks -/

/-- Window `w`'s block at point `t`, read off its array as the pipeline finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0 holds its block at every point of the grid, whether or not the block was transferred there: where it
    was not, the block index has not moved since the last transfer, and the body leaves an input's block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1 holds its block at every point of the grid, whether or not the block was transferred there: where it
    was not, the block index has not moved since the last transfer, and the body leaves an input's block in place. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2 holds its block at every point of the grid, whether or not the block was transferred there: where it
    was not, the block index has not moved since the last transfer, and the body leaves an input's block in place. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3 holds its block at every point of the grid, whether or not the block was transferred there: where it
    was not, the block index has not moved since the last transfer, and the body leaves an input's block in place. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4 holds its block at every point of the grid, whether or not the block was transferred there: where it
    was not, the block index has not moved since the last transfer, and the body leaves an input's block in place. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-- Input window 5 holds its block at every point of the grid, whether or not the block was transferred there: where it
    was not, the block index has not moved since the last transfer, and the body leaves an input's block in place. -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: one whole-block rectangle per block shape -/

abbrev r1_0 : Rect S5000x128 := Rect.unit (s := S5000x128) ![0, 0] S5000x128.size inb_S5000x128_S5000x128_0_0
abbrev r1_1 : Rect S1x128 := Rect.unit (s := S1x128) ![0, 0] S1x128.size inb_S1x128_S1x128_0_0

/-! ## What the body leaves in each output window's buffer -/

/-- The buffer of `y` after the body: its single whole-block store, of the normalised rows computed from the blocks of
    `h` (`x0`), `mean` (`x2`), `var` (`x3`), `γ` (`x4`) and `β` (`x5`). -/
def out1_6 (x0 : Vec F S5000x128 .f32) (x2 x3 x4 x5 : Vec F S1x128 .f32) : Vec F S5000x128 .f32 :=
  View.canon [⟨r1_0, k1_pay1 (View.ld x3 r1_1) (View.ld x0 r1_0) (View.ld x2 r1_1) (View.ld x4 r1_1) (View.ld x5 r1_1)⟩]

/-- One whole-block store covers the block. -/
theorem cover1_6 (p0 : Vec F S5000x128 .f32) (y : S5000x128.Idx) :
    ∃ pc ∈ ([⟨r1_0, p0⟩] : List (View.Piece (Elt F) S5000x128 .f32)), y ∈ pc.1.set :=
  View.cover_of_tiled [⟨r1_0, p0⟩] S5000x128.size (by rfl) y

/-- The buffer of `res + y` after the body: its single whole-block store, of the block of `res` (`x1`) plus the
    normalised rows. -/
def out1_7 (x0 x1 : Vec F S5000x128 .f32) (x2 x3 x4 x5 : Vec F S1x128 .f32) : Vec F S5000x128 .f32 :=
  View.canon [⟨r1_0, k1_pay2 (View.ld x3 r1_1) (View.ld x0 r1_0) (View.ld x2 r1_1) (View.ld x4 r1_1) (View.ld x5 r1_1) (View.ld x1 r1_0)⟩]

/-- One whole-block store covers the block. -/
theorem cover1_7 (p0 : Vec F S5000x128 .f32) (y : S5000x128.Idx) :
    ∃ pc ∈ ([⟨r1_0, p0⟩] : List (View.Piece (Elt F) S5000x128 .f32)), y ∈ pc.1.set :=
  View.cover_of_tiled [⟨r1_0, p0⟩] S5000x128.size (by rfl) y

/-! ## The body's triple -/

set_option maxHeartbeats 1000000 in
/-- The kernel body on whole staging buffers — the inputs' at read contents `x0 … x5`, the outputs' at anything — runs
    to a state where the inputs' buffers are as they were and the outputs' hold `out1_6`, `out1_7` of the inputs. -/
theorem sound_kernel1 (c : Dev nD) (E : Set ℕ) (i : grid1.Coords) (arg1 : Memref sig .tc .vmem S5000x128 .f32) (harg1 : arg1.IsWhole) (arg2 : Memref sig .tc .vmem S5000x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S5000x128 .f32) (harg8 : arg8.IsWhole)
    (x0 : Vec F S5000x128 .f32) (x1 : Vec F S5000x128 .f32) (x2 : Vec F S1x128 .f32) (x3 : Vec F S1x128 .f32) (x4 : Vec F S1x128 .f32) (x5 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (out1_6 x0 x2 x3 x4 x5) ∗ owns (c : Thread nD τ) arg8 fullShare (out1_7 x0 x1 x2 x3 x4 x5)) -∗ K ⟨⟩))
      ⊢ wp frame (wpE (defs₀ (F := F)) Variants.none c none) E (cc1__bn_residual_kernel i arg1 harg1 arg2 harg2 arg3 harg3 arg4 harg4 arg5 harg5 arg6 harg6 arg7 harg7 arg8 harg8) K := by
  simp only [cc1__bn_residual_kernel_eq_skeleton]; unfold cc1__bn_residual_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    exact View.read_writes_eq_canon _ _ _ (cover1_6 _)
  iexists _; isplitr
  swap; · iexact H7
  ipureintro
  exact View.read_writes_eq_canon _ _ _ (cover1_7 _)

/-! ## The pipeline's proof data -/

/-- The proof data of pipeline 1 on core `c`: the arrays as the pipeline finds them; after the body at point `t` each
    input's buffer at its block and each output's at `out1_6` / `out1_7` of the input blocks; the invariant says
    the rest of the core's memory and its generator register are untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => out1_6 (iblk1 V c 0 t) (iblk1 V c 2 t) (iblk1 V c 3 t) (iblk1 V c 4 t) (iblk1 V c 5 t)
    | ⟨7, _⟩ => out1_7 (iblk1 V c 0 t) (iblk1 V c 1 t) (iblk1 V c 2 t) (iblk1 V c 3 t) (iblk1 V c 4 t) (iblk1 V c 5 t)
  Φ _ := Pipeline.ΦA spec1 c
  q _ := fullShare
  owed _ := 0

/-- The proof data's arrays are the entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = out1_6 (iblk1 V c 0 t) (iblk1 V c 2 t) (iblk1 V c 3 t) (iblk1 V c 4 t) (iblk1 V c 5 t) := by dsimp only [dat1]
theorem after1_7 (c : Dev nD) (t : Fin cfg1.N) : (dat1 V c).after 7 t = out1_7 (iblk1 V c 0 t) (iblk1 V c 1 t) (iblk1 V c 2 t) (iblk1 V c 3 t) (iblk1 V c 4 t) (iblk1 V c 5 t) := by dsimp only [dat1]

/-- Each input's current staging buffer holds its block at every point. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t))

/-- The body at any point: the inputs' buffers hold their blocks, so the body's triple applies; the invariant and what
    the core owes pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel1 c Set.univ _ _ _ _ _ _ _ _ _ _ _ _ _ _ _ _ _ (iblk1 V c 0 t) (iblk1 V c 1 t) (iblk1 V c 2 t) (iblk1 V c 3 t) (iblk1 V c 4 t) (iblk1 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The pipeline's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Reg

end
-- ==== Proof.K.Reg2.Runs.lean ====
/- REGION 2 of @main (cc2__mlp_stats_kernel), stated at a PARAMETER `V` — the TensorCore's buffer contents when the region is
   entered: each window's block at a grid point, the input windows' staging contents at every point, the body's one
   branch condition in closed form over the grid, and the names the two whole-body runs are stated over. -/
import proofs.«170818_j15161234555428_1_alg».proof.Proof.K.Launch
import proofs.«170818_j15161234555428_1_alg».proof.Proof.Gen.Kernel.Skeleton
import proofs.«170818_j15161234555428_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of full extents: the structural check recurses once per coordinate of the long axes
set_option maxRecDepth 16384

noncomputable section

namespace Cert.Kernel.Reg

open Cert.Kernel Cert.Kernel.Gen Cert.Kernel.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it (`V`). -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, fetched there or not, for any proof data
    whose array is `V`'s and whose body leaves the block in place: unfetched, the block index has not moved. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
/-- Input window 1's current staging buffer holds its block at every point, fetched there or not, for any proof data
    whose array is `V`'s and whose body leaves the block in place: unfetched, the block index has not moved. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
/-- Input window 2's current staging buffer holds its block at every point, fetched there or not, for any proof data
    whose array is `V`'s and whose body leaves the block in place: unfetched, the block index has not moved. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
/-- Input window 3's current staging buffer holds its block at every point, fetched there or not, for any proof data
    whose array is `V`'s and whose body leaves the block in place: unfetched, the block index has not moved. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)
/-- Input window 4's current staging buffer holds its block at every point, fetched there or not, for any proof data
    whose array is `V`'s and whose body leaves the block in place: unfetched, the block index has not moved. -/
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)
/-- Input window 5's current staging buffer holds its block at every point, fetched there or not, for any proof data
    whose array is `V`'s and whose body leaves the block in place: unfetched, the block index has not moved. -/
theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)
/-- Input window 6's current staging buffer holds its block at every point, fetched there or not, for any proof data
    whose array is `V`'s and whose body leaves the block in place: unfetched, the block index has not moved. -/
theorem before2_6_of {c : Dev nD} (dat : Dat τ (Elt F) Unit ℕ (UR sig nD τ) ℕ cfg2 c) (hA : dat.A 6 = V c (Pipeline.arrRef spec2 6))
    (hafter : ∀ t, dat.after 6 t = iblk2 V c 6 t) (t : Fin cfg2.N) (d) : dat.before 6 t d = iblk2 V c 6 t :=
  (dat.before_in_eq_fetched 6 rfl (fun _ => rfl) (fun _ _ _ => rfl) (fun t => by rw [hafter]; unfold Dat.blockOf iblk2; rw [hA]; try rfl) t d).trans
    (by unfold Dat.fetched Dat.blockOf iblk2; rw [hA]; try rfl)

/-! ## The body's branch condition -/

/-- The condition of the body's one conditional (the accumulators are zeroed under it), from the grid coordinates. -/
abbrev cond2_0 (i : grid2.Coords) : Prop := (Scalar.cmpi .ne (Scalar.extui (Scalar.cmpi .eq (BitVec.ofNat 32 (i 0).val) 0#32)) 0#32) = 1#1
/-- It holds at the first point only — decided over the grid. -/
theorem hcond2_0 : ∀ t : Fin cfg2.N, cond2_0 (grid2.coords t) ↔ t.val % 10 = 0 :=
  (by decide +kernel : ∀ t : Fin grid2.N, cond2_0 (grid2.coords t) ↔ t.val % 10 = 0)

/-! ## The staging memrefs -/

/-- One staging buffer of output window 7, through which its contents are stated (the choice does not matter). -/
abbrev VO2_7 : View sig .tc .vmem S5000x128 .f32 := (Memref.whole cc2_stg7_0 : Memref sig .tc .vmem S5000x128 .f32).view
/-- One staging buffer of output window 8, through which its contents are stated (the choice does not matter). -/
abbrev VO2_8 : View sig .tc .vmem S1x128 .f32 := (Memref.whole cc2_stg8_0 : Memref sig .tc .vmem S1x128 .f32).view
/-- One staging buffer of output window 9, through which its contents are stated (the choice does not matter). -/
abbrev VO2_9 : View sig .tc .vmem S1x128 .f32 := (Memref.whole cc2_stg9_0 : Memref sig .tc .vmem S1x128 .f32).view
/-- Each window's current staging memref at point `t`, spelled as the pipeline passes it, and its wholeness. -/
abbrev ms2_0 (t : Fin cfg2.N) : Memref sig .tc .vmem S5000x256 .f32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S256x128 .f32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S1x128 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S128x128 .f32 := win2_3.stage (cfg2.slots t 3)
abbrev hs2_3 (t : Fin cfg2.N) : (ms2_3 t).IsWhole := hstage2_3 ((cfg2.slots t 3).cast nbuf2_3)
abbrev ms2_4 (t : Fin cfg2.N) : Memref sig .tc .vmem S1x128 .f32 := win2_4.stage (cfg2.slots t 4)
abbrev hs2_4 (t : Fin cfg2.N) : (ms2_4 t).IsWhole := hstage2_4 ((cfg2.slots t 4).cast nbuf2_4)
abbrev ms2_5 (t : Fin cfg2.N) : Memref sig .tc .vmem S128x128 .f32 := win2_5.stage (cfg2.slots t 5)
abbrev hs2_5 (t : Fin cfg2.N) : (ms2_5 t).IsWhole := hstage2_5 ((cfg2.slots t 5).cast nbuf2_5)
abbrev ms2_6 (t : Fin cfg2.N) : Memref sig .tc .vmem S1x128 .f32 := win2_6.stage (cfg2.slots t 6)
abbrev hs2_6 (t : Fin cfg2.N) : (ms2_6 t).IsWhole := hstage2_6 ((cfg2.slots t 6).cast nbuf2_6)
abbrev ms2_7 (t : Fin cfg2.N) : Memref sig .tc .vmem S5000x128 .f32 := win2_7.stage (cfg2.slots t 7)
abbrev hs2_7 (t : Fin cfg2.N) : (ms2_7 t).IsWhole := hstage2_7 ((cfg2.slots t 7).cast nbuf2_7)
abbrev ms2_8 (t : Fin cfg2.N) : Memref sig .tc .vmem S1x128 .f32 := win2_8.stage (cfg2.slots t 8)
abbrev hs2_8 (t : Fin cfg2.N) : (ms2_8 t).IsWhole := hstage2_8 ((cfg2.slots t 8).cast nbuf2_8)
abbrev ms2_9 (t : Fin cfg2.N) : Memref sig .tc .vmem S1x128 .f32 := win2_9.stage (cfg2.slots t 9)
abbrev hs2_9 (t : Fin cfg2.N) : (ms2_9 t).IsWhole := hstage2_9 ((cfg2.slots t 9).cast nbuf2_9)

end Cert.Kernel.Reg

end
-- ==== Proof.K.Reg2.RunA.lean ====
/- REGION 2, the whole-body run of cc2__mlp_stats_kernel in the case "first grid point: the accumulators are zeroed":
   the body's triple on whole staging memrefs, with the pieces each output's buffer ends with as the witness the run finds. -/
import proofs.«170818_j15161234555428_1_alg».proof.Proof.K.Reg2.Runs

-- membership in a rectangle of full extents: the structural check recurses once per coordinate of the long axes
set_option maxRecDepth 16384

noncomputable section

namespace Cert.Kernel.Reg

open Cert.Kernel Cert.Kernel.Gen Cert.Kernel.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large: the definition's epilogue walks it past the default budget)
set_option maxHeartbeats 4000000 in
/-- What the body's stores leave in each output's staging memref, as pieces (last first), in this case, WITH the proof
    that on whole staging memrefs — the inputs' at their contents, every output's at anything — the body runs to the
    continuation holding the inputs' as they were and each output's buffer with its pieces written. -/
noncomputable def kernelRun2_A (c : Dev nD) (i : grid2.Coords) (arg1 : Memref sig .tc .vmem S5000x256 .f32) (harg1 : arg1.IsWhole) (arg2 : Memref sig .tc .vmem S256x128 .f32) (harg2 : arg2.IsWhole) (arg3 : Memref sig .tc .vmem S1x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S5000x128 .f32) (harg8 : arg8.IsWhole) (arg9 : Memref sig .tc .vmem S1x128 .f32) (harg9 : arg9.IsWhole) (arg10 : Memref sig .tc .vmem S1x128 .f32) (harg10 : arg10.IsWhole) (hc0 : cond2_0 i)
    (x0 : Vec F S5000x256 .f32) (x1 : Vec F S256x128 .f32) (x2 : Vec F S1x128 .f32) (x3 : Vec F S128x128 .f32) (x4 : Vec F S1x128 .f32) (x5 : Vec F S128x128 .f32) (x6 : Vec F S1x128 .f32) :
    Σ' (L7 : List (View.Piece (Elt F) S5000x128 .f32)), Σ' (L8 : List (View.Piece (Elt F) S1x128 .f32)), { L9 : List (View.Piece (Elt F) S1x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ (∃ d, owns (c : Thread nD τ) arg9 fullShare d) ∗ (∃ d, owns (c : Thread nD τ) arg10 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ f, arg8.view.loc (c : Thread nD τ) ↦[arg8.view.set]{fullShare} arg8.view.writes (Elt F) f L7) ∗ (∃ f, arg9.view.loc (c : Thread nD τ) ↦[arg9.view.set]{fullShare} arg9.view.writes (Elt F) f L8) ∗ (∃ f, arg10.view.loc (c : Thread nD τ) ↦[arg10.view.set]{fullShare} arg10.view.writes (Elt F) f L9)) -∗ K ⟨⟩))
          ⊢ wp frame (wpE (defs₀ (F := F)) Variants.none c none) E (cc2__mlp_stats_kernel i arg1 harg1 arg2 harg2 arg3 harg3 arg4 harg4 arg5 harg5 arg6 harg6 arg7 harg7 arg8 harg8 arg9 harg9 arg10 harg10) K } := by
  refine ⟨?_, ?_, ?_, fun E K => ?run⟩
  case run =>
    simp only [cc2__mlp_stats_kernel_eq_skeleton]; unfold cc2__mlp_stats_kernel_skel
    simp only [k2_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]; · iexists _; iexact H7
    isplitl [H8]; · iexists _; iexact H8
    iexists _; iexact H9

end Cert.Kernel.Reg

end
-- ==== Proof.K.Reg2.RunB.lean ====
/- REGION 2, the whole-body run of cc2__mlp_stats_kernel in the case "a later grid point: the accumulators are read back":
   the body's triple on whole staging memrefs, with the pieces each output's buffer ends with as the witness the run finds. -/
import proofs.«170818_j15161234555428_1_alg».proof.Proof.K.Reg2.RunA

-- membership in a rectangle of full extents: the structural check recurses once per coordinate of the long axes
set_option maxRecDepth 16384

noncomputable section

namespace Cert.Kernel.Reg

open Cert.Kernel Cert.Kernel.Gen Cert.Kernel.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large: the definition's epilogue walks it past the default budget)
set_option maxHeartbeats 4000000 in
/-- What the body's stores leave in each output's staging memref, as pieces (last first), in this case, WITH the proof
    that on whole staging memrefs — the inputs' at their contents, the two accumulators' at their running contents, the third output's at anything — the body runs to the
    continuation holding the inputs' as they were and each output's buffer with its pieces written. -/
noncomputable def kernelRun2_B (c : Dev nD) (i : grid2.Coords) (arg1 : Memref sig .tc .vmem S5000x256 .f32) (harg1 : arg1.IsWhole) (arg2 : Memref sig .tc .vmem S256x128 .f32) (harg2 : arg2.IsWhole) (arg3 : Memref sig .tc .vmem S1x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S5000x128 .f32) (harg8 : arg8.IsWhole) (arg9 : Memref sig .tc .vmem S1x128 .f32) (harg9 : arg9.IsWhole) (arg10 : Memref sig .tc .vmem S1x128 .f32) (harg10 : arg10.IsWhole) (hc0 : ¬cond2_0 i)
    (x0 : Vec F S5000x256 .f32) (x1 : Vec F S256x128 .f32) (x2 : Vec F S1x128 .f32) (x3 : Vec F S128x128 .f32) (x4 : Vec F S1x128 .f32) (x5 : Vec F S128x128 .f32) (x6 : Vec F S1x128 .f32) (xo8 : Vec F S1x128 .f32) (xo9 : Vec F S1x128 .f32) :
    Σ' (L7 : List (View.Piece (Elt F) S5000x128 .f32)), Σ' (L8 : List (View.Piece (Elt F) S1x128 .f32)), { L9 : List (View.Piece (Elt F) S1x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ owns (c : Thread nD τ) arg9 fullShare xo8 ∗ owns (c : Thread nD τ) arg10 fullShare xo9
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ f, arg8.view.loc (c : Thread nD τ) ↦[arg8.view.set]{fullShare} arg8.view.writes (Elt F) f L7) ∗ (∃ f, arg9.view.loc (c : Thread nD τ) ↦[arg9.view.set]{fullShare} arg9.view.writes (Elt F) f L8) ∗ (∃ f, arg10.view.loc (c : Thread nD τ) ↦[arg10.view.set]{fullShare} arg10.view.writes (Elt F) f L9)) -∗ K ⟨⟩))
          ⊢ wp frame (wpE (defs₀ (F := F)) Variants.none c none) E (cc2__mlp_stats_kernel i arg1 harg1 arg2 harg2 arg3 harg3 arg4 harg4 arg5 harg5 arg6 harg6 arg7 harg7 arg8 harg8 arg9 harg9 arg10 harg10) K } := by
  refine ⟨?_, ?_, ?_, fun E K => ?run⟩
  case run =>
    simp only [cc2__mlp_stats_kernel_eq_skeleton]; unfold cc2__mlp_stats_kernel_skel
    simp only [k2_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%f8, %hf8, H8⟩, ⟨%f9, %hf9, H9⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg9.eq_unread hf8; obtain rfl := harg10.eq_unread hf9
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]; · iexists _; iexact H7
    isplitl [H8]; · iexists _; iexact H8
    iexists _; iexact H9

end Cert.Kernel.Reg

end
-- ==== Proof.K.Reg2.lean ====
/- REGION 2 of @main (cc2__mlp_stats_kernel: a three-layer perceptron on a block of rows, with the column sums of its output and of
   its square accumulated over the grid), at the entry contents `V`: what each output's staging buffer holds per case
   and point by point (the accumulators by recursion on the point), the pipeline's proof data, and the body obligation. -/
import proofs.«170818_j15161234555428_1_alg».proof.Proof.K.Reg2.RunB

-- membership in a rectangle of full extents: the structural check recurses once per coordinate of the long axes
set_option maxRecDepth 16384

noncomputable section

namespace Cert.Kernel.Reg

open Cert.Kernel Cert.Kernel.Gen Cert.Kernel.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The pieces the run of case A finds for output 7 tile its block, so they cover it. -/
theorem cover2_A_7 (c : Dev nD) (i : grid2.Coords) (arg1 : Memref sig .tc .vmem S5000x256 .f32) (harg1 : arg1.IsWhole) (arg2 : Memref sig .tc .vmem S256x128 .f32) (harg2 : arg2.IsWhole) (arg3 : Memref sig .tc .vmem S1x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S5000x128 .f32) (harg8 : arg8.IsWhole) (arg9 : Memref sig .tc .vmem S1x128 .f32) (harg9 : arg9.IsWhole) (arg10 : Memref sig .tc .vmem S1x128 .f32) (harg10 : arg10.IsWhole) (hc0 : cond2_0 i)
    (x0 : Vec F S5000x256 .f32) (x1 : Vec F S256x128 .f32) (x2 : Vec F S1x128 .f32) (x3 : Vec F S128x128 .f32) (x4 : Vec F S1x128 .f32) (x5 : Vec F S128x128 .f32) (x6 : Vec F S1x128 .f32) (y : S5000x128.Idx) :
    ∃ pc ∈ (kernelRun2_A c i arg1 harg1 arg2 harg2 arg3 harg3 arg4 harg4 arg5 harg5 arg6 harg6 arg7 harg7 arg8 harg8 arg9 harg9 arg10 harg10 hc0 x0 x1 x2 x3 x4 x5 x6).1, y ∈ pc.1.set :=
  View.cover_of_tiledL (kernelRun2_A c i arg1 harg1 arg2 harg2 arg3 harg3 arg4 harg4 arg5 harg5 arg6 harg6 arg7 harg7 arg8 harg8 arg9 harg9 arg10 harg10 hc0 x0 x1 x2 x3 x4 x5 x6).1 S5000x128.size (by sl_kernel_rfl) y

/-- What case A leaves in output 7's staging buffer: its pieces read back. -/
def out2_A_7 (c : Dev nD) (i : grid2.Coords) (arg1 : Memref sig .tc .vmem S5000x256 .f32) (harg1 : arg1.IsWhole) (arg2 : Memref sig .tc .vmem S256x128 .f32) (harg2 : arg2.IsWhole) (arg3 : Memref sig .tc .vmem S1x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S5000x128 .f32) (harg8 : arg8.IsWhole) (arg9 : Memref sig .tc .vmem S1x128 .f32) (harg9 : arg9.IsWhole) (arg10 : Memref sig .tc .vmem S1x128 .f32) (harg10 : arg10.IsWhole) (hc0 : cond2_0 i)
    (x0 : Vec F S5000x256 .f32) (x1 : Vec F S256x128 .f32) (x2 : Vec F S1x128 .f32) (x3 : Vec F S128x128 .f32) (x4 : Vec F S1x128 .f32) (x5 : Vec F S128x128 .f32) (x6 : Vec F S1x128 .f32) : Vec F S5000x128 .f32 :=
  VO2_7.read (Elt F) (VO2_7.writes (Elt F) VO2_7.junk (kernelRun2_A c i arg1 harg1 arg2 harg2 arg3 harg3 arg4 harg4 arg5 harg5 arg6 harg6 arg7 harg7 arg8 harg8 arg9 harg9 arg10 harg10 hc0 x0 x1 x2 x3 x4 x5 x6).1)

/-- The pieces the run of case A finds for output 8 tile its block, so they cover it. -/
theorem cover2_A_8 (c : Dev nD) (i : grid2.Coords) (arg1 : Memref sig .tc .vmem S5000x256 .f32) (harg1 : arg1.IsWhole) (arg2 : Memref sig .tc .vmem S256x128 .f32) (harg2 : arg2.IsWhole) (arg3 : Memref sig .tc .vmem S1x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S5000x128 .f32) (harg8 : arg8.IsWhole) (arg9 : Memref sig .tc .vmem S1x128 .f32) (harg9 : arg9.IsWhole) (arg10 : Memref sig .tc .vmem S1x128 .f32) (harg10 : arg10.IsWhole) (hc0 : cond2_0 i)
    (x0 : Vec F S5000x256 .f32) (x1 : Vec F S256x128 .f32) (x2 : Vec F S1x128 .f32) (x3 : Vec F S128x128 .f32) (x4 : Vec F S1x128 .f32) (x5 : Vec F S128x128 .f32) (x6 : Vec F S1x128 .f32) (y : S1x128.Idx) :
    ∃ pc ∈ (kernelRun2_A c i arg1 harg1 arg2 harg2 arg3 harg3 arg4 harg4 arg5 harg5 arg6 harg6 arg7 harg7 arg8 harg8 arg9 harg9 arg10 harg10 hc0 x0 x1 x2 x3 x4 x5 x6).2.1, y ∈ pc.1.set :=
  View.cover_of_tiledL (kernelRun2_A c i arg1 harg1 arg2 harg2 arg3 harg3 arg4 harg4 arg5 harg5 arg6 harg6 arg7 harg7 arg8 harg8 arg9 harg9 arg10 harg10 hc0 x0 x1 x2 x3 x4 x5 x6).2.1 S1x128.size (by sl_kernel_rfl) y

/-- What case A leaves in output 8's staging buffer: its pieces read back. -/
def out2_A_8 (c : Dev nD) (i : grid2.Coords) (arg1 : Memref sig .tc .vmem S5000x256 .f32) (harg1 : arg1.IsWhole) (arg2 : Memref sig .tc .vmem S256x128 .f32) (harg2 : arg2.IsWhole) (arg3 : Memref sig .tc .vmem S1x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S5000x128 .f32) (harg8 : arg8.IsWhole) (arg9 : Memref sig .tc .vmem S1x128 .f32) (harg9 : arg9.IsWhole) (arg10 : Memref sig .tc .vmem S1x128 .f32) (harg10 : arg10.IsWhole) (hc0 : cond2_0 i)
    (x0 : Vec F S5000x256 .f32) (x1 : Vec F S256x128 .f32) (x2 : Vec F S1x128 .f32) (x3 : Vec F S128x128 .f32) (x4 : Vec F S1x128 .f32) (x5 : Vec F S128x128 .f32) (x6 : Vec F S1x128 .f32) : Vec F S1x128 .f32 :=
  VO2_8.read (Elt F) (VO2_8.writes (Elt F) VO2_8.junk (kernelRun2_A c i arg1 harg1 arg2 harg2 arg3 harg3 arg4 harg4 arg5 harg5 arg6 harg6 arg7 harg7 arg8 harg8 arg9 harg9 arg10 harg10 hc0 x0 x1 x2 x3 x4 x5 x6).2.1)

/-- The pieces the run of case A finds for output 9 tile its block, so they cover it. -/
theorem cover2_A_9 (c : Dev nD) (i : grid2.Coords) (arg1 : Memref sig .tc .vmem S5000x256 .f32) (harg1 : arg1.IsWhole) (arg2 : Memref sig .tc .vmem S256x128 .f32) (harg2 : arg2.IsWhole) (arg3 : Memref sig .tc .vmem S1x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S5000x128 .f32) (harg8 : arg8.IsWhole) (arg9 : Memref sig .tc .vmem S1x128 .f32) (harg9 : arg9.IsWhole) (arg10 : Memref sig .tc .vmem S1x128 .f32) (harg10 : arg10.IsWhole) (hc0 : cond2_0 i)
    (x0 : Vec F S5000x256 .f32) (x1 : Vec F S256x128 .f32) (x2 : Vec F S1x128 .f32) (x3 : Vec F S128x128 .f32) (x4 : Vec F S1x128 .f32) (x5 : Vec F S128x128 .f32) (x6 : Vec F S1x128 .f32) (y : S1x128.Idx) :
    ∃ pc ∈ (kernelRun2_A c i arg1 harg1 arg2 harg2 arg3 harg3 arg4 harg4 arg5 harg5 arg6 harg6 arg7 harg7 arg8 harg8 arg9 harg9 arg10 harg10 hc0 x0 x1 x2 x3 x4 x5 x6).2.2.1, y ∈ pc.1.set :=
  View.cover_of_tiledL (kernelRun2_A c i arg1 harg1 arg2 harg2 arg3 harg3 arg4 harg4 arg5 harg5 arg6 harg6 arg7 harg7 arg8 harg8 arg9 harg9 arg10 harg10 hc0 x0 x1 x2 x3 x4 x5 x6).2.2.1 S1x128.size (by sl_kernel_rfl) y

/-- What case A leaves in output 9's staging buffer: its pieces read back. -/
def out2_A_9 (c : Dev nD) (i : grid2.Coords) (arg1 : Memref sig .tc .vmem S5000x256 .f32) (harg1 : arg1.IsWhole) (arg2 : Memref sig .tc .vmem S256x128 .f32) (harg2 : arg2.IsWhole) (arg3 : Memref sig .tc .vmem S1x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S5000x128 .f32) (harg8 : arg8.IsWhole) (arg9 : Memref sig .tc .vmem S1x128 .f32) (harg9 : arg9.IsWhole) (arg10 : Memref sig .tc .vmem S1x128 .f32) (harg10 : arg10.IsWhole) (hc0 : cond2_0 i)
    (x0 : Vec F S5000x256 .f32) (x1 : Vec F S256x128 .f32) (x2 : Vec F S1x128 .f32) (x3 : Vec F S128x128 .f32) (x4 : Vec F S1x128 .f32) (x5 : Vec F S128x128 .f32) (x6 : Vec F S1x128 .f32) : Vec F S1x128 .f32 :=
  VO2_9.read (Elt F) (VO2_9.writes (Elt F) VO2_9.junk (kernelRun2_A c i arg1 harg1 arg2 harg2 arg3 harg3 arg4 harg4 arg5 harg5 arg6 harg6 arg7 harg7 arg8 harg8 arg9 harg9 arg10 harg10 hc0 x0 x1 x2 x3 x4 x5 x6).2.2.1)

/-- The pieces the run of case B finds for output 7 tile its block, so they cover it. -/
theorem cover2_B_7 (c : Dev nD) (i : grid2.Coords) (arg1 : Memref sig .tc .vmem S5000x256 .f32) (harg1 : arg1.IsWhole) (arg2 : Memref sig .tc .vmem S256x128 .f32) (harg2 : arg2.IsWhole) (arg3 : Memref sig .tc .vmem S1x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S5000x128 .f32) (harg8 : arg8.IsWhole) (arg9 : Memref sig .tc .vmem S1x128 .f32) (harg9 : arg9.IsWhole) (arg10 : Memref sig .tc .vmem S1x128 .f32) (harg10 : arg10.IsWhole) (hc0 : ¬cond2_0 i)
    (x0 : Vec F S5000x256 .f32) (x1 : Vec F S256x128 .f32) (x2 : Vec F S1x128 .f32) (x3 : Vec F S128x128 .f32) (x4 : Vec F S1x128 .f32) (x5 : Vec F S128x128 .f32) (x6 : Vec F S1x128 .f32) (xo8 : Vec F S1x128 .f32) (xo9 : Vec F S1x128 .f32) (y : S5000x128.Idx) :
    ∃ pc ∈ (kernelRun2_B c i arg1 harg1 arg2 harg2 arg3 harg3 arg4 harg4 arg5 harg5 arg6 harg6 arg7 harg7 arg8 harg8 arg9 harg9 arg10 harg10 hc0 x0 x1 x2 x3 x4 x5 x6 xo8 xo9).1, y ∈ pc.1.set :=
  View.cover_of_tiledL (kernelRun2_B c i arg1 harg1 arg2 harg2 arg3 harg3 arg4 harg4 arg5 harg5 arg6 harg6 arg7 harg7 arg8 harg8 arg9 harg9 arg10 harg10 hc0 x0 x1 x2 x3 x4 x5 x6 xo8 xo9).1 S5000x128.size (by sl_kernel_rfl) y

/-- What case B leaves in output 7's staging buffer: its pieces read back. -/
def out2_B_7 (c : Dev nD) (i : grid2.Coords) (arg1 : Memref sig .tc .vmem S5000x256 .f32) (harg1 : arg1.IsWhole) (arg2 : Memref sig .tc .vmem S256x128 .f32) (harg2 : arg2.IsWhole) (arg3 : Memref sig .tc .vmem S1x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S5000x128 .f32) (harg8 : arg8.IsWhole) (arg9 : Memref sig .tc .vmem S1x128 .f32) (harg9 : arg9.IsWhole) (arg10 : Memref sig .tc .vmem S1x128 .f32) (harg10 : arg10.IsWhole) (hc0 : ¬cond2_0 i)
    (x0 : Vec F S5000x256 .f32) (x1 : Vec F S256x128 .f32) (x2 : Vec F S1x128 .f32) (x3 : Vec F S128x128 .f32) (x4 : Vec F S1x128 .f32) (x5 : Vec F S128x128 .f32) (x6 : Vec F S1x128 .f32) (xo8 : Vec F S1x128 .f32) (xo9 : Vec F S1x128 .f32) : Vec F S5000x128 .f32 :=
  VO2_7.read (Elt F) (VO2_7.writes (Elt F) VO2_7.junk (kernelRun2_B c i arg1 harg1 arg2 harg2 arg3 harg3 arg4 harg4 arg5 harg5 arg6 harg6 arg7 harg7 arg8 harg8 arg9 harg9 arg10 harg10 hc0 x0 x1 x2 x3 x4 x5 x6 xo8 xo9).1)

/-- The pieces the run of case B finds for output 8 tile its block, so they cover it. -/
theorem cover2_B_8 (c : Dev nD) (i : grid2.Coords) (arg1 : Memref sig .tc .vmem S5000x256 .f32) (harg1 : arg1.IsWhole) (arg2 : Memref sig .tc .vmem S256x128 .f32) (harg2 : arg2.IsWhole) (arg3 : Memref sig .tc .vmem S1x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S5000x128 .f32) (harg8 : arg8.IsWhole) (arg9 : Memref sig .tc .vmem S1x128 .f32) (harg9 : arg9.IsWhole) (arg10 : Memref sig .tc .vmem S1x128 .f32) (harg10 : arg10.IsWhole) (hc0 : ¬cond2_0 i)
    (x0 : Vec F S5000x256 .f32) (x1 : Vec F S256x128 .f32) (x2 : Vec F S1x128 .f32) (x3 : Vec F S128x128 .f32) (x4 : Vec F S1x128 .f32) (x5 : Vec F S128x128 .f32) (x6 : Vec F S1x128 .f32) (xo8 : Vec F S1x128 .f32) (xo9 : Vec F S1x128 .f32) (y : S1x128.Idx) :
    ∃ pc ∈ (kernelRun2_B c i arg1 harg1 arg2 harg2 arg3 harg3 arg4 harg4 arg5 harg5 arg6 harg6 arg7 harg7 arg8 harg8 arg9 harg9 arg10 harg10 hc0 x0 x1 x2 x3 x4 x5 x6 xo8 xo9).2.1, y ∈ pc.1.set :=
  View.cover_of_tiledL (kernelRun2_B c i arg1 harg1 arg2 harg2 arg3 harg3 arg4 harg4 arg5 harg5 arg6 harg6 arg7 harg7 arg8 harg8 arg9 harg9 arg10 harg10 hc0 x0 x1 x2 x3 x4 x5 x6 xo8 xo9).2.1 S1x128.size (by sl_kernel_rfl) y

/-- What case B leaves in output 8's staging buffer: its pieces read back. -/
def out2_B_8 (c : Dev nD) (i : grid2.Coords) (arg1 : Memref sig .tc .vmem S5000x256 .f32) (harg1 : arg1.IsWhole) (arg2 : Memref sig .tc .vmem S256x128 .f32) (harg2 : arg2.IsWhole) (arg3 : Memref sig .tc .vmem S1x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S5000x128 .f32) (harg8 : arg8.IsWhole) (arg9 : Memref sig .tc .vmem S1x128 .f32) (harg9 : arg9.IsWhole) (arg10 : Memref sig .tc .vmem S1x128 .f32) (harg10 : arg10.IsWhole) (hc0 : ¬cond2_0 i)
    (x0 : Vec F S5000x256 .f32) (x1 : Vec F S256x128 .f32) (x2 : Vec F S1x128 .f32) (x3 : Vec F S128x128 .f32) (x4 : Vec F S1x128 .f32) (x5 : Vec F S128x128 .f32) (x6 : Vec F S1x128 .f32) (xo8 : Vec F S1x128 .f32) (xo9 : Vec F S1x128 .f32) : Vec F S1x128 .f32 :=
  VO2_8.read (Elt F) (VO2_8.writes (Elt F) VO2_8.junk (kernelRun2_B c i arg1 harg1 arg2 harg2 arg3 harg3 arg4 harg4 arg5 harg5 arg6 harg6 arg7 harg7 arg8 harg8 arg9 harg9 arg10 harg10 hc0 x0 x1 x2 x3 x4 x5 x6 xo8 xo9).2.1)

/-- The pieces the run of case B finds for output 9 tile its block, so they cover it. -/
theorem cover2_B_9 (c : Dev nD) (i : grid2.Coords) (arg1 : Memref sig .tc .vmem S5000x256 .f32) (harg1 : arg1.IsWhole) (arg2 : Memref sig .tc .vmem S256x128 .f32) (harg2 : arg2.IsWhole) (arg3 : Memref sig .tc .vmem S1x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S5000x128 .f32) (harg8 : arg8.IsWhole) (arg9 : Memref sig .tc .vmem S1x128 .f32) (harg9 : arg9.IsWhole) (arg10 : Memref sig .tc .vmem S1x128 .f32) (harg10 : arg10.IsWhole) (hc0 : ¬cond2_0 i)
    (x0 : Vec F S5000x256 .f32) (x1 : Vec F S256x128 .f32) (x2 : Vec F S1x128 .f32) (x3 : Vec F S128x128 .f32) (x4 : Vec F S1x128 .f32) (x5 : Vec F S128x128 .f32) (x6 : Vec F S1x128 .f32) (xo8 : Vec F S1x128 .f32) (xo9 : Vec F S1x128 .f32) (y : S1x128.Idx) :
    ∃ pc ∈ (kernelRun2_B c i arg1 harg1 arg2 harg2 arg3 harg3 arg4 harg4 arg5 harg5 arg6 harg6 arg7 harg7 arg8 harg8 arg9 harg9 arg10 harg10 hc0 x0 x1 x2 x3 x4 x5 x6 xo8 xo9).2.2.1, y ∈ pc.1.set :=
  View.cover_of_tiledL (kernelRun2_B c i arg1 harg1 arg2 harg2 arg3 harg3 arg4 harg4 arg5 harg5 arg6 harg6 arg7 harg7 arg8 harg8 arg9 harg9 arg10 harg10 hc0 x0 x1 x2 x3 x4 x5 x6 xo8 xo9).2.2.1 S1x128.size (by sl_kernel_rfl) y

/-- What case B leaves in output 9's staging buffer: its pieces read back. -/
def out2_B_9 (c : Dev nD) (i : grid2.Coords) (arg1 : Memref sig .tc .vmem S5000x256 .f32) (harg1 : arg1.IsWhole) (arg2 : Memref sig .tc .vmem S256x128 .f32) (harg2 : arg2.IsWhole) (arg3 : Memref sig .tc .vmem S1x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S5000x128 .f32) (harg8 : arg8.IsWhole) (arg9 : Memref sig .tc .vmem S1x128 .f32) (harg9 : arg9.IsWhole) (arg10 : Memref sig .tc .vmem S1x128 .f32) (harg10 : arg10.IsWhole) (hc0 : ¬cond2_0 i)
    (x0 : Vec F S5000x256 .f32) (x1 : Vec F S256x128 .f32) (x2 : Vec F S1x128 .f32) (x3 : Vec F S128x128 .f32) (x4 : Vec F S1x128 .f32) (x5 : Vec F S128x128 .f32) (x6 : Vec F S1x128 .f32) (xo8 : Vec F S1x128 .f32) (xo9 : Vec F S1x128 .f32) : Vec F S1x128 .f32 :=
  VO2_9.read (Elt F) (VO2_9.writes (Elt F) VO2_9.junk (kernelRun2_B c i arg1 harg1 arg2 harg2 arg3 harg3 arg4 harg4 arg5 harg5 arg6 harg6 arg7 harg7 arg8 harg8 arg9 harg9 arg10 harg10 hc0 x0 x1 x2 x3 x4 x5 x6 xo8 xo9).2.2.1)

/-! ## What the outputs hold after each point -/

/-- THE ACCUMULATION. What the three outputs' staging buffers hold after the body at position `n` (in window order):
    at the first point the zeroing case, at a later point the other case run over what the two accumulators held after
    position `n - 1` (their buffers are not written back in between). -/
def outsAt2 (c : Dev nD) : (n : ℕ) → n < cfg2.N → Vec F S5000x128 .f32 × Vec F S1x128 .f32 × Vec F S1x128 .f32
  | 0, hn => (out2_A_7 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) (ms2_5 ⟨0, hn⟩) (hs2_5 ⟨0, hn⟩) (ms2_6 ⟨0, hn⟩) (hs2_6 ⟨0, hn⟩) (ms2_7 ⟨0, hn⟩) (hs2_7 ⟨0, hn⟩) (ms2_8 ⟨0, hn⟩) (hs2_8 ⟨0, hn⟩) (ms2_9 ⟨0, hn⟩) (hs2_9 ⟨0, hn⟩) ((hcond2_0 ⟨0, hn⟩).mpr (Nat.zero_mod _)) (iblk2 V c 0 ⟨0, hn⟩) (iblk2 V c 1 ⟨0, hn⟩) (iblk2 V c 2 ⟨0, hn⟩) (iblk2 V c 3 ⟨0, hn⟩) (iblk2 V c 4 ⟨0, hn⟩) (iblk2 V c 5 ⟨0, hn⟩) (iblk2 V c 6 ⟨0, hn⟩), out2_A_8 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) (ms2_5 ⟨0, hn⟩) (hs2_5 ⟨0, hn⟩) (ms2_6 ⟨0, hn⟩) (hs2_6 ⟨0, hn⟩) (ms2_7 ⟨0, hn⟩) (hs2_7 ⟨0, hn⟩) (ms2_8 ⟨0, hn⟩) (hs2_8 ⟨0, hn⟩) (ms2_9 ⟨0, hn⟩) (hs2_9 ⟨0, hn⟩) ((hcond2_0 ⟨0, hn⟩).mpr (Nat.zero_mod _)) (iblk2 V c 0 ⟨0, hn⟩) (iblk2 V c 1 ⟨0, hn⟩) (iblk2 V c 2 ⟨0, hn⟩) (iblk2 V c 3 ⟨0, hn⟩) (iblk2 V c 4 ⟨0, hn⟩) (iblk2 V c 5 ⟨0, hn⟩) (iblk2 V c 6 ⟨0, hn⟩), out2_A_9 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) (ms2_5 ⟨0, hn⟩) (hs2_5 ⟨0, hn⟩) (ms2_6 ⟨0, hn⟩) (hs2_6 ⟨0, hn⟩) (ms2_7 ⟨0, hn⟩) (hs2_7 ⟨0, hn⟩) (ms2_8 ⟨0, hn⟩) (hs2_8 ⟨0, hn⟩) (ms2_9 ⟨0, hn⟩) (hs2_9 ⟨0, hn⟩) ((hcond2_0 ⟨0, hn⟩).mpr (Nat.zero_mod _)) (iblk2 V c 0 ⟨0, hn⟩) (iblk2 V c 1 ⟨0, hn⟩) (iblk2 V c 2 ⟨0, hn⟩) (iblk2 V c 3 ⟨0, hn⟩) (iblk2 V c 4 ⟨0, hn⟩) (iblk2 V c 5 ⟨0, hn⟩) (iblk2 V c 6 ⟨0, hn⟩))
  | n + 1, hn =>
    if h0 : (n + 1) % 10 = 0 then
      (out2_A_7 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) (ms2_8 ⟨n + 1, hn⟩) (hs2_8 ⟨n + 1, hn⟩) (ms2_9 ⟨n + 1, hn⟩) (hs2_9 ⟨n + 1, hn⟩) ((hcond2_0 ⟨n + 1, hn⟩).mpr h0) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (iblk2 V c 6 ⟨n + 1, hn⟩), out2_A_8 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) (ms2_8 ⟨n + 1, hn⟩) (hs2_8 ⟨n + 1, hn⟩) (ms2_9 ⟨n + 1, hn⟩) (hs2_9 ⟨n + 1, hn⟩) ((hcond2_0 ⟨n + 1, hn⟩).mpr h0) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (iblk2 V c 6 ⟨n + 1, hn⟩), out2_A_9 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) (ms2_8 ⟨n + 1, hn⟩) (hs2_8 ⟨n + 1, hn⟩) (ms2_9 ⟨n + 1, hn⟩) (hs2_9 ⟨n + 1, hn⟩) ((hcond2_0 ⟨n + 1, hn⟩).mpr h0) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (iblk2 V c 6 ⟨n + 1, hn⟩))
    else
      (out2_B_7 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) (ms2_8 ⟨n + 1, hn⟩) (hs2_8 ⟨n + 1, hn⟩) (ms2_9 ⟨n + 1, hn⟩) (hs2_9 ⟨n + 1, hn⟩) (fun h => h0 ((hcond2_0 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (iblk2 V c 6 ⟨n + 1, hn⟩) (outsAt2 c n (Nat.lt_of_succ_lt hn)).2.1 (outsAt2 c n (Nat.lt_of_succ_lt hn)).2.2, out2_B_8 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) (ms2_8 ⟨n + 1, hn⟩) (hs2_8 ⟨n + 1, hn⟩) (ms2_9 ⟨n + 1, hn⟩) (hs2_9 ⟨n + 1, hn⟩) (fun h => h0 ((hcond2_0 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (iblk2 V c 6 ⟨n + 1, hn⟩) (outsAt2 c n (Nat.lt_of_succ_lt hn)).2.1 (outsAt2 c n (Nat.lt_of_succ_lt hn)).2.2, out2_B_9 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) (ms2_8 ⟨n + 1, hn⟩) (hs2_8 ⟨n + 1, hn⟩) (ms2_9 ⟨n + 1, hn⟩) (hs2_9 ⟨n + 1, hn⟩) (fun h => h0 ((hcond2_0 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (iblk2 V c 6 ⟨n + 1, hn⟩) (outsAt2 c n (Nat.lt_of_succ_lt hn)).2.1 (outsAt2 c n (Nat.lt_of_succ_lt hn)).2.2)

/-- `outsAt2` at the first point: the zeroing case's contents. -/
theorem outsAt2_A (c : Dev nD) (t : Fin cfg2.N) (h0 : t.val % 10 = 0) :
    outsAt2 V c t.val t.isLt = (out2_A_7 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) (ms2_9 t) (hs2_9 t) ((hcond2_0 t).mpr h0) (iblk2 V c 0 t) (iblk2 V c 1 t) (iblk2 V c 2 t) (iblk2 V c 3 t) (iblk2 V c 4 t) (iblk2 V c 5 t) (iblk2 V c 6 t), out2_A_8 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) (ms2_9 t) (hs2_9 t) ((hcond2_0 t).mpr h0) (iblk2 V c 0 t) (iblk2 V c 1 t) (iblk2 V c 2 t) (iblk2 V c 3 t) (iblk2 V c 4 t) (iblk2 V c 5 t) (iblk2 V c 6 t), out2_A_9 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) (ms2_9 t) (hs2_9 t) ((hcond2_0 t).mpr h0) (iblk2 V c 0 t) (iblk2 V c 1 t) (iblk2 V c 2 t) (iblk2 V c 3 t) (iblk2 V c 4 t) (iblk2 V c 5 t) (iblk2 V c 6 t)) := by
  obtain ⟨n, hn⟩ := t
  cases n with
  | zero => exact rfl
  | succ n => exact (dif_pos h0).trans rfl

/-- `outsAt2` at a later point: the accumulating case's contents, over what the point before left. -/
theorem outsAt2_B (c : Dev nD) (t : Fin cfg2.N) (h0 : ¬t.val % 10 = 0) :
    outsAt2 V c t.val t.isLt = (out2_B_7 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) (ms2_9 t) (hs2_9 t) (fun h => h0 ((hcond2_0 t).mp h)) (iblk2 V c 0 t) (iblk2 V c 1 t) (iblk2 V c 2 t) (iblk2 V c 3 t) (iblk2 V c 4 t) (iblk2 V c 5 t) (iblk2 V c 6 t) (outsAt2 V c (t.val - 1) (Nat.lt_of_le_of_lt (Nat.sub_le _ _) t.isLt)).2.1 (outsAt2 V c (t.val - 1) (Nat.lt_of_le_of_lt (Nat.sub_le _ _) t.isLt)).2.2, out2_B_8 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) (ms2_9 t) (hs2_9 t) (fun h => h0 ((hcond2_0 t).mp h)) (iblk2 V c 0 t) (iblk2 V c 1 t) (iblk2 V c 2 t) (iblk2 V c 3 t) (iblk2 V c 4 t) (iblk2 V c 5 t) (iblk2 V c 6 t) (outsAt2 V c (t.val - 1) (Nat.lt_of_le_of_lt (Nat.sub_le _ _) t.isLt)).2.1 (outsAt2 V c (t.val - 1) (Nat.lt_of_le_of_lt (Nat.sub_le _ _) t.isLt)).2.2, out2_B_9 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) (ms2_9 t) (hs2_9 t) (fun h => h0 ((hcond2_0 t).mp h)) (iblk2 V c 0 t) (iblk2 V c 1 t) (iblk2 V c 2 t) (iblk2 V c 3 t) (iblk2 V c 4 t) (iblk2 V c 5 t) (iblk2 V c 6 t) (outsAt2 V c (t.val - 1) (Nat.lt_of_le_of_lt (Nat.sub_le _ _) t.isLt)).2.1 (outsAt2 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans rfl

/-! ## The pipeline's proof data -/

/-- The proof data of pipeline 2 on core `c`: the arrays as the region finds them (`V`); after the body at point `t`
    each input's buffer at its block and the outputs' at `outsAt2`; the invariant the scoped rest and the generator
    register, untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => iblk2 V c 6 t
    | ⟨7, _⟩ => (outsAt2 V c t.val t.isLt).1
    | ⟨8, _⟩ => (outsAt2 V c t.val t.isLt).2.1
    | ⟨9, _⟩ => (outsAt2 V c t.val t.isLt).2.2
  Φ _ := Pipeline.ΦA spec2 c
  q _ := fullShare
  owed _ := 0

/-- The proof data's arrays are the region-entry contents (the definition projected, never unfolding `V`). -/
theorem A_eq2 (c : Dev nD) (w : Fin cfg2.W) : (dat2 V c).A w = V c (Pipeline.arrRef spec2 w) := by
  dsimp only [dat2]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = iblk2 V c 6 t := by dsimp only [dat2]
theorem after2_7 (c : Dev nD) (t : Fin cfg2.N) : (dat2 V c).after 7 t = (outsAt2 V c t.val t.isLt).1 := by dsimp only [dat2]
theorem after2_8 (c : Dev nD) (t : Fin cfg2.N) : (dat2 V c).after 8 t = (outsAt2 V c t.val t.isLt).2.1 := by dsimp only [dat2]
theorem after2_9 (c : Dev nD) (t : Fin cfg2.N) : (dat2 V c).after 9 t = (outsAt2 V c t.val t.isLt).2.2 := by dsimp only [dat2]

/-- Each input's current staging buffer holds its block at every point, fetched there or not. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d
theorem before2_6 (c : Dev nD) (t : Fin cfg2.N) (d) : (dat2 V c).before 6 t d = iblk2 V c 6 t :=
  before2_6_of V (dat2 V c) (A_eq2 V c 6) (after2_6 V c) t d
/-- At a later point accumulator 8's current staging buffer holds what the body left at the point before: the point is
    not the first, the buffer was not written back in between, the window is live and uncut. -/
theorem before2_8_B (c : Dev nD) (t : Fin cfg2.N) (h0 : ¬t.val % 10 = 0) (d) :
    (dat2 V c).before 8 t d = (outsAt2 V c (t.val - 1) (Nat.lt_of_le_of_lt (Nat.sub_le _ _) t.isLt)).2.1 := by
  have hN : t.val < 10 := lt_of_lt_of_eq t.isLt (show cfg2.N = 10 from N_2)
  rw [Dat.before_out_kept _ 8 rfl t (by omega) (Bool.eq_false_iff.mpr fun h => by have := (flush2_8 _).mp h; dsimp only at this; omega)
    (fun _ => rfl) (fun _ _ => rfl)]
  dsimp only [dat2]
/-- At a later point accumulator 9's current staging buffer holds what the body left at the point before: the point is
    not the first, the buffer was not written back in between, the window is live and uncut. -/
theorem before2_9_B (c : Dev nD) (t : Fin cfg2.N) (h0 : ¬t.val % 10 = 0) (d) :
    (dat2 V c).before 9 t d = (outsAt2 V c (t.val - 1) (Nat.lt_of_le_of_lt (Nat.sub_le _ _) t.isLt)).2.2 := by
  have hN : t.val < 10 := lt_of_lt_of_eq t.isLt (show cfg2.N = 10 from N_2)
  rw [Dat.before_out_kept _ 9 rfl t (by omega) (Bool.eq_false_iff.mpr fun h => by have := (flush2_9 _).mp h; dsimp only at this; omega)
    (fun _ => rfl) (fun _ _ => rfl)]
  dsimp only [dat2]

/-! ## The body obligation, at a generic point -/

/-- What the body is called with at point `t` (the windows one by one), -/
def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d))
    ∗ (∃ d, owns (c : Thread nD τ) (ms2_4 t) fullShare ((dat2 V c).before 4 t d))
    ∗ (∃ d, owns (c : Thread nD τ) (ms2_5 t) fullShare ((dat2 V c).before 5 t d))
    ∗ (∃ d, owns (c : Thread nD τ) (ms2_6 t) fullShare ((dat2 V c).before 6 t d))
    ∗ (∃ d, owns (c : Thread nD τ) (ms2_7 t) fullShare ((dat2 V c).before 7 t d))
    ∗ (∃ d, owns (c : Thread nD τ) (ms2_8 t) fullShare ((dat2 V c).before 8 t d))
    ∗ (∃ d, owns (c : Thread nD τ) (ms2_9 t) fullShare ((dat2 V c).before 9 t d)))

/-- and what it returns. -/
def bodyPost2 (c : Dev nD) (t : Fin cfg2.N) : sProp 𝕄 :=
  iprop((dat2 V c).Φ t.succ ∗ (dat2 V c).owesAt () t.succ
    ∗ owns (c : Thread nD τ) (ms2_0 t) fullShare ((dat2 V c).after 0 t)
    ∗ owns (c : Thread nD τ) (ms2_1 t) fullShare ((dat2 V c).after 1 t)
    ∗ owns (c : Thread nD τ) (ms2_2 t) fullShare ((dat2 V c).after 2 t)
    ∗ owns (c : Thread nD τ) (ms2_3 t) fullShare ((dat2 V c).after 3 t)
    ∗ owns (c : Thread nD τ) (ms2_4 t) fullShare ((dat2 V c).after 4 t)
    ∗ owns (c : Thread nD τ) (ms2_5 t) fullShare ((dat2 V c).after 5 t)
    ∗ owns (c : Thread nD τ) (ms2_6 t) fullShare ((dat2 V c).after 6 t)
    ∗ owns (c : Thread nD τ) (ms2_7 t) fullShare ((dat2 V c).after 7 t)
    ∗ owns (c : Thread nD τ) (ms2_8 t) fullShare ((dat2 V c).after 8 t)
    ∗ owns (c : Thread nD τ) (ms2_9 t) fullShare ((dat2 V c).after 9 t))

set_option maxHeartbeats 4000000 in
/-- The body at any point: the inputs' memrefs hold their blocks; the closed form says which case the point is in; at a
    later point each accumulator holds what the point before left; so the case's run applies; the invariant passes
    through unread; the core owes nothing throughout. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5, before2_6]
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6, after2_7, after2_8, after2_9]
  have hN : t.val < 10 := lt_of_lt_of_eq t.isLt (show cfg2.N = 10 from N_2)
  by_cases h0 : t.val % 10 = 0
  ·
    rw [outsAt2_A V c t h0]
    unfold out2_A_7 out2_A_8 out2_A_9; (try dsimp only)
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    iapply ((kernelRun2_A c (grid2.coords t) _ _ _ _ _ _ _ _ _ _ _ _ _ _ _ _ _ _ _ _ ((hcond2_0 t).mpr h0) (iblk2 V c 0 t) (iblk2 V c 1 t) (iblk2 V c 2 t) (iblk2 V c 3 t) (iblk2 V c 4 t) (iblk2 V c 5 t) (iblk2 V c 6 t)).2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [H8]; · iexists _; iexact H8
    isplitl [H9]; · iexists _; iexact H9
    iintro ⟨H0, H1, H2, H3, H4, H5, H6, ⟨%e7, H7⟩, ⟨%e8, H8⟩, ⟨%e9, H9⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]
    · unfold owns; iexists _; isplitr
      swap; · iexact H7
      ipureintro; exact View.read_writes_of_cover _ _ _ _ _ (cover2_A_7 c _ _ _ _ _ _ _ _ _ _ _ _ _ _ _ _ _ _ _ _ _ _ _ _ _ _ _ _ _)
    isplitl [H8]
    · unfold owns; iexists _; isplitr
      swap; · iexact H8
      ipureintro; exact View.read_writes_of_cover _ _ _ _ _ (cover2_A_8 c _ _ _ _ _ _ _ _ _ _ _ _ _ _ _ _ _ _ _ _ _ _ _ _ _ _ _ _ _)
    unfold owns; iexists _; isplitr
    swap; · iexact H9
    ipureintro; exact View.read_writes_of_cover _ _ _ _ _ (cover2_A_9 c _ _ _ _ _ _ _ _ _ _ _ _ _ _ _ _ _ _ _ _ _ _ _ _ _ _ _ _ _)
  ·
    rw [outsAt2_B V c t h0]
    simp only [before2_8_B V c t h0, before2_9_B V c t h0]
    unfold out2_B_7 out2_B_8 out2_B_9; (try dsimp only)
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    iapply ((kernelRun2_B c (grid2.coords t) _ _ _ _ _ _ _ _ _ _ _ _ _ _ _ _ _ _ _ _ (fun h => h0 ((hcond2_0 t).mp h)) (iblk2 V c 0 t) (iblk2 V c 1 t) (iblk2 V c 2 t) (iblk2 V c 3 t) (iblk2 V c 4 t) (iblk2 V c 5 t) (iblk2 V c 6 t) _ _).2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [H8]; · iexact H8
    isplitl [H9]; · iexact H9
    iintro ⟨H0, H1, H2, H3, H4, H5, H6, ⟨%e7, H7⟩, ⟨%e8, H8⟩, ⟨%e9, H9⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]
    · unfold owns; iexists _; isplitr
      swap; · iexact H7
      ipureintro; exact View.read_writes_of_cover _ _ _ _ _ (cover2_B_7 c _ _ _ _ _ _ _ _ _ _ _ _ _ _ _ _ _ _ _ _ _ _ _ _ _ _ _ _ _ _ _)
    isplitl [H8]
    · unfold owns; iexists _; isplitr
      swap; · iexact H8
      ipureintro; exact View.read_writes_of_cover _ _ _ _ _ (cover2_B_8 c _ _ _ _ _ _ _ _ _ _ _ _ _ _ _ _ _ _ _ _ _ _ _ _ _ _ _ _ _ _ _)
    unfold owns; iexists _; isplitr
    swap; · iexact H9
    ipureintro; exact View.read_writes_of_cover _ _ _ _ _ (cover2_B_9 c _ _ _ _ _ _ _ _ _ _ _ _ _ _ _ _ _ _ _ _ _ _ _ _ _ _ _ _ _ _ _)

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.Kernel.Reg

end
-- ==== Proof.K.Reg3.lean ====
import proofs.«170818_j15161234555428_1_alg».proof.Proof.K.Launch
import proofs.«170818_j15161234555428_1_alg».proof.Proof.Gen.Kernel.Skeleton
import proofs.«170818_j15161234555428_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-!
# The normalisation kernel of pipeline 3, at one grid point

The kernel reads a block of rows `h`, a block of rows `res`, and four rows `mean`, `var`, `γ`, `β`; it writes
`y = (h - mean) * rsqrt (var + ε) * γ + β` and `res + y`, each as one whole-block store. The two row blocks move with the
grid point; the four single rows are the same block at every point; the two results are written back at every point.

Stated at a PARAMETER `V`, the buffers' contents when the pipeline is entered: each window's block at a point is read
off `V`; after the body an input's buffer still holds its block, and an output's buffer holds the one store's value
computed from the input blocks. The body's triple is obtained by running its memory operations one by one; the
pipeline's proof data and body obligation follow.
-/

set_option maxRecDepth 16384

noncomputable section

namespace Cert.Kernel.Reg

open Cert.Kernel Cert.Kernel.Gen Cert.Kernel.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffers' contents when the pipeline is entered
variable (V : (c : Dev nD) → (b : Ref sig .tc) → Buf (Elt F) ((c : Thread nD τ).loc b))

/-! ## The windows' blocks -/

/-- Window `w`'s block at point `t`, read off its array as the pipeline finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0 holds its block at every point of the grid, whether or not the block was transferred there: where it
    was not, the block index has not moved since the last transfer, and the body leaves an input's block in place. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- Input window 1 holds its block at every point of the grid, whether or not the block was transferred there: where it
    was not, the block index has not moved since the last transfer, and the body leaves an input's block in place. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-- Input window 2 holds its block at every point of the grid, whether or not the block was transferred there: where it
    was not, the block index has not moved since the last transfer, and the body leaves an input's block in place. -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-- Input window 3 holds its block at every point of the grid, whether or not the block was transferred there: where it
    was not, the block index has not moved since the last transfer, and the body leaves an input's block in place. -/
theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)

/-- Input window 4 holds its block at every point of the grid, whether or not the block was transferred there: where it
    was not, the block index has not moved since the last transfer, and the body leaves an input's block in place. -/
theorem before3_4_of {c : Dev nD} (dat : Dat τ (Elt F) Unit ℕ (UR sig nD τ) ℕ cfg3 c) (hA : dat.A 4 = V c (Pipeline.arrRef spec3 4))
    (hafter : ∀ t, dat.after 4 t = iblk3 V c 4 t) (t : Fin cfg3.N) (d) : dat.before 4 t d = iblk3 V c 4 t :=
  (dat.before_in_eq_fetched 4 rfl (fun _ => rfl) (fun _ _ _ => rfl) (fun t => by rw [hafter]; unfold Dat.blockOf iblk3; rw [hA]; try rfl) t d).trans
    (by unfold Dat.fetched Dat.blockOf iblk3; rw [hA]; try rfl)

/-- Input window 5 holds its block at every point of the grid, whether or not the block was transferred there: where it
    was not, the block index has not moved since the last transfer, and the body leaves an input's block in place. -/
theorem before3_5_of {c : Dev nD} (dat : Dat τ (Elt F) Unit ℕ (UR sig nD τ) ℕ cfg3 c) (hA : dat.A 5 = V c (Pipeline.arrRef spec3 5))
    (hafter : ∀ t, dat.after 5 t = iblk3 V c 5 t) (t : Fin cfg3.N) (d) : dat.before 5 t d = iblk3 V c 5 t :=
  (dat.before_in_eq_fetched 5 rfl (fun _ => rfl) (fun _ _ _ => rfl) (fun t => by rw [hafter]; unfold Dat.blockOf iblk3; rw [hA]; try rfl) t d).trans
    (by unfold Dat.fetched Dat.blockOf iblk3; rw [hA]; try rfl)

/-! ## The body's accesses: one whole-block rectangle per block shape -/

abbrev r3_0 : Rect S5000x128 := Rect.unit (s := S5000x128) ![0, 0] S5000x128.size inb_S5000x128_S5000x128_0_0
abbrev r3_1 : Rect S1x128 := Rect.unit (s := S1x128) ![0, 0] S1x128.size inb_S1x128_S1x128_0_0

/-! ## What the body leaves in each output window's buffer -/

/-- The buffer of `y` after the body: its single whole-block store, of the normalised rows computed from the blocks of
    `h` (`x0`), `mean` (`x2`), `var` (`x3`), `γ` (`x4`) and `β` (`x5`). -/
def out3_6 (x0 : Vec F S5000x128 .f32) (x2 x3 x4 x5 : Vec F S1x128 .f32) : Vec F S5000x128 .f32 :=
  View.canon [⟨r3_0, k3_pay1 (View.ld x3 r3_1) (View.ld x0 r3_0) (View.ld x2 r3_1) (View.ld x4 r3_1) (View.ld x5 r3_1)⟩]

/-- One whole-block store covers the block. -/
theorem cover3_6 (p0 : Vec F S5000x128 .f32) (y : S5000x128.Idx) :
    ∃ pc ∈ ([⟨r3_0, p0⟩] : List (View.Piece (Elt F) S5000x128 .f32)), y ∈ pc.1.set :=
  View.cover_of_tiled [⟨r3_0, p0⟩] S5000x128.size (by rfl) y

/-- The buffer of `res + y` after the body: its single whole-block store, of the block of `res` (`x1`) plus the
    normalised rows. -/
def out3_7 (x0 x1 : Vec F S5000x128 .f32) (x2 x3 x4 x5 : Vec F S1x128 .f32) : Vec F S5000x128 .f32 :=
  View.canon [⟨r3_0, k3_pay2 (View.ld x3 r3_1) (View.ld x0 r3_0) (View.ld x2 r3_1) (View.ld x4 r3_1) (View.ld x5 r3_1) (View.ld x1 r3_0)⟩]

/-- One whole-block store covers the block. -/
theorem cover3_7 (p0 : Vec F S5000x128 .f32) (y : S5000x128.Idx) :
    ∃ pc ∈ ([⟨r3_0, p0⟩] : List (View.Piece (Elt F) S5000x128 .f32)), y ∈ pc.1.set :=
  View.cover_of_tiled [⟨r3_0, p0⟩] S5000x128.size (by rfl) y

/-! ## The body's triple -/

set_option maxHeartbeats 1000000 in
/-- The kernel body on whole staging buffers — the inputs' at read contents `x0 … x5`, the outputs' at anything — runs
    to a state where the inputs' buffers are as they were and the outputs' hold `out3_6`, `out3_7` of the inputs. -/
theorem sound_kernel3 (c : Dev nD) (E : Set ℕ) (i : grid3.Coords) (arg1 : Memref sig .tc .vmem S5000x128 .f32) (harg1 : arg1.IsWhole) (arg2 : Memref sig .tc .vmem S5000x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S5000x128 .f32) (harg8 : arg8.IsWhole)
    (x0 : Vec F S5000x128 .f32) (x1 : Vec F S5000x128 .f32) (x2 : Vec F S1x128 .f32) (x3 : Vec F S1x128 .f32) (x4 : Vec F S1x128 .f32) (x5 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (out3_6 x0 x2 x3 x4 x5) ∗ owns (c : Thread nD τ) arg8 fullShare (out3_7 x0 x1 x2 x3 x4 x5)) -∗ K ⟨⟩))
      ⊢ wp frame (wpE (defs₀ (F := F)) Variants.none c none) E (cc3__bn_residual_kernel i arg1 harg1 arg2 harg2 arg3 harg3 arg4 harg4 arg5 harg5 arg6 harg6 arg7 harg7 arg8 harg8) K := by
  simp only [cc3__bn_residual_kernel_eq_skeleton]; unfold cc3__bn_residual_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    exact View.read_writes_eq_canon _ _ _ (cover3_6 _)
  iexists _; isplitr
  swap; · iexact H7
  ipureintro
  exact View.read_writes_eq_canon _ _ _ (cover3_7 _)

/-! ## The pipeline's proof data -/

/-- The proof data of pipeline 3 on core `c`: the arrays as the pipeline finds them; after the body at point `t` each
    input's buffer at its block and each output's at `out3_6` / `out3_7` of the input blocks; the invariant says
    the rest of the core's memory and its generator register are untouched; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => iblk3 V c 5 t
    | ⟨6, _⟩ => out3_6 (iblk3 V c 0 t) (iblk3 V c 2 t) (iblk3 V c 3 t) (iblk3 V c 4 t) (iblk3 V c 5 t)
    | ⟨7, _⟩ => out3_7 (iblk3 V c 0 t) (iblk3 V c 1 t) (iblk3 V c 2 t) (iblk3 V c 3 t) (iblk3 V c 4 t) (iblk3 V c 5 t)
  Φ _ := Pipeline.ΦA spec3 c
  q _ := fullShare
  owed _ := 0

/-- The proof data's arrays are the entry contents. -/
theorem A_eq3 (c : Dev nD) (w : Fin cfg3.W) : (dat3 V c).A w = V c (Pipeline.arrRef spec3 w) := by
  dsimp only [dat3]

/-- What the body leaves, window by window. -/
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) : (dat3 V c).after 5 t = iblk3 V c 5 t := by dsimp only [dat3]
theorem after3_6 (c : Dev nD) (t : Fin cfg3.N) : (dat3 V c).after 6 t = out3_6 (iblk3 V c 0 t) (iblk3 V c 2 t) (iblk3 V c 3 t) (iblk3 V c 4 t) (iblk3 V c 5 t) := by dsimp only [dat3]
theorem after3_7 (c : Dev nD) (t : Fin cfg3.N) : (dat3 V c).after 7 t = out3_7 (iblk3 V c 0 t) (iblk3 V c 1 t) (iblk3 V c 2 t) (iblk3 V c 3 t) (iblk3 V c 4 t) (iblk3 V c 5 t) := by dsimp only [dat3]

/-- Each input's current staging buffer holds its block at every point. -/
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d
theorem before3_4 (c : Dev nD) (t : Fin cfg3.N) (d) : (dat3 V c).before 4 t d = iblk3 V c 4 t :=
  before3_4_of V (dat3 V c) (A_eq3 V c 4) (after3_4 V c) t d
theorem before3_5 (c : Dev nD) (t : Fin cfg3.N) (d) : (dat3 V c).before 5 t d = iblk3 V c 5 t :=
  before3_5_of V (dat3 V c) (A_eq3 V c 5) (after3_5 V c) t d

/-! ## The body obligation, at a generic point -/

/-- What the body is called with at point `t`, the windows one by one, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d))
    ∗ (∃ d, owns (c : Thread nD τ) (st3_6 t) fullShare ((dat3 V c).before 6 t d))
    ∗ (∃ d, owns (c : Thread nD τ) (st3_7 t) fullShare ((dat3 V c).before 7 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t)
    ∗ owns (c : Thread nD τ) (st3_5 t) fullShare ((dat3 V c).after 5 t)
    ∗ owns (c : Thread nD τ) (st3_6 t) fullShare ((dat3 V c).after 6 t)
    ∗ owns (c : Thread nD τ) (st3_7 t) fullShare ((dat3 V c).after 7 t))

/-- The body at any point: the inputs' buffers hold their blocks, so the body's triple applies; the invariant and what
    the core owes pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4, before3_5]
  rw [show (dat3 V c).Φ t.succ = (dat3 V c).Φ t.castSucc from rfl,
    show (dat3 V c).owesAt () t.succ = (dat3 V c).owesAt () t.castSucc from rfl,
    after3_0, after3_1, after3_2, after3_3, after3_4, after3_5, after3_6, after3_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel3 c Set.univ _ _ _ _ _ _ _ _ _ _ _ _ _ _ _ _ _ (iblk3 V c 0 t) (iblk3 V c 1 t) (iblk3 V c 2 t) (iblk3 V c 3 t) (iblk3 V c 4 t) (iblk3 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The pipeline's body obligation, at every point. -/
theorem body_obligation3 (c : Dev nD) : BodyObligation (dat3 (F := F) V c) (defs₀ (F := F)) Variants.none () Set.univ := fun t => by
  rw [bigSep_W3, bigSep_W3]
  exact sound_body3 V c t

end Cert.Kernel.Reg

end
-- ==== Proof.K.Halves.lean ====
/-
  The four regions' halves for the run: each region's proof data at the contents it is entered from, with the facts the
  run asks of it. The class invariant, the full shares, the empty dues and the unconstrained wait records hold by the
  definition of the proof data; the arrays and the body obligation are the region's own theorems.
-/
import proofs.«170818_j15161234555428_1_alg».proof.Proof.K.RunPosts
import proofs.«170818_j15161234555428_1_alg».proof.Proof.K.Reg0
import proofs.«170818_j15161234555428_1_alg».proof.Proof.K.Reg1
import proofs.«170818_j15161234555428_1_alg».proof.Proof.K.Reg2
import proofs.«170818_j15161234555428_1_alg».proof.Proof.K.Reg3

set_option maxRecDepth 16384

noncomputable section

namespace Cert.Kernel.Run

open Cert.Kernel Cert.Kernel.Gen Cert.Kernel.GenP
open Idealize.ShloMosaic Idealize.ShloMosaic.TcCoe Idealize.SL.Sem

variable {F : FTy → Type} [FloatOps F]

/-- Region 0's half. -/
def half0 : Half0 F where
  dat := Cert.Kernel.Reg.dat0
  hA := Cert.Kernel.Reg.A_eq0
  hΦ := fun _ _ _ => rfl
  hq := fun _ _ _ => rfl
  ho := fun _ _ _ => rfl
  hr := fun _ _ _ => rfl
  hb := Cert.Kernel.Reg.body_obligation0

/-- Region 1's half. -/
def half1 : Half1 F where
  dat := Cert.Kernel.Reg.dat1
  hA := Cert.Kernel.Reg.A_eq1
  hΦ := fun _ _ _ => rfl
  hq := fun _ _ _ => rfl
  ho := fun _ _ _ => rfl
  hr := fun _ _ _ => rfl
  hb := Cert.Kernel.Reg.body_obligation1

/-- Region 2's half. -/
def half2 : Half2 F where
  dat := Cert.Kernel.Reg.dat2
  hA := Cert.Kernel.Reg.A_eq2
  hΦ := fun _ _ _ => rfl
  hq := fun _ _ _ => rfl
  ho := fun _ _ _ => rfl
  hr := fun _ _ _ => rfl
  hb := Cert.Kernel.Reg.body_obligation2

/-- Region 3's half. -/
def half3 : Half3 F where
  dat := Cert.Kernel.Reg.dat3
  hA := Cert.Kernel.Reg.A_eq3
  hΦ := fun _ _ _ => rfl
  hq := fun _ _ _ => rfl
  ho := fun _ _ _ => rfl
  hr := fun _ _ _ => rfl
  hb := Cert.Kernel.Reg.body_obligation3

end Cert.Kernel.Run

end
-- ==== Proof.KI.Run.lean ====
/-
  The run of @main as a chain of eight segments — four stretches of host operations and four kernel regions —
  from the launch memory to the return. Between two segments a TensorCore holds every unscoped buffer whole at a
  valuation computed by a fold: a host stretch applies its operations (`StableHlo.after`), a region replaces the arrays of
  its windows by what its write-backs leave (`Dat.arrAt … N`) and keeps every other buffer. Each region enters the fold
  through its HALF: proof data stated at the contents the region is entered from, whose arrays are those contents, whose
  invariant is the class invariant, which holds full shares and owes nothing, and the body obligation at every point.
  The last theorem says that every weakly fair execution terminates without a fault in a state whose unscoped buffers
  are the last valuation; the frame claim and the value claim are both read off it.
-/
import proofs.«170818_j15161234555428_1_alg».proof.Proof.KI.Regions
import proofs.«170818_j15161234555428_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Run

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The contents of a TensorCore's buffers, read at its own references. -/
abbrev VT (F : FTy → Type) [FloatOps F] : Type := (c : Dev nD) → (b : Ref sig .tc) → Buf (Elt F) ((c : Thread nD τ).loc b)

/-- Region 0's half: proof data at any entry contents `V` whose arrays are `V`'s, with the class invariant, full
    shares and nothing owed, and the body obligation at every point. -/
structure Half0 (F : FTy → Type) [FloatOps F] where
  dat : VT F → (c : Dev nD) → Dat τ (Elt F) Unit ℕ (UR sig nD τ) ℕ cfg0 c
  hA : ∀ V c (w : Fin cfg0.W), (dat V c).A w = V c (Pipeline.arrRef spec0 w)
  hΦ : ∀ V c t, (dat V c).Φ t = Pipeline.ΦA spec0 c
  hq : ∀ V c w, (dat V c).q w = fullShare
  ho : ∀ V c t, (dat V c).owed t = 0
  hr : ∀ V c t, (dat V c).recorded t = Set.univ
  hb : ∀ V c, BodyObligation (dat V c) (defs₀ (F := F)) Variants.none () Set.univ

/-- Region 1's half: proof data at any entry contents `V` whose arrays are `V`'s, with the class invariant, full
    shares and nothing owed, and the body obligation at every point. -/
structure Half1 (F : FTy → Type) [FloatOps F] where
  dat : VT F → (c : Dev nD) → Dat τ (Elt F) Unit ℕ (UR sig nD τ) ℕ cfg1 c
  hA : ∀ V c (w : Fin cfg1.W), (dat V c).A w = V c (Pipeline.arrRef spec1 w)
  hΦ : ∀ V c t, (dat V c).Φ t = Pipeline.ΦA spec1 c
  hq : ∀ V c w, (dat V c).q w = fullShare
  ho : ∀ V c t, (dat V c).owed t = 0
  hr : ∀ V c t, (dat V c).recorded t = Set.univ
  hb : ∀ V c, BodyObligation (dat V c) (defs₀ (F := F)) Variants.none () Set.univ

/-- Region 2's half: proof data at any entry contents `V` whose arrays are `V`'s, with the class invariant, full
    shares and nothing owed, and the body obligation at every point. -/
structure Half2 (F : FTy → Type) [FloatOps F] where
  dat : VT F → (c : Dev nD) → Dat τ (Elt F) Unit ℕ (UR sig nD τ) ℕ cfg2 c
  hA : ∀ V c (w : Fin cfg2.W), (dat V c).A w = V c (Pipeline.arrRef spec2 w)
  hΦ : ∀ V c t, (dat V c).Φ t = Pipeline.ΦA spec2 c
  hq : ∀ V c w, (dat V c).q w = fullShare
  ho : ∀ V c t, (dat V c).owed t = 0
  hr : ∀ V c t, (dat V c).recorded t = Set.univ
  hb : ∀ V c, BodyObligation (dat V c) (defs₀ (F := F)) Variants.none () Set.univ

/-- Region 3's half: proof data at any entry contents `V` whose arrays are `V`'s, with the class invariant, full
    shares and nothing owed, and the body obligation at every point. -/
structure Half3 (F : FTy → Type) [FloatOps F] where
  dat : VT F → (c : Dev nD) → Dat τ (Elt F) Unit ℕ (UR sig nD τ) ℕ cfg3 c
  hA : ∀ V c (w : Fin cfg3.W), (dat V c).A w = V c (Pipeline.arrRef spec3 w)
  hΦ : ∀ V c t, (dat V c).Φ t = Pipeline.ΦA spec3 c
  hq : ∀ V c w, (dat V c).q w = fullShare
  ho : ∀ V c t, (dat V c).owed t = 0
  hr : ∀ V c t, (dat V c).recorded t = Set.univ
  hb : ∀ V c, BodyObligation (dat V c) (defs₀ (F := F)) Variants.none () Set.univ

variable (m : (ℓ : Loc nD τ sig) → Buf (Elt F) ℓ)
variable (H0 : Half0 F) (H1 : Half1 F) (H2 : Half2 F) (H3 : Half3 F)

/-! ## The buffers' contents at each boundary -/

/-- Core `c`'s buffers at launch. -/
abbrev W0 : Dev nD → Valuation τ sig (Elt F) := fun c b => m (c, b)
/-- After the host stretch before region 0. -/
abbrev W1 : Dev nD → Valuation τ sig (Elt F) := fun c => StableHlo.after hostOps0 (W0 m c)
/-- The same at the TensorCore's references: what region 0's proof data take. -/
abbrev V1 : VT F := fun c b => W1 m c b
/-- At region 0's exit: its windows' arrays at what the write-backs leave, every other buffer as entered. -/
def W2 (c : Dev nD) : Valuation τ sig (Elt F) :=
  Pipeline.withArrays spec0 c (W1 m c) fun w => (H0.dat (V1 m) c).arrAt w cfg0.N
theorem W2_arr (c : Dev nD) (w : Fin cfg0.W) :
    W2 m H0 c (Proc.devRef .tc (Pipeline.arrRef spec0 w)) = (H0.dat (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m H0 c (Proc.devRef .tc b) = W1 m c (Proc.devRef .tc b) := by
  unfold W2; exact Pipeline.withArrays_of_ne spec0 c _ _ b hb
abbrev V2 : VT F := fun c b => W2 m H0 c b
theorem hF0 (c : Dev nD) (w : Fin cfg0.W) : (H0.dat (V1 m) c).arrAt w cfg0.N = V2 m H0 c (Pipeline.arrRef spec0 w) :=
  (W2_arr m H0 c w).symm
theorem hrest0 (c : Dev nD) : ∀ b, b ∉ Finset.univ.image (Pipeline.arrRef spec0) → V2 m H0 c b = V1 m c b :=
  fun b hb => W2_of_ne m H0 c b fun w e => hb (Finset.mem_image.mpr ⟨w, Finset.mem_univ _, e⟩)
/-- A buffer that is no output of region 0 leaves it as it entered: an input window's array is never written back,
    and a buffer of no window is bypassed. -/
theorem W2_keep (c : Dev nD) (b : Ref sig .tc) (h : b ∉ ([main_v20_0, main_v20_1, main_v20_2] : List (Ref sig .tc))) :
    W2 m H0 c (Proc.devRef .tc b) = W1 m c (Proc.devRef .tc b) := by
  by_cases hb : ∃ w, Pipeline.arrRef spec0 w = b
  · obtain ⟨w, rfl⟩ := hb
    have hin : (cfg0.win w).isOut = false := by
      revert h; revert w; decide
    rw [W2_arr]
    exact ((H0.dat _ c).arrAt_in w hin _).trans (H0.hA _ c w)
  · exact W2_of_ne m H0 c b (fun w e => hb ⟨w, e⟩)
/-- A buffer the host stretch before region 0 does not write keeps its contents. -/
theorem W1_keep (c : Dev nD) (b : Ref sig .tc) (h : b ∉ hostOps0_W) :
    W1 m c (Proc.devRef .tc b) = W0 m c (Proc.devRef .tc b) :=
  StableHlo.after_of_writes_sub hostOps0 _ hostOps0_writes h

/-- After the host stretch before region 1. -/
abbrev W3 : Dev nD → Valuation τ sig (Elt F) := fun c => StableHlo.after hostOps1 (W2 m H0 c)
/-- The same at the TensorCore's references: what region 1's proof data take. -/
abbrev V3 : VT F := fun c b => W3 m H0 c b
/-- At region 1's exit: its windows' arrays at what the write-backs leave, every other buffer as entered. -/
def W4 (c : Dev nD) : Valuation τ sig (Elt F) :=
  Pipeline.withArrays spec1 c (W3 m H0 c) fun w => (H1.dat (V3 m H0) c).arrAt w cfg1.N
theorem W4_arr (c : Dev nD) (w : Fin cfg1.W) :
    W4 m H0 H1 c (Proc.devRef .tc (Pipeline.arrRef spec1 w)) = (H1.dat (V3 m H0) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m H0 H1 c (Proc.devRef .tc b) = W3 m H0 c (Proc.devRef .tc b) := by
  unfold W4; exact Pipeline.withArrays_of_ne spec1 c _ _ b hb
abbrev V4 : VT F := fun c b => W4 m H0 H1 c b
theorem hF1 (c : Dev nD) (w : Fin cfg1.W) : (H1.dat (V3 m H0) c).arrAt w cfg1.N = V4 m H0 H1 c (Pipeline.arrRef spec1 w) :=
  (W4_arr m H0 H1 c w).symm
theorem hrest1 (c : Dev nD) : ∀ b, b ∉ Finset.univ.image (Pipeline.arrRef spec1) → V4 m H0 H1 c b = V3 m H0 c b :=
  fun b hb => W4_of_ne m H0 H1 c b fun w e => hb (Finset.mem_image.mpr ⟨w, Finset.mem_univ _, e⟩)
/-- A buffer that is no output of region 1 leaves it as it entered: an input window's array is never written back,
    and a buffer of no window is bypassed. -/
theorem W4_keep (c : Dev nD) (b : Ref sig .tc) (h : b ∉ ([main_v27_0, main_v27_1] : List (Ref sig .tc))) :
    W4 m H0 H1 c (Proc.devRef .tc b) = W3 m H0 c (Proc.devRef .tc b) := by
  by_cases hb : ∃ w, Pipeline.arrRef spec1 w = b
  · obtain ⟨w, rfl⟩ := hb
    have hin : (cfg1.win w).isOut = false := by
      revert h; revert w; decide
    rw [W4_arr]
    exact ((H1.dat _ c).arrAt_in w hin _).trans (H1.hA _ c w)
  · exact W4_of_ne m H0 H1 c b (fun w e => hb ⟨w, e⟩)
/-- A buffer the host stretch before region 1 does not write keeps its contents. -/
theorem W3_keep (c : Dev nD) (b : Ref sig .tc) (h : b ∉ hostOps1_W) :
    W3 m H0 c (Proc.devRef .tc b) = W2 m H0 c (Proc.devRef .tc b) :=
  StableHlo.after_of_writes_sub hostOps1 _ hostOps1_writes h

/-- After the host stretch before region 2. -/
abbrev W5 : Dev nD → Valuation τ sig (Elt F) := fun c => StableHlo.after hostOps2 (W4 m H0 H1 c)
/-- The same at the TensorCore's references: what region 2's proof data take. -/
abbrev V5 : VT F := fun c b => W5 m H0 H1 c b
/-- At region 2's exit: its windows' arrays at what the write-backs leave, every other buffer as entered. -/
def W6 (c : Dev nD) : Valuation τ sig (Elt F) :=
  Pipeline.withArrays spec2 c (W5 m H0 H1 c) fun w => (H2.dat (V5 m H0 H1) c).arrAt w cfg2.N
theorem W6_arr (c : Dev nD) (w : Fin cfg2.W) :
    W6 m H0 H1 H2 c (Proc.devRef .tc (Pipeline.arrRef spec2 w)) = (H2.dat (V5 m H0 H1) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m H0 H1 H2 c (Proc.devRef .tc b) = W5 m H0 H1 c (Proc.devRef .tc b) := by
  unfold W6; exact Pipeline.withArrays_of_ne spec2 c _ _ b hb
abbrev V6 : VT F := fun c b => W6 m H0 H1 H2 c b
theorem hF2 (c : Dev nD) (w : Fin cfg2.W) : (H2.dat (V5 m H0 H1) c).arrAt w cfg2.N = V6 m H0 H1 H2 c (Pipeline.arrRef spec2 w) :=
  (W6_arr m H0 H1 H2 c w).symm
theorem hrest2 (c : Dev nD) : ∀ b, b ∉ Finset.univ.image (Pipeline.arrRef spec2) → V6 m H0 H1 H2 c b = V5 m H0 H1 c b :=
  fun b hb => W6_of_ne m H0 H1 H2 c b fun w e => hb (Finset.mem_image.mpr ⟨w, Finset.mem_univ _, e⟩)
/-- A buffer that is no output of region 2 leaves it as it entered: an input window's array is never written back,
    and a buffer of no window is bypassed. -/
theorem W6_keep (c : Dev nD) (b : Ref sig .tc) (h : b ∉ ([main_v45_0, main_v45_1, main_v45_2] : List (Ref sig .tc))) :
    W6 m H0 H1 H2 c (Proc.devRef .tc b) = W5 m H0 H1 c (Proc.devRef .tc b) := by
  by_cases hb : ∃ w, Pipeline.arrRef spec2 w = b
  · obtain ⟨w, rfl⟩ := hb
    have hin : (cfg2.win w).isOut = false := by
      revert h; revert w; decide
    rw [W6_arr]
    exact ((H2.dat _ c).arrAt_in w hin _).trans (H2.hA _ c w)
  · exact W6_of_ne m H0 H1 H2 c b (fun w e => hb ⟨w, e⟩)
/-- A buffer the host stretch before region 2 does not write keeps its contents. -/
theorem W5_keep (c : Dev nD) (b : Ref sig .tc) (h : b ∉ hostOps2_W) :
    W5 m H0 H1 c (Proc.devRef .tc b) = W4 m H0 H1 c (Proc.devRef .tc b) :=
  StableHlo.after_of_writes_sub hostOps2 _ hostOps2_writes h

/-- After the host stretch before region 3. -/
abbrev W7 : Dev nD → Valuation τ sig (Elt F) := fun c => StableHlo.after hostOps3 (W6 m H0 H1 H2 c)
/-- The same at the TensorCore's references: what region 3's proof data take. -/
abbrev V7 : VT F := fun c b => W7 m H0 H1 H2 c b
/-- At region 3's exit: its windows' arrays at what the write-backs leave, every other buffer as entered. -/
def W8 (c : Dev nD) : Valuation τ sig (Elt F) :=
  Pipeline.withArrays spec3 c (W7 m H0 H1 H2 c) fun w => (H3.dat (V7 m H0 H1 H2) c).arrAt w cfg3.N
theorem W8_arr (c : Dev nD) (w : Fin cfg3.W) :
    W8 m H0 H1 H2 H3 c (Proc.devRef .tc (Pipeline.arrRef spec3 w)) = (H3.dat (V7 m H0 H1 H2) c).arrAt w cfg3.N := by
  unfold W8; exact Pipeline.withArrays_arr spec3 launch3.win.arr_inj c _ _ w
theorem W8_of_ne (c : Dev nD) (b : Ref sig .tc) (hb : ∀ w, Pipeline.arrRef spec3 w ≠ b) :
    W8 m H0 H1 H2 H3 c (Proc.devRef .tc b) = W7 m H0 H1 H2 c (Proc.devRef .tc b) := by
  unfold W8; exact Pipeline.withArrays_of_ne spec3 c _ _ b hb
abbrev V8 : VT F := fun c b => W8 m H0 H1 H2 H3 c b
theorem hF3 (c : Dev nD) (w : Fin cfg3.W) : (H3.dat (V7 m H0 H1 H2) c).arrAt w cfg3.N = V8 m H0 H1 H2 H3 c (Pipeline.arrRef spec3 w) :=
  (W8_arr m H0 H1 H2 H3 c w).symm
theorem hrest3 (c : Dev nD) : ∀ b, b ∉ Finset.univ.image (Pipeline.arrRef spec3) → V8 m H0 H1 H2 H3 c b = V7 m H0 H1 H2 c b :=
  fun b hb => W8_of_ne m H0 H1 H2 H3 c b fun w e => hb (Finset.mem_image.mpr ⟨w, Finset.mem_univ _, e⟩)
/-- A buffer that is no output of region 3 leaves it as it entered: an input window's array is never written back,
    and a buffer of no window is bypassed. -/
theorem W8_keep (c : Dev nD) (b : Ref sig .tc) (h : b ∉ ([main_v52_0, main_v52_1] : List (Ref sig .tc))) :
    W8 m H0 H1 H2 H3 c (Proc.devRef .tc b) = W7 m H0 H1 H2 c (Proc.devRef .tc b) := by
  by_cases hb : ∃ w, Pipeline.arrRef spec3 w = b
  · obtain ⟨w, rfl⟩ := hb
    have hin : (cfg3.win w).isOut = false := by
      revert h; revert w; decide
    rw [W8_arr]
    exact ((H3.dat _ c).arrAt_in w hin _).trans (H3.hA _ c w)
  · exact W8_of_ne m H0 H1 H2 H3 c b (fun w e => hb ⟨w, e⟩)
/-- A buffer the host stretch before region 3 does not write keeps its contents. -/
theorem W7_keep (c : Dev nD) (b : Ref sig .tc) (h : b ∉ hostOps3_W) :
    W7 m H0 H1 H2 c (Proc.devRef .tc b) = W6 m H0 H1 H2 c (Proc.devRef .tc b) :=
  StableHlo.after_of_writes_sub hostOps3 _ hostOps3_writes h

/-- A buffer that no host operation writes and that is no region's output ends as launched: every argument array. -/
theorem W8_launch (c : Dev nD) (b : Ref sig .tc)
    (h0 : b ∉ hostOps0_W) (k0 : b ∉ ([main_v20_0, main_v20_1, main_v20_2] : List (Ref sig .tc)))
    (h1 : b ∉ hostOps1_W) (k1 : b ∉ ([main_v27_0, main_v27_1] : List (Ref sig .tc)))
    (h2 : b ∉ hostOps2_W) (k2 : b ∉ ([main_v45_0, main_v45_1, main_v45_2] : List (Ref sig .tc)))
    (h3 : b ∉ hostOps3_W) (k3 : b ∉ ([main_v52_0, main_v52_1] : List (Ref sig .tc))) :
    W8 m H0 H1 H2 H3 c (Proc.devRef .tc b) = m ((c : Thread nD τ).loc b) :=
  (W8_keep m H0 H1 H2 H3 c b k3).trans <| (W7_keep m H0 H1 H2 c b h3).trans <| (W6_keep m H0 H1 H2 c b k2).trans <|
    (W5_keep m H0 H1 c b h2).trans <| (W4_keep m H0 H1 c b k1).trans <| (W3_keep m H0 c b h1).trans <|
    (W2_keep m H0 c b k0).trans <| (W1_keep m c b h0).trans rfl

/-! ## The proof data family and the thread state -/

abbrev adm : (p : Fin 4) → (pcfgs (F := F) p).Adm := fun p => (cfgs p).toPCfg_adm
/-- Every pipeline's proof data, each at its region's entry contents. -/
def pdats : (p : Fin 4) → (c : Dev nD) → Dat τ (Elt F) Unit ℕ (UR sig nD τ) ℕ (Pipeline.pin (pcfgs (F := F)) adm p) c
  | ⟨0, _⟩ => fun c => H0.dat (V1 m) c
  | ⟨1, _⟩ => fun c => H1.dat (V3 m H0) c
  | ⟨2, _⟩ => fun c => H2.dat (V5 m H0 H1) c
  | ⟨3, _⟩ => fun c => H3.dat (V7 m H0 H1 H2) c
abbrev 𝒱₀ : Variants := Variants.none
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W8 m H0 H1 H2 H3 c) ∗ ∃ r, prngReg c r)

/-! ## The regions as segments -/

set_option backward.isDefEq.respectTransparency.types false in
/-- Region 0 over the thread state: entered from every unscoped buffer at `W1`, left at `W2`; its arrays are split
    out of the unscoped buffers and put back at the exit contents; the generator register goes into the class invariant
    and comes out; nothing is owed; the kernel has no semaphore of its own. -/
def reg0 : Pipeline.RegionSeg (pcfgs (F := F)) adm (pdats m H0 H1 H2 H3) () defs₀ 𝒱₀ L lv 0 where
  win := launch0.win.to₀
  block_pos := launch0.block_pos
  stage_whole := launch0.stage_whole
  K := PEmpty
  osem k := k.elim
  ho := Pipeline.OwnSemFacts.none _
  hbody c := (H0.hb (V1 m) c).loose
  hwaits := Pipeline.hwaits_of_owed_zero _ _ _ _ L lv 0 fun c t => H0.ho (V1 m) c t
  pre c := iprop(StableHlo.held (c : Thread nD τ) (Pipeline.ucRefs τ sig) (W1 m c) ∗ R c)
  post c := iprop(StableHlo.held (c : Thread nD τ) (Pipeline.ucRefs τ sig) (W2 m H0 c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m H0 H1 H2 H3) launch0.win launch0.arr_whole c
      ((pdats m H0 H1 H2 H3 0 c).share_full fun w => H0.hq (V1 m) c w) (V1 m c) fun w => H0.hA (V1 m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl ((H0.hr (V1 m) c 0).symm ▸ Set.mem_univ _)
      rw [show (pdats m H0 H1 H2 H3 0 c).owed 0 = 0 from H0.ho (V1 m) c 0]
      iexact HO
    isplitl [Hp]; · iexact Hp
    iexact Hrest
  hin c := by
    rw [show (pdats m H0 H1 H2 H3 0 c).Φ 0 = Pipeline.ΦA spec0 c from H0.hΦ (V1 m) c 0]; unfold Pipeline.ΦA
    iintro ⟨Hp, -, Hr⟩
    isplitl [Hr]; · iexact Hr
    iexact Hp
  hout c := by
    rw [Pipeline.ownSems0_none, show (pdats m H0 H1 H2 H3 0 c).Φ (Fin.last _) = Pipeline.ΦA spec0 c from H0.hΦ (V1 m) c _]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m H0 H1 H2 H3) ((pdats m H0 H1 H2 H3 0 c).share_full fun w => H0.hq (V1 m) c w)
      (V1 m c) (V2 m H0 c) ((pdats m H0 H1 H2 H3 0 c).arrAt · cfg0.N) (hF0 m H0 c) (hrest0 m H0 c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W
    rw [show (pdats m H0 H1 H2 H3 0 c).owed (Fin.last _) = 0 from H0.ho (V1 m) c _]
    iexact HO

set_option backward.isDefEq.respectTransparency.types false in
/-- Region 1 over the thread state: entered from every unscoped buffer at `W3`, left at `W4`; its arrays are split
    out of the unscoped buffers and put back at the exit contents; the generator register goes into the class invariant
    and comes out; nothing is owed; the kernel has no semaphore of its own. -/
def reg1 : Pipeline.RegionSeg (pcfgs (F := F)) adm (pdats m H0 H1 H2 H3) () defs₀ 𝒱₀ L lv 1 where
  win := launch1.win.to₀
  block_pos := launch1.block_pos
  stage_whole := launch1.stage_whole
  K := PEmpty
  osem k := k.elim
  ho := Pipeline.OwnSemFacts.none _
  hbody c := (H1.hb (V3 m H0) c).loose
  hwaits := Pipeline.hwaits_of_owed_zero _ _ _ _ L lv 1 fun c t => H1.ho (V3 m H0) c t
  pre c := iprop(StableHlo.held (c : Thread nD τ) (Pipeline.ucRefs τ sig) (W3 m H0 c) ∗ R c)
  post c := iprop(StableHlo.held (c : Thread nD τ) (Pipeline.ucRefs τ sig) (W4 m H0 H1 c) ∗ R c)
  X c := iprop(∃ r, prngReg c r)
  Y c := iprop(∃ r, prngReg c r)
  Z c := Pipeline.unscopedRest (Ix := Unit) (Name := ℕ) (U := UR sig nD τ) (Lvl := ℕ) spec1 c (V3 m H0 c)
  hentry c := by
    rw [Pipeline.ownSems0_none]
    have hsplit := Pipeline.arrays_of_unscopedBufs (p := 1) (pcfgs (F := F)) adm (pdats m H0 H1 H2 H3) launch1.win launch1.arr_whole c
      ((pdats m H0 H1 H2 H3 1 c).share_full fun w => H1.hq (V3 m H0) c w) (V3 m H0 c) fun w => H1.hA (V3 m H0) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl ((H1.hr (V3 m H0) c 0).symm ▸ Set.mem_univ _)
      rw [show (pdats m H0 H1 H2 H3 1 c).owed 0 = 0 from H1.ho (V3 m H0) c 0]
      iexact HO
    isplitl [Hp]; · iexact Hp
    iexact Hrest
  hin c := by
    rw [show (pdats m H0 H1 H2 H3 1 c).Φ 0 = Pipeline.ΦA spec1 c from H1.hΦ (V3 m H0) c 0]; unfold Pipeline.ΦA
    iintro ⟨Hp, -, Hr⟩
    isplitl [Hr]; · iexact Hr
    iexact Hp
  hout c := by
    rw [Pipeline.ownSems0_none, show (pdats m H0 H1 H2 H3 1 c).Φ (Fin.last _) = Pipeline.ΦA spec1 c from H1.hΦ (V3 m H0) c _]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m H0 H1 H2 H3) ((pdats m H0 H1 H2 H3 1 c).share_full fun w => H1.hq (V3 m H0) c w)
      (V3 m H0 c) (V4 m H0 H1 c) ((pdats m H0 H1 H2 H3 1 c).arrAt · cfg1.N) (hF1 m H0 H1 c) (hrest1 m H0 H1 c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W
    rw [show (pdats m H0 H1 H2 H3 1 c).owed (Fin.last _) = 0 from H1.ho (V3 m H0) c _]
    iexact HO

set_option backward.isDefEq.respectTransparency.types false in
/-- Region 2 over the thread state: entered from every unscoped buffer at `W5`, left at `W6`; its arrays are split
    out of the unscoped buffers and put back at the exit contents; the generator register goes into the class invariant
    and comes out; nothing is owed; the kernel has no semaphore of its own. -/
def reg2 : Pipeline.RegionSeg (pcfgs (F := F)) adm (pdats m H0 H1 H2 H3) () defs₀ 𝒱₀ L lv 2 where
  win := launch2.win.to₀
  block_pos := launch2.block_pos
  stage_whole := launch2.stage_whole
  K := PEmpty
  osem k := k.elim
  ho := Pipeline.OwnSemFacts.none _
  hbody c := (H2.hb (V5 m H0 H1) c).loose
  hwaits := Pipeline.hwaits_of_owed_zero _ _ _ _ L lv 2 fun c t => H2.ho (V5 m H0 H1) c t
  pre c := iprop(StableHlo.held (c : Thread nD τ) (Pipeline.ucRefs τ sig) (W5 m H0 H1 c) ∗ R c)
  post c := iprop(StableHlo.held (c : Thread nD τ) (Pipeline.ucRefs τ sig) (W6 m H0 H1 H2 c) ∗ R c)
  X c := iprop(∃ r, prngReg c r)
  Y c := iprop(∃ r, prngReg c r)
  Z c := Pipeline.unscopedRest (Ix := Unit) (Name := ℕ) (U := UR sig nD τ) (Lvl := ℕ) spec2 c (V5 m H0 H1 c)
  hentry c := by
    rw [Pipeline.ownSems0_none]
    have hsplit := Pipeline.arrays_of_unscopedBufs (p := 2) (pcfgs (F := F)) adm (pdats m H0 H1 H2 H3) launch2.win launch2.arr_whole c
      ((pdats m H0 H1 H2 H3 2 c).share_full fun w => H2.hq (V5 m H0 H1) c w) (V5 m H0 H1 c) fun w => H2.hA (V5 m H0 H1) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl ((H2.hr (V5 m H0 H1) c 0).symm ▸ Set.mem_univ _)
      rw [show (pdats m H0 H1 H2 H3 2 c).owed 0 = 0 from H2.ho (V5 m H0 H1) c 0]
      iexact HO
    isplitl [Hp]; · iexact Hp
    iexact Hrest
  hin c := by
    rw [show (pdats m H0 H1 H2 H3 2 c).Φ 0 = Pipeline.ΦA spec2 c from H2.hΦ (V5 m H0 H1) c 0]; unfold Pipeline.ΦA
    iintro ⟨Hp, -, Hr⟩
    isplitl [Hr]; · iexact Hr
    iexact Hp
  hout c := by
    rw [Pipeline.ownSems0_none, show (pdats m H0 H1 H2 H3 2 c).Φ (Fin.last _) = Pipeline.ΦA spec2 c from H2.hΦ (V5 m H0 H1) c _]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m H0 H1 H2 H3) ((pdats m H0 H1 H2 H3 2 c).share_full fun w => H2.hq (V5 m H0 H1) c w)
      (V5 m H0 H1 c) (V6 m H0 H1 H2 c) ((pdats m H0 H1 H2 H3 2 c).arrAt · cfg2.N) (hF2 m H0 H1 H2 c) (hrest2 m H0 H1 H2 c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W
    rw [show (pdats m H0 H1 H2 H3 2 c).owed (Fin.last _) = 0 from H2.ho (V5 m H0 H1) c _]
    iexact HO

set_option backward.isDefEq.respectTransparency.types false in
/-- Region 3 over the thread state: entered from every unscoped buffer at `W7`, left at `W8`; its arrays are split
    out of the unscoped buffers and put back at the exit contents; the generator register goes into the class invariant
    and comes out; nothing is owed; the kernel has no semaphore of its own. -/
def reg3 : Pipeline.RegionSeg (pcfgs (F := F)) adm (pdats m H0 H1 H2 H3) () defs₀ 𝒱₀ L lv 3 where
  win := launch3.win.to₀
  block_pos := launch3.block_pos
  stage_whole := launch3.stage_whole
  K := PEmpty
  osem k := k.elim
  ho := Pipeline.OwnSemFacts.none _
  hbody c := (H3.hb (V7 m H0 H1 H2) c).loose
  hwaits := Pipeline.hwaits_of_owed_zero _ _ _ _ L lv 3 fun c t => H3.ho (V7 m H0 H1 H2) c t
  pre c := iprop(StableHlo.held (c : Thread nD τ) (Pipeline.ucRefs τ sig) (W7 m H0 H1 H2 c) ∗ R c)
  post c := iprop(StableHlo.held (c : Thread nD τ) (Pipeline.ucRefs τ sig) (W8 m H0 H1 H2 H3 c) ∗ R c)
  X c := iprop(∃ r, prngReg c r)
  Y c := iprop(∃ r, prngReg c r)
  Z c := Pipeline.unscopedRest (Ix := Unit) (Name := ℕ) (U := UR sig nD τ) (Lvl := ℕ) spec3 c (V7 m H0 H1 H2 c)
  hentry c := by
    rw [Pipeline.ownSems0_none]
    have hsplit := Pipeline.arrays_of_unscopedBufs (p := 3) (pcfgs (F := F)) adm (pdats m H0 H1 H2 H3) launch3.win launch3.arr_whole c
      ((pdats m H0 H1 H2 H3 3 c).share_full fun w => H3.hq (V7 m H0 H1 H2) c w) (V7 m H0 H1 H2 c) fun w => H3.hA (V7 m H0 H1 H2) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl ((H3.hr (V7 m H0 H1 H2) c 0).symm ▸ Set.mem_univ _)
      rw [show (pdats m H0 H1 H2 H3 3 c).owed 0 = 0 from H3.ho (V7 m H0 H1 H2) c 0]
      iexact HO
    isplitl [Hp]; · iexact Hp
    iexact Hrest
  hin c := by
    rw [show (pdats m H0 H1 H2 H3 3 c).Φ 0 = Pipeline.ΦA spec3 c from H3.hΦ (V7 m H0 H1 H2) c 0]; unfold Pipeline.ΦA
    iintro ⟨Hp, -, Hr⟩
    isplitl [Hr]; · iexact Hr
    iexact Hp
  hout c := by
    rw [Pipeline.ownSems0_none, show (pdats m H0 H1 H2 H3 3 c).Φ (Fin.last _) = Pipeline.ΦA spec3 c from H3.hΦ (V7 m H0 H1 H2) c _]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m H0 H1 H2 H3) ((pdats m H0 H1 H2 H3 3 c).share_full fun w => H3.hq (V7 m H0 H1 H2) c w)
      (V7 m H0 H1 H2 c) (V8 m H0 H1 H2 H3 c) ((pdats m H0 H1 H2 H3 3 c).arrAt · cfg3.N) (hF3 m H0 H1 H2 H3 c) (hrest3 m H0 H1 H2 H3 c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W
    rw [show (pdats m H0 H1 H2 H3 3 c).owed (Fin.last _) = 0 from H3.ho (V7 m H0 H1 H2) c _]
    iexact HO

/-! ## @main as segments, and the run -/

abbrev segs : List (Pipeline.Seg (pcfgs (F := F)) adm (pdats m H0 H1 H2 H3) () defs₀ 𝒱₀ L lv) :=
  [ .host (hseg hostOps0 hostOps0_sub hostOps0_fresh (W0 m)),
    .region (reg0 m H0 H1 H2 H3),
    .host (hseg hostOps1 hostOps1_sub hostOps1_fresh (W2 m H0)),
    .region (reg1 m H0 H1 H2 H3),
    .host (hseg hostOps2 hostOps2_sub hostOps2_fresh (W4 m H0 H1)),
    .region (reg2 m H0 H1 H2 H3),
    .host (hseg hostOps3 hostOps3_sub hostOps3_fresh (W6 m H0 H1 H2)),
    .region (reg3 m H0 H1 H2 H3) ]
theorem main_run (c : Dev nD) : main (F := F) c = Pipeline.Seg.run (segs m H0 H1 H2 H3) := (main_chain c).trans (by chain_rfl)

set_option backward.isDefEq.respectTransparency.types false in
/-- THE RUN. From any memory with zero counters every weakly fair execution of @main on the TensorCores terminates,
    nothing faulting, and in the final state every unscoped buffer of every core holds the last valuation's contents. -/
theorem run_all (ρ : Dev nD → PrngReg) : θ_run defs (onTc (τ := τ) (main (F := F))) ⟨m, fun _ => 0, ρ⟩ (fun r => ∀ c : Dev nD,
      ∀ b ∈ Pipeline.ucRefs τ sig, r.2.mem (((c : Thread nD τ)).1, b) = W8 m H0 H1 H2 H3 c b) :=
  Pipeline.θ_run_regions_kit (pcfgs (F := F)) adm (pdats m H0 H1 H2 H3) () cellOf_inj emb₁ defs₀ 𝒱₀ L lv m ρ main (segs m H0 H1 H2 H3)
    (fun c Q => by rw [main_run m H0 H1 H2 H3 c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m H0 H1 H2 H3)
    (hch := ⟨fun _ => .rfl, fun _ => .rfl, fun _ => .rfl, fun _ => .rfl, fun _ => .rfl, fun _ => .rfl, fun _ => .rfl, fun _ => .rfl, fun c => by
      show iprop(StableHlo.held (c : Thread nD τ) (Pipeline.ucRefs τ sig) (W8 m H0 H1 H2 H3 c) ∗ R c) ⊢ _
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m H0 H1 H2 H3 c b)
    (hfin := fun c s' => by
      iintro ⟨⟨Hh, -⟩, HSI⟩
      unfold StableHlo.held
      imodintro
      iapply (pointsTo_read_all (Pipeline.ucRefs τ sig) (fun b => (((c : Thread nD τ)).1, b)) (W8 m H0 H1 H2 H3 c) s')
      isplitl [Hh] <;> iassumption)
    (hQ := fun s h c => h c)

end Cert.KernelIdeal.Run

end
-- ==== Proof.KI.RunPosts.lean ====
/-
  What the run leaves, read off the last valuation: every argument array as launched (no host operation writes one and no
  region's output is one), and the two results as the final arrays of the regions that produce them — the node result is
  output window 7 of the last region, the edge result output window 7 of the second region, which nothing later writes.
-/
import proofs.«170818_j15161234555428_1_alg».proof.Proof.KI.Run

set_option maxRecDepth 16384

noncomputable section

namespace Cert.KernelIdeal.Run

open Cert.KernelIdeal Cert.KernelIdeal.Gen Cert.KernelIdeal.GenP
open Idealize.ShloMosaic Idealize.ShloMosaic.TcCoe
open Idealize.SL.Sem
open Idealize.ShloMosaic.Pipeline (Dat)

variable {F : FTy → Type} [FloatOps F]
variable (m : (ℓ : Loc nD τ sig) → Buf (Elt F) ℓ)
variable (H0 : Half0 F) (H1 : Half1 F) (H2 : Half2 F) (H3 : Half3 F)

/-- The node result's buffer at the end is what the last region's write-backs leave in its output window 7. -/
theorem W8_result0 (c : Dev nD) :
    W8 m H0 H1 H2 H3 c (Proc.devRef .tc main_v52_1) = (H3.dat (V7 m H0 H1 H2) c).arrAt 7 cfg3.N :=
  W8_arr m H0 H1 H2 H3 c 7

/-- The edge result's buffer at the end is what the second region's write-backs leave in its output window 7: no
    later host operation writes it and no later region has it as an output. -/
theorem W8_result1 (c : Dev nD) :
    W8 m H0 H1 H2 H3 c (Proc.devRef .tc main_v27_1) = (H1.dat (V3 m H0) c).arrAt 7 cfg1.N :=
  (W8_keep m H0 H1 H2 H3 c main_v27_1 (by decide)).trans <| (W7_keep m H0 H1 H2 c main_v27_1 (by decide)).trans <|
    (W6_keep m H0 H1 H2 c main_v27_1 (by decide)).trans <| (W5_keep m H0 H1 c main_v27_1 (by decide)).trans <|
    W4_arr m H0 H1 c 7

include H0 H1 H2 H3 in
/-- The frame: every weakly fair execution terminates, nothing faulting, every argument array as launched. -/
theorem frame_of (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)) :=
  (θ_run defs _ _).mono (fun r h c => ⟨(h c _ (mem_uc main_arg0 (by decide))).trans (W8_launch m H0 H1 H2 H3 c main_arg0 (by decide) (by decide) (by decide) (by decide) (by decide) (by decide) (by decide) (by decide)),
    (h c _ (mem_uc main_arg1 (by decide))).trans (W8_launch m H0 H1 H2 H3 c main_arg1 (by decide) (by decide) (by decide) (by decide) (by decide) (by decide) (by decide) (by decide)),
    (h c _ (mem_uc main_arg2 (by decide))).trans (W8_launch m H0 H1 H2 H3 c main_arg2 (by decide) (by decide) (by decide) (by decide) (by decide) (by decide) (by decide) (by decide)),
    (h c _ (mem_uc main_arg3 (by decide))).trans (W8_launch m H0 H1 H2 H3 c main_arg3 (by decide) (by decide) (by decide) (by decide) (by decide) (by decide) (by decide) (by decide)),
    (h c _ (mem_uc main_arg4 (by decide))).trans (W8_launch m H0 H1 H2 H3 c main_arg4 (by decide) (by decide) (by decide) (by decide) (by decide) (by decide) (by decide) (by decide)),
    (h c _ (mem_uc main_arg5 (by decide))).trans (W8_launch m H0 H1 H2 H3 c main_arg5 (by decide) (by decide) (by decide) (by decide) (by decide) (by decide) (by decide) (by decide)),
    (h c _ (mem_uc main_arg6 (by decide))).trans (W8_launch m H0 H1 H2 H3 c main_arg6 (by decide) (by decide) (by decide) (by decide) (by decide) (by decide) (by decide) (by decide)),
    (h c _ (mem_uc main_arg7 (by decide))).trans (W8_launch m H0 H1 H2 H3 c main_arg7 (by decide) (by decide) (by decide) (by decide) (by decide) (by decide) (by decide) (by decide)),
    (h c _ (mem_uc main_arg8 (by decide))).trans (W8_launch m H0 H1 H2 H3 c main_arg8 (by decide) (by decide) (by decide) (by decide) (by decide) (by decide) (by decide) (by decide)),
    (h c _ (mem_uc main_arg9 (by decide))).trans (W8_launch m H0 H1 H2 H3 c main_arg9 (by decide) (by decide) (by decide) (by decide) (by decide) (by decide) (by decide) (by decide)),
    (h c _ (mem_uc main_arg10 (by decide))).trans (W8_launch m H0 H1 H2 H3 c main_arg10 (by decide) (by decide) (by decide) (by decide) (by decide) (by decide) (by decide) (by decide)),
    (h c _ (mem_uc main_arg11 (by decide))).trans (W8_launch m H0 H1 H2 H3 c main_arg11 (by decide) (by decide) (by decide) (by decide) (by decide) (by decide) (by decide) (by decide)),
    (h c _ (mem_uc main_arg12 (by decide))).trans (W8_launch m H0 H1 H2 H3 c main_arg12 (by decide) (by decide) (by decide) (by decide) (by decide) (by decide) (by decide) (by decide)),
    (h c _ (mem_uc main_arg13 (by decide))).trans (W8_launch m H0 H1 H2 H3 c main_arg13 (by decide) (by decide) (by decide) (by decide) (by decide) (by decide) (by decide) (by decide)),
    (h c _ (mem_uc main_arg14 (by decide))).trans (W8_launch m H0 H1 H2 H3 c main_arg14 (by decide) (by decide) (by decide) (by decide) (by decide) (by decide) (by decide) (by decide)),
    (h c _ (mem_uc main_arg15 (by decide))).trans (W8_launch m H0 H1 H2 H3 c main_arg15 (by decide) (by decide) (by decide) (by decide) (by decide) (by decide) (by decide) (by decide)),
    (h c _ (mem_uc main_arg16 (by decide))).trans (W8_launch m H0 H1 H2 H3 c main_arg16 (by decide) (by decide) (by decide) (by decide) (by decide) (by decide) (by decide) (by decide)),
    (h c _ (mem_uc main_arg17 (by decide))).trans (W8_launch m H0 H1 H2 H3 c main_arg17 (by decide) (by decide) (by decide) (by decide) (by decide) (by decide) (by decide) (by decide)),
    (h c _ (mem_uc main_arg18 (by decide))).trans (W8_launch m H0 H1 H2 H3 c main_arg18 (by decide) (by decide) (by decide) (by decide) (by decide) (by decide) (by decide) (by decide)),
    (h c _ (mem_uc main_arg19 (by decide))).trans (W8_launch m H0 H1 H2 H3 c main_arg19 (by decide) (by decide) (by decide) (by decide) (by decide) (by decide) (by decide) (by decide))⟩) (run_all m H0 H1 H2 H3 ρ)

/-- The run with its results named: the two results are the regions' final arrays, the arguments as launched. -/
theorem values_of (ρ : Dev nD → PrngReg) : θ_run defs (onTc (τ := τ) (main (F := F))) ⟨m, fun _ => 0, ρ⟩ (fun r => ∀ c : Dev nD,
      r.2.mem ((c.tc : Thread nD τ).loc main_v52_1) = (H3.dat (V7 m H0 H1 H2) c).arrAt 7 cfg3.N
      ∧ r.2.mem ((c.tc : Thread nD τ).loc main_v27_1) = (H1.dat (V3 m H0) c).arrAt 7 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)) :=
  (θ_run defs _ _).mono (fun r h c => ⟨(h c _ (mem_uc main_v52_1 (by decide))).trans (W8_result0 m H0 H1 H2 H3 c),
    (h c _ (mem_uc main_v27_1 (by decide))).trans (W8_result1 m H0 H1 H2 H3 c),
    (h c _ (mem_uc main_arg0 (by decide))).trans (W8_launch m H0 H1 H2 H3 c main_arg0 (by decide) (by decide) (by decide) (by decide) (by decide) (by decide) (by decide) (by decide)),
    (h c _ (mem_uc main_arg1 (by decide))).trans (W8_launch m H0 H1 H2 H3 c main_arg1 (by decide) (by decide) (by decide) (by decide) (by decide) (by decide) (by decide) (by decide)),
    (h c _ (mem_uc main_arg2 (by decide))).trans (W8_launch m H0 H1 H2 H3 c main_arg2 (by decide) (by decide) (by decide) (by decide) (by decide) (by decide) (by decide) (by decide)),
    (h c _ (mem_uc main_arg3 (by decide))).trans (W8_launch m H0 H1 H2 H3 c main_arg3 (by decide) (by decide) (by decide) (by decide) (by decide) (by decide) (by decide) (by decide)),
    (h c _ (mem_uc main_arg4 (by decide))).trans (W8_launch m H0 H1 H2 H3 c main_arg4 (by decide) (by decide) (by decide) (by decide) (by decide) (by decide) (by decide) (by decide)),
    (h c _ (mem_uc main_arg5 (by decide))).trans (W8_launch m H0 H1 H2 H3 c main_arg5 (by decide) (by decide) (by decide) (by decide) (by decide) (by decide) (by decide) (by decide)),
    (h c _ (mem_uc main_arg6 (by decide))).trans (W8_launch m H0 H1 H2 H3 c main_arg6 (by decide) (by decide) (by decide) (by decide) (by decide) (by decide) (by decide) (by decide)),
    (h c _ (mem_uc main_arg7 (by decide))).trans (W8_launch m H0 H1 H2 H3 c main_arg7 (by decide) (by decide) (by decide) (by decide) (by decide) (by decide) (by decide) (by decide)),
    (h c _ (mem_uc main_arg8 (by decide))).trans (W8_launch m H0 H1 H2 H3 c main_arg8 (by decide) (by decide) (by decide) (by decide) (by decide) (by decide) (by decide) (by decide)),
    (h c _ (mem_uc main_arg9 (by decide))).trans (W8_launch m H0 H1 H2 H3 c main_arg9 (by decide) (by decide) (by decide) (by decide) (by decide) (by decide) (by decide) (by decide)),
    (h c _ (mem_uc main_arg10 (by decide))).trans (W8_launch m H0 H1 H2 H3 c main_arg10 (by decide) (by decide) (by decide) (by decide) (by decide) (by decide) (by decide) (by decide)),
    (h c _ (mem_uc main_arg11 (by decide))).trans (W8_launch m H0 H1 H2 H3 c main_arg11 (by decide) (by decide) (by decide) (by decide) (by decide) (by decide) (by decide) (by decide)),
    (h c _ (mem_uc main_arg12 (by decide))).trans (W8_launch m H0 H1 H2 H3 c main_arg12 (by decide) (by decide) (by decide) (by decide) (by decide) (by decide) (by decide) (by decide)),
    (h c _ (mem_uc main_arg13 (by decide))).trans (W8_launch m H0 H1 H2 H3 c main_arg13 (by decide) (by decide) (by decide) (by decide) (by decide) (by decide) (by decide) (by decide)),
    (h c _ (mem_uc main_arg14 (by decide))).trans (W8_launch m H0 H1 H2 H3 c main_arg14 (by decide) (by decide) (by decide) (by decide) (by decide) (by decide) (by decide) (by decide)),
    (h c _ (mem_uc main_arg15 (by decide))).trans (W8_launch m H0 H1 H2 H3 c main_arg15 (by decide) (by decide) (by decide) (by decide) (by decide) (by decide) (by decide) (by decide)),
    (h c _ (mem_uc main_arg16 (by decide))).trans (W8_launch m H0 H1 H2 H3 c main_arg16 (by decide) (by decide) (by decide) (by decide) (by decide) (by decide) (by decide) (by decide)),
    (h c _ (mem_uc main_arg17 (by decide))).trans (W8_launch m H0 H1 H2 H3 c main_arg17 (by decide) (by decide) (by decide) (by decide) (by decide) (by decide) (by decide) (by decide)),
    (h c _ (mem_uc main_arg18 (by decide))).trans (W8_launch m H0 H1 H2 H3 c main_arg18 (by decide) (by decide) (by decide) (by decide) (by decide) (by decide) (by decide) (by decide)),
    (h c _ (mem_uc main_arg19 (by decide))).trans (W8_launch m H0 H1 H2 H3 c main_arg19 (by decide) (by decide) (by decide) (by decide) (by decide) (by decide) (by decide) (by decide))⟩) (run_all m H0 H1 H2 H3 ρ)

end Cert.KernelIdeal.Run

end
-- ==== Proof.KI.Reg0.Runs.lean ====
/- REGION 0 of @main (cc0__mlp_stats_kernel), stated at a PARAMETER `V` — the TensorCore's buffer contents when the region is
   entered: each window's block at a grid point, the input windows' staging contents at every point, the body's one
   branch condition in closed form over the grid, and the names the two whole-body runs are stated over. -/
import proofs.«170818_j15161234555428_1_alg».proof.Proof.KI.Launch
import proofs.«170818_j15161234555428_1_alg».proof.Proof.Gen.KernelIdeal.Skeleton
import proofs.«170818_j15161234555428_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of full extents: the structural check recurses once per coordinate of the long axes
set_option maxRecDepth 16384

noncomputable section

namespace Cert.KernelIdeal.Reg

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for any proof data
    whose array is `V`'s and whose body leaves the block in place: unfetched, the block index has not moved. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- Input window 1's current staging buffer holds its block at every point, fetched there or not, for any proof data
    whose array is `V`'s and whose body leaves the block in place: unfetched, the block index has not moved. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- Input window 2's current staging buffer holds its block at every point, fetched there or not, for any proof data
    whose array is `V`'s and whose body leaves the block in place: unfetched, the block index has not moved. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
/-- Input window 3's current staging buffer holds its block at every point, fetched there or not, for any proof data
    whose array is `V`'s and whose body leaves the block in place: unfetched, the block index has not moved. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
/-- Input window 4's current staging buffer holds its block at every point, fetched there or not, for any proof data
    whose array is `V`'s and whose body leaves the block in place: unfetched, the block index has not moved. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)
/-- Input window 5's current staging buffer holds its block at every point, fetched there or not, for any proof data
    whose array is `V`'s and whose body leaves the block in place: unfetched, the block index has not moved. -/
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)
/-- Input window 6's current staging buffer holds its block at every point, fetched there or not, for any proof data
    whose array is `V`'s and whose body leaves the block in place: unfetched, the block index has not moved. -/
theorem before0_6_of {c : Dev nD} (dat : Dat τ (Elt F) Unit ℕ (UR sig nD τ) ℕ cfg0 c) (hA : dat.A 6 = V c (Pipeline.arrRef spec0 6))
    (hafter : ∀ t, dat.after 6 t = iblk0 V c 6 t) (t : Fin cfg0.N) (d) : dat.before 6 t d = iblk0 V c 6 t :=
  (dat.before_in_eq_fetched 6 rfl (fun _ => rfl) (fun _ _ _ => rfl) (fun t => by rw [hafter]; unfold Dat.blockOf iblk0; rw [hA]; try rfl) t d).trans
    (by unfold Dat.fetched Dat.blockOf iblk0; rw [hA]; try rfl)

/-! ## The body's branch condition -/

/-- The condition of the body's one conditional (the accumulators are zeroed under it), from the grid coordinates. -/
abbrev cond0_0 (i : grid0.Coords) : Prop := (Scalar.cmpi .ne (Scalar.extui (Scalar.cmpi .eq (BitVec.ofNat 32 (i 0).val) 0#32)) 0#32) = 1#1
/-- It holds at the first point only — decided over the grid. -/
theorem hcond0_0 : ∀ t : Fin cfg0.N, cond0_0 (grid0.coords t) ↔ t.val % 128 = 0 :=
  (by decide +kernel : ∀ t : Fin grid0.N, cond0_0 (grid0.coords t) ↔ t.val % 128 = 0)

/-! ## The staging memrefs -/

/-- One staging buffer of output window 7, through which its contents are stated (the choice does not matter). -/
abbrev VO0_7 : View sig .tc .vmem S5000x128 .f32 := (Memref.whole cc0_stg7_0 : Memref sig .tc .vmem S5000x128 .f32).view
/-- One staging buffer of output window 8, through which its contents are stated (the choice does not matter). -/
abbrev VO0_8 : View sig .tc .vmem S1x128 .f32 := (Memref.whole cc0_stg8_0 : Memref sig .tc .vmem S1x128 .f32).view
/-- One staging buffer of output window 9, through which its contents are stated (the choice does not matter). -/
abbrev VO0_9 : View sig .tc .vmem S1x128 .f32 := (Memref.whole cc0_stg9_0 : Memref sig .tc .vmem S1x128 .f32).view
/-- Each window's current staging memref at point `t`, spelled as the pipeline passes it, and its wholeness. -/
abbrev ms0_0 (t : Fin cfg0.N) : Memref sig .tc .vmem S5000x384 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S384x128 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x128 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S128x128 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x128 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S128x128 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x128 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S5000x128 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1x128 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S1x128 .f32 := win0_9.stage (cfg0.slots t 9)
abbrev hs0_9 (t : Fin cfg0.N) : (ms0_9 t).IsWhole := hstage0_9 ((cfg0.slots t 9).cast nbuf0_9)

end Cert.KernelIdeal.Reg

end
-- ==== Proof.KI.Reg0.RunA.lean ====
/- REGION 0, the whole-body run of cc0__mlp_stats_kernel in the case "first grid point: the accumulators are zeroed":
   the body's triple on whole staging memrefs, with the pieces each output's buffer ends with as the witness the run finds. -/
import proofs.«170818_j15161234555428_1_alg».proof.Proof.KI.Reg0.Runs

-- membership in a rectangle of full extents: the structural check recurses once per coordinate of the long axes
set_option maxRecDepth 16384

noncomputable section

namespace Cert.KernelIdeal.Reg

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large: the definition's epilogue walks it past the default budget)
set_option maxHeartbeats 4000000 in
/-- What the body's stores leave in each output's staging memref, as pieces (last first), in this case, WITH the proof
    that on whole staging memrefs — the inputs' at their contents, every output's at anything — the body runs to the
    continuation holding the inputs' as they were and each output's buffer with its pieces written. -/
noncomputable def kernelRun0_A (c : Dev nD) (i : grid0.Coords) (arg1 : Memref sig .tc .vmem S5000x384 .f32) (harg1 : arg1.IsWhole) (arg2 : Memref sig .tc .vmem S384x128 .f32) (harg2 : arg2.IsWhole) (arg3 : Memref sig .tc .vmem S1x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S5000x128 .f32) (harg8 : arg8.IsWhole) (arg9 : Memref sig .tc .vmem S1x128 .f32) (harg9 : arg9.IsWhole) (arg10 : Memref sig .tc .vmem S1x128 .f32) (harg10 : arg10.IsWhole) (hc0 : cond0_0 i)
    (x0 : Vec F S5000x384 .f32) (x1 : Vec F S384x128 .f32) (x2 : Vec F S1x128 .f32) (x3 : Vec F S128x128 .f32) (x4 : Vec F S1x128 .f32) (x5 : Vec F S128x128 .f32) (x6 : Vec F S1x128 .f32) :
    Σ' (L7 : List (View.Piece (Elt F) S5000x128 .f32)), Σ' (L8 : List (View.Piece (Elt F) S1x128 .f32)), { L9 : List (View.Piece (Elt F) S1x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ (∃ d, owns (c : Thread nD τ) arg9 fullShare d) ∗ (∃ d, owns (c : Thread nD τ) arg10 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ f, arg8.view.loc (c : Thread nD τ) ↦[arg8.view.set]{fullShare} arg8.view.writes (Elt F) f L7) ∗ (∃ f, arg9.view.loc (c : Thread nD τ) ↦[arg9.view.set]{fullShare} arg9.view.writes (Elt F) f L8) ∗ (∃ f, arg10.view.loc (c : Thread nD τ) ↦[arg10.view.set]{fullShare} arg10.view.writes (Elt F) f L9)) -∗ K ⟨⟩))
          ⊢ wp frame (wpE (defs₀ (F := F)) Variants.none c none) E (cc0__mlp_stats_kernel i arg1 harg1 arg2 harg2 arg3 harg3 arg4 harg4 arg5 harg5 arg6 harg6 arg7 harg7 arg8 harg8 arg9 harg9 arg10 harg10) K } := by
  refine ⟨?_, ?_, ?_, fun E K => ?run⟩
  case run =>
    simp only [cc0__mlp_stats_kernel_eq_skeleton]; unfold cc0__mlp_stats_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]; · iexists _; iexact H7
    isplitl [H8]; · iexists _; iexact H8
    iexists _; iexact H9

end Cert.KernelIdeal.Reg

end
-- ==== Proof.KI.Reg0.RunB.lean ====
/- REGION 0, the whole-body run of cc0__mlp_stats_kernel in the case "a later grid point: the accumulators are read back":
   the body's triple on whole staging memrefs, with the pieces each output's buffer ends with as the witness the run finds. -/
import proofs.«170818_j15161234555428_1_alg».proof.Proof.KI.Reg0.RunA

-- membership in a rectangle of full extents: the structural check recurses once per coordinate of the long axes
set_option maxRecDepth 16384

noncomputable section

namespace Cert.KernelIdeal.Reg

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large: the definition's epilogue walks it past the default budget)
set_option maxHeartbeats 4000000 in
/-- What the body's stores leave in each output's staging memref, as pieces (last first), in this case, WITH the proof
    that on whole staging memrefs — the inputs' at their contents, the two accumulators' at their running contents, the third output's at anything — the body runs to the
    continuation holding the inputs' as they were and each output's buffer with its pieces written. -/
noncomputable def kernelRun0_B (c : Dev nD) (i : grid0.Coords) (arg1 : Memref sig .tc .vmem S5000x384 .f32) (harg1 : arg1.IsWhole) (arg2 : Memref sig .tc .vmem S384x128 .f32) (harg2 : arg2.IsWhole) (arg3 : Memref sig .tc .vmem S1x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S5000x128 .f32) (harg8 : arg8.IsWhole) (arg9 : Memref sig .tc .vmem S1x128 .f32) (harg9 : arg9.IsWhole) (arg10 : Memref sig .tc .vmem S1x128 .f32) (harg10 : arg10.IsWhole) (hc0 : ¬cond0_0 i)
    (x0 : Vec F S5000x384 .f32) (x1 : Vec F S384x128 .f32) (x2 : Vec F S1x128 .f32) (x3 : Vec F S128x128 .f32) (x4 : Vec F S1x128 .f32) (x5 : Vec F S128x128 .f32) (x6 : Vec F S1x128 .f32) (xo8 : Vec F S1x128 .f32) (xo9 : Vec F S1x128 .f32) :
    Σ' (L7 : List (View.Piece (Elt F) S5000x128 .f32)), Σ' (L8 : List (View.Piece (Elt F) S1x128 .f32)), { L9 : List (View.Piece (Elt F) S1x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ owns (c : Thread nD τ) arg9 fullShare xo8 ∗ owns (c : Thread nD τ) arg10 fullShare xo9
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ f, arg8.view.loc (c : Thread nD τ) ↦[arg8.view.set]{fullShare} arg8.view.writes (Elt F) f L7) ∗ (∃ f, arg9.view.loc (c : Thread nD τ) ↦[arg9.view.set]{fullShare} arg9.view.writes (Elt F) f L8) ∗ (∃ f, arg10.view.loc (c : Thread nD τ) ↦[arg10.view.set]{fullShare} arg10.view.writes (Elt F) f L9)) -∗ K ⟨⟩))
          ⊢ wp frame (wpE (defs₀ (F := F)) Variants.none c none) E (cc0__mlp_stats_kernel i arg1 harg1 arg2 harg2 arg3 harg3 arg4 harg4 arg5 harg5 arg6 harg6 arg7 harg7 arg8 harg8 arg9 harg9 arg10 harg10) K } := by
  refine ⟨?_, ?_, ?_, fun E K => ?run⟩
  case run =>
    simp only [cc0__mlp_stats_kernel_eq_skeleton]; unfold cc0__mlp_stats_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%f8, %hf8, H8⟩, ⟨%f9, %hf9, H9⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg9.eq_unread hf8; obtain rfl := harg10.eq_unread hf9
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]; · iexists _; iexact H7
    isplitl [H8]; · iexists _; iexact H8
    iexists _; iexact H9

end Cert.KernelIdeal.Reg

end
-- ==== Proof.KI.Reg0.lean ====
/- REGION 0 of @main (cc0__mlp_stats_kernel: a three-layer perceptron on a block of rows, with the column sums of its output and of
   its square accumulated over the grid), at the entry contents `V`: what each output's staging buffer holds per case
   and point by point (the accumulators by recursion on the point), the pipeline's proof data, and the body obligation. -/
import proofs.«170818_j15161234555428_1_alg».proof.Proof.KI.Reg0.RunB

-- membership in a rectangle of full extents: the structural check recurses once per coordinate of the long axes
set_option maxRecDepth 16384

noncomputable section

namespace Cert.KernelIdeal.Reg

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The pieces the run of case A finds for output 7 tile its block, so they cover it. -/
theorem cover0_A_7 (c : Dev nD) (i : grid0.Coords) (arg1 : Memref sig .tc .vmem S5000x384 .f32) (harg1 : arg1.IsWhole) (arg2 : Memref sig .tc .vmem S384x128 .f32) (harg2 : arg2.IsWhole) (arg3 : Memref sig .tc .vmem S1x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S5000x128 .f32) (harg8 : arg8.IsWhole) (arg9 : Memref sig .tc .vmem S1x128 .f32) (harg9 : arg9.IsWhole) (arg10 : Memref sig .tc .vmem S1x128 .f32) (harg10 : arg10.IsWhole) (hc0 : cond0_0 i)
    (x0 : Vec F S5000x384 .f32) (x1 : Vec F S384x128 .f32) (x2 : Vec F S1x128 .f32) (x3 : Vec F S128x128 .f32) (x4 : Vec F S1x128 .f32) (x5 : Vec F S128x128 .f32) (x6 : Vec F S1x128 .f32) (y : S5000x128.Idx) :
    ∃ pc ∈ (kernelRun0_A c i arg1 harg1 arg2 harg2 arg3 harg3 arg4 harg4 arg5 harg5 arg6 harg6 arg7 harg7 arg8 harg8 arg9 harg9 arg10 harg10 hc0 x0 x1 x2 x3 x4 x5 x6).1, y ∈ pc.1.set :=
  View.cover_of_tiledL (kernelRun0_A c i arg1 harg1 arg2 harg2 arg3 harg3 arg4 harg4 arg5 harg5 arg6 harg6 arg7 harg7 arg8 harg8 arg9 harg9 arg10 harg10 hc0 x0 x1 x2 x3 x4 x5 x6).1 S5000x128.size (by sl_kernel_rfl) y

/-- What case A leaves in output 7's staging buffer: its pieces read back. -/
def out0_A_7 (c : Dev nD) (i : grid0.Coords) (arg1 : Memref sig .tc .vmem S5000x384 .f32) (harg1 : arg1.IsWhole) (arg2 : Memref sig .tc .vmem S384x128 .f32) (harg2 : arg2.IsWhole) (arg3 : Memref sig .tc .vmem S1x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S5000x128 .f32) (harg8 : arg8.IsWhole) (arg9 : Memref sig .tc .vmem S1x128 .f32) (harg9 : arg9.IsWhole) (arg10 : Memref sig .tc .vmem S1x128 .f32) (harg10 : arg10.IsWhole) (hc0 : cond0_0 i)
    (x0 : Vec F S5000x384 .f32) (x1 : Vec F S384x128 .f32) (x2 : Vec F S1x128 .f32) (x3 : Vec F S128x128 .f32) (x4 : Vec F S1x128 .f32) (x5 : Vec F S128x128 .f32) (x6 : Vec F S1x128 .f32) : Vec F S5000x128 .f32 :=
  VO0_7.read (Elt F) (VO0_7.writes (Elt F) VO0_7.junk (kernelRun0_A c i arg1 harg1 arg2 harg2 arg3 harg3 arg4 harg4 arg5 harg5 arg6 harg6 arg7 harg7 arg8 harg8 arg9 harg9 arg10 harg10 hc0 x0 x1 x2 x3 x4 x5 x6).1)

/-- The pieces the run of case A finds for output 8 tile its block, so they cover it. -/
theorem cover0_A_8 (c : Dev nD) (i : grid0.Coords) (arg1 : Memref sig .tc .vmem S5000x384 .f32) (harg1 : arg1.IsWhole) (arg2 : Memref sig .tc .vmem S384x128 .f32) (harg2 : arg2.IsWhole) (arg3 : Memref sig .tc .vmem S1x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S5000x128 .f32) (harg8 : arg8.IsWhole) (arg9 : Memref sig .tc .vmem S1x128 .f32) (harg9 : arg9.IsWhole) (arg10 : Memref sig .tc .vmem S1x128 .f32) (harg10 : arg10.IsWhole) (hc0 : cond0_0 i)
    (x0 : Vec F S5000x384 .f32) (x1 : Vec F S384x128 .f32) (x2 : Vec F S1x128 .f32) (x3 : Vec F S128x128 .f32) (x4 : Vec F S1x128 .f32) (x5 : Vec F S128x128 .f32) (x6 : Vec F S1x128 .f32) (y : S1x128.Idx) :
    ∃ pc ∈ (kernelRun0_A c i arg1 harg1 arg2 harg2 arg3 harg3 arg4 harg4 arg5 harg5 arg6 harg6 arg7 harg7 arg8 harg8 arg9 harg9 arg10 harg10 hc0 x0 x1 x2 x3 x4 x5 x6).2.1, y ∈ pc.1.set :=
  View.cover_of_tiledL (kernelRun0_A c i arg1 harg1 arg2 harg2 arg3 harg3 arg4 harg4 arg5 harg5 arg6 harg6 arg7 harg7 arg8 harg8 arg9 harg9 arg10 harg10 hc0 x0 x1 x2 x3 x4 x5 x6).2.1 S1x128.size (by sl_kernel_rfl) y

/-- What case A leaves in output 8's staging buffer: its pieces read back. -/
def out0_A_8 (c : Dev nD) (i : grid0.Coords) (arg1 : Memref sig .tc .vmem S5000x384 .f32) (harg1 : arg1.IsWhole) (arg2 : Memref sig .tc .vmem S384x128 .f32) (harg2 : arg2.IsWhole) (arg3 : Memref sig .tc .vmem S1x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S5000x128 .f32) (harg8 : arg8.IsWhole) (arg9 : Memref sig .tc .vmem S1x128 .f32) (harg9 : arg9.IsWhole) (arg10 : Memref sig .tc .vmem S1x128 .f32) (harg10 : arg10.IsWhole) (hc0 : cond0_0 i)
    (x0 : Vec F S5000x384 .f32) (x1 : Vec F S384x128 .f32) (x2 : Vec F S1x128 .f32) (x3 : Vec F S128x128 .f32) (x4 : Vec F S1x128 .f32) (x5 : Vec F S128x128 .f32) (x6 : Vec F S1x128 .f32) : Vec F S1x128 .f32 :=
  VO0_8.read (Elt F) (VO0_8.writes (Elt F) VO0_8.junk (kernelRun0_A c i arg1 harg1 arg2 harg2 arg3 harg3 arg4 harg4 arg5 harg5 arg6 harg6 arg7 harg7 arg8 harg8 arg9 harg9 arg10 harg10 hc0 x0 x1 x2 x3 x4 x5 x6).2.1)

/-- The pieces the run of case A finds for output 9 tile its block, so they cover it. -/
theorem cover0_A_9 (c : Dev nD) (i : grid0.Coords) (arg1 : Memref sig .tc .vmem S5000x384 .f32) (harg1 : arg1.IsWhole) (arg2 : Memref sig .tc .vmem S384x128 .f32) (harg2 : arg2.IsWhole) (arg3 : Memref sig .tc .vmem S1x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S5000x128 .f32) (harg8 : arg8.IsWhole) (arg9 : Memref sig .tc .vmem S1x128 .f32) (harg9 : arg9.IsWhole) (arg10 : Memref sig .tc .vmem S1x128 .f32) (harg10 : arg10.IsWhole) (hc0 : cond0_0 i)
    (x0 : Vec F S5000x384 .f32) (x1 : Vec F S384x128 .f32) (x2 : Vec F S1x128 .f32) (x3 : Vec F S128x128 .f32) (x4 : Vec F S1x128 .f32) (x5 : Vec F S128x128 .f32) (x6 : Vec F S1x128 .f32) (y : S1x128.Idx) :
    ∃ pc ∈ (kernelRun0_A c i arg1 harg1 arg2 harg2 arg3 harg3 arg4 harg4 arg5 harg5 arg6 harg6 arg7 harg7 arg8 harg8 arg9 harg9 arg10 harg10 hc0 x0 x1 x2 x3 x4 x5 x6).2.2.1, y ∈ pc.1.set :=
  View.cover_of_tiledL (kernelRun0_A c i arg1 harg1 arg2 harg2 arg3 harg3 arg4 harg4 arg5 harg5 arg6 harg6 arg7 harg7 arg8 harg8 arg9 harg9 arg10 harg10 hc0 x0 x1 x2 x3 x4 x5 x6).2.2.1 S1x128.size (by sl_kernel_rfl) y

/-- What case A leaves in output 9's staging buffer: its pieces read back. -/
def out0_A_9 (c : Dev nD) (i : grid0.Coords) (arg1 : Memref sig .tc .vmem S5000x384 .f32) (harg1 : arg1.IsWhole) (arg2 : Memref sig .tc .vmem S384x128 .f32) (harg2 : arg2.IsWhole) (arg3 : Memref sig .tc .vmem S1x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S5000x128 .f32) (harg8 : arg8.IsWhole) (arg9 : Memref sig .tc .vmem S1x128 .f32) (harg9 : arg9.IsWhole) (arg10 : Memref sig .tc .vmem S1x128 .f32) (harg10 : arg10.IsWhole) (hc0 : cond0_0 i)
    (x0 : Vec F S5000x384 .f32) (x1 : Vec F S384x128 .f32) (x2 : Vec F S1x128 .f32) (x3 : Vec F S128x128 .f32) (x4 : Vec F S1x128 .f32) (x5 : Vec F S128x128 .f32) (x6 : Vec F S1x128 .f32) : Vec F S1x128 .f32 :=
  VO0_9.read (Elt F) (VO0_9.writes (Elt F) VO0_9.junk (kernelRun0_A c i arg1 harg1 arg2 harg2 arg3 harg3 arg4 harg4 arg5 harg5 arg6 harg6 arg7 harg7 arg8 harg8 arg9 harg9 arg10 harg10 hc0 x0 x1 x2 x3 x4 x5 x6).2.2.1)

/-- The pieces the run of case B finds for output 7 tile its block, so they cover it. -/
theorem cover0_B_7 (c : Dev nD) (i : grid0.Coords) (arg1 : Memref sig .tc .vmem S5000x384 .f32) (harg1 : arg1.IsWhole) (arg2 : Memref sig .tc .vmem S384x128 .f32) (harg2 : arg2.IsWhole) (arg3 : Memref sig .tc .vmem S1x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S5000x128 .f32) (harg8 : arg8.IsWhole) (arg9 : Memref sig .tc .vmem S1x128 .f32) (harg9 : arg9.IsWhole) (arg10 : Memref sig .tc .vmem S1x128 .f32) (harg10 : arg10.IsWhole) (hc0 : ¬cond0_0 i)
    (x0 : Vec F S5000x384 .f32) (x1 : Vec F S384x128 .f32) (x2 : Vec F S1x128 .f32) (x3 : Vec F S128x128 .f32) (x4 : Vec F S1x128 .f32) (x5 : Vec F S128x128 .f32) (x6 : Vec F S1x128 .f32) (xo8 : Vec F S1x128 .f32) (xo9 : Vec F S1x128 .f32) (y : S5000x128.Idx) :
    ∃ pc ∈ (kernelRun0_B c i arg1 harg1 arg2 harg2 arg3 harg3 arg4 harg4 arg5 harg5 arg6 harg6 arg7 harg7 arg8 harg8 arg9 harg9 arg10 harg10 hc0 x0 x1 x2 x3 x4 x5 x6 xo8 xo9).1, y ∈ pc.1.set :=
  View.cover_of_tiledL (kernelRun0_B c i arg1 harg1 arg2 harg2 arg3 harg3 arg4 harg4 arg5 harg5 arg6 harg6 arg7 harg7 arg8 harg8 arg9 harg9 arg10 harg10 hc0 x0 x1 x2 x3 x4 x5 x6 xo8 xo9).1 S5000x128.size (by sl_kernel_rfl) y

/-- What case B leaves in output 7's staging buffer: its pieces read back. -/
def out0_B_7 (c : Dev nD) (i : grid0.Coords) (arg1 : Memref sig .tc .vmem S5000x384 .f32) (harg1 : arg1.IsWhole) (arg2 : Memref sig .tc .vmem S384x128 .f32) (harg2 : arg2.IsWhole) (arg3 : Memref sig .tc .vmem S1x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S5000x128 .f32) (harg8 : arg8.IsWhole) (arg9 : Memref sig .tc .vmem S1x128 .f32) (harg9 : arg9.IsWhole) (arg10 : Memref sig .tc .vmem S1x128 .f32) (harg10 : arg10.IsWhole) (hc0 : ¬cond0_0 i)
    (x0 : Vec F S5000x384 .f32) (x1 : Vec F S384x128 .f32) (x2 : Vec F S1x128 .f32) (x3 : Vec F S128x128 .f32) (x4 : Vec F S1x128 .f32) (x5 : Vec F S128x128 .f32) (x6 : Vec F S1x128 .f32) (xo8 : Vec F S1x128 .f32) (xo9 : Vec F S1x128 .f32) : Vec F S5000x128 .f32 :=
  VO0_7.read (Elt F) (VO0_7.writes (Elt F) VO0_7.junk (kernelRun0_B c i arg1 harg1 arg2 harg2 arg3 harg3 arg4 harg4 arg5 harg5 arg6 harg6 arg7 harg7 arg8 harg8 arg9 harg9 arg10 harg10 hc0 x0 x1 x2 x3 x4 x5 x6 xo8 xo9).1)

/-- The pieces the run of case B finds for output 8 tile its block, so they cover it. -/
theorem cover0_B_8 (c : Dev nD) (i : grid0.Coords) (arg1 : Memref sig .tc .vmem S5000x384 .f32) (harg1 : arg1.IsWhole) (arg2 : Memref sig .tc .vmem S384x128 .f32) (harg2 : arg2.IsWhole) (arg3 : Memref sig .tc .vmem S1x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S5000x128 .f32) (harg8 : arg8.IsWhole) (arg9 : Memref sig .tc .vmem S1x128 .f32) (harg9 : arg9.IsWhole) (arg10 : Memref sig .tc .vmem S1x128 .f32) (harg10 : arg10.IsWhole) (hc0 : ¬cond0_0 i)
    (x0 : Vec F S5000x384 .f32) (x1 : Vec F S384x128 .f32) (x2 : Vec F S1x128 .f32) (x3 : Vec F S128x128 .f32) (x4 : Vec F S1x128 .f32) (x5 : Vec F S128x128 .f32) (x6 : Vec F S1x128 .f32) (xo8 : Vec F S1x128 .f32) (xo9 : Vec F S1x128 .f32) (y : S1x128.Idx) :
    ∃ pc ∈ (kernelRun0_B c i arg1 harg1 arg2 harg2 arg3 harg3 arg4 harg4 arg5 harg5 arg6 harg6 arg7 harg7 arg8 harg8 arg9 harg9 arg10 harg10 hc0 x0 x1 x2 x3 x4 x5 x6 xo8 xo9).2.1, y ∈ pc.1.set :=
  View.cover_of_tiledL (kernelRun0_B c i arg1 harg1 arg2 harg2 arg3 harg3 arg4 harg4 arg5 harg5 arg6 harg6 arg7 harg7 arg8 harg8 arg9 harg9 arg10 harg10 hc0 x0 x1 x2 x3 x4 x5 x6 xo8 xo9).2.1 S1x128.size (by sl_kernel_rfl) y

/-- What case B leaves in output 8's staging buffer: its pieces read back. -/
def out0_B_8 (c : Dev nD) (i : grid0.Coords) (arg1 : Memref sig .tc .vmem S5000x384 .f32) (harg1 : arg1.IsWhole) (arg2 : Memref sig .tc .vmem S384x128 .f32) (harg2 : arg2.IsWhole) (arg3 : Memref sig .tc .vmem S1x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S5000x128 .f32) (harg8 : arg8.IsWhole) (arg9 : Memref sig .tc .vmem S1x128 .f32) (harg9 : arg9.IsWhole) (arg10 : Memref sig .tc .vmem S1x128 .f32) (harg10 : arg10.IsWhole) (hc0 : ¬cond0_0 i)
    (x0 : Vec F S5000x384 .f32) (x1 : Vec F S384x128 .f32) (x2 : Vec F S1x128 .f32) (x3 : Vec F S128x128 .f32) (x4 : Vec F S1x128 .f32) (x5 : Vec F S128x128 .f32) (x6 : Vec F S1x128 .f32) (xo8 : Vec F S1x128 .f32) (xo9 : Vec F S1x128 .f32) : Vec F S1x128 .f32 :=
  VO0_8.read (Elt F) (VO0_8.writes (Elt F) VO0_8.junk (kernelRun0_B c i arg1 harg1 arg2 harg2 arg3 harg3 arg4 harg4 arg5 harg5 arg6 harg6 arg7 harg7 arg8 harg8 arg9 harg9 arg10 harg10 hc0 x0 x1 x2 x3 x4 x5 x6 xo8 xo9).2.1)

/-- The pieces the run of case B finds for output 9 tile its block, so they cover it. -/
theorem cover0_B_9 (c : Dev nD) (i : grid0.Coords) (arg1 : Memref sig .tc .vmem S5000x384 .f32) (harg1 : arg1.IsWhole) (arg2 : Memref sig .tc .vmem S384x128 .f32) (harg2 : arg2.IsWhole) (arg3 : Memref sig .tc .vmem S1x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S5000x128 .f32) (harg8 : arg8.IsWhole) (arg9 : Memref sig .tc .vmem S1x128 .f32) (harg9 : arg9.IsWhole) (arg10 : Memref sig .tc .vmem S1x128 .f32) (harg10 : arg10.IsWhole) (hc0 : ¬cond0_0 i)
    (x0 : Vec F S5000x384 .f32) (x1 : Vec F S384x128 .f32) (x2 : Vec F S1x128 .f32) (x3 : Vec F S128x128 .f32) (x4 : Vec F S1x128 .f32) (x5 : Vec F S128x128 .f32) (x6 : Vec F S1x128 .f32) (xo8 : Vec F S1x128 .f32) (xo9 : Vec F S1x128 .f32) (y : S1x128.Idx) :
    ∃ pc ∈ (kernelRun0_B c i arg1 harg1 arg2 harg2 arg3 harg3 arg4 harg4 arg5 harg5 arg6 harg6 arg7 harg7 arg8 harg8 arg9 harg9 arg10 harg10 hc0 x0 x1 x2 x3 x4 x5 x6 xo8 xo9).2.2.1, y ∈ pc.1.set :=
  View.cover_of_tiledL (kernelRun0_B c i arg1 harg1 arg2 harg2 arg3 harg3 arg4 harg4 arg5 harg5 arg6 harg6 arg7 harg7 arg8 harg8 arg9 harg9 arg10 harg10 hc0 x0 x1 x2 x3 x4 x5 x6 xo8 xo9).2.2.1 S1x128.size (by sl_kernel_rfl) y

/-- What case B leaves in output 9's staging buffer: its pieces read back. -/
def out0_B_9 (c : Dev nD) (i : grid0.Coords) (arg1 : Memref sig .tc .vmem S5000x384 .f32) (harg1 : arg1.IsWhole) (arg2 : Memref sig .tc .vmem S384x128 .f32) (harg2 : arg2.IsWhole) (arg3 : Memref sig .tc .vmem S1x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S5000x128 .f32) (harg8 : arg8.IsWhole) (arg9 : Memref sig .tc .vmem S1x128 .f32) (harg9 : arg9.IsWhole) (arg10 : Memref sig .tc .vmem S1x128 .f32) (harg10 : arg10.IsWhole) (hc0 : ¬cond0_0 i)
    (x0 : Vec F S5000x384 .f32) (x1 : Vec F S384x128 .f32) (x2 : Vec F S1x128 .f32) (x3 : Vec F S128x128 .f32) (x4 : Vec F S1x128 .f32) (x5 : Vec F S128x128 .f32) (x6 : Vec F S1x128 .f32) (xo8 : Vec F S1x128 .f32) (xo9 : Vec F S1x128 .f32) : Vec F S1x128 .f32 :=
  VO0_9.read (Elt F) (VO0_9.writes (Elt F) VO0_9.junk (kernelRun0_B c i arg1 harg1 arg2 harg2 arg3 harg3 arg4 harg4 arg5 harg5 arg6 harg6 arg7 harg7 arg8 harg8 arg9 harg9 arg10 harg10 hc0 x0 x1 x2 x3 x4 x5 x6 xo8 xo9).2.2.1)

/-! ## What the outputs hold after each point -/

/-- THE ACCUMULATION. What the three outputs' staging buffers hold after the body at position `n` (in window order):
    at the first point the zeroing case, at a later point the other case run over what the two accumulators held after
    position `n - 1` (their buffers are not written back in between). -/
def outsAt0 (c : Dev nD) : (n : ℕ) → n < cfg0.N → Vec F S5000x128 .f32 × Vec F S1x128 .f32 × Vec F S1x128 .f32
  | 0, hn => (out0_A_7 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) ((hcond0_0 ⟨0, hn⟩).mpr (Nat.zero_mod _)) (iblk0 V c 0 ⟨0, hn⟩) (iblk0 V c 1 ⟨0, hn⟩) (iblk0 V c 2 ⟨0, hn⟩) (iblk0 V c 3 ⟨0, hn⟩) (iblk0 V c 4 ⟨0, hn⟩) (iblk0 V c 5 ⟨0, hn⟩) (iblk0 V c 6 ⟨0, hn⟩), out0_A_8 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) ((hcond0_0 ⟨0, hn⟩).mpr (Nat.zero_mod _)) (iblk0 V c 0 ⟨0, hn⟩) (iblk0 V c 1 ⟨0, hn⟩) (iblk0 V c 2 ⟨0, hn⟩) (iblk0 V c 3 ⟨0, hn⟩) (iblk0 V c 4 ⟨0, hn⟩) (iblk0 V c 5 ⟨0, hn⟩) (iblk0 V c 6 ⟨0, hn⟩), out0_A_9 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) ((hcond0_0 ⟨0, hn⟩).mpr (Nat.zero_mod _)) (iblk0 V c 0 ⟨0, hn⟩) (iblk0 V c 1 ⟨0, hn⟩) (iblk0 V c 2 ⟨0, hn⟩) (iblk0 V c 3 ⟨0, hn⟩) (iblk0 V c 4 ⟨0, hn⟩) (iblk0 V c 5 ⟨0, hn⟩) (iblk0 V c 6 ⟨0, hn⟩))
  | n + 1, hn =>
    if h0 : (n + 1) % 128 = 0 then
      (out0_A_7 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) ((hcond0_0 ⟨n + 1, hn⟩).mpr h0) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (iblk0 V c 6 ⟨n + 1, hn⟩), out0_A_8 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) ((hcond0_0 ⟨n + 1, hn⟩).mpr h0) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (iblk0 V c 6 ⟨n + 1, hn⟩), out0_A_9 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) ((hcond0_0 ⟨n + 1, hn⟩).mpr h0) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (iblk0 V c 6 ⟨n + 1, hn⟩))
    else
      (out0_B_7 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (fun h => h0 ((hcond0_0 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (iblk0 V c 6 ⟨n + 1, hn⟩) (outsAt0 c n (Nat.lt_of_succ_lt hn)).2.1 (outsAt0 c n (Nat.lt_of_succ_lt hn)).2.2, out0_B_8 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (fun h => h0 ((hcond0_0 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (iblk0 V c 6 ⟨n + 1, hn⟩) (outsAt0 c n (Nat.lt_of_succ_lt hn)).2.1 (outsAt0 c n (Nat.lt_of_succ_lt hn)).2.2, out0_B_9 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (fun h => h0 ((hcond0_0 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (iblk0 V c 6 ⟨n + 1, hn⟩) (outsAt0 c n (Nat.lt_of_succ_lt hn)).2.1 (outsAt0 c n (Nat.lt_of_succ_lt hn)).2.2)

/-- `outsAt0` at the first point: the zeroing case's contents. -/
theorem outsAt0_A (c : Dev nD) (t : Fin cfg0.N) (h0 : t.val % 128 = 0) :
    outsAt0 V c t.val t.isLt = (out0_A_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) ((hcond0_0 t).mpr h0) (iblk0 V c 0 t) (iblk0 V c 1 t) (iblk0 V c 2 t) (iblk0 V c 3 t) (iblk0 V c 4 t) (iblk0 V c 5 t) (iblk0 V c 6 t), out0_A_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) ((hcond0_0 t).mpr h0) (iblk0 V c 0 t) (iblk0 V c 1 t) (iblk0 V c 2 t) (iblk0 V c 3 t) (iblk0 V c 4 t) (iblk0 V c 5 t) (iblk0 V c 6 t), out0_A_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) ((hcond0_0 t).mpr h0) (iblk0 V c 0 t) (iblk0 V c 1 t) (iblk0 V c 2 t) (iblk0 V c 3 t) (iblk0 V c 4 t) (iblk0 V c 5 t) (iblk0 V c 6 t)) := by
  obtain ⟨n, hn⟩ := t
  cases n with
  | zero => exact rfl
  | succ n => exact (dif_pos h0).trans rfl

/-- `outsAt0` at a later point: the accumulating case's contents, over what the point before left. -/
theorem outsAt0_B (c : Dev nD) (t : Fin cfg0.N) (h0 : ¬t.val % 128 = 0) :
    outsAt0 V c t.val t.isLt = (out0_B_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (fun h => h0 ((hcond0_0 t).mp h)) (iblk0 V c 0 t) (iblk0 V c 1 t) (iblk0 V c 2 t) (iblk0 V c 3 t) (iblk0 V c 4 t) (iblk0 V c 5 t) (iblk0 V c 6 t) (outsAt0 V c (t.val - 1) (Nat.lt_of_le_of_lt (Nat.sub_le _ _) t.isLt)).2.1 (outsAt0 V c (t.val - 1) (Nat.lt_of_le_of_lt (Nat.sub_le _ _) t.isLt)).2.2, out0_B_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (fun h => h0 ((hcond0_0 t).mp h)) (iblk0 V c 0 t) (iblk0 V c 1 t) (iblk0 V c 2 t) (iblk0 V c 3 t) (iblk0 V c 4 t) (iblk0 V c 5 t) (iblk0 V c 6 t) (outsAt0 V c (t.val - 1) (Nat.lt_of_le_of_lt (Nat.sub_le _ _) t.isLt)).2.1 (outsAt0 V c (t.val - 1) (Nat.lt_of_le_of_lt (Nat.sub_le _ _) t.isLt)).2.2, out0_B_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (fun h => h0 ((hcond0_0 t).mp h)) (iblk0 V c 0 t) (iblk0 V c 1 t) (iblk0 V c 2 t) (iblk0 V c 3 t) (iblk0 V c 4 t) (iblk0 V c 5 t) (iblk0 V c 6 t) (outsAt0 V c (t.val - 1) (Nat.lt_of_le_of_lt (Nat.sub_le _ _) t.isLt)).2.1 (outsAt0 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans rfl

/-! ## The pipeline's proof data -/

/-- The proof data of pipeline 0 on core `c`: the arrays as the region finds them (`V`); after the body at point `t`
    each input's buffer at its block and the outputs' at `outsAt0`; the invariant the scoped rest and the generator
    register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => (outsAt0 V c t.val t.isLt).1
    | ⟨8, _⟩ => (outsAt0 V c t.val t.isLt).2.1
    | ⟨9, _⟩ => (outsAt0 V c t.val t.isLt).2.2
  Φ _ := Pipeline.ΦA spec0 c
  q _ := fullShare
  owed _ := 0

/-- The proof data's arrays are the region-entry contents (the definition projected, never unfolding `V`). -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = (outsAt0 V c t.val t.isLt).1 := by dsimp only [dat0]
theorem after0_8 (c : Dev nD) (t : Fin cfg0.N) : (dat0 V c).after 8 t = (outsAt0 V c t.val t.isLt).2.1 := by dsimp only [dat0]
theorem after0_9 (c : Dev nD) (t : Fin cfg0.N) : (dat0 V c).after 9 t = (outsAt0 V c t.val t.isLt).2.2 := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d
theorem before0_6 (c : Dev nD) (t : Fin cfg0.N) (d) : (dat0 V c).before 6 t d = iblk0 V c 6 t :=
  before0_6_of V (dat0 V c) (A_eq0 V c 6) (after0_6 V c) t d
/-- At a later point accumulator 8's current staging buffer holds what the body left at the point before: the point is
    not the first, the buffer was not written back in between, the window is live and uncut. -/
theorem before0_8_B (c : Dev nD) (t : Fin cfg0.N) (h0 : ¬t.val % 128 = 0) (d) :
    (dat0 V c).before 8 t d = (outsAt0 V c (t.val - 1) (Nat.lt_of_le_of_lt (Nat.sub_le _ _) t.isLt)).2.1 := by
  have hN : t.val < 128 := lt_of_lt_of_eq t.isLt (show cfg0.N = 128 from N_0)
  rw [Dat.before_out_kept _ 8 rfl t (by omega) (Bool.eq_false_iff.mpr fun h => by have := (flush0_8 _).mp h; dsimp only at this; omega)
    (fun _ => rfl) (fun _ _ => rfl)]
  dsimp only [dat0]
/-- At a later point accumulator 9's current staging buffer holds what the body left at the point before: the point is
    not the first, the buffer was not written back in between, the window is live and uncut. -/
theorem before0_9_B (c : Dev nD) (t : Fin cfg0.N) (h0 : ¬t.val % 128 = 0) (d) :
    (dat0 V c).before 9 t d = (outsAt0 V c (t.val - 1) (Nat.lt_of_le_of_lt (Nat.sub_le _ _) t.isLt)).2.2 := by
  have hN : t.val < 128 := lt_of_lt_of_eq t.isLt (show cfg0.N = 128 from N_0)
  rw [Dat.before_out_kept _ 9 rfl t (by omega) (Bool.eq_false_iff.mpr fun h => by have := (flush0_9 _).mp h; dsimp only at this; omega)
    (fun _ => rfl) (fun _ _ => rfl)]
  dsimp only [dat0]

/-! ## The body obligation, at a generic point -/

/-- What the body is called with at point `t` (the windows one by one), -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d))
    ∗ (∃ d, owns (c : Thread nD τ) (ms0_6 t) fullShare ((dat0 V c).before 6 t d))
    ∗ (∃ d, owns (c : Thread nD τ) (ms0_7 t) fullShare ((dat0 V c).before 7 t d))
    ∗ (∃ d, owns (c : Thread nD τ) (ms0_8 t) fullShare ((dat0 V c).before 8 t d))
    ∗ (∃ d, owns (c : Thread nD τ) (ms0_9 t) fullShare ((dat0 V c).before 9 t d)))

/-- and what it returns. -/
def bodyPost0 (c : Dev nD) (t : Fin cfg0.N) : sProp 𝕄 :=
  iprop((dat0 V c).Φ t.succ ∗ (dat0 V c).owesAt () t.succ
    ∗ owns (c : Thread nD τ) (ms0_0 t) fullShare ((dat0 V c).after 0 t)
    ∗ owns (c : Thread nD τ) (ms0_1 t) fullShare ((dat0 V c).after 1 t)
    ∗ owns (c : Thread nD τ) (ms0_2 t) fullShare ((dat0 V c).after 2 t)
    ∗ owns (c : Thread nD τ) (ms0_3 t) fullShare ((dat0 V c).after 3 t)
    ∗ owns (c : Thread nD τ) (ms0_4 t) fullShare ((dat0 V c).after 4 t)
    ∗ owns (c : Thread nD τ) (ms0_5 t) fullShare ((dat0 V c).after 5 t)
    ∗ owns (c : Thread nD τ) (ms0_6 t) fullShare ((dat0 V c).after 6 t)
    ∗ owns (c : Thread nD τ) (ms0_7 t) fullShare ((dat0 V c).after 7 t)
    ∗ owns (c : Thread nD τ) (ms0_8 t) fullShare ((dat0 V c).after 8 t)
    ∗ owns (c : Thread nD τ) (ms0_9 t) fullShare ((dat0 V c).after 9 t))

set_option maxHeartbeats 4000000 in
/-- The body at any point: the inputs' memrefs hold their blocks; the closed form says which case the point is in; at a
    later point each accumulator holds what the point before left; so the case's run applies; the invariant passes
    through unread; the core owes nothing throughout. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7, after0_8, after0_9]
  have hN : t.val < 128 := lt_of_lt_of_eq t.isLt (show cfg0.N = 128 from N_0)
  by_cases h0 : t.val % 128 = 0
  ·
    rw [outsAt0_A V c t h0]
    unfold out0_A_7 out0_A_8 out0_A_9; (try dsimp only)
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    iapply ((kernelRun0_A c (grid0.coords t) _ _ _ _ _ _ _ _ _ _ _ _ _ _ _ _ _ _ _ _ ((hcond0_0 t).mpr h0) (iblk0 V c 0 t) (iblk0 V c 1 t) (iblk0 V c 2 t) (iblk0 V c 3 t) (iblk0 V c 4 t) (iblk0 V c 5 t) (iblk0 V c 6 t)).2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [H8]; · iexists _; iexact H8
    isplitl [H9]; · iexists _; iexact H9
    iintro ⟨H0, H1, H2, H3, H4, H5, H6, ⟨%e7, H7⟩, ⟨%e8, H8⟩, ⟨%e9, H9⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]
    · unfold owns; iexists _; isplitr
      swap; · iexact H7
      ipureintro; exact View.read_writes_of_cover _ _ _ _ _ (cover0_A_7 c _ _ _ _ _ _ _ _ _ _ _ _ _ _ _ _ _ _ _ _ _ _ _ _ _ _ _ _ _)
    isplitl [H8]
    · unfold owns; iexists _; isplitr
      swap; · iexact H8
      ipureintro; exact View.read_writes_of_cover _ _ _ _ _ (cover0_A_8 c _ _ _ _ _ _ _ _ _ _ _ _ _ _ _ _ _ _ _ _ _ _ _ _ _ _ _ _ _)
    unfold owns; iexists _; isplitr
    swap; · iexact H9
    ipureintro; exact View.read_writes_of_cover _ _ _ _ _ (cover0_A_9 c _ _ _ _ _ _ _ _ _ _ _ _ _ _ _ _ _ _ _ _ _ _ _ _ _ _ _ _ _)
  ·
    rw [outsAt0_B V c t h0]
    simp only [before0_8_B V c t h0, before0_9_B V c t h0]
    unfold out0_B_7 out0_B_8 out0_B_9; (try dsimp only)
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    iapply ((kernelRun0_B c (grid0.coords t) _ _ _ _ _ _ _ _ _ _ _ _ _ _ _ _ _ _ _ _ (fun h => h0 ((hcond0_0 t).mp h)) (iblk0 V c 0 t) (iblk0 V c 1 t) (iblk0 V c 2 t) (iblk0 V c 3 t) (iblk0 V c 4 t) (iblk0 V c 5 t) (iblk0 V c 6 t) _ _).2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [H8]; · iexact H8
    isplitl [H9]; · iexact H9
    iintro ⟨H0, H1, H2, H3, H4, H5, H6, ⟨%e7, H7⟩, ⟨%e8, H8⟩, ⟨%e9, H9⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]
    · unfold owns; iexists _; isplitr
      swap; · iexact H7
      ipureintro; exact View.read_writes_of_cover _ _ _ _ _ (cover0_B_7 c _ _ _ _ _ _ _ _ _ _ _ _ _ _ _ _ _ _ _ _ _ _ _ _ _ _ _ _ _ _ _)
    isplitl [H8]
    · unfold owns; iexists _; isplitr
      swap; · iexact H8
      ipureintro; exact View.read_writes_of_cover _ _ _ _ _ (cover0_B_8 c _ _ _ _ _ _ _ _ _ _ _ _ _ _ _ _ _ _ _ _ _ _ _ _ _ _ _ _ _ _ _)
    unfold owns; iexists _; isplitr
    swap; · iexact H9
    ipureintro; exact View.read_writes_of_cover _ _ _ _ _ (cover0_B_9 c _ _ _ _ _ _ _ _ _ _ _ _ _ _ _ _ _ _ _ _ _ _ _ _ _ _ _ _ _ _ _)

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Reg

end
-- ==== Proof.KI.Reg1.lean ====
import proofs.«170818_j15161234555428_1_alg».proof.Proof.KI.Launch
import proofs.«170818_j15161234555428_1_alg».proof.Proof.Gen.KernelIdeal.Skeleton
import proofs.«170818_j15161234555428_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-!
# The normalisation kernel of pipeline 1, at one grid point

The kernel reads a block of rows `h`, a block of rows `res`, and four rows `mean`, `var`, `γ`, `β`; it writes
`y = (h - mean) * rsqrt (var + ε) * γ + β` and `res + y`, each as one whole-block store. The two row blocks move with the
grid point; the four single rows are the same block at every point; the two results are written back at every point.

Stated at a PARAMETER `V`, the buffers' contents when the pipeline is entered: each window's block at a point is read
off `V`; after the body an input's buffer still holds its block, and an output's buffer holds the one store's value
computed from the input blocks. The body's triple is obtained by running its memory operations one by one; the
pipeline's proof data and body obligation follow.
-/

set_option maxRecDepth 16384

noncomputable section

namespace Cert.KernelIdeal.Reg

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffers' contents when the pipeline is entered
variable (V : (c : Dev nD) → (b : Ref sig .tc) → Buf (Elt F) ((c : Thread nD τ).loc b))

/-! ## The windows' blocks -/

/-- Window `w`'s block at point `t`, read off its array as the pipeline finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0 holds its block at every point of the grid, whether or not the block was transferred there: where it
    was not, the block index has not moved since the last transfer, and the body leaves an input's block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1 holds its block at every point of the grid, whether or not the block was transferred there: where it
    was not, the block index has not moved since the last transfer, and the body leaves an input's block in place. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2 holds its block at every point of the grid, whether or not the block was transferred there: where it
    was not, the block index has not moved since the last transfer, and the body leaves an input's block in place. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3 holds its block at every point of the grid, whether or not the block was transferred there: where it
    was not, the block index has not moved since the last transfer, and the body leaves an input's block in place. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4 holds its block at every point of the grid, whether or not the block was transferred there: where it
    was not, the block index has not moved since the last transfer, and the body leaves an input's block in place. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-- Input window 5 holds its block at every point of the grid, whether or not the block was transferred there: where it
    was not, the block index has not moved since the last transfer, and the body leaves an input's block in place. -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: one whole-block rectangle per block shape -/

abbrev r1_0 : Rect S5000x128 := Rect.unit (s := S5000x128) ![0, 0] S5000x128.size inb_S5000x128_S5000x128_0_0
abbrev r1_1 : Rect S1x128 := Rect.unit (s := S1x128) ![0, 0] S1x128.size inb_S1x128_S1x128_0_0

/-! ## What the body leaves in each output window's buffer -/

/-- The buffer of `y` after the body: its single whole-block store, of the normalised rows computed from the blocks of
    `h` (`x0`), `mean` (`x2`), `var` (`x3`), `γ` (`x4`) and `β` (`x5`). -/
def out1_6 (x0 : Vec F S5000x128 .f32) (x2 x3 x4 x5 : Vec F S1x128 .f32) : Vec F S5000x128 .f32 :=
  View.canon [⟨r1_0, k1_pay1 (View.ld x3 r1_1) (View.ld x0 r1_0) (View.ld x2 r1_1) (View.ld x4 r1_1) (View.ld x5 r1_1)⟩]

/-- One whole-block store covers the block. -/
theorem cover1_6 (p0 : Vec F S5000x128 .f32) (y : S5000x128.Idx) :
    ∃ pc ∈ ([⟨r1_0, p0⟩] : List (View.Piece (Elt F) S5000x128 .f32)), y ∈ pc.1.set :=
  View.cover_of_tiled [⟨r1_0, p0⟩] S5000x128.size (by rfl) y

/-- The buffer of `res + y` after the body: its single whole-block store, of the block of `res` (`x1`) plus the
    normalised rows. -/
def out1_7 (x0 x1 : Vec F S5000x128 .f32) (x2 x3 x4 x5 : Vec F S1x128 .f32) : Vec F S5000x128 .f32 :=
  View.canon [⟨r1_0, k1_pay2 (View.ld x3 r1_1) (View.ld x0 r1_0) (View.ld x2 r1_1) (View.ld x4 r1_1) (View.ld x5 r1_1) (View.ld x1 r1_0)⟩]

/-- One whole-block store covers the block. -/
theorem cover1_7 (p0 : Vec F S5000x128 .f32) (y : S5000x128.Idx) :
    ∃ pc ∈ ([⟨r1_0, p0⟩] : List (View.Piece (Elt F) S5000x128 .f32)), y ∈ pc.1.set :=
  View.cover_of_tiled [⟨r1_0, p0⟩] S5000x128.size (by rfl) y

/-! ## The body's triple -/

set_option maxHeartbeats 1000000 in
/-- The kernel body on whole staging buffers — the inputs' at read contents `x0 … x5`, the outputs' at anything — runs
    to a state where the inputs' buffers are as they were and the outputs' hold `out1_6`, `out1_7` of the inputs. -/
theorem sound_kernel1 (c : Dev nD) (E : Set ℕ) (i : grid1.Coords) (arg1 : Memref sig .tc .vmem S5000x128 .f32) (harg1 : arg1.IsWhole) (arg2 : Memref sig .tc .vmem S5000x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S5000x128 .f32) (harg8 : arg8.IsWhole)
    (x0 : Vec F S5000x128 .f32) (x1 : Vec F S5000x128 .f32) (x2 : Vec F S1x128 .f32) (x3 : Vec F S1x128 .f32) (x4 : Vec F S1x128 .f32) (x5 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (out1_6 x0 x2 x3 x4 x5) ∗ owns (c : Thread nD τ) arg8 fullShare (out1_7 x0 x1 x2 x3 x4 x5)) -∗ K ⟨⟩))
      ⊢ wp frame (wpE (defs₀ (F := F)) Variants.none c none) E (cc1__bn_residual_kernel i arg1 harg1 arg2 harg2 arg3 harg3 arg4 harg4 arg5 harg5 arg6 harg6 arg7 harg7 arg8 harg8) K := by
  simp only [cc1__bn_residual_kernel_eq_skeleton]; unfold cc1__bn_residual_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    exact View.read_writes_eq_canon _ _ _ (cover1_6 _)
  iexists _; isplitr
  swap; · iexact H7
  ipureintro
  exact View.read_writes_eq_canon _ _ _ (cover1_7 _)

/-! ## The pipeline's proof data -/

/-- The proof data of pipeline 1 on core `c`: the arrays as the pipeline finds them; after the body at point `t` each
    input's buffer at its block and each output's at `out1_6` / `out1_7` of the input blocks; the invariant says
    the rest of the core's memory and its generator register are untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => out1_6 (iblk1 V c 0 t) (iblk1 V c 2 t) (iblk1 V c 3 t) (iblk1 V c 4 t) (iblk1 V c 5 t)
    | ⟨7, _⟩ => out1_7 (iblk1 V c 0 t) (iblk1 V c 1 t) (iblk1 V c 2 t) (iblk1 V c 3 t) (iblk1 V c 4 t) (iblk1 V c 5 t)
  Φ _ := Pipeline.ΦA spec1 c
  q _ := fullShare
  owed _ := 0

/-- The proof data's arrays are the entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = out1_6 (iblk1 V c 0 t) (iblk1 V c 2 t) (iblk1 V c 3 t) (iblk1 V c 4 t) (iblk1 V c 5 t) := by dsimp only [dat1]
theorem after1_7 (c : Dev nD) (t : Fin cfg1.N) : (dat1 V c).after 7 t = out1_7 (iblk1 V c 0 t) (iblk1 V c 1 t) (iblk1 V c 2 t) (iblk1 V c 3 t) (iblk1 V c 4 t) (iblk1 V c 5 t) := by dsimp only [dat1]

/-- Each input's current staging buffer holds its block at every point. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t))

/-- The body at any point: the inputs' buffers hold their blocks, so the body's triple applies; the invariant and what
    the core owes pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel1 c Set.univ _ _ _ _ _ _ _ _ _ _ _ _ _ _ _ _ _ (iblk1 V c 0 t) (iblk1 V c 1 t) (iblk1 V c 2 t) (iblk1 V c 3 t) (iblk1 V c 4 t) (iblk1 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The pipeline's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Reg

end
-- ==== Proof.KI.Reg2.Runs.lean ====
/- REGION 2 of @main (cc2__mlp_stats_kernel), stated at a PARAMETER `V` — the TensorCore's buffer contents when the region is
   entered: each window's block at a grid point, the input windows' staging contents at every point, the body's one
   branch condition in closed form over the grid, and the names the two whole-body runs are stated over. -/
import proofs.«170818_j15161234555428_1_alg».proof.Proof.KI.Launch
import proofs.«170818_j15161234555428_1_alg».proof.Proof.Gen.KernelIdeal.Skeleton
import proofs.«170818_j15161234555428_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of full extents: the structural check recurses once per coordinate of the long axes
set_option maxRecDepth 16384

noncomputable section

namespace Cert.KernelIdeal.Reg

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it (`V`). -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, fetched there or not, for any proof data
    whose array is `V`'s and whose body leaves the block in place: unfetched, the block index has not moved. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
/-- Input window 1's current staging buffer holds its block at every point, fetched there or not, for any proof data
    whose array is `V`'s and whose body leaves the block in place: unfetched, the block index has not moved. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
/-- Input window 2's current staging buffer holds its block at every point, fetched there or not, for any proof data
    whose array is `V`'s and whose body leaves the block in place: unfetched, the block index has not moved. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
/-- Input window 3's current staging buffer holds its block at every point, fetched there or not, for any proof data
    whose array is `V`'s and whose body leaves the block in place: unfetched, the block index has not moved. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)
/-- Input window 4's current staging buffer holds its block at every point, fetched there or not, for any proof data
    whose array is `V`'s and whose body leaves the block in place: unfetched, the block index has not moved. -/
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)
/-- Input window 5's current staging buffer holds its block at every point, fetched there or not, for any proof data
    whose array is `V`'s and whose body leaves the block in place: unfetched, the block index has not moved. -/
theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)
/-- Input window 6's current staging buffer holds its block at every point, fetched there or not, for any proof data
    whose array is `V`'s and whose body leaves the block in place: unfetched, the block index has not moved. -/
theorem before2_6_of {c : Dev nD} (dat : Dat τ (Elt F) Unit ℕ (UR sig nD τ) ℕ cfg2 c) (hA : dat.A 6 = V c (Pipeline.arrRef spec2 6))
    (hafter : ∀ t, dat.after 6 t = iblk2 V c 6 t) (t : Fin cfg2.N) (d) : dat.before 6 t d = iblk2 V c 6 t :=
  (dat.before_in_eq_fetched 6 rfl (fun _ => rfl) (fun _ _ _ => rfl) (fun t => by rw [hafter]; unfold Dat.blockOf iblk2; rw [hA]; try rfl) t d).trans
    (by unfold Dat.fetched Dat.blockOf iblk2; rw [hA]; try rfl)

/-! ## The body's branch condition -/

/-- The condition of the body's one conditional (the accumulators are zeroed under it), from the grid coordinates. -/
abbrev cond2_0 (i : grid2.Coords) : Prop := (Scalar.cmpi .ne (Scalar.extui (Scalar.cmpi .eq (BitVec.ofNat 32 (i 0).val) 0#32)) 0#32) = 1#1
/-- It holds at the first point only — decided over the grid. -/
theorem hcond2_0 : ∀ t : Fin cfg2.N, cond2_0 (grid2.coords t) ↔ t.val % 10 = 0 :=
  (by decide +kernel : ∀ t : Fin grid2.N, cond2_0 (grid2.coords t) ↔ t.val % 10 = 0)

/-! ## The staging memrefs -/

/-- One staging buffer of output window 7, through which its contents are stated (the choice does not matter). -/
abbrev VO2_7 : View sig .tc .vmem S5000x128 .f32 := (Memref.whole cc2_stg7_0 : Memref sig .tc .vmem S5000x128 .f32).view
/-- One staging buffer of output window 8, through which its contents are stated (the choice does not matter). -/
abbrev VO2_8 : View sig .tc .vmem S1x128 .f32 := (Memref.whole cc2_stg8_0 : Memref sig .tc .vmem S1x128 .f32).view
/-- One staging buffer of output window 9, through which its contents are stated (the choice does not matter). -/
abbrev VO2_9 : View sig .tc .vmem S1x128 .f32 := (Memref.whole cc2_stg9_0 : Memref sig .tc .vmem S1x128 .f32).view
/-- Each window's current staging memref at point `t`, spelled as the pipeline passes it, and its wholeness. -/
abbrev ms2_0 (t : Fin cfg2.N) : Memref sig .tc .vmem S5000x256 .f32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S256x128 .f32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S1x128 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S128x128 .f32 := win2_3.stage (cfg2.slots t 3)
abbrev hs2_3 (t : Fin cfg2.N) : (ms2_3 t).IsWhole := hstage2_3 ((cfg2.slots t 3).cast nbuf2_3)
abbrev ms2_4 (t : Fin cfg2.N) : Memref sig .tc .vmem S1x128 .f32 := win2_4.stage (cfg2.slots t 4)
abbrev hs2_4 (t : Fin cfg2.N) : (ms2_4 t).IsWhole := hstage2_4 ((cfg2.slots t 4).cast nbuf2_4)
abbrev ms2_5 (t : Fin cfg2.N) : Memref sig .tc .vmem S128x128 .f32 := win2_5.stage (cfg2.slots t 5)
abbrev hs2_5 (t : Fin cfg2.N) : (ms2_5 t).IsWhole := hstage2_5 ((cfg2.slots t 5).cast nbuf2_5)
abbrev ms2_6 (t : Fin cfg2.N) : Memref sig .tc .vmem S1x128 .f32 := win2_6.stage (cfg2.slots t 6)
abbrev hs2_6 (t : Fin cfg2.N) : (ms2_6 t).IsWhole := hstage2_6 ((cfg2.slots t 6).cast nbuf2_6)
abbrev ms2_7 (t : Fin cfg2.N) : Memref sig .tc .vmem S5000x128 .f32 := win2_7.stage (cfg2.slots t 7)
abbrev hs2_7 (t : Fin cfg2.N) : (ms2_7 t).IsWhole := hstage2_7 ((cfg2.slots t 7).cast nbuf2_7)
abbrev ms2_8 (t : Fin cfg2.N) : Memref sig .tc .vmem S1x128 .f32 := win2_8.stage (cfg2.slots t 8)
abbrev hs2_8 (t : Fin cfg2.N) : (ms2_8 t).IsWhole := hstage2_8 ((cfg2.slots t 8).cast nbuf2_8)
abbrev ms2_9 (t : Fin cfg2.N) : Memref sig .tc .vmem S1x128 .f32 := win2_9.stage (cfg2.slots t 9)
abbrev hs2_9 (t : Fin cfg2.N) : (ms2_9 t).IsWhole := hstage2_9 ((cfg2.slots t 9).cast nbuf2_9)

end Cert.KernelIdeal.Reg

end
-- ==== Proof.KI.Reg2.RunA.lean ====
/- REGION 2, the whole-body run of cc2__mlp_stats_kernel in the case "first grid point: the accumulators are zeroed":
   the body's triple on whole staging memrefs, with the pieces each output's buffer ends with as the witness the run finds. -/
import proofs.«170818_j15161234555428_1_alg».proof.Proof.KI.Reg2.Runs

-- membership in a rectangle of full extents: the structural check recurses once per coordinate of the long axes
set_option maxRecDepth 16384

noncomputable section

namespace Cert.KernelIdeal.Reg

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large: the definition's epilogue walks it past the default budget)
set_option maxHeartbeats 4000000 in
/-- What the body's stores leave in each output's staging memref, as pieces (last first), in this case, WITH the proof
    that on whole staging memrefs — the inputs' at their contents, every output's at anything — the body runs to the
    continuation holding the inputs' as they were and each output's buffer with its pieces written. -/
noncomputable def kernelRun2_A (c : Dev nD) (i : grid2.Coords) (arg1 : Memref sig .tc .vmem S5000x256 .f32) (harg1 : arg1.IsWhole) (arg2 : Memref sig .tc .vmem S256x128 .f32) (harg2 : arg2.IsWhole) (arg3 : Memref sig .tc .vmem S1x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S5000x128 .f32) (harg8 : arg8.IsWhole) (arg9 : Memref sig .tc .vmem S1x128 .f32) (harg9 : arg9.IsWhole) (arg10 : Memref sig .tc .vmem S1x128 .f32) (harg10 : arg10.IsWhole) (hc0 : cond2_0 i)
    (x0 : Vec F S5000x256 .f32) (x1 : Vec F S256x128 .f32) (x2 : Vec F S1x128 .f32) (x3 : Vec F S128x128 .f32) (x4 : Vec F S1x128 .f32) (x5 : Vec F S128x128 .f32) (x6 : Vec F S1x128 .f32) :
    Σ' (L7 : List (View.Piece (Elt F) S5000x128 .f32)), Σ' (L8 : List (View.Piece (Elt F) S1x128 .f32)), { L9 : List (View.Piece (Elt F) S1x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ (∃ d, owns (c : Thread nD τ) arg9 fullShare d) ∗ (∃ d, owns (c : Thread nD τ) arg10 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ f, arg8.view.loc (c : Thread nD τ) ↦[arg8.view.set]{fullShare} arg8.view.writes (Elt F) f L7) ∗ (∃ f, arg9.view.loc (c : Thread nD τ) ↦[arg9.view.set]{fullShare} arg9.view.writes (Elt F) f L8) ∗ (∃ f, arg10.view.loc (c : Thread nD τ) ↦[arg10.view.set]{fullShare} arg10.view.writes (Elt F) f L9)) -∗ K ⟨⟩))
          ⊢ wp frame (wpE (defs₀ (F := F)) Variants.none c none) E (cc2__mlp_stats_kernel i arg1 harg1 arg2 harg2 arg3 harg3 arg4 harg4 arg5 harg5 arg6 harg6 arg7 harg7 arg8 harg8 arg9 harg9 arg10 harg10) K } := by
  refine ⟨?_, ?_, ?_, fun E K => ?run⟩
  case run =>
    simp only [cc2__mlp_stats_kernel_eq_skeleton]; unfold cc2__mlp_stats_kernel_skel
    simp only [k2_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]; · iexists _; iexact H7
    isplitl [H8]; · iexists _; iexact H8
    iexists _; iexact H9

end Cert.KernelIdeal.Reg

end
-- ==== Proof.KI.Reg2.RunB.lean ====
/- REGION 2, the whole-body run of cc2__mlp_stats_kernel in the case "a later grid point: the accumulators are read back":
   the body's triple on whole staging memrefs, with the pieces each output's buffer ends with as the witness the run finds. -/
import proofs.«170818_j15161234555428_1_alg».proof.Proof.KI.Reg2.RunA

-- membership in a rectangle of full extents: the structural check recurses once per coordinate of the long axes
set_option maxRecDepth 16384

noncomputable section

namespace Cert.KernelIdeal.Reg

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large: the definition's epilogue walks it past the default budget)
set_option maxHeartbeats 4000000 in
/-- What the body's stores leave in each output's staging memref, as pieces (last first), in this case, WITH the proof
    that on whole staging memrefs — the inputs' at their contents, the two accumulators' at their running contents, the third output's at anything — the body runs to the
    continuation holding the inputs' as they were and each output's buffer with its pieces written. -/
noncomputable def kernelRun2_B (c : Dev nD) (i : grid2.Coords) (arg1 : Memref sig .tc .vmem S5000x256 .f32) (harg1 : arg1.IsWhole) (arg2 : Memref sig .tc .vmem S256x128 .f32) (harg2 : arg2.IsWhole) (arg3 : Memref sig .tc .vmem S1x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S5000x128 .f32) (harg8 : arg8.IsWhole) (arg9 : Memref sig .tc .vmem S1x128 .f32) (harg9 : arg9.IsWhole) (arg10 : Memref sig .tc .vmem S1x128 .f32) (harg10 : arg10.IsWhole) (hc0 : ¬cond2_0 i)
    (x0 : Vec F S5000x256 .f32) (x1 : Vec F S256x128 .f32) (x2 : Vec F S1x128 .f32) (x3 : Vec F S128x128 .f32) (x4 : Vec F S1x128 .f32) (x5 : Vec F S128x128 .f32) (x6 : Vec F S1x128 .f32) (xo8 : Vec F S1x128 .f32) (xo9 : Vec F S1x128 .f32) :
    Σ' (L7 : List (View.Piece (Elt F) S5000x128 .f32)), Σ' (L8 : List (View.Piece (Elt F) S1x128 .f32)), { L9 : List (View.Piece (Elt F) S1x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ owns (c : Thread nD τ) arg9 fullShare xo8 ∗ owns (c : Thread nD τ) arg10 fullShare xo9
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ f, arg8.view.loc (c : Thread nD τ) ↦[arg8.view.set]{fullShare} arg8.view.writes (Elt F) f L7) ∗ (∃ f, arg9.view.loc (c : Thread nD τ) ↦[arg9.view.set]{fullShare} arg9.view.writes (Elt F) f L8) ∗ (∃ f, arg10.view.loc (c : Thread nD τ) ↦[arg10.view.set]{fullShare} arg10.view.writes (Elt F) f L9)) -∗ K ⟨⟩))
          ⊢ wp frame (wpE (defs₀ (F := F)) Variants.none c none) E (cc2__mlp_stats_kernel i arg1 harg1 arg2 harg2 arg3 harg3 arg4 harg4 arg5 harg5 arg6 harg6 arg7 harg7 arg8 harg8 arg9 harg9 arg10 harg10) K } := by
  refine ⟨?_, ?_, ?_, fun E K => ?run⟩
  case run =>
    simp only [cc2__mlp_stats_kernel_eq_skeleton]; unfold cc2__mlp_stats_kernel_skel
    simp only [k2_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%f8, %hf8, H8⟩, ⟨%f9, %hf9, H9⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg9.eq_unread hf8; obtain rfl := harg10.eq_unread hf9
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]; · iexists _; iexact H7
    isplitl [H8]; · iexists _; iexact H8
    iexists _; iexact H9

end Cert.KernelIdeal.Reg

end
-- ==== Proof.KI.Reg2.lean ====
/- REGION 2 of @main (cc2__mlp_stats_kernel: a three-layer perceptron on a block of rows, with the column sums of its output and of
   its square accumulated over the grid), at the entry contents `V`: what each output's staging buffer holds per case
   and point by point (the accumulators by recursion on the point), the pipeline's proof data, and the body obligation. -/
import proofs.«170818_j15161234555428_1_alg».proof.Proof.KI.Reg2.RunB

-- membership in a rectangle of full extents: the structural check recurses once per coordinate of the long axes
set_option maxRecDepth 16384

noncomputable section

namespace Cert.KernelIdeal.Reg

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The pieces the run of case A finds for output 7 tile its block, so they cover it. -/
theorem cover2_A_7 (c : Dev nD) (i : grid2.Coords) (arg1 : Memref sig .tc .vmem S5000x256 .f32) (harg1 : arg1.IsWhole) (arg2 : Memref sig .tc .vmem S256x128 .f32) (harg2 : arg2.IsWhole) (arg3 : Memref sig .tc .vmem S1x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S5000x128 .f32) (harg8 : arg8.IsWhole) (arg9 : Memref sig .tc .vmem S1x128 .f32) (harg9 : arg9.IsWhole) (arg10 : Memref sig .tc .vmem S1x128 .f32) (harg10 : arg10.IsWhole) (hc0 : cond2_0 i)
    (x0 : Vec F S5000x256 .f32) (x1 : Vec F S256x128 .f32) (x2 : Vec F S1x128 .f32) (x3 : Vec F S128x128 .f32) (x4 : Vec F S1x128 .f32) (x5 : Vec F S128x128 .f32) (x6 : Vec F S1x128 .f32) (y : S5000x128.Idx) :
    ∃ pc ∈ (kernelRun2_A c i arg1 harg1 arg2 harg2 arg3 harg3 arg4 harg4 arg5 harg5 arg6 harg6 arg7 harg7 arg8 harg8 arg9 harg9 arg10 harg10 hc0 x0 x1 x2 x3 x4 x5 x6).1, y ∈ pc.1.set :=
  View.cover_of_tiledL (kernelRun2_A c i arg1 harg1 arg2 harg2 arg3 harg3 arg4 harg4 arg5 harg5 arg6 harg6 arg7 harg7 arg8 harg8 arg9 harg9 arg10 harg10 hc0 x0 x1 x2 x3 x4 x5 x6).1 S5000x128.size (by sl_kernel_rfl) y

/-- What case A leaves in output 7's staging buffer: its pieces read back. -/
def out2_A_7 (c : Dev nD) (i : grid2.Coords) (arg1 : Memref sig .tc .vmem S5000x256 .f32) (harg1 : arg1.IsWhole) (arg2 : Memref sig .tc .vmem S256x128 .f32) (harg2 : arg2.IsWhole) (arg3 : Memref sig .tc .vmem S1x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S5000x128 .f32) (harg8 : arg8.IsWhole) (arg9 : Memref sig .tc .vmem S1x128 .f32) (harg9 : arg9.IsWhole) (arg10 : Memref sig .tc .vmem S1x128 .f32) (harg10 : arg10.IsWhole) (hc0 : cond2_0 i)
    (x0 : Vec F S5000x256 .f32) (x1 : Vec F S256x128 .f32) (x2 : Vec F S1x128 .f32) (x3 : Vec F S128x128 .f32) (x4 : Vec F S1x128 .f32) (x5 : Vec F S128x128 .f32) (x6 : Vec F S1x128 .f32) : Vec F S5000x128 .f32 :=
  VO2_7.read (Elt F) (VO2_7.writes (Elt F) VO2_7.junk (kernelRun2_A c i arg1 harg1 arg2 harg2 arg3 harg3 arg4 harg4 arg5 harg5 arg6 harg6 arg7 harg7 arg8 harg8 arg9 harg9 arg10 harg10 hc0 x0 x1 x2 x3 x4 x5 x6).1)

/-- The pieces the run of case A finds for output 8 tile its block, so they cover it. -/
theorem cover2_A_8 (c : Dev nD) (i : grid2.Coords) (arg1 : Memref sig .tc .vmem S5000x256 .f32) (harg1 : arg1.IsWhole) (arg2 : Memref sig .tc .vmem S256x128 .f32) (harg2 : arg2.IsWhole) (arg3 : Memref sig .tc .vmem S1x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S5000x128 .f32) (harg8 : arg8.IsWhole) (arg9 : Memref sig .tc .vmem S1x128 .f32) (harg9 : arg9.IsWhole) (arg10 : Memref sig .tc .vmem S1x128 .f32) (harg10 : arg10.IsWhole) (hc0 : cond2_0 i)
    (x0 : Vec F S5000x256 .f32) (x1 : Vec F S256x128 .f32) (x2 : Vec F S1x128 .f32) (x3 : Vec F S128x128 .f32) (x4 : Vec F S1x128 .f32) (x5 : Vec F S128x128 .f32) (x6 : Vec F S1x128 .f32) (y : S1x128.Idx) :
    ∃ pc ∈ (kernelRun2_A c i arg1 harg1 arg2 harg2 arg3 harg3 arg4 harg4 arg5 harg5 arg6 harg6 arg7 harg7 arg8 harg8 arg9 harg9 arg10 harg10 hc0 x0 x1 x2 x3 x4 x5 x6).2.1, y ∈ pc.1.set :=
  View.cover_of_tiledL (kernelRun2_A c i arg1 harg1 arg2 harg2 arg3 harg3 arg4 harg4 arg5 harg5 arg6 harg6 arg7 harg7 arg8 harg8 arg9 harg9 arg10 harg10 hc0 x0 x1 x2 x3 x4 x5 x6).2.1 S1x128.size (by sl_kernel_rfl) y

/-- What case A leaves in output 8's staging buffer: its pieces read back. -/
def out2_A_8 (c : Dev nD) (i : grid2.Coords) (arg1 : Memref sig .tc .vmem S5000x256 .f32) (harg1 : arg1.IsWhole) (arg2 : Memref sig .tc .vmem S256x128 .f32) (harg2 : arg2.IsWhole) (arg3 : Memref sig .tc .vmem S1x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S5000x128 .f32) (harg8 : arg8.IsWhole) (arg9 : Memref sig .tc .vmem S1x128 .f32) (harg9 : arg9.IsWhole) (arg10 : Memref sig .tc .vmem S1x128 .f32) (harg10 : arg10.IsWhole) (hc0 : cond2_0 i)
    (x0 : Vec F S5000x256 .f32) (x1 : Vec F S256x128 .f32) (x2 : Vec F S1x128 .f32) (x3 : Vec F S128x128 .f32) (x4 : Vec F S1x128 .f32) (x5 : Vec F S128x128 .f32) (x6 : Vec F S1x128 .f32) : Vec F S1x128 .f32 :=
  VO2_8.read (Elt F) (VO2_8.writes (Elt F) VO2_8.junk (kernelRun2_A c i arg1 harg1 arg2 harg2 arg3 harg3 arg4 harg4 arg5 harg5 arg6 harg6 arg7 harg7 arg8 harg8 arg9 harg9 arg10 harg10 hc0 x0 x1 x2 x3 x4 x5 x6).2.1)

/-- The pieces the run of case A finds for output 9 tile its block, so they cover it. -/
theorem cover2_A_9 (c : Dev nD) (i : grid2.Coords) (arg1 : Memref sig .tc .vmem S5000x256 .f32) (harg1 : arg1.IsWhole) (arg2 : Memref sig .tc .vmem S256x128 .f32) (harg2 : arg2.IsWhole) (arg3 : Memref sig .tc .vmem S1x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S5000x128 .f32) (harg8 : arg8.IsWhole) (arg9 : Memref sig .tc .vmem S1x128 .f32) (harg9 : arg9.IsWhole) (arg10 : Memref sig .tc .vmem S1x128 .f32) (harg10 : arg10.IsWhole) (hc0 : cond2_0 i)
    (x0 : Vec F S5000x256 .f32) (x1 : Vec F S256x128 .f32) (x2 : Vec F S1x128 .f32) (x3 : Vec F S128x128 .f32) (x4 : Vec F S1x128 .f32) (x5 : Vec F S128x128 .f32) (x6 : Vec F S1x128 .f32) (y : S1x128.Idx) :
    ∃ pc ∈ (kernelRun2_A c i arg1 harg1 arg2 harg2 arg3 harg3 arg4 harg4 arg5 harg5 arg6 harg6 arg7 harg7 arg8 harg8 arg9 harg9 arg10 harg10 hc0 x0 x1 x2 x3 x4 x5 x6).2.2.1, y ∈ pc.1.set :=
  View.cover_of_tiledL (kernelRun2_A c i arg1 harg1 arg2 harg2 arg3 harg3 arg4 harg4 arg5 harg5 arg6 harg6 arg7 harg7 arg8 harg8 arg9 harg9 arg10 harg10 hc0 x0 x1 x2 x3 x4 x5 x6).2.2.1 S1x128.size (by sl_kernel_rfl) y

/-- What case A leaves in output 9's staging buffer: its pieces read back. -/
def out2_A_9 (c : Dev nD) (i : grid2.Coords) (arg1 : Memref sig .tc .vmem S5000x256 .f32) (harg1 : arg1.IsWhole) (arg2 : Memref sig .tc .vmem S256x128 .f32) (harg2 : arg2.IsWhole) (arg3 : Memref sig .tc .vmem S1x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S5000x128 .f32) (harg8 : arg8.IsWhole) (arg9 : Memref sig .tc .vmem S1x128 .f32) (harg9 : arg9.IsWhole) (arg10 : Memref sig .tc .vmem S1x128 .f32) (harg10 : arg10.IsWhole) (hc0 : cond2_0 i)
    (x0 : Vec F S5000x256 .f32) (x1 : Vec F S256x128 .f32) (x2 : Vec F S1x128 .f32) (x3 : Vec F S128x128 .f32) (x4 : Vec F S1x128 .f32) (x5 : Vec F S128x128 .f32) (x6 : Vec F S1x128 .f32) : Vec F S1x128 .f32 :=
  VO2_9.read (Elt F) (VO2_9.writes (Elt F) VO2_9.junk (kernelRun2_A c i arg1 harg1 arg2 harg2 arg3 harg3 arg4 harg4 arg5 harg5 arg6 harg6 arg7 harg7 arg8 harg8 arg9 harg9 arg10 harg10 hc0 x0 x1 x2 x3 x4 x5 x6).2.2.1)

/-- The pieces the run of case B finds for output 7 tile its block, so they cover it. -/
theorem cover2_B_7 (c : Dev nD) (i : grid2.Coords) (arg1 : Memref sig .tc .vmem S5000x256 .f32) (harg1 : arg1.IsWhole) (arg2 : Memref sig .tc .vmem S256x128 .f32) (harg2 : arg2.IsWhole) (arg3 : Memref sig .tc .vmem S1x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S5000x128 .f32) (harg8 : arg8.IsWhole) (arg9 : Memref sig .tc .vmem S1x128 .f32) (harg9 : arg9.IsWhole) (arg10 : Memref sig .tc .vmem S1x128 .f32) (harg10 : arg10.IsWhole) (hc0 : ¬cond2_0 i)
    (x0 : Vec F S5000x256 .f32) (x1 : Vec F S256x128 .f32) (x2 : Vec F S1x128 .f32) (x3 : Vec F S128x128 .f32) (x4 : Vec F S1x128 .f32) (x5 : Vec F S128x128 .f32) (x6 : Vec F S1x128 .f32) (xo8 : Vec F S1x128 .f32) (xo9 : Vec F S1x128 .f32) (y : S5000x128.Idx) :
    ∃ pc ∈ (kernelRun2_B c i arg1 harg1 arg2 harg2 arg3 harg3 arg4 harg4 arg5 harg5 arg6 harg6 arg7 harg7 arg8 harg8 arg9 harg9 arg10 harg10 hc0 x0 x1 x2 x3 x4 x5 x6 xo8 xo9).1, y ∈ pc.1.set :=
  View.cover_of_tiledL (kernelRun2_B c i arg1 harg1 arg2 harg2 arg3 harg3 arg4 harg4 arg5 harg5 arg6 harg6 arg7 harg7 arg8 harg8 arg9 harg9 arg10 harg10 hc0 x0 x1 x2 x3 x4 x5 x6 xo8 xo9).1 S5000x128.size (by sl_kernel_rfl) y

/-- What case B leaves in output 7's staging buffer: its pieces read back. -/
def out2_B_7 (c : Dev nD) (i : grid2.Coords) (arg1 : Memref sig .tc .vmem S5000x256 .f32) (harg1 : arg1.IsWhole) (arg2 : Memref sig .tc .vmem S256x128 .f32) (harg2 : arg2.IsWhole) (arg3 : Memref sig .tc .vmem S1x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S5000x128 .f32) (harg8 : arg8.IsWhole) (arg9 : Memref sig .tc .vmem S1x128 .f32) (harg9 : arg9.IsWhole) (arg10 : Memref sig .tc .vmem S1x128 .f32) (harg10 : arg10.IsWhole) (hc0 : ¬cond2_0 i)
    (x0 : Vec F S5000x256 .f32) (x1 : Vec F S256x128 .f32) (x2 : Vec F S1x128 .f32) (x3 : Vec F S128x128 .f32) (x4 : Vec F S1x128 .f32) (x5 : Vec F S128x128 .f32) (x6 : Vec F S1x128 .f32) (xo8 : Vec F S1x128 .f32) (xo9 : Vec F S1x128 .f32) : Vec F S5000x128 .f32 :=
  VO2_7.read (Elt F) (VO2_7.writes (Elt F) VO2_7.junk (kernelRun2_B c i arg1 harg1 arg2 harg2 arg3 harg3 arg4 harg4 arg5 harg5 arg6 harg6 arg7 harg7 arg8 harg8 arg9 harg9 arg10 harg10 hc0 x0 x1 x2 x3 x4 x5 x6 xo8 xo9).1)

/-- The pieces the run of case B finds for output 8 tile its block, so they cover it. -/
theorem cover2_B_8 (c : Dev nD) (i : grid2.Coords) (arg1 : Memref sig .tc .vmem S5000x256 .f32) (harg1 : arg1.IsWhole) (arg2 : Memref sig .tc .vmem S256x128 .f32) (harg2 : arg2.IsWhole) (arg3 : Memref sig .tc .vmem S1x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S5000x128 .f32) (harg8 : arg8.IsWhole) (arg9 : Memref sig .tc .vmem S1x128 .f32) (harg9 : arg9.IsWhole) (arg10 : Memref sig .tc .vmem S1x128 .f32) (harg10 : arg10.IsWhole) (hc0 : ¬cond2_0 i)
    (x0 : Vec F S5000x256 .f32) (x1 : Vec F S256x128 .f32) (x2 : Vec F S1x128 .f32) (x3 : Vec F S128x128 .f32) (x4 : Vec F S1x128 .f32) (x5 : Vec F S128x128 .f32) (x6 : Vec F S1x128 .f32) (xo8 : Vec F S1x128 .f32) (xo9 : Vec F S1x128 .f32) (y : S1x128.Idx) :
    ∃ pc ∈ (kernelRun2_B c i arg1 harg1 arg2 harg2 arg3 harg3 arg4 harg4 arg5 harg5 arg6 harg6 arg7 harg7 arg8 harg8 arg9 harg9 arg10 harg10 hc0 x0 x1 x2 x3 x4 x5 x6 xo8 xo9).2.1, y ∈ pc.1.set :=
  View.cover_of_tiledL (kernelRun2_B c i arg1 harg1 arg2 harg2 arg3 harg3 arg4 harg4 arg5 harg5 arg6 harg6 arg7 harg7 arg8 harg8 arg9 harg9 arg10 harg10 hc0 x0 x1 x2 x3 x4 x5 x6 xo8 xo9).2.1 S1x128.size (by sl_kernel_rfl) y

/-- What case B leaves in output 8's staging buffer: its pieces read back. -/
def out2_B_8 (c : Dev nD) (i : grid2.Coords) (arg1 : Memref sig .tc .vmem S5000x256 .f32) (harg1 : arg1.IsWhole) (arg2 : Memref sig .tc .vmem S256x128 .f32) (harg2 : arg2.IsWhole) (arg3 : Memref sig .tc .vmem S1x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S5000x128 .f32) (harg8 : arg8.IsWhole) (arg9 : Memref sig .tc .vmem S1x128 .f32) (harg9 : arg9.IsWhole) (arg10 : Memref sig .tc .vmem S1x128 .f32) (harg10 : arg10.IsWhole) (hc0 : ¬cond2_0 i)
    (x0 : Vec F S5000x256 .f32) (x1 : Vec F S256x128 .f32) (x2 : Vec F S1x128 .f32) (x3 : Vec F S128x128 .f32) (x4 : Vec F S1x128 .f32) (x5 : Vec F S128x128 .f32) (x6 : Vec F S1x128 .f32) (xo8 : Vec F S1x128 .f32) (xo9 : Vec F S1x128 .f32) : Vec F S1x128 .f32 :=
  VO2_8.read (Elt F) (VO2_8.writes (Elt F) VO2_8.junk (kernelRun2_B c i arg1 harg1 arg2 harg2 arg3 harg3 arg4 harg4 arg5 harg5 arg6 harg6 arg7 harg7 arg8 harg8 arg9 harg9 arg10 harg10 hc0 x0 x1 x2 x3 x4 x5 x6 xo8 xo9).2.1)

/-- The pieces the run of case B finds for output 9 tile its block, so they cover it. -/
theorem cover2_B_9 (c : Dev nD) (i : grid2.Coords) (arg1 : Memref sig .tc .vmem S5000x256 .f32) (harg1 : arg1.IsWhole) (arg2 : Memref sig .tc .vmem S256x128 .f32) (harg2 : arg2.IsWhole) (arg3 : Memref sig .tc .vmem S1x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S5000x128 .f32) (harg8 : arg8.IsWhole) (arg9 : Memref sig .tc .vmem S1x128 .f32) (harg9 : arg9.IsWhole) (arg10 : Memref sig .tc .vmem S1x128 .f32) (harg10 : arg10.IsWhole) (hc0 : ¬cond2_0 i)
    (x0 : Vec F S5000x256 .f32) (x1 : Vec F S256x128 .f32) (x2 : Vec F S1x128 .f32) (x3 : Vec F S128x128 .f32) (x4 : Vec F S1x128 .f32) (x5 : Vec F S128x128 .f32) (x6 : Vec F S1x128 .f32) (xo8 : Vec F S1x128 .f32) (xo9 : Vec F S1x128 .f32) (y : S1x128.Idx) :
    ∃ pc ∈ (kernelRun2_B c i arg1 harg1 arg2 harg2 arg3 harg3 arg4 harg4 arg5 harg5 arg6 harg6 arg7 harg7 arg8 harg8 arg9 harg9 arg10 harg10 hc0 x0 x1 x2 x3 x4 x5 x6 xo8 xo9).2.2.1, y ∈ pc.1.set :=
  View.cover_of_tiledL (kernelRun2_B c i arg1 harg1 arg2 harg2 arg3 harg3 arg4 harg4 arg5 harg5 arg6 harg6 arg7 harg7 arg8 harg8 arg9 harg9 arg10 harg10 hc0 x0 x1 x2 x3 x4 x5 x6 xo8 xo9).2.2.1 S1x128.size (by sl_kernel_rfl) y

/-- What case B leaves in output 9's staging buffer: its pieces read back. -/
def out2_B_9 (c : Dev nD) (i : grid2.Coords) (arg1 : Memref sig .tc .vmem S5000x256 .f32) (harg1 : arg1.IsWhole) (arg2 : Memref sig .tc .vmem S256x128 .f32) (harg2 : arg2.IsWhole) (arg3 : Memref sig .tc .vmem S1x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S5000x128 .f32) (harg8 : arg8.IsWhole) (arg9 : Memref sig .tc .vmem S1x128 .f32) (harg9 : arg9.IsWhole) (arg10 : Memref sig .tc .vmem S1x128 .f32) (harg10 : arg10.IsWhole) (hc0 : ¬cond2_0 i)
    (x0 : Vec F S5000x256 .f32) (x1 : Vec F S256x128 .f32) (x2 : Vec F S1x128 .f32) (x3 : Vec F S128x128 .f32) (x4 : Vec F S1x128 .f32) (x5 : Vec F S128x128 .f32) (x6 : Vec F S1x128 .f32) (xo8 : Vec F S1x128 .f32) (xo9 : Vec F S1x128 .f32) : Vec F S1x128 .f32 :=
  VO2_9.read (Elt F) (VO2_9.writes (Elt F) VO2_9.junk (kernelRun2_B c i arg1 harg1 arg2 harg2 arg3 harg3 arg4 harg4 arg5 harg5 arg6 harg6 arg7 harg7 arg8 harg8 arg9 harg9 arg10 harg10 hc0 x0 x1 x2 x3 x4 x5 x6 xo8 xo9).2.2.1)

/-! ## What the outputs hold after each point -/

/-- THE ACCUMULATION. What the three outputs' staging buffers hold after the body at position `n` (in window order):
    at the first point the zeroing case, at a later point the other case run over what the two accumulators held after
    position `n - 1` (their buffers are not written back in between). -/
def outsAt2 (c : Dev nD) : (n : ℕ) → n < cfg2.N → Vec F S5000x128 .f32 × Vec F S1x128 .f32 × Vec F S1x128 .f32
  | 0, hn => (out2_A_7 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) (ms2_5 ⟨0, hn⟩) (hs2_5 ⟨0, hn⟩) (ms2_6 ⟨0, hn⟩) (hs2_6 ⟨0, hn⟩) (ms2_7 ⟨0, hn⟩) (hs2_7 ⟨0, hn⟩) (ms2_8 ⟨0, hn⟩) (hs2_8 ⟨0, hn⟩) (ms2_9 ⟨0, hn⟩) (hs2_9 ⟨0, hn⟩) ((hcond2_0 ⟨0, hn⟩).mpr (Nat.zero_mod _)) (iblk2 V c 0 ⟨0, hn⟩) (iblk2 V c 1 ⟨0, hn⟩) (iblk2 V c 2 ⟨0, hn⟩) (iblk2 V c 3 ⟨0, hn⟩) (iblk2 V c 4 ⟨0, hn⟩) (iblk2 V c 5 ⟨0, hn⟩) (iblk2 V c 6 ⟨0, hn⟩), out2_A_8 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) (ms2_5 ⟨0, hn⟩) (hs2_5 ⟨0, hn⟩) (ms2_6 ⟨0, hn⟩) (hs2_6 ⟨0, hn⟩) (ms2_7 ⟨0, hn⟩) (hs2_7 ⟨0, hn⟩) (ms2_8 ⟨0, hn⟩) (hs2_8 ⟨0, hn⟩) (ms2_9 ⟨0, hn⟩) (hs2_9 ⟨0, hn⟩) ((hcond2_0 ⟨0, hn⟩).mpr (Nat.zero_mod _)) (iblk2 V c 0 ⟨0, hn⟩) (iblk2 V c 1 ⟨0, hn⟩) (iblk2 V c 2 ⟨0, hn⟩) (iblk2 V c 3 ⟨0, hn⟩) (iblk2 V c 4 ⟨0, hn⟩) (iblk2 V c 5 ⟨0, hn⟩) (iblk2 V c 6 ⟨0, hn⟩), out2_A_9 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) (ms2_5 ⟨0, hn⟩) (hs2_5 ⟨0, hn⟩) (ms2_6 ⟨0, hn⟩) (hs2_6 ⟨0, hn⟩) (ms2_7 ⟨0, hn⟩) (hs2_7 ⟨0, hn⟩) (ms2_8 ⟨0, hn⟩) (hs2_8 ⟨0, hn⟩) (ms2_9 ⟨0, hn⟩) (hs2_9 ⟨0, hn⟩) ((hcond2_0 ⟨0, hn⟩).mpr (Nat.zero_mod _)) (iblk2 V c 0 ⟨0, hn⟩) (iblk2 V c 1 ⟨0, hn⟩) (iblk2 V c 2 ⟨0, hn⟩) (iblk2 V c 3 ⟨0, hn⟩) (iblk2 V c 4 ⟨0, hn⟩) (iblk2 V c 5 ⟨0, hn⟩) (iblk2 V c 6 ⟨0, hn⟩))
  | n + 1, hn =>
    if h0 : (n + 1) % 10 = 0 then
      (out2_A_7 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) (ms2_8 ⟨n + 1, hn⟩) (hs2_8 ⟨n + 1, hn⟩) (ms2_9 ⟨n + 1, hn⟩) (hs2_9 ⟨n + 1, hn⟩) ((hcond2_0 ⟨n + 1, hn⟩).mpr h0) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (iblk2 V c 6 ⟨n + 1, hn⟩), out2_A_8 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) (ms2_8 ⟨n + 1, hn⟩) (hs2_8 ⟨n + 1, hn⟩) (ms2_9 ⟨n + 1, hn⟩) (hs2_9 ⟨n + 1, hn⟩) ((hcond2_0 ⟨n + 1, hn⟩).mpr h0) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (iblk2 V c 6 ⟨n + 1, hn⟩), out2_A_9 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) (ms2_8 ⟨n + 1, hn⟩) (hs2_8 ⟨n + 1, hn⟩) (ms2_9 ⟨n + 1, hn⟩) (hs2_9 ⟨n + 1, hn⟩) ((hcond2_0 ⟨n + 1, hn⟩).mpr h0) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (iblk2 V c 6 ⟨n + 1, hn⟩))
    else
      (out2_B_7 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) (ms2_8 ⟨n + 1, hn⟩) (hs2_8 ⟨n + 1, hn⟩) (ms2_9 ⟨n + 1, hn⟩) (hs2_9 ⟨n + 1, hn⟩) (fun h => h0 ((hcond2_0 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (iblk2 V c 6 ⟨n + 1, hn⟩) (outsAt2 c n (Nat.lt_of_succ_lt hn)).2.1 (outsAt2 c n (Nat.lt_of_succ_lt hn)).2.2, out2_B_8 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) (ms2_8 ⟨n + 1, hn⟩) (hs2_8 ⟨n + 1, hn⟩) (ms2_9 ⟨n + 1, hn⟩) (hs2_9 ⟨n + 1, hn⟩) (fun h => h0 ((hcond2_0 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (iblk2 V c 6 ⟨n + 1, hn⟩) (outsAt2 c n (Nat.lt_of_succ_lt hn)).2.1 (outsAt2 c n (Nat.lt_of_succ_lt hn)).2.2, out2_B_9 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) (ms2_8 ⟨n + 1, hn⟩) (hs2_8 ⟨n + 1, hn⟩) (ms2_9 ⟨n + 1, hn⟩) (hs2_9 ⟨n + 1, hn⟩) (fun h => h0 ((hcond2_0 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (iblk2 V c 6 ⟨n + 1, hn⟩) (outsAt2 c n (Nat.lt_of_succ_lt hn)).2.1 (outsAt2 c n (Nat.lt_of_succ_lt hn)).2.2)

/-- `outsAt2` at the first point: the zeroing case's contents. -/
theorem outsAt2_A (c : Dev nD) (t : Fin cfg2.N) (h0 : t.val % 10 = 0) :
    outsAt2 V c t.val t.isLt = (out2_A_7 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) (ms2_9 t) (hs2_9 t) ((hcond2_0 t).mpr h0) (iblk2 V c 0 t) (iblk2 V c 1 t) (iblk2 V c 2 t) (iblk2 V c 3 t) (iblk2 V c 4 t) (iblk2 V c 5 t) (iblk2 V c 6 t), out2_A_8 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) (ms2_9 t) (hs2_9 t) ((hcond2_0 t).mpr h0) (iblk2 V c 0 t) (iblk2 V c 1 t) (iblk2 V c 2 t) (iblk2 V c 3 t) (iblk2 V c 4 t) (iblk2 V c 5 t) (iblk2 V c 6 t), out2_A_9 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) (ms2_9 t) (hs2_9 t) ((hcond2_0 t).mpr h0) (iblk2 V c 0 t) (iblk2 V c 1 t) (iblk2 V c 2 t) (iblk2 V c 3 t) (iblk2 V c 4 t) (iblk2 V c 5 t) (iblk2 V c 6 t)) := by
  obtain ⟨n, hn⟩ := t
  cases n with
  | zero => exact rfl
  | succ n => exact (dif_pos h0).trans rfl

/-- `outsAt2` at a later point: the accumulating case's contents, over what the point before left. -/
theorem outsAt2_B (c : Dev nD) (t : Fin cfg2.N) (h0 : ¬t.val % 10 = 0) :
    outsAt2 V c t.val t.isLt = (out2_B_7 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) (ms2_9 t) (hs2_9 t) (fun h => h0 ((hcond2_0 t).mp h)) (iblk2 V c 0 t) (iblk2 V c 1 t) (iblk2 V c 2 t) (iblk2 V c 3 t) (iblk2 V c 4 t) (iblk2 V c 5 t) (iblk2 V c 6 t) (outsAt2 V c (t.val - 1) (Nat.lt_of_le_of_lt (Nat.sub_le _ _) t.isLt)).2.1 (outsAt2 V c (t.val - 1) (Nat.lt_of_le_of_lt (Nat.sub_le _ _) t.isLt)).2.2, out2_B_8 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) (ms2_9 t) (hs2_9 t) (fun h => h0 ((hcond2_0 t).mp h)) (iblk2 V c 0 t) (iblk2 V c 1 t) (iblk2 V c 2 t) (iblk2 V c 3 t) (iblk2 V c 4 t) (iblk2 V c 5 t) (iblk2 V c 6 t) (outsAt2 V c (t.val - 1) (Nat.lt_of_le_of_lt (Nat.sub_le _ _) t.isLt)).2.1 (outsAt2 V c (t.val - 1) (Nat.lt_of_le_of_lt (Nat.sub_le _ _) t.isLt)).2.2, out2_B_9 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) (ms2_9 t) (hs2_9 t) (fun h => h0 ((hcond2_0 t).mp h)) (iblk2 V c 0 t) (iblk2 V c 1 t) (iblk2 V c 2 t) (iblk2 V c 3 t) (iblk2 V c 4 t) (iblk2 V c 5 t) (iblk2 V c 6 t) (outsAt2 V c (t.val - 1) (Nat.lt_of_le_of_lt (Nat.sub_le _ _) t.isLt)).2.1 (outsAt2 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans rfl

/-! ## The pipeline's proof data -/

/-- The proof data of pipeline 2 on core `c`: the arrays as the region finds them (`V`); after the body at point `t`
    each input's buffer at its block and the outputs' at `outsAt2`; the invariant the scoped rest and the generator
    register, untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => iblk2 V c 6 t
    | ⟨7, _⟩ => (outsAt2 V c t.val t.isLt).1
    | ⟨8, _⟩ => (outsAt2 V c t.val t.isLt).2.1
    | ⟨9, _⟩ => (outsAt2 V c t.val t.isLt).2.2
  Φ _ := Pipeline.ΦA spec2 c
  q _ := fullShare
  owed _ := 0

/-- The proof data's arrays are the region-entry contents (the definition projected, never unfolding `V`). -/
theorem A_eq2 (c : Dev nD) (w : Fin cfg2.W) : (dat2 V c).A w = V c (Pipeline.arrRef spec2 w) := by
  dsimp only [dat2]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = iblk2 V c 6 t := by dsimp only [dat2]
theorem after2_7 (c : Dev nD) (t : Fin cfg2.N) : (dat2 V c).after 7 t = (outsAt2 V c t.val t.isLt).1 := by dsimp only [dat2]
theorem after2_8 (c : Dev nD) (t : Fin cfg2.N) : (dat2 V c).after 8 t = (outsAt2 V c t.val t.isLt).2.1 := by dsimp only [dat2]
theorem after2_9 (c : Dev nD) (t : Fin cfg2.N) : (dat2 V c).after 9 t = (outsAt2 V c t.val t.isLt).2.2 := by dsimp only [dat2]

/-- Each input's current staging buffer holds its block at every point, fetched there or not. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d
theorem before2_6 (c : Dev nD) (t : Fin cfg2.N) (d) : (dat2 V c).before 6 t d = iblk2 V c 6 t :=
  before2_6_of V (dat2 V c) (A_eq2 V c 6) (after2_6 V c) t d
/-- At a later point accumulator 8's current staging buffer holds what the body left at the point before: the point is
    not the first, the buffer was not written back in between, the window is live and uncut. -/
theorem before2_8_B (c : Dev nD) (t : Fin cfg2.N) (h0 : ¬t.val % 10 = 0) (d) :
    (dat2 V c).before 8 t d = (outsAt2 V c (t.val - 1) (Nat.lt_of_le_of_lt (Nat.sub_le _ _) t.isLt)).2.1 := by
  have hN : t.val < 10 := lt_of_lt_of_eq t.isLt (show cfg2.N = 10 from N_2)
  rw [Dat.before_out_kept _ 8 rfl t (by omega) (Bool.eq_false_iff.mpr fun h => by have := (flush2_8 _).mp h; dsimp only at this; omega)
    (fun _ => rfl) (fun _ _ => rfl)]
  dsimp only [dat2]
/-- At a later point accumulator 9's current staging buffer holds what the body left at the point before: the point is
    not the first, the buffer was not written back in between, the window is live and uncut. -/
theorem before2_9_B (c : Dev nD) (t : Fin cfg2.N) (h0 : ¬t.val % 10 = 0) (d) :
    (dat2 V c).before 9 t d = (outsAt2 V c (t.val - 1) (Nat.lt_of_le_of_lt (Nat.sub_le _ _) t.isLt)).2.2 := by
  have hN : t.val < 10 := lt_of_lt_of_eq t.isLt (show cfg2.N = 10 from N_2)
  rw [Dat.before_out_kept _ 9 rfl t (by omega) (Bool.eq_false_iff.mpr fun h => by have := (flush2_9 _).mp h; dsimp only at this; omega)
    (fun _ => rfl) (fun _ _ => rfl)]
  dsimp only [dat2]

/-! ## The body obligation, at a generic point -/

/-- What the body is called with at point `t` (the windows one by one), -/
def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d))
    ∗ (∃ d, owns (c : Thread nD τ) (ms2_4 t) fullShare ((dat2 V c).before 4 t d))
    ∗ (∃ d, owns (c : Thread nD τ) (ms2_5 t) fullShare ((dat2 V c).before 5 t d))
    ∗ (∃ d, owns (c : Thread nD τ) (ms2_6 t) fullShare ((dat2 V c).before 6 t d))
    ∗ (∃ d, owns (c : Thread nD τ) (ms2_7 t) fullShare ((dat2 V c).before 7 t d))
    ∗ (∃ d, owns (c : Thread nD τ) (ms2_8 t) fullShare ((dat2 V c).before 8 t d))
    ∗ (∃ d, owns (c : Thread nD τ) (ms2_9 t) fullShare ((dat2 V c).before 9 t d)))

/-- and what it returns. -/
def bodyPost2 (c : Dev nD) (t : Fin cfg2.N) : sProp 𝕄 :=
  iprop((dat2 V c).Φ t.succ ∗ (dat2 V c).owesAt () t.succ
    ∗ owns (c : Thread nD τ) (ms2_0 t) fullShare ((dat2 V c).after 0 t)
    ∗ owns (c : Thread nD τ) (ms2_1 t) fullShare ((dat2 V c).after 1 t)
    ∗ owns (c : Thread nD τ) (ms2_2 t) fullShare ((dat2 V c).after 2 t)
    ∗ owns (c : Thread nD τ) (ms2_3 t) fullShare ((dat2 V c).after 3 t)
    ∗ owns (c : Thread nD τ) (ms2_4 t) fullShare ((dat2 V c).after 4 t)
    ∗ owns (c : Thread nD τ) (ms2_5 t) fullShare ((dat2 V c).after 5 t)
    ∗ owns (c : Thread nD τ) (ms2_6 t) fullShare ((dat2 V c).after 6 t)
    ∗ owns (c : Thread nD τ) (ms2_7 t) fullShare ((dat2 V c).after 7 t)
    ∗ owns (c : Thread nD τ) (ms2_8 t) fullShare ((dat2 V c).after 8 t)
    ∗ owns (c : Thread nD τ) (ms2_9 t) fullShare ((dat2 V c).after 9 t))

set_option maxHeartbeats 4000000 in
/-- The body at any point: the inputs' memrefs hold their blocks; the closed form says which case the point is in; at a
    later point each accumulator holds what the point before left; so the case's run applies; the invariant passes
    through unread; the core owes nothing throughout. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5, before2_6]
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6, after2_7, after2_8, after2_9]
  have hN : t.val < 10 := lt_of_lt_of_eq t.isLt (show cfg2.N = 10 from N_2)
  by_cases h0 : t.val % 10 = 0
  ·
    rw [outsAt2_A V c t h0]
    unfold out2_A_7 out2_A_8 out2_A_9; (try dsimp only)
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    iapply ((kernelRun2_A c (grid2.coords t) _ _ _ _ _ _ _ _ _ _ _ _ _ _ _ _ _ _ _ _ ((hcond2_0 t).mpr h0) (iblk2 V c 0 t) (iblk2 V c 1 t) (iblk2 V c 2 t) (iblk2 V c 3 t) (iblk2 V c 4 t) (iblk2 V c 5 t) (iblk2 V c 6 t)).2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [H8]; · iexists _; iexact H8
    isplitl [H9]; · iexists _; iexact H9
    iintro ⟨H0, H1, H2, H3, H4, H5, H6, ⟨%e7, H7⟩, ⟨%e8, H8⟩, ⟨%e9, H9⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]
    · unfold owns; iexists _; isplitr
      swap; · iexact H7
      ipureintro; exact View.read_writes_of_cover _ _ _ _ _ (cover2_A_7 c _ _ _ _ _ _ _ _ _ _ _ _ _ _ _ _ _ _ _ _ _ _ _ _ _ _ _ _ _)
    isplitl [H8]
    · unfold owns; iexists _; isplitr
      swap; · iexact H8
      ipureintro; exact View.read_writes_of_cover _ _ _ _ _ (cover2_A_8 c _ _ _ _ _ _ _ _ _ _ _ _ _ _ _ _ _ _ _ _ _ _ _ _ _ _ _ _ _)
    unfold owns; iexists _; isplitr
    swap; · iexact H9
    ipureintro; exact View.read_writes_of_cover _ _ _ _ _ (cover2_A_9 c _ _ _ _ _ _ _ _ _ _ _ _ _ _ _ _ _ _ _ _ _ _ _ _ _ _ _ _ _)
  ·
    rw [outsAt2_B V c t h0]
    simp only [before2_8_B V c t h0, before2_9_B V c t h0]
    unfold out2_B_7 out2_B_8 out2_B_9; (try dsimp only)
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    iapply ((kernelRun2_B c (grid2.coords t) _ _ _ _ _ _ _ _ _ _ _ _ _ _ _ _ _ _ _ _ (fun h => h0 ((hcond2_0 t).mp h)) (iblk2 V c 0 t) (iblk2 V c 1 t) (iblk2 V c 2 t) (iblk2 V c 3 t) (iblk2 V c 4 t) (iblk2 V c 5 t) (iblk2 V c 6 t) _ _).2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [H8]; · iexact H8
    isplitl [H9]; · iexact H9
    iintro ⟨H0, H1, H2, H3, H4, H5, H6, ⟨%e7, H7⟩, ⟨%e8, H8⟩, ⟨%e9, H9⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]
    · unfold owns; iexists _; isplitr
      swap; · iexact H7
      ipureintro; exact View.read_writes_of_cover _ _ _ _ _ (cover2_B_7 c _ _ _ _ _ _ _ _ _ _ _ _ _ _ _ _ _ _ _ _ _ _ _ _ _ _ _ _ _ _ _)
    isplitl [H8]
    · unfold owns; iexists _; isplitr
      swap; · iexact H8
      ipureintro; exact View.read_writes_of_cover _ _ _ _ _ (cover2_B_8 c _ _ _ _ _ _ _ _ _ _ _ _ _ _ _ _ _ _ _ _ _ _ _ _ _ _ _ _ _ _ _)
    unfold owns; iexists _; isplitr
    swap; · iexact H9
    ipureintro; exact View.read_writes_of_cover _ _ _ _ _ (cover2_B_9 c _ _ _ _ _ _ _ _ _ _ _ _ _ _ _ _ _ _ _ _ _ _ _ _ _ _ _ _ _ _ _)

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.KernelIdeal.Reg

end
-- ==== Proof.KI.Reg3.lean ====
import proofs.«170818_j15161234555428_1_alg».proof.Proof.KI.Launch
import proofs.«170818_j15161234555428_1_alg».proof.Proof.Gen.KernelIdeal.Skeleton
import proofs.«170818_j15161234555428_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-!
# The normalisation kernel of pipeline 3, at one grid point

The kernel reads a block of rows `h`, a block of rows `res`, and four rows `mean`, `var`, `γ`, `β`; it writes
`y = (h - mean) * rsqrt (var + ε) * γ + β` and `res + y`, each as one whole-block store. The two row blocks move with the
grid point; the four single rows are the same block at every point; the two results are written back at every point.

Stated at a PARAMETER `V`, the buffers' contents when the pipeline is entered: each window's block at a point is read
off `V`; after the body an input's buffer still holds its block, and an output's buffer holds the one store's value
computed from the input blocks. The body's triple is obtained by running its memory operations one by one; the
pipeline's proof data and body obligation follow.
-/

set_option maxRecDepth 16384

noncomputable section

namespace Cert.KernelIdeal.Reg

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffers' contents when the pipeline is entered
variable (V : (c : Dev nD) → (b : Ref sig .tc) → Buf (Elt F) ((c : Thread nD τ).loc b))

/-! ## The windows' blocks -/

/-- Window `w`'s block at point `t`, read off its array as the pipeline finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0 holds its block at every point of the grid, whether or not the block was transferred there: where it
    was not, the block index has not moved since the last transfer, and the body leaves an input's block in place. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- Input window 1 holds its block at every point of the grid, whether or not the block was transferred there: where it
    was not, the block index has not moved since the last transfer, and the body leaves an input's block in place. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-- Input window 2 holds its block at every point of the grid, whether or not the block was transferred there: where it
    was not, the block index has not moved since the last transfer, and the body leaves an input's block in place. -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-- Input window 3 holds its block at every point of the grid, whether or not the block was transferred there: where it
    was not, the block index has not moved since the last transfer, and the body leaves an input's block in place. -/
theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)

/-- Input window 4 holds its block at every point of the grid, whether or not the block was transferred there: where it
    was not, the block index has not moved since the last transfer, and the body leaves an input's block in place. -/
theorem before3_4_of {c : Dev nD} (dat : Dat τ (Elt F) Unit ℕ (UR sig nD τ) ℕ cfg3 c) (hA : dat.A 4 = V c (Pipeline.arrRef spec3 4))
    (hafter : ∀ t, dat.after 4 t = iblk3 V c 4 t) (t : Fin cfg3.N) (d) : dat.before 4 t d = iblk3 V c 4 t :=
  (dat.before_in_eq_fetched 4 rfl (fun _ => rfl) (fun _ _ _ => rfl) (fun t => by rw [hafter]; unfold Dat.blockOf iblk3; rw [hA]; try rfl) t d).trans
    (by unfold Dat.fetched Dat.blockOf iblk3; rw [hA]; try rfl)

/-- Input window 5 holds its block at every point of the grid, whether or not the block was transferred there: where it
    was not, the block index has not moved since the last transfer, and the body leaves an input's block in place. -/
theorem before3_5_of {c : Dev nD} (dat : Dat τ (Elt F) Unit ℕ (UR sig nD τ) ℕ cfg3 c) (hA : dat.A 5 = V c (Pipeline.arrRef spec3 5))
    (hafter : ∀ t, dat.after 5 t = iblk3 V c 5 t) (t : Fin cfg3.N) (d) : dat.before 5 t d = iblk3 V c 5 t :=
  (dat.before_in_eq_fetched 5 rfl (fun _ => rfl) (fun _ _ _ => rfl) (fun t => by rw [hafter]; unfold Dat.blockOf iblk3; rw [hA]; try rfl) t d).trans
    (by unfold Dat.fetched Dat.blockOf iblk3; rw [hA]; try rfl)

/-! ## The body's accesses: one whole-block rectangle per block shape -/

abbrev r3_0 : Rect S5000x128 := Rect.unit (s := S5000x128) ![0, 0] S5000x128.size inb_S5000x128_S5000x128_0_0
abbrev r3_1 : Rect S1x128 := Rect.unit (s := S1x128) ![0, 0] S1x128.size inb_S1x128_S1x128_0_0

/-! ## What the body leaves in each output window's buffer -/

/-- The buffer of `y` after the body: its single whole-block store, of the normalised rows computed from the blocks of
    `h` (`x0`), `mean` (`x2`), `var` (`x3`), `γ` (`x4`) and `β` (`x5`). -/
def out3_6 (x0 : Vec F S5000x128 .f32) (x2 x3 x4 x5 : Vec F S1x128 .f32) : Vec F S5000x128 .f32 :=
  View.canon [⟨r3_0, k3_pay1 (View.ld x3 r3_1) (View.ld x0 r3_0) (View.ld x2 r3_1) (View.ld x4 r3_1) (View.ld x5 r3_1)⟩]

/-- One whole-block store covers the block. -/
theorem cover3_6 (p0 : Vec F S5000x128 .f32) (y : S5000x128.Idx) :
    ∃ pc ∈ ([⟨r3_0, p0⟩] : List (View.Piece (Elt F) S5000x128 .f32)), y ∈ pc.1.set :=
  View.cover_of_tiled [⟨r3_0, p0⟩] S5000x128.size (by rfl) y

/-- The buffer of `res + y` after the body: its single whole-block store, of the block of `res` (`x1`) plus the
    normalised rows. -/
def out3_7 (x0 x1 : Vec F S5000x128 .f32) (x2 x3 x4 x5 : Vec F S1x128 .f32) : Vec F S5000x128 .f32 :=
  View.canon [⟨r3_0, k3_pay2 (View.ld x3 r3_1) (View.ld x0 r3_0) (View.ld x2 r3_1) (View.ld x4 r3_1) (View.ld x5 r3_1) (View.ld x1 r3_0)⟩]

/-- One whole-block store covers the block. -/
theorem cover3_7 (p0 : Vec F S5000x128 .f32) (y : S5000x128.Idx) :
    ∃ pc ∈ ([⟨r3_0, p0⟩] : List (View.Piece (Elt F) S5000x128 .f32)), y ∈ pc.1.set :=
  View.cover_of_tiled [⟨r3_0, p0⟩] S5000x128.size (by rfl) y

/-! ## The body's triple -/

set_option maxHeartbeats 1000000 in
/-- The kernel body on whole staging buffers — the inputs' at read contents `x0 … x5`, the outputs' at anything — runs
    to a state where the inputs' buffers are as they were and the outputs' hold `out3_6`, `out3_7` of the inputs. -/
theorem sound_kernel3 (c : Dev nD) (E : Set ℕ) (i : grid3.Coords) (arg1 : Memref sig .tc .vmem S5000x128 .f32) (harg1 : arg1.IsWhole) (arg2 : Memref sig .tc .vmem S5000x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S5000x128 .f32) (harg8 : arg8.IsWhole)
    (x0 : Vec F S5000x128 .f32) (x1 : Vec F S5000x128 .f32) (x2 : Vec F S1x128 .f32) (x3 : Vec F S1x128 .f32) (x4 : Vec F S1x128 .f32) (x5 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (out3_6 x0 x2 x3 x4 x5) ∗ owns (c : Thread nD τ) arg8 fullShare (out3_7 x0 x1 x2 x3 x4 x5)) -∗ K ⟨⟩))
      ⊢ wp frame (wpE (defs₀ (F := F)) Variants.none c none) E (cc3__bn_residual_kernel i arg1 harg1 arg2 harg2 arg3 harg3 arg4 harg4 arg5 harg5 arg6 harg6 arg7 harg7 arg8 harg8) K := by
  simp only [cc3__bn_residual_kernel_eq_skeleton]; unfold cc3__bn_residual_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    exact View.read_writes_eq_canon _ _ _ (cover3_6 _)
  iexists _; isplitr
  swap; · iexact H7
  ipureintro
  exact View.read_writes_eq_canon _ _ _ (cover3_7 _)

/-! ## The pipeline's proof data -/

/-- The proof data of pipeline 3 on core `c`: the arrays as the pipeline finds them; after the body at point `t` each
    input's buffer at its block and each output's at `out3_6` / `out3_7` of the input blocks; the invariant says
    the rest of the core's memory and its generator register are untouched; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => iblk3 V c 5 t
    | ⟨6, _⟩ => out3_6 (iblk3 V c 0 t) (iblk3 V c 2 t) (iblk3 V c 3 t) (iblk3 V c 4 t) (iblk3 V c 5 t)
    | ⟨7, _⟩ => out3_7 (iblk3 V c 0 t) (iblk3 V c 1 t) (iblk3 V c 2 t) (iblk3 V c 3 t) (iblk3 V c 4 t) (iblk3 V c 5 t)
  Φ _ := Pipeline.ΦA spec3 c
  q _ := fullShare
  owed _ := 0

/-- The proof data's arrays are the entry contents. -/
theorem A_eq3 (c : Dev nD) (w : Fin cfg3.W) : (dat3 V c).A w = V c (Pipeline.arrRef spec3 w) := by
  dsimp only [dat3]

/-- What the body leaves, window by window. -/
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) : (dat3 V c).after 5 t = iblk3 V c 5 t := by dsimp only [dat3]
theorem after3_6 (c : Dev nD) (t : Fin cfg3.N) : (dat3 V c).after 6 t = out3_6 (iblk3 V c 0 t) (iblk3 V c 2 t) (iblk3 V c 3 t) (iblk3 V c 4 t) (iblk3 V c 5 t) := by dsimp only [dat3]
theorem after3_7 (c : Dev nD) (t : Fin cfg3.N) : (dat3 V c).after 7 t = out3_7 (iblk3 V c 0 t) (iblk3 V c 1 t) (iblk3 V c 2 t) (iblk3 V c 3 t) (iblk3 V c 4 t) (iblk3 V c 5 t) := by dsimp only [dat3]

/-- Each input's current staging buffer holds its block at every point. -/
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d
theorem before3_4 (c : Dev nD) (t : Fin cfg3.N) (d) : (dat3 V c).before 4 t d = iblk3 V c 4 t :=
  before3_4_of V (dat3 V c) (A_eq3 V c 4) (after3_4 V c) t d
theorem before3_5 (c : Dev nD) (t : Fin cfg3.N) (d) : (dat3 V c).before 5 t d = iblk3 V c 5 t :=
  before3_5_of V (dat3 V c) (A_eq3 V c 5) (after3_5 V c) t d

/-! ## The body obligation, at a generic point -/

/-- What the body is called with at point `t`, the windows one by one, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d))
    ∗ (∃ d, owns (c : Thread nD τ) (st3_6 t) fullShare ((dat3 V c).before 6 t d))
    ∗ (∃ d, owns (c : Thread nD τ) (st3_7 t) fullShare ((dat3 V c).before 7 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t)
    ∗ owns (c : Thread nD τ) (st3_5 t) fullShare ((dat3 V c).after 5 t)
    ∗ owns (c : Thread nD τ) (st3_6 t) fullShare ((dat3 V c).after 6 t)
    ∗ owns (c : Thread nD τ) (st3_7 t) fullShare ((dat3 V c).after 7 t))

/-- The body at any point: the inputs' buffers hold their blocks, so the body's triple applies; the invariant and what
    the core owes pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4, before3_5]
  rw [show (dat3 V c).Φ t.succ = (dat3 V c).Φ t.castSucc from rfl,
    show (dat3 V c).owesAt () t.succ = (dat3 V c).owesAt () t.castSucc from rfl,
    after3_0, after3_1, after3_2, after3_3, after3_4, after3_5, after3_6, after3_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel3 c Set.univ _ _ _ _ _ _ _ _ _ _ _ _ _ _ _ _ _ (iblk3 V c 0 t) (iblk3 V c 1 t) (iblk3 V c 2 t) (iblk3 V c 3 t) (iblk3 V c 4 t) (iblk3 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The pipeline's body obligation, at every point. -/
theorem body_obligation3 (c : Dev nD) : BodyObligation (dat3 (F := F) V c) (defs₀ (F := F)) Variants.none () Set.univ := fun t => by
  rw [bigSep_W3, bigSep_W3]
  exact sound_body3 V c t

end Cert.KernelIdeal.Reg

end
-- ==== Proof.KI.Halves.lean ====
/-
  The four regions' halves for the run: each region's proof data at the contents it is entered from, with the facts the
  run asks of it. The class invariant, the full shares, the empty dues and the unconstrained wait records hold by the
  definition of the proof data; the arrays and the body obligation are the region's own theorems.
-/
import proofs.«170818_j15161234555428_1_alg».proof.Proof.KI.RunPosts
import proofs.«170818_j15161234555428_1_alg».proof.Proof.KI.Reg0
import proofs.«170818_j15161234555428_1_alg».proof.Proof.KI.Reg1
import proofs.«170818_j15161234555428_1_alg».proof.Proof.KI.Reg2
import proofs.«170818_j15161234555428_1_alg».proof.Proof.KI.Reg3

set_option maxRecDepth 16384

noncomputable section

namespace Cert.KernelIdeal.Run

open Cert.KernelIdeal Cert.KernelIdeal.Gen Cert.KernelIdeal.GenP
open Idealize.ShloMosaic Idealize.ShloMosaic.TcCoe Idealize.SL.Sem

variable {F : FTy → Type} [FloatOps F]

/-- Region 0's half. -/
def half0 : Half0 F where
  dat := Cert.KernelIdeal.Reg.dat0
  hA := Cert.KernelIdeal.Reg.A_eq0
  hΦ := fun _ _ _ => rfl
  hq := fun _ _ _ => rfl
  ho := fun _ _ _ => rfl
  hr := fun _ _ _ => rfl
  hb := Cert.KernelIdeal.Reg.body_obligation0

/-- Region 1's half. -/
def half1 : Half1 F where
  dat := Cert.KernelIdeal.Reg.dat1
  hA := Cert.KernelIdeal.Reg.A_eq1
  hΦ := fun _ _ _ => rfl
  hq := fun _ _ _ => rfl
  ho := fun _ _ _ => rfl
  hr := fun _ _ _ => rfl
  hb := Cert.KernelIdeal.Reg.body_obligation1

/-- Region 2's half. -/
def half2 : Half2 F where
  dat := Cert.KernelIdeal.Reg.dat2
  hA := Cert.KernelIdeal.Reg.A_eq2
  hΦ := fun _ _ _ => rfl
  hq := fun _ _ _ => rfl
  ho := fun _ _ _ => rfl
  hr := fun _ _ _ => rfl
  hb := Cert.KernelIdeal.Reg.body_obligation2

/-- Region 3's half. -/
def half3 : Half3 F where
  dat := Cert.KernelIdeal.Reg.dat3
  hA := Cert.KernelIdeal.Reg.A_eq3
  hΦ := fun _ _ _ => rfl
  hq := fun _ _ _ => rfl
  ho := fun _ _ _ => rfl
  hr := fun _ _ _ => rfl
  hb := Cert.KernelIdeal.Reg.body_obligation3

end Cert.KernelIdeal.Run

end
-- ==== Proof.LibAfterAssign.lean ====
import Idealize.ShloMosaic.Lib.StableHlo.Run

/-!
# Reading a long straight line of operations one operation at a time

`StableHlo.after ops V` is the contents of every buffer after the operations `ops`, in order, from the
contents `V`: each operation rewrites the buffers it writes and leaves the rest. Read back in one step,
the contents of the last result are the composed term of all the operations, in which a value with
several consumers is repeated once per consumer; for a long line that term is too large to compute.

This module reads the fold one operation at a time instead. Suppose the line is in SINGLE-ASSIGNMENT
form, stated by a list `ws` of references, one per operation: the `k`-th operation writes exactly the
`k`-th reference (`WritesAre ops ws`). Split the line at position `k`, into the `k` operations before and
the rest (`after_take_drop`). Then

* a reference that no operation from position `k` on writes holds, at the end, what it held after the
  first `k` operations (`after_take_at_unwritten`);
* if the result `y` of the `k`-th operation is written by no later operation, then at the end it holds
  what the `k`-th operation put there, computed from the contents after the first `k` operations
  (`after_at_written`).

Together: if moreover no operation from position `k` on writes an operand of the `k`-th operation, then
the final contents satisfy that operation's own equation — at its result, the fold holds the operation's
function of THE FOLD at its operands (`after_nullary`, `after_unary`, `after_binary`, `after_ternary`,
`after_reshape`, one per builder). The equations of a line can then be used in program order, each
rewriting the operands by the equations already obtained, and no composed term is ever formed.

For a literal line the hypotheses are computations: `WritesAre ops ws` is the conjunction of the
builders' `*_writes` facts (each `rfl`), `ops.drop k = op :: post` is `rfl`, and a reference's absence
from `ws.drop k` is decided.
-/

namespace Cert.Lib.AfterAssign

open Idealize.ShloMosaic Idealize.ShloMosaic.StableHlo

variable {τ : Topo} {sig : RefSig} {Val : EltTy → Type}

/-! ## The fold of a concatenation -/

/-- The contents after two lines run one after the other: the second line's fold over the first's. -/
theorem after_append (l₁ l₂ : List (HloOp τ sig Val)) (V : Valuation τ sig Val) :
    after (l₁ ++ l₂) V = after l₂ (after l₁ V) := by
  induction l₁ generalizing V with
  | nil => rfl
  | cons op l ih => rw [List.cons_append, after_cons, after_cons, ih]

/-- A line split at position `k`: the fold of the rest over the fold of the first `k` operations. -/
theorem after_take_drop (k : Nat) (ops : List (HloOp τ sig Val)) (V : Valuation τ sig Val) :
    after ops V = after (ops.drop k) (after (ops.take k) V) := by
  rw [← after_append, List.take_append_drop]

/-! ## Single assignment -/

/-- The `k`-th operation of the line writes exactly the `k`-th reference of the list (and the two have
    the same length). -/
def WritesAre : List (HloOp τ sig Val) → List (Ref sig .tc) → Prop
  | [], [] => True
  | op :: ops, w :: ws => op.writes = {Proc.devRef (τ := τ) .tc w} ∧ WritesAre ops ws
  | [], _ :: _ => False
  | _ :: _, [] => False

/-- The rest of a line from position `k` writes the rest of the list from position `k`. -/
theorem WritesAre.drop : ∀ (k : Nat) {ops : List (HloOp τ sig Val)} {ws : List (Ref sig .tc)},
    WritesAre ops ws → WritesAre (ops.drop k) (ws.drop k)
  | 0, _, _, h => h
  | _ + 1, [], [], h => h
  | k + 1, _ :: _, _ :: _, h => WritesAre.drop k h.2
  | _ + 1, [], _ :: _, h => h.elim
  | _ + 1, _ :: _, [], h => h.elim

/-- A reference that is not among the references a line writes keeps its contents. -/
theorem after_of_not_written : ∀ {ops : List (HloOp τ sig Val)} {ws : List (Ref sig .tc)},
    WritesAre ops ws → ∀ (V : Valuation τ sig Val) {r : Ref sig .tc}, r ∉ ws →
      after ops V (Proc.devRef .tc r) = V (Proc.devRef .tc r)
  | [], [], _, _, _, _ => rfl
  | op :: ops, w :: ws, h, V, r, hr => by
    rw [after_cons, after_of_not_written h.2 _ (fun hm => hr (List.mem_cons_of_mem _ hm))]
    refine HloOp.result_of_not_mem _ _ ?_
    rw [h.1, Finset.mem_singleton]
    refine devRef_ne_of_ne (fun e => hr ?_)
    rw [e]
    exact List.mem_cons_self
  | [], _ :: _, h, _, _, _ => h.elim
  | _ :: _, [], h, _, _, _ => h.elim

/-- A reference that no operation from position `k` on writes holds, after the whole line, what it held
    after the first `k` operations. -/
theorem after_take_at_unwritten {ops : List (HloOp τ sig Val)} {ws : List (Ref sig .tc)}
    (h : WritesAre ops ws) (k : Nat) (V : Valuation τ sig Val) {a : Ref sig .tc} (ha : a ∉ ws.drop k) :
    after (ops.take k) V (Proc.devRef .tc a) = after ops V (Proc.devRef .tc a) := by
  rw [after_take_drop k ops V]
  exact (after_of_not_written (WritesAre.drop k h) _ ha).symm

/-- If no operation after the `k`-th writes the reference `y`, the whole line leaves at `y` what the
    `k`-th operation leaves there, from the contents after the first `k` operations. -/
theorem after_at_written {ops : List (HloOp τ sig Val)} {ws : List (Ref sig .tc)}
    (h : WritesAre ops ws) (k : Nat) {op : HloOp τ sig Val} {post : List (HloOp τ sig Val)}
    (hk : ops.drop k = op :: post) (V : Valuation τ sig Val) {y : Ref sig .tc}
    (hy : y ∉ ws.drop (k + 1)) :
    after ops V (Proc.devRef .tc y) = op.result (after (ops.take k) V) (Proc.devRef .tc y) := by
  have hpost : WritesAre post (ws.drop (k + 1)) := by
    have h' := WritesAre.drop (k + 1) h
    rwa [← List.tail_drop (l := ops) (i := k), hk, List.tail_cons] at h'
  rw [after_take_drop k ops V, hk, after_cons]
  exact after_of_not_written hpost _ hy

/-! ## Each builder's equation, at the fold itself -/

/-- A constant: if no later operation writes its result, the whole line leaves the constant there. -/
theorem after_nullary {ops : List (HloOp τ sig Val)} {ws : List (Ref sig .tc)} (h : WritesAre ops ws)
    (k : Nat) {y : Ref sig .tc} {v : y.ty.Contents Val} {hy} {post : List (HloOp τ sig Val)}
    (hk : ops.drop k = nullary (τ := τ) y v hy :: post) (V : Valuation τ sig Val)
    (hyw : y ∉ ws.drop (k + 1)) :
    after ops V (Proc.devRef .tc y) = v := by
  rw [after_at_written h k hk V hyw, nullary_result]

/-- A one-operand operation: if no later operation writes its result and none from it on writes its
    operand, the whole line leaves at the result the operation's function of what the whole line leaves
    at the operand. -/
theorem after_unary {ops : List (HloOp τ sig Val)} {ws : List (Ref sig .tc)} (h : WritesAre ops ws)
    (k : Nat) {x y : Ref sig .tc} {f : x.ty.Contents Val → y.ty.Contents Val} {hx hy}
    {post : List (HloOp τ sig Val)}
    (hk : ops.drop k = unary (τ := τ) x y f hx hy :: post) (V : Valuation τ sig Val)
    (hyw : y ∉ ws.drop (k + 1)) (hxw : x ∉ ws.drop k) :
    after ops V (Proc.devRef .tc y) = f (after ops V (Proc.devRef .tc x)) := by
  rw [after_at_written h k hk V hyw, unary_result, after_take_at_unwritten h k V hxw]

/-- A two-operand operation: if no later operation writes its result and none from it on writes an
    operand, the whole line leaves at the result the operation's function of what the whole line leaves
    at the two operands. -/
theorem after_binary {ops : List (HloOp τ sig Val)} {ws : List (Ref sig .tc)} (h : WritesAre ops ws)
    (k : Nat) {a b y : Ref sig .tc} {f : a.ty.Contents Val → b.ty.Contents Val → y.ty.Contents Val}
    {ha hb hy} {post : List (HloOp τ sig Val)}
    (hk : ops.drop k = binary (τ := τ) a b y f ha hb hy :: post) (V : Valuation τ sig Val)
    (hyw : y ∉ ws.drop (k + 1)) (haw : a ∉ ws.drop k) (hbw : b ∉ ws.drop k) :
    after ops V (Proc.devRef .tc y)
      = f (after ops V (Proc.devRef .tc a)) (after ops V (Proc.devRef .tc b)) := by
  rw [after_at_written h k hk V hyw, binary_result, after_take_at_unwritten h k V haw,
    after_take_at_unwritten h k V hbw]

/-- A three-operand operation, likewise. -/
theorem after_ternary {ops : List (HloOp τ sig Val)} {ws : List (Ref sig .tc)} (h : WritesAre ops ws)
    (k : Nat) {c a b y : Ref sig .tc}
    {f : c.ty.Contents Val → a.ty.Contents Val → b.ty.Contents Val → y.ty.Contents Val}
    {hc ha hb hy} {post : List (HloOp τ sig Val)}
    (hk : ops.drop k = ternary (τ := τ) c a b y f hc ha hb hy :: post) (V : Valuation τ sig Val)
    (hyw : y ∉ ws.drop (k + 1)) (hcw : c ∉ ws.drop k) (haw : a ∉ ws.drop k) (hbw : b ∉ ws.drop k) :
    after ops V (Proc.devRef .tc y)
      = f (after ops V (Proc.devRef .tc c)) (after ops V (Proc.devRef .tc a))
          (after ops V (Proc.devRef .tc b)) := by
  rw [after_at_written h k hk V hyw, ternary_result, after_take_at_unwritten h k V hcw,
    after_take_at_unwritten h k V haw, after_take_at_unwritten h k V hbw]

/-- A reshape: if no later operation writes its result and none from it on writes its operand, the
    whole line leaves at the result the operand's final contents in row-major order at the result's
    shape. -/
theorem after_reshape {ops : List (HloOp τ sig Val)} {ws : List (Ref sig .tc)} (h : WritesAre ops ws)
    (k : Nat) {x y : Ref sig .tc} {he : x.ty.elt = y.ty.elt} {hn : x.ty.shape.ShapeCasts y.ty.shape}
    {hx hy} {post : List (HloOp τ sig Val)}
    (hk : ops.drop k = reshape (τ := τ) (Val := Val) x y he hn hx hy :: post) (V : Valuation τ sig Val)
    (hyw : y ∉ ws.drop (k + 1)) (hxw : x ∉ ws.drop k) :
    after ops V (Proc.devRef .tc y)
      = fun i => he ▸ shapeCast y.ty.shape (after ops V (Proc.devRef .tc x)) hn i := by
  rw [after_at_written h k hk V hyw, reshape_result, after_take_at_unwritten h k V hxw]

end Cert.Lib.AfterAssign
-- ==== Proof.Ref.Run.lean ====
import proofs.«170818_j15161234555428_1_alg».proof.Proof.Gen.ReferenceIdeal
import Idealize.ShloMosaic.Lib.StableHlo.Run
import proofs.«170818_j15161234555428_1_alg».proof.Proof.LibAfterAssign

/-!
# The reference program's run

The reference's entry function is a straight line of host operations; its four calls of the leaky rectifier (each of
which calls the select helper) are replaced by the callee's operations over the call's own buffers. The line is listed
here stage by stage, and its run is read back: every weakly fair execution terminates with each buffer at the fold of
the operations over the launch contents, the argument arrays unchanged.
-/

noncomputable section

namespace Cert.ReferenceIdeal.RefRun

open Cert.Lib.AfterAssign Cert.ReferenceIdeal Cert.ReferenceIdeal.Gen Idealize.ShloMosaic Idealize.ShloMosaic.TcCoe Idealize.SL.Sem Idealize.ShloMosaic.StableHlo

variable {F : FTy → Type} [FloatOps F]

/-- The edge inputs: both index vectors wrapped into range (a negative index has the node count added), the two gathers of node rows, and the concatenation with the edge features. -/
abbrev opsZ : List (HloOp τ sig (Elt F)) :=
  [ nullary main_c (constantI S_ 32 0#32),
    unary main_c main_v0 (broadcastInDim S640000 ![] bcast_S_S640000 : (⟨S_, .i32⟩ : BufTy).Contents (Elt F) → (⟨S640000, .i32⟩ : BufTy).Contents (Elt F)),
    binary main_arg2 main_v0 main_v1 (cmpi .slt : (⟨S640000, .i32⟩ : BufTy).Contents (Elt F) → (⟨S640000, .i32⟩ : BufTy).Contents (Elt F) → (⟨S640000, .i1⟩ : BufTy).Contents (Elt F)),
    nullary main_c_0 (constantI S_ 32 50000#32),
    unary main_c_0 main_v2 (broadcastInDim S640000 ![] bcast_S_S640000 : (⟨S_, .i32⟩ : BufTy).Contents (Elt F) → (⟨S640000, .i32⟩ : BufTy).Contents (Elt F)),
    binary main_arg2 main_v2 main_v3 (addi : (⟨S640000, .i32⟩ : BufTy).Contents (Elt F) → (⟨S640000, .i32⟩ : BufTy).Contents (Elt F) → (⟨S640000, .i32⟩ : BufTy).Contents (Elt F)),
    ternary main_v1 main_v3 main_arg2 main_v4 (select : (⟨S640000, .i1⟩ : BufTy).Contents (Elt F) → (⟨S640000, .i32⟩ : BufTy).Contents (Elt F) → (⟨S640000, .i32⟩ : BufTy).Contents (Elt F) → (⟨S640000, .i32⟩ : BufTy).Contents (Elt F)),
    unary main_v4 main_v5 (broadcastInDim S640000x1 ![0] bcast_S640000_S640000x1_0 : (⟨S640000, .i32⟩ : BufTy).Contents (Elt F) → (⟨S640000x1, .i32⟩ : BufTy).Contents (Elt F)),
    binary main_arg0 main_v5 main_v6 ((fun x i => Host.gather gather_S50000x128_S640000x1_S640000x128_1_0_n_n_0_1_1128 x i) : (⟨S50000x128, .f32⟩ : BufTy).Contents (Elt F) → (⟨S640000x1, .i32⟩ : BufTy).Contents (Elt F) → (⟨S640000x128, .f32⟩ : BufTy).Contents (Elt F)),
    nullary main_c_1 (constantI S_ 32 0#32),
    unary main_c_1 main_v7 (broadcastInDim S640000 ![] bcast_S_S640000 : (⟨S_, .i32⟩ : BufTy).Contents (Elt F) → (⟨S640000, .i32⟩ : BufTy).Contents (Elt F)),
    binary main_arg3 main_v7 main_v8 (cmpi .slt : (⟨S640000, .i32⟩ : BufTy).Contents (Elt F) → (⟨S640000, .i32⟩ : BufTy).Contents (Elt F) → (⟨S640000, .i1⟩ : BufTy).Contents (Elt F)),
    nullary main_c_2 (constantI S_ 32 50000#32),
    unary main_c_2 main_v9 (broadcastInDim S640000 ![] bcast_S_S640000 : (⟨S_, .i32⟩ : BufTy).Contents (Elt F) → (⟨S640000, .i32⟩ : BufTy).Contents (Elt F)),
    binary main_arg3 main_v9 main_v10 (addi : (⟨S640000, .i32⟩ : BufTy).Contents (Elt F) → (⟨S640000, .i32⟩ : BufTy).Contents (Elt F) → (⟨S640000, .i32⟩ : BufTy).Contents (Elt F)),
    ternary main_v8 main_v10 main_arg3 main_v11 (select : (⟨S640000, .i1⟩ : BufTy).Contents (Elt F) → (⟨S640000, .i32⟩ : BufTy).Contents (Elt F) → (⟨S640000, .i32⟩ : BufTy).Contents (Elt F) → (⟨S640000, .i32⟩ : BufTy).Contents (Elt F)),
    unary main_v11 main_v12 (broadcastInDim S640000x1 ![0] bcast_S640000_S640000x1_0 : (⟨S640000, .i32⟩ : BufTy).Contents (Elt F) → (⟨S640000x1, .i32⟩ : BufTy).Contents (Elt F)),
    binary main_arg0 main_v12 main_v13 ((fun x i => Host.gather gather_S50000x128_S640000x1_S640000x128_1_0_n_n_0_1_1128 x i) : (⟨S50000x128, .f32⟩ : BufTy).Contents (Elt F) → (⟨S640000x1, .i32⟩ : BufTy).Contents (Elt F) → (⟨S640000x128, .f32⟩ : BufTy).Contents (Elt F)),
    nary ![main_v6, main_v13, main_arg1] main_v14 (fun u => concatenate S640000x384 1 [⟨S640000x128, u 0⟩, ⟨S640000x128, u 1⟩, ⟨S640000x128, u 2⟩] concatenates_S640000x128_S640000x128_S640000x128_S640000x384_d1) ]

/-- The edge network: three affine layers, a leaky rectifier (slope 0.2, written as compare, scale, select) after the first two. -/
abbrev opsH : List (HloOp τ sig (Elt F)) :=
  [ binary main_v14 main_arg4 main_v15 ((fun l r => Host.dotGeneral dot_S640000x384_S384x128_S640000x128_1_0_0_1_n_n none l r) : (⟨S640000x384, .f32⟩ : BufTy).Contents (Elt F) → (⟨S384x128, .f32⟩ : BufTy).Contents (Elt F) → (⟨S640000x128, .f32⟩ : BufTy).Contents (Elt F)),
    unary main_arg5 main_v16 (broadcastInDim S1x128 ![1] bcast_S128_S1x128_1 : (⟨S128, .f32⟩ : BufTy).Contents (Elt F) → (⟨S1x128, .f32⟩ : BufTy).Contents (Elt F)),
    unary main_v16 main_v17 (broadcastInDim S640000x128 ![0, 1] bcast_S1x128_S640000x128_0_1 : (⟨S1x128, .f32⟩ : BufTy).Contents (Elt F) → (⟨S640000x128, .f32⟩ : BufTy).Contents (Elt F)),
    binary main_v15 main_v17 main_v18 (addf : (⟨S640000x128, .f32⟩ : BufTy).Contents (Elt F) → (⟨S640000x128, .f32⟩ : BufTy).Contents (Elt F) → (⟨S640000x128, .f32⟩ : BufTy).Contents (Elt F)),
    nullary main_cst (constant S_ .f32 0x3E4CCCCD#32),
    TRef.nullary main_call0.cst (constant S_ .f32 0x00000000#32),
    TRef.unary main_call0.cst main_call0.v0 (broadcastInDim S640000x128 ![] bcast_S_S640000x128),
    TRef.binary (.of main_v18) main_call0.v0 main_call0.v1 (cmpf .oge),
    TRef.unary (.of main_cst) main_call0.v2 id,
    TRef.unary main_call0.v2 main_call0.v3 (broadcastInDim S640000x128 ![] bcast_S_S640000x128),
    TRef.binary main_call0.v3 (.of main_v18) main_call0.v4 mulf,
    TRef.ternary main_call0.v1 (.of main_v18) main_call0.v4 main_call0.call0.v0 select,
    binary main_v19 main_arg6 main_v20 ((fun l r => Host.dotGeneral dot_S640000x128_S128x128_S640000x128_1_0_0_1_n_n none l r) : (⟨S640000x128, .f32⟩ : BufTy).Contents (Elt F) → (⟨S128x128, .f32⟩ : BufTy).Contents (Elt F) → (⟨S640000x128, .f32⟩ : BufTy).Contents (Elt F)),
    unary main_arg7 main_v21 (broadcastInDim S1x128 ![1] bcast_S128_S1x128_1 : (⟨S128, .f32⟩ : BufTy).Contents (Elt F) → (⟨S1x128, .f32⟩ : BufTy).Contents (Elt F)),
    unary main_v21 main_v22 (broadcastInDim S640000x128 ![0, 1] bcast_S1x128_S640000x128_0_1 : (⟨S1x128, .f32⟩ : BufTy).Contents (Elt F) → (⟨S640000x128, .f32⟩ : BufTy).Contents (Elt F)),
    binary main_v20 main_v22 main_v23 (addf : (⟨S640000x128, .f32⟩ : BufTy).Contents (Elt F) → (⟨S640000x128, .f32⟩ : BufTy).Contents (Elt F) → (⟨S640000x128, .f32⟩ : BufTy).Contents (Elt F)),
    nullary main_cst_3 (constant S_ .f32 0x3E4CCCCD#32),
    TRef.nullary main_call1.cst (constant S_ .f32 0x00000000#32),
    TRef.unary main_call1.cst main_call1.v0 (broadcastInDim S640000x128 ![] bcast_S_S640000x128),
    TRef.binary (.of main_v23) main_call1.v0 main_call1.v1 (cmpf .oge),
    TRef.unary (.of main_cst_3) main_call1.v2 id,
    TRef.unary main_call1.v2 main_call1.v3 (broadcastInDim S640000x128 ![] bcast_S_S640000x128),
    TRef.binary main_call1.v3 (.of main_v23) main_call1.v4 mulf,
    TRef.ternary main_call1.v1 (.of main_v23) main_call1.v4 main_call1.call0.v0 select,
    binary main_v24 main_arg8 main_v25 ((fun l r => Host.dotGeneral dot_S640000x128_S128x128_S640000x128_1_0_0_1_n_n none l r) : (⟨S640000x128, .f32⟩ : BufTy).Contents (Elt F) → (⟨S128x128, .f32⟩ : BufTy).Contents (Elt F) → (⟨S640000x128, .f32⟩ : BufTy).Contents (Elt F)),
    unary main_arg9 main_v26 (broadcastInDim S1x128 ![1] bcast_S128_S1x128_1 : (⟨S128, .f32⟩ : BufTy).Contents (Elt F) → (⟨S1x128, .f32⟩ : BufTy).Contents (Elt F)),
    unary main_v26 main_v27 (broadcastInDim S640000x128 ![0, 1] bcast_S1x128_S640000x128_0_1 : (⟨S1x128, .f32⟩ : BufTy).Contents (Elt F) → (⟨S640000x128, .f32⟩ : BufTy).Contents (Elt F)),
    binary main_v25 main_v27 main_v28 (addf : (⟨S640000x128, .f32⟩ : BufTy).Contents (Elt F) → (⟨S640000x128, .f32⟩ : BufTy).Contents (Elt F) → (⟨S640000x128, .f32⟩ : BufTy).Contents (Elt F)) ]

/-- The edge batch normalization: column mean, centred second moment, reciprocal root, scale and shift. -/
abbrev opsY : List (HloOp τ sig (Elt F)) :=
  [ nullary main_cst_4 (constant S_ .f32 0x00000000#32),
    binary main_v28 main_cst_4 main_v29 ((fun x v => Host.reduceAdd x v reducesTo_S640000x128_S128_d0 h_S_) : (⟨S640000x128, .f32⟩ : BufTy).Contents (Elt F) → (⟨S_, .f32⟩ : BufTy).Contents (Elt F) → (⟨S128, .f32⟩ : BufTy).Contents (Elt F)),
    nullary main_cst_5 (constant S_ .f32 0x491C4000#32),
    unary main_cst_5 main_v30 (broadcastInDim S128 ![] bcast_S_S128 : (⟨S_, .f32⟩ : BufTy).Contents (Elt F) → (⟨S128, .f32⟩ : BufTy).Contents (Elt F)),
    binary main_v29 main_v30 main_v31 (Host.divf : (⟨S128, .f32⟩ : BufTy).Contents (Elt F) → (⟨S128, .f32⟩ : BufTy).Contents (Elt F) → (⟨S128, .f32⟩ : BufTy).Contents (Elt F)),
    unary main_v31 main_v32 (broadcastInDim S1x128 ![1] bcast_S128_S1x128_1 : (⟨S128, .f32⟩ : BufTy).Contents (Elt F) → (⟨S1x128, .f32⟩ : BufTy).Contents (Elt F)),
    unary main_v32 main_v33 (broadcastInDim S640000x128 ![0, 1] bcast_S1x128_S640000x128_0_1 : (⟨S1x128, .f32⟩ : BufTy).Contents (Elt F) → (⟨S640000x128, .f32⟩ : BufTy).Contents (Elt F)),
    binary main_v28 main_v33 main_v34 (subf : (⟨S640000x128, .f32⟩ : BufTy).Contents (Elt F) → (⟨S640000x128, .f32⟩ : BufTy).Contents (Elt F) → (⟨S640000x128, .f32⟩ : BufTy).Contents (Elt F)),
    binary main_v34 main_v34 main_v35 (mulf : (⟨S640000x128, .f32⟩ : BufTy).Contents (Elt F) → (⟨S640000x128, .f32⟩ : BufTy).Contents (Elt F) → (⟨S640000x128, .f32⟩ : BufTy).Contents (Elt F)),
    nullary main_cst_6 (constant S_ .f32 0x00000000#32),
    binary main_v35 main_cst_6 main_v36 ((fun x v => Host.reduceAdd x v reducesTo_S640000x128_S128_d0 h_S_) : (⟨S640000x128, .f32⟩ : BufTy).Contents (Elt F) → (⟨S_, .f32⟩ : BufTy).Contents (Elt F) → (⟨S128, .f32⟩ : BufTy).Contents (Elt F)),
    nullary main_cst_7 (constant S_ .f32 0x491C4000#32),
    unary main_cst_7 main_v37 (broadcastInDim S128 ![] bcast_S_S128 : (⟨S_, .f32⟩ : BufTy).Contents (Elt F) → (⟨S128, .f32⟩ : BufTy).Contents (Elt F)),
    binary main_v36 main_v37 main_v38 (Host.divf : (⟨S128, .f32⟩ : BufTy).Contents (Elt F) → (⟨S128, .f32⟩ : BufTy).Contents (Elt F) → (⟨S128, .f32⟩ : BufTy).Contents (Elt F)),
    unary main_v31 main_v39 (broadcastInDim S1x128 ![1] bcast_S128_S1x128_1 : (⟨S128, .f32⟩ : BufTy).Contents (Elt F) → (⟨S1x128, .f32⟩ : BufTy).Contents (Elt F)),
    unary main_v39 main_v40 (broadcastInDim S640000x128 ![0, 1] bcast_S1x128_S640000x128_0_1 : (⟨S1x128, .f32⟩ : BufTy).Contents (Elt F) → (⟨S640000x128, .f32⟩ : BufTy).Contents (Elt F)),
    binary main_v28 main_v40 main_v41 (subf : (⟨S640000x128, .f32⟩ : BufTy).Contents (Elt F) → (⟨S640000x128, .f32⟩ : BufTy).Contents (Elt F) → (⟨S640000x128, .f32⟩ : BufTy).Contents (Elt F)),
    nullary main_cst_8 (constant S_ .f32 0x3727C5AC#32),
    unary main_cst_8 main_v42 (broadcastInDim S128 ![] bcast_S_S128 : (⟨S_, .f32⟩ : BufTy).Contents (Elt F) → (⟨S128, .f32⟩ : BufTy).Contents (Elt F)),
    binary main_v38 main_v42 main_v43 (addf : (⟨S128, .f32⟩ : BufTy).Contents (Elt F) → (⟨S128, .f32⟩ : BufTy).Contents (Elt F) → (⟨S128, .f32⟩ : BufTy).Contents (Elt F)),
    unary main_v43 main_v44 (Host.rsqrt : (⟨S128, .f32⟩ : BufTy).Contents (Elt F) → (⟨S128, .f32⟩ : BufTy).Contents (Elt F)),
    unary main_v44 main_v45 (broadcastInDim S1x128 ![1] bcast_S128_S1x128_1 : (⟨S128, .f32⟩ : BufTy).Contents (Elt F) → (⟨S1x128, .f32⟩ : BufTy).Contents (Elt F)),
    unary main_v45 main_v46 (broadcastInDim S640000x128 ![0, 1] bcast_S1x128_S640000x128_0_1 : (⟨S1x128, .f32⟩ : BufTy).Contents (Elt F) → (⟨S640000x128, .f32⟩ : BufTy).Contents (Elt F)),
    binary main_v41 main_v46 main_v47 (mulf : (⟨S640000x128, .f32⟩ : BufTy).Contents (Elt F) → (⟨S640000x128, .f32⟩ : BufTy).Contents (Elt F) → (⟨S640000x128, .f32⟩ : BufTy).Contents (Elt F)),
    unary main_arg16 main_v48 (broadcastInDim S1x128 ![1] bcast_S128_S1x128_1 : (⟨S128, .f32⟩ : BufTy).Contents (Elt F) → (⟨S1x128, .f32⟩ : BufTy).Contents (Elt F)),
    unary main_v48 main_v49 (broadcastInDim S640000x128 ![0, 1] bcast_S1x128_S640000x128_0_1 : (⟨S1x128, .f32⟩ : BufTy).Contents (Elt F) → (⟨S640000x128, .f32⟩ : BufTy).Contents (Elt F)),
    binary main_v47 main_v49 main_v50 (mulf : (⟨S640000x128, .f32⟩ : BufTy).Contents (Elt F) → (⟨S640000x128, .f32⟩ : BufTy).Contents (Elt F) → (⟨S640000x128, .f32⟩ : BufTy).Contents (Elt F)),
    unary main_arg17 main_v51 (broadcastInDim S1x128 ![1] bcast_S128_S1x128_1 : (⟨S128, .f32⟩ : BufTy).Contents (Elt F) → (⟨S1x128, .f32⟩ : BufTy).Contents (Elt F)),
    unary main_v51 main_v52 (broadcastInDim S640000x128 ![0, 1] bcast_S1x128_S640000x128_0_1 : (⟨S1x128, .f32⟩ : BufTy).Contents (Elt F) → (⟨S640000x128, .f32⟩ : BufTy).Contents (Elt F)),
    binary main_v50 main_v52 main_v53 (addf : (⟨S640000x128, .f32⟩ : BufTy).Contents (Elt F) → (⟨S640000x128, .f32⟩ : BufTy).Contents (Elt F) → (⟨S640000x128, .f32⟩ : BufTy).Contents (Elt F)) ]

/-- The edge residual: the edge features plus the normalized activations. -/
abbrev ops54 : List (HloOp τ sig (Elt F)) :=
  [ binary main_arg1 main_v53 main_v54 (addf : (⟨S640000x128, .f32⟩ : BufTy).Contents (Elt F) → (⟨S640000x128, .f32⟩ : BufTy).Contents (Elt F) → (⟨S640000x128, .f32⟩ : BufTy).Contents (Elt F)) ]

/-- The node inputs: the scatter-mean of the normalized edge activations over the first index vector (sums divided by counts clamped below at one), concatenated with the node features. -/
abbrev opsZ2 : List (HloOp τ sig (Elt F)) :=
  [ nullary main_cst_9 (constant S_ .f32 0x00000000#32),
    unary main_cst_9 main_v55 (broadcastInDim S50000x128 ![] bcast_S_S50000x128 : (⟨S_, .f32⟩ : BufTy).Contents (Elt F) → (⟨S50000x128, .f32⟩ : BufTy).Contents (Elt F)),
    unary main_arg2 main_v56 (broadcastInDim S640000x1 ![0] bcast_S640000_S640000x1_0 : (⟨S640000, .i32⟩ : BufTy).Contents (Elt F) → (⟨S640000x1, .i32⟩ : BufTy).Contents (Elt F)),
    ternary main_v55 main_v56 main_v53 main_v57 ((fun x i u => Host.scatterAdd scatter_S50000x128_S640000x1_S640000x128_1_0_0_1 x i u) : (⟨S50000x128, .f32⟩ : BufTy).Contents (Elt F) → (⟨S640000x1, .i32⟩ : BufTy).Contents (Elt F) → (⟨S640000x128, .f32⟩ : BufTy).Contents (Elt F) → (⟨S50000x128, .f32⟩ : BufTy).Contents (Elt F)),
    nullary main_cst_10 (constant S_ .f32 0x3F800000#32),
    unary main_cst_10 main_v58 (broadcastInDim S640000x1 ![] bcast_S_S640000x1 : (⟨S_, .f32⟩ : BufTy).Contents (Elt F) → (⟨S640000x1, .f32⟩ : BufTy).Contents (Elt F)),
    nullary main_cst_11 (constant S_ .f32 0x00000000#32),
    unary main_cst_11 main_v59 (broadcastInDim S50000x1 ![] bcast_S_S50000x1 : (⟨S_, .f32⟩ : BufTy).Contents (Elt F) → (⟨S50000x1, .f32⟩ : BufTy).Contents (Elt F)),
    unary main_arg2 main_v60 (broadcastInDim S640000x1 ![0] bcast_S640000_S640000x1_0 : (⟨S640000, .i32⟩ : BufTy).Contents (Elt F) → (⟨S640000x1, .i32⟩ : BufTy).Contents (Elt F)),
    ternary main_v59 main_v60 main_v58 main_v61 ((fun x i u => Host.scatterAdd scatter_S50000x1_S640000x1_S640000x1_1_0_0_1 x i u) : (⟨S50000x1, .f32⟩ : BufTy).Contents (Elt F) → (⟨S640000x1, .i32⟩ : BufTy).Contents (Elt F) → (⟨S640000x1, .f32⟩ : BufTy).Contents (Elt F) → (⟨S50000x1, .f32⟩ : BufTy).Contents (Elt F)),
    nullary main_cst_12 (constant S_ .f32 0x3F800000#32),
    unary main_cst_12 main_v62 (broadcastInDim S50000x1 ![] bcast_S_S50000x1 : (⟨S_, .f32⟩ : BufTy).Contents (Elt F) → (⟨S50000x1, .f32⟩ : BufTy).Contents (Elt F)),
    binary main_v61 main_v62 main_v63 (maximumf : (⟨S50000x1, .f32⟩ : BufTy).Contents (Elt F) → (⟨S50000x1, .f32⟩ : BufTy).Contents (Elt F) → (⟨S50000x1, .f32⟩ : BufTy).Contents (Elt F)),
    unary main_v63 main_v64 (broadcastInDim S50000x128 ![0, 1] bcast_S50000x1_S50000x128_0_1 : (⟨S50000x1, .f32⟩ : BufTy).Contents (Elt F) → (⟨S50000x128, .f32⟩ : BufTy).Contents (Elt F)),
    binary main_v57 main_v64 main_v65 (Host.divf : (⟨S50000x128, .f32⟩ : BufTy).Contents (Elt F) → (⟨S50000x128, .f32⟩ : BufTy).Contents (Elt F) → (⟨S50000x128, .f32⟩ : BufTy).Contents (Elt F)),
    binary main_v65 main_arg0 main_v66 ((fun a b => concatenate S50000x256 1 [⟨S50000x128, a⟩, ⟨S50000x128, b⟩] concatenates_S50000x128_S50000x128_S50000x256_d1) : (⟨S50000x128, .f32⟩ : BufTy).Contents (Elt F) → (⟨S50000x128, .f32⟩ : BufTy).Contents (Elt F) → (⟨S50000x256, .f32⟩ : BufTy).Contents (Elt F)) ]

/-- The node network: three affine layers with the same leaky rectifier. -/
abbrev opsH2 : List (HloOp τ sig (Elt F)) :=
  [ binary main_v66 main_arg10 main_v67 ((fun l r => Host.dotGeneral dot_S50000x256_S256x128_S50000x128_1_0_0_1_n_n none l r) : (⟨S50000x256, .f32⟩ : BufTy).Contents (Elt F) → (⟨S256x128, .f32⟩ : BufTy).Contents (Elt F) → (⟨S50000x128, .f32⟩ : BufTy).Contents (Elt F)),
    unary main_arg11 main_v68 (broadcastInDim S1x128 ![1] bcast_S128_S1x128_1 : (⟨S128, .f32⟩ : BufTy).Contents (Elt F) → (⟨S1x128, .f32⟩ : BufTy).Contents (Elt F)),
    unary main_v68 main_v69 (broadcastInDim S50000x128 ![0, 1] bcast_S1x128_S50000x128_0_1 : (⟨S1x128, .f32⟩ : BufTy).Contents (Elt F) → (⟨S50000x128, .f32⟩ : BufTy).Contents (Elt F)),
    binary main_v67 main_v69 main_v70 (addf : (⟨S50000x128, .f32⟩ : BufTy).Contents (Elt F) → (⟨S50000x128, .f32⟩ : BufTy).Contents (Elt F) → (⟨S50000x128, .f32⟩ : BufTy).Contents (Elt F)),
    nullary main_cst_13 (constant S_ .f32 0x3E4CCCCD#32),
    TRef.nullary main_call2.cst (constant S_ .f32 0x00000000#32),
    TRef.unary main_call2.cst main_call2.v0 (broadcastInDim S50000x128 ![] bcast_S_S50000x128),
    TRef.binary (.of main_v70) main_call2.v0 main_call2.v1 (cmpf .oge),
    TRef.unary (.of main_cst_13) main_call2.v2 id,
    TRef.unary main_call2.v2 main_call2.v3 (broadcastInDim S50000x128 ![] bcast_S_S50000x128),
    TRef.binary main_call2.v3 (.of main_v70) main_call2.v4 mulf,
    TRef.ternary main_call2.v1 (.of main_v70) main_call2.v4 main_call2.call0.v0 select,
    binary main_v71 main_arg12 main_v72 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    unary main_arg13 main_v73 (broadcastInDim S1x128 ![1] bcast_S128_S1x128_1 : (⟨S128, .f32⟩ : BufTy).Contents (Elt F) → (⟨S1x128, .f32⟩ : BufTy).Contents (Elt F)),
    unary main_v73 main_v74 (broadcastInDim S50000x128 ![0, 1] bcast_S1x128_S50000x128_0_1 : (⟨S1x128, .f32⟩ : BufTy).Contents (Elt F) → (⟨S50000x128, .f32⟩ : BufTy).Contents (Elt F)),
    binary main_v72 main_v74 main_v75 (addf : (⟨S50000x128, .f32⟩ : BufTy).Contents (Elt F) → (⟨S50000x128, .f32⟩ : BufTy).Contents (Elt F) → (⟨S50000x128, .f32⟩ : BufTy).Contents (Elt F)),
    nullary main_cst_14 (constant S_ .f32 0x3E4CCCCD#32),
    TRef.nullary main_call3.cst (constant S_ .f32 0x00000000#32),
    TRef.unary main_call3.cst main_call3.v0 (broadcastInDim S50000x128 ![] bcast_S_S50000x128),
    TRef.binary (.of main_v75) main_call3.v0 main_call3.v1 (cmpf .oge),
    TRef.unary (.of main_cst_14) main_call3.v2 id,
    TRef.unary main_call3.v2 main_call3.v3 (broadcastInDim S50000x128 ![] bcast_S_S50000x128),
    TRef.binary main_call3.v3 (.of main_v75) main_call3.v4 mulf,
    TRef.ternary main_call3.v1 (.of main_v75) main_call3.v4 main_call3.call0.v0 select,
    binary main_v76 main_arg14 main_v77 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    unary main_arg15 main_v78 (broadcastInDim S1x128 ![1] bcast_S128_S1x128_1 : (⟨S128, .f32⟩ : BufTy).Contents (Elt F) → (⟨S1x128, .f32⟩ : BufTy).Contents (Elt F)),
    unary main_v78 main_v79 (broadcastInDim S50000x128 ![0, 1] bcast_S1x128_S50000x128_0_1 : (⟨S1x128, .f32⟩ : BufTy).Contents (Elt F) → (⟨S50000x128, .f32⟩ : BufTy).Contents (Elt F)),
    binary main_v77 main_v79 main_v80 (addf : (⟨S50000x128, .f32⟩ : BufTy).Contents (Elt F) → (⟨S50000x128, .f32⟩ : BufTy).Contents (Elt F) → (⟨S50000x128, .f32⟩ : BufTy).Contents (Elt F)) ]

/-- The node batch normalization. -/
abbrev opsY2 : List (HloOp τ sig (Elt F)) :=
  [ nullary main_cst_15 (constant S_ .f32 0x00000000#32),
    binary main_v80 main_cst_15 main_v81 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    nullary main_cst_16 (constant S_ .f32 0x47435000#32),
    unary main_cst_16 main_v82 (broadcastInDim S128 ![] bcast_S_S128 : (⟨S_, .f32⟩ : BufTy).Contents (Elt F) → (⟨S128, .f32⟩ : BufTy).Contents (Elt F)),
    binary main_v81 main_v82 main_v83 (Host.divf : (⟨S128, .f32⟩ : BufTy).Contents (Elt F) → (⟨S128, .f32⟩ : BufTy).Contents (Elt F) → (⟨S128, .f32⟩ : BufTy).Contents (Elt F)),
    unary main_v83 main_v84 (broadcastInDim S1x128 ![1] bcast_S128_S1x128_1 : (⟨S128, .f32⟩ : BufTy).Contents (Elt F) → (⟨S1x128, .f32⟩ : BufTy).Contents (Elt F)),
    unary main_v84 main_v85 (broadcastInDim S50000x128 ![0, 1] bcast_S1x128_S50000x128_0_1 : (⟨S1x128, .f32⟩ : BufTy).Contents (Elt F) → (⟨S50000x128, .f32⟩ : BufTy).Contents (Elt F)),
    binary main_v80 main_v85 main_v86 (subf : (⟨S50000x128, .f32⟩ : BufTy).Contents (Elt F) → (⟨S50000x128, .f32⟩ : BufTy).Contents (Elt F) → (⟨S50000x128, .f32⟩ : BufTy).Contents (Elt F)),
    binary main_v86 main_v86 main_v87 (mulf : (⟨S50000x128, .f32⟩ : BufTy).Contents (Elt F) → (⟨S50000x128, .f32⟩ : BufTy).Contents (Elt F) → (⟨S50000x128, .f32⟩ : BufTy).Contents (Elt F)),
    nullary main_cst_17 (constant S_ .f32 0x00000000#32),
    binary main_v87 main_cst_17 main_v88 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    nullary main_cst_18 (constant S_ .f32 0x47435000#32),
    unary main_cst_18 main_v89 (broadcastInDim S128 ![] bcast_S_S128 : (⟨S_, .f32⟩ : BufTy).Contents (Elt F) → (⟨S128, .f32⟩ : BufTy).Contents (Elt F)),
    binary main_v88 main_v89 main_v90 (Host.divf : (⟨S128, .f32⟩ : BufTy).Contents (Elt F) → (⟨S128, .f32⟩ : BufTy).Contents (Elt F) → (⟨S128, .f32⟩ : BufTy).Contents (Elt F)),
    unary main_v83 main_v91 (broadcastInDim S1x128 ![1] bcast_S128_S1x128_1 : (⟨S128, .f32⟩ : BufTy).Contents (Elt F) → (⟨S1x128, .f32⟩ : BufTy).Contents (Elt F)),
    unary main_v91 main_v92 (broadcastInDim S50000x128 ![0, 1] bcast_S1x128_S50000x128_0_1 : (⟨S1x128, .f32⟩ : BufTy).Contents (Elt F) → (⟨S50000x128, .f32⟩ : BufTy).Contents (Elt F)),
    binary main_v80 main_v92 main_v93 (subf : (⟨S50000x128, .f32⟩ : BufTy).Contents (Elt F) → (⟨S50000x128, .f32⟩ : BufTy).Contents (Elt F) → (⟨S50000x128, .f32⟩ : BufTy).Contents (Elt F)),
    nullary main_cst_19 (constant S_ .f32 0x3727C5AC#32),
    unary main_cst_19 main_v94 (broadcastInDim S128 ![] bcast_S_S128 : (⟨S_, .f32⟩ : BufTy).Contents (Elt F) → (⟨S128, .f32⟩ : BufTy).Contents (Elt F)),
    binary main_v90 main_v94 main_v95 (addf : (⟨S128, .f32⟩ : BufTy).Contents (Elt F) → (⟨S128, .f32⟩ : BufTy).Contents (Elt F) → (⟨S128, .f32⟩ : BufTy).Contents (Elt F)),
    unary main_v95 main_v96 (Host.rsqrt : (⟨S128, .f32⟩ : BufTy).Contents (Elt F) → (⟨S128, .f32⟩ : BufTy).Contents (Elt F)),
    unary main_v96 main_v97 (broadcastInDim S1x128 ![1] bcast_S128_S1x128_1 : (⟨S128, .f32⟩ : BufTy).Contents (Elt F) → (⟨S1x128, .f32⟩ : BufTy).Contents (Elt F)),
    unary main_v97 main_v98 (broadcastInDim S50000x128 ![0, 1] bcast_S1x128_S50000x128_0_1 : (⟨S1x128, .f32⟩ : BufTy).Contents (Elt F) → (⟨S50000x128, .f32⟩ : BufTy).Contents (Elt F)),
    binary main_v93 main_v98 main_v99 (mulf : (⟨S50000x128, .f32⟩ : BufTy).Contents (Elt F) → (⟨S50000x128, .f32⟩ : BufTy).Contents (Elt F) → (⟨S50000x128, .f32⟩ : BufTy).Contents (Elt F)),
    unary main_arg18 main_v100 (broadcastInDim S1x128 ![1] bcast_S128_S1x128_1 : (⟨S128, .f32⟩ : BufTy).Contents (Elt F) → (⟨S1x128, .f32⟩ : BufTy).Contents (Elt F)),
    unary main_v100 main_v101 (broadcastInDim S50000x128 ![0, 1] bcast_S1x128_S50000x128_0_1 : (⟨S1x128, .f32⟩ : BufTy).Contents (Elt F) → (⟨S50000x128, .f32⟩ : BufTy).Contents (Elt F)),
    binary main_v99 main_v101 main_v102 (mulf : (⟨S50000x128, .f32⟩ : BufTy).Contents (Elt F) → (⟨S50000x128, .f32⟩ : BufTy).Contents (Elt F) → (⟨S50000x128, .f32⟩ : BufTy).Contents (Elt F)),
    unary main_arg19 main_v103 (broadcastInDim S1x128 ![1] bcast_S128_S1x128_1 : (⟨S128, .f32⟩ : BufTy).Contents (Elt F) → (⟨S1x128, .f32⟩ : BufTy).Contents (Elt F)),
    unary main_v103 main_v104 (broadcastInDim S50000x128 ![0, 1] bcast_S1x128_S50000x128_0_1 : (⟨S1x128, .f32⟩ : BufTy).Contents (Elt F) → (⟨S50000x128, .f32⟩ : BufTy).Contents (Elt F)),
    binary main_v102 main_v104 main_v105 (addf : (⟨S50000x128, .f32⟩ : BufTy).Contents (Elt F) → (⟨S50000x128, .f32⟩ : BufTy).Contents (Elt F) → (⟨S50000x128, .f32⟩ : BufTy).Contents (Elt F)) ]

/-- The node residual: the node features plus the normalized activations. -/
abbrev ops106 : List (HloOp τ sig (Elt F)) :=
  [ binary main_arg0 main_v105 main_v106 (addf : (⟨S50000x128, .f32⟩ : BufTy).Contents (Elt F) → (⟨S50000x128, .f32⟩ : BufTy).Contents (Elt F) → (⟨S50000x128, .f32⟩ : BufTy).Contents (Elt F)) ]

/-- The entry function's 153 operations, in order: the eight stages one after the other. -/
abbrev ops : List (HloOp τ sig (Elt F)) :=
  opsZ ++ (opsH ++ (opsY ++ (ops54 ++ (opsZ2 ++ (opsH2 ++ (opsY2 ++ ops106))))))

-- one hundred and fifty-three binds re-associated: the rewriting recurses once per statement
set_option maxRecDepth 8192 in
set_option maxHeartbeats 4000000 in
/-- The entry function is that straight line: its three windows and the called functions unfolded at their calls, both
    sides are one chain of host steps once sequencing is re-associated. -/
theorem main_eq (c : Dev nD) : main (F := F) c = seq ops := by
  simp only [main, main_part0, main_part1, main_part2, fn_leaky_relu.body, fn_where.body, fn_leaky_relu_0.body,
    fn_where_1.body, bind_assoc, pure_bind]
  rfl

theorem scopedRefs_eq : (Finset.univ.filter fun b : Ref sig .tc => b.isScoped) = ∅ := by decide
theorem scopedSems_eq : (Finset.univ.filter fun sm : SemLoc sig => sm.isScoped .tc) = ∅ := by decide

theorem opsZ_sub : (opsZ : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nary_bufs_sub ..⟩
theorem opsH_sub : (opsH : List (HloOp τ sig (Elt F))).Forall fun op => op.bufs ⊆ tcRefs τ sig :=
  ⟨binary_bufs_sub .., unary_bufs_sub .., unary_bufs_sub .., binary_bufs_sub .., nullary_bufs_sub .., nullary_bufs_sub .., unary_bufs_sub .., binary_bufs_sub .., unary_bufs_sub .., unary_bufs_sub .., binary_bufs_sub .., ternary_bufs_sub .., binary_bufs_sub .., unary_bufs_sub .., unary_bufs_sub .., binary_bufs_sub .., nullary_bufs_sub .., nullary_bufs_sub .., unary_bufs_sub .., binary_bufs_sub .., unary_bufs_sub .., unary_bufs_sub .., binary_bufs_sub .., ternary_bufs_sub .., binary_bufs_sub .., unary_bufs_sub .., unary_bufs_sub .., binary_bufs_sub ..⟩
theorem opsY_sub : (opsY : List (HloOp τ sig (Elt F))).Forall fun op => op.bufs ⊆ tcRefs τ sig :=
  ⟨nullary_bufs_sub .., binary_bufs_sub .., nullary_bufs_sub .., unary_bufs_sub .., binary_bufs_sub .., unary_bufs_sub .., unary_bufs_sub .., binary_bufs_sub .., binary_bufs_sub .., nullary_bufs_sub .., binary_bufs_sub .., nullary_bufs_sub .., unary_bufs_sub .., binary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub ..⟩
theorem ops54_sub : (ops54 : List (HloOp τ sig (Elt F))).Forall fun op => op.bufs ⊆ tcRefs τ sig :=
  binary_bufs_sub ..
theorem opsZ2_sub : (opsZ2 : List (HloOp τ sig (Elt F))).Forall fun op => op.bufs ⊆ tcRefs τ sig :=
  ⟨nullary_bufs_sub .., unary_bufs_sub .., unary_bufs_sub .., ternary_bufs_sub .., nullary_bufs_sub .., unary_bufs_sub .., nullary_bufs_sub .., unary_bufs_sub .., unary_bufs_sub .., ternary_bufs_sub .., nullary_bufs_sub .., unary_bufs_sub .., binary_bufs_sub .., unary_bufs_sub .., binary_bufs_sub .., binary_bufs_sub ..⟩
theorem opsH2_sub : (opsH2 : List (HloOp τ sig (Elt F))).Forall fun op => op.bufs ⊆ tcRefs τ sig :=
  ⟨binary_bufs_sub .., unary_bufs_sub .., unary_bufs_sub .., binary_bufs_sub .., nullary_bufs_sub .., nullary_bufs_sub .., unary_bufs_sub .., binary_bufs_sub .., unary_bufs_sub .., unary_bufs_sub .., binary_bufs_sub .., ternary_bufs_sub .., binary_bufs_sub .., unary_bufs_sub .., unary_bufs_sub .., binary_bufs_sub .., nullary_bufs_sub .., nullary_bufs_sub .., unary_bufs_sub .., binary_bufs_sub .., unary_bufs_sub .., unary_bufs_sub .., binary_bufs_sub .., ternary_bufs_sub .., binary_bufs_sub .., unary_bufs_sub .., unary_bufs_sub .., binary_bufs_sub ..⟩
theorem opsY2_sub : (opsY2 : List (HloOp τ sig (Elt F))).Forall fun op => op.bufs ⊆ tcRefs τ sig :=
  ⟨nullary_bufs_sub .., binary_bufs_sub .., nullary_bufs_sub .., unary_bufs_sub .., binary_bufs_sub .., unary_bufs_sub .., unary_bufs_sub .., binary_bufs_sub .., binary_bufs_sub .., nullary_bufs_sub .., binary_bufs_sub .., nullary_bufs_sub .., unary_bufs_sub .., binary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub ..⟩
theorem ops106_sub : (ops106 : List (HloOp τ sig (Elt F))).Forall fun op => op.bufs ⊆ tcRefs τ sig :=
  binary_bufs_sub ..

theorem ops_sub : (ops : List (HloOp τ sig (Elt F))).Forall fun op => op.bufs ⊆ tcRefs τ sig :=
  List.forall_iff_forall_mem.mpr fun op h => by
    simp only [ops, List.mem_append] at h
    rcases h with h | h | h | h | h | h | h | h
    exacts [List.forall_iff_forall_mem.mp opsZ_sub op h, List.forall_iff_forall_mem.mp opsH_sub op h, List.forall_iff_forall_mem.mp opsY_sub op h, List.forall_iff_forall_mem.mp ops54_sub op h, List.forall_iff_forall_mem.mp opsZ2_sub op h, List.forall_iff_forall_mem.mp opsH2_sub op h, List.forall_iff_forall_mem.mp opsY2_sub op h, List.forall_iff_forall_mem.mp ops106_sub op h]

/-- The reference each operation writes, in order: every operation writes exactly one, and no two the same. -/
abbrev ws : List (Ref sig .tc) :=
  [
    main_c, main_v0, main_v1, main_c_0, main_v2, main_v3, main_v4, main_v5, main_v6, main_c_1, main_v7, main_v8, main_c_2, main_v9, main_v10,
    main_v11, main_v12, main_v13, main_v14, main_v15, main_v16, main_v17, main_v18, main_cst, main_call0_cst, main_call0_v0, main_call0_v1,
    main_call0_v2, main_call0_v3, main_call0_v4, main_v19, main_v20, main_v21, main_v22, main_v23, main_cst_3, main_call1_cst, main_call1_v0,
    main_call1_v1, main_call1_v2, main_call1_v3, main_call1_v4, main_v24, main_v25, main_v26, main_v27, main_v28, main_cst_4, main_v29, main_cst_5,
    main_v30, main_v31, main_v32, main_v33, main_v34, main_v35, main_cst_6, main_v36, main_cst_7, main_v37, main_v38, main_v39, main_v40, main_v41,
    main_cst_8, main_v42, main_v43, main_v44, main_v45, main_v46, main_v47, main_v48, main_v49, main_v50, main_v51, main_v52, main_v53, main_v54,
    main_cst_9, main_v55, main_v56, main_v57, main_cst_10, main_v58, main_cst_11, main_v59, main_v60, main_v61, main_cst_12, main_v62, main_v63,
    main_v64, main_v65, main_v66, main_v67, main_v68, main_v69, main_v70, main_cst_13, main_call2_cst, main_call2_v0, main_call2_v1, main_call2_v2,
    main_call2_v3, main_call2_v4, main_v71, main_v72, main_v73, main_v74, main_v75, main_cst_14, main_call3_cst, main_call3_v0, main_call3_v1,
    main_call3_v2, main_call3_v3, main_call3_v4, main_v76, main_v77, main_v78, main_v79, main_v80, main_cst_15, main_v81, main_cst_16, main_v82,
    main_v83, main_v84, main_v85, main_v86, main_v87, main_cst_17, main_v88, main_cst_18, main_v89, main_v90, main_v91, main_v92, main_v93,
    main_cst_19, main_v94, main_v95, main_v96, main_v97, main_v98, main_v99, main_v100, main_v101, main_v102, main_v103, main_v104, main_v105,
    main_v106 ]

set_option maxRecDepth 8192 in
/-- The line is in single-assignment form over `ws`. -/
theorem ops_writes : WritesAre (ops : List (HloOp τ sig (Elt F))) ws := by
  repeat (first | exact trivial | refine And.intro rfl ?_)

/-- No operation writes an argument array (nor any reference outside `ws`): it holds at the end what it held at launch. -/
theorem after_ops_keep (V : Valuation τ sig (Elt F)) {r : Ref sig .tc} (h : r ∉ ws) :
    after ops V (Proc.devRef .tc r) = V (Proc.devRef .tc r) :=
  after_of_not_written ops_writes V h

set_option maxRecDepth 8192 in
/-- On every device, for any float values, from any memory with zero counters: every weakly fair execution of the entry
    function terminates with the two results at the fold of the operations over the launch contents and the twenty
    argument arrays unchanged. -/
theorem run (m : (ℓ : Loc nD τ sig) → Buf (Elt F) ℓ) (ρ : Dev nD → PrngReg) :
    θ_run (defs (F := F)) (onTc (τ := τ) (main (F := F))) ⟨m, fun _ => 0, ρ⟩ (fun r => ∀ c : Dev nD,
      r.2.mem ((c.tc : Thread nD τ).loc main_v106) = after ops (launchContents m c) (Proc.devRef .tc main_v106)
      ∧ r.2.mem ((c.tc : Thread nD τ).loc main_v54) = after ops (launchContents m c) (Proc.devRef .tc main_v54)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)) :=
  (θ_run defs _ _).mono (fun _ h c => ⟨h c main_v106, h c main_v54,
      (h c main_arg0).trans (after_ops_keep _ (by decide)),
      (h c main_arg1).trans (after_ops_keep _ (by decide)),
      (h c main_arg2).trans (after_ops_keep _ (by decide)),
      (h c main_arg3).trans (after_ops_keep _ (by decide)),
      (h c main_arg4).trans (after_ops_keep _ (by decide)),
      (h c main_arg5).trans (after_ops_keep _ (by decide)),
      (h c main_arg6).trans (after_ops_keep _ (by decide)),
      (h c main_arg7).trans (after_ops_keep _ (by decide)),
      (h c main_arg8).trans (after_ops_keep _ (by decide)),
      (h c main_arg9).trans (after_ops_keep _ (by decide)),
      (h c main_arg10).trans (after_ops_keep _ (by decide)),
      (h c main_arg11).trans (after_ops_keep _ (by decide)),
      (h c main_arg12).trans (after_ops_keep _ (by decide)),
      (h c main_arg13).trans (after_ops_keep _ (by decide)),
      (h c main_arg14).trans (after_ops_keep _ (by decide)),
      (h c main_arg15).trans (after_ops_keep _ (by decide)),
      (h c main_arg16).trans (after_ops_keep _ (by decide)),
      (h c main_arg17).trans (after_ops_keep _ (by decide)),
      (h c main_arg18).trans (after_ops_keep _ (by decide)),
      (h c main_arg19).trans (after_ops_keep _ (by decide))⟩)
    (run_seq scopedRefs_eq scopedSems_eq defs main (fun _ => ops) main_eq (fun _ => ops_sub) m ρ)

end Cert.ReferenceIdeal.RefRun

end
-- ==== Proof.Ref.Frame.lean ====
import proofs.«170818_j15161234555428_1_alg».proof.Defs
import proofs.«170818_j15161234555428_1_alg».proof.Proof.Gen.Pre_finite_inputs
import proofs.«170818_j15161234555428_1_alg».proof.Proof.Ref.Run

/-!
# The reference's frame

The reference terminates on every weakly fair execution and leaves its twenty argument arrays as they were at launch:
the run's post without its two results, read at the exact reals.
-/

noncomputable section

namespace Cert.ReferenceIdeal.RefRun

open Idealize.ShloMosaic Idealize.ShloMosaic.TcCoe Idealize.SL.Sem

theorem frame_ri : Cert.frame_ReferenceIdeal := fun m g _ =>
  (θ_run Cert.ReferenceIdeal.defs _ _).mono (fun _ h c => (h c).2.2) (run (F := Ideal) m g)

end Cert.ReferenceIdeal.RefRun

end
-- ==== Proof.LibAfterSegment.lean ====
import proofs.«170818_j15161234555428_1_alg».proof.Proof.LibAfterAssign

/-!
# Reading a long straight line of operations one SEGMENT at a time

A line of operations in single-assignment form (`WritesAre ops ws`: the `k`-th operation writes exactly the `k`-th
reference of `ws`) is cut at positions `k` and `k + n`. If no operation from position `k + n` on writes the reference
`y`, the whole line leaves at `y` what the `n` operations from position `k` leave there, run from the contents after the
first `k` operations (`after_segment`). Together with `after_take_at_unwritten` — a reference that no operation from
position `k` on writes holds after the first `k` operations what it holds at the end — a segment's own reading, "its
result is this function of what it found at these references", becomes an equation between the FINAL contents of its
result and the FINAL contents of the references it reads. The segments' equations can then be used in program order,
and no contents at an intermediate position are ever named.
-/

namespace Cert.Lib.AfterAssign

open Idealize.ShloMosaic Idealize.ShloMosaic.StableHlo

variable {τ : Topo} {sig : RefSig} {Val : EltTy → Type}

/-- If no operation from position `k + n` on writes `y`, the whole line leaves at `y` what the segment of `n`
    operations from position `k` leaves there, from the contents after the first `k` operations. -/
theorem after_segment {ops : List (HloOp τ sig Val)} {ws : List (Ref sig .tc)} (h : WritesAre ops ws)
    (k n : Nat) (V : Valuation τ sig Val) {y : Ref sig .tc} (hy : y ∉ ws.drop (k + n)) :
    after ops V (Proc.devRef .tc y)
      = after ((ops.drop k).take n) (after (ops.take k) V) (Proc.devRef .tc y) := by
  have e : after ops V = after (ops.drop (k + n)) (after ((ops.drop k).take n) (after (ops.take k) V)) := by
    rw [after_take_drop k ops V, after_take_drop n (ops.drop k) (after (ops.take k) V), List.drop_drop]
  rw [e]
  exact after_of_not_written (WritesAre.drop (k + n) h) _ hy

end Cert.Lib.AfterAssign
-- ==== Proof.LibNary3.lean ====
import Idealize.ShloMosaic.Lib.StableHlo.Run

/-!
# An operation on a literal family of three operands

The result of an operation whose operands are a literal family of three references, with each operand's contents
taken at its own reference (a tuple built by `Fin.cons`) rather than under a binder over the family's index: a fold
through a line of operations can then go on reading the operands' contents one reference at a time.
-/

namespace Cert.Lib.Nary3

open Idealize.ShloMosaic Idealize.ShloMosaic.StableHlo

variable {τ : Topo} {sig : RefSig} {Val : EltTy → Type} {x a b y : Ref sig .tc}

theorem nary3_result
    (f : ((k : Fin 3) → ((![x, a, b] : Fin 3 → Ref sig .tc) k).ty.Contents Val) → y.ty.Contents Val) (hxs hy)
    (F : Valuation τ sig Val) :
    (nary (τ := τ) ![x, a, b] y f hxs hy).result F (Proc.devRef .tc y)
      = f (Fin.cons (F (Proc.devRef .tc x)) (Fin.cons (F (Proc.devRef .tc a)) (Fin.cons (F (Proc.devRef .tc b)) (fun i => i.elim0)))) := by
  rw [nary_result]; congr 1; funext k; fin_cases k <;> rfl

/-- The same with the result reference left out of the rewriting index, for a single simplification pass. -/
theorem nary3_result'
    (f : ((k : Fin 3) → ((![x, a, b] : Fin 3 → Ref sig .tc) k).ty.Contents Val) → y.ty.Contents Val) (hxs hy)
    (F : Valuation τ sig Val) :
    (nary (τ := τ) ![x, a, b] y f hxs hy).result F (no_index (Proc.devRef .tc y))
      = f (Fin.cons (F (Proc.devRef .tc x)) (Fin.cons (F (Proc.devRef .tc a)) (Fin.cons (F (Proc.devRef .tc b)) (fun i => i.elim0)))) :=
  nary3_result f hxs hy F

end Cert.Lib.Nary3
-- ==== Proof.Ref.Stages.lean ====
import proofs.«170818_j15161234555428_1_alg».proof.Proof.Ref.Run
import proofs.«170818_j15161234555428_1_alg».proof.Proof.LibAfterSegment
import proofs.«170818_j15161234555428_1_alg».proof.Proof.LibNary3

/-!
# The reference's two results as a composition of stage functions

The reference's line of operations is cut at eight buffers: the edge network's input, its output, the normalized edge
activations, the first result (the edge features plus those), the node network's input, its output, the normalized node
activations, and the second result (the node features plus those). Each cut is the value of a named stage function of
the buffers the stage reads; since the line is in single-assignment form, the contents a stage finds are the final
contents, and the two results are the stages composed over the argument arrays. No stage's arithmetic is opened here.
-/

noncomputable section

namespace Cert.ReferenceIdeal.RefRun

open Cert.Lib.AfterAssign Cert.ReferenceIdeal Cert.ReferenceIdeal.Gen Idealize.ShloMosaic Idealize.ShloMosaic.TcCoe Idealize.SL.Sem Idealize.ShloMosaic.StableHlo

variable {F : FTy → Type} [FloatOps F]

/-! ## The stage functions -/

/-- An index vector made a column of in-range row indices: a negative index has the node count added. -/
def wrapIdx (idx : (⟨S640000, .i32⟩ : BufTy).Contents (Elt F)) : (⟨S640000x1, .i32⟩ : BufTy).Contents (Elt F) :=
  broadcastInDim S640000x1 ![0] bcast_S640000_S640000x1_0
    (select (cmpi .slt idx (broadcastInDim S640000 ![] bcast_S_S640000 (constantI S_ 32 0#32)))
      (addi idx (broadcastInDim S640000 ![] bcast_S_S640000 (constantI S_ 32 50000#32))) idx)

/-- The node rows an index vector names, one per edge. -/
def gatherRows (node : (⟨S50000x128, .f32⟩ : BufTy).Contents (Elt F)) (idx : (⟨S640000, .i32⟩ : BufTy).Contents (Elt F)) : (⟨S640000x128, .f32⟩ : BufTy).Contents (Elt F) :=
  Host.gather gather_S50000x128_S640000x1_S640000x128_1_0_n_n_0_1_1128 node (wrapIdx idx)

/-- The edge network's input: per edge, the two gathered node rows and the edge's own features, side by side. -/
def stageZ (node : (⟨S50000x128, .f32⟩ : BufTy).Contents (Elt F)) (edge : (⟨S640000x128, .f32⟩ : BufTy).Contents (Elt F)) (idx1 idx2 : (⟨S640000, .i32⟩ : BufTy).Contents (Elt F)) :
    (⟨S640000x384, .f32⟩ : BufTy).Contents (Elt F) :=
  concatenate S640000x384 1 [⟨S640000x128, gatherRows node idx1⟩, ⟨S640000x128, gatherRows node idx2⟩, ⟨S640000x128, edge⟩]
    concatenates_S640000x128_S640000x128_S640000x128_S640000x384_d1

/-- A vector of 128 column values repeated on every edge row. -/
def rowsE (b : (⟨S128, .f32⟩ : BufTy).Contents (Elt F)) : (⟨S640000x128, .f32⟩ : BufTy).Contents (Elt F) :=
  broadcastInDim S640000x128 ![0, 1] bcast_S1x128_S640000x128_0_1 (broadcastInDim S1x128 ![1] bcast_S128_S1x128_1 b)

/-- A vector of 128 column values repeated on every node row. -/
def rowsN (b : (⟨S128, .f32⟩ : BufTy).Contents (Elt F)) : (⟨S50000x128, .f32⟩ : BufTy).Contents (Elt F) :=
  broadcastInDim S50000x128 ![0, 1] bcast_S1x128_S50000x128_0_1 (broadcastInDim S1x128 ![1] bcast_S128_S1x128_1 b)

/-- The leaky rectifier with slope 0.2 on the edge rows: the entry where it is at least zero, 0.2 times it elsewhere. -/
def leakyE (x : (⟨S640000x128, .f32⟩ : BufTy).Contents (Elt F)) : (⟨S640000x128, .f32⟩ : BufTy).Contents (Elt F) :=
  select (cmpf .oge x (broadcastInDim S640000x128 ![] bcast_S_S640000x128 (constant S_ .f32 0x00000000#32))) x
    (mulf (broadcastInDim S640000x128 ![] bcast_S_S640000x128 (constant S_ .f32 0x3E4CCCCD#32)) x)

/-- The leaky rectifier with slope 0.2 on the node rows. -/
def leakyN (x : (⟨S50000x128, .f32⟩ : BufTy).Contents (Elt F)) : (⟨S50000x128, .f32⟩ : BufTy).Contents (Elt F) :=
  select (cmpf .oge x (broadcastInDim S50000x128 ![] bcast_S_S50000x128 (constant S_ .f32 0x00000000#32))) x
    (mulf (broadcastInDim S50000x128 ![] bcast_S_S50000x128 (constant S_ .f32 0x3E4CCCCD#32)) x)

/-- The edge network: three affine layers, the leaky rectifier after the first two. -/
def stageH (z : (⟨S640000x384, .f32⟩ : BufTy).Contents (Elt F)) (w1 : (⟨S384x128, .f32⟩ : BufTy).Contents (Elt F)) (b1 : (⟨S128, .f32⟩ : BufTy).Contents (Elt F))
    (w2 : (⟨S128x128, .f32⟩ : BufTy).Contents (Elt F)) (b2 : (⟨S128, .f32⟩ : BufTy).Contents (Elt F)) (w3 : (⟨S128x128, .f32⟩ : BufTy).Contents (Elt F)) (b3 : (⟨S128, .f32⟩ : BufTy).Contents (Elt F)) :
    (⟨S640000x128, .f32⟩ : BufTy).Contents (Elt F) :=
  addf (Host.dotGeneral dot_S640000x128_S128x128_S640000x128_1_0_0_1_n_n none
      (leakyE (addf (Host.dotGeneral dot_S640000x128_S128x128_S640000x128_1_0_0_1_n_n none
          (leakyE (addf (Host.dotGeneral dot_S640000x384_S384x128_S640000x128_1_0_0_1_n_n none z w1) (rowsE b1))) w2) (rowsE b2))) w3)
    (rowsE b3)

/-- The column means of the edge activations: the column sums divided by the row count 640000. -/
def meanE (h : (⟨S640000x128, .f32⟩ : BufTy).Contents (Elt F)) : (⟨S128, .f32⟩ : BufTy).Contents (Elt F) :=
  Host.divf (Host.reduceAdd h (constant S_ .f32 0x00000000#32) reducesTo_S640000x128_S128_d0 h_S_)
    (broadcastInDim S128 ![] bcast_S_S128 (constant S_ .f32 0x491C4000#32))

/-- The column variances of the edge activations: the column sums of the squared centred entries divided by 640000. -/
def varE (h : (⟨S640000x128, .f32⟩ : BufTy).Contents (Elt F)) : (⟨S128, .f32⟩ : BufTy).Contents (Elt F) :=
  Host.divf (Host.reduceAdd (mulf (subf h (rowsE (meanE h))) (subf h (rowsE (meanE h)))) (constant S_ .f32 0x00000000#32)
      reducesTo_S640000x128_S128_d0 h_S_)
    (broadcastInDim S128 ![] bcast_S_S128 (constant S_ .f32 0x491C4000#32))

/-- The edge batch normalization: centred, times the reciprocal root of the variance plus 1e-5, times the scale, plus
    the shift. -/
def stageY (h : (⟨S640000x128, .f32⟩ : BufTy).Contents (Elt F)) (gamma beta : (⟨S128, .f32⟩ : BufTy).Contents (Elt F)) : (⟨S640000x128, .f32⟩ : BufTy).Contents (Elt F) :=
  addf (mulf (mulf (subf h (rowsE (meanE h)))
        (rowsE (Host.rsqrt (addf (varE h) (broadcastInDim S128 ![] bcast_S_S128 (constant S_ .f32 0x3727C5AC#32))))))
      (rowsE gamma))
    (rowsE beta)

/-- The number of edges that name each node in the first index vector, at least one, as a column. -/
def degree (idx1 : (⟨S640000, .i32⟩ : BufTy).Contents (Elt F)) : (⟨S50000x1, .f32⟩ : BufTy).Contents (Elt F) :=
  maximumf
    (Host.scatterAdd scatter_S50000x1_S640000x1_S640000x1_1_0_0_1
      (broadcastInDim S50000x1 ![] bcast_S_S50000x1 (constant S_ .f32 0x00000000#32))
      (broadcastInDim S640000x1 ![0] bcast_S640000_S640000x1_0 idx1)
      (broadcastInDim S640000x1 ![] bcast_S_S640000x1 (constant S_ .f32 0x3F800000#32)))
    (broadcastInDim S50000x1 ![] bcast_S_S50000x1 (constant S_ .f32 0x3F800000#32))

/-- The node network's input: per node, the mean of the normalized edge activations over the edges that name it in the
    first index vector (their sum divided by their count, the count at least one), and the node's own features, side by
    side. -/
def stageZ2 (y : (⟨S640000x128, .f32⟩ : BufTy).Contents (Elt F)) (idx1 : (⟨S640000, .i32⟩ : BufTy).Contents (Elt F)) (node : (⟨S50000x128, .f32⟩ : BufTy).Contents (Elt F)) :
    (⟨S50000x256, .f32⟩ : BufTy).Contents (Elt F) :=
  concatenate S50000x256 1
    [⟨S50000x128, Host.divf
        (Host.scatterAdd scatter_S50000x128_S640000x1_S640000x128_1_0_0_1
          (broadcastInDim S50000x128 ![] bcast_S_S50000x128 (constant S_ .f32 0x00000000#32))
          (broadcastInDim S640000x1 ![0] bcast_S640000_S640000x1_0 idx1) y)
        (broadcastInDim S50000x128 ![0, 1] bcast_S50000x1_S50000x128_0_1 (degree idx1))⟩,
     ⟨S50000x128, node⟩]
    concatenates_S50000x128_S50000x128_S50000x256_d1

/-- The node network: three affine layers, the leaky rectifier after the first two. -/
def stageH2 (z : (⟨S50000x256, .f32⟩ : BufTy).Contents (Elt F)) (w1 : (⟨S256x128, .f32⟩ : BufTy).Contents (Elt F)) (b1 : (⟨S128, .f32⟩ : BufTy).Contents (Elt F))
    (w2 : (⟨S128x128, .f32⟩ : BufTy).Contents (Elt F)) (b2 : (⟨S128, .f32⟩ : BufTy).Contents (Elt F)) (w3 : (⟨S128x128, .f32⟩ : BufTy).Contents (Elt F)) (b3 : (⟨S128, .f32⟩ : BufTy).Contents (Elt F)) :
    (⟨S50000x128, .f32⟩ : BufTy).Contents (Elt F) :=
  addf (Host.dotGeneral dot_S50000x128_S128x128_S50000x128_1_0_0_1_n_n none
      (leakyN (addf (Host.dotGeneral dot_S50000x128_S128x128_S50000x128_1_0_0_1_n_n none
          (leakyN (addf (Host.dotGeneral dot_S50000x256_S256x128_S50000x128_1_0_0_1_n_n none z w1) (rowsN b1))) w2) (rowsN b2))) w3)
    (rowsN b3)

/-- The column means of the node activations: the column sums divided by the row count 50000. -/
def meanN (h : (⟨S50000x128, .f32⟩ : BufTy).Contents (Elt F)) : (⟨S128, .f32⟩ : BufTy).Contents (Elt F) :=
  Host.divf (Host.reduceAdd h (constant S_ .f32 0x00000000#32) reducesTo_S50000x128_S128_d0 h_S_)
    (broadcastInDim S128 ![] bcast_S_S128 (constant S_ .f32 0x47435000#32))

/-- The column variances of the node activations. -/
def varN (h : (⟨S50000x128, .f32⟩ : BufTy).Contents (Elt F)) : (⟨S128, .f32⟩ : BufTy).Contents (Elt F) :=
  Host.divf (Host.reduceAdd (mulf (subf h (rowsN (meanN h))) (subf h (rowsN (meanN h)))) (constant S_ .f32 0x00000000#32)
      reducesTo_S50000x128_S128_d0 h_S_)
    (broadcastInDim S128 ![] bcast_S_S128 (constant S_ .f32 0x47435000#32))

/-- The node batch normalization. -/
def stageY2 (h : (⟨S50000x128, .f32⟩ : BufTy).Contents (Elt F)) (gamma beta : (⟨S128, .f32⟩ : BufTy).Contents (Elt F)) : (⟨S50000x128, .f32⟩ : BufTy).Contents (Elt F) :=
  addf (mulf (mulf (subf h (rowsN (meanN h)))
        (rowsN (Host.rsqrt (addf (varN h) (broadcastInDim S128 ![] bcast_S_S128 (constant S_ .f32 0x3727C5AC#32))))))
      (rowsN gamma))
    (rowsN beta)

/-! ## Each stage read from any contents -/

attribute [local irreducible] Host.gather concatenate broadcastInDim in
set_option maxRecDepth 8192 in
set_option maxHeartbeats 2000000 in
theorem opsZ_out (W : Valuation τ sig (Elt F)) :
    after opsZ W (Proc.devRef .tc main_v14) = stageZ (W (Proc.devRef .tc main_arg0)) (W (Proc.devRef .tc main_arg1)) (W (Proc.devRef .tc main_arg2)) (W (Proc.devRef .tc main_arg3)) := by
  simp (disch := decide) only [after_cons, after_nil, Cert.Lib.Nary3.nary3_result',
    nullary_result', unary_result', binary_result', ternary_result',
    nullary_result_ne', unary_result_ne', binary_result_ne', ternary_result_ne', nary_result_ne']
  rfl
attribute [local irreducible] Host.gather concatenate broadcastInDim in
set_option maxRecDepth 8192 in
set_option maxHeartbeats 2000000 in
theorem opsH_out (W : Valuation τ sig (Elt F)) :
    after opsH W (Proc.devRef .tc main_v28) = stageH (W (Proc.devRef .tc main_v14)) (W (Proc.devRef .tc main_arg4)) (W (Proc.devRef .tc main_arg5)) (W (Proc.devRef .tc main_arg6)) (W (Proc.devRef .tc main_arg7)) (W (Proc.devRef .tc main_arg8)) (W (Proc.devRef .tc main_arg9)) := by
  after_results_simp
  rfl

attribute [local irreducible] Host.gather concatenate broadcastInDim in
set_option maxRecDepth 8192 in
set_option maxHeartbeats 2000000 in
theorem opsY_out (W : Valuation τ sig (Elt F)) :
    after opsY W (Proc.devRef .tc main_v53) = stageY (W (Proc.devRef .tc main_v28)) (W (Proc.devRef .tc main_arg16)) (W (Proc.devRef .tc main_arg17)) := by
  after_results_simp
  rfl

attribute [local irreducible] Host.gather concatenate broadcastInDim in
set_option maxRecDepth 8192 in
set_option maxHeartbeats 2000000 in
theorem opsZ2_out (W : Valuation τ sig (Elt F)) :
    after opsZ2 W (Proc.devRef .tc main_v66) = stageZ2 (W (Proc.devRef .tc main_v53)) (W (Proc.devRef .tc main_arg2)) (W (Proc.devRef .tc main_arg0)) := by
  after_results_simp
  rfl

attribute [local irreducible] Host.gather concatenate broadcastInDim in
set_option maxRecDepth 8192 in
set_option maxHeartbeats 2000000 in
theorem opsH2_out (W : Valuation τ sig (Elt F)) :
    after opsH2 W (Proc.devRef .tc main_v80) = stageH2 (W (Proc.devRef .tc main_v66)) (W (Proc.devRef .tc main_arg10)) (W (Proc.devRef .tc main_arg11)) (W (Proc.devRef .tc main_arg12)) (W (Proc.devRef .tc main_arg13)) (W (Proc.devRef .tc main_arg14)) (W (Proc.devRef .tc main_arg15)) := by
  after_results_simp
  rfl

attribute [local irreducible] Host.gather concatenate broadcastInDim in
set_option maxRecDepth 8192 in
set_option maxHeartbeats 2000000 in
theorem opsY2_out (W : Valuation τ sig (Elt F)) :
    after opsY2 W (Proc.devRef .tc main_v105) = stageY2 (W (Proc.devRef .tc main_v80)) (W (Proc.devRef .tc main_arg18)) (W (Proc.devRef .tc main_arg19)) := by
  after_results_simp
  rfl

theorem ops54_out (W : Valuation τ sig (Elt F)) :
    after ops54 W (Proc.devRef .tc main_v54) = addf (W (Proc.devRef .tc main_arg1)) (W (Proc.devRef .tc main_v53)) := by
  after_results_simp

theorem ops106_out (W : Valuation τ sig (Elt F)) :
    after ops106 W (Proc.devRef .tc main_v106) = addf (W (Proc.devRef .tc main_arg0)) (W (Proc.devRef .tc main_v105)) := by
  after_results_simp

/-! ## The segments' places in the line -/

theorem seg_Z : ((ops : List (HloOp τ sig (Elt F))).drop 0).take 19 = opsZ := rfl
theorem seg_H : ((ops : List (HloOp τ sig (Elt F))).drop 19).take 28 = opsH := rfl
theorem seg_Y : ((ops : List (HloOp τ sig (Elt F))).drop 47).take 30 = opsY := rfl
theorem seg_54 : ((ops : List (HloOp τ sig (Elt F))).drop 77).take 1 = ops54 := rfl
theorem seg_Z2 : ((ops : List (HloOp τ sig (Elt F))).drop 78).take 16 = opsZ2 := rfl
theorem seg_H2 : ((ops : List (HloOp τ sig (Elt F))).drop 94).take 28 = opsH2 := rfl
theorem seg_Y2 : ((ops : List (HloOp τ sig (Elt F))).drop 122).take 30 = opsY2 := rfl
theorem seg_106 : ((ops : List (HloOp τ sig (Elt F))).drop 152).take 1 = ops106 := rfl

/-! ## Each cut at the end of the whole line

The line is in single-assignment form, so a stage's result is never written again and what the stage read is never
written after it: the final contents of its result are the stage function of the final contents of what it reads, and an
argument array's final contents are its launch contents. -/

set_option maxRecDepth 8192 in
theorem v14_eq (V : Valuation τ sig (Elt F)) :
    after ops V (Proc.devRef .tc main_v14) = stageZ (V (Proc.devRef .tc main_arg0)) (V (Proc.devRef .tc main_arg1)) (V (Proc.devRef .tc main_arg2)) (V (Proc.devRef .tc main_arg3)) := by
  rw [after_segment ops_writes 0 19 V (y := main_v14) (by decide),
    seg_Z,
    opsZ_out,
    after_take_at_unwritten ops_writes 0 V (a := main_arg0) (by decide),
    after_take_at_unwritten ops_writes 0 V (a := main_arg1) (by decide),
    after_take_at_unwritten ops_writes 0 V (a := main_arg2) (by decide),
    after_take_at_unwritten ops_writes 0 V (a := main_arg3) (by decide),
    after_ops_keep V (r := main_arg0) (by decide),
    after_ops_keep V (r := main_arg1) (by decide),
    after_ops_keep V (r := main_arg2) (by decide),
    after_ops_keep V (r := main_arg3) (by decide)]

set_option maxRecDepth 8192 in
theorem v28_eq (V : Valuation τ sig (Elt F)) :
    after ops V (Proc.devRef .tc main_v28) = stageH (after ops V (Proc.devRef .tc main_v14)) (V (Proc.devRef .tc main_arg4)) (V (Proc.devRef .tc main_arg5)) (V (Proc.devRef .tc main_arg6)) (V (Proc.devRef .tc main_arg7)) (V (Proc.devRef .tc main_arg8)) (V (Proc.devRef .tc main_arg9)) := by
  rw [after_segment ops_writes 19 28 V (y := main_v28) (by decide),
    seg_H,
    opsH_out,
    after_take_at_unwritten ops_writes 19 V (a := main_v14) (by decide),
    after_take_at_unwritten ops_writes 19 V (a := main_arg4) (by decide),
    after_take_at_unwritten ops_writes 19 V (a := main_arg5) (by decide),
    after_take_at_unwritten ops_writes 19 V (a := main_arg6) (by decide),
    after_take_at_unwritten ops_writes 19 V (a := main_arg7) (by decide),
    after_take_at_unwritten ops_writes 19 V (a := main_arg8) (by decide),
    after_take_at_unwritten ops_writes 19 V (a := main_arg9) (by decide),
    after_ops_keep V (r := main_arg4) (by decide),
    after_ops_keep V (r := main_arg5) (by decide),
    after_ops_keep V (r := main_arg6) (by decide),
    after_ops_keep V (r := main_arg7) (by decide),
    after_ops_keep V (r := main_arg8) (by decide),
    after_ops_keep V (r := main_arg9) (by decide)]

set_option maxRecDepth 8192 in
theorem v53_eq (V : Valuation τ sig (Elt F)) :
    after ops V (Proc.devRef .tc main_v53) = stageY (after ops V (Proc.devRef .tc main_v28)) (V (Proc.devRef .tc main_arg16)) (V (Proc.devRef .tc main_arg17)) := by
  rw [after_segment ops_writes 47 30 V (y := main_v53) (by decide),
    seg_Y,
    opsY_out,
    after_take_at_unwritten ops_writes 47 V (a := main_v28) (by decide),
    after_take_at_unwritten ops_writes 47 V (a := main_arg16) (by decide),
    after_take_at_unwritten ops_writes 47 V (a := main_arg17) (by decide),
    after_ops_keep V (r := main_arg16) (by decide),
    after_ops_keep V (r := main_arg17) (by decide)]

set_option maxRecDepth 8192 in
theorem v54_eq (V : Valuation τ sig (Elt F)) :
    after ops V (Proc.devRef .tc main_v54) = addf (V (Proc.devRef .tc main_arg1)) (after ops V (Proc.devRef .tc main_v53)) := by
  rw [after_segment ops_writes 77 1 V (y := main_v54) (by decide),
    seg_54,
    ops54_out,
    after_take_at_unwritten ops_writes 77 V (a := main_arg1) (by decide),
    after_take_at_unwritten ops_writes 77 V (a := main_v53) (by decide),
    after_ops_keep V (r := main_arg1) (by decide)]

set_option maxRecDepth 8192 in
theorem v66_eq (V : Valuation τ sig (Elt F)) :
    after ops V (Proc.devRef .tc main_v66) = stageZ2 (after ops V (Proc.devRef .tc main_v53)) (V (Proc.devRef .tc main_arg2)) (V (Proc.devRef .tc main_arg0)) := by
  rw [after_segment ops_writes 78 16 V (y := main_v66) (by decide),
    seg_Z2,
    opsZ2_out,
    after_take_at_unwritten ops_writes 78 V (a := main_v53) (by decide),
    after_take_at_unwritten ops_writes 78 V (a := main_arg2) (by decide),
    after_take_at_unwritten ops_writes 78 V (a := main_arg0) (by decide),
    after_ops_keep V (r := main_arg2) (by decide),
    after_ops_keep V (r := main_arg0) (by decide)]

set_option maxRecDepth 8192 in
theorem v80_eq (V : Valuation τ sig (Elt F)) :
    after ops V (Proc.devRef .tc main_v80) = stageH2 (after ops V (Proc.devRef .tc main_v66)) (V (Proc.devRef .tc main_arg10)) (V (Proc.devRef .tc main_arg11)) (V (Proc.devRef .tc main_arg12)) (V (Proc.devRef .tc main_arg13)) (V (Proc.devRef .tc main_arg14)) (V (Proc.devRef .tc main_arg15)) := by
  rw [after_segment ops_writes 94 28 V (y := main_v80) (by decide),
    seg_H2,
    opsH2_out,
    after_take_at_unwritten ops_writes 94 V (a := main_v66) (by decide),
    after_take_at_unwritten ops_writes 94 V (a := main_arg10) (by decide),
    after_take_at_unwritten ops_writes 94 V (a := main_arg11) (by decide),
    after_take_at_unwritten ops_writes 94 V (a := main_arg12) (by decide),
    after_take_at_unwritten ops_writes 94 V (a := main_arg13) (by decide),
    after_take_at_unwritten ops_writes 94 V (a := main_arg14) (by decide),
    after_take_at_unwritten ops_writes 94 V (a := main_arg15) (by decide),
    after_ops_keep V (r := main_arg10) (by decide),
    after_ops_keep V (r := main_arg11) (by decide),
    after_ops_keep V (r := main_arg12) (by decide),
    after_ops_keep V (r := main_arg13) (by decide),
    after_ops_keep V (r := main_arg14) (by decide),
    after_ops_keep V (r := main_arg15) (by decide)]

set_option maxRecDepth 8192 in
theorem v105_eq (V : Valuation τ sig (Elt F)) :
    after ops V (Proc.devRef .tc main_v105) = stageY2 (after ops V (Proc.devRef .tc main_v80)) (V (Proc.devRef .tc main_arg18)) (V (Proc.devRef .tc main_arg19)) := by
  rw [after_segment ops_writes 122 30 V (y := main_v105) (by decide),
    seg_Y2,
    opsY2_out,
    after_take_at_unwritten ops_writes 122 V (a := main_v80) (by decide),
    after_take_at_unwritten ops_writes 122 V (a := main_arg18) (by decide),
    after_take_at_unwritten ops_writes 122 V (a := main_arg19) (by decide),
    after_ops_keep V (r := main_arg18) (by decide),
    after_ops_keep V (r := main_arg19) (by decide)]

set_option maxRecDepth 8192 in
theorem v106_eq (V : Valuation τ sig (Elt F)) :
    after ops V (Proc.devRef .tc main_v106) = addf (V (Proc.devRef .tc main_arg0)) (after ops V (Proc.devRef .tc main_v105)) := by
  rw [after_segment ops_writes 152 1 V (y := main_v106) (by decide),
    seg_106,
    ops106_out,
    after_take_at_unwritten ops_writes 152 V (a := main_arg0) (by decide),
    after_take_at_unwritten ops_writes 152 V (a := main_v105) (by decide),
    after_ops_keep V (r := main_arg0) (by decide)]

/-! ## The two results -/

/-- The normalized edge activations, as the first three stages composed over the argument arrays. -/
theorem v53_args (V : Valuation τ sig (Elt F)) :
    after ops V (Proc.devRef .tc main_v53)
      = stageY (stageH (stageZ (V (Proc.devRef .tc main_arg0)) (V (Proc.devRef .tc main_arg1)) (V (Proc.devRef .tc main_arg2)) (V (Proc.devRef .tc main_arg3)))
            (V (Proc.devRef .tc main_arg4)) (V (Proc.devRef .tc main_arg5)) (V (Proc.devRef .tc main_arg6)) (V (Proc.devRef .tc main_arg7)) (V (Proc.devRef .tc main_arg8)) (V (Proc.devRef .tc main_arg9)))
          (V (Proc.devRef .tc main_arg16)) (V (Proc.devRef .tc main_arg17)) := by
  rw [v53_eq, v28_eq, v14_eq]

/-- The second returned value (the new edge features): the edge features plus the normalized edge activations. -/
theorem result_v54 (V : Valuation τ sig (Elt F)) :
    after ops V (Proc.devRef .tc main_v54)
      = addf (V (Proc.devRef .tc main_arg1))
        (stageY (stageH (stageZ (V (Proc.devRef .tc main_arg0)) (V (Proc.devRef .tc main_arg1)) (V (Proc.devRef .tc main_arg2)) (V (Proc.devRef .tc main_arg3)))
            (V (Proc.devRef .tc main_arg4)) (V (Proc.devRef .tc main_arg5)) (V (Proc.devRef .tc main_arg6)) (V (Proc.devRef .tc main_arg7)) (V (Proc.devRef .tc main_arg8)) (V (Proc.devRef .tc main_arg9)))
          (V (Proc.devRef .tc main_arg16)) (V (Proc.devRef .tc main_arg17))) := by
  rw [v54_eq, v53_args]

/-- The first returned value (the new node features): the node features plus the normalized node activations, which are
    the last three stages composed over the normalized edge activations and the argument arrays. -/
theorem result_v106 (V : Valuation τ sig (Elt F)) :
    after ops V (Proc.devRef .tc main_v106)
      = addf (V (Proc.devRef .tc main_arg0))
        (stageY2 (stageH2 (stageZ2
          (stageY (stageH (stageZ (V (Proc.devRef .tc main_arg0)) (V (Proc.devRef .tc main_arg1)) (V (Proc.devRef .tc main_arg2)) (V (Proc.devRef .tc main_arg3)))
            (V (Proc.devRef .tc main_arg4)) (V (Proc.devRef .tc main_arg5)) (V (Proc.devRef .tc main_arg6)) (V (Proc.devRef .tc main_arg7)) (V (Proc.devRef .tc main_arg8)) (V (Proc.devRef .tc main_arg9)))
          (V (Proc.devRef .tc main_arg16)) (V (Proc.devRef .tc main_arg17)))
            (V (Proc.devRef .tc main_arg2)) (V (Proc.devRef .tc main_arg0)))
          (V (Proc.devRef .tc main_arg10)) (V (Proc.devRef .tc main_arg11)) (V (Proc.devRef .tc main_arg12)) (V (Proc.devRef .tc main_arg13)) (V (Proc.devRef .tc main_arg14)) (V (Proc.devRef .tc main_arg15)))
        (V (Proc.devRef .tc main_arg18)) (V (Proc.devRef .tc main_arg19))) := by
  rw [v106_eq, v105_eq, v80_eq, v66_eq, v53_args]

end Cert.ReferenceIdeal.RefRun

end
-- ==== Proof.FiniteInputs.lean ====
import proofs.«170818_j15161234555428_1_alg».proof.Pre_finite_inputs
import proofs.«170818_j15161234555428_1_alg».proof.Proof.Gen.Pre_finite_inputs
import Idealize.ShloMosaic.Lib.ReduceAll
import Idealize.ShloMosaic.Lib.ValueIdx

/-!
# Finite inputs are real numbers

The precondition says, of every float argument, that all its entries have an absolute value
below `+∞`. On the extended reals `|x| = max x (-x)`, and `max x (-x) < ⊤` rules out both
`⊤` and `⊥`, so every entry of every float argument is a real number. The precondition is one
conjunction, by `and`, of one "for all entries" per argument; it is taken apart here, one
argument at a time.
-/

namespace Cert.Pre_finite_inputs

open Idealize.ShloMosaic

/-- The shape of a scalar has one index. -/
instance subsingleton_S_Idx : Subsingleton S_.Idx := ⟨fun a b => funext fun d => d.elim0⟩

/-- The word `0x7F800000` is `+∞`. -/
theorem inf_word : Ideal.ofBits .f32 0x7F800000#32 = (⊤ : EReal) := by
  simp [Ideal.ofBits, Ideal.ieee]

/-- An extended real of absolute value below `+∞` is a real number. -/
theorem real_of_abs_lt_top (x : EReal) (h : max x (-x) < ⊤) : ∃ r : ℝ, x = (r : EReal) := by
  induction x using EReal.rec with
  | bot => simp at h
  | coe r => exact ⟨r, rfl⟩
  | top => simp at h

/-- One entry: the comparison `|x| < +∞` answering `1` makes `x` real. -/
theorem entry_real (x : Ideal .f32)
    (h : FloatOps.cmpf .olt (FloatOps.hostAbsf x) (FloatOps.ofBits (F := Ideal) .f32 0x7F800000#32) = 1#1) :
    ∃ r : ℝ, x = (r : EReal) := by
  refine real_of_abs_lt_top x ?_
  have h' : Ideal.cmp .olt (max x (-x)) (Ideal.ofBits .f32 0x7F800000#32) = 1#1 := h
  rw [inf_word] at h'
  unfold Ideal.cmp at h'
  by_contra hn
  simp [hn] at h'

/-- One argument: "all entries have `|x| < +∞`" makes every entry real. -/
theorem all_real {s : Shape} {axes : List (Fin s.rank)} (x : FVec Ideal s .f32)
    (hb : S_.BroadcastsInDim s (![] : Fin 0 → Fin s.rank)) (hr : s.ReducesTo axes S_) (hu : 0 < S_.numel)
    (e : Host.reduce IntOp.andi
        (cmpf .olt (Host.absf x) (broadcastInDim s ![] hb (constant S_ .f32 0x7F800000#32)))
        (constantI S_ 1 1#1) hr hu ValueIdx.ix0 = 1#1) (i : s.Idx) :
    ∃ r : ℝ, x i = (r : EReal) :=
  entry_real (x i) (Host.reduce_andi_all _ _ hr hu ValueIdx.ix0 e i)

variable [Facts]

/-- Under the precondition every entry of every float argument is a real number. -/
theorem finite_inputs_real
    (a0 : FVec Ideal S50000x128 .f32) (a1 : FVec Ideal S640000x128 .f32) (a2 : IVec S640000 32) (a3 : IVec S640000 32) (a4 : FVec Ideal S384x128 .f32) (a5 : FVec Ideal S128 .f32) (a6 : FVec Ideal S128x128 .f32) (a7 : FVec Ideal S128 .f32) (a8 : FVec Ideal S128x128 .f32) (a9 : FVec Ideal S128 .f32) (a10 : FVec Ideal S256x128 .f32) (a11 : FVec Ideal S128 .f32) (a12 : FVec Ideal S128x128 .f32) (a13 : FVec Ideal S128 .f32) (a14 : FVec Ideal S128x128 .f32) (a15 : FVec Ideal S128 .f32) (a16 : FVec Ideal S128 .f32) (a17 : FVec Ideal S128 .f32) (a18 : FVec Ideal S128 .f32) (a19 : FVec Ideal S128 .f32)
    (h : fn (F := Ideal) a0 a1 a2 a3 a4 a5 a6 a7 a8 a9 a10 a11 a12 a13 a14 a15 a16 a17 a18 a19 = (fun _ => 1#1)) :
    (∀ i, ∃ r : ℝ, a0 i = (r : EReal))
      ∧ (∀ i, ∃ r : ℝ, a1 i = (r : EReal))
      ∧ (∀ i, ∃ r : ℝ, a4 i = (r : EReal))
      ∧ (∀ i, ∃ r : ℝ, a5 i = (r : EReal))
      ∧ (∀ i, ∃ r : ℝ, a6 i = (r : EReal))
      ∧ (∀ i, ∃ r : ℝ, a7 i = (r : EReal))
      ∧ (∀ i, ∃ r : ℝ, a8 i = (r : EReal))
      ∧ (∀ i, ∃ r : ℝ, a9 i = (r : EReal))
      ∧ (∀ i, ∃ r : ℝ, a10 i = (r : EReal))
      ∧ (∀ i, ∃ r : ℝ, a11 i = (r : EReal))
      ∧ (∀ i, ∃ r : ℝ, a12 i = (r : EReal))
      ∧ (∀ i, ∃ r : ℝ, a13 i = (r : EReal))
      ∧ (∀ i, ∃ r : ℝ, a14 i = (r : EReal))
      ∧ (∀ i, ∃ r : ℝ, a15 i = (r : EReal))
      ∧ (∀ i, ∃ r : ℝ, a16 i = (r : EReal))
      ∧ (∀ i, ∃ r : ℝ, a17 i = (r : EReal))
      ∧ (∀ i, ∃ r : ℝ, a18 i = (r : EReal))
      ∧ (∀ i, ∃ r : ℝ, a19 i = (r : EReal)) := by
  have h0 := congrFun h ValueIdx.ix0
  dsimp only [fn, fn_part1, fn_part2, fn_part3, fn_part4, fn_part5, andi] at h0
  obtain ⟨h0, e19⟩ := IntOp.andi_eq_one.1 h0
  obtain ⟨h0, e18⟩ := IntOp.andi_eq_one.1 h0
  obtain ⟨h0, e17⟩ := IntOp.andi_eq_one.1 h0
  obtain ⟨h0, e16⟩ := IntOp.andi_eq_one.1 h0
  obtain ⟨h0, e15⟩ := IntOp.andi_eq_one.1 h0
  obtain ⟨h0, e14⟩ := IntOp.andi_eq_one.1 h0
  obtain ⟨h0, e13⟩ := IntOp.andi_eq_one.1 h0
  obtain ⟨h0, e12⟩ := IntOp.andi_eq_one.1 h0
  obtain ⟨h0, e11⟩ := IntOp.andi_eq_one.1 h0
  obtain ⟨h0, e10⟩ := IntOp.andi_eq_one.1 h0
  obtain ⟨h0, e9⟩ := IntOp.andi_eq_one.1 h0
  obtain ⟨h0, e8⟩ := IntOp.andi_eq_one.1 h0
  obtain ⟨h0, e7⟩ := IntOp.andi_eq_one.1 h0
  obtain ⟨h0, e6⟩ := IntOp.andi_eq_one.1 h0
  obtain ⟨h0, e5⟩ := IntOp.andi_eq_one.1 h0
  obtain ⟨h0, e4⟩ := IntOp.andi_eq_one.1 h0
  obtain ⟨h0, e1⟩ := IntOp.andi_eq_one.1 h0
  exact ⟨all_real a0 _ _ _ h0,
    all_real a1 _ _ _ e1,
    all_real a4 _ _ _ e4,
    all_real a5 _ _ _ e5,
    all_real a6 _ _ _ e6,
    all_real a7 _ _ _ e7,
    all_real a8 _ _ _ e8,
    all_real a9 _ _ _ e9,
    all_real a10 _ _ _ e10,
    all_real a11 _ _ _ e11,
    all_real a12 _ _ _ e12,
    all_real a13 _ _ _ e13,
    all_real a14 _ _ _ e14,
    all_real a15 _ _ _ e15,
    all_real a16 _ _ _ e16,
    all_real a17 _ _ _ e17,
    all_real a18 _ _ _ e18,
    all_real a19 _ _ _ e19⟩

end Cert.Pre_finite_inputs
-- ==== Proof.LibRealClosure.lean ====
import Idealize.ShloMosaic.PureOps.Ideal

/-!
# Extended reals that are real, and what keeps them real

`IsReal x` says that the extended real `x` is (the embedding of) a real number. The predicate is
closed under every operation of a dense layer followed by a batch normalisation, the inverse
square root excepted: finite sums, sums of products (a contraction), products, sums and
differences, the quotient `Ideal.div` by a nonzero real, a two-way choice (in particular the
leaky rectifier `if 0 ≤ x then x else c * x`, also in the form the ideal comparison and select
give it), and the maximum. A sum over `Fin (A * B)` of reals, regrouped as a double sum over
`A` blocks of `B` positions, is real as well.
-/

namespace LibRealClosure

open Idealize.ShloMosaic
open scoped BigOperators

/-- The extended real `x` is a real number. -/
def IsReal (x : EReal) : Prop := ∃ r : ℝ, x = r

theorem isReal_coe (r : ℝ) : IsReal (r : EReal) := ⟨r, rfl⟩

theorem isReal_zero : IsReal 0 := ⟨0, EReal.coe_zero.symm⟩

theorem isReal_one : IsReal 1 := ⟨1, EReal.coe_one.symm⟩

theorem isReal_iff (x : EReal) : IsReal x ↔ x ≠ ⊤ ∧ x ≠ ⊥ := by
  constructor
  · rintro ⟨r, rfl⟩; exact ⟨EReal.coe_ne_top r, EReal.coe_ne_bot r⟩
  · rintro ⟨ht, hb⟩; exact ⟨x.toReal, (EReal.coe_toReal ht hb).symm⟩

theorem IsReal.ne_top {x : EReal} (h : IsReal x) : x ≠ ⊤ := ((isReal_iff x).1 h).1

theorem IsReal.ne_bot {x : EReal} (h : IsReal x) : x ≠ ⊥ := ((isReal_iff x).1 h).2

/-- A real extended real is the embedding of its real part. -/
theorem IsReal.coe_toReal {x : EReal} (h : IsReal x) : ((x.toReal : ℝ) : EReal) = x :=
  EReal.coe_toReal h.ne_top h.ne_bot

theorem IsReal.add {x y : EReal} (hx : IsReal x) (hy : IsReal y) : IsReal (x + y) := by
  obtain ⟨a, rfl⟩ := hx; obtain ⟨b, rfl⟩ := hy; exact ⟨a + b, (EReal.coe_add a b).symm⟩

theorem IsReal.sub {x y : EReal} (hx : IsReal x) (hy : IsReal y) : IsReal (x - y) := by
  obtain ⟨a, rfl⟩ := hx; obtain ⟨b, rfl⟩ := hy; exact ⟨a - b, (EReal.coe_sub a b).symm⟩

theorem IsReal.mul {x y : EReal} (hx : IsReal x) (hy : IsReal y) : IsReal (x * y) := by
  obtain ⟨a, rfl⟩ := hx; obtain ⟨b, rfl⟩ := hy; exact ⟨a * b, (EReal.coe_mul a b).symm⟩

theorem IsReal.neg {x : EReal} (hx : IsReal x) : IsReal (-x) := by
  obtain ⟨a, rfl⟩ := hx; exact ⟨-a, (EReal.coe_neg a).symm⟩

/-- A finite sum of reals is real. -/
theorem IsReal.sum {ι : Type*} (s : Finset ι) (f : ι → EReal) (h : ∀ i ∈ s, IsReal (f i)) :
    IsReal (∑ i ∈ s, f i) := by
  classical
  induction s using Finset.induction_on with
  | empty => simpa using isReal_zero
  | insert a s ha ih =>
    rw [Finset.sum_insert ha]
    exact (h a (Finset.mem_insert_self a s)).add
      (ih fun i hi => h i (Finset.mem_insert_of_mem hi))

/-- A sum over a whole finite type of reals is real. -/
theorem IsReal.sum_univ {ι : Type*} [Fintype ι] (f : ι → EReal) (h : ∀ i, IsReal (f i)) :
    IsReal (∑ i, f i) := IsReal.sum Finset.univ f fun i _ => h i

/-- A contraction of reals, onto a real accumulator, is real. -/
theorem IsReal.dot {ι : Type*} [Fintype ι] (acc : EReal) (f g : ι → EReal) (ha : IsReal acc)
    (hf : ∀ i, IsReal (f i)) (hg : ∀ i, IsReal (g i)) : IsReal (acc + ∑ i, f i * g i) :=
  ha.add (IsReal.sum_univ _ fun i => (hf i).mul (hg i))

/-- The ideal quotient of a real by a nonzero real is real. -/
theorem IsReal.div {x : EReal} (hx : IsReal x) (n : ℝ) (hn : n ≠ 0) : IsReal (Ideal.div x (n : EReal)) := by
  obtain ⟨a, rfl⟩ := hx
  have h0 : (n : EReal) ≠ 0 := EReal.coe_ne_zero.mpr hn
  refine ⟨a / n, ?_⟩
  rw [Ideal.div, if_neg h0, ← EReal.coe_inv, ← EReal.coe_mul, div_eq_mul_inv]

/-- The ideal quotient of a real by a real extended real other than zero is real. -/
theorem IsReal.div' {x y : EReal} (hx : IsReal x) (hy : IsReal y) (h0 : y ≠ 0) : IsReal (Ideal.div x y) := by
  obtain ⟨b, rfl⟩ := hy
  exact hx.div b (EReal.coe_ne_zero.mp h0)

/-- A choice between two reals is real. -/
theorem IsReal.ite {p : Prop} [Decidable p] {x y : EReal} (hx : IsReal x) (hy : IsReal y) :
    IsReal (if p then x else y) := by
  split <;> assumption

/-- The leaky rectifier of a real, with a real slope, is real. -/
theorem IsReal.leaky {x c : EReal} (hx : IsReal x) (hc : IsReal c) :
    IsReal (if 0 ≤ x then x else c * x) := hx.ite (hc.mul hx)

theorem IsReal.max {x y : EReal} (hx : IsReal x) (hy : IsReal y) : IsReal (max x y) := by
  rcases max_choice x y with h | h <;> rw [h] <;> assumption

theorem IsReal.min {x y : EReal} (hx : IsReal x) (hy : IsReal y) : IsReal (min x y) := by
  rcases min_choice x y with h | h <;> rw [h] <;> assumption

/-- The maximum of a real with an embedded real is real. -/
theorem IsReal.max_coe {x : EReal} (hx : IsReal x) (c : ℝ) : IsReal (Max.max x (c : EReal)) :=
  hx.max (isReal_coe c)

/-! ### The comparison and the select of the ideal instance -/

/-- The ideal "greater or equal" comparison answers `1` exactly when the order says so. -/
theorem cmp_oge_eq_one (x z : EReal) : Ideal.cmp .oge x z = 1#1 ↔ z ≤ x := by
  unfold Ideal.cmp
  by_cases h : z ≤ x <;> simp [h]

/-- The same with the literal `1` of the one-bit words. -/
theorem cmp_oge_eq_one' (x z : EReal) : Ideal.cmp .oge x z = (1 : BitVec 1) ↔ z ≤ x :=
  cmp_oge_eq_one x z

/-- A select on the ideal "greater or equal" comparison is the choice on the order. -/
theorem select_cmp_oge {α : Type} (x z : EReal) (a b : α) :
    Scalar.select (Ideal.cmp .oge x z) a b = if z ≤ x then a else b := by
  unfold Scalar.select
  by_cases h : z ≤ x
  · rw [if_pos h, if_pos ((cmp_oge_eq_one' x z).2 h)]
  · rw [if_neg h, if_neg (fun hc => h ((cmp_oge_eq_one' x z).1 hc))]

/-- The leaky rectifier as the ideal comparison and select spell it. -/
theorem leaky_select (x c : EReal) :
    Scalar.select (Ideal.cmp .oge x 0) x (c * x) = if 0 ≤ x then x else c * x :=
  select_cmp_oge x 0 x (c * x)

theorem IsReal.leaky_select {x c : EReal} (hx : IsReal x) (hc : IsReal c) :
    IsReal (Scalar.select (Ideal.cmp .oge x 0) x (c * x)) := by
  rw [LibRealClosure.leaky_select]; exact hx.leaky hc

/-! ### Block sums stay real -/

/-- The double sum over `A` blocks of `B` positions of reals is real. -/
theorem IsReal.block_sum (A B : ℕ) (f : Fin A → Fin B → EReal) (h : ∀ t y, IsReal (f t y)) :
    IsReal (∑ t : Fin A, ∑ y : Fin B, f t y) :=
  IsReal.sum_univ _ fun t => IsReal.sum_univ _ fun y => h t y

/-- A running total of real partial sums, started from a real, is real at every step. -/
theorem IsReal.fold (a s : ℕ → EReal) (z : EReal) (hz : IsReal z) (hs : ∀ t, IsReal (s t))
    (h0 : a 0 = z + s 0) (hstep : ∀ t, a (t + 1) = a t + s (t + 1)) : ∀ t, IsReal (a t) := by
  intro t
  induction t with
  | zero => rw [h0]; exact hz.add (hs 0)
  | succ t ih => rw [hstep]; exact ih.add (hs (t + 1))

end LibRealClosure
-- ==== Proof.Bridge.Setting.lean ====
/-
  The vocabulary of the value claim: the kernel program's twenty argument arrays on a core, the fact that every entry of
  every float argument is a real (what the precondition says), and the normalised edge activations as the reference's stage
  functions of the arguments — the term the edge half ends at and the node half starts from.
-/
import proofs.«170818_j15161234555428_1_alg».proof.Defs
import proofs.«170818_j15161234555428_1_alg».proof.Proof.FiniteInputs
import proofs.«170818_j15161234555428_1_alg».proof.Proof.LibRealClosure
import proofs.«170818_j15161234555428_1_alg».proof.Proof.Ref.Stages

noncomputable section

namespace Cert.Bridge

open Cert.KernelIdeal Idealize.ShloMosaic Idealize.ShloMosaic.TcCoe Idealize.SL.Sem LibRealClosure
open Cert.ReferenceIdeal.RefRun (stageZ stageH stageY stageZ2 stageH2 stageY2)

variable (m : (ℓ : Loc nD τ sig) → Buf (Elt Ideal) ℓ) (c : Dev nD)

/-- Argument 0 on core `c`. -/
abbrev A0 : (⟨S50000x128, .f32⟩ : BufTy).Contents (Elt Ideal) := m ((c.tc : Thread nD τ).loc main_arg0)
/-- Argument 1 on core `c`. -/
abbrev A1 : (⟨S640000x128, .f32⟩ : BufTy).Contents (Elt Ideal) := m ((c.tc : Thread nD τ).loc main_arg1)
/-- Argument 2 on core `c`. -/
abbrev A2 : (⟨S640000, .i32⟩ : BufTy).Contents (Elt Ideal) := m ((c.tc : Thread nD τ).loc main_arg2)
/-- Argument 3 on core `c`. -/
abbrev A3 : (⟨S640000, .i32⟩ : BufTy).Contents (Elt Ideal) := m ((c.tc : Thread nD τ).loc main_arg3)
/-- Argument 4 on core `c`. -/
abbrev A4 : (⟨S384x128, .f32⟩ : BufTy).Contents (Elt Ideal) := m ((c.tc : Thread nD τ).loc main_arg4)
/-- Argument 5 on core `c`. -/
abbrev A5 : (⟨S128, .f32⟩ : BufTy).Contents (Elt Ideal) := m ((c.tc : Thread nD τ).loc main_arg5)
/-- Argument 6 on core `c`. -/
abbrev A6 : (⟨S128x128, .f32⟩ : BufTy).Contents (Elt Ideal) := m ((c.tc : Thread nD τ).loc main_arg6)
/-- Argument 7 on core `c`. -/
abbrev A7 : (⟨S128, .f32⟩ : BufTy).Contents (Elt Ideal) := m ((c.tc : Thread nD τ).loc main_arg7)
/-- Argument 8 on core `c`. -/
abbrev A8 : (⟨S128x128, .f32⟩ : BufTy).Contents (Elt Ideal) := m ((c.tc : Thread nD τ).loc main_arg8)
/-- Argument 9 on core `c`. -/
abbrev A9 : (⟨S128, .f32⟩ : BufTy).Contents (Elt Ideal) := m ((c.tc : Thread nD τ).loc main_arg9)
/-- Argument 10 on core `c`. -/
abbrev A10 : (⟨S256x128, .f32⟩ : BufTy).Contents (Elt Ideal) := m ((c.tc : Thread nD τ).loc main_arg10)
/-- Argument 11 on core `c`. -/
abbrev A11 : (⟨S128, .f32⟩ : BufTy).Contents (Elt Ideal) := m ((c.tc : Thread nD τ).loc main_arg11)
/-- Argument 12 on core `c`. -/
abbrev A12 : (⟨S128x128, .f32⟩ : BufTy).Contents (Elt Ideal) := m ((c.tc : Thread nD τ).loc main_arg12)
/-- Argument 13 on core `c`. -/
abbrev A13 : (⟨S128, .f32⟩ : BufTy).Contents (Elt Ideal) := m ((c.tc : Thread nD τ).loc main_arg13)
/-- Argument 14 on core `c`. -/
abbrev A14 : (⟨S128x128, .f32⟩ : BufTy).Contents (Elt Ideal) := m ((c.tc : Thread nD τ).loc main_arg14)
/-- Argument 15 on core `c`. -/
abbrev A15 : (⟨S128, .f32⟩ : BufTy).Contents (Elt Ideal) := m ((c.tc : Thread nD τ).loc main_arg15)
/-- Argument 16 on core `c`. -/
abbrev A16 : (⟨S128, .f32⟩ : BufTy).Contents (Elt Ideal) := m ((c.tc : Thread nD τ).loc main_arg16)
/-- Argument 17 on core `c`. -/
abbrev A17 : (⟨S128, .f32⟩ : BufTy).Contents (Elt Ideal) := m ((c.tc : Thread nD τ).loc main_arg17)
/-- Argument 18 on core `c`. -/
abbrev A18 : (⟨S128, .f32⟩ : BufTy).Contents (Elt Ideal) := m ((c.tc : Thread nD τ).loc main_arg18)
/-- Argument 19 on core `c`. -/
abbrev A19 : (⟨S128, .f32⟩ : BufTy).Contents (Elt Ideal) := m ((c.tc : Thread nD τ).loc main_arg19)

/-- Every entry of every float argument is a real. -/
structure RealArgs : Prop where
  h0 : ∀ i, IsReal (A0 m c i)
  h1 : ∀ i, IsReal (A1 m c i)
  h4 : ∀ i, IsReal (A4 m c i)
  h5 : ∀ i, IsReal (A5 m c i)
  h6 : ∀ i, IsReal (A6 m c i)
  h7 : ∀ i, IsReal (A7 m c i)
  h8 : ∀ i, IsReal (A8 m c i)
  h9 : ∀ i, IsReal (A9 m c i)
  h10 : ∀ i, IsReal (A10 m c i)
  h11 : ∀ i, IsReal (A11 m c i)
  h12 : ∀ i, IsReal (A12 m c i)
  h13 : ∀ i, IsReal (A13 m c i)
  h14 : ∀ i, IsReal (A14 m c i)
  h15 : ∀ i, IsReal (A15 m c i)
  h16 : ∀ i, IsReal (A16 m c i)
  h17 : ∀ i, IsReal (A17 m c i)
  h18 : ∀ i, IsReal (A18 m c i)
  h19 : ∀ i, IsReal (A19 m c i)

/-- The precondition says so. -/
theorem realArgs_of_pre [Cert.Pre_finite_inputs.Facts] (hpre : Cert.Pre_KernelIdeal m) : RealArgs m c := by
  obtain ⟨g0, g1, g4, g5, g6, g7, g8, g9, g10, g11, g12, g13, g14, g15, g16, g17, g18, g19⟩ := Cert.Pre_finite_inputs.finite_inputs_real (A0 m c) (A1 m c) (A2 m c) (A3 m c) (A4 m c) (A5 m c) (A6 m c) (A7 m c) (A8 m c) (A9 m c) (A10 m c) (A11 m c) (A12 m c) (A13 m c) (A14 m c) (A15 m c) (A16 m c) (A17 m c) (A18 m c) (A19 m c) (hpre c)
  exact ⟨g0, g1, g4, g5, g6, g7, g8, g9, g10, g11, g12, g13, g14, g15, g16, g17, g18, g19⟩

/-- The edge network's output on the reference's side, as stage functions of the arguments. -/
abbrev Hedge : (⟨S640000x128, .f32⟩ : BufTy).Contents (Elt Ideal) :=
  stageH (F := Ideal) (stageZ (F := Ideal) (A0 m c) (A1 m c) (A2 m c) (A3 m c)) (A4 m c) (A5 m c) (A6 m c) (A7 m c) (A8 m c) (A9 m c)

/-- The normalised edge activations on the reference's side. -/
abbrev Y : (⟨S640000x128, .f32⟩ : BufTy).Contents (Elt Ideal) := stageY (F := Ideal) (Hedge m c) (A16 m c) (A17 m c)

/-- The node network's input and output on the reference's side. -/
abbrev Z2 : (⟨S50000x256, .f32⟩ : BufTy).Contents (Elt Ideal) := stageZ2 (F := Ideal) (Y m c) (A2 m c) (A0 m c)
abbrev Hnode : (⟨S50000x128, .f32⟩ : BufTy).Contents (Elt Ideal) :=
  stageH2 (F := Ideal) (Z2 m c) (A10 m c) (A11 m c) (A12 m c) (A13 m c) (A14 m c) (A15 m c)
/-- The normalised node activations on the reference's side. -/
abbrev Y2 : (⟨S50000x128, .f32⟩ : BufTy).Contents (Elt Ideal) := stageY2 (F := Ideal) (Hnode m c) (A18 m c) (A19 m c)

end Cert.Bridge

end
-- ==== Proof.KI.Reads.lean ====
/-
  What the boundary valuations hold at the buffers the regions read: an argument array is still the launch contents; a
  region's output read by the next stretch or region is that region's final array; a reshaped parameter written by the
  first (resp. third) host stretch is still what that stretch wrote when a later region reads it.
-/
import proofs.«170818_j15161234555428_1_alg».proof.Proof.KI.RunPosts

set_option maxRecDepth 16384

noncomputable section

namespace Cert.KernelIdeal.Run

open Cert.KernelIdeal Cert.KernelIdeal.Gen Cert.KernelIdeal.GenP
open Idealize.ShloMosaic Idealize.ShloMosaic.TcCoe Idealize.SL.Sem
open Idealize.ShloMosaic.Pipeline (Dat)

variable {F : FTy → Type} [FloatOps F]
variable (m : (ℓ : Loc nD τ sig) → Buf (Elt F) ℓ)
variable (H0 : Half0 F) (H1 : Half1 F) (H2 : Half2 F) (H3 : Half3 F)

/-! ## The edge half: regions 0 and 1 -/

theorem W1_launch (c : Dev nD) (b : Ref sig .tc) (h0 : b ∉ hostOps0_W) :
    W1 m c (Proc.devRef .tc b) = m ((c : Thread nD τ).loc b) := (W1_keep m c b h0).trans rfl

theorem W2_h (c : Dev nD) : W2 m H0 c (Proc.devRef .tc main_v20_0) = (H0.dat (V1 m) c).arrAt 7 cfg0.N := W2_arr m H0 c 7
theorem W2_sum (c : Dev nD) : W2 m H0 c (Proc.devRef .tc main_v20_1) = (H0.dat (V1 m) c).arrAt 8 cfg0.N := W2_arr m H0 c 8
theorem W2_sumsq (c : Dev nD) : W2 m H0 c (Proc.devRef .tc main_v20_2) = (H0.dat (V1 m) c).arrAt 9 cfg0.N := W2_arr m H0 c 9

theorem W3_h (c : Dev nD) : W3 m H0 c (Proc.devRef .tc main_v20_0) = (H0.dat (V1 m) c).arrAt 7 cfg0.N :=
  (W3_keep m H0 c main_v20_0 (by decide)).trans (W2_h m H0 c)

/-- A buffer neither the second host stretch nor region 0 writes is, at region 1's entry, what the first stretch left. -/
theorem W3_of_W1 (c : Dev nD) (b : Ref sig .tc) (k0 : b ∉ ([main_v20_0, main_v20_1, main_v20_2] : List (Ref sig .tc))) (h1 : b ∉ hostOps1_W) :
    W3 m H0 c (Proc.devRef .tc b) = W1 m c (Proc.devRef .tc b) :=
  (W3_keep m H0 c b h1).trans (W2_keep m H0 c b k0)

theorem W3_launch (c : Dev nD) (b : Ref sig .tc) (h0 : b ∉ hostOps0_W) (k0 : b ∉ ([main_v20_0, main_v20_1, main_v20_2] : List (Ref sig .tc))) (h1 : b ∉ hostOps1_W) :
    W3 m H0 c (Proc.devRef .tc b) = m ((c : Thread nD τ).loc b) :=
  (W3_of_W1 m H0 c b k0 h1).trans (W1_launch m c b h0)

theorem W4_y (c : Dev nD) : W4 m H0 H1 c (Proc.devRef .tc main_v27_0) = (H1.dat (V3 m H0) c).arrAt 6 cfg1.N := W4_arr m H0 H1 c 6

theorem W4_launch (c : Dev nD) (b : Ref sig .tc) (h0 : b ∉ hostOps0_W) (k0 : b ∉ ([main_v20_0, main_v20_1, main_v20_2] : List (Ref sig .tc))) (h1 : b ∉ hostOps1_W)
    (k1 : b ∉ ([main_v27_0, main_v27_1] : List (Ref sig .tc))) :
    W4 m H0 H1 c (Proc.devRef .tc b) = m ((c : Thread nD τ).loc b) :=
  (W4_keep m H0 H1 c b k1).trans (W3_launch m H0 c b h0 k0 h1)

/-! ## The node half: regions 2 and 3 -/

theorem W5_launch (c : Dev nD) (b : Ref sig .tc) (h0 : b ∉ hostOps0_W) (k0 : b ∉ ([main_v20_0, main_v20_1, main_v20_2] : List (Ref sig .tc))) (h1 : b ∉ hostOps1_W)
    (k1 : b ∉ ([main_v27_0, main_v27_1] : List (Ref sig .tc))) (h2 : b ∉ hostOps2_W) :
    W5 m H0 H1 c (Proc.devRef .tc b) = m ((c : Thread nD τ).loc b) :=
  (W5_keep m H0 H1 c b h2).trans (W4_launch m H0 H1 c b h0 k0 h1 k1)

theorem W6_h (c : Dev nD) : W6 m H0 H1 H2 c (Proc.devRef .tc main_v45_0) = (H2.dat (V5 m H0 H1) c).arrAt 7 cfg2.N := W6_arr m H0 H1 H2 c 7
theorem W6_sum (c : Dev nD) : W6 m H0 H1 H2 c (Proc.devRef .tc main_v45_1) = (H2.dat (V5 m H0 H1) c).arrAt 8 cfg2.N := W6_arr m H0 H1 H2 c 8
theorem W6_sumsq (c : Dev nD) : W6 m H0 H1 H2 c (Proc.devRef .tc main_v45_2) = (H2.dat (V5 m H0 H1) c).arrAt 9 cfg2.N := W6_arr m H0 H1 H2 c 9

theorem W7_h (c : Dev nD) : W7 m H0 H1 H2 c (Proc.devRef .tc main_v45_0) = (H2.dat (V5 m H0 H1) c).arrAt 7 cfg2.N :=
  (W7_keep m H0 H1 H2 c main_v45_0 (by decide)).trans (W6_h m H0 H1 H2 c)

theorem W7_of_W5 (c : Dev nD) (b : Ref sig .tc) (k2 : b ∉ ([main_v45_0, main_v45_1, main_v45_2] : List (Ref sig .tc))) (h3 : b ∉ hostOps3_W) :
    W7 m H0 H1 H2 c (Proc.devRef .tc b) = W5 m H0 H1 c (Proc.devRef .tc b) :=
  (W7_keep m H0 H1 H2 c b h3).trans (W6_keep m H0 H1 H2 c b k2)

theorem W7_launch (c : Dev nD) (b : Ref sig .tc) (h0 : b ∉ hostOps0_W) (k0 : b ∉ ([main_v20_0, main_v20_1, main_v20_2] : List (Ref sig .tc))) (h1 : b ∉ hostOps1_W)
    (k1 : b ∉ ([main_v27_0, main_v27_1] : List (Ref sig .tc))) (h2 : b ∉ hostOps2_W) (k2 : b ∉ ([main_v45_0, main_v45_1, main_v45_2] : List (Ref sig .tc))) (h3 : b ∉ hostOps3_W) :
    W7 m H0 H1 H2 c (Proc.devRef .tc b) = m ((c : Thread nD τ).loc b) :=
  (W7_of_W5 m H0 H1 H2 c b k2 h3).trans (W5_launch m H0 H1 c b h0 k0 h1 k1 h2)

end Cert.KernelIdeal.Run

end
-- ==== Proof.KI.HostStages.lean ====
import proofs.«170818_j15161234555428_1_alg».proof.Proof.KI.Launch
import proofs.«170818_j15161234555428_1_alg».proof.Proof.Ref.Stages
import Idealize.ShloMosaic.Lib.ValueLayout

/-!
# The kernel program's host stretches as the reference's stage functions

Before its first and its third kernel launch the kernel program runs, on the host, the same operations as the
reference: the index wrapping, the two gathers and the concatenation that make the edge network's input, resp. the
scatter-mean and the concatenation that make the node network's input; each stretch then recasts five vectors of 128
entries as one-row matrices. From any contents, each stretch leaves the reference's stage function of what it reads at
the network's input, and the recast vectors entry for entry.
-/

noncomputable section

namespace Cert.KernelIdeal.HostStages

open Cert.KernelIdeal Cert.KernelIdeal.Gen Cert.KernelIdeal.GenP Idealize.ShloMosaic Idealize.ShloMosaic.TcCoe Idealize.SL.Sem
  Idealize.ShloMosaic.StableHlo Idealize.ShloMosaic.ValueIdx

variable {F : FTy → Type} [FloatOps F]

attribute [local irreducible] Host.gather concatenate broadcastInDim in
set_option maxRecDepth 8192 in
set_option maxHeartbeats 2000000 in
/-- The first stretch leaves the edge network's input. -/
theorem host0_z (W : Valuation τ sig (Elt F)) :
    after (hostOps0 (F := F)) W (Proc.devRef .tc main_v14)
      = Cert.ReferenceIdeal.RefRun.stageZ (W (Proc.devRef .tc main_arg0)) (W (Proc.devRef .tc main_arg1)) (W (Proc.devRef .tc main_arg2)) (W (Proc.devRef .tc main_arg3)) := by
  simp (disch := decide) only [after_cons, after_nil, Cert.Lib.Nary3.nary3_result',
    nullary_result', unary_result', binary_result', ternary_result', reshape_result',
    nullary_result_ne', unary_result_ne', binary_result_ne', ternary_result_ne', nary_result_ne', reshape_result_ne']
  rfl

attribute [local irreducible] Host.gather concatenate broadcastInDim in
set_option maxRecDepth 8192 in
set_option maxHeartbeats 2000000 in
/-- The third stretch leaves the node network's input. -/
theorem host2_z2 (W : Valuation τ sig (Elt F)) :
    after (hostOps2 (F := F)) W (Proc.devRef .tc main_v39)
      = Cert.ReferenceIdeal.RefRun.stageZ2 (W (Proc.devRef .tc main_v27_0)) (W (Proc.devRef .tc main_arg2)) (W (Proc.devRef .tc main_arg0)) := by
  simp (disch := decide) only [after_cons, after_nil, Cert.Lib.Nary3.nary3_result',
    nullary_result', unary_result', binary_result', ternary_result', reshape_result',
    nullary_result_ne', unary_result_ne', binary_result_ne', ternary_result_ne', nary_result_ne', reshape_result_ne']
  rfl

/-! ## The recast vectors -/

theorem host0_b_v15 (W : Valuation τ sig (Elt F)) (k : Fin 128) :
    after (hostOps0 (F := F)) W (Proc.devRef .tc main_v15) (ix2 (0 : Fin 1) k) = W (Proc.devRef .tc main_arg5) (ix1 k) := by
  have e : after (hostOps0 (F := F)) W (Proc.devRef .tc main_v15)
      = fun i => shapeCast (⟨2, ![1, 128]⟩ : Shape) (W (Proc.devRef .tc main_arg5)) shapeCasts_S128_S1x128 i := by
    simp (disch := decide) only [after_cons, after_nil, Cert.Lib.Nary3.nary3_result',
    nullary_result', unary_result', binary_result', ternary_result', reshape_result',
    nullary_result_ne', unary_result_ne', binary_result_ne', ternary_result_ne', nary_result_ne', reshape_result_ne']
    rfl
  rw [e]
  exact shapeCast_a_1a_apply _ _ _ _

theorem host0_b_v16 (W : Valuation τ sig (Elt F)) (k : Fin 128) :
    after (hostOps0 (F := F)) W (Proc.devRef .tc main_v16) (ix2 (0 : Fin 1) k) = W (Proc.devRef .tc main_arg7) (ix1 k) := by
  have e : after (hostOps0 (F := F)) W (Proc.devRef .tc main_v16)
      = fun i => shapeCast (⟨2, ![1, 128]⟩ : Shape) (W (Proc.devRef .tc main_arg7)) shapeCasts_S128_S1x128 i := by
    simp (disch := decide) only [after_cons, after_nil, Cert.Lib.Nary3.nary3_result',
    nullary_result', unary_result', binary_result', ternary_result', reshape_result',
    nullary_result_ne', unary_result_ne', binary_result_ne', ternary_result_ne', nary_result_ne', reshape_result_ne']
    rfl
  rw [e]
  exact shapeCast_a_1a_apply _ _ _ _

theorem host0_b_v17 (W : Valuation τ sig (Elt F)) (k : Fin 128) :
    after (hostOps0 (F := F)) W (Proc.devRef .tc main_v17) (ix2 (0 : Fin 1) k) = W (Proc.devRef .tc main_arg9) (ix1 k) := by
  have e : after (hostOps0 (F := F)) W (Proc.devRef .tc main_v17)
      = fun i => shapeCast (⟨2, ![1, 128]⟩ : Shape) (W (Proc.devRef .tc main_arg9)) shapeCasts_S128_S1x128 i := by
    simp (disch := decide) only [after_cons, after_nil, Cert.Lib.Nary3.nary3_result',
    nullary_result', unary_result', binary_result', ternary_result', reshape_result',
    nullary_result_ne', unary_result_ne', binary_result_ne', ternary_result_ne', nary_result_ne', reshape_result_ne']
    rfl
  rw [e]
  exact shapeCast_a_1a_apply _ _ _ _

theorem host0_b_v18 (W : Valuation τ sig (Elt F)) (k : Fin 128) :
    after (hostOps0 (F := F)) W (Proc.devRef .tc main_v18) (ix2 (0 : Fin 1) k) = W (Proc.devRef .tc main_arg16) (ix1 k) := by
  have e : after (hostOps0 (F := F)) W (Proc.devRef .tc main_v18)
      = fun i => shapeCast (⟨2, ![1, 128]⟩ : Shape) (W (Proc.devRef .tc main_arg16)) shapeCasts_S128_S1x128 i := by
    simp (disch := decide) only [after_cons, after_nil, Cert.Lib.Nary3.nary3_result',
    nullary_result', unary_result', binary_result', ternary_result', reshape_result',
    nullary_result_ne', unary_result_ne', binary_result_ne', ternary_result_ne', nary_result_ne', reshape_result_ne']
    rfl
  rw [e]
  exact shapeCast_a_1a_apply _ _ _ _

theorem host0_b_v19 (W : Valuation τ sig (Elt F)) (k : Fin 128) :
    after (hostOps0 (F := F)) W (Proc.devRef .tc main_v19) (ix2 (0 : Fin 1) k) = W (Proc.devRef .tc main_arg17) (ix1 k) := by
  have e : after (hostOps0 (F := F)) W (Proc.devRef .tc main_v19)
      = fun i => shapeCast (⟨2, ![1, 128]⟩ : Shape) (W (Proc.devRef .tc main_arg17)) shapeCasts_S128_S1x128 i := by
    simp (disch := decide) only [after_cons, after_nil, Cert.Lib.Nary3.nary3_result',
    nullary_result', unary_result', binary_result', ternary_result', reshape_result',
    nullary_result_ne', unary_result_ne', binary_result_ne', ternary_result_ne', nary_result_ne', reshape_result_ne']
    rfl
  rw [e]
  exact shapeCast_a_1a_apply _ _ _ _

theorem host2_b_v40 (W : Valuation τ sig (Elt F)) (k : Fin 128) :
    after (hostOps2 (F := F)) W (Proc.devRef .tc main_v40) (ix2 (0 : Fin 1) k) = W (Proc.devRef .tc main_arg11) (ix1 k) := by
  have e : after (hostOps2 (F := F)) W (Proc.devRef .tc main_v40)
      = fun i => shapeCast (⟨2, ![1, 128]⟩ : Shape) (W (Proc.devRef .tc main_arg11)) shapeCasts_S128_S1x128 i := by
    simp (disch := decide) only [after_cons, after_nil, Cert.Lib.Nary3.nary3_result',
    nullary_result', unary_result', binary_result', ternary_result', reshape_result',
    nullary_result_ne', unary_result_ne', binary_result_ne', ternary_result_ne', nary_result_ne', reshape_result_ne']
    rfl
  rw [e]
  exact shapeCast_a_1a_apply _ _ _ _

theorem host2_b_v41 (W : Valuation τ sig (Elt F)) (k : Fin 128) :
    after (hostOps2 (F := F)) W (Proc.devRef .tc main_v41) (ix2 (0 : Fin 1) k) = W (Proc.devRef .tc main_arg13) (ix1 k) := by
  have e : after (hostOps2 (F := F)) W (Proc.devRef .tc main_v41)
      = fun i => shapeCast (⟨2, ![1, 128]⟩ : Shape) (W (Proc.devRef .tc main_arg13)) shapeCasts_S128_S1x128 i := by
    simp (disch := decide) only [after_cons, after_nil, Cert.Lib.Nary3.nary3_result',
    nullary_result', unary_result', binary_result', ternary_result', reshape_result',
    nullary_result_ne', unary_result_ne', binary_result_ne', ternary_result_ne', nary_result_ne', reshape_result_ne']
    rfl
  rw [e]
  exact shapeCast_a_1a_apply _ _ _ _

theorem host2_b_v42 (W : Valuation τ sig (Elt F)) (k : Fin 128) :
    after (hostOps2 (F := F)) W (Proc.devRef .tc main_v42) (ix2 (0 : Fin 1) k) = W (Proc.devRef .tc main_arg15) (ix1 k) := by
  have e : after (hostOps2 (F := F)) W (Proc.devRef .tc main_v42)
      = fun i => shapeCast (⟨2, ![1, 128]⟩ : Shape) (W (Proc.devRef .tc main_arg15)) shapeCasts_S128_S1x128 i := by
    simp (disch := decide) only [after_cons, after_nil, Cert.Lib.Nary3.nary3_result',
    nullary_result', unary_result', binary_result', ternary_result', reshape_result',
    nullary_result_ne', unary_result_ne', binary_result_ne', ternary_result_ne', nary_result_ne', reshape_result_ne']
    rfl
  rw [e]
  exact shapeCast_a_1a_apply _ _ _ _

theorem host2_b_v43 (W : Valuation τ sig (Elt F)) (k : Fin 128) :
    after (hostOps2 (F := F)) W (Proc.devRef .tc main_v43) (ix2 (0 : Fin 1) k) = W (Proc.devRef .tc main_arg18) (ix1 k) := by
  have e : after (hostOps2 (F := F)) W (Proc.devRef .tc main_v43)
      = fun i => shapeCast (⟨2, ![1, 128]⟩ : Shape) (W (Proc.devRef .tc main_arg18)) shapeCasts_S128_S1x128 i := by
    simp (disch := decide) only [after_cons, after_nil, Cert.Lib.Nary3.nary3_result',
    nullary_result', unary_result', binary_result', ternary_result', reshape_result',
    nullary_result_ne', unary_result_ne', binary_result_ne', ternary_result_ne', nary_result_ne', reshape_result_ne']
    rfl
  rw [e]
  exact shapeCast_a_1a_apply _ _ _ _

theorem host2_b_v44 (W : Valuation τ sig (Elt F)) (k : Fin 128) :
    after (hostOps2 (F := F)) W (Proc.devRef .tc main_v44) (ix2 (0 : Fin 1) k) = W (Proc.devRef .tc main_arg19) (ix1 k) := by
  have e : after (hostOps2 (F := F)) W (Proc.devRef .tc main_v44)
      = fun i => shapeCast (⟨2, ![1, 128]⟩ : Shape) (W (Proc.devRef .tc main_arg19)) shapeCasts_S128_S1x128 i := by
    simp (disch := decide) only [after_cons, after_nil, Cert.Lib.Nary3.nary3_result',
    nullary_result', unary_result', binary_result', ternary_result', reshape_result',
    nullary_result_ne', unary_result_ne', binary_result_ne', ternary_result_ne', nary_result_ne', reshape_result_ne']
    rfl
  rw [e]
  exact shapeCast_a_1a_apply _ _ _ _

end Cert.KernelIdeal.HostStages

end
-- ==== Proof.BnHost.lean ====
/-
  The host arithmetic between a statistics kernel and the normalising kernel that follows it.

  From the column sums s (of the entries) and q (of their squares), each a one-row array, the host
  computes the mean  s / n  and the variance term  q / n - (s / n) * (s / n),  where n is the number
  of rows (640000 for the edges, 50000 for the nodes), given by its binary32 word.  Both are read
  here at lane j from the buffers' contents after the eight operations, for ANY contents before them.
-/
import proofs.«170818_j15161234555428_1_alg».proof.Proof.KI.Launch
import Idealize.ShloMosaic.Lib.StableHlo.Run
import Idealize.ShloMosaic.Lib.ValueLayout

noncomputable section

namespace Cert.KernelIdeal.GenP

open Cert.KernelIdeal Cert.KernelIdeal.Gen
open Idealize.ShloMosaic Idealize.ShloMosaic.TcCoe Idealize.ShloMosaic.ValueIdx Idealize.ShloMosaic.StableHlo

/-- The edges' mean after the first host stretch: the column sum divided by the row count. -/
theorem hostOps1_mean (W : Valuation τ sig (Elt Ideal)) (j : Fin 128) :
    (StableHlo.after (hostOps1 (F := Ideal)) W (Proc.devRef .tc main_v22) : S1x128.Idx → EReal) (ix2 (0 : Fin 1) j)
      = Ideal.div ((W (Proc.devRef .tc main_v20_1) : S1x128.Idx → EReal) (ix2 (0 : Fin 1) j))
          (Ideal.ofBits .f32 0x491C4000#32) := by
  have e : (StableHlo.after (hostOps1 (F := Ideal)) W (Proc.devRef .tc main_v22) : S1x128.Idx → EReal)
      = Host.divf (F := Ideal) (W (Proc.devRef .tc main_v20_1) : S1x128.Idx → EReal)
          (broadcastInDim S1x128 ![] bcast_S_S1x128 (constant (F := Ideal) S_ .f32 0x491C4000#32)) := by
    after_results
  rw [e]; rfl

/-- The edges' variance term after the first host stretch: the mean of the squares less the square of the mean. -/
theorem hostOps1_var (W : Valuation τ sig (Elt Ideal)) (j : Fin 128) :
    (StableHlo.after (hostOps1 (F := Ideal)) W (Proc.devRef .tc main_v26) : S1x128.Idx → EReal) (ix2 (0 : Fin 1) j)
      = Ideal.div ((W (Proc.devRef .tc main_v20_2) : S1x128.Idx → EReal) (ix2 (0 : Fin 1) j))
          (Ideal.ofBits .f32 0x491C4000#32)
        - Ideal.div ((W (Proc.devRef .tc main_v20_1) : S1x128.Idx → EReal) (ix2 (0 : Fin 1) j))
            (Ideal.ofBits .f32 0x491C4000#32)
          * Ideal.div ((W (Proc.devRef .tc main_v20_1) : S1x128.Idx → EReal) (ix2 (0 : Fin 1) j))
            (Ideal.ofBits .f32 0x491C4000#32) := by
  have e : (StableHlo.after (hostOps1 (F := Ideal)) W (Proc.devRef .tc main_v26) : S1x128.Idx → EReal)
      = subf (F := Ideal)
          (Host.divf (F := Ideal) (W (Proc.devRef .tc main_v20_2) : S1x128.Idx → EReal)
            (broadcastInDim S1x128 ![] bcast_S_S1x128 (constant (F := Ideal) S_ .f32 0x491C4000#32)))
          (mulf (F := Ideal)
            (Host.divf (F := Ideal) (W (Proc.devRef .tc main_v20_1) : S1x128.Idx → EReal)
              (broadcastInDim S1x128 ![] bcast_S_S1x128 (constant (F := Ideal) S_ .f32 0x491C4000#32)))
            (Host.divf (F := Ideal) (W (Proc.devRef .tc main_v20_1) : S1x128.Idx → EReal)
              (broadcastInDim S1x128 ![] bcast_S_S1x128 (constant (F := Ideal) S_ .f32 0x491C4000#32)))) := by
    after_results
  rw [e]; rfl

/-- The nodes' mean after the third host stretch. -/
theorem hostOps3_mean (W : Valuation τ sig (Elt Ideal)) (j : Fin 128) :
    (StableHlo.after (hostOps3 (F := Ideal)) W (Proc.devRef .tc main_v47) : S1x128.Idx → EReal) (ix2 (0 : Fin 1) j)
      = Ideal.div ((W (Proc.devRef .tc main_v45_1) : S1x128.Idx → EReal) (ix2 (0 : Fin 1) j))
          (Ideal.ofBits .f32 0x47435000#32) := by
  have e : (StableHlo.after (hostOps3 (F := Ideal)) W (Proc.devRef .tc main_v47) : S1x128.Idx → EReal)
      = Host.divf (F := Ideal) (W (Proc.devRef .tc main_v45_1) : S1x128.Idx → EReal)
          (broadcastInDim S1x128 ![] bcast_S_S1x128 (constant (F := Ideal) S_ .f32 0x47435000#32)) := by
    after_results
  rw [e]; rfl

/-- The nodes' variance term after the third host stretch. -/
theorem hostOps3_var (W : Valuation τ sig (Elt Ideal)) (j : Fin 128) :
    (StableHlo.after (hostOps3 (F := Ideal)) W (Proc.devRef .tc main_v51) : S1x128.Idx → EReal) (ix2 (0 : Fin 1) j)
      = Ideal.div ((W (Proc.devRef .tc main_v45_2) : S1x128.Idx → EReal) (ix2 (0 : Fin 1) j))
          (Ideal.ofBits .f32 0x47435000#32)
        - Ideal.div ((W (Proc.devRef .tc main_v45_1) : S1x128.Idx → EReal) (ix2 (0 : Fin 1) j))
            (Ideal.ofBits .f32 0x47435000#32)
          * Ideal.div ((W (Proc.devRef .tc main_v45_1) : S1x128.Idx → EReal) (ix2 (0 : Fin 1) j))
            (Ideal.ofBits .f32 0x47435000#32) := by
  have e : (StableHlo.after (hostOps3 (F := Ideal)) W (Proc.devRef .tc main_v51) : S1x128.Idx → EReal)
      = subf (F := Ideal)
          (Host.divf (F := Ideal) (W (Proc.devRef .tc main_v45_2) : S1x128.Idx → EReal)
            (broadcastInDim S1x128 ![] bcast_S_S1x128 (constant (F := Ideal) S_ .f32 0x47435000#32)))
          (mulf (F := Ideal)
            (Host.divf (F := Ideal) (W (Proc.devRef .tc main_v45_1) : S1x128.Idx → EReal)
              (broadcastInDim S1x128 ![] bcast_S_S1x128 (constant (F := Ideal) S_ .f32 0x47435000#32)))
            (Host.divf (F := Ideal) (W (Proc.devRef .tc main_v45_1) : S1x128.Idx → EReal)
              (broadcastInDim S1x128 ![] bcast_S_S1x128 (constant (F := Ideal) S_ .f32 0x47435000#32)))) := by
    after_results
  rw [e]; rfl

end Cert.KernelIdeal.GenP
-- ==== Proof.SpecBn.lean ====
/-
  Batch normalisation of one entry, over the extended reals.

  For an entry x of a column whose mean is mu and whose variance is v, with scale g and shift b,
  the normalised value is  (x - mu) * rsqrt (v + eps) * g + b,  where eps is the value of the
  binary32 word 0x3727C5AC (the float nearest to 1e-5).  The word is kept as a word: nothing
  below depends on its numerical value, only on its being the same on both sides.
-/
import Idealize.ShloMosaic.PureOps.Ideal

namespace Gnn

open Idealize.ShloMosaic

/-- The stabiliser added to the variance: the value of the binary32 word `0x3727C5AC`. -/
noncomputable def eps : EReal := Ideal.ofBits .f32 0x3727C5AC#32

/-- One entry normalised: centred, scaled by the reciprocal square root of the stabilised variance,
    then the affine map `· * g + b`.  The products associate to the left, as both programs compute them. -/
noncomputable def bn (x mu v g b : EReal) : EReal :=
  (x - mu) * Ideal.rsqrt (v + Ideal.ofBits .f32 0x3727C5AC#32) * g + b

theorem bn_def (x mu v g b : EReal) :
    bn x mu v g b = (x - mu) * Ideal.rsqrt (v + Ideal.ofBits .f32 0x3727C5AC#32) * g + b := rfl

/-- Equal variances give equal normalised values. -/
theorem bn_congr_var (x mu g b : EReal) {v v' : EReal} (h : v = v') : bn x mu v g b = bn x mu v' g b := by
  rw [h]

end Gnn
-- ==== Proof.BnRef.lean ====
/-
  The reference's batch normalisation read at an index, over the extended reals.

  For an array h of n rows and 128 lanes the reference computes, lane by lane, the mean
  mu = (∑ r, h(r, j)) / n, the variance v = (∑ r, (h(r, j) - mu)²) / n, and then at every entry
  the normalised value `Gnn.bn` of the entry with the lane's mu, v, scale and shift.  The row count
  n is given by its binary32 word; the host's sums start from the zero word, which adds nothing.
  The two instances are the edges (n = 640000) and the nodes (n = 50000).
-/
import proofs.«170818_j15161234555428_1_alg».proof.Proof.Ref.Stages
import proofs.«170818_j15161234555428_1_alg».proof.Proof.SpecBn
import Idealize.ShloMosaic.Lib.ValueLayout
import Idealize.ShloMosaic.PureOps.Ideal.Laws

noncomputable section

namespace Cert.ReferenceIdeal.BnRef

open Cert.ReferenceIdeal Cert.ReferenceIdeal.Gen Cert.ReferenceIdeal.RefRun Idealize.ShloMosaic Idealize.ShloMosaic.ValueIdx

/-! ## The edge side: 640000 rows -/

theorem reduces_E : S640000x128.Reduces [0] S128 := by decide

/-- A vector of 128 lane values repeated on every edge row reads, at (r, j), the lane's value. -/
theorem rowsE_apply (b : FVec Ideal S128 .f32) (r : Fin 640000) (j : Fin 128) :
    rowsE (F := Ideal) b (ix2 r j) = b (ix1 j) := by
  unfold rowsE
  refine (broadcastInDim_apply _ _ _ (ix2 r j) (ix2 (0 : Fin 1) j) fun a => ?_).trans
    (broadcastInDim_apply _ _ b (ix2 (0 : Fin 1) j) (ix1 j) fun a => ?_)
  · match a with
    | ⟨0, _⟩ => rfl
    | ⟨1, _⟩ => rfl
  · match a with
    | ⟨0, _⟩ => rfl

/-- The host's column sum of a 640000 × 128 array from the initial value z, at lane j. -/
theorem colsumE_apply (x : FVec Ideal S640000x128 .f32) (z : FVec Ideal S_ .f32) (j : Fin 128) :
    Host.reduceAdd (F := Ideal) x z reducesTo_S640000x128_S128_d0 h_S_ (ix1 j)
      = z (Shape.Idx.first h_S_) + ∑ r : Fin 640000, x (ix2 r j) := by
  refine (Ideal.hostReduceAdd_single reducesTo_S640000x128_S128_d0 reduces_E x _ (ix1 j)).trans ?_
  refine congrArg (z (Shape.Idx.first h_S_) + ·) (Finset.sum_congr rfl fun r _ => congrArg x ?_)
  funext a
  match a with
  | ⟨0, _⟩ => rfl
  | ⟨1, _⟩ => rfl

/-- The same from the zero word: just the sum. -/
theorem colsumE_zero (x : FVec Ideal S640000x128 .f32) (j : Fin 128) :
    Host.reduceAdd (F := Ideal) x (constant (F := Ideal) S_ .f32 0x00000000#32) reducesTo_S640000x128_S128_d0 h_S_ (ix1 j)
      = ∑ r : Fin 640000, x (ix2 r j) := by
  rw [colsumE_apply]
  exact (congrArg (· + _) Ideal.ofBits_zero_f32).trans (zero_add _)

/-- The reference's edge mean at lane j: the lane's sum over all rows divided by the row count's word. -/
theorem meanE_apply (h : FVec Ideal S640000x128 .f32) (j : Fin 128) :
    meanE (F := Ideal) h (ix1 j) = Ideal.div (∑ r : Fin 640000, h (ix2 r j)) (Ideal.ofBits .f32 0x491C4000#32) := by
  unfold meanE
  exact congrArg (Ideal.div · (Ideal.ofBits .f32 0x491C4000#32)) (colsumE_zero h j)

/-- A squared deviation from the lane's mean, at (r, j). -/
theorem devsqE_apply (h : FVec Ideal S640000x128 .f32) (r : Fin 640000) (j : Fin 128) :
    mulf (F := Ideal) (subf h (rowsE (F := Ideal) (meanE (F := Ideal) h))) (subf h (rowsE (F := Ideal) (meanE (F := Ideal) h))) (ix2 r j)
      = (h (ix2 r j) - meanE (F := Ideal) h (ix1 j)) * (h (ix2 r j) - meanE (F := Ideal) h (ix1 j)) := by
  simp only [mulf_apply, subf_apply, rowsE_apply]

/-- The reference's edge variance at lane j: the lane's sum of squared deviations from the mean, divided by the row count's word. -/
theorem varE_apply (h : FVec Ideal S640000x128 .f32) (j : Fin 128) :
    varE (F := Ideal) h (ix1 j)
      = Ideal.div (∑ r : Fin 640000, (h (ix2 r j) - meanE (F := Ideal) h (ix1 j)) * (h (ix2 r j) - meanE (F := Ideal) h (ix1 j)))
          (Ideal.ofBits .f32 0x491C4000#32) := by
  unfold varE
  refine (congrArg (Ideal.div · (Ideal.ofBits .f32 0x491C4000#32)) (colsumE_zero _ j)).trans ?_
  simp only [devsqE_apply]

/-- The reference's edge batch normalisation at (r, j). -/
theorem stageY_apply (h : FVec Ideal S640000x128 .f32) (gamma beta : FVec Ideal S128 .f32) (r : Fin 640000) (j : Fin 128) :
    stageY (F := Ideal) h gamma beta (ix2 r j)
      = Gnn.bn (h (ix2 r j)) (meanE (F := Ideal) h (ix1 j)) (varE (F := Ideal) h (ix1 j)) (gamma (ix1 j)) (beta (ix1 j)) := by
  unfold stageY
  simp only [addf_apply, mulf_apply, subf_apply, rowsE_apply]
  rfl

/-! ## The node side: 50000 rows -/

theorem reduces_N : S50000x128.Reduces [0] S128 := by decide

/-- A vector of 128 lane values repeated on every node row reads, at (r, j), the lane's value. -/
theorem rowsN_apply (b : FVec Ideal S128 .f32) (r : Fin 50000) (j : Fin 128) :
    rowsN (F := Ideal) b (ix2 r j) = b (ix1 j) := by
  unfold rowsN
  refine (broadcastInDim_apply _ _ _ (ix2 r j) (ix2 (0 : Fin 1) j) fun a => ?_).trans
    (broadcastInDim_apply _ _ b (ix2 (0 : Fin 1) j) (ix1 j) fun a => ?_)
  · match a with
    | ⟨0, _⟩ => rfl
    | ⟨1, _⟩ => rfl
  · match a with
    | ⟨0, _⟩ => rfl

/-- The host's column sum of a 50000 × 128 array from the initial value z, at lane j. -/
theorem colsumN_apply (x : FVec Ideal S50000x128 .f32) (z : FVec Ideal S_ .f32) (j : Fin 128) :
    Host.reduceAdd (F := Ideal) x z reducesTo_S50000x128_S128_d0 h_S_ (ix1 j)
      = z (Shape.Idx.first h_S_) + ∑ r : Fin 50000, x (ix2 r j) := by
  refine (Ideal.hostReduceAdd_single reducesTo_S50000x128_S128_d0 reduces_N x _ (ix1 j)).trans ?_
  refine congrArg (z (Shape.Idx.first h_S_) + ·) (Finset.sum_congr rfl fun r _ => congrArg x ?_)
  funext a
  match a with
  | ⟨0, _⟩ => rfl
  | ⟨1, _⟩ => rfl

/-- The same from the zero word: just the sum. -/
theorem colsumN_zero (x : FVec Ideal S50000x128 .f32) (j : Fin 128) :
    Host.reduceAdd (F := Ideal) x (constant (F := Ideal) S_ .f32 0x00000000#32) reducesTo_S50000x128_S128_d0 h_S_ (ix1 j)
      = ∑ r : Fin 50000, x (ix2 r j) := by
  rw [colsumN_apply]
  exact (congrArg (· + _) Ideal.ofBits_zero_f32).trans (zero_add _)

/-- The reference's node mean at lane j: the lane's sum over all rows divided by the row count's word. -/
theorem meanN_apply (h : FVec Ideal S50000x128 .f32) (j : Fin 128) :
    meanN (F := Ideal) h (ix1 j) = Ideal.div (∑ r : Fin 50000, h (ix2 r j)) (Ideal.ofBits .f32 0x47435000#32) := by
  unfold meanN
  exact congrArg (Ideal.div · (Ideal.ofBits .f32 0x47435000#32)) (colsumN_zero h j)

/-- A squared deviation from the lane's mean, at (r, j). -/
theorem devsqN_apply (h : FVec Ideal S50000x128 .f32) (r : Fin 50000) (j : Fin 128) :
    mulf (F := Ideal) (subf h (rowsN (F := Ideal) (meanN (F := Ideal) h))) (subf h (rowsN (F := Ideal) (meanN (F := Ideal) h))) (ix2 r j)
      = (h (ix2 r j) - meanN (F := Ideal) h (ix1 j)) * (h (ix2 r j) - meanN (F := Ideal) h (ix1 j)) := by
  simp only [mulf_apply, subf_apply, rowsN_apply]

/-- The reference's node variance at lane j: the lane's sum of squared deviations from the mean, divided by the row count's word. -/
theorem varN_apply (h : FVec Ideal S50000x128 .f32) (j : Fin 128) :
    varN (F := Ideal) h (ix1 j)
      = Ideal.div (∑ r : Fin 50000, (h (ix2 r j) - meanN (F := Ideal) h (ix1 j)) * (h (ix2 r j) - meanN (F := Ideal) h (ix1 j)))
          (Ideal.ofBits .f32 0x47435000#32) := by
  unfold varN
  refine (congrArg (Ideal.div · (Ideal.ofBits .f32 0x47435000#32)) (colsumN_zero _ j)).trans ?_
  simp only [devsqN_apply]

/-- The reference's node batch normalisation at (r, j). -/
theorem stageY2_apply (h : FVec Ideal S50000x128 .f32) (gamma beta : FVec Ideal S128 .f32) (r : Fin 50000) (j : Fin 128) :
    stageY2 (F := Ideal) h gamma beta (ix2 r j)
      = Gnn.bn (h (ix2 r j)) (meanN (F := Ideal) h (ix1 j)) (varN (F := Ideal) h (ix1 j)) (gamma (ix1 j)) (beta (ix1 j)) := by
  unfold stageY2
  simp only [addf_apply, mulf_apply, subf_apply, rowsN_apply]
  rfl

end Cert.ReferenceIdeal.BnRef
-- ==== Proof.SpecBnReal.lean ====
/-
  The normalised value of real entries is a real number.

  The stabiliser's word has sign bit 0 and an exponent field that is neither all zeros nor all
  ones, so it denotes a positive real.  For a real variance v ≥ 0 the sum v + eps is therefore a
  positive real, whose reciprocal square root is the real 1 / √(v + eps); the rest of the formula
  is sums, differences and products of reals.
-/
import proofs.«170818_j15161234555428_1_alg».proof.Proof.SpecBn
import proofs.«170818_j15161234555428_1_alg».proof.Proof.LibRealClosure

namespace Gnn

open Idealize.ShloMosaic LibRealClosure

/-- A single-precision word with sign bit 0 whose exponent field is neither all ones nor all zeros (a positive
    normal number) denotes a positive real. -/
theorem ofBits_f32_pos (b : BitVec 32) (hs : (b.extractLsb' 31 1 == 1#1) = false)
    (h : (b.extractLsb' 23 8).toNat ≠ 2 ^ 8 - 1) (h0 : (b.extractLsb' 23 8).toNat ≠ 0) :
    ∃ r : ℝ, 0 < r ∧ Ideal.ofBits .f32 b = (r : EReal) := by
  show ∃ r : ℝ, 0 < r ∧ Ideal.ieee 8 23 b = (r : EReal)
  unfold Ideal.ieee
  dsimp only
  rw [if_neg h, if_neg h0, hs]
  refine ⟨_, ?_, rfl⟩
  simp only [Bool.false_eq_true, if_false, one_mul]
  positivity

/-- The stabiliser's word denotes a positive real. -/
theorem word_eps_pos : ∃ r : ℝ, 0 < r ∧ Ideal.ofBits .f32 0x3727C5AC#32 = (r : EReal) :=
  ofBits_f32_pos _ (by decide) (by decide) (by decide)

/-- The reciprocal square root of a positive real is a real. -/
theorem isReal_rsqrt_pos {r : ℝ} (hr : 0 < r) : IsReal (Ideal.rsqrt (r : EReal)) := by
  rw [Ideal.rsqrt_coe, if_neg (not_lt.2 hr.le), if_neg hr.ne']
  exact isReal_coe _

/-- The reciprocal square root of a stabilised non-negative real variance is a real. -/
theorem isReal_rsqrt_var {v : EReal} (hv : IsReal v) (hv0 : 0 ≤ v) :
    IsReal (Ideal.rsqrt (v + Ideal.ofBits .f32 0x3727C5AC#32)) := by
  obtain ⟨rv, rfl⟩ := hv
  obtain ⟨re, hre, he⟩ := word_eps_pos
  have hrv : 0 ≤ rv := EReal.coe_nonneg.mp hv0
  rw [he, ← EReal.coe_add]
  exact isReal_rsqrt_pos (by linarith)

/-- Batch normalisation of a real entry with real mean, real non-negative variance, real scale and shift is real. -/
theorem isReal_bn {x mu v g b : EReal} (hx : IsReal x) (hmu : IsReal mu) (hv : IsReal v) (hv0 : 0 ≤ v)
    (hg : IsReal g) (hb : IsReal b) : IsReal (bn x mu v g b) := by
  rw [bn_def]
  exact (((hx.sub hmu).mul (isReal_rsqrt_var hv hv0)).mul hg).add hb

end Gnn
-- ==== Proof.LibMoments.lean ====
import Idealize.ShloMosaic.PureOps.Ideal

/-!
# Two spellings of the variance

For finitely many reals `x i` (`i` in a finite set `s` of `n` elements, `n ≠ 0`) with mean
`m = (∑ x i) / n`, the "mean of squares minus square of the mean" and the "mean of the squared
deviations" are the same number:

  `(∑ x i * x i) / n - m * m = (∑ (x i - m) * (x i - m)) / n`.

Expanding the square gives `∑ x i * x i - 2 m ∑ x i + n m * m`, and `∑ x i = n m`.

The same identity is then stated on the extended reals, for values that are all real, with the
operations spelled as the ideal float instance spells them: sums and products and differences
in `EReal`, and the quotient `Ideal.div` by the real `n`. Both sides are then real.
-/

namespace LibMoments

open Idealize.ShloMosaic
open scoped BigOperators

variable {ι : Type*}

/-! ### On the reals -/

/-- The sum of squared deviations from `m`, expanded. -/
theorem sum_dev_mul (s : Finset ι) (x : ι → ℝ) (m : ℝ) :
    ∑ i ∈ s, (x i - m) * (x i - m)
      = (∑ i ∈ s, x i * x i) - 2 * m * (∑ i ∈ s, x i) + (s.card : ℝ) * (m * m) := by
  have h : ∀ i, (x i - m) * (x i - m) = x i * x i - 2 * m * x i + m * m := fun i => by ring
  simp only [h, Finset.sum_add_distrib, Finset.sum_sub_distrib, ← Finset.mul_sum,
    Finset.sum_const, nsmul_eq_mul]
  ring

/-- Mean of squares minus squared mean is the mean of squared deviations (finite set form). -/
theorem real_moments_finset (s : Finset ι) (x : ι → ℝ) (n : ℝ) (hn : n ≠ 0)
    (hcard : n = (s.card : ℝ)) :
    (∑ i ∈ s, x i * x i) / n - ((∑ i ∈ s, x i) / n) * ((∑ i ∈ s, x i) / n)
      = (∑ i ∈ s, (x i - (∑ k ∈ s, x k) / n) * (x i - (∑ k ∈ s, x k) / n)) / n := by
  rw [sum_dev_mul, ← hcard]
  field_simp
  ring

/-- Mean of squares minus squared mean is the mean of squared deviations (whole finite type). -/
theorem real_moments [Fintype ι] (x : ι → ℝ) (n : ℝ) (hn : n ≠ 0)
    (hcard : n = (Fintype.card ι : ℝ)) :
    (∑ i, x i * x i) / n - ((∑ i, x i) / n) * ((∑ i, x i) / n)
      = (∑ i, (x i - (∑ k, x k) / n) * (x i - (∑ k, x k) / n)) / n :=
  real_moments_finset Finset.univ x n hn (by simpa [Finset.card_univ] using hcard)

/-- The same with the squares written as powers. -/
theorem real_moments_sq [Fintype ι] (x : ι → ℝ) (n : ℝ) (hn : n ≠ 0)
    (hcard : n = (Fintype.card ι : ℝ)) :
    (∑ i, x i ^ 2) / n - ((∑ i, x i) / n) * ((∑ i, x i) / n)
      = (∑ i, (x i - (∑ k, x k) / n) * (x i - (∑ k, x k) / n)) / n := by
  simpa only [pow_two] using real_moments x n hn hcard

/-! ### On the extended reals -/

/-- The embedding of the reals commutes with finite sums. -/
theorem coe_finset_sum (s : Finset ι) (x : ι → ℝ) :
    ((∑ i ∈ s, x i : ℝ) : EReal) = ∑ i ∈ s, (x i : EReal) := by
  classical
  induction s using Finset.induction_on with
  | empty => simp
  | insert a s ha ih => rw [Finset.sum_insert ha, Finset.sum_insert ha, EReal.coe_add, ih]

/-- The ideal quotient of two reals, the divisor not zero, is the real quotient. -/
theorem div_coe (a n : ℝ) (hn : n ≠ 0) : Ideal.div (a : EReal) (n : EReal) = ((a / n : ℝ) : EReal) := by
  have h0 : (n : EReal) ≠ 0 := EReal.coe_ne_zero.mpr hn
  rw [Ideal.div, if_neg h0, ← EReal.coe_inv, ← EReal.coe_mul, div_eq_mul_inv]

/-- Variance identity on extended reals, values given as embedded reals (finite set form). -/
theorem ereal_moments_coe_finset (s : Finset ι) (r : ι → ℝ) (n : ℝ) (hn : n ≠ 0)
    (hcard : n = (s.card : ℝ)) :
    Ideal.div (∑ i ∈ s, (r i : EReal) * (r i : EReal)) (n : EReal)
        - Ideal.div (∑ i ∈ s, (r i : EReal)) (n : EReal) * Ideal.div (∑ i ∈ s, (r i : EReal)) (n : EReal)
      = Ideal.div (∑ i ∈ s, ((r i : EReal) - Ideal.div (∑ k ∈ s, (r k : EReal)) (n : EReal))
            * ((r i : EReal) - Ideal.div (∑ k ∈ s, (r k : EReal)) (n : EReal))) (n : EReal) := by
  simp only [← EReal.coe_mul, ← coe_finset_sum, div_coe _ _ hn, ← EReal.coe_sub]
  exact congrArg _ (real_moments_finset s r n hn hcard)

/-- Both sides of the identity are real: the value, as a real number. -/
theorem ereal_moments_coe_finset_value (s : Finset ι) (r : ι → ℝ) (n : ℝ) (hn : n ≠ 0) :
    Ideal.div (∑ i ∈ s, (r i : EReal) * (r i : EReal)) (n : EReal)
        - Ideal.div (∑ i ∈ s, (r i : EReal)) (n : EReal) * Ideal.div (∑ i ∈ s, (r i : EReal)) (n : EReal)
      = (((∑ i ∈ s, r i * r i) / n - ((∑ i ∈ s, r i) / n) * ((∑ i ∈ s, r i) / n) : ℝ) : EReal) := by
  simp only [← EReal.coe_mul, ← coe_finset_sum, div_coe _ _ hn, ← EReal.coe_sub]

/-- Variance identity on extended reals whose values are all real (finite set form):
    `E[x²] - E[x]² = E[(x - E[x])²]`, with the quotients by the count `n`. -/
theorem ereal_moments_finset (s : Finset ι) (x : ι → EReal) (hx : ∀ i ∈ s, ∃ r : ℝ, x i = r)
    (n : ℝ) (hn : n ≠ 0) (hcard : n = (s.card : ℝ)) :
    Ideal.div (∑ i ∈ s, x i * x i) (n : EReal)
        - Ideal.div (∑ i ∈ s, x i) (n : EReal) * Ideal.div (∑ i ∈ s, x i) (n : EReal)
      = Ideal.div (∑ i ∈ s, (x i - Ideal.div (∑ k ∈ s, x k) (n : EReal))
            * (x i - Ideal.div (∑ k ∈ s, x k) (n : EReal))) (n : EReal) := by
  classical
  have hx' : ∀ i ∈ s, x i = ((x i).toReal : EReal) := fun i hi => by
    obtain ⟨r, hr⟩ := hx i hi; rw [hr, EReal.toReal_coe]
  have e1 : ∑ i ∈ s, x i = ∑ i ∈ s, ((x i).toReal : EReal) := Finset.sum_congr rfl hx'
  have e2 : ∑ i ∈ s, x i * x i = ∑ i ∈ s, ((x i).toReal : EReal) * ((x i).toReal : EReal) :=
    Finset.sum_congr rfl fun i hi => by rw [← hx' i hi]
  have e3 : ∀ m : EReal, ∑ i ∈ s, (x i - m) * (x i - m)
      = ∑ i ∈ s, (((x i).toReal : EReal) - m) * (((x i).toReal : EReal) - m) :=
    fun m => Finset.sum_congr rfl fun i hi => by rw [← hx' i hi]
  rw [e3, e2, e1]
  exact ereal_moments_coe_finset s (fun i => (x i).toReal) n hn hcard

/-- The whole-type form of `ereal_moments_finset`. -/
theorem ereal_moments [Fintype ι] (x : ι → EReal) (hx : ∀ i, ∃ r : ℝ, x i = r)
    (n : ℝ) (hn : n ≠ 0) (hcard : n = (Fintype.card ι : ℝ)) :
    Ideal.div (∑ i, x i * x i) (n : EReal)
        - Ideal.div (∑ i, x i) (n : EReal) * Ideal.div (∑ i, x i) (n : EReal)
      = Ideal.div (∑ i, (x i - Ideal.div (∑ k, x k) (n : EReal))
            * (x i - Ideal.div (∑ k, x k) (n : EReal))) (n : EReal) :=
  ereal_moments_finset Finset.univ x (fun i _ => hx i) n hn
    (by simpa [Finset.card_univ] using hcard)

/-- The left side ("mean of squares minus squared mean") is a real number. -/
theorem ereal_moments_lhs_real [Fintype ι] (x : ι → EReal) (hx : ∀ i, ∃ r : ℝ, x i = r)
    (n : ℝ) (hn : n ≠ 0) :
    ∃ v : ℝ, Ideal.div (∑ i, x i * x i) (n : EReal)
        - Ideal.div (∑ i, x i) (n : EReal) * Ideal.div (∑ i, x i) (n : EReal) = (v : EReal) := by
  choose r hr using hx
  refine ⟨(∑ i, r i * r i) / n - ((∑ i, r i) / n) * ((∑ i, r i) / n), ?_⟩
  simp only [hr]
  exact ereal_moments_coe_finset_value Finset.univ r n hn

/-- The right side ("mean of squared deviations") is a real number. -/
theorem ereal_moments_rhs_real [Fintype ι] (x : ι → EReal) (hx : ∀ i, ∃ r : ℝ, x i = r)
    (n : ℝ) (hn : n ≠ 0) (hcard : n = (Fintype.card ι : ℝ)) :
    ∃ v : ℝ, Ideal.div (∑ i, (x i - Ideal.div (∑ k, x k) (n : EReal))
            * (x i - Ideal.div (∑ k, x k) (n : EReal))) (n : EReal) = (v : EReal) := by
  obtain ⟨v, hv⟩ := ereal_moments_lhs_real x hx n hn
  exact ⟨v, by rw [← ereal_moments x hx n hn hcard, hv]⟩

/-- The mean of real values is real. -/
theorem ereal_mean_real [Fintype ι] (x : ι → EReal) (hx : ∀ i, ∃ r : ℝ, x i = r)
    (n : ℝ) (hn : n ≠ 0) :
    ∃ v : ℝ, Ideal.div (∑ i, x i) (n : EReal) = (v : EReal) := by
  choose r hr using hx
  exact ⟨(∑ i, r i) / n, by simp only [hr, ← coe_finset_sum, div_coe _ _ hn]⟩

end LibMoments
-- ==== Proof.LibWords.lean ====
import Idealize.ShloMosaic.PureOps.Ideal

/-!
# A few single-precision words as extended reals

A single-precision word whose exponent field is not all ones denotes a real number. The words
of `0`, `1`, `50000` and `640000` denote exactly those reals; the words nearest to `0.2` and to
`10⁻⁵` denote some real number (a dyadic rational near the decimal), which is all that is used
of them.
-/

namespace LibWords

open Idealize.ShloMosaic

/-- A word whose exponent field is not all ones denotes a real number. -/
theorem ofBits_f32_real (b : BitVec 32) (h : (b.extractLsb' 23 8).toNat ≠ 2 ^ 8 - 1) :
    ∃ r : ℝ, Ideal.ofBits .f32 b = (r : EReal) := by
  show ∃ r : ℝ, Ideal.ieee 8 23 b = (r : EReal)
  unfold Ideal.ieee
  dsimp only
  rw [if_neg h]
  split_ifs <;> exact ⟨_, rfl⟩

theorem word_zero : Ideal.ofBits .f32 0x00000000#32 = (0 : EReal) := by
  simp [Ideal.ofBits, Ideal.ieee]

theorem word_one : Ideal.ofBits .f32 0x3F800000#32 = (1 : EReal) := by
  simp [Ideal.ofBits, Ideal.ieee]
  rw [← EReal.coe_mul]
  norm_num

theorem word_640000 : Ideal.ofBits .f32 0x491C4000#32 = ((640000 : ℝ) : EReal) := by
  simp [Ideal.ofBits, Ideal.ieee]
  rw [← EReal.coe_mul]
  norm_num

theorem word_50000 : Ideal.ofBits .f32 0x47435000#32 = ((50000 : ℝ) : EReal) := by
  simp [Ideal.ofBits, Ideal.ieee]
  rw [← EReal.coe_mul]
  norm_num

/-- The word nearest to `0.2` is a real number. -/
theorem word_slope_real : ∃ r : ℝ, Ideal.ofBits .f32 0x3E4CCCCD#32 = (r : EReal) :=
  ofBits_f32_real _ (by decide)

/-- The word nearest to `10⁻⁵` is a real number. -/
theorem word_eps_real : ∃ r : ℝ, Ideal.ofBits .f32 0x3727C5AC#32 = (r : EReal) :=
  ofBits_f32_real _ (by decide)

end LibWords
-- ==== Proof.BnJoin.lean ====
/-
  The kernel's and the reference's batch normalisation agree on columns of real numbers.

  The kernel normalises with the variance term  q / n - (s / n) * (s / n)  (s the column's sum, q the sum
  of its squares), the reference with  (∑ (x - s / n)²) / n.  For a column of n real numbers these are the
  same real, so the two normalised values are equal entry by entry; the variance is a real that is not
  negative, the stabilised variance is positive, and the common normalised value is a real.
-/
import proofs.«170818_j15161234555428_1_alg».proof.Proof.BnRef
import proofs.«170818_j15161234555428_1_alg».proof.Proof.SpecBnReal
import proofs.«170818_j15161234555428_1_alg».proof.Proof.LibMoments
import proofs.«170818_j15161234555428_1_alg».proof.Proof.LibWords

noncomputable section

namespace Cert.BnJoin

open Cert.ReferenceIdeal Cert.ReferenceIdeal.Gen Cert.ReferenceIdeal.RefRun Cert.ReferenceIdeal.BnRef
open Idealize.ShloMosaic Idealize.ShloMosaic.ValueIdx LibRealClosure

/-! ## On one column -/

/-- The two spellings of the variance of a column of N reals, the divisor given as a value `w` that is the real N. -/
theorem var_join {N : ℕ} (x : Fin N → EReal) (hx : ∀ r, IsReal (x r)) (w : EReal) (n : ℝ) (hw : w = (n : EReal))
    (hn : n ≠ 0) (hcard : n = (N : ℝ)) :
    Ideal.div (∑ r, x r * x r) w - Ideal.div (∑ r, x r) w * Ideal.div (∑ r, x r) w
      = Ideal.div (∑ r, (x r - Ideal.div (∑ k, x k) w) * (x r - Ideal.div (∑ k, x k) w)) w := by
  subst hw
  exact LibMoments.ereal_moments x hx n hn (by rw [Fintype.card_fin]; exact hcard)

/-- The mean of a column of reals is real. -/
theorem mean_real {N : ℕ} (x : Fin N → EReal) (hx : ∀ r, IsReal (x r)) (w : EReal) (n : ℝ) (hw : w = (n : EReal))
    (hn : n ≠ 0) : IsReal (Ideal.div (∑ r, x r) w) := by
  subst hw
  exact IsReal.div (IsReal.sum_univ x hx) n hn

/-- The mean of the squared deviations of a column of reals from a real is a real, and it is not negative. -/
theorem var_real_nonneg {N : ℕ} (x : Fin N → EReal) (hx : ∀ r, IsReal (x r)) (m : EReal) (hm : IsReal m)
    (w : EReal) (n : ℝ) (hw : w = (n : EReal)) (hn : 0 < n) :
    IsReal (Ideal.div (∑ r, (x r - m) * (x r - m)) w) ∧ 0 ≤ Ideal.div (∑ r, (x r - m) * (x r - m)) w := by
  subst hw
  choose rx hrx using hx
  obtain ⟨rm, rfl⟩ := hm
  have e : ∑ r, (x r - (rm : EReal)) * (x r - (rm : EReal)) = ((∑ r, (rx r - rm) * (rx r - rm) : ℝ) : EReal) := by
    rw [LibMoments.coe_finset_sum]
    refine Finset.sum_congr rfl fun r _ => ?_
    rw [hrx r, ← EReal.coe_sub, ← EReal.coe_mul]
  rw [e, LibMoments.div_coe _ _ hn.ne']
  exact ⟨isReal_coe _, EReal.coe_nonneg.2 (div_nonneg (Finset.sum_nonneg fun r _ => mul_self_nonneg _) hn.le)⟩

/-! ## The edges (640000 rows) -/

/-- The kernel's mean (the total lane sum over the row count) is the reference's mean. -/
theorem meanE_eq (h : FVec Ideal S640000x128 .f32) (j : Fin 128) :
    Ideal.div (∑ r : Fin 640000, h (ix2 r j)) (Ideal.ofBits .f32 0x491C4000#32)
      = meanE (F := Ideal) h (ix1 j) := (meanE_apply h j).symm

/-- On real entries the kernel's variance term (the mean of the squares less the square of the mean) is the
    reference's variance (the mean of the squared deviations). -/
theorem varE_eq (h : FVec Ideal S640000x128 .f32) (hreal : ∀ r j, IsReal (h (ix2 r j))) (j : Fin 128) :
    Ideal.div (∑ r : Fin 640000, h (ix2 r j) * h (ix2 r j)) (Ideal.ofBits .f32 0x491C4000#32)
        - Ideal.div (∑ r : Fin 640000, h (ix2 r j)) (Ideal.ofBits .f32 0x491C4000#32)
          * Ideal.div (∑ r : Fin 640000, h (ix2 r j)) (Ideal.ofBits .f32 0x491C4000#32)
      = varE (F := Ideal) h (ix1 j) := by
  rw [varE_apply, meanE_apply]
  exact var_join (fun r => h (ix2 r j)) (fun r => hreal r j) _ 640000 LibWords.word_640000 (by norm_num) (by norm_num)

/-- Hence the kernel's normalised value is the reference's, at every entry. -/
theorem bnE_eq (h : FVec Ideal S640000x128 .f32) (hreal : ∀ r j, IsReal (h (ix2 r j)))
    (gamma beta : FVec Ideal S128 .f32) (r : Fin 640000) (j : Fin 128) :
    Gnn.bn (h (ix2 r j))
        (Ideal.div (∑ r : Fin 640000, h (ix2 r j)) (Ideal.ofBits .f32 0x491C4000#32))
        (Ideal.div (∑ r : Fin 640000, h (ix2 r j) * h (ix2 r j)) (Ideal.ofBits .f32 0x491C4000#32)
          - Ideal.div (∑ r : Fin 640000, h (ix2 r j)) (Ideal.ofBits .f32 0x491C4000#32)
            * Ideal.div (∑ r : Fin 640000, h (ix2 r j)) (Ideal.ofBits .f32 0x491C4000#32))
        (gamma (ix1 j)) (beta (ix1 j))
      = stageY (F := Ideal) h gamma beta (ix2 r j) := by
  rw [stageY_apply, ← varE_eq h hreal j, meanE_apply]

/-- The reference's mean of real entries is real. -/
theorem meanE_real (h : FVec Ideal S640000x128 .f32) (hreal : ∀ r j, IsReal (h (ix2 r j))) (j : Fin 128) :
    IsReal (meanE (F := Ideal) h (ix1 j)) := by
  rw [meanE_apply]
  exact mean_real (fun r => h (ix2 r j)) (fun r => hreal r j) _ 640000 LibWords.word_640000 (by norm_num)

/-- The reference's variance of real entries is a real, and it is not negative. -/
theorem varE_real_nonneg (h : FVec Ideal S640000x128 .f32) (hreal : ∀ r j, IsReal (h (ix2 r j))) (j : Fin 128) :
    IsReal (varE (F := Ideal) h (ix1 j)) ∧ 0 ≤ varE (F := Ideal) h (ix1 j) := by
  rw [varE_apply]
  exact var_real_nonneg (fun r => h (ix2 r j)) (fun r => hreal r j) _ (meanE_real h hreal j) _ 640000
    LibWords.word_640000 (by norm_num)

/-- So the normalised value of real entries with real scale and shift is real. -/
theorem stageY_real (h : FVec Ideal S640000x128 .f32) (hreal : ∀ r j, IsReal (h (ix2 r j)))
    (gamma beta : FVec Ideal S128 .f32) (hg : ∀ j, IsReal (gamma (ix1 j))) (hb : ∀ j, IsReal (beta (ix1 j)))
    (r : Fin 640000) (j : Fin 128) : IsReal (stageY (F := Ideal) h gamma beta (ix2 r j)) := by
  rw [stageY_apply]
  exact Gnn.isReal_bn (hreal r j) (meanE_real h hreal j) (varE_real_nonneg h hreal j).1
    (varE_real_nonneg h hreal j).2 (hg j) (hb j)

/-! ## The nodes (50000 rows) -/

/-- The kernel's mean (the total lane sum over the row count) is the reference's mean. -/
theorem meanN_eq (h : FVec Ideal S50000x128 .f32) (j : Fin 128) :
    Ideal.div (∑ r : Fin 50000, h (ix2 r j)) (Ideal.ofBits .f32 0x47435000#32)
      = meanN (F := Ideal) h (ix1 j) := (meanN_apply h j).symm

/-- On real entries the kernel's variance term (the mean of the squares less the square of the mean) is the
    reference's variance (the mean of the squared deviations). -/
theorem varN_eq (h : FVec Ideal S50000x128 .f32) (hreal : ∀ r j, IsReal (h (ix2 r j))) (j : Fin 128) :
    Ideal.div (∑ r : Fin 50000, h (ix2 r j) * h (ix2 r j)) (Ideal.ofBits .f32 0x47435000#32)
        - Ideal.div (∑ r : Fin 50000, h (ix2 r j)) (Ideal.ofBits .f32 0x47435000#32)
          * Ideal.div (∑ r : Fin 50000, h (ix2 r j)) (Ideal.ofBits .f32 0x47435000#32)
      = varN (F := Ideal) h (ix1 j) := by
  rw [varN_apply, meanN_apply]
  exact var_join (fun r => h (ix2 r j)) (fun r => hreal r j) _ 50000 LibWords.word_50000 (by norm_num) (by norm_num)

/-- Hence the kernel's normalised value is the reference's, at every entry. -/
theorem bnN_eq (h : FVec Ideal S50000x128 .f32) (hreal : ∀ r j, IsReal (h (ix2 r j)))
    (gamma beta : FVec Ideal S128 .f32) (r : Fin 50000) (j : Fin 128) :
    Gnn.bn (h (ix2 r j))
        (Ideal.div (∑ r : Fin 50000, h (ix2 r j)) (Ideal.ofBits .f32 0x47435000#32))
        (Ideal.div (∑ r : Fin 50000, h (ix2 r j) * h (ix2 r j)) (Ideal.ofBits .f32 0x47435000#32)
          - Ideal.div (∑ r : Fin 50000, h (ix2 r j)) (Ideal.ofBits .f32 0x47435000#32)
            * Ideal.div (∑ r : Fin 50000, h (ix2 r j)) (Ideal.ofBits .f32 0x47435000#32))
        (gamma (ix1 j)) (beta (ix1 j))
      = stageY2 (F := Ideal) h gamma beta (ix2 r j) := by
  rw [stageY2_apply, ← varN_eq h hreal j, meanN_apply]

/-- The reference's mean of real entries is real. -/
theorem meanN_real (h : FVec Ideal S50000x128 .f32) (hreal : ∀ r j, IsReal (h (ix2 r j))) (j : Fin 128) :
    IsReal (meanN (F := Ideal) h (ix1 j)) := by
  rw [meanN_apply]
  exact mean_real (fun r => h (ix2 r j)) (fun r => hreal r j) _ 50000 LibWords.word_50000 (by norm_num)

/-- The reference's variance of real entries is a real, and it is not negative. -/
theorem varN_real_nonneg (h : FVec Ideal S50000x128 .f32) (hreal : ∀ r j, IsReal (h (ix2 r j))) (j : Fin 128) :
    IsReal (varN (F := Ideal) h (ix1 j)) ∧ 0 ≤ varN (F := Ideal) h (ix1 j) := by
  rw [varN_apply]
  exact var_real_nonneg (fun r => h (ix2 r j)) (fun r => hreal r j) _ (meanN_real h hreal j) _ 50000
    LibWords.word_50000 (by norm_num)

/-- So the normalised value of real entries with real scale and shift is real. -/
theorem stageY2_real (h : FVec Ideal S50000x128 .f32) (hreal : ∀ r j, IsReal (h (ix2 r j)))
    (gamma beta : FVec Ideal S128 .f32) (hg : ∀ j, IsReal (gamma (ix1 j))) (hb : ∀ j, IsReal (beta (ix1 j)))
    (r : Fin 50000) (j : Fin 128) : IsReal (stageY2 (F := Ideal) h gamma beta (ix2 r j)) := by
  rw [stageY2_apply]
  exact Gnn.isReal_bn (hreal r j) (meanN_real h hreal j) (varN_real_nonneg h hreal j).1
    (varN_real_nonneg h hreal j).2 (hg j) (hb j)

end Cert.BnJoin
-- ==== Proof.SpecMlp.lean ====
/-
  A three-layer perceptron on one row, as a function of extended reals.

  A dense layer sends a row `x` of `K` entries to the 128 numbers `(∑ k, x k * W k j) + b j`; the leaky
  rectifier keeps a nonnegative number and multiplies a negative one by the slope, the binary32 number
  nearest one fifth (kept as its word: the same word stands wherever the rectifier is met, so it is never
  evaluated here). The perceptron is layer, rectifier, layer, rectifier, layer. The sums and products are
  those of the extended reals, in the order the operations give them: the contraction first, the bias added
  on the right.
-/
import Idealize.ShloMosaic.PureOps.Ideal
import Idealize.ShloMosaic.PureOps.Ideal.Laws
import Idealize.ShloMosaic.Lib.ValueIdx

open scoped BigOperators

noncomputable section

namespace Gnn

open Idealize.ShloMosaic

/-- The leaky rectifier: the identity on the nonnegative numbers, multiplication by the slope below zero. -/
def lrelu (x : EReal) : EReal := if 0 ≤ x then x else Ideal.ofBits .f32 0x3E4CCCCD#32 * x

/-- The ideal "greater or equal" comparison answers `1` exactly when the order says so. -/
theorem cmp_oge_eq_one (x z : EReal) : Ideal.cmp .oge x z = (1 : BitVec 1) ↔ z ≤ x := by
  unfold Ideal.cmp
  by_cases h : z ≤ x <;> simp [h]

/-- A select on the ideal comparison with zero, between a number and a multiple of it, is the choice on the order. -/
theorem select_cmp_oge_zero (x c : EReal) :
    Scalar.select (Ideal.cmp .oge x 0) x (c * x) = if 0 ≤ x then x else c * x := by
  unfold Scalar.select
  by_cases h : (0 : EReal) ≤ x
  · rw [if_pos h, if_pos ((cmp_oge_eq_one x 0).2 h)]
  · rw [if_neg h, if_neg (fun hc => h ((cmp_oge_eq_one x 0).1 hc))]

/-- The rectifier in the form a comparison with the zero word, a product with the slope word and a select give it. -/
theorem lrelu_select (x : EReal) :
    Scalar.select (Ideal.cmp .oge x (Ideal.ofBits .f32 0x00000000#32)) x (Ideal.ofBits .f32 0x3E4CCCCD#32 * x) = lrelu x := by
  rw [Ideal.ofBits_zero_f32]
  exact select_cmp_oge_zero x _

/-- One dense layer at output column `j`: the contraction of the row with column `j` of the weights, plus the bias. -/
def layer {K : ℕ} (x : Fin K → EReal) (W : Fin K → Fin 128 → EReal) (b : Fin 128 → EReal) (j : Fin 128) : EReal :=
  (∑ k : Fin K, x k * W k j) + b j

/-- The three-layer perceptron on a row, at output column `j`. -/
def mlpRow {K : ℕ} (x : Fin K → EReal) (W1 : Fin K → Fin 128 → EReal) (b1 : Fin 128 → EReal)
    (W2 : Fin 128 → Fin 128 → EReal) (b2 : Fin 128 → EReal) (W3 : Fin 128 → Fin 128 → EReal) (b3 : Fin 128 → EReal)
    (j : Fin 128) : EReal :=
  layer (fun k => lrelu (layer (fun k' => lrelu (layer x W1 b1 k')) W2 b2 k)) W3 b3 j

end Gnn
-- ==== Proof.LibMatmul.lean ====
/-
  A plain matrix product and a two-axis transpose, read at an index.

  For `l : [M, K]` and `r : [K, N]` the contraction with dimension numbers "contract axis 1 of the left operand with
  axis 0 of the right one, no batch axis" has at `(i, j)`, at the ideal values, the sum over `k` of `l(i, k) · r(k, j)`:
  for the matrix unit's product into the zero accumulator and for the host's general dot alike. The contraction's own
  index set has one axis of extent `K`; the sum is re-indexed through the bijection with `Fin K`, and the two operand
  indices at `(i, j)` and `k` are `(i, k)` and `(k, j)` coordinate by coordinate.
  The transpose with permutation `[1, 0]` of `x : [A, B]` has at `(b, a)` the element `x(a, b)`.
-/
import Idealize.ShloMosaic.PureOps.Ideal.Laws
import Idealize.ShloMosaic.Lib.ValueIdx
import Idealize.ShloMosaic.Lib.Pipeline.Value
open scoped BigOperators
noncomputable section
namespace Cert.MatOps
open Idealize.ShloMosaic Idealize.ShloMosaic.ValueIdx

section Plain
variable {M K N : Nat}

/-- The contraction index set of the plain product is `Fin K`. -/
abbrev plainContr (M K N : Nat) : (DotDims.plain M K N).contr.Idx ≃ Fin K :=
  contrEquiv1 (DotDims.plain M K N) K rfl rfl

/-- The left operand's index at output `(i, j)` and contraction coordinate `k` is `(i, k)`. -/
theorem plain_lhsIdx (i : Fin M) (j : Fin N) (k : Fin K) :
    (DotDims.plain M K N).lhsIdx (ix2 i j) ((plainContr M K N).symm k) = ix2 i k := by
  have hk := contrEquiv1_symm_val (DotDims.plain M K N) K rfl rfl k
  funext a
  refine Fin.ext ?_
  match a with
  | ⟨0, _⟩ => rfl
  | ⟨1, _⟩ => exact ((DotDims.plain M K N).lhsIdx_val_of_single rfl (ix2 i j) _).trans hk

/-- The right operand's index at output `(i, j)` and contraction coordinate `k` is `(k, j)`. -/
theorem plain_rhsIdx (i : Fin M) (j : Fin N) (k : Fin K) :
    (DotDims.plain M K N).rhsIdx (ix2 i j) ((plainContr M K N).symm k) = ix2 k j := by
  have hk := contrEquiv1_symm_val (DotDims.plain M K N) K rfl rfl k
  funext a
  refine Fin.ext ?_
  match a with
  | ⟨0, _⟩ => exact ((DotDims.plain M K N).rhsIdx_val_of_single rfl (ix2 i j) _).trans hk
  | ⟨1, _⟩ => rfl

/-- The contraction's sum over its own index set is the sum over `k : Fin K` of the products at `(i, k)`, `(k, j)`. -/
theorem plain_sum (l : (⟨2, ![M, K]⟩ : Shape).Idx → EReal) (r : (⟨2, ![K, N]⟩ : Shape).Idx → EReal) (i : Fin M) (j : Fin N) :
    ∑ q : (DotDims.plain M K N).contr.Idx, l ((DotDims.plain M K N).lhsIdx (ix2 i j) q) * r ((DotDims.plain M K N).rhsIdx (ix2 i j) q)
      = ∑ k : Fin K, l (ix2 i k) * r (ix2 k j) := by
  rw [← Equiv.sum_comp (plainContr M K N).symm]
  refine Finset.sum_congr rfl fun k _ => ?_
  rw [plain_lhsIdx, plain_rhsIdx]

end Plain

theorem matmul_plain_zero_apply {M K N : Nat} {φ₁ φ₂ : FTy} (prec : Option ContractPrecision) (l : FVec Ideal ⟨2, ![M, K]⟩ φ₁) (r : FVec Ideal ⟨2, ![K, N]⟩ φ₂) (i : Fin M) (j : Fin N) :
    matmul (F := Ideal) (DotDims.plain M K N) prec l r (constant ⟨2, ![M, N]⟩ .f32 0x00000000#32) (ix2 i j) = ∑ k : Fin K, l (ix2 i k) * r (ix2 k j) := by
  simp only [matmul]
  rw [Ideal.matmul_constant_zero_apply]
  exact plain_sum l r i j

theorem dotGeneral_plain_apply {M K N : Nat} {φ₁ φ₂ : FTy} (prec : Option ContractPrecision) (l : FVec Ideal ⟨2, ![M, K]⟩ φ₁) (r : FVec Ideal ⟨2, ![K, N]⟩ φ₂) (i : Fin M) (j : Fin N) :
    Host.dotGeneral (F := Ideal) (DotDims.plain M K N) prec l r (ix2 i j) = ∑ k : Fin K, l (ix2 i k) * r (ix2 k j) := by
  simp only [Host.dotGeneral]
  rw [Ideal.dotGeneral_apply]
  exact plain_sum l r i j

theorem transpose10_apply {α : Type} {A B : Nat} (x : (⟨2, ![A, B]⟩ : Shape).Idx → α) (h : (⟨2, ![A, B]⟩ : Shape).Transposes [1, 0] ⟨2, ![B, A]⟩) (b : Fin B) (a : Fin A) :
    transpose ⟨2, ![B, A]⟩ [1, 0] x h (ix2 b a) = x (ix2 a b) :=
  transpose_apply [1, 0] x h (ix2 b a) (ix2 a b) (fun c => match c with
    | ⟨0, _⟩ => rfl
    | ⟨1, _⟩ => rfl)
end Cert.MatOps
-- ==== Proof.MlpHost.lean ====
/-
  The host's dense layer and leaky rectifier read at an index.

  On the host a dense layer is a general dot (contract axis 1 of the rows with axis 0 of the weights) plus
  the bias vector made a row and repeated on every row; at the ideal values its entry at `(r, j)` is the sum
  over `k` of the products, plus entry `j` of the bias. The rectifier compares with a splat of the zero
  word, multiplies by a splat of the slope word and selects.
-/
import proofs.«170818_j15161234555428_1_alg».proof.Proof.SpecMlp
import proofs.«170818_j15161234555428_1_alg».proof.Proof.LibMatmul
import Idealize.ShloMosaic.Lib.Pipeline.Value

open scoped BigOperators

noncomputable section

namespace Cert.MlpHost

open Idealize.ShloMosaic Idealize.ShloMosaic.ValueIdx

/-- A vector of 128 entries made a row and repeated on `M` rows reads, at `(r, j)`, its entry `j`. -/
theorem rows_apply {α : Type} {M : ℕ} (b : (⟨1, ![128]⟩ : Shape).Idx → α)
    (h1 : (⟨1, ![128]⟩ : Shape).BroadcastsInDim ⟨2, ![1, 128]⟩ ![1])
    (h2 : (⟨2, ![1, 128]⟩ : Shape).BroadcastsInDim ⟨2, ![M, 128]⟩ ![0, 1]) (r : Fin M) (j : Fin 128) :
    broadcastInDim ⟨2, ![M, 128]⟩ ![0, 1] h2 (broadcastInDim ⟨2, ![1, 128]⟩ ![1] h1 b) (ix2 r j) = b (ix1 j) := by
  refine (broadcastInDim_apply ![0, 1] h2 _ (ix2 r j) (ix2 (0 : Fin 1) j) fun a => ?_).trans ?_
  · match a with
    | ⟨0, _⟩ => rfl
    | ⟨1, _⟩ => rfl
  · refine broadcastInDim_apply ![1] h1 b (ix2 (0 : Fin 1) j) (ix1 j) fun a => ?_
    match a with
    | ⟨0, _⟩ => rfl

/-- The rectifier as the host spells it, read at an index. -/
theorem leaky_apply {t : Shape} (h : (⟨0, ![]⟩ : Shape).BroadcastsInDim t ![]) (x : FVec Ideal t .f32) (i : t.Idx) :
    select (cmpf .oge x (broadcastInDim t ![] h (constant (F := Ideal) ⟨0, ![]⟩ .f32 0x00000000#32))) x
        (mulf (broadcastInDim t ![] h (constant (F := Ideal) ⟨0, ![]⟩ .f32 0x3E4CCCCD#32)) x) i
      = Gnn.lrelu (x i) :=
  Gnn.lrelu_select (x i)

/-- The host's general dot plus the bias repeated on every row, read at `(r, j)`, is the dense layer of row `r`. -/
theorem dense_apply {M K : ℕ} (x : FVec Ideal ⟨2, ![M, K]⟩ .f32) (w : FVec Ideal ⟨2, ![K, 128]⟩ .f32)
    (b : FVec Ideal ⟨1, ![128]⟩ .f32)
    (h1 : (⟨1, ![128]⟩ : Shape).BroadcastsInDim ⟨2, ![1, 128]⟩ ![1])
    (h2 : (⟨2, ![1, 128]⟩ : Shape).BroadcastsInDim ⟨2, ![M, 128]⟩ ![0, 1]) (r : Fin M) (j : Fin 128) :
    addf (Host.dotGeneral (F := Ideal) (DotDims.plain M K 128) none x w)
        (broadcastInDim ⟨2, ![M, 128]⟩ ![0, 1] h2 (broadcastInDim ⟨2, ![1, 128]⟩ ![1] h1 b)) (ix2 r j)
      = Gnn.layer (fun k : Fin K => x (ix2 r k)) (fun k k' => w (ix2 k k')) (fun k => b (ix1 k)) j := by
  rw [addf_apply, Cert.MatOps.dotGeneral_plain_apply, rows_apply]
  rfl

end Cert.MlpHost
-- ==== Proof.MlpRef.lean ====
/-
  The reference's two perceptrons read at an index.

  The edge network of the reference (three affine layers, the leaky rectifier after the first two) has, at
  row `r` and column `j`, the three-layer perceptron of row `r` of its input; the node network likewise.
-/
import proofs.«170818_j15161234555428_1_alg».proof.Proof.Ref.Stages
import proofs.«170818_j15161234555428_1_alg».proof.Proof.MlpHost

open scoped BigOperators

noncomputable section

namespace Cert.ReferenceIdeal.MlpValue

open Idealize.ShloMosaic Idealize.ShloMosaic.ValueIdx Cert.ReferenceIdeal Cert.ReferenceIdeal.Gen Cert.ReferenceIdeal.RefRun

/-! ## The edge network -/

/-- The printed dimension numbers are the plain product's. -/
theorem dotE384_eq : dot_S640000x384_S384x128_S640000x128_1_0_0_1_n_n = DotDims.plain 640000 384 128 := rfl

theorem dotE128_eq : dot_S640000x128_S128x128_S640000x128_1_0_0_1_n_n = DotDims.plain 640000 128 128 := rfl

/-- The edge network at `(r, j)` is the perceptron of row `r` of its input. -/
theorem stageH_apply (z : (⟨S640000x384, .f32⟩ : BufTy).Contents (Elt Ideal)) (w1 : (⟨S384x128, .f32⟩ : BufTy).Contents (Elt Ideal))
    (b1 : (⟨S128, .f32⟩ : BufTy).Contents (Elt Ideal)) (w2 : (⟨S128x128, .f32⟩ : BufTy).Contents (Elt Ideal))
    (b2 : (⟨S128, .f32⟩ : BufTy).Contents (Elt Ideal)) (w3 : (⟨S128x128, .f32⟩ : BufTy).Contents (Elt Ideal))
    (b3 : (⟨S128, .f32⟩ : BufTy).Contents (Elt Ideal)) (r : Fin 640000) (j : Fin 128) :
    stageH (F := Ideal) z w1 b1 w2 b2 w3 b3 (ix2 r j)
      = Gnn.mlpRow (fun k : Fin 384 => z (ix2 r k)) (fun k k' => w1 (ix2 k k')) (fun k => b1 (ix1 k))
          (fun k k' => w2 (ix2 k k')) (fun k => b2 (ix1 k)) (fun k k' => w3 (ix2 k k')) (fun k => b3 (ix1 k)) j := by
  unfold Gnn.mlpRow stageH leakyE rowsE
  simp only [dotE384_eq, dotE128_eq]
  refine (Cert.MlpHost.dense_apply (M := 640000) (K := 128) _ w3 b3 _ _ r j).trans ?_
  refine congrArg (fun f => Gnn.layer f (fun a b => w3 (ix2 a b)) (fun a => b3 (ix1 a)) j) (funext fun k => ?_)
  refine (Cert.MlpHost.leaky_apply _ _ (ix2 r k)).trans (congrArg Gnn.lrelu ?_)
  refine (Cert.MlpHost.dense_apply (M := 640000) (K := 128) _ w2 b2 _ _ r k).trans ?_
  refine congrArg (fun f => Gnn.layer f (fun a b => w2 (ix2 a b)) (fun a => b2 (ix1 a)) k) (funext fun k' => ?_)
  refine (Cert.MlpHost.leaky_apply _ _ (ix2 r k')).trans (congrArg Gnn.lrelu ?_)
  exact Cert.MlpHost.dense_apply (M := 640000) (K := 384) z w1 b1 _ _ r k'

/-! ## The node network -/

theorem dotN256_eq : dot_S50000x256_S256x128_S50000x128_1_0_0_1_n_n = DotDims.plain 50000 256 128 := rfl

theorem dotN128_eq : dot_S50000x128_S128x128_S50000x128_1_0_0_1_n_n = DotDims.plain 50000 128 128 := rfl

/-- The node network at `(r, j)` is the perceptron of row `r` of its input. -/
theorem stageH2_apply (z : (⟨S50000x256, .f32⟩ : BufTy).Contents (Elt Ideal)) (w1 : (⟨S256x128, .f32⟩ : BufTy).Contents (Elt Ideal))
    (b1 : (⟨S128, .f32⟩ : BufTy).Contents (Elt Ideal)) (w2 : (⟨S128x128, .f32⟩ : BufTy).Contents (Elt Ideal))
    (b2 : (⟨S128, .f32⟩ : BufTy).Contents (Elt Ideal)) (w3 : (⟨S128x128, .f32⟩ : BufTy).Contents (Elt Ideal))
    (b3 : (⟨S128, .f32⟩ : BufTy).Contents (Elt Ideal)) (r : Fin 50000) (j : Fin 128) :
    stageH2 (F := Ideal) z w1 b1 w2 b2 w3 b3 (ix2 r j)
      = Gnn.mlpRow (fun k : Fin 256 => z (ix2 r k)) (fun k k' => w1 (ix2 k k')) (fun k => b1 (ix1 k))
          (fun k k' => w2 (ix2 k k')) (fun k => b2 (ix1 k)) (fun k k' => w3 (ix2 k k')) (fun k => b3 (ix1 k)) j := by
  unfold Gnn.mlpRow stageH2 leakyN rowsN
  simp only [dotN256_eq, dotN128_eq]
  refine (Cert.MlpHost.dense_apply (M := 50000) (K := 128) _ w3 b3 _ _ r j).trans ?_
  refine congrArg (fun f => Gnn.layer f (fun a b => w3 (ix2 a b)) (fun a => b3 (ix1 a)) j) (funext fun k => ?_)
  refine (Cert.MlpHost.leaky_apply _ _ (ix2 r k)).trans (congrArg Gnn.lrelu ?_)
  refine (Cert.MlpHost.dense_apply (M := 50000) (K := 128) _ w2 b2 _ _ r k).trans ?_
  refine congrArg (fun f => Gnn.layer f (fun a b => w2 (ix2 a b)) (fun a => b2 (ix1 a)) k) (funext fun k' => ?_)
  refine (Cert.MlpHost.leaky_apply _ _ (ix2 r k')).trans (congrArg Gnn.lrelu ?_)
  exact Cert.MlpHost.dense_apply (M := 50000) (K := 256) z w1 b1 _ _ r k'

end Cert.ReferenceIdeal.MlpValue
-- ==== Proof.SpecMlpReal.lean ====
/-
  The perceptron of real numbers is a real number.

  A dense layer is a finite sum of products plus a bias, the leaky rectifier a choice between a number and
  its product with the slope (a real: the slope word's exponent field is not all ones). So if the row, the
  weights and the biases are reals, so is every output of the three-layer perceptron.
-/
import proofs.«170818_j15161234555428_1_alg».proof.Proof.SpecMlp
import proofs.«170818_j15161234555428_1_alg».proof.Proof.LibRealClosure
import proofs.«170818_j15161234555428_1_alg».proof.Proof.LibWords

open scoped BigOperators

namespace Gnn

open Idealize.ShloMosaic LibRealClosure

/-- The rectifier of a real is real. -/
theorem isReal_lrelu {x : EReal} (hx : IsReal x) : IsReal (lrelu x) :=
  hx.leaky LibWords.word_slope_real

/-- A dense layer of reals is real. -/
theorem isReal_layer {K : ℕ} {x : Fin K → EReal} {W : Fin K → Fin 128 → EReal} {b : Fin 128 → EReal}
    (hx : ∀ k, IsReal (x k)) (hW : ∀ k j, IsReal (W k j)) (hb : ∀ j, IsReal (b j)) (j : Fin 128) :
    IsReal (layer x W b j) :=
  (IsReal.sum_univ _ fun k => (hx k).mul (hW k j)).add (hb j)

/-- The three-layer perceptron of reals is real. -/
theorem isReal_mlpRow {K : ℕ} {x : Fin K → EReal} {W1 : Fin K → Fin 128 → EReal} {b1 : Fin 128 → EReal}
    {W2 : Fin 128 → Fin 128 → EReal} {b2 : Fin 128 → EReal} {W3 : Fin 128 → Fin 128 → EReal} {b3 : Fin 128 → EReal}
    (hx : ∀ k, IsReal (x k)) (hW1 : ∀ k j, IsReal (W1 k j)) (hb1 : ∀ j, IsReal (b1 j))
    (hW2 : ∀ k j, IsReal (W2 k j)) (hb2 : ∀ j, IsReal (b2 j)) (hW3 : ∀ k j, IsReal (W3 k j)) (hb3 : ∀ j, IsReal (b3 j))
    (j : Fin 128) : IsReal (mlpRow x W1 b1 W2 b2 W3 b3 j) :=
  isReal_layer (fun k => isReal_lrelu (isReal_layer (fun k' => isReal_lrelu (isReal_layer hx hW1 hb1 k')) hW2 hb2 k)) hW3 hb3 j

end Gnn
-- ==== Proof.LibRealOps.lean ====
import Idealize.ShloMosaic.PureOps
import proofs.«170818_j15161234555428_1_alg».proof.Proof.LibRealClosure

/-!
# Host operations that keep every entry real

An array of extended reals all of whose entries are real stays so under the host operations
that only move entries (a gather, a broadcast, a concatenation: each entry of the result is an
entry of an operand), under the accumulating scatter (an entry plus a finite sum of update
entries), under the entrywise maximum, and under the entrywise quotient by an array with no
zero entry. A maximum with a number that is at least one is not zero.
-/

namespace LibRealOps

open Idealize.ShloMosaic LibRealClosure
open scoped BigOperators

variable {s t : Shape}

/-- A gather reads entries of its operand. -/
theorem gather_real {si : Shape} {w : Nat} (d : GatherDims s si t) (x : s.Idx → EReal) (idx : IVec si w)
    (hx : ∀ i, IsReal (x i)) (j : t.Idx) : IsReal (Host.gather d x idx j) := hx _

/-- A broadcast reads entries of its operand. -/
theorem broadcastInDim_real (dims : Fin s.rank → Fin t.rank) (h : s.BroadcastsInDim t dims) (x : s.Idx → EReal)
    (hx : ∀ i, IsReal (x i)) (j : t.Idx) : IsReal (broadcastInDim t dims h x j) := hx _

/-- Every entry of a concatenation is an entry of one of the pieces. -/
theorem concatenate_mem {α : Type} (a : Fin t.rank) (xs : List ((s : Shape) × (s.Idx → α)))
    (h : Shape.Concatenates (xs.map (·.1)) t a) (j : t.Idx) :
    ∃ p ∈ xs, ∃ k, concatenate t a xs h j = p.2 k := by
  unfold concatenate
  exact ⟨_, List.getElem_mem _, _, rfl⟩

/-- A concatenation of arrays with real entries has real entries. -/
theorem concatenate_real (a : Fin t.rank) (xs : List ((s : Shape) × (s.Idx → EReal)))
    (h : Shape.Concatenates (xs.map (·.1)) t a) (hx : ∀ p ∈ xs, ∀ k, IsReal (p.2 k)) (j : t.Idx) :
    IsReal (concatenate t a xs h j) := by
  obtain ⟨p, hp, k, e⟩ := concatenate_mem a xs h j
  rw [e]; exact hx p hp k

/-- The accumulating scatter of real updates into a real array has real entries. -/
theorem scatterAdd_real {φ : FTy} {si u : Shape} {w : Nat} (d : ScatterDims s si u) (x : FVec Ideal s φ)
    (idx : IVec si w) (upd : FVec Ideal u φ) (hx : ∀ i, IsReal (x i)) (hu : ∀ k, IsReal (upd k)) (i : s.Idx) :
    IsReal (Host.scatterAdd d x idx upd i) :=
  (hx i).add (IsReal.sum _ _ fun k _ => hu k)

/-- A constant array of a real word has real entries. -/
theorem constant_real {φ : FTy} (s : Shape) (b : BitVec φ.bits) (h : IsReal (Ideal.ofBits φ b)) (i : s.Idx) :
    IsReal ((constant s φ b : FVec Ideal s φ) i) := h

/-- The entrywise maximum of real arrays has real entries. -/
theorem maximumf_real {φ : FTy} (x y : FVec Ideal s φ) (hx : ∀ i, IsReal (x i)) (hy : ∀ i, IsReal (y i))
    (i : s.Idx) : IsReal (maximumf x y i) := (hx i).max (hy i)

/-- A maximum with entries that are at least one has no zero entry. -/
theorem maximumf_ne_zero {φ : FTy} (x y : FVec Ideal s φ) (hy : ∀ i, (1 : EReal) ≤ y i) (i : s.Idx) :
    maximumf x y i ≠ 0 := by
  have h1 : (1 : EReal) ≤ maximumf x y i := le_trans (hy i) (le_max_right (x i) (y i))
  intro h0
  rw [h0] at h1
  exact absurd h1 (by norm_num)

/-- The entrywise host quotient of real arrays, the divisor without a zero entry, has real entries. -/
theorem hostDivf_real {φ : FTy} (x y : FVec Ideal s φ) (hx : ∀ i, IsReal (x i)) (hy : ∀ i, IsReal (y i))
    (h0 : ∀ i, y i ≠ 0) (i : s.Idx) : IsReal (Host.divf x y i) := (hx i).div' (hy i) (h0 i)

end LibRealOps
-- ==== Proof.RealChains.lean ====
import proofs.«170818_j15161234555428_1_alg».proof.Proof.Ref.Stages
import proofs.«170818_j15161234555428_1_alg».proof.Proof.LibRealOps
import proofs.«170818_j15161234555428_1_alg».proof.Proof.LibWords

/-!
# The two host stages between the networks keep every entry real

The input of the edge network puts side by side two gathered node rows and the edge's own
features: every entry is an entry of the node array or of the edge array, whatever the index
words are. The input of the node network puts side by side, per node, the sum of the edge
activations that name the node divided by their count (the count made at least one) and the
node's own features: a finite sum of reals divided by a real that is at least one, hence not
zero, is a real.
-/

namespace Cert.ReferenceIdeal.RefRun

open Cert.ReferenceIdeal Idealize.ShloMosaic LibRealClosure

/-- The word of `0` is real. -/
theorem word0_real : IsReal (Ideal.ofBits .f32 0x00000000#32) := by
  rw [LibWords.word_zero]; exact isReal_zero

/-- The word of `1` is real. -/
theorem word1_real : IsReal (Ideal.ofBits .f32 0x3F800000#32) := by
  rw [LibWords.word_one]; exact isReal_one

/-- Every entry of the edge network's input is real when the node and edge features are. -/
theorem stageZ_real (node : (⟨S50000x128, .f32⟩ : BufTy).Contents (Elt Ideal))
    (edge : (⟨S640000x128, .f32⟩ : BufTy).Contents (Elt Ideal))
    (idx1 idx2 : (⟨S640000, .i32⟩ : BufTy).Contents (Elt Ideal))
    (hn : ∀ i, IsReal (node i)) (he : ∀ i, IsReal (edge i)) (j : S640000x384.Idx) :
    IsReal (stageZ (F := Ideal) node edge idx1 idx2 j) := by
  unfold stageZ
  refine LibRealOps.concatenate_real _ _ _ ?_ j
  intro p hp k
  simp only [List.mem_cons, List.not_mem_nil, or_false] at hp
  rcases hp with rfl | rfl | rfl
  · exact LibRealOps.gather_real _ node _ hn k
  · exact LibRealOps.gather_real _ node _ hn k
  · exact he k

/-- The count column (at least one) is real. -/
theorem degree_real (idx1 : (⟨S640000, .i32⟩ : BufTy).Contents (Elt Ideal)) (i : S50000x1.Idx) :
    IsReal (degree (F := Ideal) idx1 i) := by
  unfold degree
  refine LibRealOps.maximumf_real _ _ (fun i => ?_) (fun i => ?_) i
  · exact LibRealOps.scatterAdd_real _ _ _ _ (fun _ => word0_real) (fun _ => word1_real) i
  · exact word1_real

/-- The count column (at least one) has no zero entry. -/
theorem degree_ne_zero (idx1 : (⟨S640000, .i32⟩ : BufTy).Contents (Elt Ideal)) (i : S50000x1.Idx) :
    degree (F := Ideal) idx1 i ≠ 0 := by
  unfold degree
  refine LibRealOps.maximumf_ne_zero _ _ (fun i => ?_) i
  show (1 : EReal) ≤ Ideal.ofBits .f32 0x3F800000#32
  rw [LibWords.word_one]

/-- Every entry of the node network's input is real when the edge activations and the node features are. -/
theorem stageZ2_real (y : (⟨S640000x128, .f32⟩ : BufTy).Contents (Elt Ideal))
    (idx1 : (⟨S640000, .i32⟩ : BufTy).Contents (Elt Ideal))
    (node : (⟨S50000x128, .f32⟩ : BufTy).Contents (Elt Ideal))
    (hy : ∀ i, IsReal (y i)) (hn : ∀ i, IsReal (node i)) (j : S50000x256.Idx) :
    IsReal (stageZ2 (F := Ideal) y idx1 node j) := by
  unfold stageZ2
  refine LibRealOps.concatenate_real _ _ _ ?_ j
  intro p hp k
  simp only [List.mem_cons, List.not_mem_nil, or_false] at hp
  rcases hp with rfl | rfl
  · refine LibRealOps.hostDivf_real _ _ (fun i => ?_) (fun i => ?_) (fun i => ?_) k
    · exact LibRealOps.scatterAdd_real _ _ _ _ (fun _ => word0_real) hy i
    · exact degree_real idx1 _
    · exact degree_ne_zero idx1 _
  · exact hn k

end Cert.ReferenceIdeal.RefRun
-- ==== Proof.Bridge.Edge.lean ====
import proofs.«170818_j15161234555428_1_alg».proof.Proof.KI.Reads
import proofs.«170818_j15161234555428_1_alg».proof.Proof.KI.HostStages
import proofs.«170818_j15161234555428_1_alg».proof.Proof.BnHost
import proofs.«170818_j15161234555428_1_alg».proof.Proof.BnJoin
import proofs.«170818_j15161234555428_1_alg».proof.Proof.MlpRef
import proofs.«170818_j15161234555428_1_alg».proof.Proof.SpecMlpReal
import proofs.«170818_j15161234555428_1_alg».proof.Proof.RealChains
import proofs.«170818_j15161234555428_1_alg».proof.Proof.Bridge.Setting

/-!
# The edge half of the bridge

The first launch computes, block of rows by block of rows, the three-layer network of the rows of the edge
network's input, and the column sums of its values and of their squares; the host divides these by the row
count, and the second launch normalises every entry with the resulting mean and "mean of squares less squared
mean". The reference computes the same network, the mean, and the mean of the squared deviations. On real
inputs every value of the network is real, so the two variances are one number and the two normalised arrays
agree entry by entry; the residual sum adds the same edge features on both sides.
-/

set_option maxRecDepth 16384

open scoped BigOperators

noncomputable section

namespace Cert.Bridge

open Cert.KernelIdeal Cert.KernelIdeal.Gen Cert.KernelIdeal.GenP
open Idealize.ShloMosaic Idealize.ShloMosaic.TcCoe Idealize.SL.Sem Idealize.ShloMosaic.ValueIdx
open Cert.ReferenceIdeal.RefRun (stageZ stageH stageY stageZ2 stageH2 stageY2)
open LibRealClosure (IsReal)

variable (m : (ℓ : Loc nD τ sig) → Buf (Elt Ideal) ℓ) (c : Dev nD)
variable (H0 : Run.Half0 Ideal) (H1 : Run.Half1 Ideal)

/-! ## The reference's side on real arguments -/

/-- Every value of the edge network is a real. -/
theorem Hedge_real (hR : RealArgs m c) (r : Fin 640000) (j : Fin 128) : IsReal (Hedge m c (ix2 r j)) := by
  rw [show Hedge m c (ix2 r j) = _ from Cert.ReferenceIdeal.MlpValue.stageH_apply _ _ _ _ _ _ _ r j]
  exact Gnn.isReal_mlpRow (fun k => Cert.ReferenceIdeal.RefRun.stageZ_real _ _ _ _ hR.h0 hR.h1 _) (fun k k' => hR.h4 _)
    (fun k => hR.h5 _) (fun k k' => hR.h6 _) (fun k => hR.h7 _) (fun k k' => hR.h8 _) (fun k => hR.h9 _) j

/-- Every normalised edge activation is a real. -/
theorem edge_y_real (hR : RealArgs m c) (i : S640000x128.Idx) : IsReal (Y m c i) := by
  obtain ⟨r, j, rfl⟩ : ∃ (r : Fin 640000) (j : Fin 128), i = ix2 r j := ⟨i 0, i 1, eq_ix2 (n0 := 640000) (n1 := 128) i⟩
  exact Cert.BnJoin.stageY_real (Hedge m c) (Hedge_real m c hR) (A16 m c) (A17 m c) (fun j => hR.h16 _) (fun j => hR.h17 _) _ _

/-! ## The edge half -/

/-- The first launch's final array of activations. -/
abbrev arr07 : S640000x128.Idx → EReal := (H0.dat (Run.V1 m) c).arrAt 7 cfg0.N
/-- The first launch's final column sums. -/
abbrev arr08 : S1x128.Idx → EReal := (H0.dat (Run.V1 m) c).arrAt 8 cfg0.N
/-- The first launch's final column sums of squares. -/
abbrev arr09 : S1x128.Idx → EReal := (H0.dat (Run.V1 m) c).arrAt 9 cfg0.N
/-- The second launch's final array of normalised activations. -/
abbrev arr16 : S640000x128.Idx → EReal := (H1.dat (Run.V3 m H0) c).arrAt 6 cfg1.N
/-- The second launch's final array of residual sums. -/
abbrev arr17 : S640000x128.Idx → EReal := (H1.dat (Run.V3 m H0) c).arrAt 7 cfg1.N
/-- The edge features as the second launch reads them. -/
abbrev res1 : S640000x128.Idx → EReal := Run.V3 m H0 c main_arg1

/-- The edge half, from the three readings of the first launch's arrays and the two readings of the second
    launch's arrays at an index. -/
theorem edge_core (hR : RealArgs m c)
    (h07 : ∀ (r : Fin 640000) (j : Fin 128), arr07 m c H0 (ix2 r j)
      = Gnn.mlpRow (fun k : Fin 384 => Run.V1 m c main_v14 (ix2 r k)) (fun k k' => Run.V1 m c main_arg4 (ix2 k k'))
          (fun k => Run.V1 m c main_v15 (ix2 0 k)) (fun k k' => Run.V1 m c main_arg6 (ix2 k k'))
          (fun k => Run.V1 m c main_v16 (ix2 0 k)) (fun k k' => Run.V1 m c main_arg8 (ix2 k k'))
          (fun k => Run.V1 m c main_v17 (ix2 0 k)) j)
    (h08 : ∀ j : Fin 128, arr08 m c H0 (ix2 (0 : Fin 1) j) = ∑ r : Fin 640000, arr07 m c H0 (ix2 r j))
    (h09 : ∀ j : Fin 128, arr09 m c H0 (ix2 (0 : Fin 1) j) = ∑ r : Fin 640000, arr07 m c H0 (ix2 r j) * arr07 m c H0 (ix2 r j))
    (h16 : ∀ (r : Fin 640000) (j : Fin 128), arr16 m c H0 H1 (ix2 r j)
      = Gnn.bn (Run.V3 m H0 c main_v20_0 (ix2 r j)) (Run.V3 m H0 c main_v22 (ix2 0 j)) (Run.V3 m H0 c main_v26 (ix2 0 j))
          (Run.V3 m H0 c main_v18 (ix2 0 j)) (Run.V3 m H0 c main_v19 (ix2 0 j)))
    (h17 : ∀ (r : Fin 640000) (j : Fin 128), arr17 m c H0 H1 (ix2 r j)
      = res1 m c H0 (ix2 r j)
        + Gnn.bn (Run.V3 m H0 c main_v20_0 (ix2 r j)) (Run.V3 m H0 c main_v22 (ix2 0 j)) (Run.V3 m H0 c main_v26 (ix2 0 j))
            (Run.V3 m H0 c main_v18 (ix2 0 j)) (Run.V3 m H0 c main_v19 (ix2 0 j))) :
    arr16 m c H0 H1 = Y m c ∧ arr17 m c H0 H1 = addf (F := Ideal) (φ := .f32) (A1 m c) (Y m c) := by
  -- what the first launch is entered from: the edge network's input and the recast parameters
  have z : Run.V1 m c main_v14 = stageZ (F := Ideal) (A0 m c) (A1 m c) (A2 m c) (A3 m c) := HostStages.host0_z (F := Ideal) (Run.W0 m c)
  have b15 : ∀ k : Fin 128, Run.V1 m c main_v15 (ix2 (0 : Fin 1) k) = A5 m c (ix1 k) := fun k => HostStages.host0_b_v15 (F := Ideal) (Run.W0 m c) k
  have b16 : ∀ k : Fin 128, Run.V1 m c main_v16 (ix2 (0 : Fin 1) k) = A7 m c (ix1 k) := fun k => HostStages.host0_b_v16 (F := Ideal) (Run.W0 m c) k
  have b17 : ∀ k : Fin 128, Run.V1 m c main_v17 (ix2 (0 : Fin 1) k) = A9 m c (ix1 k) := fun k => HostStages.host0_b_v17 (F := Ideal) (Run.W0 m c) k
  have b18 : ∀ k : Fin 128, Run.V1 m c main_v18 (ix2 (0 : Fin 1) k) = A16 m c (ix1 k) := fun k => HostStages.host0_b_v18 (F := Ideal) (Run.W0 m c) k
  have b19 : ∀ k : Fin 128, Run.V1 m c main_v19 (ix2 (0 : Fin 1) k) = A17 m c (ix1 k) := fun k => HostStages.host0_b_v19 (F := Ideal) (Run.W0 m c) k
  have a4 : Run.V1 m c main_arg4 = A4 m c := Run.W1_launch m c main_arg4 (by decide)
  have a6 : Run.V1 m c main_arg6 = A6 m c := Run.W1_launch m c main_arg6 (by decide)
  have a8 : Run.V1 m c main_arg8 = A8 m c := Run.W1_launch m c main_arg8 (by decide)
  -- the first launch's output is the reference's edge network
  have hH : ∀ (r : Fin 640000) (j : Fin 128), arr07 m c H0 (ix2 r j) = Hedge m c (ix2 r j) := by
    intro r j
    rw [h07 r j, z, a4, a6, a8]
    simp only [b15, b16, b17]
    exact (Cert.ReferenceIdeal.MlpValue.stageH_apply _ _ _ _ _ _ _ r j).symm
  -- what the second launch is entered from
  have v20 : Run.V3 m H0 c main_v20_0 = arr07 m c H0 := Run.W3_h m H0 c
  have v22 : ∀ j : Fin 128, Run.V3 m H0 c main_v22 (ix2 (0 : Fin 1) j)
      = Ideal.div (∑ r : Fin 640000, Hedge m c (ix2 r j)) (Ideal.ofBits .f32 0x491C4000#32) := by
    intro j
    refine (hostOps1_mean (Run.W2 m H0 c) j).trans ?_
    rw [Run.W2_sum]
    show Ideal.div (arr08 m c H0 (ix2 (0 : Fin 1) j)) _ = _
    rw [h08 j]
    simp only [hH]
  have v26 : ∀ j : Fin 128, Run.V3 m H0 c main_v26 (ix2 (0 : Fin 1) j)
      = Ideal.div (∑ r : Fin 640000, Hedge m c (ix2 r j) * Hedge m c (ix2 r j)) (Ideal.ofBits .f32 0x491C4000#32)
        - Ideal.div (∑ r : Fin 640000, Hedge m c (ix2 r j)) (Ideal.ofBits .f32 0x491C4000#32)
          * Ideal.div (∑ r : Fin 640000, Hedge m c (ix2 r j)) (Ideal.ofBits .f32 0x491C4000#32) := by
    intro j
    refine (hostOps1_var (Run.W2 m H0 c) j).trans ?_
    rw [Run.W2_sum, Run.W2_sumsq]
    show Ideal.div (arr09 m c H0 (ix2 (0 : Fin 1) j)) _ - Ideal.div (arr08 m c H0 (ix2 (0 : Fin 1) j)) _ * Ideal.div (arr08 m c H0 (ix2 (0 : Fin 1) j)) _ = _
    rw [h08 j, h09 j]
    simp only [hH]
  have v18 : ∀ j : Fin 128, Run.V3 m H0 c main_v18 (ix2 (0 : Fin 1) j) = A16 m c (ix1 j) := fun j =>
    (congrFun (Run.W3_of_W1 m H0 c main_v18 (by decide) (by decide)) (ix2 (0 : Fin 1) j)).trans (b18 j)
  have v19 : ∀ j : Fin 128, Run.V3 m H0 c main_v19 (ix2 (0 : Fin 1) j) = A17 m c (ix1 j) := fun j =>
    (congrFun (Run.W3_of_W1 m H0 c main_v19 (by decide) (by decide)) (ix2 (0 : Fin 1) j)).trans (b19 j)
  have a1 : res1 m c H0 = A1 m c := Run.W3_launch m H0 c main_arg1 (by decide) (by decide) (by decide)
  -- entry by entry
  have hbn : ∀ (r : Fin 640000) (j : Fin 128),
      Gnn.bn (Run.V3 m H0 c main_v20_0 (ix2 r j)) (Run.V3 m H0 c main_v22 (ix2 0 j)) (Run.V3 m H0 c main_v26 (ix2 0 j))
          (Run.V3 m H0 c main_v18 (ix2 0 j)) (Run.V3 m H0 c main_v19 (ix2 0 j)) = Y m c (ix2 r j) := by
    intro r j
    rw [v20, hH, v22, v26, v18, v19]
    exact Cert.BnJoin.bnE_eq (Hedge m c) (Hedge_real m c hR) (A16 m c) (A17 m c) r j
  refine ⟨funext fun i => ?_, funext fun i => ?_⟩
  · obtain ⟨r, j, rfl⟩ : ∃ (r : Fin 640000) (j : Fin 128), i = ix2 r j := ⟨i 0, i 1, eq_ix2 (n0 := 640000) (n1 := 128) i⟩
    rw [h16 r j, hbn]
  · obtain ⟨r, j, rfl⟩ : ∃ (r : Fin 640000) (j : Fin 128), i = ix2 r j := ⟨i 0, i 1, eq_ix2 (n0 := 640000) (n1 := 128) i⟩
    rw [h17 r j, hbn, a1, addf_apply]

end Cert.Bridge

end
-- ==== Proof.KI.Val0h.lean ====
import proofs.«170818_j15161234555428_1_alg».proof.Proof.KI.Reg0
import Idealize.ShloMosaic.Lib.Pipeline.Value
import Idealize.ShloMosaic.Lib.ValueIdx
import Idealize.ShloMosaic.Lib.Tactic

/-!
# Pipeline 0: the network's rows, from the blocks each point writes back to the whole array

The kernel applies a three-layer network to a block of 5000 rows and adds the last bias; besides two running column sums
it stores the rows themselves, one whole-block store, at every grid point — the first point, which also zeroes the
sums, and every later one alike. The weights and biases (windows 1 … 6) have a single block, the whole array, at every
point; the rows read (window 0) and written (window 7) sit at block `(t, 0)`. The 128 blocks tile the `640000 × 128`
result, so it is ONE function of the arrays read: row `r` of the result is a function of row `r` of the input and of
the weights. The network's arithmetic is kept abstract: a hypothesis says the stored value at an element is a function
`G` of the input row and the weights.
-/

noncomputable section

namespace Cert.KernelIdeal.Val

open Cert.KernelIdeal Cert.KernelIdeal.Gen Cert.KernelIdeal.GenP
open Idealize.ShloMosaic Idealize.ShloMosaic.TcCoe Idealize.SL.Sem Idealize.ShloMosaic.ValueIdx Idealize.ShloMosaic.Tactic
open Idealize.ShloMosaic.Pipeline (Dat)

theorem off_zero0h : (![0, 0] : Fin 2 → Nat) = fun _ => 0 := funext fun a => by fin_cases a <;> rfl

/-! ## What either case leaves in the rows' buffer -/

section Piece
variable {F : FTy → Type} [FloatOps F]

/-- At the first point the body leaves, in the rows' buffer, its one whole-block store: the network's rows of the
    blocks loaded whole. -/
theorem piece0_A_7 (c : Dev nD) (i : grid0.Coords) (arg1 : Memref sig .tc .vmem S5000x384 .f32) (harg1 : arg1.IsWhole) (arg2 : Memref sig .tc .vmem S384x128 .f32) (harg2 : arg2.IsWhole) (arg3 : Memref sig .tc .vmem S1x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S5000x128 .f32) (harg8 : arg8.IsWhole) (arg9 : Memref sig .tc .vmem S1x128 .f32) (harg9 : arg9.IsWhole) (arg10 : Memref sig .tc .vmem S1x128 .f32) (harg10 : arg10.IsWhole) (hc0 : Reg.cond0_0 i)
    (x0 : Vec F S5000x384 .f32) (x1 : Vec F S384x128 .f32) (x2 : Vec F S1x128 .f32) (x3 : Vec F S128x128 .f32) (x4 : Vec F S1x128 .f32) (x5 : Vec F S128x128 .f32) (x6 : Vec F S1x128 .f32) :
    Reg.out0_A_7 c i arg1 harg1 arg2 harg2 arg3 harg3 arg4 harg4 arg5 harg5 arg6 harg6 arg7 harg7 arg8 harg8 arg9 harg9 arg10 harg10 hc0 x0 x1 x2 x3 x4 x5 x6 = k0_pay1 (k0_pay6 x0 x1 x2 x3 x4 x5) x6 := by
  unfold Reg.out0_A_7
  rw [View.read_writes_eq_canon _ _ _ (Reg.cover0_A_7 c i arg1 harg1 arg2 harg2 arg3 harg3 arg4 harg4 arg5 harg5 arg6 harg6 arg7 harg7 arg8 harg8 arg9 harg9 arg10 harg10 hc0 x0 x1 x2 x3 x4 x5 x6)]
  unfold Reg.kernelRun0_A
  dsimp only
  sl_unfold_words
  rw [View.canon_unit_zero off_zero0h]
  simp only [View.readAt_eq_ld, harg1.read_unread, harg2.read_unread, harg3.read_unread, harg4.read_unread, harg5.read_unread, harg6.read_unread, harg7.read_unread,
    View.ld_unit_zero (S := S5000x384) off_zero0h, View.ld_unit_zero (S := S384x128) off_zero0h, View.ld_unit_zero (S := S1x128) off_zero0h, View.ld_unit_zero (S := S128x128) off_zero0h]

/-- At a later point the body leaves the same store, whatever the two running sums held. -/
theorem piece0_B_7 (c : Dev nD) (i : grid0.Coords) (arg1 : Memref sig .tc .vmem S5000x384 .f32) (harg1 : arg1.IsWhole) (arg2 : Memref sig .tc .vmem S384x128 .f32) (harg2 : arg2.IsWhole) (arg3 : Memref sig .tc .vmem S1x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S5000x128 .f32) (harg8 : arg8.IsWhole) (arg9 : Memref sig .tc .vmem S1x128 .f32) (harg9 : arg9.IsWhole) (arg10 : Memref sig .tc .vmem S1x128 .f32) (harg10 : arg10.IsWhole) (hc0 : ¬Reg.cond0_0 i)
    (x0 : Vec F S5000x384 .f32) (x1 : Vec F S384x128 .f32) (x2 : Vec F S1x128 .f32) (x3 : Vec F S128x128 .f32) (x4 : Vec F S1x128 .f32) (x5 : Vec F S128x128 .f32) (x6 : Vec F S1x128 .f32) (xo8 xo9 : Vec F S1x128 .f32) :
    Reg.out0_B_7 c i arg1 harg1 arg2 harg2 arg3 harg3 arg4 harg4 arg5 harg5 arg6 harg6 arg7 harg7 arg8 harg8 arg9 harg9 arg10 harg10 hc0 x0 x1 x2 x3 x4 x5 x6 xo8 xo9 = k0_pay1 (k0_pay6 x0 x1 x2 x3 x4 x5) x6 := by
  unfold Reg.out0_B_7
  rw [View.read_writes_eq_canon _ _ _ (Reg.cover0_B_7 c i arg1 harg1 arg2 harg2 arg3 harg3 arg4 harg4 arg5 harg5 arg6 harg6 arg7 harg7 arg8 harg8 arg9 harg9 arg10 harg10 hc0 x0 x1 x2 x3 x4 x5 x6 xo8 xo9)]
  unfold Reg.kernelRun0_B
  dsimp only
  sl_unfold_words
  rw [View.canon_unit_zero off_zero0h]
  simp only [View.readAt_eq_ld, harg1.read_unread, harg2.read_unread, harg3.read_unread, harg4.read_unread, harg5.read_unread, harg6.read_unread, harg7.read_unread,
    View.ld_unit_zero (S := S5000x384) off_zero0h, View.ld_unit_zero (S := S384x128) off_zero0h, View.ld_unit_zero (S := S1x128) off_zero0h, View.ld_unit_zero (S := S128x128) off_zero0h]

end Piece

variable (V : (c : Dev nD) → (b : Ref sig .tc) → Buf (Elt Ideal) ((c : Thread nD τ).loc b))

/-- After the body at any point the rows' buffer holds the network's rows of the input blocks at that point. -/
theorem after0_7_eq (c : Dev nD) (t : Fin cfg0.N) :
    (Reg.outsAt0 V c t.val t.isLt).1
      = k0_pay1 (k0_pay6 (Reg.iblk0 V c 0 t) (Reg.iblk0 V c 1 t) (Reg.iblk0 V c 2 t) (Reg.iblk0 V c 3 t) (Reg.iblk0 V c 4 t) (Reg.iblk0 V c 5 t)) (Reg.iblk0 V c 6 t) := by
  by_cases h0 : t.val % 128 = 0
  · rw [Reg.outsAt0_A V c t h0]
    dsimp only
    exact piece0_A_7 ..
  · rw [Reg.outsAt0_B V c t h0]
    dsimp only
    exact piece0_B_7 ..

/-! ## The block index maps -/

/-- Over the grid: the rows read and written (windows 0, 7) sit at block `(t, 0)`, the weights and biases
    (windows 1 … 6) at block `(0, 0)`. -/
theorem index0h : ∀ t : Fin cfg0.N,
    (win0_0.index t (0 : Fin 2) = t.val ∧ win0_0.index t (1 : Fin 2) = 0) ∧ (win0_1.index t (0 : Fin 2) = 0 ∧ win0_1.index t (1 : Fin 2) = 0)
    ∧ (win0_2.index t (0 : Fin 2) = 0 ∧ win0_2.index t (1 : Fin 2) = 0) ∧ (win0_3.index t (0 : Fin 2) = 0 ∧ win0_3.index t (1 : Fin 2) = 0)
    ∧ (win0_4.index t (0 : Fin 2) = 0 ∧ win0_4.index t (1 : Fin 2) = 0) ∧ (win0_5.index t (0 : Fin 2) = 0 ∧ win0_5.index t (1 : Fin 2) = 0)
    ∧ (win0_6.index t (0 : Fin 2) = 0 ∧ win0_6.index t (1 : Fin 2) = 0) ∧ (win0_7.index t (0 : Fin 2) = t.val ∧ win0_7.index t (1 : Fin 2) = 0) :=
  (by decide +kernel : ∀ t : Fin grid0.N, _)

/-- Window 1 has one block, the whole array, at every point. -/
theorem blk0h_1 (c : Dev nD) (t : Fin cfg0.N) : Reg.iblk0 V c 1 t = (V c main_arg4 : Vec Ideal S384x128 .f32) := by
  obtain ⟨-, ⟨b10, b11⟩, ⟨b20, b21⟩, ⟨b30, b31⟩, ⟨b40, b41⟩, ⟨b50, b51⟩, ⟨b60, b61⟩, -⟩ := index0h t
  funext y
  show V c main_arg4 (((cfg0.win 1).blk t).view.emb y) = V c main_arg4 y
  refine congrArg _ (funext fun a => Fin.ext ?_)
  match a with
  | ⟨0, _⟩ => show win0_1.index t (0 : Fin 2) * 384 + 1 * (y 0).val = (y 0).val; omega
  | ⟨1, _⟩ => show win0_1.index t (1 : Fin 2) * 128 + 1 * (y 1).val = (y 1).val; omega

/-- Window 2 has one block, the whole array, at every point. -/
theorem blk0h_2 (c : Dev nD) (t : Fin cfg0.N) : Reg.iblk0 V c 2 t = (V c main_v15 : Vec Ideal S1x128 .f32) := by
  obtain ⟨-, ⟨b10, b11⟩, ⟨b20, b21⟩, ⟨b30, b31⟩, ⟨b40, b41⟩, ⟨b50, b51⟩, ⟨b60, b61⟩, -⟩ := index0h t
  funext y
  show V c main_v15 (((cfg0.win 2).blk t).view.emb y) = V c main_v15 y
  refine congrArg _ (funext fun a => Fin.ext ?_)
  match a with
  | ⟨0, _⟩ => show win0_2.index t (0 : Fin 2) * 1 + 1 * (y 0).val = (y 0).val; omega
  | ⟨1, _⟩ => show win0_2.index t (1 : Fin 2) * 128 + 1 * (y 1).val = (y 1).val; omega

/-- Window 3 has one block, the whole array, at every point. -/
theorem blk0h_3 (c : Dev nD) (t : Fin cfg0.N) : Reg.iblk0 V c 3 t = (V c main_arg6 : Vec Ideal S128x128 .f32) := by
  obtain ⟨-, ⟨b10, b11⟩, ⟨b20, b21⟩, ⟨b30, b31⟩, ⟨b40, b41⟩, ⟨b50, b51⟩, ⟨b60, b61⟩, -⟩ := index0h t
  funext y
  show V c main_arg6 (((cfg0.win 3).blk t).view.emb y) = V c main_arg6 y
  refine congrArg _ (funext fun a => Fin.ext ?_)
  match a with
  | ⟨0, _⟩ => show win0_3.index t (0 : Fin 2) * 128 + 1 * (y 0).val = (y 0).val; omega
  | ⟨1, _⟩ => show win0_3.index t (1 : Fin 2) * 128 + 1 * (y 1).val = (y 1).val; omega

/-- Window 4 has one block, the whole array, at every point. -/
theorem blk0h_4 (c : Dev nD) (t : Fin cfg0.N) : Reg.iblk0 V c 4 t = (V c main_v16 : Vec Ideal S1x128 .f32) := by
  obtain ⟨-, ⟨b10, b11⟩, ⟨b20, b21⟩, ⟨b30, b31⟩, ⟨b40, b41⟩, ⟨b50, b51⟩, ⟨b60, b61⟩, -⟩ := index0h t
  funext y
  show V c main_v16 (((cfg0.win 4).blk t).view.emb y) = V c main_v16 y
  refine congrArg _ (funext fun a => Fin.ext ?_)
  match a with
  | ⟨0, _⟩ => show win0_4.index t (0 : Fin 2) * 1 + 1 * (y 0).val = (y 0).val; omega
  | ⟨1, _⟩ => show win0_4.index t (1 : Fin 2) * 128 + 1 * (y 1).val = (y 1).val; omega

/-- Window 5 has one block, the whole array, at every point. -/
theorem blk0h_5 (c : Dev nD) (t : Fin cfg0.N) : Reg.iblk0 V c 5 t = (V c main_arg8 : Vec Ideal S128x128 .f32) := by
  obtain ⟨-, ⟨b10, b11⟩, ⟨b20, b21⟩, ⟨b30, b31⟩, ⟨b40, b41⟩, ⟨b50, b51⟩, ⟨b60, b61⟩, -⟩ := index0h t
  funext y
  show V c main_arg8 (((cfg0.win 5).blk t).view.emb y) = V c main_arg8 y
  refine congrArg _ (funext fun a => Fin.ext ?_)
  match a with
  | ⟨0, _⟩ => show win0_5.index t (0 : Fin 2) * 128 + 1 * (y 0).val = (y 0).val; omega
  | ⟨1, _⟩ => show win0_5.index t (1 : Fin 2) * 128 + 1 * (y 1).val = (y 1).val; omega

/-- Window 6 has one block, the whole array, at every point. -/
theorem blk0h_6 (c : Dev nD) (t : Fin cfg0.N) : Reg.iblk0 V c 6 t = (V c main_v17 : Vec Ideal S1x128 .f32) := by
  obtain ⟨-, ⟨b10, b11⟩, ⟨b20, b21⟩, ⟨b30, b31⟩, ⟨b40, b41⟩, ⟨b50, b51⟩, ⟨b60, b61⟩, -⟩ := index0h t
  funext y
  show V c main_v17 (((cfg0.win 6).blk t).view.emb y) = V c main_v17 y
  refine congrArg _ (funext fun a => Fin.ext ?_)
  match a with
  | ⟨0, _⟩ => show win0_6.index t (0 : Fin 2) * 1 + 1 * (y 0).val = (y 0).val; omega
  | ⟨1, _⟩ => show win0_6.index t (1 : Fin 2) * 128 + 1 * (y 1).val = (y 1).val; omega

/-! ## The rows as one function of the arrays read -/

/-- The array of rows: at row `r`, column `j`, a function `G` of row `r` of the input and of the weights and biases. -/
def rows0_7 (G : (Fin 384 → EReal) → Vec Ideal S384x128 .f32 → Vec Ideal S1x128 .f32 → Vec Ideal S128x128 .f32 → Vec Ideal S1x128 .f32 → Vec Ideal S128x128 .f32 → Vec Ideal S1x128 .f32 → Fin 128 → EReal)
    (a0 : S640000x384.Idx → EReal) (x1 : Vec Ideal S384x128 .f32) (x2 : Vec Ideal S1x128 .f32) (x3 : Vec Ideal S128x128 .f32) (x4 : Vec Ideal S1x128 .f32) (x5 : Vec Ideal S128x128 .f32) (x6 : Vec Ideal S1x128 .f32) : S640000x128.Idx → EReal :=
  fun i => G (fun k => a0 (ix2 (⟨(i 0).val, idx2_lt0 i⟩ : Fin 640000) k)) x1 x2 x3 x4 x5 x6 (⟨(i 1).val, idx2_lt1 i⟩ : Fin 128)

/-- One element of the stored block: if the body's value at `(y, j)` is `G` of row `y` of its input block and of the
    weights, the block's row is the array's row, and the weights' blocks are the arrays, then the stored element is the
    array function's at index `i`. -/
theorem point0_7 (G : (Fin 384 → EReal) → Vec Ideal S384x128 .f32 → Vec Ideal S1x128 .f32 → Vec Ideal S128x128 .f32 → Vec Ideal S1x128 .f32 → Vec Ideal S128x128 .f32 → Vec Ideal S1x128 .f32 → Fin 128 → EReal)
    (hpay : ∀ (x0 : Vec Ideal S5000x384 .f32) (x1 : Vec Ideal S384x128 .f32) (x2 : Vec Ideal S1x128 .f32) (x3 : Vec Ideal S128x128 .f32) (x4 : Vec Ideal S1x128 .f32) (x5 : Vec Ideal S128x128 .f32) (x6 : Vec Ideal S1x128 .f32) (y : Fin 5000) (j : Fin 128),
      k0_pay1 (F := Ideal) (k0_pay6 (F := Ideal) x0 x1 x2 x3 x4 x5) x6 (ix2 y j) = G (fun k => x0 (ix2 y k)) x1 x2 x3 x4 x5 x6 j)
    (x0 : Vec Ideal S5000x384 .f32) (x1 : Vec Ideal S384x128 .f32) (x2 : Vec Ideal S1x128 .f32) (x3 : Vec Ideal S128x128 .f32) (x4 : Vec Ideal S1x128 .f32) (x5 : Vec Ideal S128x128 .f32) (x6 : Vec Ideal S1x128 .f32) (a0 : S640000x384.Idx → EReal)
    (a1 : Vec Ideal S384x128 .f32) (a2 : Vec Ideal S1x128 .f32) (a3 : Vec Ideal S128x128 .f32) (a4 : Vec Ideal S1x128 .f32) (a5 : Vec Ideal S128x128 .f32) (a6 : Vec Ideal S1x128 .f32)
    (y : S5000x128.Idx) (i : S640000x128.Idx) (hcol : (i 1).val = (y 1).val)
    (e0 : ∀ k : Fin 384, x0 (ix2 (⟨(y 0).val, idx2_lt0 y⟩ : Fin 5000) k) = a0 (ix2 (⟨(i 0).val, idx2_lt0 i⟩ : Fin 640000) k))
    (e1 : x1 = a1) (e2 : x2 = a2) (e3 : x3 = a3) (e4 : x4 = a4) (e5 : x5 = a5) (e6 : x6 = a6) :
    k0_pay1 (F := Ideal) (k0_pay6 (F := Ideal) x0 x1 x2 x3 x4 x5) x6 y = rows0_7 G a0 a1 a2 a3 a4 a5 a6 i := by
  subst e1 e2 e3 e4 e5 e6
  obtain ⟨p, q, rfl⟩ : ∃ (p : Fin 5000) (q : Fin 128), y = ix2 p q := ⟨y 0, y 1, eq_ix2 y⟩
  have hq : (⟨(i 1).val, idx2_lt1 i⟩ : Fin 128) = q := Fin.ext hcol
  have hrow : (fun k => x0 (ix2 p k)) = fun k => a0 (ix2 (⟨(i 0).val, idx2_lt0 i⟩ : Fin 640000) k) := funext e0
  unfold rows0_7
  rw [hpay, hq, hrow]

/-- What point `t` writes back to the array of rows is block `t` of the array function. -/
theorem flushed0_7 (G : (Fin 384 → EReal) → Vec Ideal S384x128 .f32 → Vec Ideal S1x128 .f32 → Vec Ideal S128x128 .f32 → Vec Ideal S1x128 .f32 → Vec Ideal S128x128 .f32 → Vec Ideal S1x128 .f32 → Fin 128 → EReal)
    (hpay : ∀ (x0 : Vec Ideal S5000x384 .f32) (x1 : Vec Ideal S384x128 .f32) (x2 : Vec Ideal S1x128 .f32) (x3 : Vec Ideal S128x128 .f32) (x4 : Vec Ideal S1x128 .f32) (x5 : Vec Ideal S128x128 .f32) (x6 : Vec Ideal S1x128 .f32) (y : Fin 5000) (j : Fin 128),
      k0_pay1 (F := Ideal) (k0_pay6 (F := Ideal) x0 x1 x2 x3 x4 x5) x6 (ix2 y j) = G (fun k => x0 (ix2 y k)) x1 x2 x3 x4 x5 x6 j)
    (c : Dev nD) (t : Fin cfg0.N) :
    (Reg.dat0 V c).flushed 7 t = ((cfg0.win 7).blk t).view.read (Elt Ideal) (rows0_7 G (V c main_v14) (V c main_arg4) (V c main_v15) (V c main_arg6) (V c main_v16) (V c main_arg8) (V c main_v17)) := by
  show (cfg0.win 7).cut (grid0.coords t) ((Reg.dat0 V c).after 7 t) = _
  rw [Reg.after0_7, after0_7_eq]
  obtain ⟨⟨b00, b01⟩, -, -, -, -, -, -, ⟨b70, b71⟩⟩ := index0h t
  funext y
  refine point0_7 G hpay _ _ _ _ _ _ _ (V c main_v14) (V c main_arg4) (V c main_v15) (V c main_arg6) (V c main_v16) (V c main_arg8) (V c main_v17) y (((cfg0.win 7).blk t).view.emb y) ?_ ?_
    (blk0h_1 V c t) (blk0h_2 V c t) (blk0h_3 V c t) (blk0h_4 V c t) (blk0h_5 V c t) (blk0h_6 V c t)
  · show win0_7.index t (1 : Fin 2) * 128 + 1 * (y 1).val = (y 1).val; omega
  · intro k
    show V c main_v14 (((cfg0.win 0).blk t).view.emb (ix2 (⟨(y 0).val, idx2_lt0 y⟩ : Fin 5000) k)) = V c main_v14 (ix2 (⟨((((cfg0.win 7).blk t).view.emb y) 0).val, idx2_lt0 _⟩ : Fin 640000) k)
    refine congrArg _ (funext fun a => Fin.ext ?_)
    match a with
    | ⟨0, _⟩ => show win0_0.index t (0 : Fin 2) * 5000 + 1 * (y 0).val = win0_7.index t (0 : Fin 2) * 5000 + 1 * (y 0).val; omega
    | ⟨1, _⟩ => show win0_0.index t (1 : Fin 2) * 384 + 1 * k.val = k.val; omega

/-- An index of the array of rows lies in point `t`'s block iff, on each axis, it lies in the block's range. -/
theorem mem_blk0_7 (t : Fin cfg0.N) (i : S640000x128.Idx) :
    i ∈ ((cfg0.win 7).blk t).view.set ↔ ∀ a : Fin 2, win0_7.index t a * S5000x128.size a ≤ (i a).val ∧ (i a).val < win0_7.index t a * S5000x128.size a + S5000x128.size a := by
  show i ∈ ((View.whole main_v20_0).slice (win0_7.rect t)).set ↔ _
  rw [View.set_slice_whole, Rect.mem_set_unit]
  exact Iff.rfl

/-- Every index of the array of rows lies in the block of a point that writes back: row `r` lies in the block of point `r / 5000`. -/
theorem covered0_7 (i : S640000x128.Idx) : ∃ t : Fin cfg0.N, (cfg0.win 7).flush t = true ∧ i ∈ ((cfg0.win 7).blk t).view.set := by
  have hi0 : (i 0).val < 640000 := idx2_lt0 i
  have hi1 : (i 1).val < 128 := idx2_lt1 i
  have hN : cfg0.N = 128 := N_0
  obtain ⟨t, ht⟩ : ∃ t : Fin cfg0.N, t.val = (i 0).val / 5000 := ⟨⟨(i 0).val / 5000, by rw [hN]; omega⟩, rfl⟩
  obtain ⟨-, -, -, -, -, -, -, ⟨b70, b71⟩⟩ := index0h t
  refine ⟨t, flush0_7 t, ?_⟩
  rw [mem_blk0_7]
  intro a
  match a with
  | ⟨0, _⟩ => show win0_7.index t (0 : Fin 2) * 5000 ≤ (i 0).val ∧ (i 0).val < win0_7.index t (0 : Fin 2) * 5000 + 5000; omega
  | ⟨1, _⟩ => show win0_7.index t (1 : Fin 2) * 128 ≤ (i 1).val ∧ (i 1).val < win0_7.index t (1 : Fin 2) * 128 + 128; omega

/-- The array of rows after the pipeline is the array function of the arrays it read. -/
theorem final0_7 (G : (Fin 384 → EReal) → Vec Ideal S384x128 .f32 → Vec Ideal S1x128 .f32 → Vec Ideal S128x128 .f32 → Vec Ideal S1x128 .f32 → Vec Ideal S128x128 .f32 → Vec Ideal S1x128 .f32 → Fin 128 → EReal)
    (hpay : ∀ (x0 : Vec Ideal S5000x384 .f32) (x1 : Vec Ideal S384x128 .f32) (x2 : Vec Ideal S1x128 .f32) (x3 : Vec Ideal S128x128 .f32) (x4 : Vec Ideal S1x128 .f32) (x5 : Vec Ideal S128x128 .f32) (x6 : Vec Ideal S1x128 .f32) (y : Fin 5000) (j : Fin 128),
      k0_pay1 (F := Ideal) (k0_pay6 (F := Ideal) x0 x1 x2 x3 x4 x5) x6 (ix2 y j) = G (fun k => x0 (ix2 y k)) x1 x2 x3 x4 x5 x6 j)
    (c : Dev nD) :
    (Reg.dat0 V c).arrAt 7 cfg0.N = rows0_7 G (V c main_v14) (V c main_arg4) (V c main_v15) (V c main_arg6) (V c main_v16) (V c main_arg8) (V c main_v17) :=
  (Reg.dat0 V c).arrAt_eq_of_cover 7 _ (fun t _ => flushed0_7 V G hpay c t) covered0_7

/-- The array of rows, element by element. -/
theorem arr0_7_of (G : (Fin 384 → EReal) → Vec Ideal S384x128 .f32 → Vec Ideal S1x128 .f32 → Vec Ideal S128x128 .f32 → Vec Ideal S1x128 .f32 → Vec Ideal S128x128 .f32 → Vec Ideal S1x128 .f32 → Fin 128 → EReal)
    (hpay : ∀ (x0 : Vec Ideal S5000x384 .f32) (x1 : Vec Ideal S384x128 .f32) (x2 : Vec Ideal S1x128 .f32) (x3 : Vec Ideal S128x128 .f32) (x4 : Vec Ideal S1x128 .f32) (x5 : Vec Ideal S128x128 .f32) (x6 : Vec Ideal S1x128 .f32) (y : Fin 5000) (j : Fin 128),
      k0_pay1 (F := Ideal) (k0_pay6 (F := Ideal) x0 x1 x2 x3 x4 x5) x6 (ix2 y j) = G (fun k => x0 (ix2 y k)) x1 x2 x3 x4 x5 x6 j)
    (V : (c : Dev nD) → (b : Ref sig .tc) → Buf (Elt Ideal) ((c : Thread nD τ).loc b)) (c : Dev nD) (r : Fin 640000) (j : Fin 128) :
    (Reg.dat0 V c).arrAt 7 cfg0.N (ix2 r j)
      = G (fun k => V c main_v14 (ix2 r k)) (V c main_arg4) (V c main_v15) (V c main_arg6) (V c main_v16) (V c main_arg8) (V c main_v17) j :=
  congrFun (final0_7 V G hpay c) (ix2 r j)

end Cert.KernelIdeal.Val

end
-- ==== Proof.KI.Val1.lean ====
import proofs.«170818_j15161234555428_1_alg».proof.Proof.KI.Reg1
import Idealize.ShloMosaic.Lib.Pipeline.Value
import Idealize.ShloMosaic.Lib.ValueIdx

/-!
# Pipeline 1: from the blocks each point writes back to the whole result arrays

Each grid point `t` writes back, for rows `5000 t … 5000 t + 4999`, the body's value computed from the row blocks at
the same rows and from the four single rows, which are the same at every point. The 128 blocks tile the
`640000 × 128` result, so the result array is ONE function of the arrays the pipeline read, index by index. The
body's arithmetic is kept abstract: a hypothesis says its value at an element is a function `g` of its blocks'
elements there.
-/

noncomputable section

namespace Cert.KernelIdeal.Val

open Cert.KernelIdeal Cert.KernelIdeal.Gen Cert.KernelIdeal.GenP
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem off_zero : (![0, 0] : Fin 2 → Nat) = fun _ => 0 := funext fun a => by fin_cases a <;> rfl

/-- The block index maps over the grid: the row blocks (windows 0, 1, 6, 7) sit at block `(t, 0)`, the single rows
    (windows 2 … 5) at block `(0, 0)`. -/
theorem index1 : ∀ t : Fin cfg1.N,
    (win1_0.index t (0 : Fin 2) = t.val ∧ win1_0.index t (1 : Fin 2) = 0) ∧ (win1_1.index t (0 : Fin 2) = t.val ∧ win1_1.index t (1 : Fin 2) = 0)
    ∧ (win1_2.index t (0 : Fin 2) = 0 ∧ win1_2.index t (1 : Fin 2) = 0) ∧ (win1_3.index t (0 : Fin 2) = 0 ∧ win1_3.index t (1 : Fin 2) = 0)
    ∧ (win1_4.index t (0 : Fin 2) = 0 ∧ win1_4.index t (1 : Fin 2) = 0) ∧ (win1_5.index t (0 : Fin 2) = 0 ∧ win1_5.index t (1 : Fin 2) = 0)
    ∧ (win1_6.index t (0 : Fin 2) = t.val ∧ win1_6.index t (1 : Fin 2) = 0) ∧ (win1_7.index t (0 : Fin 2) = t.val ∧ win1_7.index t (1 : Fin 2) = 0) :=
  (by decide +kernel : ∀ t : Fin grid1.N, _)

/-! ## The normalised rows -/

/-- The array of normalised rows as one function of the arrays the pipeline reads: at row `r`, column `j`, a function
    `g` of `h r j` and of the four single rows at column `j`. -/
def rows1_6 (g : EReal → EReal → EReal → EReal → EReal → EReal)
    (a0 : S640000x128.Idx → EReal) (a2 a3 a4 a5 : S1x128.Idx → EReal) : S640000x128.Idx → EReal :=
  fun i => g (a0 i) (a2 (ix2 (0 : Fin 1) (⟨(i 1).val, idx2_lt1 i⟩ : Fin 128))) (a3 (ix2 (0 : Fin 1) (⟨(i 1).val, idx2_lt1 i⟩ : Fin 128)))
    (a4 (ix2 (0 : Fin 1) (⟨(i 1).val, idx2_lt1 i⟩ : Fin 128))) (a5 (ix2 (0 : Fin 1) (⟨(i 1).val, idx2_lt1 i⟩ : Fin 128)))

/-- One element of the stored block: if the body's value at `(y, j)` is `g` of its blocks there, and the blocks are the
    arrays' at the matching places, the stored element is the array function's at index `i`. -/
theorem point1_6 (g : EReal → EReal → EReal → EReal → EReal → EReal)
    (hpay : ∀ (x0 : Vec Ideal S5000x128 .f32) (x2 x3 x4 x5 : Vec Ideal S1x128 .f32) (y : Fin 5000) (j : Fin 128),
      k1_pay1 (F := Ideal) x3 x0 x2 x4 x5 (ix2 y j) = g (x0 (ix2 y j)) (x2 (ix2 0 j)) (x3 (ix2 0 j)) (x4 (ix2 0 j)) (x5 (ix2 0 j)))
    (x0 : Vec Ideal S5000x128 .f32) (x2 x3 x4 x5 : Vec Ideal S1x128 .f32)
    (a0 : S640000x128.Idx → EReal) (a2 a3 a4 a5 : S1x128.Idx → EReal) (y : S5000x128.Idx) (i : S640000x128.Idx)
    (hcol : (i 1).val = (y 1).val) (e0 : x0 y = a0 i)
    (e2 : ∀ q : Fin 128, x2 (ix2 (0 : Fin 1) q) = a2 (ix2 (0 : Fin 1) q)) (e3 : ∀ q : Fin 128, x3 (ix2 (0 : Fin 1) q) = a3 (ix2 (0 : Fin 1) q))
    (e4 : ∀ q : Fin 128, x4 (ix2 (0 : Fin 1) q) = a4 (ix2 (0 : Fin 1) q)) (e5 : ∀ q : Fin 128, x5 (ix2 (0 : Fin 1) q) = a5 (ix2 (0 : Fin 1) q)) :
    k1_pay1 (F := Ideal) x3 x0 x2 x4 x5 y = rows1_6 g a0 a2 a3 a4 a5 i := by
  obtain ⟨p, q, rfl⟩ : ∃ (p : Fin 5000) (q : Fin 128), y = ix2 p q := ⟨y 0, y 1, eq_ix2 y⟩
  have hq : (⟨(i 1).val, idx2_lt1 i⟩ : Fin 128) = q := Fin.ext hcol
  unfold rows1_6
  rw [hpay, e0, e2, e3, e4, e5, hq]

/-- What point `t` writes back to the array of normalised rows is block `t` of the array function. -/
theorem flushed1_6 (g : EReal → EReal → EReal → EReal → EReal → EReal)
    (hpay : ∀ (x0 : Vec Ideal S5000x128 .f32) (x2 x3 x4 x5 : Vec Ideal S1x128 .f32) (y : Fin 5000) (j : Fin 128),
      k1_pay1 (F := Ideal) x3 x0 x2 x4 x5 (ix2 y j) = g (x0 (ix2 y j)) (x2 (ix2 0 j)) (x3 (ix2 0 j)) (x4 (ix2 0 j)) (x5 (ix2 0 j)))
    (c : Dev nD) (t : Fin cfg1.N) :
    (Reg.dat1 V c).flushed 6 t = ((cfg1.win 6).blk t).view.read (Elt Ideal) (rows1_6 g (V c main_v20_0) (V c main_v22) (V c main_v26) (V c main_v18) (V c main_v19)) := by
  show (cfg1.win 6).cut (grid1.coords t) ((Reg.dat1 V c).after 6 t) = _
  rw [Reg.after1_6]
  unfold Reg.out1_6
  rw [View.canon_unit_zero off_zero]
  simp only [View.ld_unit_zero (S := S5000x128) off_zero, View.ld_unit_zero (S := S1x128) off_zero]
  obtain ⟨⟨b00, b01⟩, ⟨b10, b11⟩, ⟨b20, b21⟩, ⟨b30, b31⟩, ⟨b40, b41⟩, ⟨b50, b51⟩, ⟨b60, b61⟩, ⟨b70, b71⟩⟩ := index1 t
  funext y
  refine point1_6 g hpay _ _ _ _ _ (V c main_v20_0) (V c main_v22) (V c main_v26) (V c main_v18) (V c main_v19) y (((cfg1.win 6).blk t).view.emb y) ?_ ?_ ?_ ?_ ?_ ?_
  · show win1_6.index t (1 : Fin 2) * 128 + 1 * (y 1).val = (y 1).val; omega
  · show V c main_v20_0 (((cfg1.win 0).blk t).view.emb y) = V c main_v20_0 (((cfg1.win 6).blk t).view.emb y)
    refine congrArg _ (funext fun a => Fin.ext ?_)
    match a with
    | ⟨0, _⟩ => show win1_0.index t (0 : Fin 2) * 5000 + 1 * (y 0).val = win1_6.index t (0 : Fin 2) * 5000 + 1 * (y 0).val; omega
    | ⟨1, _⟩ => show win1_0.index t (1 : Fin 2) * 128 + 1 * (y 1).val = win1_6.index t (1 : Fin 2) * 128 + 1 * (y 1).val; omega
  · intro q
    show V c main_v22 (((cfg1.win 2).blk t).view.emb (ix2 (0 : Fin 1) q)) = V c main_v22 (ix2 (0 : Fin 1) q)
    refine congrArg _ (funext fun a => Fin.ext ?_)
    match a with
    | ⟨0, _⟩ => show win1_2.index t (0 : Fin 2) * 1 + 1 * 0 = 0; omega
    | ⟨1, _⟩ => show win1_2.index t (1 : Fin 2) * 128 + 1 * q.val = q.val; omega
  · intro q
    show V c main_v26 (((cfg1.win 3).blk t).view.emb (ix2 (0 : Fin 1) q)) = V c main_v26 (ix2 (0 : Fin 1) q)
    refine congrArg _ (funext fun a => Fin.ext ?_)
    match a with
    | ⟨0, _⟩ => show win1_3.index t (0 : Fin 2) * 1 + 1 * 0 = 0; omega
    | ⟨1, _⟩ => show win1_3.index t (1 : Fin 2) * 128 + 1 * q.val = q.val; omega
  · intro q
    show V c main_v18 (((cfg1.win 4).blk t).view.emb (ix2 (0 : Fin 1) q)) = V c main_v18 (ix2 (0 : Fin 1) q)
    refine congrArg _ (funext fun a => Fin.ext ?_)
    match a with
    | ⟨0, _⟩ => show win1_4.index t (0 : Fin 2) * 1 + 1 * 0 = 0; omega
    | ⟨1, _⟩ => show win1_4.index t (1 : Fin 2) * 128 + 1 * q.val = q.val; omega
  · intro q
    show V c main_v19 (((cfg1.win 5).blk t).view.emb (ix2 (0 : Fin 1) q)) = V c main_v19 (ix2 (0 : Fin 1) q)
    refine congrArg _ (funext fun a => Fin.ext ?_)
    match a with
    | ⟨0, _⟩ => show win1_5.index t (0 : Fin 2) * 1 + 1 * 0 = 0; omega
    | ⟨1, _⟩ => show win1_5.index t (1 : Fin 2) * 128 + 1 * q.val = q.val; omega

/-- An index of the result array lies in point `t`'s block iff, on each axis, it lies in the block's range. -/
theorem mem_blk1_6 (t : Fin cfg1.N) (i : S640000x128.Idx) :
    i ∈ ((cfg1.win 6).blk t).view.set ↔ ∀ a : Fin 2, win1_6.index t a * S5000x128.size a ≤ (i a).val ∧ (i a).val < win1_6.index t a * S5000x128.size a + S5000x128.size a := by
  show i ∈ ((View.whole main_v27_0).slice (win1_6.rect t)).set ↔ _
  rw [View.set_slice_whole, Rect.mem_set_unit]
  exact Iff.rfl

/-- Every index of the result array lies in the block of a point that writes back: row `r` lies in the block of point `r / 5000`. -/
theorem covered1_6 (i : S640000x128.Idx) : ∃ t : Fin cfg1.N, (cfg1.win 6).flush t = true ∧ i ∈ ((cfg1.win 6).blk t).view.set := by
  have hi0 : (i 0).val < 640000 := idx2_lt0 i
  have hi1 : (i 1).val < 128 := idx2_lt1 i
  have hN : cfg1.N = 128 := N_1
  obtain ⟨t, ht⟩ : ∃ t : Fin cfg1.N, t.val = (i 0).val / 5000 := ⟨⟨(i 0).val / 5000, by rw [hN]; omega⟩, rfl⟩
  obtain ⟨-, -, -, -, -, -, ⟨b60, b61⟩, ⟨b70, b71⟩⟩ := index1 t
  refine ⟨t, flush1_6 t, ?_⟩
  rw [mem_blk1_6]
  intro a
  match a with
  | ⟨0, _⟩ => show win1_6.index t (0 : Fin 2) * 5000 ≤ (i 0).val ∧ (i 0).val < win1_6.index t (0 : Fin 2) * 5000 + 5000; omega
  | ⟨1, _⟩ => show win1_6.index t (1 : Fin 2) * 128 ≤ (i 1).val ∧ (i 1).val < win1_6.index t (1 : Fin 2) * 128 + 128; omega

/-- The array of normalised rows after the pipeline is the array function of the arrays it read. -/
theorem final1_6 (g : EReal → EReal → EReal → EReal → EReal → EReal)
    (hpay : ∀ (x0 : Vec Ideal S5000x128 .f32) (x2 x3 x4 x5 : Vec Ideal S1x128 .f32) (y : Fin 5000) (j : Fin 128),
      k1_pay1 (F := Ideal) x3 x0 x2 x4 x5 (ix2 y j) = g (x0 (ix2 y j)) (x2 (ix2 0 j)) (x3 (ix2 0 j)) (x4 (ix2 0 j)) (x5 (ix2 0 j)))
    (c : Dev nD) :
    (Reg.dat1 V c).arrAt 6 cfg1.N = rows1_6 g (V c main_v20_0) (V c main_v22) (V c main_v26) (V c main_v18) (V c main_v19) :=
  (Reg.dat1 V c).arrAt_eq_of_cover 6 _ (fun t _ => flushed1_6 V g hpay c t) covered1_6

/-- The array of normalised rows, element by element. -/
theorem arr1_6_of (g : EReal → EReal → EReal → EReal → EReal → EReal)
    (hpay : ∀ (x0 : Vec Ideal S5000x128 .f32) (x2 x3 x4 x5 : Vec Ideal S1x128 .f32) (y : Fin 5000) (j : Fin 128),
      k1_pay1 (F := Ideal) x3 x0 x2 x4 x5 (ix2 y j) = g (x0 (ix2 y j)) (x2 (ix2 0 j)) (x3 (ix2 0 j)) (x4 (ix2 0 j)) (x5 (ix2 0 j)))
    (V : (c : Dev nD) → (b : Ref sig .tc) → Buf (Elt Ideal) ((c : Thread nD τ).loc b)) (c : Dev nD) (r : Fin 640000) (j : Fin 128) :
    (Reg.dat1 V c).arrAt 6 cfg1.N (ix2 r j)
      = g (V c main_v20_0 (ix2 r j)) (V c main_v22 (ix2 0 j)) (V c main_v26 (ix2 0 j)) (V c main_v18 (ix2 0 j)) (V c main_v19 (ix2 0 j)) :=
  congrFun (final1_6 V g hpay c) (ix2 r j)

/-! ## The residual sum -/

/-- The array `res + y` as one function of the arrays the pipeline reads: at row `r`, column `j`, a function `g` of
    `h r j`, of the four single rows at column `j`, and of `res r j`. -/
def rows1_7 (g : EReal → EReal → EReal → EReal → EReal → EReal → EReal)
    (a0 a1 : S640000x128.Idx → EReal) (a2 a3 a4 a5 : S1x128.Idx → EReal) : S640000x128.Idx → EReal :=
  fun i => g (a0 i) (a2 (ix2 (0 : Fin 1) (⟨(i 1).val, idx2_lt1 i⟩ : Fin 128))) (a3 (ix2 (0 : Fin 1) (⟨(i 1).val, idx2_lt1 i⟩ : Fin 128)))
    (a4 (ix2 (0 : Fin 1) (⟨(i 1).val, idx2_lt1 i⟩ : Fin 128))) (a5 (ix2 (0 : Fin 1) (⟨(i 1).val, idx2_lt1 i⟩ : Fin 128))) (a1 i)

/-- One element of the stored block, as for the normalised rows, with the block of `res` read at the same place. -/
theorem point1_7 (g : EReal → EReal → EReal → EReal → EReal → EReal → EReal)
    (hpay : ∀ (x0 x1 : Vec Ideal S5000x128 .f32) (x2 x3 x4 x5 : Vec Ideal S1x128 .f32) (y : Fin 5000) (j : Fin 128),
      k1_pay2 (F := Ideal) x3 x0 x2 x4 x5 x1 (ix2 y j) = g (x0 (ix2 y j)) (x2 (ix2 0 j)) (x3 (ix2 0 j)) (x4 (ix2 0 j)) (x5 (ix2 0 j)) (x1 (ix2 y j)))
    (x0 x1 : Vec Ideal S5000x128 .f32) (x2 x3 x4 x5 : Vec Ideal S1x128 .f32)
    (a0 a1 : S640000x128.Idx → EReal) (a2 a3 a4 a5 : S1x128.Idx → EReal) (y : S5000x128.Idx) (i : S640000x128.Idx)
    (hcol : (i 1).val = (y 1).val) (e0 : x0 y = a0 i) (e1 : x1 y = a1 i)
    (e2 : ∀ q : Fin 128, x2 (ix2 (0 : Fin 1) q) = a2 (ix2 (0 : Fin 1) q)) (e3 : ∀ q : Fin 128, x3 (ix2 (0 : Fin 1) q) = a3 (ix2 (0 : Fin 1) q))
    (e4 : ∀ q : Fin 128, x4 (ix2 (0 : Fin 1) q) = a4 (ix2 (0 : Fin 1) q)) (e5 : ∀ q : Fin 128, x5 (ix2 (0 : Fin 1) q) = a5 (ix2 (0 : Fin 1) q)) :
    k1_pay2 (F := Ideal) x3 x0 x2 x4 x5 x1 y = rows1_7 g a0 a1 a2 a3 a4 a5 i := by
  obtain ⟨p, q, rfl⟩ : ∃ (p : Fin 5000) (q : Fin 128), y = ix2 p q := ⟨y 0, y 1, eq_ix2 y⟩
  have hq : (⟨(i 1).val, idx2_lt1 i⟩ : Fin 128) = q := Fin.ext hcol
  unfold rows1_7
  rw [hpay, e0, e1, e2, e3, e4, e5, hq]

/-- What point `t` writes back to the array `res + y` is block `t` of the array function. -/
theorem flushed1_7 (g : EReal → EReal → EReal → EReal → EReal → EReal → EReal)
    (hpay : ∀ (x0 x1 : Vec Ideal S5000x128 .f32) (x2 x3 x4 x5 : Vec Ideal S1x128 .f32) (y : Fin 5000) (j : Fin 128),
      k1_pay2 (F := Ideal) x3 x0 x2 x4 x5 x1 (ix2 y j) = g (x0 (ix2 y j)) (x2 (ix2 0 j)) (x3 (ix2 0 j)) (x4 (ix2 0 j)) (x5 (ix2 0 j)) (x1 (ix2 y j)))
    (c : Dev nD) (t : Fin cfg1.N) :
    (Reg.dat1 V c).flushed 7 t = ((cfg1.win 7).blk t).view.read (Elt Ideal) (rows1_7 g (V c main_v20_0) (V c main_arg1) (V c main_v22) (V c main_v26) (V c main_v18) (V c main_v19)) := by
  show (cfg1.win 7).cut (grid1.coords t) ((Reg.dat1 V c).after 7 t) = _
  rw [Reg.after1_7]
  unfold Reg.out1_7
  rw [View.canon_unit_zero off_zero]
  simp only [View.ld_unit_zero (S := S5000x128) off_zero, View.ld_unit_zero (S := S1x128) off_zero]
  obtain ⟨⟨b00, b01⟩, ⟨b10, b11⟩, ⟨b20, b21⟩, ⟨b30, b31⟩, ⟨b40, b41⟩, ⟨b50, b51⟩, ⟨b60, b61⟩, ⟨b70, b71⟩⟩ := index1 t
  funext y
  refine point1_7 g hpay _ _ _ _ _ _ (V c main_v20_0) (V c main_arg1) (V c main_v22) (V c main_v26) (V c main_v18) (V c main_v19) y (((cfg1.win 7).blk t).view.emb y) ?_ ?_ ?_ ?_ ?_ ?_ ?_
  · show win1_7.index t (1 : Fin 2) * 128 + 1 * (y 1).val = (y 1).val; omega
  · show V c main_v20_0 (((cfg1.win 0).blk t).view.emb y) = V c main_v20_0 (((cfg1.win 7).blk t).view.emb y)
    refine congrArg _ (funext fun a => Fin.ext ?_)
    match a with
    | ⟨0, _⟩ => show win1_0.index t (0 : Fin 2) * 5000 + 1 * (y 0).val = win1_7.index t (0 : Fin 2) * 5000 + 1 * (y 0).val; omega
    | ⟨1, _⟩ => show win1_0.index t (1 : Fin 2) * 128 + 1 * (y 1).val = win1_7.index t (1 : Fin 2) * 128 + 1 * (y 1).val; omega
  · show V c main_arg1 (((cfg1.win 1).blk t).view.emb y) = V c main_arg1 (((cfg1.win 7).blk t).view.emb y)
    refine congrArg _ (funext fun a => Fin.ext ?_)
    match a with
    | ⟨0, _⟩ => show win1_1.index t (0 : Fin 2) * 5000 + 1 * (y 0).val = win1_7.index t (0 : Fin 2) * 5000 + 1 * (y 0).val; omega
    | ⟨1, _⟩ => show win1_1.index t (1 : Fin 2) * 128 + 1 * (y 1).val = win1_7.index t (1 : Fin 2) * 128 + 1 * (y 1).val; omega
  · intro q
    show V c main_v22 (((cfg1.win 2).blk t).view.emb (ix2 (0 : Fin 1) q)) = V c main_v22 (ix2 (0 : Fin 1) q)
    refine congrArg _ (funext fun a => Fin.ext ?_)
    match a with
    | ⟨0, _⟩ => show win1_2.index t (0 : Fin 2) * 1 + 1 * 0 = 0; omega
    | ⟨1, _⟩ => show win1_2.index t (1 : Fin 2) * 128 + 1 * q.val = q.val; omega
  · intro q
    show V c main_v26 (((cfg1.win 3).blk t).view.emb (ix2 (0 : Fin 1) q)) = V c main_v26 (ix2 (0 : Fin 1) q)
    refine congrArg _ (funext fun a => Fin.ext ?_)
    match a with
    | ⟨0, _⟩ => show win1_3.index t (0 : Fin 2) * 1 + 1 * 0 = 0; omega
    | ⟨1, _⟩ => show win1_3.index t (1 : Fin 2) * 128 + 1 * q.val = q.val; omega
  · intro q
    show V c main_v18 (((cfg1.win 4).blk t).view.emb (ix2 (0 : Fin 1) q)) = V c main_v18 (ix2 (0 : Fin 1) q)
    refine congrArg _ (funext fun a => Fin.ext ?_)
    match a with
    | ⟨0, _⟩ => show win1_4.index t (0 : Fin 2) * 1 + 1 * 0 = 0; omega
    | ⟨1, _⟩ => show win1_4.index t (1 : Fin 2) * 128 + 1 * q.val = q.val; omega
  · intro q
    show V c main_v19 (((cfg1.win 5).blk t).view.emb (ix2 (0 : Fin 1) q)) = V c main_v19 (ix2 (0 : Fin 1) q)
    refine congrArg _ (funext fun a => Fin.ext ?_)
    match a with
    | ⟨0, _⟩ => show win1_5.index t (0 : Fin 2) * 1 + 1 * 0 = 0; omega
    | ⟨1, _⟩ => show win1_5.index t (1 : Fin 2) * 128 + 1 * q.val = q.val; omega

/-- An index of the result array lies in point `t`'s block iff, on each axis, it lies in the block's range. -/
theorem mem_blk1_7 (t : Fin cfg1.N) (i : S640000x128.Idx) :
    i ∈ ((cfg1.win 7).blk t).view.set ↔ ∀ a : Fin 2, win1_7.index t a * S5000x128.size a ≤ (i a).val ∧ (i a).val < win1_7.index t a * S5000x128.size a + S5000x128.size a := by
  show i ∈ ((View.whole main_v27_1).slice (win1_7.rect t)).set ↔ _
  rw [View.set_slice_whole, Rect.mem_set_unit]
  exact Iff.rfl

/-- Every index of the result array lies in the block of a point that writes back: row `r` lies in the block of point `r / 5000`. -/
theorem covered1_7 (i : S640000x128.Idx) : ∃ t : Fin cfg1.N, (cfg1.win 7).flush t = true ∧ i ∈ ((cfg1.win 7).blk t).view.set := by
  have hi0 : (i 0).val < 640000 := idx2_lt0 i
  have hi1 : (i 1).val < 128 := idx2_lt1 i
  have hN : cfg1.N = 128 := N_1
  obtain ⟨t, ht⟩ : ∃ t : Fin cfg1.N, t.val = (i 0).val / 5000 := ⟨⟨(i 0).val / 5000, by rw [hN]; omega⟩, rfl⟩
  obtain ⟨-, -, -, -, -, -, ⟨b60, b61⟩, ⟨b70, b71⟩⟩ := index1 t
  refine ⟨t, flush1_7 t, ?_⟩
  rw [mem_blk1_7]
  intro a
  match a with
  | ⟨0, _⟩ => show win1_7.index t (0 : Fin 2) * 5000 ≤ (i 0).val ∧ (i 0).val < win1_7.index t (0 : Fin 2) * 5000 + 5000; omega
  | ⟨1, _⟩ => show win1_7.index t (1 : Fin 2) * 128 ≤ (i 1).val ∧ (i 1).val < win1_7.index t (1 : Fin 2) * 128 + 128; omega

/-- The array `res + y` after the pipeline is the array function of the arrays it read. -/
theorem final1_7 (g : EReal → EReal → EReal → EReal → EReal → EReal → EReal)
    (hpay : ∀ (x0 x1 : Vec Ideal S5000x128 .f32) (x2 x3 x4 x5 : Vec Ideal S1x128 .f32) (y : Fin 5000) (j : Fin 128),
      k1_pay2 (F := Ideal) x3 x0 x2 x4 x5 x1 (ix2 y j) = g (x0 (ix2 y j)) (x2 (ix2 0 j)) (x3 (ix2 0 j)) (x4 (ix2 0 j)) (x5 (ix2 0 j)) (x1 (ix2 y j)))
    (c : Dev nD) :
    (Reg.dat1 V c).arrAt 7 cfg1.N = rows1_7 g (V c main_v20_0) (V c main_arg1) (V c main_v22) (V c main_v26) (V c main_v18) (V c main_v19) :=
  (Reg.dat1 V c).arrAt_eq_of_cover 7 _ (fun t _ => flushed1_7 V g hpay c t) covered1_7

/-- The array `res + y`, element by element. -/
theorem arr1_7_of (g : EReal → EReal → EReal → EReal → EReal → EReal → EReal)
    (hpay : ∀ (x0 x1 : Vec Ideal S5000x128 .f32) (x2 x3 x4 x5 : Vec Ideal S1x128 .f32) (y : Fin 5000) (j : Fin 128),
      k1_pay2 (F := Ideal) x3 x0 x2 x4 x5 x1 (ix2 y j) = g (x0 (ix2 y j)) (x2 (ix2 0 j)) (x3 (ix2 0 j)) (x4 (ix2 0 j)) (x5 (ix2 0 j)) (x1 (ix2 y j)))
    (V : (c : Dev nD) → (b : Ref sig .tc) → Buf (Elt Ideal) ((c : Thread nD τ).loc b)) (c : Dev nD) (r : Fin 640000) (j : Fin 128) :
    (Reg.dat1 V c).arrAt 7 cfg1.N (ix2 r j)
      = g (V c main_v20_0 (ix2 r j)) (V c main_v22 (ix2 0 j)) (V c main_v26 (ix2 0 j)) (V c main_v18 (ix2 0 j)) (V c main_v19 (ix2 0 j)) (V c main_arg1 (ix2 r j)) :=
  congrFun (final1_7 V g hpay c) (ix2 r j)

end Cert.KernelIdeal.Val

end
-- ==== Proof.MlpKernel.lean ====
/-
  The kernel's perceptron payloads read at an index.

  The stored value of the statistics kernel at row `y` and column `j` of its block is the three-layer
  perceptron of row `y` of the block it read: each matrix-unit product into the zero accumulator is, at the
  ideal values, the sum over the contraction coordinate of the products (the rounding to sixteen bits on the
  way in is the identity there); the one-row bias is broadcast over the rows and added on the right; the
  comparison with the zero word, the product with the slope word and the select are the leaky rectifier.
-/
import proofs.«170818_j15161234555428_1_alg».proof.Proof.Gen.KernelIdeal.Skeleton
import proofs.«170818_j15161234555428_1_alg».proof.Proof.SpecMlp
import proofs.«170818_j15161234555428_1_alg».proof.Proof.LibMatmul
import Idealize.ShloMosaic.Lib.ValueLayout

open scoped BigOperators

noncomputable section

namespace Cert.KernelIdeal.MlpValue

open Idealize.ShloMosaic Idealize.ShloMosaic.ValueIdx Cert.KernelIdeal Cert.KernelIdeal.Gen

/-! ## The pieces, over any number of rows -/

/-- The rectifier as the vector operations spell it, read at an index. -/
theorem lrelu_vec_apply {s : Shape} (v : FVec Ideal s .f32) (i : s.Idx) :
    select (cmpf .oge v (broadcast s (Scalar.ofBits (F := Ideal) .f32 0x00000000#32))) v
        (mulf (broadcast s (Scalar.ofBits (F := Ideal) .f32 0x3E4CCCCD#32)) v) i
      = Gnn.lrelu (v i) :=
  Gnn.lrelu_select (v i)

/-- A matrix-unit product into the zero accumulator plus a one-row bias broadcast over the rows, read at
    `(y, j)`, is the dense layer of row `y`. -/
theorem dense_apply {M K : ℕ} (x : FVec Ideal ⟨2, ![M, K]⟩ .bf16) (w : FVec Ideal ⟨2, ![K, 128]⟩ .bf16)
    (b : FVec Ideal ⟨2, ![1, 128]⟩ .f32) (hb : (⟨2, ![1, 128]⟩ : Shape).Broadcasts ⟨2, ![M, 128]⟩)
    (y : Fin M) (j : Fin 128) :
    addf (matmul (F := Ideal) (DotDims.plain M K 128) none x w (constant ⟨2, ![M, 128]⟩ .f32 0x00000000#32))
        (broadcastTo ⟨2, ![M, 128]⟩ b hb) (ix2 y j)
      = Gnn.layer (fun k : Fin K => x (ix2 y k)) (fun k k' => w (ix2 k k')) (fun k => b (ix2 0 k)) j := by
  rw [addf_apply, Cert.MatOps.matmul_plain_zero_apply, broadcastTo_1b_ab_apply]
  rfl

/-! ## Region 0: blocks of 5000 rows of 384 entries -/

/-- The generated dimension numbers are the plain product's. -/
theorem dot384_eq : dot_S5000x384_S384x128_S5000x128_1_0_0_1_n_n = DotDims.plain 5000 384 128 := rfl

theorem dot128_eq : dot_S5000x128_S128x128_S5000x128_1_0_0_1_n_n = DotDims.plain 5000 128 128 := rfl

/-- The last product of the statistics kernel, before its bias, at `(y, j)`: the contraction of the twice
    rectified hidden row with column `j` of the third weights. -/
theorem pay6_0 (x0 : Vec Ideal S5000x384 .f32) (x1 : Vec Ideal S384x128 .f32) (x2 : Vec Ideal S1x128 .f32)
    (x3 : Vec Ideal S128x128 .f32) (x4 : Vec Ideal S1x128 .f32) (x5 : Vec Ideal S128x128 .f32)
    (y : Fin 5000) (j : Fin 128) :
    k0_pay6 (F := Ideal) x0 x1 x2 x3 x4 x5 (ix2 y j)
      = ∑ k : Fin 128,
          Gnn.lrelu (Gnn.layer (fun k' : Fin 128 =>
            Gnn.lrelu (Gnn.layer (fun k'' : Fin 384 => x0 (ix2 y k'')) (fun a b => x1 (ix2 a b)) (fun a => x2 (ix2 0 a)) k'))
            (fun a b => x3 (ix2 a b)) (fun a => x4 (ix2 0 a)) k) * x5 (ix2 k j) := by
  unfold k0_pay6
  simp only [dot384_eq, dot128_eq, shapeCast_self]
  refine (Cert.MatOps.matmul_plain_zero_apply (M := 5000) (K := 128) (N := 128) none _ _ y j).trans ?_
  refine Finset.sum_congr rfl fun k _ => ?_
  refine congrArg (· * x5 (ix2 k j)) ?_
  refine (lrelu_vec_apply _ (ix2 y k)).trans (congrArg Gnn.lrelu ?_)
  refine (dense_apply (M := 5000) (K := 128) _ _ x4 _ y k).trans ?_
  refine congrArg (fun f => Gnn.layer f (fun a b => x3 (ix2 a b)) (fun a => x4 (ix2 0 a)) k) (funext fun k' => ?_)
  refine (lrelu_vec_apply _ (ix2 y k')).trans (congrArg Gnn.lrelu ?_)
  exact dense_apply (M := 5000) (K := 384) _ _ x2 _ y k'

/-- The stored hidden block of the statistics kernel at `(y, j)` is the perceptron of row `y` of the block read. -/
theorem pay_h0 (x0 : Vec Ideal S5000x384 .f32) (x1 : Vec Ideal S384x128 .f32) (x2 : Vec Ideal S1x128 .f32)
    (x3 : Vec Ideal S128x128 .f32) (x4 : Vec Ideal S1x128 .f32) (x5 : Vec Ideal S128x128 .f32) (x6 : Vec Ideal S1x128 .f32)
    (y : Fin 5000) (j : Fin 128) :
    k0_pay1 (F := Ideal) (k0_pay6 (F := Ideal) x0 x1 x2 x3 x4 x5) x6 (ValueIdx.ix2 y j)
      = Gnn.mlpRow (fun k : Fin 384 => x0 (ValueIdx.ix2 y k)) (fun k k' => x1 (ValueIdx.ix2 k k'))
          (fun k => x2 (ValueIdx.ix2 0 k)) (fun k k' => x3 (ValueIdx.ix2 k k')) (fun k => x4 (ValueIdx.ix2 0 k))
          (fun k k' => x5 (ValueIdx.ix2 k k')) (fun k => x6 (ValueIdx.ix2 0 k)) j := by
  unfold k0_pay1
  simp only [shapeCast_self]
  rw [addf_apply, broadcastTo_1b_ab_apply, pay6_0]
  rfl

/-! ## Region 2: blocks of 5000 rows of 256 entries -/

theorem dot256_eq : dot_S5000x256_S256x128_S5000x128_1_0_0_1_n_n = DotDims.plain 5000 256 128 := rfl

/-- The last product of the second statistics kernel, before its bias, at `(y, j)`. -/
theorem pay6_2 (x0 : Vec Ideal S5000x256 .f32) (x1 : Vec Ideal S256x128 .f32) (x2 : Vec Ideal S1x128 .f32)
    (x3 : Vec Ideal S128x128 .f32) (x4 : Vec Ideal S1x128 .f32) (x5 : Vec Ideal S128x128 .f32)
    (y : Fin 5000) (j : Fin 128) :
    k2_pay6 (F := Ideal) x0 x1 x2 x3 x4 x5 (ix2 y j)
      = ∑ k : Fin 128,
          Gnn.lrelu (Gnn.layer (fun k' : Fin 128 =>
            Gnn.lrelu (Gnn.layer (fun k'' : Fin 256 => x0 (ix2 y k'')) (fun a b => x1 (ix2 a b)) (fun a => x2 (ix2 0 a)) k'))
            (fun a b => x3 (ix2 a b)) (fun a => x4 (ix2 0 a)) k) * x5 (ix2 k j) := by
  unfold k2_pay6
  simp only [dot256_eq, dot128_eq, shapeCast_self]
  refine (Cert.MatOps.matmul_plain_zero_apply (M := 5000) (K := 128) (N := 128) none _ _ y j).trans ?_
  refine Finset.sum_congr rfl fun k _ => ?_
  refine congrArg (· * x5 (ix2 k j)) ?_
  refine (lrelu_vec_apply _ (ix2 y k)).trans (congrArg Gnn.lrelu ?_)
  refine (dense_apply (M := 5000) (K := 128) _ _ x4 _ y k).trans ?_
  refine congrArg (fun f => Gnn.layer f (fun a b => x3 (ix2 a b)) (fun a => x4 (ix2 0 a)) k) (funext fun k' => ?_)
  refine (lrelu_vec_apply _ (ix2 y k')).trans (congrArg Gnn.lrelu ?_)
  exact dense_apply (M := 5000) (K := 256) _ _ x2 _ y k'

/-- The stored hidden block of the second statistics kernel at `(y, j)` is the perceptron of row `y` of the block read. -/
theorem pay_h2 (x0 : Vec Ideal S5000x256 .f32) (x1 : Vec Ideal S256x128 .f32) (x2 : Vec Ideal S1x128 .f32)
    (x3 : Vec Ideal S128x128 .f32) (x4 : Vec Ideal S1x128 .f32) (x5 : Vec Ideal S128x128 .f32) (x6 : Vec Ideal S1x128 .f32)
    (y : Fin 5000) (j : Fin 128) :
    k2_pay1 (F := Ideal) (k2_pay6 (F := Ideal) x0 x1 x2 x3 x4 x5) x6 (ValueIdx.ix2 y j)
      = Gnn.mlpRow (fun k : Fin 256 => x0 (ValueIdx.ix2 y k)) (fun k k' => x1 (ValueIdx.ix2 k k'))
          (fun k => x2 (ValueIdx.ix2 0 k)) (fun k k' => x3 (ValueIdx.ix2 k k')) (fun k => x4 (ValueIdx.ix2 0 k))
          (fun k k' => x5 (ValueIdx.ix2 k k')) (fun k => x6 (ValueIdx.ix2 0 k)) j := by
  unfold k2_pay1
  simp only [shapeCast_self]
  rw [addf_apply, broadcastTo_1b_ab_apply, pay6_2]
  rfl

end Cert.KernelIdeal.MlpValue
-- ==== Proof.BnKernel.lean ====
/-
  The two kernels of the layer read at an index, over the extended reals.

  * The normalising kernel: at row y and lane j its first output is the batch normalisation
    `Gnn.bn` of the entry h(y, j) with the lane's mean, variance, scale and shift (each a
    one-row array read at (0, j)), and its second output is the residual entry plus that value.
  * The statistics kernel: at lane j the two accumulators grow by the lane's sum, over the 5000
    rows of the block, of the block's entries and of their squares; the two initial fills are zero.
-/
import proofs.«170818_j15161234555428_1_alg».proof.Proof.Gen.KernelIdeal.Skeleton
import proofs.«170818_j15161234555428_1_alg».proof.Proof.SpecBn
import Idealize.ShloMosaic.Lib.ValueLayout
import Idealize.ShloMosaic.PureOps.Ideal.Laws

namespace Cert.KernelIdeal.Gen

open Idealize.ShloMosaic Idealize.ShloMosaic.ValueIdx

/-! ## The normalising kernel -/

/-- The normalised output of the first normalising kernel at (y, j). -/
theorem k1_pay1_apply (var : Vec Ideal S1x128 .f32) (h : Vec Ideal S5000x128 .f32) (mean gamma beta : Vec Ideal S1x128 .f32)
    (y : Fin 5000) (j : Fin 128) :
    k1_pay1 (F := Ideal) var h mean gamma beta (ix2 y j)
      = Gnn.bn (h (ix2 y j)) (mean (ix2 (0 : Fin 1) j)) (var (ix2 (0 : Fin 1) j)) (gamma (ix2 (0 : Fin 1) j))
          (beta (ix2 (0 : Fin 1) j)) := by
  unfold k1_pay1
  simp only [shapeCast_self, addf_apply, mulf_apply, subf_apply, broadcastTo_1b_ab_apply]
  rfl

/-- The residual output of the first normalising kernel at (y, j): the residual entry plus the normalised one. -/
theorem k1_pay2_apply (var : Vec Ideal S1x128 .f32) (h : Vec Ideal S5000x128 .f32) (mean gamma beta : Vec Ideal S1x128 .f32)
    (res : Vec Ideal S5000x128 .f32) (y : Fin 5000) (j : Fin 128) :
    k1_pay2 (F := Ideal) var h mean gamma beta res (ix2 y j)
      = res (ix2 y j) + Gnn.bn (h (ix2 y j)) (mean (ix2 (0 : Fin 1) j)) (var (ix2 (0 : Fin 1) j))
          (gamma (ix2 (0 : Fin 1) j)) (beta (ix2 (0 : Fin 1) j)) := by
  unfold k1_pay2
  simp only [addf_apply, k1_pay1_apply]

/-- The normalised output of the second normalising kernel at (y, j). -/
theorem k3_pay1_apply (var : Vec Ideal S1x128 .f32) (h : Vec Ideal S5000x128 .f32) (mean gamma beta : Vec Ideal S1x128 .f32)
    (y : Fin 5000) (j : Fin 128) :
    k3_pay1 (F := Ideal) var h mean gamma beta (ix2 y j)
      = Gnn.bn (h (ix2 y j)) (mean (ix2 (0 : Fin 1) j)) (var (ix2 (0 : Fin 1) j)) (gamma (ix2 (0 : Fin 1) j))
          (beta (ix2 (0 : Fin 1) j)) := by
  unfold k3_pay1
  simp only [shapeCast_self, addf_apply, mulf_apply, subf_apply, broadcastTo_1b_ab_apply]
  rfl

/-- The residual output of the second normalising kernel at (y, j). -/
theorem k3_pay2_apply (var : Vec Ideal S1x128 .f32) (h : Vec Ideal S5000x128 .f32) (mean gamma beta : Vec Ideal S1x128 .f32)
    (res : Vec Ideal S5000x128 .f32) (y : Fin 5000) (j : Fin 128) :
    k3_pay2 (F := Ideal) var h mean gamma beta res (ix2 y j)
      = res (ix2 y j) + Gnn.bn (h (ix2 y j)) (mean (ix2 (0 : Fin 1) j)) (var (ix2 (0 : Fin 1) j))
          (gamma (ix2 (0 : Fin 1) j)) (beta (ix2 (0 : Fin 1) j)) := by
  unfold k3_pay2
  simp only [addf_apply, k3_pay1_apply]

/-! ## The statistics kernel -/

/-- A column sum: the `add` reduction of a 5000 × 128 block over its rows, read at lane j, is the sum over the
    rows of the block's entries in that lane. -/
theorem colsum_apply (src : FVec Ideal S5000x128 .f32) (j : Fin 128) :
    multiReduction .add [0] S128 src 0x00000000#32 reduces_S5000x128_S128 (.inl rfl) rfl (ix1 j)
      = ∑ y : Fin 5000, src (ix2 y j) := by
  refine (Ideal.multiReduction_add_single src 0x00000000#32 reduces_S5000x128_S128 (.inl rfl) rfl (ix1 j)).trans ?_
  refine Finset.sum_congr rfl fun y _ => congrArg src ?_
  funext a
  match a with
  | ⟨0, _⟩ => rfl
  | ⟨1, _⟩ => rfl

/-- The block the first statistics kernel stores, at (y, j): the last layer's product plus its bias. -/
theorem k0_pay1_apply (v34 : FVec Ideal S5000x128 .f32) (v35 : Vec Ideal S1x128 .f32) (y : Fin 5000) (j : Fin 128) :
    k0_pay1 (F := Ideal) v34 v35 (ix2 y j) = v34 (ix2 y j) + v35 (ix2 (0 : Fin 1) j) := by
  unfold k0_pay1
  simp only [shapeCast_self, addf_apply, broadcastTo_1b_ab_apply]

/-- The first accumulator of the first statistics kernel at lane j: what it held plus the lane's sum over the block. -/
theorem k0_pay2_apply (v34 : FVec Ideal S5000x128 .f32) (v35 v40 : Vec Ideal S1x128 .f32) (j : Fin 128) :
    k0_pay2 (F := Ideal) v34 v35 v40 (ix2 (0 : Fin 1) j)
      = v40 (ix2 (0 : Fin 1) j) + ∑ y : Fin 5000, k0_pay1 (F := Ideal) v34 v35 (ix2 y j) := by
  unfold k0_pay2
  simp only [shapeCast_self, addf_apply, shapeCast_a_1a_apply]
  exact congrArg (v40 (ix2 (0 : Fin 1) j) + ·) (colsum_apply _ j)

/-- The second accumulator of the first statistics kernel at lane j: what it held plus the lane's sum of squares. -/
theorem k0_pay3_apply (v34 : FVec Ideal S5000x128 .f32) (v35 v46 : Vec Ideal S1x128 .f32) (j : Fin 128) :
    k0_pay3 (F := Ideal) v34 v35 v46 (ix2 (0 : Fin 1) j)
      = v46 (ix2 (0 : Fin 1) j)
        + ∑ y : Fin 5000, k0_pay1 (F := Ideal) v34 v35 (ix2 y j) * k0_pay1 (F := Ideal) v34 v35 (ix2 y j) := by
  unfold k0_pay3
  simp only [shapeCast_self, addf_apply, shapeCast_a_1a_apply]
  exact congrArg (v46 (ix2 (0 : Fin 1) j) + ·) (colsum_apply _ j)

/-- The first accumulator's initial fill is zero. -/
theorem k0_pay4_apply (i : S1x128.Idx) : k0_pay4 (F := Ideal) i = 0 := Ideal.ofBits_zero_f32

/-- The second accumulator's initial fill is zero. -/
theorem k0_pay5_apply (i : S1x128.Idx) : k0_pay5 (F := Ideal) i = 0 := Ideal.ofBits_zero_f32

/-- The block the second statistics kernel stores, at (y, j). -/
theorem k2_pay1_apply (v34 : FVec Ideal S5000x128 .f32) (v35 : Vec Ideal S1x128 .f32) (y : Fin 5000) (j : Fin 128) :
    k2_pay1 (F := Ideal) v34 v35 (ix2 y j) = v34 (ix2 y j) + v35 (ix2 (0 : Fin 1) j) := by
  unfold k2_pay1
  simp only [shapeCast_self, addf_apply, broadcastTo_1b_ab_apply]

/-- The first accumulator of the second statistics kernel at lane j. -/
theorem k2_pay2_apply (v34 : FVec Ideal S5000x128 .f32) (v35 v40 : Vec Ideal S1x128 .f32) (j : Fin 128) :
    k2_pay2 (F := Ideal) v34 v35 v40 (ix2 (0 : Fin 1) j)
      = v40 (ix2 (0 : Fin 1) j) + ∑ y : Fin 5000, k2_pay1 (F := Ideal) v34 v35 (ix2 y j) := by
  unfold k2_pay2
  simp only [shapeCast_self, addf_apply, shapeCast_a_1a_apply]
  exact congrArg (v40 (ix2 (0 : Fin 1) j) + ·) (colsum_apply _ j)

/-- The second accumulator of the second statistics kernel at lane j. -/
theorem k2_pay3_apply (v34 : FVec Ideal S5000x128 .f32) (v35 v46 : Vec Ideal S1x128 .f32) (j : Fin 128) :
    k2_pay3 (F := Ideal) v34 v35 v46 (ix2 (0 : Fin 1) j)
      = v46 (ix2 (0 : Fin 1) j)
        + ∑ y : Fin 5000, k2_pay1 (F := Ideal) v34 v35 (ix2 y j) * k2_pay1 (F := Ideal) v34 v35 (ix2 y j) := by
  unfold k2_pay3
  simp only [shapeCast_self, addf_apply, shapeCast_a_1a_apply]
  exact congrArg (v46 (ix2 (0 : Fin 1) j) + ·) (colsum_apply _ j)

/-- The initial fills of the second statistics kernel's accumulators are zero. -/
theorem k2_pay4_apply (i : S1x128.Idx) : k2_pay4 (F := Ideal) i = 0 := Ideal.ofBits_zero_f32

theorem k2_pay5_apply (i : S1x128.Idx) : k2_pay5 (F := Ideal) i = 0 := Ideal.ofBits_zero_f32

end Cert.KernelIdeal.Gen
-- ==== Proof.Bridge.EdgeRun.lean ====
import proofs.«170818_j15161234555428_1_alg».proof.Proof.Bridge.Edge
import proofs.«170818_j15161234555428_1_alg».proof.Proof.KI.Halves
import proofs.«170818_j15161234555428_1_alg».proof.Proof.KI.Val0h
import proofs.«170818_j15161234555428_1_alg».proof.Proof.KI.Val1
import proofs.«170818_j15161234555428_1_alg».proof.Proof.MlpKernel
import proofs.«170818_j15161234555428_1_alg».proof.Proof.BnKernel

/-!
# The edge half at the run's own data

The readings the edge half asks for, at the data the run is made of: the first launch's array of
activations is, row by row, the three-layer network of the rows of its input (each block of rows is
the network of the block read at that point); its two accumulators hold the column sums over all rows;
the second launch's two arrays are the normalised value and the residual sum, entry by entry.
-/

set_option maxRecDepth 16384

open scoped BigOperators

noncomputable section

namespace Cert.Bridge

open Cert.KernelIdeal Cert.KernelIdeal.Gen Cert.KernelIdeal.GenP
open Idealize.ShloMosaic Idealize.ShloMosaic.TcCoe Idealize.SL.Sem Idealize.ShloMosaic.ValueIdx
open LibRealClosure (IsReal)

/-- The three-layer network of a row, as a function of the row and of the six parameter arrays. -/
def Gmlp (row : Fin 384 → EReal) (x1 : Vec Ideal S384x128 .f32) (x2 : Vec Ideal S1x128 .f32) (x3 : Vec Ideal S128x128 .f32)
    (x4 : Vec Ideal S1x128 .f32) (x5 : Vec Ideal S128x128 .f32) (x6 : Vec Ideal S1x128 .f32) (j : Fin 128) : EReal :=
  Gnn.mlpRow row (fun k k' => x1 (ix2 k k')) (fun k => x2 (ix2 0 k)) (fun k k' => x3 (ix2 k k')) (fun k => x4 (ix2 0 k))
    (fun k k' => x5 (ix2 k k')) (fun k => x6 (ix2 0 k)) j

/-- The first kernel's stored block is that network of the block's rows. -/
theorem Gmlp_pay (x0 : Vec Ideal S5000x384 .f32) (x1 : Vec Ideal S384x128 .f32) (x2 : Vec Ideal S1x128 .f32)
    (x3 : Vec Ideal S128x128 .f32) (x4 : Vec Ideal S1x128 .f32) (x5 : Vec Ideal S128x128 .f32) (x6 : Vec Ideal S1x128 .f32)
    (y : Fin 5000) (j : Fin 128) :
    k0_pay1 (F := Ideal) (k0_pay6 (F := Ideal) x0 x1 x2 x3 x4 x5) x6 (ix2 y j) = Gmlp (fun k => x0 (ix2 y k)) x1 x2 x3 x4 x5 x6 j :=
  Cert.KernelIdeal.MlpValue.pay_h0 x0 x1 x2 x3 x4 x5 x6 y j

variable (V : (c : Dev nD) → (b : Ref sig .tc) → Buf (Elt Ideal) ((c : Thread nD τ).loc b))

/-- The first launch's array of activations at row `r`, lane `j`. -/
theorem run_h07 (c : Dev nD) (r : Fin 640000) (j : Fin 128) :
    ((Reg.dat0 V c).arrAt 7 cfg0.N : S640000x128.Idx → EReal) (ix2 r j)
      = Gnn.mlpRow (fun k : Fin 384 => V c main_v14 (ix2 r k)) (fun k k' => V c main_arg4 (ix2 k k'))
          (fun k => V c main_v15 (ix2 0 k)) (fun k k' => V c main_arg6 (ix2 k k'))
          (fun k => V c main_v16 (ix2 0 k)) (fun k k' => V c main_arg8 (ix2 k k'))
          (fun k => V c main_v17 (ix2 0 k)) j :=
  Cert.KernelIdeal.Val.arr0_7_of Gmlp Gmlp_pay V c r j

/-- Row `y` of the block of the input read at point `t` is row `t * 5000 + y` of the input. -/
theorem blk0_0_apply (c : Dev nD) (t : Fin cfg0.N) (y : Fin 5000) (k : Fin 384) (hr : t.1 * 5000 + y.1 < 640000) :
    (Reg.iblk0 V c 0 t : Vec Ideal S5000x384 .f32) (ix2 y k) = V c main_v14 (ix2 (⟨t.1 * 5000 + y.1, hr⟩ : Fin 640000) k) := by
  obtain ⟨⟨b00, b01⟩, -⟩ := Cert.KernelIdeal.Val.index0h t
  show V c main_v14 (((cfg0.win 0).blk t).view.emb (ix2 y k)) = _
  refine congrArg _ (funext fun a => Fin.ext ?_)
  match a with
  | ⟨0, _⟩ => show win0_0.index t (0 : Fin 2) * 5000 + 1 * y.val = t.1 * 5000 + y.1; omega
  | ⟨1, _⟩ => show win0_0.index t (1 : Fin 2) * 384 + 1 * k.val = k.val; omega

/-- The rows of block `t` of the first launch's array are the block the body stored at point `t`. -/
theorem run_hh (c : Dev nD) (t : Fin cfg0.N) (y : Fin 5000) (j : Fin 128) (hr : t.1 * 5000 + y.1 < 640000) :
    (Reg.dat0 V c).arrAt 7 cfg0.N (ix2 (⟨t.1 * 5000 + y.1, hr⟩ : Fin 640000) j)
      = k0_pay1 (F := Ideal) (k0_pay6 (F := Ideal) (Reg.iblk0 V c 0 t) (Reg.iblk0 V c 1 t) (Reg.iblk0 V c 2 t) (Reg.iblk0 V c 3 t) (Reg.iblk0 V c 4 t) (Reg.iblk0 V c 5 t)) (Reg.iblk0 V c 6 t) (ix2 y j) := by
  rw [Cert.KernelIdeal.Val.arr0_7_of Gmlp Gmlp_pay V c ⟨_, hr⟩ j, Gmlp_pay]
  rw [Cert.KernelIdeal.Val.blk0h_1 V c t, Cert.KernelIdeal.Val.blk0h_2 V c t, Cert.KernelIdeal.Val.blk0h_3 V c t,
    Cert.KernelIdeal.Val.blk0h_4 V c t, Cert.KernelIdeal.Val.blk0h_5 V c t, Cert.KernelIdeal.Val.blk0h_6 V c t]
  simp only [blk0_0_apply V c t y _ hr]

variable (m : (ℓ : Loc nD τ sig) → Buf (Elt Ideal) ℓ) (c : Dev nD)

set_option maxRecDepth 65536 in
/-- Both of the second launch's arrays, at the run's data, from the two accumulators' readings. -/
theorem edge_main_of (hR : RealArgs m c)
    (h08 : ∀ j : Fin 128, arr08 m c Run.half0 (ix2 (0 : Fin 1) j) = ∑ r : Fin 640000, arr07 m c Run.half0 (ix2 r j))
    (h09 : ∀ j : Fin 128, arr09 m c Run.half0 (ix2 (0 : Fin 1) j)
      = ∑ r : Fin 640000, arr07 m c Run.half0 (ix2 r j) * arr07 m c Run.half0 (ix2 r j)) :
    arr16 m c Run.half0 Run.half1 = Y m c
      ∧ arr17 m c Run.half0 Run.half1 = addf (F := Ideal) (φ := .f32) (A1 m c) (Y m c) :=
  edge_core m c Run.half0 Run.half1 hR (run_h07 (Run.V1 m) c) h08 h09
    (fun r j => Cert.KernelIdeal.Val.arr1_6_of Gnn.bn (fun x0 x2 x3 x4 x5 y j => k1_pay1_apply x3 x0 x2 x4 x5 y j)
      (Run.V3 m Run.half0) c r j)
    (fun r j => Cert.KernelIdeal.Val.arr1_7_of (fun h mu v g b res => res + Gnn.bn h mu v g b)
      (fun x0 x1 x2 x3 x4 x5 y j => k1_pay2_apply x3 x0 x2 x4 x5 x1 y j) (Run.V3 m Run.half0) c r j)

end Cert.Bridge

end
-- ==== Proof.KI.Val0.Acc.lean ====
/- The two accumulators of region 0 (the column sums of the perceptron's output and of its square) point by point:
   what each case of the body leaves in an accumulator's staging buffer as a term over the input blocks, and from that
   the buffer after the first point (the zero fill plus the first block's sums) and after a later point (what it held
   plus that block's sums). -/
import proofs.«170818_j15161234555428_1_alg».proof.Proof.KI.Reg0
import Idealize.ShloMosaic.Lib.Pipeline.Value
import Idealize.ShloMosaic.Lib.ValueIdx
import Idealize.ShloMosaic.Lib.Tactic

set_option maxRecDepth 16384

noncomputable section

namespace Cert.KernelIdeal.Val

open Cert.KernelIdeal Cert.KernelIdeal.Gen Cert.KernelIdeal.GenP Cert.KernelIdeal.Reg
open Idealize.ShloMosaic Idealize.ShloMosaic.TcCoe Idealize.SL.Sem Idealize.ShloMosaic.ValueIdx
open Idealize.ShloMosaic.Pipeline (Dat)
open scoped BigOperators

/-! ## What each case leaves in an accumulator's buffer -/

section Pieces

variable {F : FTy → Type} [FloatOps F]

theorem hz_r0 : (![0, 0] : Fin 2 → Nat) = fun _ => 0 := funext fun a => by fin_cases a <;> rfl

/-- What the first-point case leaves in accumulator 8's staging buffer, as a term over the input blocks: the zero fill, read back, plus the block's column sums. -/
theorem out0_A_8_eq (c : Dev nD) (i : grid0.Coords) (arg1 : Memref sig .tc .vmem S5000x384 .f32) (harg1 : arg1.IsWhole) (arg2 : Memref sig .tc .vmem S384x128 .f32) (harg2 : arg2.IsWhole) (arg3 : Memref sig .tc .vmem S1x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S5000x128 .f32) (harg8 : arg8.IsWhole) (arg9 : Memref sig .tc .vmem S1x128 .f32) (harg9 : arg9.IsWhole) (arg10 : Memref sig .tc .vmem S1x128 .f32) (harg10 : arg10.IsWhole) (hc0 : cond0_0 i)
    (x0 : Vec F S5000x384 .f32) (x1 : Vec F S384x128 .f32) (x2 : Vec F S1x128 .f32) (x3 : Vec F S128x128 .f32) (x4 : Vec F S1x128 .f32) (x5 : Vec F S128x128 .f32) (x6 : Vec F S1x128 .f32) :
    out0_A_8 c i arg1 harg1 arg2 harg2 arg3 harg3 arg4 harg4 arg5 harg5 arg6 harg6 arg7 harg7 arg8 harg8 arg9 harg9 arg10 harg10 hc0 x0 x1 x2 x3 x4 x5 x6 = k0_pay2 (k0_pay6 x0 x1 x2 x3 x4 x5) x6 (k0_pay4 (F := F)) := by
  unfold out0_A_8
  rw [View.read_writes_eq_canon _ _ _ (cover0_A_8 c i arg1 harg1 arg2 harg2 arg3 harg3 arg4 harg4 arg5 harg5 arg6 harg6 arg7 harg7 arg8 harg8 arg9 harg9 arg10 harg10 hc0 x0 x1 x2 x3 x4 x5 x6)]
  unfold kernelRun0_A
  dsimp only
  try sl_unfold_words
  rw [View.canon_cons_unit_zero (S := S1x128) hz_r0, View.readCov_unit_zero (S := S1x128) _ hz_r0]
  simp only [View.readAt_eq_ld, harg1.read_unread, harg2.read_unread, harg3.read_unread, harg4.read_unread, harg5.read_unread, harg6.read_unread, harg7.read_unread, harg9.read_unread, harg10.read_unread, View.ld_unit_zero (S := S5000x384) hz_r0, View.ld_unit_zero (S := S384x128) hz_r0, View.ld_unit_zero (S := S1x128) hz_r0, View.ld_unit_zero (S := S128x128) hz_r0, View.ld_unit_zero (S := S5000x128) hz_r0, shapeCast_self]

/-- What the later-point case leaves in accumulator 8's staging buffer, as a term over the input blocks and what the buffer held: that plus the block's column sums. -/
theorem out0_B_8_eq (c : Dev nD) (i : grid0.Coords) (arg1 : Memref sig .tc .vmem S5000x384 .f32) (harg1 : arg1.IsWhole) (arg2 : Memref sig .tc .vmem S384x128 .f32) (harg2 : arg2.IsWhole) (arg3 : Memref sig .tc .vmem S1x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S5000x128 .f32) (harg8 : arg8.IsWhole) (arg9 : Memref sig .tc .vmem S1x128 .f32) (harg9 : arg9.IsWhole) (arg10 : Memref sig .tc .vmem S1x128 .f32) (harg10 : arg10.IsWhole) (hc0 : ¬cond0_0 i)
    (x0 : Vec F S5000x384 .f32) (x1 : Vec F S384x128 .f32) (x2 : Vec F S1x128 .f32) (x3 : Vec F S128x128 .f32) (x4 : Vec F S1x128 .f32) (x5 : Vec F S128x128 .f32) (x6 : Vec F S1x128 .f32) (xo8 : Vec F S1x128 .f32) (xo9 : Vec F S1x128 .f32) :
    out0_B_8 c i arg1 harg1 arg2 harg2 arg3 harg3 arg4 harg4 arg5 harg5 arg6 harg6 arg7 harg7 arg8 harg8 arg9 harg9 arg10 harg10 hc0 x0 x1 x2 x3 x4 x5 x6 xo8 xo9 = k0_pay2 (k0_pay6 x0 x1 x2 x3 x4 x5) x6 xo8 := by
  unfold out0_B_8
  rw [View.read_writes_eq_canon _ _ _ (cover0_B_8 c i arg1 harg1 arg2 harg2 arg3 harg3 arg4 harg4 arg5 harg5 arg6 harg6 arg7 harg7 arg8 harg8 arg9 harg9 arg10 harg10 hc0 x0 x1 x2 x3 x4 x5 x6 xo8 xo9)]
  unfold kernelRun0_B
  dsimp only
  try sl_unfold_words
  rw [View.canon_unit_zero hz_r0]
  simp only [View.readAt_eq_ld, harg1.read_unread, harg2.read_unread, harg3.read_unread, harg4.read_unread, harg5.read_unread, harg6.read_unread, harg7.read_unread, harg9.read_unread, harg10.read_unread, View.ld_unit_zero (S := S5000x384) hz_r0, View.ld_unit_zero (S := S384x128) hz_r0, View.ld_unit_zero (S := S1x128) hz_r0, View.ld_unit_zero (S := S128x128) hz_r0, View.ld_unit_zero (S := S5000x128) hz_r0, shapeCast_self]

/-- What the first-point case leaves in accumulator 9's staging buffer, as a term over the input blocks: the zero fill, read back, plus the block's column sums. -/
theorem out0_A_9_eq (c : Dev nD) (i : grid0.Coords) (arg1 : Memref sig .tc .vmem S5000x384 .f32) (harg1 : arg1.IsWhole) (arg2 : Memref sig .tc .vmem S384x128 .f32) (harg2 : arg2.IsWhole) (arg3 : Memref sig .tc .vmem S1x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S5000x128 .f32) (harg8 : arg8.IsWhole) (arg9 : Memref sig .tc .vmem S1x128 .f32) (harg9 : arg9.IsWhole) (arg10 : Memref sig .tc .vmem S1x128 .f32) (harg10 : arg10.IsWhole) (hc0 : cond0_0 i)
    (x0 : Vec F S5000x384 .f32) (x1 : Vec F S384x128 .f32) (x2 : Vec F S1x128 .f32) (x3 : Vec F S128x128 .f32) (x4 : Vec F S1x128 .f32) (x5 : Vec F S128x128 .f32) (x6 : Vec F S1x128 .f32) :
    out0_A_9 c i arg1 harg1 arg2 harg2 arg3 harg3 arg4 harg4 arg5 harg5 arg6 harg6 arg7 harg7 arg8 harg8 arg9 harg9 arg10 harg10 hc0 x0 x1 x2 x3 x4 x5 x6 = k0_pay3 (k0_pay6 x0 x1 x2 x3 x4 x5) x6 (k0_pay5 (F := F)) := by
  unfold out0_A_9
  rw [View.read_writes_eq_canon _ _ _ (cover0_A_9 c i arg1 harg1 arg2 harg2 arg3 harg3 arg4 harg4 arg5 harg5 arg6 harg6 arg7 harg7 arg8 harg8 arg9 harg9 arg10 harg10 hc0 x0 x1 x2 x3 x4 x5 x6)]
  unfold kernelRun0_A
  dsimp only
  try sl_unfold_words
  rw [View.canon_cons_unit_zero (S := S1x128) hz_r0, View.readCov_unit_zero (S := S1x128) _ hz_r0]
  simp only [View.readAt_eq_ld, harg1.read_unread, harg2.read_unread, harg3.read_unread, harg4.read_unread, harg5.read_unread, harg6.read_unread, harg7.read_unread, harg9.read_unread, harg10.read_unread, View.ld_unit_zero (S := S5000x384) hz_r0, View.ld_unit_zero (S := S384x128) hz_r0, View.ld_unit_zero (S := S1x128) hz_r0, View.ld_unit_zero (S := S128x128) hz_r0, View.ld_unit_zero (S := S5000x128) hz_r0, shapeCast_self]

/-- What the later-point case leaves in accumulator 9's staging buffer, as a term over the input blocks and what the buffer held: that plus the block's column sums. -/
theorem out0_B_9_eq (c : Dev nD) (i : grid0.Coords) (arg1 : Memref sig .tc .vmem S5000x384 .f32) (harg1 : arg1.IsWhole) (arg2 : Memref sig .tc .vmem S384x128 .f32) (harg2 : arg2.IsWhole) (arg3 : Memref sig .tc .vmem S1x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S5000x128 .f32) (harg8 : arg8.IsWhole) (arg9 : Memref sig .tc .vmem S1x128 .f32) (harg9 : arg9.IsWhole) (arg10 : Memref sig .tc .vmem S1x128 .f32) (harg10 : arg10.IsWhole) (hc0 : ¬cond0_0 i)
    (x0 : Vec F S5000x384 .f32) (x1 : Vec F S384x128 .f32) (x2 : Vec F S1x128 .f32) (x3 : Vec F S128x128 .f32) (x4 : Vec F S1x128 .f32) (x5 : Vec F S128x128 .f32) (x6 : Vec F S1x128 .f32) (xo8 : Vec F S1x128 .f32) (xo9 : Vec F S1x128 .f32) :
    out0_B_9 c i arg1 harg1 arg2 harg2 arg3 harg3 arg4 harg4 arg5 harg5 arg6 harg6 arg7 harg7 arg8 harg8 arg9 harg9 arg10 harg10 hc0 x0 x1 x2 x3 x4 x5 x6 xo8 xo9 = k0_pay3 (k0_pay6 x0 x1 x2 x3 x4 x5) x6 xo9 := by
  unfold out0_B_9
  rw [View.read_writes_eq_canon _ _ _ (cover0_B_9 c i arg1 harg1 arg2 harg2 arg3 harg3 arg4 harg4 arg5 harg5 arg6 harg6 arg7 harg7 arg8 harg8 arg9 harg9 arg10 harg10 hc0 x0 x1 x2 x3 x4 x5 x6 xo8 xo9)]
  unfold kernelRun0_B
  dsimp only
  try sl_unfold_words
  rw [View.canon_unit_zero hz_r0]
  simp only [View.readAt_eq_ld, harg1.read_unread, harg2.read_unread, harg3.read_unread, harg4.read_unread, harg5.read_unread, harg6.read_unread, harg7.read_unread, harg9.read_unread, harg10.read_unread, View.ld_unit_zero (S := S5000x384) hz_r0, View.ld_unit_zero (S := S384x128) hz_r0, View.ld_unit_zero (S := S1x128) hz_r0, View.ld_unit_zero (S := S128x128) hz_r0, View.ld_unit_zero (S := S5000x128) hz_r0, shapeCast_self]

end Pieces

/-! ## The accumulators point by point -/

section Recursion

variable {F : FTy → Type} [FloatOps F]
variable (V : (c : Dev nD) → (b : Ref sig .tc) → Buf (Elt F) ((c : Thread nD τ).loc b))

/-- The perceptron's last product on the block of rows at point `t` (the last bias not yet added). -/
def mlp0 (c : Dev nD) (t : Fin cfg0.N) : FVec F S5000x128 .f32 :=
  k0_pay6 (iblk0 V c 0 t) (iblk0 V c 1 t) (iblk0 V c 2 t) (iblk0 V c 3 t) (iblk0 V c 4 t) (iblk0 V c 5 t)

/-- Accumulator 8 after the first point: the zero fill plus the first block's column sums. -/
theorem acc0_8_A (c : Dev nD) (t : Fin cfg0.N) (h0 : t.val % 128 = 0) :
    (outsAt0 V c t.val t.isLt).2.1 = k0_pay2 (mlp0 V c t) (iblk0 V c 6 t) (k0_pay4 (F := F)) := by
  rw [outsAt0_A V c t h0]; dsimp only; unfold mlp0; exact out0_A_8_eq ..

/-- Accumulator 8 after a later point, from what it held after the point before. -/
theorem acc0_8_B (c : Dev nD) (t : Fin cfg0.N) (h0 : ¬t.val % 128 = 0) :
    (outsAt0 V c t.val t.isLt).2.1 = k0_pay2 (mlp0 V c t) (iblk0 V c 6 t) (outsAt0 V c (t.val - 1) (Nat.lt_of_le_of_lt (Nat.sub_le _ _) t.isLt)).2.1 := by
  rw [outsAt0_B V c t h0]; dsimp only; unfold mlp0; exact out0_B_8_eq ..

/-- Accumulator 9 after the first point: the zero fill plus the first block's column sums. -/
theorem acc0_9_A (c : Dev nD) (t : Fin cfg0.N) (h0 : t.val % 128 = 0) :
    (outsAt0 V c t.val t.isLt).2.2 = k0_pay3 (mlp0 V c t) (iblk0 V c 6 t) (k0_pay5 (F := F)) := by
  rw [outsAt0_A V c t h0]; dsimp only; unfold mlp0; exact out0_A_9_eq ..

/-- Accumulator 9 after a later point, from what it held after the point before. -/
theorem acc0_9_B (c : Dev nD) (t : Fin cfg0.N) (h0 : ¬t.val % 128 = 0) :
    (outsAt0 V c t.val t.isLt).2.2 = k0_pay3 (mlp0 V c t) (iblk0 V c 6 t) (outsAt0 V c (t.val - 1) (Nat.lt_of_le_of_lt (Nat.sub_le _ _) t.isLt)).2.2 := by
  rw [outsAt0_B V c t h0]; dsimp only; unfold mlp0; exact out0_B_9_eq ..

end Recursion

end Cert.KernelIdeal.Val

end
-- ==== Proof.LibBlockSum.lean ====
import Idealize.ShloMosaic.PureOps.Ideal

/-!
# Sums by blocks, and the running total that adds them up

A sum over `A * B` consecutive rows is the sum, over `A` blocks, of the sums over the `B` rows of
each block: row `t * B + y` is row `y` of block `t`. This holds in any commutative additive
monoid. A running total that starts from zero and adds one block's sum at each step therefore
holds, after the last step, the sum over all rows.
-/

namespace LibBlockSum

open scoped BigOperators

/-- Row `y` of block `t` is a row of the whole. -/
theorem row_lt {A B : ℕ} (t : Fin A) (y : Fin B) : t.1 * B + y.1 < A * B :=
  calc t.1 * B + y.1 < t.1 * B + B := Nat.add_lt_add_left y.2 _
    _ = (t.1 + 1) * B := (Nat.succ_mul t.1 B).symm
    _ ≤ A * B := Nat.mul_le_mul_right B t.2

variable {M : Type*} [AddCommMonoid M]

/-- A sum over `A * B` rows, by blocks. -/
theorem sum_blocks (A B : ℕ) (f : Fin (A * B) → M) :
    ∑ r : Fin (A * B), f r = ∑ t : Fin A, ∑ y : Fin B, f ⟨t.1 * B + y.1, row_lt t y⟩ := by
  rw [← Fintype.sum_prod_type']
  refine (Fintype.sum_equiv finProdFinEquiv (fun p : Fin A × Fin B => f ⟨p.1.1 * B + p.2.1, row_lt p.1 p.2⟩) f
    (fun p => congrArg f (Fin.ext ?_))).symm
  simp only [finProdFinEquiv_apply_val]
  rw [Nat.mul_comm, Nat.add_comm]

/-- The same for `N` rows with `N = A * B`. -/
theorem sum_blocks_of_eq {N : ℕ} (A B : ℕ) (h : A * B = N) (f : Fin N → M) :
    ∑ r : Fin N, f r = ∑ t : Fin A, ∑ y : Fin B, f ⟨t.1 * B + y.1, h ▸ row_lt t y⟩ := by
  subst h
  exact sum_blocks A B f

/-- A running total: started at `z + s 0` and adding `s (t + 1)` at step `t + 1`, it holds
    `z` plus the partial sum. -/
theorem fold_eq (a s : ℕ → M) (z : M) (h0 : a 0 = z + s 0)
    (hstep : ∀ t, a (t + 1) = a t + s (t + 1)) (t : ℕ) :
    a t = z + ∑ k ∈ Finset.range (t + 1), s k := by
  induction t with
  | zero => simpa using h0
  | succ t ih => rw [hstep, ih, Finset.sum_range_succ _ (t + 1), add_assoc]

/-- The running total started from zero is the partial sum. -/
theorem fold_eq_sum (a s : ℕ → M) (z : M) (hz : z = 0) (h0 : a 0 = z + s 0)
    (hstep : ∀ t, a (t + 1) = a t + s (t + 1)) (t : ℕ) :
    a t = ∑ k ∈ Finset.range (t + 1), s k := by
  rw [fold_eq a s z h0 hstep t, hz, zero_add]

/-- The running total over `G` steps only (the step law is asked below `G` only). -/
theorem fold_eq_sum_lt (G : ℕ) (a s : ℕ → M) (z : M) (hz : z = 0) (h0 : a 0 = z + s 0)
    (hstep : ∀ t, t + 1 < G → a (t + 1) = a t + s (t + 1)) :
    ∀ t, t < G → a t = ∑ k ∈ Finset.range (t + 1), s k := by
  intro t
  induction t with
  | zero => intro _; rw [h0, hz, zero_add]; simp
  | succ t ih =>
    intro ht
    rw [hstep t ht, ih (Nat.lt_of_succ_lt ht), Finset.sum_range_succ _ (t + 1)]

/-- After the last of `G` steps the running total is the sum over all `G` blocks. -/
theorem fold_last (G : ℕ) (hG : 0 < G) (a s : ℕ → M) (z : M) (hz : z = 0) (h0 : a 0 = z + s 0)
    (hstep : ∀ t, t + 1 < G → a (t + 1) = a t + s (t + 1)) :
    a (G - 1) = ∑ t : Fin G, s t.1 := by
  rw [fold_eq_sum_lt G a s z hz h0 hstep (G - 1) (Nat.sub_lt hG Nat.one_pos),
    Nat.sub_add_cancel hG, Finset.sum_range]

/-- A running total of block sums, over all `A` blocks of `B` rows, is the sum over all rows. -/
theorem fold_blocks (A B : ℕ) (hA : 0 < A) (f : Fin (A * B) → M) (a : ℕ → M) (z : M) (hz : z = 0)
    (s : ℕ → M) (hs : ∀ t : Fin A, s t.1 = ∑ y : Fin B, f ⟨t.1 * B + y.1, row_lt t y⟩)
    (h0 : a 0 = z + s 0) (hstep : ∀ t, t + 1 < A → a (t + 1) = a t + s (t + 1)) :
    a (A - 1) = ∑ r : Fin (A * B), f r := by
  rw [fold_last A hA a s z hz h0 hstep, sum_blocks A B f]
  exact Finset.sum_congr rfl fun t _ => hs t

end LibBlockSum
-- ==== Proof.KI.Val0.lean ====
/- The two accumulators of region 0 (the column sums of the perceptron's output and of its square), read after the
   region over the extended reals: each is written back once, at the last grid point, so its array ends holding what
   its staging buffer held then; that buffer starts from a zero fill and gains, at each point, the column sums of the
   block stored there; and the blocks are consecutive groups of 5000 rows, so the total is the sum over all 640000 rows. -/
import proofs.«170818_j15161234555428_1_alg».proof.Proof.KI.Val0.Acc
import proofs.«170818_j15161234555428_1_alg».proof.Proof.BnKernel
import proofs.«170818_j15161234555428_1_alg».proof.Proof.LibBlockSum

set_option maxRecDepth 16384

noncomputable section

namespace Cert.KernelIdeal.Val

open Cert.KernelIdeal Cert.KernelIdeal.Gen Cert.KernelIdeal.GenP Cert.KernelIdeal.Reg
open Idealize.ShloMosaic Idealize.ShloMosaic.TcCoe Idealize.SL.Sem Idealize.ShloMosaic.ValueIdx
open Idealize.ShloMosaic.Pipeline (Dat)
open scoped BigOperators

variable (V : (c : Dev nD) → (b : Ref sig .tc) → Buf (Elt Ideal) ((c : Thread nD τ).loc b))

/-- The last grid point is a grid point. -/
theorem hlast0 : 127 < cfg0.N := by rw [show cfg0.N = 128 from N_0]; decide

/-- The outputs' buffers at a point do not depend on how the point is named. -/
theorem outsAt0_same (c : Dev nD) (u : ℕ) (hu : u < cfg0.N) (e : u = 127) : outsAt0 V c u hu = outsAt0 V c 127 hlast0 := by
  subst e; rfl

/-- The accumulators' blocks sit at block index (0, 0) at every point — decided over the grid. -/
theorem index0_acc : ∀ t : Fin cfg0.N, (win0_8.index t (0 : Fin 2) = 0 ∧ win0_8.index t (1 : Fin 2) = 0)
    ∧ (win0_9.index t (0 : Fin 2) = 0 ∧ win0_9.index t (1 : Fin 2) = 0) :=
  (by decide +kernel : ∀ t : Fin grid0.N, (win0_8.index t (0 : Fin 2) = 0 ∧ win0_8.index t (1 : Fin 2) = 0)
    ∧ (win0_9.index t (0 : Fin 2) = 0 ∧ win0_9.index t (1 : Fin 2) = 0))

/-! ## Accumulator 8: the lane's sum of the entries over all rows -/

/-- Lane `j`'s sum, over the rows of the block stored at point `n`, of the entries (zero past the grid). -/
def part0_8 (c : Dev nD) (j : Fin 128) (n : ℕ) : Ideal .f32 :=
  if h : n < cfg0.N then ∑ y : Fin 5000, k0_pay1 (F := Ideal) (mlp0 V c ⟨n, h⟩) (iblk0 V c 6 ⟨n, h⟩) (ix2 y j) else 0

/-- Lane `j` of accumulator 8's staging buffer after point `n` (zero past the grid). -/
def run0_8 (c : Dev nD) (j : Fin 128) (n : ℕ) : Ideal .f32 :=
  if h : n < cfg0.N then (outsAt0 V c n h).2.1 (ix2 (0 : Fin 1) j) else 0

/-- After the first point: the zero fill plus the first block's part. -/
theorem run0_8_zero (c : Dev nD) (j : Fin 128) : run0_8 V c j 0 = 0 + part0_8 V c j 0 := by
  have h : 0 < cfg0.N := by rw [show cfg0.N = 128 from N_0]; decide
  unfold run0_8 part0_8
  rw [dif_pos h, dif_pos h]
  refine (congrFun (acc0_8_A V c ⟨0, h⟩ rfl) (ix2 (0 : Fin 1) j)).trans ?_
  refine (k0_pay2_apply (mlp0 V c ⟨0, h⟩) (iblk0 V c 6 ⟨0, h⟩) (k0_pay4 (F := Ideal)) j).trans ?_
  rw [k0_pay4_apply]

/-- After a later point: what it held plus that block's part. -/
theorem run0_8_succ (c : Dev nD) (j : Fin 128) (t : ℕ) (ht : t + 1 < 128) :
    run0_8 V c j (t + 1) = run0_8 V c j t + part0_8 V c j (t + 1) := by
  have h : t + 1 < cfg0.N := by rw [show cfg0.N = 128 from N_0]; exact ht
  have hB : ¬(⟨t + 1, h⟩ : Fin cfg0.N).val % 128 = 0 := by dsimp only; omega
  unfold run0_8 part0_8
  rw [dif_pos h, dif_pos h, dif_pos (Nat.lt_of_succ_lt h)]
  refine (congrFun (acc0_8_B V c ⟨t + 1, h⟩ hB) (ix2 (0 : Fin 1) j)).trans ?_
  exact k0_pay2_apply (mlp0 V c ⟨t + 1, h⟩) (iblk0 V c 6 ⟨t + 1, h⟩) (outsAt0 V c t (Nat.lt_of_succ_lt h)).2.1 j

/-- After the last point the buffer holds the sum of all the blocks' parts. -/
theorem run0_8_last (c : Dev nD) (j : Fin 128) : run0_8 V c j 127 = ∑ t : Fin 128, part0_8 V c j t.1 :=
  LibBlockSum.fold_last 128 (by decide) (run0_8 V c j) (part0_8 V c j) 0 rfl (run0_8_zero V c j)
    (fun t ht => run0_8_succ V c j t ht)

/-- The accumulator's buffer after the last point, as contents of its array (its one block is the array). -/
def res0_8 (c : Dev nD) : Buf (Elt Ideal) ((c : Thread nD τ).loc main_v20_1) :=
  (outsAt0 V c 127 hlast0).2.1

/-- What a point writes back is its buffer, placed at block (0, 0): the array itself. -/
theorem flushed0_8_at (c : Dev nD) (t : Fin cfg0.N) :
    (dat0 V c).flushed 8 t = ((cfg0.win 8).blk t).view.read (Elt Ideal) ((outsAt0 V c t.val t.isLt).2.1) := by
  show (cfg0.win 8).cut (grid0.coords t) ((dat0 V c).after 8 t) = _
  rw [after0_8]
  obtain ⟨⟨e0, e1⟩, -⟩ := index0_acc t
  funext y
  show (outsAt0 V c t.val t.isLt).2.1 ((cfg0.win 8).xinj (grid0.coords t) y) = (outsAt0 V c t.val t.isLt).2.1 (((cfg0.win 8).blk t).view.emb y)
  refine congrArg _ (funext fun a => Fin.ext ?_)
  match a with
  | ⟨0, _⟩ => show (y 0).val = win0_8.index t (0 : Fin 2) * 1 + 1 * (y 0).val; omega
  | ⟨1, _⟩ => show (y 1).val = win0_8.index t (1 : Fin 2) * 128 + 1 * (y 1).val; omega

/-- The one write-back, at the last point, writes the buffer after the last point. -/
theorem flushed0_8_eq (c : Dev nD) (t : Fin cfg0.N) (hf : (cfg0.win 8).flush t = true) :
    (dat0 V c).flushed 8 t = ((cfg0.win 8).blk t).view.read (Elt Ideal) (res0_8 V c) := by
  have hN : cfg0.N = 128 := N_0
  have h3 : t.val = 127 := by have := (flush0_8 t).mp hf; have := t.isLt; omega
  rw [flushed0_8_at V c t]
  unfold res0_8
  rw [outsAt0_same V c t.val t.isLt h3]

/-- Every index of the accumulator's array lies in the block of any point. -/
theorem mem_blk0_8 (t : Fin cfg0.N) (i : S1x128.Idx) : i ∈ ((cfg0.win 8).blk t).view.set := by
  obtain ⟨⟨e0, e1⟩, -⟩ := index0_acc t
  show i ∈ ((View.whole main_v20_1).slice (win0_8.rect t)).set
  rw [View.set_slice_whole, Rect.mem_set_unit]
  intro a
  have h0 : (i 0 : Nat) < 1 := (i 0).isLt
  have h1 : (i 1 : Nat) < 128 := (i 1).isLt
  match a with
  | ⟨0, _⟩ => show win0_8.index t (0 : Fin 2) * 1 ≤ (i 0 : Nat) ∧ (i 0 : Nat) < win0_8.index t (0 : Fin 2) * 1 + 1; omega
  | ⟨1, _⟩ => show win0_8.index t (1 : Fin 2) * 128 ≤ (i 1 : Nat) ∧ (i 1 : Nat) < win0_8.index t (1 : Fin 2) * 128 + 128; omega

/-- So the accumulator's array ends holding the buffer after the last point: the last point's block covers it. -/
theorem final0_8 (c : Dev nD) : (dat0 V c).arrAt 8 cfg0.N = res0_8 V c :=
  (dat0 V c).arrAt_eq_of_cover 8 (res0_8 V c) (flushed0_8_eq V c) fun i =>
    ⟨⟨127, hlast0⟩, (flush0_8 ⟨127, hlast0⟩).mpr rfl, mem_blk0_8 ⟨127, hlast0⟩ i⟩

/-! ## Accumulator 9: the lane's sum of the squares of the entries over all rows -/

/-- Lane `j`'s sum, over the rows of the block stored at point `n`, of the squares of the entries (zero past the grid). -/
def part0_9 (c : Dev nD) (j : Fin 128) (n : ℕ) : Ideal .f32 :=
  if h : n < cfg0.N then ∑ y : Fin 5000, k0_pay1 (F := Ideal) (mlp0 V c ⟨n, h⟩) (iblk0 V c 6 ⟨n, h⟩) (ix2 y j) * k0_pay1 (F := Ideal) (mlp0 V c ⟨n, h⟩) (iblk0 V c 6 ⟨n, h⟩) (ix2 y j) else 0

/-- Lane `j` of accumulator 9's staging buffer after point `n` (zero past the grid). -/
def run0_9 (c : Dev nD) (j : Fin 128) (n : ℕ) : Ideal .f32 :=
  if h : n < cfg0.N then (outsAt0 V c n h).2.2 (ix2 (0 : Fin 1) j) else 0

/-- After the first point: the zero fill plus the first block's part. -/
theorem run0_9_zero (c : Dev nD) (j : Fin 128) : run0_9 V c j 0 = 0 + part0_9 V c j 0 := by
  have h : 0 < cfg0.N := by rw [show cfg0.N = 128 from N_0]; decide
  unfold run0_9 part0_9
  rw [dif_pos h, dif_pos h]
  refine (congrFun (acc0_9_A V c ⟨0, h⟩ rfl) (ix2 (0 : Fin 1) j)).trans ?_
  refine (k0_pay3_apply (mlp0 V c ⟨0, h⟩) (iblk0 V c 6 ⟨0, h⟩) (k0_pay5 (F := Ideal)) j).trans ?_
  rw [k0_pay5_apply]

/-- After a later point: what it held plus that block's part. -/
theorem run0_9_succ (c : Dev nD) (j : Fin 128) (t : ℕ) (ht : t + 1 < 128) :
    run0_9 V c j (t + 1) = run0_9 V c j t + part0_9 V c j (t + 1) := by
  have h : t + 1 < cfg0.N := by rw [show cfg0.N = 128 from N_0]; exact ht
  have hB : ¬(⟨t + 1, h⟩ : Fin cfg0.N).val % 128 = 0 := by dsimp only; omega
  unfold run0_9 part0_9
  rw [dif_pos h, dif_pos h, dif_pos (Nat.lt_of_succ_lt h)]
  refine (congrFun (acc0_9_B V c ⟨t + 1, h⟩ hB) (ix2 (0 : Fin 1) j)).trans ?_
  exact k0_pay3_apply (mlp0 V c ⟨t + 1, h⟩) (iblk0 V c 6 ⟨t + 1, h⟩) (outsAt0 V c t (Nat.lt_of_succ_lt h)).2.2 j

/-- After the last point the buffer holds the sum of all the blocks' parts. -/
theorem run0_9_last (c : Dev nD) (j : Fin 128) : run0_9 V c j 127 = ∑ t : Fin 128, part0_9 V c j t.1 :=
  LibBlockSum.fold_last 128 (by decide) (run0_9 V c j) (part0_9 V c j) 0 rfl (run0_9_zero V c j)
    (fun t ht => run0_9_succ V c j t ht)

/-- The accumulator's buffer after the last point, as contents of its array (its one block is the array). -/
def res0_9 (c : Dev nD) : Buf (Elt Ideal) ((c : Thread nD τ).loc main_v20_2) :=
  (outsAt0 V c 127 hlast0).2.2

/-- What a point writes back is its buffer, placed at block (0, 0): the array itself. -/
theorem flushed0_9_at (c : Dev nD) (t : Fin cfg0.N) :
    (dat0 V c).flushed 9 t = ((cfg0.win 9).blk t).view.read (Elt Ideal) ((outsAt0 V c t.val t.isLt).2.2) := by
  show (cfg0.win 9).cut (grid0.coords t) ((dat0 V c).after 9 t) = _
  rw [after0_9]
  obtain ⟨-, ⟨e0, e1⟩⟩ := index0_acc t
  funext y
  show (outsAt0 V c t.val t.isLt).2.2 ((cfg0.win 9).xinj (grid0.coords t) y) = (outsAt0 V c t.val t.isLt).2.2 (((cfg0.win 9).blk t).view.emb y)
  refine congrArg _ (funext fun a => Fin.ext ?_)
  match a with
  | ⟨0, _⟩ => show (y 0).val = win0_9.index t (0 : Fin 2) * 1 + 1 * (y 0).val; omega
  | ⟨1, _⟩ => show (y 1).val = win0_9.index t (1 : Fin 2) * 128 + 1 * (y 1).val; omega

/-- The one write-back, at the last point, writes the buffer after the last point. -/
theorem flushed0_9_eq (c : Dev nD) (t : Fin cfg0.N) (hf : (cfg0.win 9).flush t = true) :
    (dat0 V c).flushed 9 t = ((cfg0.win 9).blk t).view.read (Elt Ideal) (res0_9 V c) := by
  have hN : cfg0.N = 128 := N_0
  have h3 : t.val = 127 := by have := (flush0_9 t).mp hf; have := t.isLt; omega
  rw [flushed0_9_at V c t]
  unfold res0_9
  rw [outsAt0_same V c t.val t.isLt h3]

/-- Every index of the accumulator's array lies in the block of any point. -/
theorem mem_blk0_9 (t : Fin cfg0.N) (i : S1x128.Idx) : i ∈ ((cfg0.win 9).blk t).view.set := by
  obtain ⟨-, ⟨e0, e1⟩⟩ := index0_acc t
  show i ∈ ((View.whole main_v20_2).slice (win0_9.rect t)).set
  rw [View.set_slice_whole, Rect.mem_set_unit]
  intro a
  have h0 : (i 0 : Nat) < 1 := (i 0).isLt
  have h1 : (i 1 : Nat) < 128 := (i 1).isLt
  match a with
  | ⟨0, _⟩ => show win0_9.index t (0 : Fin 2) * 1 ≤ (i 0 : Nat) ∧ (i 0 : Nat) < win0_9.index t (0 : Fin 2) * 1 + 1; omega
  | ⟨1, _⟩ => show win0_9.index t (1 : Fin 2) * 128 ≤ (i 1 : Nat) ∧ (i 1 : Nat) < win0_9.index t (1 : Fin 2) * 128 + 128; omega

/-- So the accumulator's array ends holding the buffer after the last point: the last point's block covers it. -/
theorem final0_9 (c : Dev nD) : (dat0 V c).arrAt 9 cfg0.N = res0_9 V c :=
  (dat0 V c).arrAt_eq_of_cover 9 (res0_9 V c) (flushed0_9_eq V c) fun i =>
    ⟨⟨127, hlast0⟩, (flush0_9 ⟨127, hlast0⟩).mpr rfl, mem_blk0_9 ⟨127, hlast0⟩ i⟩

/-! ## The two arrays as sums over all rows -/

/-- The region's first output array after the region (the perceptron's output, row by row), as extended reals. -/
def hout0 (c : Dev nD) (r : Fin 640000) (j : Fin 128) : EReal := (dat0 V c).arrAt 7 cfg0.N (ix2 r j)

/-- The first accumulator's array after the region, lane by lane. -/
def sumout0 (c : Dev nD) (j : Fin 128) : EReal := (dat0 V c).arrAt 8 cfg0.N (ix2 (0 : Fin 1) j)

/-- The second accumulator's array after the region, lane by lane. -/
def sqout0 (c : Dev nD) (j : Fin 128) : EReal := (dat0 V c).arrAt 9 cfg0.N (ix2 (0 : Fin 1) j)

/-- THE FIRST ACCUMULATOR'S ARRAY after the region, at lane `j`: the sum over all 640000 rows of the entries the
    region leaves in lane `j` of its first output's array — given that this array holds, in the rows of block `t`, the
    block the body stored at point `t` (`hh`). -/
theorem arr0_8_of (c : Dev nD)
    (hh : ∀ (t : Fin cfg0.N) (y : Fin 5000) (j : Fin 128) (hr : t.1 * 5000 + y.1 < 640000),
      (dat0 V c).arrAt 7 cfg0.N (ix2 (⟨t.1 * 5000 + y.1, hr⟩ : Fin 640000) j)
        = k0_pay1 (F := Ideal) (k0_pay6 (F := Ideal) (iblk0 V c 0 t) (iblk0 V c 1 t) (iblk0 V c 2 t) (iblk0 V c 3 t) (iblk0 V c 4 t) (iblk0 V c 5 t)) (iblk0 V c 6 t) (ix2 y j))
    (j : Fin 128) :
    sumout0 V c j = ∑ r : Fin 640000, hout0 V c r j := by
  have hN : cfg0.N = 128 := N_0
  have e : sumout0 V c j = run0_8 V c j 127 := by
    unfold sumout0 run0_8
    rw [final0_8 V c, dif_pos hlast0]
    rfl
  rw [e, run0_8_last V c j, LibBlockSum.sum_blocks_of_eq 128 5000 (by decide) (fun r : Fin 640000 => hout0 V c r j)]
  refine Finset.sum_congr rfl fun t _ => ?_
  have ht : t.1 < cfg0.N := by rw [hN]; exact t.2
  unfold part0_8; rw [dif_pos ht]
  refine Finset.sum_congr rfl fun y _ => ?_
  unfold hout0
  rw [hh ⟨t.1, ht⟩ y j]
  rfl

/-- THE SECOND ACCUMULATOR'S ARRAY after the region, at lane `j`: the sum over all 640000 rows of the squares of the entries the
    region leaves in lane `j` of its first output's array — given that this array holds, in the rows of block `t`, the
    block the body stored at point `t` (`hh`). -/
theorem arr0_9_of (c : Dev nD)
    (hh : ∀ (t : Fin cfg0.N) (y : Fin 5000) (j : Fin 128) (hr : t.1 * 5000 + y.1 < 640000),
      (dat0 V c).arrAt 7 cfg0.N (ix2 (⟨t.1 * 5000 + y.1, hr⟩ : Fin 640000) j)
        = k0_pay1 (F := Ideal) (k0_pay6 (F := Ideal) (iblk0 V c 0 t) (iblk0 V c 1 t) (iblk0 V c 2 t) (iblk0 V c 3 t) (iblk0 V c 4 t) (iblk0 V c 5 t)) (iblk0 V c 6 t) (ix2 y j))
    (j : Fin 128) :
    sqout0 V c j = ∑ r : Fin 640000, hout0 V c r j * hout0 V c r j := by
  have hN : cfg0.N = 128 := N_0
  have e : sqout0 V c j = run0_9 V c j 127 := by
    unfold sqout0 run0_9
    rw [final0_9 V c, dif_pos hlast0]
    rfl
  rw [e, run0_9_last V c j, LibBlockSum.sum_blocks_of_eq 128 5000 (by decide) (fun r : Fin 640000 => hout0 V c r j * hout0 V c r j)]
  refine Finset.sum_congr rfl fun t _ => ?_
  have ht : t.1 < cfg0.N := by rw [hN]; exact t.2
  unfold part0_9; rw [dif_pos ht]
  refine Finset.sum_congr rfl fun y _ => ?_
  unfold hout0
  rw [hh ⟨t.1, ht⟩ y j]
  rfl

end Cert.KernelIdeal.Val

end
-- ==== Proof.Bridge.EdgeOut.lean ====
import proofs.«170818_j15161234555428_1_alg».proof.Proof.Bridge.EdgeRun
import proofs.«170818_j15161234555428_1_alg».proof.Proof.KI.Val0

/-!
# The edge result

With the first launch's two accumulators read as the column sums over all rows, the second launch's
array of normalised activations is the reference's, and its array of residual sums (the edge result)
is the edge features plus the reference's normalised activations.
-/

set_option maxRecDepth 16384

open scoped BigOperators

noncomputable section

namespace Cert.Bridge

open Cert.KernelIdeal Cert.KernelIdeal.Gen Cert.KernelIdeal.GenP
open Idealize.ShloMosaic Idealize.ShloMosaic.TcCoe Idealize.SL.Sem Idealize.ShloMosaic.ValueIdx

variable (m : (ℓ : Loc nD τ sig) → Buf (Elt Ideal) ℓ) (c : Dev nD)

/-- Both of the second launch's arrays, at the run's data. -/
theorem edge_main (hR : RealArgs m c) :
    arr16 m c Run.half0 Run.half1 = Y m c
      ∧ arr17 m c Run.half0 Run.half1 = addf (F := Ideal) (φ := .f32) (A1 m c) (Y m c) :=
  edge_main_of m c hR
    (Cert.KernelIdeal.Val.arr0_8_of (Run.V1 m) c (run_hh (Run.V1 m) c))
    (Cert.KernelIdeal.Val.arr0_9_of (Run.V1 m) c (run_hh (Run.V1 m) c))

/-- The second launch's array of normalised activations is the reference's, as stage functions of the arguments. -/
theorem edge_y (hR : RealArgs m c) :
    @Eq (FVec Ideal S640000x128 .f32) (((Run.half1 (F := Ideal)).dat (Run.V3 m Run.half0) c).arrAt 6 cfg1.N) (Y m c) :=
  (edge_main m c hR).1

/-- The second launch's array of residual sums (the edge result) is the edge features plus the reference's
    normalised activations. -/
theorem edge_out (hR : RealArgs m c) :
    @Eq (FVec Ideal S640000x128 .f32) (((Run.half1 (F := Ideal)).dat (Run.V3 m Run.half0) c).arrAt 7 cfg1.N)
      (addf (F := Ideal) (φ := .f32) (A1 m c) (Y m c)) :=
  (edge_main m c hR).2

end Cert.Bridge

end
-- ==== Proof.Bridge.Node.lean ====
import proofs.«170818_j15161234555428_1_alg».proof.Proof.KI.Reads
import proofs.«170818_j15161234555428_1_alg».proof.Proof.KI.HostStages
import proofs.«170818_j15161234555428_1_alg».proof.Proof.BnHost
import proofs.«170818_j15161234555428_1_alg».proof.Proof.BnJoin
import proofs.«170818_j15161234555428_1_alg».proof.Proof.MlpRef
import proofs.«170818_j15161234555428_1_alg».proof.Proof.SpecMlpReal
import proofs.«170818_j15161234555428_1_alg».proof.Proof.RealChains

/-!
# The node half of the bridge

The kernel program's node result is the reference's, given the edge half: if the normalized edge activations the
second launch leaves are the reference's (an array `Y` of reals), then the array the fourth launch leaves is the node
features plus the reference's normalized node activations, computed from `Y` and the argument arrays by the
reference's last three stage functions.

Entry by entry: the fourth launch adds to the node feature the batch normalization of the third launch's output
with the host's mean and variance term of its column; the third launch's output is, row by row, the three-layer
network of the row of the node network's input, which the host stretch before it builds as the reference does; its
column sums of entries and of squares give the mean and the variance term; and on columns of reals the variance term
is the reference's variance.
-/

set_option maxRecDepth 16384

open scoped BigOperators

noncomputable section

namespace Cert.Bridge

open Cert.KernelIdeal Cert.KernelIdeal.Gen Cert.KernelIdeal.GenP
open Idealize.ShloMosaic Idealize.ShloMosaic.TcCoe Idealize.SL.Sem Idealize.ShloMosaic.ValueIdx
open Cert.ReferenceIdeal.RefRun (stageZ stageH stageY stageZ2 stageH2 stageY2)
open LibRealClosure (IsReal)

variable (m : (ℓ : Loc nD τ sig) → Buf (Elt Ideal) ℓ) (c : Dev nD)
variable (H0 : Run.Half0 Ideal) (H1 : Run.Half1 Ideal) (H2 : Run.Half2 Ideal) (H3 : Run.Half3 Ideal)

set_option maxHeartbeats 4000000 in
/-- The node half, with every array named at its type: `A0 … A19` the argument arrays read, `Y` the second launch's
    normalized edge activations, `X27 X28 X29` the third launch's three final arrays, `X37` the fourth launch's final
    array; from the readings of `X27 X28 X29` and of `X37` at an index. -/
theorem node_core
    (A0 : (⟨S50000x128, .f32⟩ : BufTy).Contents (Elt Ideal)) (A2 : (⟨S640000, .i32⟩ : BufTy).Contents (Elt Ideal)) (A10 : (⟨S256x128, .f32⟩ : BufTy).Contents (Elt Ideal))
    (A11 : (⟨S128, .f32⟩ : BufTy).Contents (Elt Ideal)) (A12 : (⟨S128x128, .f32⟩ : BufTy).Contents (Elt Ideal)) (A13 : (⟨S128, .f32⟩ : BufTy).Contents (Elt Ideal))
    (A14 : (⟨S128x128, .f32⟩ : BufTy).Contents (Elt Ideal)) (A15 A18 A19 : (⟨S128, .f32⟩ : BufTy).Contents (Elt Ideal))
    (e0 : m ((c : Thread nD τ).loc main_arg0) = A0) (e2 : m ((c : Thread nD τ).loc main_arg2) = A2) (e10 : m ((c : Thread nD τ).loc main_arg10) = A10) (e11 : m ((c : Thread nD τ).loc main_arg11) = A11)
    (e12 : m ((c : Thread nD τ).loc main_arg12) = A12) (e13 : m ((c : Thread nD τ).loc main_arg13) = A13) (e14 : m ((c : Thread nD τ).loc main_arg14) = A14) (e15 : m ((c : Thread nD τ).loc main_arg15) = A15)
    (e18 : m ((c : Thread nD τ).loc main_arg18) = A18) (e19 : m ((c : Thread nD τ).loc main_arg19) = A19)
    (Y : (⟨S640000x128, .f32⟩ : BufTy).Contents (Elt Ideal))
    (hy : (H1.dat (Run.V3 m H0) c).arrAt 6 cfg1.N = Y) (hyr : ∀ i, IsReal (Y i))
    (hr0 : ∀ i, IsReal (A0 i)) (hr10 : ∀ i, IsReal (A10 i)) (hr11 : ∀ i, IsReal (A11 i))
    (hr12 : ∀ i, IsReal (A12 i)) (hr13 : ∀ i, IsReal (A13 i)) (hr14 : ∀ i, IsReal (A14 i))
    (hr15 : ∀ i, IsReal (A15 i))
    (X27 X37 P0 : FVec Ideal S50000x128 .f32) (X28 X29 : FVec Ideal S1x128 .f32)
    (p0 : Run.V7 m H0 H1 H2 c main_arg0 = P0)
    (e27 : (H2.dat (Run.V5 m H0 H1) c).arrAt 7 cfg2.N = X27) (e28 : (H2.dat (Run.V5 m H0 H1) c).arrAt 8 cfg2.N = X28) (e29 : (H2.dat (Run.V5 m H0 H1) c).arrAt 9 cfg2.N = X29) (e37 : (H3.dat (Run.V7 m H0 H1 H2) c).arrAt 7 cfg3.N = X37)
    (h27 : ∀ (r : Fin 50000) (j : Fin 128), X27 (ix2 r j)
      = Gnn.mlpRow (fun k : Fin 256 => (Run.V5 m H0 H1 c main_v39 : FVec Ideal S50000x256 .f32) (ix2 r k))
          (fun k k' => (Run.V5 m H0 H1 c main_arg10 : FVec Ideal S256x128 .f32) (ix2 k k')) (fun k => (Run.V5 m H0 H1 c main_v40 : FVec Ideal S1x128 .f32) (ix2 0 k))
          (fun k k' => (Run.V5 m H0 H1 c main_arg12 : FVec Ideal S128x128 .f32) (ix2 k k')) (fun k => (Run.V5 m H0 H1 c main_v41 : FVec Ideal S1x128 .f32) (ix2 0 k))
          (fun k k' => (Run.V5 m H0 H1 c main_arg14 : FVec Ideal S128x128 .f32) (ix2 k k')) (fun k => (Run.V5 m H0 H1 c main_v42 : FVec Ideal S1x128 .f32) (ix2 0 k)) j)
    (h28 : ∀ j : Fin 128, X28 (ix2 (0 : Fin 1) j) = ∑ r : Fin 50000, X27 (ix2 r j))
    (h29 : ∀ j : Fin 128, X29 (ix2 (0 : Fin 1) j) = ∑ r : Fin 50000, X27 (ix2 r j) * X27 (ix2 r j))
    (h37 : ∀ (r : Fin 50000) (j : Fin 128), X37 (ix2 r j)
      = P0 (ix2 r j)
        + Gnn.bn ((Run.V7 m H0 H1 H2 c main_v45_0 : FVec Ideal S50000x128 .f32) (ix2 r j)) ((Run.V7 m H0 H1 H2 c main_v47 : FVec Ideal S1x128 .f32) (ix2 0 j))
            ((Run.V7 m H0 H1 H2 c main_v51 : FVec Ideal S1x128 .f32) (ix2 0 j)) ((Run.V7 m H0 H1 H2 c main_v43 : FVec Ideal S1x128 .f32) (ix2 0 j))
            ((Run.V7 m H0 H1 H2 c main_v44 : FVec Ideal S1x128 .f32) (ix2 0 j))) :
    (H3.dat (Run.V7 m H0 H1 H2) c).arrAt 7 cfg3.N
      = addf (F := Ideal) (φ := .f32) A0 (stageY2 (F := Ideal) (stageH2 (F := Ideal) (stageZ2 (F := Ideal) Y A2 A0) A10 A11 A12 A13 A14 A15) A18 A19) := by
  subst e0 e2 e10 e11 e12 e13 e14 e15 e18 e19 e27 e28 e29 e37 p0
  -- what the third launch is entered from: the node network's input and the recast parameters
  have z2 : Run.V5 m H0 H1 c main_v39 = stageZ2 (F := Ideal) Y (m ((c : Thread nD τ).loc main_arg2)) (m ((c : Thread nD τ).loc main_arg0)) := by
    refine (HostStages.host2_z2 (F := Ideal) (Run.W4 m H0 H1 c)).trans ?_
    rw [Run.W4_y, hy, Run.W4_launch m H0 H1 c main_arg2 (by decide) (by decide) (by decide) (by decide), Run.W4_launch m H0 H1 c main_arg0 (by decide) (by decide) (by decide) (by decide)]
  have b40 : ∀ k : Fin 128, (Run.V5 m H0 H1 c main_v40 : FVec Ideal S1x128 .f32) (ix2 (0 : Fin 1) k) = (m ((c : Thread nD τ).loc main_arg11)) (ix1 k) := fun k =>
    (HostStages.host2_b_v40 (F := Ideal) (Run.W4 m H0 H1 c) k).trans
      (congrFun (Run.W4_launch m H0 H1 c main_arg11 (by decide) (by decide) (by decide) (by decide)) (ix1 k))
  have b41 : ∀ k : Fin 128, (Run.V5 m H0 H1 c main_v41 : FVec Ideal S1x128 .f32) (ix2 (0 : Fin 1) k) = (m ((c : Thread nD τ).loc main_arg13)) (ix1 k) := fun k =>
    (HostStages.host2_b_v41 (F := Ideal) (Run.W4 m H0 H1 c) k).trans
      (congrFun (Run.W4_launch m H0 H1 c main_arg13 (by decide) (by decide) (by decide) (by decide)) (ix1 k))
  have b42 : ∀ k : Fin 128, (Run.V5 m H0 H1 c main_v42 : FVec Ideal S1x128 .f32) (ix2 (0 : Fin 1) k) = (m ((c : Thread nD τ).loc main_arg15)) (ix1 k) := fun k =>
    (HostStages.host2_b_v42 (F := Ideal) (Run.W4 m H0 H1 c) k).trans
      (congrFun (Run.W4_launch m H0 H1 c main_arg15 (by decide) (by decide) (by decide) (by decide)) (ix1 k))
  have b43 : ∀ k : Fin 128, (Run.V5 m H0 H1 c main_v43 : FVec Ideal S1x128 .f32) (ix2 (0 : Fin 1) k) = (m ((c : Thread nD τ).loc main_arg18)) (ix1 k) := fun k =>
    (HostStages.host2_b_v43 (F := Ideal) (Run.W4 m H0 H1 c) k).trans
      (congrFun (Run.W4_launch m H0 H1 c main_arg18 (by decide) (by decide) (by decide) (by decide)) (ix1 k))
  have b44 : ∀ k : Fin 128, (Run.V5 m H0 H1 c main_v44 : FVec Ideal S1x128 .f32) (ix2 (0 : Fin 1) k) = (m ((c : Thread nD τ).loc main_arg19)) (ix1 k) := fun k =>
    (HostStages.host2_b_v44 (F := Ideal) (Run.W4 m H0 H1 c) k).trans
      (congrFun (Run.W4_launch m H0 H1 c main_arg19 (by decide) (by decide) (by decide) (by decide)) (ix1 k))
  have a10 : Run.V5 m H0 H1 c main_arg10 = m ((c : Thread nD τ).loc main_arg10) := Run.W5_launch m H0 H1 c main_arg10 (by decide) (by decide) (by decide) (by decide) (by decide)
  have a12 : Run.V5 m H0 H1 c main_arg12 = m ((c : Thread nD τ).loc main_arg12) := Run.W5_launch m H0 H1 c main_arg12 (by decide) (by decide) (by decide) (by decide) (by decide)
  have a14 : Run.V5 m H0 H1 c main_arg14 = m ((c : Thread nD τ).loc main_arg14) := Run.W5_launch m H0 H1 c main_arg14 (by decide) (by decide) (by decide) (by decide) (by decide)
  -- the third launch's output is the reference's node network
  have hH : ∀ (r : Fin 50000) (j : Fin 128), ((H2.dat (Run.V5 m H0 H1) c).arrAt 7 cfg2.N : FVec Ideal S50000x128 .f32) (ix2 r j) = (stageH2 (F := Ideal) (stageZ2 (F := Ideal) Y (m ((c : Thread nD τ).loc main_arg2)) (m ((c : Thread nD τ).loc main_arg0))) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15))) (ix2 r j) := by
    intro r j
    rw [h27 r j, z2, a10, a12, a14]
    simp only [b40, b41, b42]
    exact (Cert.ReferenceIdeal.MlpValue.stageH2_apply _ _ _ _ _ _ _ r j).symm
  -- its entries are reals
  have hreal : ∀ (r : Fin 50000) (j : Fin 128), IsReal ((stageH2 (F := Ideal) (stageZ2 (F := Ideal) Y (m ((c : Thread nD τ).loc main_arg2)) (m ((c : Thread nD τ).loc main_arg0))) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15))) (ix2 r j)) := by
    intro r j
    rw [Cert.ReferenceIdeal.MlpValue.stageH2_apply]
    exact Gnn.isReal_mlpRow (fun k => Cert.ReferenceIdeal.RefRun.stageZ2_real Y _ _ hyr hr0 _) (fun k k' => hr10 _) (fun k => hr11 _)
      (fun k k' => hr12 _) (fun k => hr13 _) (fun k k' => hr14 _) (fun k => hr15 _) j
  -- what the fourth launch is entered from
  have v45 : Run.V7 m H0 H1 H2 c main_v45_0 = (H2.dat (Run.V5 m H0 H1) c).arrAt 7 cfg2.N := Run.W7_h m H0 H1 H2 c
  have v47 : ∀ j : Fin 128, (Run.V7 m H0 H1 H2 c main_v47 : FVec Ideal S1x128 .f32) (ix2 (0 : Fin 1) j)
      = Ideal.div (∑ r : Fin 50000, (stageH2 (F := Ideal) (stageZ2 (F := Ideal) Y (m ((c : Thread nD τ).loc main_arg2)) (m ((c : Thread nD τ).loc main_arg0))) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15))) (ix2 r j)) (Ideal.ofBits .f32 0x47435000#32) := by
    intro j
    refine (hostOps3_mean (Run.W6 m H0 H1 H2 c) j).trans ?_
    rw [Run.W6_sum, h28 j]
    simp only [hH]
  have v51 : ∀ j : Fin 128, (Run.V7 m H0 H1 H2 c main_v51 : FVec Ideal S1x128 .f32) (ix2 (0 : Fin 1) j)
      = Ideal.div (∑ r : Fin 50000, (stageH2 (F := Ideal) (stageZ2 (F := Ideal) Y (m ((c : Thread nD τ).loc main_arg2)) (m ((c : Thread nD τ).loc main_arg0))) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15))) (ix2 r j) * (stageH2 (F := Ideal) (stageZ2 (F := Ideal) Y (m ((c : Thread nD τ).loc main_arg2)) (m ((c : Thread nD τ).loc main_arg0))) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15))) (ix2 r j)) (Ideal.ofBits .f32 0x47435000#32)
        - Ideal.div (∑ r : Fin 50000, (stageH2 (F := Ideal) (stageZ2 (F := Ideal) Y (m ((c : Thread nD τ).loc main_arg2)) (m ((c : Thread nD τ).loc main_arg0))) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15))) (ix2 r j)) (Ideal.ofBits .f32 0x47435000#32)
          * Ideal.div (∑ r : Fin 50000, (stageH2 (F := Ideal) (stageZ2 (F := Ideal) Y (m ((c : Thread nD τ).loc main_arg2)) (m ((c : Thread nD τ).loc main_arg0))) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15))) (ix2 r j)) (Ideal.ofBits .f32 0x47435000#32) := by
    intro j
    refine (hostOps3_var (Run.W6 m H0 H1 H2 c) j).trans ?_
    rw [Run.W6_sum, Run.W6_sumsq, h28 j, h29 j]
    simp only [hH]
  have v43 : ∀ j : Fin 128, (Run.V7 m H0 H1 H2 c main_v43 : FVec Ideal S1x128 .f32) (ix2 (0 : Fin 1) j) = (m ((c : Thread nD τ).loc main_arg18)) (ix1 j) := fun j =>
    (congrFun (Run.W7_of_W5 m H0 H1 H2 c main_v43 (by decide) (by decide)) (ix2 (0 : Fin 1) j)).trans (b43 j)
  have v44 : ∀ j : Fin 128, (Run.V7 m H0 H1 H2 c main_v44 : FVec Ideal S1x128 .f32) (ix2 (0 : Fin 1) j) = (m ((c : Thread nD τ).loc main_arg19)) (ix1 j) := fun j =>
    (congrFun (Run.W7_of_W5 m H0 H1 H2 c main_v44 (by decide) (by decide)) (ix2 (0 : Fin 1) j)).trans (b44 j)
  have a0 : Run.V7 m H0 H1 H2 c main_arg0 = m ((c : Thread nD τ).loc main_arg0) := Run.W7_launch m H0 H1 H2 c main_arg0 (by decide) (by decide) (by decide) (by decide) (by decide) (by decide) (by decide)
  -- entry by entry
  refine funext fun i => ?_
  obtain ⟨r, j, rfl⟩ : ∃ (r : Fin 50000) (j : Fin 128), i = ix2 r j :=
    ⟨i 0, i 1, eq_ix2 (n0 := 50000) (n1 := 128) i⟩
  refine (h37 r j).trans ?_
  rw [a0, v45, hH, v47, v51, v43, v44, addf_apply]
  rw [Cert.BnJoin.bnN_eq _ hreal]

end Cert.Bridge

end
-- ==== Proof.KI.Val2.Acc.lean ====
/- The two accumulators of region 2 (the column sums of the perceptron's output and of its square) point by point:
   what each case of the body leaves in an accumulator's staging buffer as a term over the input blocks, and from that
   the buffer after the first point (the zero fill plus the first block's sums) and after a later point (what it held
   plus that block's sums). -/
import proofs.«170818_j15161234555428_1_alg».proof.Proof.KI.Reg2
import Idealize.ShloMosaic.Lib.Pipeline.Value
import Idealize.ShloMosaic.Lib.ValueIdx
import Idealize.ShloMosaic.Lib.Tactic

set_option maxRecDepth 16384

noncomputable section

namespace Cert.KernelIdeal.Val

open Cert.KernelIdeal Cert.KernelIdeal.Gen Cert.KernelIdeal.GenP Cert.KernelIdeal.Reg
open Idealize.ShloMosaic Idealize.ShloMosaic.TcCoe Idealize.SL.Sem Idealize.ShloMosaic.ValueIdx
open Idealize.ShloMosaic.Pipeline (Dat)
open scoped BigOperators

/-! ## What each case leaves in an accumulator's buffer -/

section Pieces

variable {F : FTy → Type} [FloatOps F]

theorem hz_r2 : (![0, 0] : Fin 2 → Nat) = fun _ => 0 := funext fun a => by fin_cases a <;> rfl

/-- What the first-point case leaves in accumulator 8's staging buffer, as a term over the input blocks: the zero fill, read back, plus the block's column sums. -/
theorem out2_A_8_eq (c : Dev nD) (i : grid2.Coords) (arg1 : Memref sig .tc .vmem S5000x256 .f32) (harg1 : arg1.IsWhole) (arg2 : Memref sig .tc .vmem S256x128 .f32) (harg2 : arg2.IsWhole) (arg3 : Memref sig .tc .vmem S1x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S5000x128 .f32) (harg8 : arg8.IsWhole) (arg9 : Memref sig .tc .vmem S1x128 .f32) (harg9 : arg9.IsWhole) (arg10 : Memref sig .tc .vmem S1x128 .f32) (harg10 : arg10.IsWhole) (hc0 : cond2_0 i)
    (x0 : Vec F S5000x256 .f32) (x1 : Vec F S256x128 .f32) (x2 : Vec F S1x128 .f32) (x3 : Vec F S128x128 .f32) (x4 : Vec F S1x128 .f32) (x5 : Vec F S128x128 .f32) (x6 : Vec F S1x128 .f32) :
    out2_A_8 c i arg1 harg1 arg2 harg2 arg3 harg3 arg4 harg4 arg5 harg5 arg6 harg6 arg7 harg7 arg8 harg8 arg9 harg9 arg10 harg10 hc0 x0 x1 x2 x3 x4 x5 x6 = k2_pay2 (k2_pay6 x0 x1 x2 x3 x4 x5) x6 (k2_pay4 (F := F)) := by
  unfold out2_A_8
  rw [View.read_writes_eq_canon _ _ _ (cover2_A_8 c i arg1 harg1 arg2 harg2 arg3 harg3 arg4 harg4 arg5 harg5 arg6 harg6 arg7 harg7 arg8 harg8 arg9 harg9 arg10 harg10 hc0 x0 x1 x2 x3 x4 x5 x6)]
  unfold kernelRun2_A
  dsimp only
  try sl_unfold_words
  rw [View.canon_cons_unit_zero (S := S1x128) hz_r2, View.readCov_unit_zero (S := S1x128) _ hz_r2]
  simp only [View.readAt_eq_ld, harg1.read_unread, harg2.read_unread, harg3.read_unread, harg4.read_unread, harg5.read_unread, harg6.read_unread, harg7.read_unread, harg9.read_unread, harg10.read_unread, View.ld_unit_zero (S := S5000x256) hz_r2, View.ld_unit_zero (S := S256x128) hz_r2, View.ld_unit_zero (S := S1x128) hz_r2, View.ld_unit_zero (S := S128x128) hz_r2, View.ld_unit_zero (S := S5000x128) hz_r2, shapeCast_self]

/-- What the later-point case leaves in accumulator 8's staging buffer, as a term over the input blocks and what the buffer held: that plus the block's column sums. -/
theorem out2_B_8_eq (c : Dev nD) (i : grid2.Coords) (arg1 : Memref sig .tc .vmem S5000x256 .f32) (harg1 : arg1.IsWhole) (arg2 : Memref sig .tc .vmem S256x128 .f32) (harg2 : arg2.IsWhole) (arg3 : Memref sig .tc .vmem S1x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S5000x128 .f32) (harg8 : arg8.IsWhole) (arg9 : Memref sig .tc .vmem S1x128 .f32) (harg9 : arg9.IsWhole) (arg10 : Memref sig .tc .vmem S1x128 .f32) (harg10 : arg10.IsWhole) (hc0 : ¬cond2_0 i)
    (x0 : Vec F S5000x256 .f32) (x1 : Vec F S256x128 .f32) (x2 : Vec F S1x128 .f32) (x3 : Vec F S128x128 .f32) (x4 : Vec F S1x128 .f32) (x5 : Vec F S128x128 .f32) (x6 : Vec F S1x128 .f32) (xo8 : Vec F S1x128 .f32) (xo9 : Vec F S1x128 .f32) :
    out2_B_8 c i arg1 harg1 arg2 harg2 arg3 harg3 arg4 harg4 arg5 harg5 arg6 harg6 arg7 harg7 arg8 harg8 arg9 harg9 arg10 harg10 hc0 x0 x1 x2 x3 x4 x5 x6 xo8 xo9 = k2_pay2 (k2_pay6 x0 x1 x2 x3 x4 x5) x6 xo8 := by
  unfold out2_B_8
  rw [View.read_writes_eq_canon _ _ _ (cover2_B_8 c i arg1 harg1 arg2 harg2 arg3 harg3 arg4 harg4 arg5 harg5 arg6 harg6 arg7 harg7 arg8 harg8 arg9 harg9 arg10 harg10 hc0 x0 x1 x2 x3 x4 x5 x6 xo8 xo9)]
  unfold kernelRun2_B
  dsimp only
  try sl_unfold_words
  rw [View.canon_unit_zero hz_r2]
  simp only [View.readAt_eq_ld, harg1.read_unread, harg2.read_unread, harg3.read_unread, harg4.read_unread, harg5.read_unread, harg6.read_unread, harg7.read_unread, harg9.read_unread, harg10.read_unread, View.ld_unit_zero (S := S5000x256) hz_r2, View.ld_unit_zero (S := S256x128) hz_r2, View.ld_unit_zero (S := S1x128) hz_r2, View.ld_unit_zero (S := S128x128) hz_r2, View.ld_unit_zero (S := S5000x128) hz_r2, shapeCast_self]

/-- What the first-point case leaves in accumulator 9's staging buffer, as a term over the input blocks: the zero fill, read back, plus the block's column sums. -/
theorem out2_A_9_eq (c : Dev nD) (i : grid2.Coords) (arg1 : Memref sig .tc .vmem S5000x256 .f32) (harg1 : arg1.IsWhole) (arg2 : Memref sig .tc .vmem S256x128 .f32) (harg2 : arg2.IsWhole) (arg3 : Memref sig .tc .vmem S1x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S5000x128 .f32) (harg8 : arg8.IsWhole) (arg9 : Memref sig .tc .vmem S1x128 .f32) (harg9 : arg9.IsWhole) (arg10 : Memref sig .tc .vmem S1x128 .f32) (harg10 : arg10.IsWhole) (hc0 : cond2_0 i)
    (x0 : Vec F S5000x256 .f32) (x1 : Vec F S256x128 .f32) (x2 : Vec F S1x128 .f32) (x3 : Vec F S128x128 .f32) (x4 : Vec F S1x128 .f32) (x5 : Vec F S128x128 .f32) (x6 : Vec F S1x128 .f32) :
    out2_A_9 c i arg1 harg1 arg2 harg2 arg3 harg3 arg4 harg4 arg5 harg5 arg6 harg6 arg7 harg7 arg8 harg8 arg9 harg9 arg10 harg10 hc0 x0 x1 x2 x3 x4 x5 x6 = k2_pay3 (k2_pay6 x0 x1 x2 x3 x4 x5) x6 (k2_pay5 (F := F)) := by
  unfold out2_A_9
  rw [View.read_writes_eq_canon _ _ _ (cover2_A_9 c i arg1 harg1 arg2 harg2 arg3 harg3 arg4 harg4 arg5 harg5 arg6 harg6 arg7 harg7 arg8 harg8 arg9 harg9 arg10 harg10 hc0 x0 x1 x2 x3 x4 x5 x6)]
  unfold kernelRun2_A
  dsimp only
  try sl_unfold_words
  rw [View.canon_cons_unit_zero (S := S1x128) hz_r2, View.readCov_unit_zero (S := S1x128) _ hz_r2]
  simp only [View.readAt_eq_ld, harg1.read_unread, harg2.read_unread, harg3.read_unread, harg4.read_unread, harg5.read_unread, harg6.read_unread, harg7.read_unread, harg9.read_unread, harg10.read_unread, View.ld_unit_zero (S := S5000x256) hz_r2, View.ld_unit_zero (S := S256x128) hz_r2, View.ld_unit_zero (S := S1x128) hz_r2, View.ld_unit_zero (S := S128x128) hz_r2, View.ld_unit_zero (S := S5000x128) hz_r2, shapeCast_self]

/-- What the later-point case leaves in accumulator 9's staging buffer, as a term over the input blocks and what the buffer held: that plus the block's column sums. -/
theorem out2_B_9_eq (c : Dev nD) (i : grid2.Coords) (arg1 : Memref sig .tc .vmem S5000x256 .f32) (harg1 : arg1.IsWhole) (arg2 : Memref sig .tc .vmem S256x128 .f32) (harg2 : arg2.IsWhole) (arg3 : Memref sig .tc .vmem S1x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S5000x128 .f32) (harg8 : arg8.IsWhole) (arg9 : Memref sig .tc .vmem S1x128 .f32) (harg9 : arg9.IsWhole) (arg10 : Memref sig .tc .vmem S1x128 .f32) (harg10 : arg10.IsWhole) (hc0 : ¬cond2_0 i)
    (x0 : Vec F S5000x256 .f32) (x1 : Vec F S256x128 .f32) (x2 : Vec F S1x128 .f32) (x3 : Vec F S128x128 .f32) (x4 : Vec F S1x128 .f32) (x5 : Vec F S128x128 .f32) (x6 : Vec F S1x128 .f32) (xo8 : Vec F S1x128 .f32) (xo9 : Vec F S1x128 .f32) :
    out2_B_9 c i arg1 harg1 arg2 harg2 arg3 harg3 arg4 harg4 arg5 harg5 arg6 harg6 arg7 harg7 arg8 harg8 arg9 harg9 arg10 harg10 hc0 x0 x1 x2 x3 x4 x5 x6 xo8 xo9 = k2_pay3 (k2_pay6 x0 x1 x2 x3 x4 x5) x6 xo9 := by
  unfold out2_B_9
  rw [View.read_writes_eq_canon _ _ _ (cover2_B_9 c i arg1 harg1 arg2 harg2 arg3 harg3 arg4 harg4 arg5 harg5 arg6 harg6 arg7 harg7 arg8 harg8 arg9 harg9 arg10 harg10 hc0 x0 x1 x2 x3 x4 x5 x6 xo8 xo9)]
  unfold kernelRun2_B
  dsimp only
  try sl_unfold_words
  rw [View.canon_unit_zero hz_r2]
  simp only [View.readAt_eq_ld, harg1.read_unread, harg2.read_unread, harg3.read_unread, harg4.read_unread, harg5.read_unread, harg6.read_unread, harg7.read_unread, harg9.read_unread, harg10.read_unread, View.ld_unit_zero (S := S5000x256) hz_r2, View.ld_unit_zero (S := S256x128) hz_r2, View.ld_unit_zero (S := S1x128) hz_r2, View.ld_unit_zero (S := S128x128) hz_r2, View.ld_unit_zero (S := S5000x128) hz_r2, shapeCast_self]

end Pieces

/-! ## The accumulators point by point -/

section Recursion

variable {F : FTy → Type} [FloatOps F]
variable (V : (c : Dev nD) → (b : Ref sig .tc) → Buf (Elt F) ((c : Thread nD τ).loc b))

/-- The perceptron's last product on the block of rows at point `t` (the last bias not yet added). -/
def mlp2 (c : Dev nD) (t : Fin cfg2.N) : FVec F S5000x128 .f32 :=
  k2_pay6 (iblk2 V c 0 t) (iblk2 V c 1 t) (iblk2 V c 2 t) (iblk2 V c 3 t) (iblk2 V c 4 t) (iblk2 V c 5 t)

/-- Accumulator 8 after the first point: the zero fill plus the first block's column sums. -/
theorem acc2_8_A (c : Dev nD) (t : Fin cfg2.N) (h0 : t.val % 10 = 0) :
    (outsAt2 V c t.val t.isLt).2.1 = k2_pay2 (mlp2 V c t) (iblk2 V c 6 t) (k2_pay4 (F := F)) := by
  rw [outsAt2_A V c t h0]; dsimp only; unfold mlp2; exact out2_A_8_eq ..

/-- Accumulator 8 after a later point, from what it held after the point before. -/
theorem acc2_8_B (c : Dev nD) (t : Fin cfg2.N) (h0 : ¬t.val % 10 = 0) :
    (outsAt2 V c t.val t.isLt).2.1 = k2_pay2 (mlp2 V c t) (iblk2 V c 6 t) (outsAt2 V c (t.val - 1) (Nat.lt_of_le_of_lt (Nat.sub_le _ _) t.isLt)).2.1 := by
  rw [outsAt2_B V c t h0]; dsimp only; unfold mlp2; exact out2_B_8_eq ..

/-- Accumulator 9 after the first point: the zero fill plus the first block's column sums. -/
theorem acc2_9_A (c : Dev nD) (t : Fin cfg2.N) (h0 : t.val % 10 = 0) :
    (outsAt2 V c t.val t.isLt).2.2 = k2_pay3 (mlp2 V c t) (iblk2 V c 6 t) (k2_pay5 (F := F)) := by
  rw [outsAt2_A V c t h0]; dsimp only; unfold mlp2; exact out2_A_9_eq ..

/-- Accumulator 9 after a later point, from what it held after the point before. -/
theorem acc2_9_B (c : Dev nD) (t : Fin cfg2.N) (h0 : ¬t.val % 10 = 0) :
    (outsAt2 V c t.val t.isLt).2.2 = k2_pay3 (mlp2 V c t) (iblk2 V c 6 t) (outsAt2 V c (t.val - 1) (Nat.lt_of_le_of_lt (Nat.sub_le _ _) t.isLt)).2.2 := by
  rw [outsAt2_B V c t h0]; dsimp only; unfold mlp2; exact out2_B_9_eq ..

end Recursion

end Cert.KernelIdeal.Val

end
-- ==== Proof.KI.Val2.lean ====
/- The two accumulators of region 2 (the column sums of the perceptron's output and of its square), read after the
   region over the extended reals: each is written back once, at the last grid point, so its array ends holding what
   its staging buffer held then; that buffer starts from a zero fill and gains, at each point, the column sums of the
   block stored there; and the blocks are consecutive groups of 5000 rows, so the total is the sum over all 50000 rows. -/
import proofs.«170818_j15161234555428_1_alg».proof.Proof.KI.Val2.Acc
import proofs.«170818_j15161234555428_1_alg».proof.Proof.BnKernel
import proofs.«170818_j15161234555428_1_alg».proof.Proof.LibBlockSum

set_option maxRecDepth 16384

noncomputable section

namespace Cert.KernelIdeal.Val

open Cert.KernelIdeal Cert.KernelIdeal.Gen Cert.KernelIdeal.GenP Cert.KernelIdeal.Reg
open Idealize.ShloMosaic Idealize.ShloMosaic.TcCoe Idealize.SL.Sem Idealize.ShloMosaic.ValueIdx
open Idealize.ShloMosaic.Pipeline (Dat)
open scoped BigOperators

variable (V : (c : Dev nD) → (b : Ref sig .tc) → Buf (Elt Ideal) ((c : Thread nD τ).loc b))

/-- The last grid point is a grid point. -/
theorem hlast2 : 9 < cfg2.N := by rw [show cfg2.N = 10 from N_2]; decide

/-- The outputs' buffers at a point do not depend on how the point is named. -/
theorem outsAt2_same (c : Dev nD) (u : ℕ) (hu : u < cfg2.N) (e : u = 9) : outsAt2 V c u hu = outsAt2 V c 9 hlast2 := by
  subst e; rfl

/-- The accumulators' blocks sit at block index (0, 0) at every point — decided over the grid. -/
theorem index2_acc : ∀ t : Fin cfg2.N, (win2_8.index t (0 : Fin 2) = 0 ∧ win2_8.index t (1 : Fin 2) = 0)
    ∧ (win2_9.index t (0 : Fin 2) = 0 ∧ win2_9.index t (1 : Fin 2) = 0) :=
  (by decide +kernel : ∀ t : Fin grid2.N, (win2_8.index t (0 : Fin 2) = 0 ∧ win2_8.index t (1 : Fin 2) = 0)
    ∧ (win2_9.index t (0 : Fin 2) = 0 ∧ win2_9.index t (1 : Fin 2) = 0))

/-! ## Accumulator 8: the lane's sum of the entries over all rows -/

/-- Lane `j`'s sum, over the rows of the block stored at point `n`, of the entries (zero past the grid). -/
def part2_8 (c : Dev nD) (j : Fin 128) (n : ℕ) : Ideal .f32 :=
  if h : n < cfg2.N then ∑ y : Fin 5000, k2_pay1 (F := Ideal) (mlp2 V c ⟨n, h⟩) (iblk2 V c 6 ⟨n, h⟩) (ix2 y j) else 0

/-- Lane `j` of accumulator 8's staging buffer after point `n` (zero past the grid). -/
def run2_8 (c : Dev nD) (j : Fin 128) (n : ℕ) : Ideal .f32 :=
  if h : n < cfg2.N then (outsAt2 V c n h).2.1 (ix2 (0 : Fin 1) j) else 0

/-- After the first point: the zero fill plus the first block's part. -/
theorem run2_8_zero (c : Dev nD) (j : Fin 128) : run2_8 V c j 0 = 0 + part2_8 V c j 0 := by
  have h : 0 < cfg2.N := by rw [show cfg2.N = 10 from N_2]; decide
  unfold run2_8 part2_8
  rw [dif_pos h, dif_pos h]
  refine (congrFun (acc2_8_A V c ⟨0, h⟩ rfl) (ix2 (0 : Fin 1) j)).trans ?_
  refine (k2_pay2_apply (mlp2 V c ⟨0, h⟩) (iblk2 V c 6 ⟨0, h⟩) (k2_pay4 (F := Ideal)) j).trans ?_
  rw [k2_pay4_apply]

/-- After a later point: what it held plus that block's part. -/
theorem run2_8_succ (c : Dev nD) (j : Fin 128) (t : ℕ) (ht : t + 1 < 10) :
    run2_8 V c j (t + 1) = run2_8 V c j t + part2_8 V c j (t + 1) := by
  have h : t + 1 < cfg2.N := by rw [show cfg2.N = 10 from N_2]; exact ht
  have hB : ¬(⟨t + 1, h⟩ : Fin cfg2.N).val % 10 = 0 := by dsimp only; omega
  unfold run2_8 part2_8
  rw [dif_pos h, dif_pos h, dif_pos (Nat.lt_of_succ_lt h)]
  refine (congrFun (acc2_8_B V c ⟨t + 1, h⟩ hB) (ix2 (0 : Fin 1) j)).trans ?_
  exact k2_pay2_apply (mlp2 V c ⟨t + 1, h⟩) (iblk2 V c 6 ⟨t + 1, h⟩) (outsAt2 V c t (Nat.lt_of_succ_lt h)).2.1 j

/-- After the last point the buffer holds the sum of all the blocks' parts. -/
theorem run2_8_last (c : Dev nD) (j : Fin 128) : run2_8 V c j 9 = ∑ t : Fin 10, part2_8 V c j t.1 :=
  LibBlockSum.fold_last 10 (by decide) (run2_8 V c j) (part2_8 V c j) 0 rfl (run2_8_zero V c j)
    (fun t ht => run2_8_succ V c j t ht)

/-- The accumulator's buffer after the last point, as contents of its array (its one block is the array). -/
def res2_8 (c : Dev nD) : Buf (Elt Ideal) ((c : Thread nD τ).loc main_v45_1) :=
  (outsAt2 V c 9 hlast2).2.1

/-- What a point writes back is its buffer, placed at block (0, 0): the array itself. -/
theorem flushed2_8_at (c : Dev nD) (t : Fin cfg2.N) :
    (dat2 V c).flushed 8 t = ((cfg2.win 8).blk t).view.read (Elt Ideal) ((outsAt2 V c t.val t.isLt).2.1) := by
  show (cfg2.win 8).cut (grid2.coords t) ((dat2 V c).after 8 t) = _
  rw [after2_8]
  obtain ⟨⟨e0, e1⟩, -⟩ := index2_acc t
  funext y
  show (outsAt2 V c t.val t.isLt).2.1 ((cfg2.win 8).xinj (grid2.coords t) y) = (outsAt2 V c t.val t.isLt).2.1 (((cfg2.win 8).blk t).view.emb y)
  refine congrArg _ (funext fun a => Fin.ext ?_)
  match a with
  | ⟨0, _⟩ => show (y 0).val = win2_8.index t (0 : Fin 2) * 1 + 1 * (y 0).val; omega
  | ⟨1, _⟩ => show (y 1).val = win2_8.index t (1 : Fin 2) * 128 + 1 * (y 1).val; omega

/-- The one write-back, at the last point, writes the buffer after the last point. -/
theorem flushed2_8_eq (c : Dev nD) (t : Fin cfg2.N) (hf : (cfg2.win 8).flush t = true) :
    (dat2 V c).flushed 8 t = ((cfg2.win 8).blk t).view.read (Elt Ideal) (res2_8 V c) := by
  have hN : cfg2.N = 10 := N_2
  have h3 : t.val = 9 := by have := (flush2_8 t).mp hf; have := t.isLt; omega
  rw [flushed2_8_at V c t]
  unfold res2_8
  rw [outsAt2_same V c t.val t.isLt h3]

/-- Every index of the accumulator's array lies in the block of any point. -/
theorem mem_blk2_8 (t : Fin cfg2.N) (i : S1x128.Idx) : i ∈ ((cfg2.win 8).blk t).view.set := by
  obtain ⟨⟨e0, e1⟩, -⟩ := index2_acc t
  show i ∈ ((View.whole main_v45_1).slice (win2_8.rect t)).set
  rw [View.set_slice_whole, Rect.mem_set_unit]
  intro a
  have h0 : (i 0 : Nat) < 1 := (i 0).isLt
  have h1 : (i 1 : Nat) < 128 := (i 1).isLt
  match a with
  | ⟨0, _⟩ => show win2_8.index t (0 : Fin 2) * 1 ≤ (i 0 : Nat) ∧ (i 0 : Nat) < win2_8.index t (0 : Fin 2) * 1 + 1; omega
  | ⟨1, _⟩ => show win2_8.index t (1 : Fin 2) * 128 ≤ (i 1 : Nat) ∧ (i 1 : Nat) < win2_8.index t (1 : Fin 2) * 128 + 128; omega

/-- So the accumulator's array ends holding the buffer after the last point: the last point's block covers it. -/
theorem final2_8 (c : Dev nD) : (dat2 V c).arrAt 8 cfg2.N = res2_8 V c :=
  (dat2 V c).arrAt_eq_of_cover 8 (res2_8 V c) (flushed2_8_eq V c) fun i =>
    ⟨⟨9, hlast2⟩, (flush2_8 ⟨9, hlast2⟩).mpr rfl, mem_blk2_8 ⟨9, hlast2⟩ i⟩

/-! ## Accumulator 9: the lane's sum of the squares of the entries over all rows -/

/-- Lane `j`'s sum, over the rows of the block stored at point `n`, of the squares of the entries (zero past the grid). -/
def part2_9 (c : Dev nD) (j : Fin 128) (n : ℕ) : Ideal .f32 :=
  if h : n < cfg2.N then ∑ y : Fin 5000, k2_pay1 (F := Ideal) (mlp2 V c ⟨n, h⟩) (iblk2 V c 6 ⟨n, h⟩) (ix2 y j) * k2_pay1 (F := Ideal) (mlp2 V c ⟨n, h⟩) (iblk2 V c 6 ⟨n, h⟩) (ix2 y j) else 0

/-- Lane `j` of accumulator 9's staging buffer after point `n` (zero past the grid). -/
def run2_9 (c : Dev nD) (j : Fin 128) (n : ℕ) : Ideal .f32 :=
  if h : n < cfg2.N then (outsAt2 V c n h).2.2 (ix2 (0 : Fin 1) j) else 0

/-- After the first point: the zero fill plus the first block's part. -/
theorem run2_9_zero (c : Dev nD) (j : Fin 128) : run2_9 V c j 0 = 0 + part2_9 V c j 0 := by
  have h : 0 < cfg2.N := by rw [show cfg2.N = 10 from N_2]; decide
  unfold run2_9 part2_9
  rw [dif_pos h, dif_pos h]
  refine (congrFun (acc2_9_A V c ⟨0, h⟩ rfl) (ix2 (0 : Fin 1) j)).trans ?_
  refine (k2_pay3_apply (mlp2 V c ⟨0, h⟩) (iblk2 V c 6 ⟨0, h⟩) (k2_pay5 (F := Ideal)) j).trans ?_
  rw [k2_pay5_apply]

/-- After a later point: what it held plus that block's part. -/
theorem run2_9_succ (c : Dev nD) (j : Fin 128) (t : ℕ) (ht : t + 1 < 10) :
    run2_9 V c j (t + 1) = run2_9 V c j t + part2_9 V c j (t + 1) := by
  have h : t + 1 < cfg2.N := by rw [show cfg2.N = 10 from N_2]; exact ht
  have hB : ¬(⟨t + 1, h⟩ : Fin cfg2.N).val % 10 = 0 := by dsimp only; omega
  unfold run2_9 part2_9
  rw [dif_pos h, dif_pos h, dif_pos (Nat.lt_of_succ_lt h)]
  refine (congrFun (acc2_9_B V c ⟨t + 1, h⟩ hB) (ix2 (0 : Fin 1) j)).trans ?_
  exact k2_pay3_apply (mlp2 V c ⟨t + 1, h⟩) (iblk2 V c 6 ⟨t + 1, h⟩) (outsAt2 V c t (Nat.lt_of_succ_lt h)).2.2 j

/-- After the last point the buffer holds the sum of all the blocks' parts. -/
theorem run2_9_last (c : Dev nD) (j : Fin 128) : run2_9 V c j 9 = ∑ t : Fin 10, part2_9 V c j t.1 :=
  LibBlockSum.fold_last 10 (by decide) (run2_9 V c j) (part2_9 V c j) 0 rfl (run2_9_zero V c j)
    (fun t ht => run2_9_succ V c j t ht)

/-- The accumulator's buffer after the last point, as contents of its array (its one block is the array). -/
def res2_9 (c : Dev nD) : Buf (Elt Ideal) ((c : Thread nD τ).loc main_v45_2) :=
  (outsAt2 V c 9 hlast2).2.2

/-- What a point writes back is its buffer, placed at block (0, 0): the array itself. -/
theorem flushed2_9_at (c : Dev nD) (t : Fin cfg2.N) :
    (dat2 V c).flushed 9 t = ((cfg2.win 9).blk t).view.read (Elt Ideal) ((outsAt2 V c t.val t.isLt).2.2) := by
  show (cfg2.win 9).cut (grid2.coords t) ((dat2 V c).after 9 t) = _
  rw [after2_9]
  obtain ⟨-, ⟨e0, e1⟩⟩ := index2_acc t
  funext y
  show (outsAt2 V c t.val t.isLt).2.2 ((cfg2.win 9).xinj (grid2.coords t) y) = (outsAt2 V c t.val t.isLt).2.2 (((cfg2.win 9).blk t).view.emb y)
  refine congrArg _ (funext fun a => Fin.ext ?_)
  match a with
  | ⟨0, _⟩ => show (y 0).val = win2_9.index t (0 : Fin 2) * 1 + 1 * (y 0).val; omega
  | ⟨1, _⟩ => show (y 1).val = win2_9.index t (1 : Fin 2) * 128 + 1 * (y 1).val; omega

/-- The one write-back, at the last point, writes the buffer after the last point. -/
theorem flushed2_9_eq (c : Dev nD) (t : Fin cfg2.N) (hf : (cfg2.win 9).flush t = true) :
    (dat2 V c).flushed 9 t = ((cfg2.win 9).blk t).view.read (Elt Ideal) (res2_9 V c) := by
  have hN : cfg2.N = 10 := N_2
  have h3 : t.val = 9 := by have := (flush2_9 t).mp hf; have := t.isLt; omega
  rw [flushed2_9_at V c t]
  unfold res2_9
  rw [outsAt2_same V c t.val t.isLt h3]

/-- Every index of the accumulator's array lies in the block of any point. -/
theorem mem_blk2_9 (t : Fin cfg2.N) (i : S1x128.Idx) : i ∈ ((cfg2.win 9).blk t).view.set := by
  obtain ⟨-, ⟨e0, e1⟩⟩ := index2_acc t
  show i ∈ ((View.whole main_v45_2).slice (win2_9.rect t)).set
  rw [View.set_slice_whole, Rect.mem_set_unit]
  intro a
  have h0 : (i 0 : Nat) < 1 := (i 0).isLt
  have h1 : (i 1 : Nat) < 128 := (i 1).isLt
  match a with
  | ⟨0, _⟩ => show win2_9.index t (0 : Fin 2) * 1 ≤ (i 0 : Nat) ∧ (i 0 : Nat) < win2_9.index t (0 : Fin 2) * 1 + 1; omega
  | ⟨1, _⟩ => show win2_9.index t (1 : Fin 2) * 128 ≤ (i 1 : Nat) ∧ (i 1 : Nat) < win2_9.index t (1 : Fin 2) * 128 + 128; omega

/-- So the accumulator's array ends holding the buffer after the last point: the last point's block covers it. -/
theorem final2_9 (c : Dev nD) : (dat2 V c).arrAt 9 cfg2.N = res2_9 V c :=
  (dat2 V c).arrAt_eq_of_cover 9 (res2_9 V c) (flushed2_9_eq V c) fun i =>
    ⟨⟨9, hlast2⟩, (flush2_9 ⟨9, hlast2⟩).mpr rfl, mem_blk2_9 ⟨9, hlast2⟩ i⟩

/-! ## The two arrays as sums over all rows -/

/-- The region's first output array after the region (the perceptron's output, row by row), as extended reals. -/
def hout2 (c : Dev nD) (r : Fin 50000) (j : Fin 128) : EReal := (dat2 V c).arrAt 7 cfg2.N (ix2 r j)

/-- The first accumulator's array after the region, lane by lane. -/
def sumout2 (c : Dev nD) (j : Fin 128) : EReal := (dat2 V c).arrAt 8 cfg2.N (ix2 (0 : Fin 1) j)

/-- The second accumulator's array after the region, lane by lane. -/
def sqout2 (c : Dev nD) (j : Fin 128) : EReal := (dat2 V c).arrAt 9 cfg2.N (ix2 (0 : Fin 1) j)

/-- THE FIRST ACCUMULATOR'S ARRAY after the region, at lane `j`: the sum over all 50000 rows of the entries the
    region leaves in lane `j` of its first output's array — given that this array holds, in the rows of block `t`, the
    block the body stored at point `t` (`hh`). -/
theorem arr2_8_of (c : Dev nD)
    (hh : ∀ (t : Fin cfg2.N) (y : Fin 5000) (j : Fin 128) (hr : t.1 * 5000 + y.1 < 50000),
      (dat2 V c).arrAt 7 cfg2.N (ix2 (⟨t.1 * 5000 + y.1, hr⟩ : Fin 50000) j)
        = k2_pay1 (F := Ideal) (k2_pay6 (F := Ideal) (iblk2 V c 0 t) (iblk2 V c 1 t) (iblk2 V c 2 t) (iblk2 V c 3 t) (iblk2 V c 4 t) (iblk2 V c 5 t)) (iblk2 V c 6 t) (ix2 y j))
    (j : Fin 128) :
    sumout2 V c j = ∑ r : Fin 50000, hout2 V c r j := by
  have hN : cfg2.N = 10 := N_2
  have e : sumout2 V c j = run2_8 V c j 9 := by
    unfold sumout2 run2_8
    rw [final2_8 V c, dif_pos hlast2]
    rfl
  rw [e, run2_8_last V c j, LibBlockSum.sum_blocks_of_eq 10 5000 (by decide) (fun r : Fin 50000 => hout2 V c r j)]
  refine Finset.sum_congr rfl fun t _ => ?_
  have ht : t.1 < cfg2.N := by rw [hN]; exact t.2
  unfold part2_8; rw [dif_pos ht]
  refine Finset.sum_congr rfl fun y _ => ?_
  unfold hout2
  rw [hh ⟨t.1, ht⟩ y j]
  rfl

/-- THE SECOND ACCUMULATOR'S ARRAY after the region, at lane `j`: the sum over all 50000 rows of the squares of the entries the
    region leaves in lane `j` of its first output's array — given that this array holds, in the rows of block `t`, the
    block the body stored at point `t` (`hh`). -/
theorem arr2_9_of (c : Dev nD)
    (hh : ∀ (t : Fin cfg2.N) (y : Fin 5000) (j : Fin 128) (hr : t.1 * 5000 + y.1 < 50000),
      (dat2 V c).arrAt 7 cfg2.N (ix2 (⟨t.1 * 5000 + y.1, hr⟩ : Fin 50000) j)
        = k2_pay1 (F := Ideal) (k2_pay6 (F := Ideal) (iblk2 V c 0 t) (iblk2 V c 1 t) (iblk2 V c 2 t) (iblk2 V c 3 t) (iblk2 V c 4 t) (iblk2 V c 5 t)) (iblk2 V c 6 t) (ix2 y j))
    (j : Fin 128) :
    sqout2 V c j = ∑ r : Fin 50000, hout2 V c r j * hout2 V c r j := by
  have hN : cfg2.N = 10 := N_2
  have e : sqout2 V c j = run2_9 V c j 9 := by
    unfold sqout2 run2_9
    rw [final2_9 V c, dif_pos hlast2]
    rfl
  rw [e, run2_9_last V c j, LibBlockSum.sum_blocks_of_eq 10 5000 (by decide) (fun r : Fin 50000 => hout2 V c r j * hout2 V c r j)]
  refine Finset.sum_congr rfl fun t _ => ?_
  have ht : t.1 < cfg2.N := by rw [hN]; exact t.2
  unfold part2_9; rw [dif_pos ht]
  refine Finset.sum_congr rfl fun y _ => ?_
  unfold hout2
  rw [hh ⟨t.1, ht⟩ y j]
  rfl

end Cert.KernelIdeal.Val

end
-- ==== Proof.KI.Val2h.lean ====
import proofs.«170818_j15161234555428_1_alg».proof.Proof.KI.Reg2
import Idealize.ShloMosaic.Lib.Pipeline.Value
import Idealize.ShloMosaic.Lib.ValueIdx
import Idealize.ShloMosaic.Lib.Tactic

/-!
# Pipeline 2: the network's rows, from the blocks each point writes back to the whole array

The kernel applies a three-layer network to a block of 5000 rows and adds the last bias; besides two running column sums
it stores the rows themselves, one whole-block store, at every grid point — the first point, which also zeroes the
sums, and every later one alike. The weights and biases (windows 1 … 6) have a single block, the whole array, at every
point; the rows read (window 0) and written (window 7) sit at block `(t, 0)`. The 10 blocks tile the `50000 × 128`
result, so it is ONE function of the arrays read: row `r` of the result is a function of row `r` of the input and of
the weights. The network's arithmetic is kept abstract: a hypothesis says the stored value at an element is a function
`G` of the input row and the weights.
-/

noncomputable section

namespace Cert.KernelIdeal.Val

open Cert.KernelIdeal Cert.KernelIdeal.Gen Cert.KernelIdeal.GenP
open Idealize.ShloMosaic Idealize.ShloMosaic.TcCoe Idealize.SL.Sem Idealize.ShloMosaic.ValueIdx Idealize.ShloMosaic.Tactic
open Idealize.ShloMosaic.Pipeline (Dat)

theorem off_zero2h : (![0, 0] : Fin 2 → Nat) = fun _ => 0 := funext fun a => by fin_cases a <;> rfl

/-! ## What either case leaves in the rows' buffer -/

section Piece
variable {F : FTy → Type} [FloatOps F]

/-- At the first point the body leaves, in the rows' buffer, its one whole-block store: the network's rows of the
    blocks loaded whole. -/
theorem piece2_A_7 (c : Dev nD) (i : grid2.Coords) (arg1 : Memref sig .tc .vmem S5000x256 .f32) (harg1 : arg1.IsWhole) (arg2 : Memref sig .tc .vmem S256x128 .f32) (harg2 : arg2.IsWhole) (arg3 : Memref sig .tc .vmem S1x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S5000x128 .f32) (harg8 : arg8.IsWhole) (arg9 : Memref sig .tc .vmem S1x128 .f32) (harg9 : arg9.IsWhole) (arg10 : Memref sig .tc .vmem S1x128 .f32) (harg10 : arg10.IsWhole) (hc0 : Reg.cond2_0 i)
    (x0 : Vec F S5000x256 .f32) (x1 : Vec F S256x128 .f32) (x2 : Vec F S1x128 .f32) (x3 : Vec F S128x128 .f32) (x4 : Vec F S1x128 .f32) (x5 : Vec F S128x128 .f32) (x6 : Vec F S1x128 .f32) :
    Reg.out2_A_7 c i arg1 harg1 arg2 harg2 arg3 harg3 arg4 harg4 arg5 harg5 arg6 harg6 arg7 harg7 arg8 harg8 arg9 harg9 arg10 harg10 hc0 x0 x1 x2 x3 x4 x5 x6 = k2_pay1 (k2_pay6 x0 x1 x2 x3 x4 x5) x6 := by
  unfold Reg.out2_A_7
  rw [View.read_writes_eq_canon _ _ _ (Reg.cover2_A_7 c i arg1 harg1 arg2 harg2 arg3 harg3 arg4 harg4 arg5 harg5 arg6 harg6 arg7 harg7 arg8 harg8 arg9 harg9 arg10 harg10 hc0 x0 x1 x2 x3 x4 x5 x6)]
  unfold Reg.kernelRun2_A
  dsimp only
  sl_unfold_words
  rw [View.canon_unit_zero off_zero2h]
  simp only [View.readAt_eq_ld, harg1.read_unread, harg2.read_unread, harg3.read_unread, harg4.read_unread, harg5.read_unread, harg6.read_unread, harg7.read_unread,
    View.ld_unit_zero (S := S5000x256) off_zero2h, View.ld_unit_zero (S := S256x128) off_zero2h, View.ld_unit_zero (S := S1x128) off_zero2h, View.ld_unit_zero (S := S128x128) off_zero2h]

/-- At a later point the body leaves the same store, whatever the two running sums held. -/
theorem piece2_B_7 (c : Dev nD) (i : grid2.Coords) (arg1 : Memref sig .tc .vmem S5000x256 .f32) (harg1 : arg1.IsWhole) (arg2 : Memref sig .tc .vmem S256x128 .f32) (harg2 : arg2.IsWhole) (arg3 : Memref sig .tc .vmem S1x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S5000x128 .f32) (harg8 : arg8.IsWhole) (arg9 : Memref sig .tc .vmem S1x128 .f32) (harg9 : arg9.IsWhole) (arg10 : Memref sig .tc .vmem S1x128 .f32) (harg10 : arg10.IsWhole) (hc0 : ¬Reg.cond2_0 i)
    (x0 : Vec F S5000x256 .f32) (x1 : Vec F S256x128 .f32) (x2 : Vec F S1x128 .f32) (x3 : Vec F S128x128 .f32) (x4 : Vec F S1x128 .f32) (x5 : Vec F S128x128 .f32) (x6 : Vec F S1x128 .f32) (xo8 xo9 : Vec F S1x128 .f32) :
    Reg.out2_B_7 c i arg1 harg1 arg2 harg2 arg3 harg3 arg4 harg4 arg5 harg5 arg6 harg6 arg7 harg7 arg8 harg8 arg9 harg9 arg10 harg10 hc0 x0 x1 x2 x3 x4 x5 x6 xo8 xo9 = k2_pay1 (k2_pay6 x0 x1 x2 x3 x4 x5) x6 := by
  unfold Reg.out2_B_7
  rw [View.read_writes_eq_canon _ _ _ (Reg.cover2_B_7 c i arg1 harg1 arg2 harg2 arg3 harg3 arg4 harg4 arg5 harg5 arg6 harg6 arg7 harg7 arg8 harg8 arg9 harg9 arg10 harg10 hc0 x0 x1 x2 x3 x4 x5 x6 xo8 xo9)]
  unfold Reg.kernelRun2_B
  dsimp only
  sl_unfold_words
  rw [View.canon_unit_zero off_zero2h]
  simp only [View.readAt_eq_ld, harg1.read_unread, harg2.read_unread, harg3.read_unread, harg4.read_unread, harg5.read_unread, harg6.read_unread, harg7.read_unread,
    View.ld_unit_zero (S := S5000x256) off_zero2h, View.ld_unit_zero (S := S256x128) off_zero2h, View.ld_unit_zero (S := S1x128) off_zero2h, View.ld_unit_zero (S := S128x128) off_zero2h]

end Piece

variable (V : (c : Dev nD) → (b : Ref sig .tc) → Buf (Elt Ideal) ((c : Thread nD τ).loc b))

/-- After the body at any point the rows' buffer holds the network's rows of the input blocks at that point. -/
theorem after2_7_eq (c : Dev nD) (t : Fin cfg2.N) :
    (Reg.outsAt2 V c t.val t.isLt).1
      = k2_pay1 (k2_pay6 (Reg.iblk2 V c 0 t) (Reg.iblk2 V c 1 t) (Reg.iblk2 V c 2 t) (Reg.iblk2 V c 3 t) (Reg.iblk2 V c 4 t) (Reg.iblk2 V c 5 t)) (Reg.iblk2 V c 6 t) := by
  by_cases h0 : t.val % 10 = 0
  · rw [Reg.outsAt2_A V c t h0]
    dsimp only
    exact piece2_A_7 ..
  · rw [Reg.outsAt2_B V c t h0]
    dsimp only
    exact piece2_B_7 ..

/-! ## The block index maps -/

/-- Over the grid: the rows read and written (windows 0, 7) sit at block `(t, 0)`, the weights and biases
    (windows 1 … 6) at block `(0, 0)`. -/
theorem index2h : ∀ t : Fin cfg2.N,
    (win2_0.index t (0 : Fin 2) = t.val ∧ win2_0.index t (1 : Fin 2) = 0) ∧ (win2_1.index t (0 : Fin 2) = 0 ∧ win2_1.index t (1 : Fin 2) = 0)
    ∧ (win2_2.index t (0 : Fin 2) = 0 ∧ win2_2.index t (1 : Fin 2) = 0) ∧ (win2_3.index t (0 : Fin 2) = 0 ∧ win2_3.index t (1 : Fin 2) = 0)
    ∧ (win2_4.index t (0 : Fin 2) = 0 ∧ win2_4.index t (1 : Fin 2) = 0) ∧ (win2_5.index t (0 : Fin 2) = 0 ∧ win2_5.index t (1 : Fin 2) = 0)
    ∧ (win2_6.index t (0 : Fin 2) = 0 ∧ win2_6.index t (1 : Fin 2) = 0) ∧ (win2_7.index t (0 : Fin 2) = t.val ∧ win2_7.index t (1 : Fin 2) = 0) :=
  (by decide +kernel : ∀ t : Fin grid2.N, _)

/-- Window 1 has one block, the whole array, at every point. -/
theorem blk2h_1 (c : Dev nD) (t : Fin cfg2.N) : Reg.iblk2 V c 1 t = (V c main_arg10 : Vec Ideal S256x128 .f32) := by
  obtain ⟨-, ⟨b10, b11⟩, ⟨b20, b21⟩, ⟨b30, b31⟩, ⟨b40, b41⟩, ⟨b50, b51⟩, ⟨b60, b61⟩, -⟩ := index2h t
  funext y
  show V c main_arg10 (((cfg2.win 1).blk t).view.emb y) = V c main_arg10 y
  refine congrArg _ (funext fun a => Fin.ext ?_)
  match a with
  | ⟨0, _⟩ => show win2_1.index t (0 : Fin 2) * 256 + 1 * (y 0).val = (y 0).val; omega
  | ⟨1, _⟩ => show win2_1.index t (1 : Fin 2) * 128 + 1 * (y 1).val = (y 1).val; omega

/-- Window 2 has one block, the whole array, at every point. -/
theorem blk2h_2 (c : Dev nD) (t : Fin cfg2.N) : Reg.iblk2 V c 2 t = (V c main_v40 : Vec Ideal S1x128 .f32) := by
  obtain ⟨-, ⟨b10, b11⟩, ⟨b20, b21⟩, ⟨b30, b31⟩, ⟨b40, b41⟩, ⟨b50, b51⟩, ⟨b60, b61⟩, -⟩ := index2h t
  funext y
  show V c main_v40 (((cfg2.win 2).blk t).view.emb y) = V c main_v40 y
  refine congrArg _ (funext fun a => Fin.ext ?_)
  match a with
  | ⟨0, _⟩ => show win2_2.index t (0 : Fin 2) * 1 + 1 * (y 0).val = (y 0).val; omega
  | ⟨1, _⟩ => show win2_2.index t (1 : Fin 2) * 128 + 1 * (y 1).val = (y 1).val; omega

/-- Window 3 has one block, the whole array, at every point. -/
theorem blk2h_3 (c : Dev nD) (t : Fin cfg2.N) : Reg.iblk2 V c 3 t = (V c main_arg12 : Vec Ideal S128x128 .f32) := by
  obtain ⟨-, ⟨b10, b11⟩, ⟨b20, b21⟩, ⟨b30, b31⟩, ⟨b40, b41⟩, ⟨b50, b51⟩, ⟨b60, b61⟩, -⟩ := index2h t
  funext y
  show V c main_arg12 (((cfg2.win 3).blk t).view.emb y) = V c main_arg12 y
  refine congrArg _ (funext fun a => Fin.ext ?_)
  match a with
  | ⟨0, _⟩ => show win2_3.index t (0 : Fin 2) * 128 + 1 * (y 0).val = (y 0).val; omega
  | ⟨1, _⟩ => show win2_3.index t (1 : Fin 2) * 128 + 1 * (y 1).val = (y 1).val; omega

/-- Window 4 has one block, the whole array, at every point. -/
theorem blk2h_4 (c : Dev nD) (t : Fin cfg2.N) : Reg.iblk2 V c 4 t = (V c main_v41 : Vec Ideal S1x128 .f32) := by
  obtain ⟨-, ⟨b10, b11⟩, ⟨b20, b21⟩, ⟨b30, b31⟩, ⟨b40, b41⟩, ⟨b50, b51⟩, ⟨b60, b61⟩, -⟩ := index2h t
  funext y
  show V c main_v41 (((cfg2.win 4).blk t).view.emb y) = V c main_v41 y
  refine congrArg _ (funext fun a => Fin.ext ?_)
  match a with
  | ⟨0, _⟩ => show win2_4.index t (0 : Fin 2) * 1 + 1 * (y 0).val = (y 0).val; omega
  | ⟨1, _⟩ => show win2_4.index t (1 : Fin 2) * 128 + 1 * (y 1).val = (y 1).val; omega

/-- Window 5 has one block, the whole array, at every point. -/
theorem blk2h_5 (c : Dev nD) (t : Fin cfg2.N) : Reg.iblk2 V c 5 t = (V c main_arg14 : Vec Ideal S128x128 .f32) := by
  obtain ⟨-, ⟨b10, b11⟩, ⟨b20, b21⟩, ⟨b30, b31⟩, ⟨b40, b41⟩, ⟨b50, b51⟩, ⟨b60, b61⟩, -⟩ := index2h t
  funext y
  show V c main_arg14 (((cfg2.win 5).blk t).view.emb y) = V c main_arg14 y
  refine congrArg _ (funext fun a => Fin.ext ?_)
  match a with
  | ⟨0, _⟩ => show win2_5.index t (0 : Fin 2) * 128 + 1 * (y 0).val = (y 0).val; omega
  | ⟨1, _⟩ => show win2_5.index t (1 : Fin 2) * 128 + 1 * (y 1).val = (y 1).val; omega

/-- Window 6 has one block, the whole array, at every point. -/
theorem blk2h_6 (c : Dev nD) (t : Fin cfg2.N) : Reg.iblk2 V c 6 t = (V c main_v42 : Vec Ideal S1x128 .f32) := by
  obtain ⟨-, ⟨b10, b11⟩, ⟨b20, b21⟩, ⟨b30, b31⟩, ⟨b40, b41⟩, ⟨b50, b51⟩, ⟨b60, b61⟩, -⟩ := index2h t
  funext y
  show V c main_v42 (((cfg2.win 6).blk t).view.emb y) = V c main_v42 y
  refine congrArg _ (funext fun a => Fin.ext ?_)
  match a with
  | ⟨0, _⟩ => show win2_6.index t (0 : Fin 2) * 1 + 1 * (y 0).val = (y 0).val; omega
  | ⟨1, _⟩ => show win2_6.index t (1 : Fin 2) * 128 + 1 * (y 1).val = (y 1).val; omega

/-! ## The rows as one function of the arrays read -/

/-- The array of rows: at row `r`, column `j`, a function `G` of row `r` of the input and of the weights and biases. -/
def rows2_7 (G : (Fin 256 → EReal) → Vec Ideal S256x128 .f32 → Vec Ideal S1x128 .f32 → Vec Ideal S128x128 .f32 → Vec Ideal S1x128 .f32 → Vec Ideal S128x128 .f32 → Vec Ideal S1x128 .f32 → Fin 128 → EReal)
    (a0 : S50000x256.Idx → EReal) (x1 : Vec Ideal S256x128 .f32) (x2 : Vec Ideal S1x128 .f32) (x3 : Vec Ideal S128x128 .f32) (x4 : Vec Ideal S1x128 .f32) (x5 : Vec Ideal S128x128 .f32) (x6 : Vec Ideal S1x128 .f32) : S50000x128.Idx → EReal :=
  fun i => G (fun k => a0 (ix2 (⟨(i 0).val, idx2_lt0 i⟩ : Fin 50000) k)) x1 x2 x3 x4 x5 x6 (⟨(i 1).val, idx2_lt1 i⟩ : Fin 128)

/-- One element of the stored block: if the body's value at `(y, j)` is `G` of row `y` of its input block and of the
    weights, the block's row is the array's row, and the weights' blocks are the arrays, then the stored element is the
    array function's at index `i`. -/
theorem point2_7 (G : (Fin 256 → EReal) → Vec Ideal S256x128 .f32 → Vec Ideal S1x128 .f32 → Vec Ideal S128x128 .f32 → Vec Ideal S1x128 .f32 → Vec Ideal S128x128 .f32 → Vec Ideal S1x128 .f32 → Fin 128 → EReal)
    (hpay : ∀ (x0 : Vec Ideal S5000x256 .f32) (x1 : Vec Ideal S256x128 .f32) (x2 : Vec Ideal S1x128 .f32) (x3 : Vec Ideal S128x128 .f32) (x4 : Vec Ideal S1x128 .f32) (x5 : Vec Ideal S128x128 .f32) (x6 : Vec Ideal S1x128 .f32) (y : Fin 5000) (j : Fin 128),
      k2_pay1 (F := Ideal) (k2_pay6 (F := Ideal) x0 x1 x2 x3 x4 x5) x6 (ix2 y j) = G (fun k => x0 (ix2 y k)) x1 x2 x3 x4 x5 x6 j)
    (x0 : Vec Ideal S5000x256 .f32) (x1 : Vec Ideal S256x128 .f32) (x2 : Vec Ideal S1x128 .f32) (x3 : Vec Ideal S128x128 .f32) (x4 : Vec Ideal S1x128 .f32) (x5 : Vec Ideal S128x128 .f32) (x6 : Vec Ideal S1x128 .f32) (a0 : S50000x256.Idx → EReal)
    (a1 : Vec Ideal S256x128 .f32) (a2 : Vec Ideal S1x128 .f32) (a3 : Vec Ideal S128x128 .f32) (a4 : Vec Ideal S1x128 .f32) (a5 : Vec Ideal S128x128 .f32) (a6 : Vec Ideal S1x128 .f32)
    (y : S5000x128.Idx) (i : S50000x128.Idx) (hcol : (i 1).val = (y 1).val)
    (e0 : ∀ k : Fin 256, x0 (ix2 (⟨(y 0).val, idx2_lt0 y⟩ : Fin 5000) k) = a0 (ix2 (⟨(i 0).val, idx2_lt0 i⟩ : Fin 50000) k))
    (e1 : x1 = a1) (e2 : x2 = a2) (e3 : x3 = a3) (e4 : x4 = a4) (e5 : x5 = a5) (e6 : x6 = a6) :
    k2_pay1 (F := Ideal) (k2_pay6 (F := Ideal) x0 x1 x2 x3 x4 x5) x6 y = rows2_7 G a0 a1 a2 a3 a4 a5 a6 i := by
  subst e1 e2 e3 e4 e5 e6
  obtain ⟨p, q, rfl⟩ : ∃ (p : Fin 5000) (q : Fin 128), y = ix2 p q := ⟨y 0, y 1, eq_ix2 y⟩
  have hq : (⟨(i 1).val, idx2_lt1 i⟩ : Fin 128) = q := Fin.ext hcol
  have hrow : (fun k => x0 (ix2 p k)) = fun k => a0 (ix2 (⟨(i 0).val, idx2_lt0 i⟩ : Fin 50000) k) := funext e0
  unfold rows2_7
  rw [hpay, hq, hrow]

/-- What point `t` writes back to the array of rows is block `t` of the array function. -/
theorem flushed2_7 (G : (Fin 256 → EReal) → Vec Ideal S256x128 .f32 → Vec Ideal S1x128 .f32 → Vec Ideal S128x128 .f32 → Vec Ideal S1x128 .f32 → Vec Ideal S128x128 .f32 → Vec Ideal S1x128 .f32 → Fin 128 → EReal)
    (hpay : ∀ (x0 : Vec Ideal S5000x256 .f32) (x1 : Vec Ideal S256x128 .f32) (x2 : Vec Ideal S1x128 .f32) (x3 : Vec Ideal S128x128 .f32) (x4 : Vec Ideal S1x128 .f32) (x5 : Vec Ideal S128x128 .f32) (x6 : Vec Ideal S1x128 .f32) (y : Fin 5000) (j : Fin 128),
      k2_pay1 (F := Ideal) (k2_pay6 (F := Ideal) x0 x1 x2 x3 x4 x5) x6 (ix2 y j) = G (fun k => x0 (ix2 y k)) x1 x2 x3 x4 x5 x6 j)
    (c : Dev nD) (t : Fin cfg2.N) :
    (Reg.dat2 V c).flushed 7 t = ((cfg2.win 7).blk t).view.read (Elt Ideal) (rows2_7 G (V c main_v39) (V c main_arg10) (V c main_v40) (V c main_arg12) (V c main_v41) (V c main_arg14) (V c main_v42)) := by
  show (cfg2.win 7).cut (grid2.coords t) ((Reg.dat2 V c).after 7 t) = _
  rw [Reg.after2_7, after2_7_eq]
  obtain ⟨⟨b00, b01⟩, -, -, -, -, -, -, ⟨b70, b71⟩⟩ := index2h t
  funext y
  refine point2_7 G hpay _ _ _ _ _ _ _ (V c main_v39) (V c main_arg10) (V c main_v40) (V c main_arg12) (V c main_v41) (V c main_arg14) (V c main_v42) y (((cfg2.win 7).blk t).view.emb y) ?_ ?_
    (blk2h_1 V c t) (blk2h_2 V c t) (blk2h_3 V c t) (blk2h_4 V c t) (blk2h_5 V c t) (blk2h_6 V c t)
  · show win2_7.index t (1 : Fin 2) * 128 + 1 * (y 1).val = (y 1).val; omega
  · intro k
    show V c main_v39 (((cfg2.win 0).blk t).view.emb (ix2 (⟨(y 0).val, idx2_lt0 y⟩ : Fin 5000) k)) = V c main_v39 (ix2 (⟨((((cfg2.win 7).blk t).view.emb y) 0).val, idx2_lt0 _⟩ : Fin 50000) k)
    refine congrArg _ (funext fun a => Fin.ext ?_)
    match a with
    | ⟨0, _⟩ => show win2_0.index t (0 : Fin 2) * 5000 + 1 * (y 0).val = win2_7.index t (0 : Fin 2) * 5000 + 1 * (y 0).val; omega
    | ⟨1, _⟩ => show win2_0.index t (1 : Fin 2) * 256 + 1 * k.val = k.val; omega

/-- An index of the array of rows lies in point `t`'s block iff, on each axis, it lies in the block's range. -/
theorem mem_blk2_7 (t : Fin cfg2.N) (i : S50000x128.Idx) :
    i ∈ ((cfg2.win 7).blk t).view.set ↔ ∀ a : Fin 2, win2_7.index t a * S5000x128.size a ≤ (i a).val ∧ (i a).val < win2_7.index t a * S5000x128.size a + S5000x128.size a := by
  show i ∈ ((View.whole main_v45_0).slice (win2_7.rect t)).set ↔ _
  rw [View.set_slice_whole, Rect.mem_set_unit]
  exact Iff.rfl

/-- Every index of the array of rows lies in the block of a point that writes back: row `r` lies in the block of point `r / 5000`. -/
theorem covered2_7 (i : S50000x128.Idx) : ∃ t : Fin cfg2.N, (cfg2.win 7).flush t = true ∧ i ∈ ((cfg2.win 7).blk t).view.set := by
  have hi0 : (i 0).val < 50000 := idx2_lt0 i
  have hi1 : (i 1).val < 128 := idx2_lt1 i
  have hN : cfg2.N = 10 := N_2
  obtain ⟨t, ht⟩ : ∃ t : Fin cfg2.N, t.val = (i 0).val / 5000 := ⟨⟨(i 0).val / 5000, by rw [hN]; omega⟩, rfl⟩
  obtain ⟨-, -, -, -, -, -, -, ⟨b70, b71⟩⟩ := index2h t
  refine ⟨t, flush2_7 t, ?_⟩
  rw [mem_blk2_7]
  intro a
  match a with
  | ⟨0, _⟩ => show win2_7.index t (0 : Fin 2) * 5000 ≤ (i 0).val ∧ (i 0).val < win2_7.index t (0 : Fin 2) * 5000 + 5000; omega
  | ⟨1, _⟩ => show win2_7.index t (1 : Fin 2) * 128 ≤ (i 1).val ∧ (i 1).val < win2_7.index t (1 : Fin 2) * 128 + 128; omega

/-- The array of rows after the pipeline is the array function of the arrays it read. -/
theorem final2_7 (G : (Fin 256 → EReal) → Vec Ideal S256x128 .f32 → Vec Ideal S1x128 .f32 → Vec Ideal S128x128 .f32 → Vec Ideal S1x128 .f32 → Vec Ideal S128x128 .f32 → Vec Ideal S1x128 .f32 → Fin 128 → EReal)
    (hpay : ∀ (x0 : Vec Ideal S5000x256 .f32) (x1 : Vec Ideal S256x128 .f32) (x2 : Vec Ideal S1x128 .f32) (x3 : Vec Ideal S128x128 .f32) (x4 : Vec Ideal S1x128 .f32) (x5 : Vec Ideal S128x128 .f32) (x6 : Vec Ideal S1x128 .f32) (y : Fin 5000) (j : Fin 128),
      k2_pay1 (F := Ideal) (k2_pay6 (F := Ideal) x0 x1 x2 x3 x4 x5) x6 (ix2 y j) = G (fun k => x0 (ix2 y k)) x1 x2 x3 x4 x5 x6 j)
    (c : Dev nD) :
    (Reg.dat2 V c).arrAt 7 cfg2.N = rows2_7 G (V c main_v39) (V c main_arg10) (V c main_v40) (V c main_arg12) (V c main_v41) (V c main_arg14) (V c main_v42) :=
  (Reg.dat2 V c).arrAt_eq_of_cover 7 _ (fun t _ => flushed2_7 V G hpay c t) covered2_7

/-- The array of rows, element by element. -/
theorem arr2_7_of (G : (Fin 256 → EReal) → Vec Ideal S256x128 .f32 → Vec Ideal S1x128 .f32 → Vec Ideal S128x128 .f32 → Vec Ideal S1x128 .f32 → Vec Ideal S128x128 .f32 → Vec Ideal S1x128 .f32 → Fin 128 → EReal)
    (hpay : ∀ (x0 : Vec Ideal S5000x256 .f32) (x1 : Vec Ideal S256x128 .f32) (x2 : Vec Ideal S1x128 .f32) (x3 : Vec Ideal S128x128 .f32) (x4 : Vec Ideal S1x128 .f32) (x5 : Vec Ideal S128x128 .f32) (x6 : Vec Ideal S1x128 .f32) (y : Fin 5000) (j : Fin 128),
      k2_pay1 (F := Ideal) (k2_pay6 (F := Ideal) x0 x1 x2 x3 x4 x5) x6 (ix2 y j) = G (fun k => x0 (ix2 y k)) x1 x2 x3 x4 x5 x6 j)
    (V : (c : Dev nD) → (b : Ref sig .tc) → Buf (Elt Ideal) ((c : Thread nD τ).loc b)) (c : Dev nD) (r : Fin 50000) (j : Fin 128) :
    (Reg.dat2 V c).arrAt 7 cfg2.N (ix2 r j)
      = G (fun k => V c main_v39 (ix2 r k)) (V c main_arg10) (V c main_v40) (V c main_arg12) (V c main_v41) (V c main_arg14) (V c main_v42) j :=
  congrFun (final2_7 V G hpay c) (ix2 r j)

end Cert.KernelIdeal.Val

end
-- ==== Proof.KI.Val3.lean ====
import proofs.«170818_j15161234555428_1_alg».proof.Proof.KI.Reg3
import Idealize.ShloMosaic.Lib.Pipeline.Value
import Idealize.ShloMosaic.Lib.ValueIdx

/-!
# Pipeline 3: from the blocks each point writes back to the whole result arrays

Each grid point `t` writes back, for rows `5000 t … 5000 t + 4999`, the body's value computed from the row blocks at
the same rows and from the four single rows, which are the same at every point. The 10 blocks tile the
`50000 × 128` result, so the result array is ONE function of the arrays the pipeline read, index by index. The
body's arithmetic is kept abstract: a hypothesis says its value at an element is a function `g` of its blocks'
elements there.
-/

noncomputable section

namespace Cert.KernelIdeal.Val

open Cert.KernelIdeal Cert.KernelIdeal.Gen Cert.KernelIdeal.GenP
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem off_zero3 : (![0, 0] : Fin 2 → Nat) = fun _ => 0 := funext fun a => by fin_cases a <;> rfl

/-- The block index maps over the grid: the row blocks (windows 0, 1, 6, 7) sit at block `(t, 0)`, the single rows
    (windows 2 … 5) at block `(0, 0)`. -/
theorem index3 : ∀ t : Fin cfg3.N,
    (win3_0.index t (0 : Fin 2) = t.val ∧ win3_0.index t (1 : Fin 2) = 0) ∧ (win3_1.index t (0 : Fin 2) = t.val ∧ win3_1.index t (1 : Fin 2) = 0)
    ∧ (win3_2.index t (0 : Fin 2) = 0 ∧ win3_2.index t (1 : Fin 2) = 0) ∧ (win3_3.index t (0 : Fin 2) = 0 ∧ win3_3.index t (1 : Fin 2) = 0)
    ∧ (win3_4.index t (0 : Fin 2) = 0 ∧ win3_4.index t (1 : Fin 2) = 0) ∧ (win3_5.index t (0 : Fin 2) = 0 ∧ win3_5.index t (1 : Fin 2) = 0)
    ∧ (win3_6.index t (0 : Fin 2) = t.val ∧ win3_6.index t (1 : Fin 2) = 0) ∧ (win3_7.index t (0 : Fin 2) = t.val ∧ win3_7.index t (1 : Fin 2) = 0) :=
  (by decide +kernel : ∀ t : Fin grid3.N, _)

/-! ## The residual sum -/

/-- The array `res + y` as one function of the arrays the pipeline reads: at row `r`, column `j`, a function `g` of
    `h r j`, of the four single rows at column `j`, and of `res r j`. -/
def rows3_7 (g : EReal → EReal → EReal → EReal → EReal → EReal → EReal)
    (a0 a1 : S50000x128.Idx → EReal) (a2 a3 a4 a5 : S1x128.Idx → EReal) : S50000x128.Idx → EReal :=
  fun i => g (a0 i) (a2 (ix2 (0 : Fin 1) (⟨(i 1).val, idx2_lt1 i⟩ : Fin 128))) (a3 (ix2 (0 : Fin 1) (⟨(i 1).val, idx2_lt1 i⟩ : Fin 128)))
    (a4 (ix2 (0 : Fin 1) (⟨(i 1).val, idx2_lt1 i⟩ : Fin 128))) (a5 (ix2 (0 : Fin 1) (⟨(i 1).val, idx2_lt1 i⟩ : Fin 128))) (a1 i)

/-- One element of the stored block, as for the normalised rows, with the block of `res` read at the same place. -/
theorem point3_7 (g : EReal → EReal → EReal → EReal → EReal → EReal → EReal)
    (hpay : ∀ (x0 x1 : Vec Ideal S5000x128 .f32) (x2 x3 x4 x5 : Vec Ideal S1x128 .f32) (y : Fin 5000) (j : Fin 128),
      k3_pay2 (F := Ideal) x3 x0 x2 x4 x5 x1 (ix2 y j) = g (x0 (ix2 y j)) (x2 (ix2 0 j)) (x3 (ix2 0 j)) (x4 (ix2 0 j)) (x5 (ix2 0 j)) (x1 (ix2 y j)))
    (x0 x1 : Vec Ideal S5000x128 .f32) (x2 x3 x4 x5 : Vec Ideal S1x128 .f32)
    (a0 a1 : S50000x128.Idx → EReal) (a2 a3 a4 a5 : S1x128.Idx → EReal) (y : S5000x128.Idx) (i : S50000x128.Idx)
    (hcol : (i 1).val = (y 1).val) (e0 : x0 y = a0 i) (e1 : x1 y = a1 i)
    (e2 : ∀ q : Fin 128, x2 (ix2 (0 : Fin 1) q) = a2 (ix2 (0 : Fin 1) q)) (e3 : ∀ q : Fin 128, x3 (ix2 (0 : Fin 1) q) = a3 (ix2 (0 : Fin 1) q))
    (e4 : ∀ q : Fin 128, x4 (ix2 (0 : Fin 1) q) = a4 (ix2 (0 : Fin 1) q)) (e5 : ∀ q : Fin 128, x5 (ix2 (0 : Fin 1) q) = a5 (ix2 (0 : Fin 1) q)) :
    k3_pay2 (F := Ideal) x3 x0 x2 x4 x5 x1 y = rows3_7 g a0 a1 a2 a3 a4 a5 i := by
  obtain ⟨p, q, rfl⟩ : ∃ (p : Fin 5000) (q : Fin 128), y = ix2 p q := ⟨y 0, y 1, eq_ix2 y⟩
  have hq : (⟨(i 1).val, idx2_lt1 i⟩ : Fin 128) = q := Fin.ext hcol
  unfold rows3_7
  rw [hpay, e0, e1, e2, e3, e4, e5, hq]

/-- What point `t` writes back to the array `res + y` is block `t` of the array function. -/
theorem flushed3_7 (g : EReal → EReal → EReal → EReal → EReal → EReal → EReal)
    (hpay : ∀ (x0 x1 : Vec Ideal S5000x128 .f32) (x2 x3 x4 x5 : Vec Ideal S1x128 .f32) (y : Fin 5000) (j : Fin 128),
      k3_pay2 (F := Ideal) x3 x0 x2 x4 x5 x1 (ix2 y j) = g (x0 (ix2 y j)) (x2 (ix2 0 j)) (x3 (ix2 0 j)) (x4 (ix2 0 j)) (x5 (ix2 0 j)) (x1 (ix2 y j)))
    (c : Dev nD) (t : Fin cfg3.N) :
    (Reg.dat3 V c).flushed 7 t = ((cfg3.win 7).blk t).view.read (Elt Ideal) (rows3_7 g (V c main_v45_0) (V c main_arg0) (V c main_v47) (V c main_v51) (V c main_v43) (V c main_v44)) := by
  show (cfg3.win 7).cut (grid3.coords t) ((Reg.dat3 V c).after 7 t) = _
  rw [Reg.after3_7]
  unfold Reg.out3_7
  rw [View.canon_unit_zero off_zero3]
  simp only [View.ld_unit_zero (S := S5000x128) off_zero3, View.ld_unit_zero (S := S1x128) off_zero3]
  obtain ⟨⟨b00, b01⟩, ⟨b10, b11⟩, ⟨b20, b21⟩, ⟨b30, b31⟩, ⟨b40, b41⟩, ⟨b50, b51⟩, ⟨b60, b61⟩, ⟨b70, b71⟩⟩ := index3 t
  funext y
  refine point3_7 g hpay _ _ _ _ _ _ (V c main_v45_0) (V c main_arg0) (V c main_v47) (V c main_v51) (V c main_v43) (V c main_v44) y (((cfg3.win 7).blk t).view.emb y) ?_ ?_ ?_ ?_ ?_ ?_ ?_
  · show win3_7.index t (1 : Fin 2) * 128 + 1 * (y 1).val = (y 1).val; omega
  · show V c main_v45_0 (((cfg3.win 0).blk t).view.emb y) = V c main_v45_0 (((cfg3.win 7).blk t).view.emb y)
    refine congrArg _ (funext fun a => Fin.ext ?_)
    match a with
    | ⟨0, _⟩ => show win3_0.index t (0 : Fin 2) * 5000 + 1 * (y 0).val = win3_7.index t (0 : Fin 2) * 5000 + 1 * (y 0).val; omega
    | ⟨1, _⟩ => show win3_0.index t (1 : Fin 2) * 128 + 1 * (y 1).val = win3_7.index t (1 : Fin 2) * 128 + 1 * (y 1).val; omega
  · show V c main_arg0 (((cfg3.win 1).blk t).view.emb y) = V c main_arg0 (((cfg3.win 7).blk t).view.emb y)
    refine congrArg _ (funext fun a => Fin.ext ?_)
    match a with
    | ⟨0, _⟩ => show win3_1.index t (0 : Fin 2) * 5000 + 1 * (y 0).val = win3_7.index t (0 : Fin 2) * 5000 + 1 * (y 0).val; omega
    | ⟨1, _⟩ => show win3_1.index t (1 : Fin 2) * 128 + 1 * (y 1).val = win3_7.index t (1 : Fin 2) * 128 + 1 * (y 1).val; omega
  · intro q
    show V c main_v47 (((cfg3.win 2).blk t).view.emb (ix2 (0 : Fin 1) q)) = V c main_v47 (ix2 (0 : Fin 1) q)
    refine congrArg _ (funext fun a => Fin.ext ?_)
    match a with
    | ⟨0, _⟩ => show win3_2.index t (0 : Fin 2) * 1 + 1 * 0 = 0; omega
    | ⟨1, _⟩ => show win3_2.index t (1 : Fin 2) * 128 + 1 * q.val = q.val; omega
  · intro q
    show V c main_v51 (((cfg3.win 3).blk t).view.emb (ix2 (0 : Fin 1) q)) = V c main_v51 (ix2 (0 : Fin 1) q)
    refine congrArg _ (funext fun a => Fin.ext ?_)
    match a with
    | ⟨0, _⟩ => show win3_3.index t (0 : Fin 2) * 1 + 1 * 0 = 0; omega
    | ⟨1, _⟩ => show win3_3.index t (1 : Fin 2) * 128 + 1 * q.val = q.val; omega
  · intro q
    show V c main_v43 (((cfg3.win 4).blk t).view.emb (ix2 (0 : Fin 1) q)) = V c main_v43 (ix2 (0 : Fin 1) q)
    refine congrArg _ (funext fun a => Fin.ext ?_)
    match a with
    | ⟨0, _⟩ => show win3_4.index t (0 : Fin 2) * 1 + 1 * 0 = 0; omega
    | ⟨1, _⟩ => show win3_4.index t (1 : Fin 2) * 128 + 1 * q.val = q.val; omega
  · intro q
    show V c main_v44 (((cfg3.win 5).blk t).view.emb (ix2 (0 : Fin 1) q)) = V c main_v44 (ix2 (0 : Fin 1) q)
    refine congrArg _ (funext fun a => Fin.ext ?_)
    match a with
    | ⟨0, _⟩ => show win3_5.index t (0 : Fin 2) * 1 + 1 * 0 = 0; omega
    | ⟨1, _⟩ => show win3_5.index t (1 : Fin 2) * 128 + 1 * q.val = q.val; omega

/-- An index of the result array lies in point `t`'s block iff, on each axis, it lies in the block's range. -/
theorem mem_blk3_7 (t : Fin cfg3.N) (i : S50000x128.Idx) :
    i ∈ ((cfg3.win 7).blk t).view.set ↔ ∀ a : Fin 2, win3_7.index t a * S5000x128.size a ≤ (i a).val ∧ (i a).val < win3_7.index t a * S5000x128.size a + S5000x128.size a := by
  show i ∈ ((View.whole main_v52_1).slice (win3_7.rect t)).set ↔ _
  rw [View.set_slice_whole, Rect.mem_set_unit]
  exact Iff.rfl

/-- Every index of the result array lies in the block of a point that writes back: row `r` lies in the block of point `r / 5000`. -/
theorem covered3_7 (i : S50000x128.Idx) : ∃ t : Fin cfg3.N, (cfg3.win 7).flush t = true ∧ i ∈ ((cfg3.win 7).blk t).view.set := by
  have hi0 : (i 0).val < 50000 := idx2_lt0 i
  have hi1 : (i 1).val < 128 := idx2_lt1 i
  have hN : cfg3.N = 10 := N_3
  obtain ⟨t, ht⟩ : ∃ t : Fin cfg3.N, t.val = (i 0).val / 5000 := ⟨⟨(i 0).val / 5000, by rw [hN]; omega⟩, rfl⟩
  obtain ⟨-, -, -, -, -, -, ⟨b60, b61⟩, ⟨b70, b71⟩⟩ := index3 t
  refine ⟨t, flush3_7 t, ?_⟩
  rw [mem_blk3_7]
  intro a
  match a with
  | ⟨0, _⟩ => show win3_7.index t (0 : Fin 2) * 5000 ≤ (i 0).val ∧ (i 0).val < win3_7.index t (0 : Fin 2) * 5000 + 5000; omega
  | ⟨1, _⟩ => show win3_7.index t (1 : Fin 2) * 128 ≤ (i 1).val ∧ (i 1).val < win3_7.index t (1 : Fin 2) * 128 + 128; omega

/-- The array `res + y` after the pipeline is the array function of the arrays it read. -/
theorem final3_7 (g : EReal → EReal → EReal → EReal → EReal → EReal → EReal)
    (hpay : ∀ (x0 x1 : Vec Ideal S5000x128 .f32) (x2 x3 x4 x5 : Vec Ideal S1x128 .f32) (y : Fin 5000) (j : Fin 128),
      k3_pay2 (F := Ideal) x3 x0 x2 x4 x5 x1 (ix2 y j) = g (x0 (ix2 y j)) (x2 (ix2 0 j)) (x3 (ix2 0 j)) (x4 (ix2 0 j)) (x5 (ix2 0 j)) (x1 (ix2 y j)))
    (c : Dev nD) :
    (Reg.dat3 V c).arrAt 7 cfg3.N = rows3_7 g (V c main_v45_0) (V c main_arg0) (V c main_v47) (V c main_v51) (V c main_v43) (V c main_v44) :=
  (Reg.dat3 V c).arrAt_eq_of_cover 7 _ (fun t _ => flushed3_7 V g hpay c t) covered3_7

/-- The array `res + y`, element by element. -/
theorem arr3_7_of (g : EReal → EReal → EReal → EReal → EReal → EReal → EReal)
    (hpay : ∀ (x0 x1 : Vec Ideal S5000x128 .f32) (x2 x3 x4 x5 : Vec Ideal S1x128 .f32) (y : Fin 5000) (j : Fin 128),
      k3_pay2 (F := Ideal) x3 x0 x2 x4 x5 x1 (ix2 y j) = g (x0 (ix2 y j)) (x2 (ix2 0 j)) (x3 (ix2 0 j)) (x4 (ix2 0 j)) (x5 (ix2 0 j)) (x1 (ix2 y j)))
    (V : (c : Dev nD) → (b : Ref sig .tc) → Buf (Elt Ideal) ((c : Thread nD τ).loc b)) (c : Dev nD) (r : Fin 50000) (j : Fin 128) :
    (Reg.dat3 V c).arrAt 7 cfg3.N (ix2 r j)
      = g (V c main_v45_0 (ix2 r j)) (V c main_v47 (ix2 0 j)) (V c main_v51 (ix2 0 j)) (V c main_v43 (ix2 0 j)) (V c main_v44 (ix2 0 j)) (V c main_arg0 (ix2 r j)) :=
  congrFun (final3_7 V g hpay c) (ix2 r j)

end Cert.KernelIdeal.Val

end
-- ==== Proof.Bridge.NodeRun.lean ====
import proofs.«170818_j15161234555428_1_alg».proof.Proof.Bridge.Node
import proofs.«170818_j15161234555428_1_alg».proof.Proof.Bridge.Setting
import proofs.«170818_j15161234555428_1_alg».proof.Proof.KI.Halves
import proofs.«170818_j15161234555428_1_alg».proof.Proof.KI.Val2
import proofs.«170818_j15161234555428_1_alg».proof.Proof.KI.Val2h
import proofs.«170818_j15161234555428_1_alg».proof.Proof.KI.Val3
import proofs.«170818_j15161234555428_1_alg».proof.Proof.MlpKernel
import proofs.«170818_j15161234555428_1_alg».proof.Proof.BnKernel

/-!
# The node half at the run's own data

The readings the node half asks for, at the data the run is made of: the third launch's array of activations is, row
by row, the three-layer network of the rows of its input (each block of rows is the network of the block read at that
point); its two accumulators hold the column sums over all rows; the fourth launch's array is the residual sum, entry
by entry.
-/

set_option maxRecDepth 16384

open scoped BigOperators

noncomputable section

namespace Cert.Bridge

open Cert.KernelIdeal Cert.KernelIdeal.Gen Cert.KernelIdeal.GenP
open Idealize.ShloMosaic Idealize.ShloMosaic.TcCoe Idealize.SL.Sem Idealize.ShloMosaic.ValueIdx
open LibRealClosure (IsReal)

/-- The three-layer network of a row of 256 entries, as a function of the row and of the six parameter arrays. -/
def Gmlp2 (row : Fin 256 → EReal) (x1 : Vec Ideal S256x128 .f32) (x2 : Vec Ideal S1x128 .f32) (x3 : Vec Ideal S128x128 .f32)
    (x4 : Vec Ideal S1x128 .f32) (x5 : Vec Ideal S128x128 .f32) (x6 : Vec Ideal S1x128 .f32) (j : Fin 128) : EReal :=
  Gnn.mlpRow row (fun k k' => x1 (ix2 k k')) (fun k => x2 (ix2 0 k)) (fun k k' => x3 (ix2 k k')) (fun k => x4 (ix2 0 k))
    (fun k k' => x5 (ix2 k k')) (fun k => x6 (ix2 0 k)) j

/-- The third kernel's stored block is that network of the block's rows. -/
theorem Gmlp2_pay (x0 : Vec Ideal S5000x256 .f32) (x1 : Vec Ideal S256x128 .f32) (x2 : Vec Ideal S1x128 .f32)
    (x3 : Vec Ideal S128x128 .f32) (x4 : Vec Ideal S1x128 .f32) (x5 : Vec Ideal S128x128 .f32) (x6 : Vec Ideal S1x128 .f32)
    (y : Fin 5000) (j : Fin 128) :
    k2_pay1 (F := Ideal) (k2_pay6 (F := Ideal) x0 x1 x2 x3 x4 x5) x6 (ix2 y j) = Gmlp2 (fun k => x0 (ix2 y k)) x1 x2 x3 x4 x5 x6 j :=
  Cert.KernelIdeal.MlpValue.pay_h2 x0 x1 x2 x3 x4 x5 x6 y j

variable (V : (c : Dev nD) → (b : Ref sig .tc) → Buf (Elt Ideal) ((c : Thread nD τ).loc b))

set_option maxHeartbeats 2000000 in
/-- The third launch's array of activations at row `r`, lane `j`. -/
theorem run_h27 (c : Dev nD) (r : Fin 50000) (j : Fin 128) :
    ((Reg.dat2 V c).arrAt 7 cfg2.N : S50000x128.Idx → EReal) (ix2 r j)
      = Gnn.mlpRow (fun k : Fin 256 => V c main_v39 (ix2 r k)) (fun k k' => V c main_arg10 (ix2 k k'))
          (fun k => V c main_v40 (ix2 0 k)) (fun k k' => V c main_arg12 (ix2 k k'))
          (fun k => V c main_v41 (ix2 0 k)) (fun k k' => V c main_arg14 (ix2 k k'))
          (fun k => V c main_v42 (ix2 0 k)) j :=
  Cert.KernelIdeal.Val.arr2_7_of Gmlp2 Gmlp2_pay V c r j

set_option maxHeartbeats 2000000 in
/-- Row `y` of the block of the input read at point `t` is row `t * 5000 + y` of the input. -/
theorem blk2_0_apply (c : Dev nD) (t : Fin cfg2.N) (y : Fin 5000) (k : Fin 256) (hr : t.1 * 5000 + y.1 < 50000) :
    (Reg.iblk2 V c 0 t : Vec Ideal S5000x256 .f32) (ix2 y k) = V c main_v39 (ix2 (⟨t.1 * 5000 + y.1, hr⟩ : Fin 50000) k) := by
  obtain ⟨⟨b00, b01⟩, -⟩ := Cert.KernelIdeal.Val.index2h t
  show V c main_v39 (((cfg2.win 0).blk t).view.emb (ix2 y k)) = _
  refine congrArg _ (funext fun a => Fin.ext ?_)
  match a with
  | ⟨0, _⟩ => show win2_0.index t (0 : Fin 2) * 5000 + 1 * y.val = t.1 * 5000 + y.1; omega
  | ⟨1, _⟩ => show win2_0.index t (1 : Fin 2) * 256 + 1 * k.val = k.val; omega

set_option maxHeartbeats 2000000 in
/-- The rows of block `t` of the third launch's array are the block the body stored at point `t`. -/
theorem run_hh2 (c : Dev nD) (t : Fin cfg2.N) (y : Fin 5000) (j : Fin 128) (hr : t.1 * 5000 + y.1 < 50000) :
    (Reg.dat2 V c).arrAt 7 cfg2.N (ix2 (⟨t.1 * 5000 + y.1, hr⟩ : Fin 50000) j)
      = k2_pay1 (F := Ideal) (k2_pay6 (F := Ideal) (Reg.iblk2 V c 0 t) (Reg.iblk2 V c 1 t) (Reg.iblk2 V c 2 t) (Reg.iblk2 V c 3 t) (Reg.iblk2 V c 4 t) (Reg.iblk2 V c 5 t)) (Reg.iblk2 V c 6 t) (ix2 y j) := by
  rw [Cert.KernelIdeal.Val.arr2_7_of Gmlp2 Gmlp2_pay V c ⟨_, hr⟩ j, Gmlp2_pay]
  rw [Cert.KernelIdeal.Val.blk2h_1 V c t, Cert.KernelIdeal.Val.blk2h_2 V c t, Cert.KernelIdeal.Val.blk2h_3 V c t,
    Cert.KernelIdeal.Val.blk2h_4 V c t, Cert.KernelIdeal.Val.blk2h_5 V c t, Cert.KernelIdeal.Val.blk2h_6 V c t]
  simp only [blk2_0_apply V c t y _ hr]

variable (m : (ℓ : Loc nD τ sig) → Buf (Elt Ideal) ℓ) (c : Dev nD)

set_option maxHeartbeats 4000000 in
/-- The fourth launch's array of residual sums (the node result) is the node features plus the reference's normalised
    node activations, given that the second launch's normalised edge activations are the reference's and are reals. -/
theorem node_out (hR : RealArgs m c)
    (hy : @Eq (FVec Ideal S640000x128 .f32) (((Run.half1 (F := Ideal)).dat (Run.V3 m Run.half0) c).arrAt 6 cfg1.N) (Y m c))
    (hyr : ∀ i, IsReal (Y m c i)) :
    @Eq (FVec Ideal S50000x128 .f32)
      (((Run.half3 (F := Ideal)).dat (Run.V7 m Run.half0 Run.half1 Run.half2) c).arrAt 7 cfg3.N)
      (addf (F := Ideal) (φ := .f32) (A0 m c) (Y2 m c)) :=
  node_core m c Run.half0 Run.half1 Run.half2 Run.half3
    (A0 m c) (A2 m c) (A10 m c) (A11 m c) (A12 m c) (A13 m c) (A14 m c) (A15 m c) (A18 m c) (A19 m c)
    rfl rfl rfl rfl rfl rfl rfl rfl rfl rfl
    (Y m c) hy hyr hR.h0 hR.h10 hR.h11 hR.h12 hR.h13 hR.h14 hR.h15
    _ _ _ _ _ rfl rfl rfl rfl rfl
    (run_h27 (Run.V5 m Run.half0 Run.half1) c)
    (Cert.KernelIdeal.Val.arr2_8_of (Run.V5 m Run.half0 Run.half1) c (run_hh2 (Run.V5 m Run.half0 Run.half1) c))
    (Cert.KernelIdeal.Val.arr2_9_of (Run.V5 m Run.half0 Run.half1) c (run_hh2 (Run.V5 m Run.half0 Run.half1) c))
    (fun r j => Cert.KernelIdeal.Val.arr3_7_of (fun h mu v g b res => res + Gnn.bn h mu v g b)
      (fun x0 x1 x2 x3 x4 x5 y j => k3_pay2_apply x3 x0 x2 x4 x5 x1 y j)
      (Run.V7 m Run.half0 Run.half1 Run.half2) c r j)

end Cert.Bridge

end
-- ==== Proof.Bridge.Algebraic.lean ====
/-
  The value claim. Both programs are run from memories that agree on the arguments. The kernel program's run names its
  two results as the final arrays of the regions that write them; the reference's run names its two results as stage
  functions composed over its arguments. Under the precondition every float argument's entries are reals, and then the
  edge half and the node half of the bridge identify the kernel's two arrays with exactly those compositions, taken at the
  kernel's arguments; the agreement of the memories carries them to the reference's.
-/
import proofs.«170818_j15161234555428_1_alg».proof.Defs
import proofs.«170818_j15161234555428_1_alg».proof.Proof.KI.Halves
import proofs.«170818_j15161234555428_1_alg».proof.Proof.Ref.Stages
import proofs.«170818_j15161234555428_1_alg».proof.Proof.Bridge.Setting
import proofs.«170818_j15161234555428_1_alg».proof.Proof.Bridge.EdgeOut
import proofs.«170818_j15161234555428_1_alg».proof.Proof.Bridge.NodeRun
set_option maxRecDepth 16384

noncomputable section

namespace Cert.Bridge

open Cert.KernelIdeal Idealize.ShloMosaic Idealize.ShloMosaic.TcCoe Idealize.SL.Sem LibRealClosure
open Cert.KernelIdeal.Run (half0 half1 half2 half3)

/-- The two programs end with equal results, given the two halves of the bridge. -/
theorem algebraic_of
    (edge_out : ∀ (m : (ℓ : Loc nD τ sig) → Buf (Elt Ideal) ℓ) (c : Dev nD), RealArgs m c →
      @Eq (FVec Ideal S640000x128 .f32) (((Run.half1 (F := Ideal)).dat (Run.V3 m Run.half0) c).arrAt 7 cfg1.N) (addf (F := Ideal) (φ := .f32) (A1 m c) (Y m c)))
    (node_out : ∀ (m : (ℓ : Loc nD τ sig) → Buf (Elt Ideal) ℓ) (c : Dev nD), RealArgs m c →
      @Eq (FVec Ideal S50000x128 .f32) (((Run.half3 (F := Ideal)).dat (Run.V7 m Run.half0 Run.half1 Run.half2) c).arrAt 7 cfg3.N) (addf (F := Ideal) (φ := .f32) (A0 m c) (Y2 m c))) :
    Cert.algebraic_KernelIdeal_ReferenceIdeal := by
  intro m ρ m' ρ' hpre hagree
  have hra : ∀ c, RealArgs m c := fun c => realArgs_of_pre m c hpre
  refine ⟨fun c => ((Run.half3 (F := Ideal)).dat (Run.V7 m Run.half0 Run.half1 Run.half2) c).arrAt 7 cfg3.N,
    fun c => ((Run.half1 (F := Ideal)).dat (Run.V3 m Run.half0) c).arrAt 7 cfg1.N,
    Run.values_of m Run.half0 Run.half1 Run.half2 Run.half3 ρ, ?_⟩
  refine (θ_run Cert.ReferenceIdeal.defs _ _).mono (fun r h c => ⟨(h c).1.trans ?_, (h c).2.1.trans ?_, (h c).2.2⟩)
    (Cert.ReferenceIdeal.RefRun.run (F := Ideal) m' ρ')
  all_goals
    obtain ⟨e0, e1, e2, e3, e4, e5, e6, e7, e8, e9, e10, e11, e12, e13, e14, e15, e16, e17, e18, e19⟩ := hagree c
    have g0 : StableHlo.launchContents m' c (Proc.devRef .tc Cert.ReferenceIdeal.main_arg0) = A0 m c := e0
    have g1 : StableHlo.launchContents m' c (Proc.devRef .tc Cert.ReferenceIdeal.main_arg1) = A1 m c := e1
    have g2 : StableHlo.launchContents m' c (Proc.devRef .tc Cert.ReferenceIdeal.main_arg2) = A2 m c := e2
    have g3 : StableHlo.launchContents m' c (Proc.devRef .tc Cert.ReferenceIdeal.main_arg3) = A3 m c := e3
    have g4 : StableHlo.launchContents m' c (Proc.devRef .tc Cert.ReferenceIdeal.main_arg4) = A4 m c := e4
    have g5 : StableHlo.launchContents m' c (Proc.devRef .tc Cert.ReferenceIdeal.main_arg5) = A5 m c := e5
    have g6 : StableHlo.launchContents m' c (Proc.devRef .tc Cert.ReferenceIdeal.main_arg6) = A6 m c := e6
    have g7 : StableHlo.launchContents m' c (Proc.devRef .tc Cert.ReferenceIdeal.main_arg7) = A7 m c := e7
    have g8 : StableHlo.launchContents m' c (Proc.devRef .tc Cert.ReferenceIdeal.main_arg8) = A8 m c := e8
    have g9 : StableHlo.launchContents m' c (Proc.devRef .tc Cert.ReferenceIdeal.main_arg9) = A9 m c := e9
    have g10 : StableHlo.launchContents m' c (Proc.devRef .tc Cert.ReferenceIdeal.main_arg10) = A10 m c := e10
    have g11 : StableHlo.launchContents m' c (Proc.devRef .tc Cert.ReferenceIdeal.main_arg11) = A11 m c := e11
    have g12 : StableHlo.launchContents m' c (Proc.devRef .tc Cert.ReferenceIdeal.main_arg12) = A12 m c := e12
    have g13 : StableHlo.launchContents m' c (Proc.devRef .tc Cert.ReferenceIdeal.main_arg13) = A13 m c := e13
    have g14 : StableHlo.launchContents m' c (Proc.devRef .tc Cert.ReferenceIdeal.main_arg14) = A14 m c := e14
    have g15 : StableHlo.launchContents m' c (Proc.devRef .tc Cert.ReferenceIdeal.main_arg15) = A15 m c := e15
    have g16 : StableHlo.launchContents m' c (Proc.devRef .tc Cert.ReferenceIdeal.main_arg16) = A16 m c := e16
    have g17 : StableHlo.launchContents m' c (Proc.devRef .tc Cert.ReferenceIdeal.main_arg17) = A17 m c := e17
    have g18 : StableHlo.launchContents m' c (Proc.devRef .tc Cert.ReferenceIdeal.main_arg18) = A18 m c := e18
    have g19 : StableHlo.launchContents m' c (Proc.devRef .tc Cert.ReferenceIdeal.main_arg19) = A19 m c := e19
  · rw [Cert.ReferenceIdeal.RefRun.result_v106 (StableHlo.launchContents m' c), g0, g1, g2, g3, g4, g5, g6, g7, g8, g9, g10, g11, g12, g13, g14, g15, g16, g17, g18, g19]
    exact (node_out m c (hra c)).symm
  · rw [Cert.ReferenceIdeal.RefRun.result_v54 (StableHlo.launchContents m' c), g0, g1, g2, g3, g4, g5, g6, g7, g8, g9, g16, g17]
    exact (edge_out m c (hra c)).symm

/-- The idealized kernel program and the idealized reference, run from memories agreeing on the arguments, both end,
    with equal results. -/
theorem algebraic : Cert.algebraic_KernelIdeal_ReferenceIdeal :=
  algebraic_of (fun m c h => edge_out m c h) (fun m c h => node_out m c h (edge_y m c h) (edge_y_real m c h))

end Cert.Bridge

end
-- ==== Proof.lean ====
/-
  The certificate of a message-passing layer of a graph network: per edge, a three-layer network with leaky rectifiers
  applied to the two end nodes' features and the edge's own, batch-normalised over all edges and added to the edge
  features; per node, the mean of the normalised edge values over the edges that name the node, joined with the node's
  features, through a second such network, batch-normalised over all nodes and added to the node features.

  The kernel program computes each network row block by row block in a pipelined region that also accumulates the
  columns' sums and sums of squares over the grid, derives the mean and the variance as the second moment minus the squared
  mean on the host, and normalises in a second region; the reference computes the variance as the mean of the squared
  centred entries. On the extended reals the two programs agree wherever the arguments are finite: the networks' rows are
  the same sums, the accumulated sums are the sums over all rows in another order, and for real entries the two spellings
  of the variance are one number. Gather, concatenation and the scatter-mean are the same host operations on both sides
  and are carried as one function, opened only to see that they map reals to reals.

  The three frames: both kernel programs run as a chain of four host stretches and four regions, each region's body
  obligation proved from the kernel's run; the reference is a straight line of host operations.
-/
import proofs.«170818_j15161234555428_1_alg».proof.Defs
import proofs.«170818_j15161234555428_1_alg».proof.Proof.Gen.Kernel
import proofs.«170818_j15161234555428_1_alg».proof.Proof.Gen.KernelIdeal
import proofs.«170818_j15161234555428_1_alg».proof.Proof.Gen.ReferenceIdeal
import proofs.«170818_j15161234555428_1_alg».proof.Proof.Gen.Pre_finite_inputs
import proofs.«170818_j15161234555428_1_alg».proof.Proof.K.Halves
import proofs.«170818_j15161234555428_1_alg».proof.Proof.KI.Halves
import proofs.«170818_j15161234555428_1_alg».proof.Proof.Ref.Frame
import proofs.«170818_j15161234555428_1_alg».proof.Proof.Bridge.Algebraic
import Idealize.ShloMosaic.Adequacy
import Idealize.ShloMosaic.Init

noncomputable section

namespace Cert.Proof

open Idealize.ShloMosaic Idealize.SL.Sem

/-- The kernel program as printed runs to the end, faults nowhere and leaves its arguments as launched. -/
theorem frame_kernel : Cert.frame_Kernel := fun m ρ _ =>
  Cert.Kernel.Run.frame_of m Cert.Kernel.Run.half0 Cert.Kernel.Run.half1 Cert.Kernel.Run.half2 Cert.Kernel.Run.half3 ρ

/-- So does its idealization: the same text read on the extended reals. -/
theorem frame_kernelIdeal : Cert.frame_KernelIdeal := fun m ρ _ =>
  Cert.KernelIdeal.Run.frame_of m Cert.KernelIdeal.Run.half0 Cert.KernelIdeal.Run.half1 Cert.KernelIdeal.Run.half2 Cert.KernelIdeal.Run.half3 ρ

theorem claim : Cert.Claim :=
  ⟨Cert.Kernel.Gen.facts, Cert.KernelIdeal.Gen.facts, Cert.ReferenceIdeal.Gen.facts, Cert.Pre_finite_inputs.Gen.facts,
    frame_kernel, frame_kernelIdeal, Cert.ReferenceIdeal.RefRun.frame_ri, trivial, Cert.Bridge.algebraic⟩

end Cert.Proof

end
